-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v297) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S200000x64 : Shape := ⟨2, ![200000, 64]⟩
abbrev S2x2000000 : Shape := ⟨2, ![2, 2000000]⟩
abbrev S128x64 : Shape := ⟨2, ![128, 64]⟩
abbrev S64 : Shape := ⟨1, ![64]⟩
abbrev S64x64 : Shape := ⟨2, ![64, 64]⟩
abbrev S2x64x64 : Shape := ⟨3, ![2, 64, 64]⟩
abbrev S2x64 : Shape := ⟨2, ![2, 64]⟩
abbrev S64x32 : Shape := ⟨2, ![64, 32]⟩
abbrev S32 : Shape := ⟨1, ![32]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S200000x64 : S_.BroadcastsInDim S200000x64 (![] : Fin 0 → Fin S200000x64.rank)
  reducesTo_S200000x64_S_d0_1 : S200000x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S2x2000000 : S_.BroadcastsInDim S2x2000000 (![] : Fin 0 → Fin S2x2000000.rank)
  reducesTo_S2x2000000_S_d0_1 : S2x2000000.ReducesTo [0, 1] S_

variable [Facts]

def fn_part5 {F : FTy → Type} [FloatOps F] (main_v80 : IVec S_ 1) (main_v83 : IVec S_ 1) : IVec S_ 1 :=
  let main_v84 : IVec S_ 1 := andi main_v80 main_v83
  main_v84

def fn_part4 {F : FTy → Type} [FloatOps F] (main_arg2 : IVec S2x2000000 32) (main_arg3 : IVec S2x2000000 32) (main_v63 : IVec S_ 1) (main_v67 : IVec S_ 1) : IVec S_ 1 :=
  let main_v68 : IVec S_ 1 := andi main_v63 main_v67
  let main_c_26 : IVec S_ 32 := constantI S_ 32 0#32
  let main_v69 : IVec S2x2000000 32 := broadcastInDim S2x2000000 ![] bcast_S_S2x2000000 main_c_26
  let main_v70 : IVec S2x2000000 1 := cmpi .sge main_arg2 main_v69
  let main_c_27 : IVec S_ 1 := constantI S_ 1 1#1
  let main_v71 : IVec S_ 1 := (fun x v => Host.reduce IntOp.andi x v reducesTo_S2x2000000_S_d0_1 h_S_) main_v70 main_c_27
  let main_v72 : IVec S_ 1 := andi main_v68 main_v71
  let main_c_28 : IVec S_ 32 := constantI S_ 32 200000#32
  let main_v73 : IVec S2x2000000 32 := broadcastInDim S2x2000000 ![] bcast_S_S2x2000000 main_c_28
  let main_v74 : IVec S2x2000000 1 := cmpi .slt main_arg2 main_v73
  let main_c_29 : IVec S_ 1 := constantI S_ 1 1#1
  let main_v75 : IVec S_ 1 := (fun x v => Host.reduce IntOp.andi x v reducesTo_S2x2000000_S_d0_1 h_S_) main_v74 main_c_29
  let main_v76 : IVec S_ 1 := andi main_v72 main_v75
  let main_c_30 : IVec S_ 32 := constantI S_ 32 0#32
  let main_v77 : IVec S2x2000000 32 := broadcastInDim S2x2000000 ![] bcast_S_S2x2000000 main_c_30
  let main_v78 : IVec S2x2000000 1 := cmpi .sge main_arg3 main_v77
  let main_c_31 : IVec S_ 1 := constantI S_ 1 1#1
  let main_v79 : IVec S_ 1 := (fun x v => Host.reduce IntOp.andi x v reducesTo_S2x2000000_S_d0_1 h_S_) main_v78 main_c_31
  let main_v80 : IVec S_ 1 := andi main_v76 main_v79
  let main_c_32 : IVec S_ 32 := constantI S_ 32 200000#32
  let main_v81 : IVec S2x2000000 32 := broadcastInDim S2x2000000 ![] bcast_S_S2x2000000 main_c_32
  let main_v82 : IVec S2x2000000 1 := cmpi .slt main_arg3 main_v81
  let main_c_33 : IVec S_ 1 := constantI S_ 1 1#1
  let main_v83 : IVec S_ 1 := (fun x v => Host.reduce IntOp.andi x v reducesTo_S2x2000000_S_d0_1 h_S_) main_v82 main_c_33
  fn_part5 (F := F) main_v80 main_v83

def fn_part3 {F : FTy → Type} [FloatOps F] (main_arg2 : IVec S2x2000000 32) (main_arg3 : IVec S2x2000000 32) (main_arg13 : FVec F S2x64 .f32) (main_arg14 : FVec F S64x32 .f32) (main_arg15 : FVec F S32 .f32) (main_v48 : IVec S_ 1) (main_v49 : FVec F S2x64 .f32) (main_v50 : FVec F S2x64 .f32) : IVec S_ 1 :=
  let main_v51 : IVec S2x64 1 := cmpf .olt main_v49 main_v50
  let main_c_19 : IVec S_ 1 := constantI S_ 1 1#1
  let main_v52 : IVec S_ 1 := (fun x v => Host.reduce IntOp.andi x v reducesTo_S2x64_S_d0_1 h_S_) main_v51 main_c_19
  let main_v53 : IVec S_ 1 := andi main_v48 main_v52
  let main_v54 : FVec F S2x64 .f32 := Host.absf main_arg13
  let main_cst_20 : FVec F S_ .f32 := constant S_ .f32 0x7F800000#32
  let main_v55 : FVec F S2x64 .f32 := broadcastInDim S2x64 ![] bcast_S_S2x64 main_cst_20
  let main_v56 : IVec S2x64 1 := cmpf .olt main_v54 main_v55
  let main_c_21 : IVec S_ 1 := constantI S_ 1 1#1
  let main_v57 : IVec S_ 1 := (fun x v => Host.reduce IntOp.andi x v reducesTo_S2x64_S_d0_1 h_S_) main_v56 main_c_21
  let main_v58 : IVec S_ 1 := andi main_v53 main_v57
  let main_v59 : FVec F S64x32 .f32 := Host.absf main_arg14
  let main_cst_22 : FVec F S_ .f32 := constant S_ .f32 0x7F800000#32
  let main_v60 : FVec F S64x32 .f32 := broadcastInDim S64x32 ![] bcast_S_S64x32 main_cst_22
  let main_v61 : IVec S64x32 1 := cmpf .olt main_v59 main_v60
  let main_c_23 : IVec S_ 1 := constantI S_ 1 1#1
  let main_v62 : IVec S_ 1 := (fun x v => Host.reduce IntOp.andi x v reducesTo_S64x32_S_d0_1 h_S_) main_v61 main_c_23
  let main_v63 : IVec S_ 1 := andi main_v58 main_v62
  let main_v64 : FVec F S32 .f32 := Host.absf main_arg15
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg2 main_arg3 main_v63 main_v67

def fn_part2 {F : FTy → Type} [FloatOps F] (main_arg2 : IVec S2x2000000 32) (main_arg3 : IVec S2x2000000 32) (main_arg9 : FVec F S2x64 .f32) (main_arg10 : FVec F S2x64 .f32) (main_arg11 : FVec F S2x64 .f32) (main_arg12 : FVec F S2x64 .f32) (main_arg13 : FVec F S2x64 .f32) (main_arg14 : FVec F S64x32 .f32) (main_arg15 : FVec F S32 .f32) (main_v33 : IVec S_ 1) : IVec S_ 1 :=
  let main_v34 : FVec F S2x64 .f32 := Host.absf main_arg9
  let main_cst_12 : FVec F S_ .f32 := constant S_ .f32 0x7F800000#32
  let main_v35 : FVec F S2x64 .f32 := broadcastInDim S2x64 ![] bcast_S_S2x64 main_cst_12
  let main_v36 : IVec S2x64 1 := cmpf .olt main_v34 main_v35
  let main_c_13 : IVec S_ 1 := constantI S_ 1 1#1
  let main_v37 : IVec S_ 1 := (fun x v => Host.reduce IntOp.andi x v reducesTo_S2x64_S_d0_1 h_S_) main_v36 main_c_13
  let main_v38 : IVec S_ 1 := andi main_v33 main_v37
  let main_v39 : FVec F S2x64 .f32 := Host.absf main_arg10
  let main_cst_14 : FVec F S_ .f32 := constant S_ .f32 0x7F800000#32
  let main_v40 : FVec F S2x64 .f32 := broadcastInDim S2x64 ![] bcast_S_S2x64 main_cst_14
  let main_v41 : IVec S2x64 1 := cmpf .olt main_v39 main_v40
  let main_c_15 : IVec S_ 1 := constantI S_ 1 1#1
  let main_v42 : IVec S_ 1 := (fun x v => Host.reduce IntOp.andi x v reducesTo_S2x64_S_d0_1 h_S_) main_v41 main_c_15
  let main_v43 : IVec S_ 1 := andi main_v38 main_v42
  let main_v44 : FVec F S2x64 .f32 := Host.absf main_arg11
  let main_cst_16 : FVec F S_ .f32 := constant S_ .f32 0x7F800000#32
  let main_v45 : FVec F S2x64 .f32 := broadcastInDim S2x64 ![] bcast_S_S2x64 main_cst_16
  let main_v46 : IVec S2x64 1 := cmpf .olt main_v44 main_v45
  let main_c_17 : IVec S_ 1 := constantI S_ 1 1#1
  let main_v47 : IVec S_ 1 := (fun x v => Host.reduce IntOp.andi x v reducesTo_S2x64_S_d0_1 h_S_) main_v46 main_c_17
  let main_v48 : IVec S_ 1 := andi main_v43 main_v47
  let main_v49 : FVec F S2x64 .f32 := Host.absf main_arg12
  let main_cst_18 : FVec F S_ .f32 := constant S_ .f32 0x7F800000#32
  let main_v50 : FVec F S2x64 .f32 := broadcastInDim S2x64 ![] bcast_S_S2x64 main_cst_18
  fn_part3 (F := F) main_arg2 main_arg3 main_arg13 main_arg14 main_arg15 main_v48 main_v49 main_v50

def fn_part1 {F : FTy → Type} [FloatOps F] (main_arg2 : IVec S2x2000000 32) (main_arg3 : IVec S2x2000000 32) (main_arg6 : FVec F S64x64 .f32) (main_arg7 : FVec F S64 .f32) (main_arg8 : FVec F S2x64x64 .f32) (main_arg9 : FVec F S2x64 .f32) (main_arg10 : FVec F S2x64 .f32) (main_arg11 : FVec F S2x64 .f32) (main_arg12 : FVec F S2x64 .f32) (main_arg13 : FVec F S2x64 .f32) (main_arg14 : FVec F S64x32 .f32) (main_arg15 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S2x64x64 .f32 := Host.absf main_arg8
  let main_cst_10 : FVec F S_ .f32 := constant S_ .f32 0x7F800000#32
  let main_v30 : FVec F S2x64x64 .f32 := broadcastInDim S2x64x64 ![] bcast_S_S2x64x64 main_cst_10
  let main_v31 : IVec S2x64x64 1 := cmpf .olt main_v29 main_v30
  let main_c_11 : IVec S_ 1 := constantI S_ 1 1#1
  let main_v32 : IVec S_ 1 := (fun x v => Host.reduce IntOp.andi x v reducesTo_S2x64x64_S_d0_1_2 h_S_) main_v31 main_c_11
  let main_v33 : IVec S_ 1 := andi main_v28 main_v32
  fn_part2 (F := F) main_arg2 main_arg3 main_arg9 main_arg10 main_arg11 main_arg12 main_arg13 main_arg14 main_arg15 main_v33

def fn {F : FTy → Type} [FloatOps F] (main_arg0 : FVec F S200000x128 .f32) (main_arg1 : FVec F S200000x64 .f32) (main_arg2 : IVec S2x2000000 32) (main_arg3 : IVec S2x2000000 32) (main_arg4 : FVec F S128x64 .f32) (main_arg5 : FVec F S64 .f32) (main_arg6 : FVec F S64x64 .f32) (main_arg7 : FVec F S64 .f32) (main_arg8 : FVec F S2x64x64 .f32) (main_arg9 : FVec F S2x64 .f32) (main_arg10 : FVec F S2x64 .f32) (main_arg11 : FVec F S2x64 .f32) (main_arg12 : FVec F S2x64 .f32) (main_arg13 : FVec F S2x64 .f32) (main_arg14 : FVec F S64x32 .f32) (main_arg15 : FVec F S32 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S200000x64 .f32 := Host.absf main_arg1
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg3 main_arg6 main_arg7 main_arg8 main_arg9 main_arg10 main_arg11 main_arg12 main_arg13 main_arg14 main_arg15 main_v13 main_v16
-- ==== Kernel.lean ====
abbrev S200000x128 : Shape := ⟨2, ![200000, 128]⟩
abbrev S200000x64 : Shape := ⟨2, ![200000, 64]⟩
abbrev S2x2000000 : Shape := ⟨2, ![2, 2000000]⟩
abbrev S128x64 : Shape := ⟨2, ![128, 64]⟩
abbrev S64 : Shape := ⟨1, ![64]⟩
abbrev S64x64 : Shape := ⟨2, ![64, 64]⟩
abbrev S2x64x64 : Shape := ⟨3, ![2, 64, 64]⟩
abbrev S2x64 : Shape := ⟨2, ![2, 64]⟩
abbrev S64x32 : Shape := ⟨2, ![64, 32]⟩
abbrev S32 : Shape := ⟨1, ![32]⟩
abbrev S1x2000000 : Shape := ⟨2, ![1, 2000000]⟩
abbrev S2000000 : Shape := ⟨1, ![2000000]⟩
abbrev S5000x128 : Shape := ⟨2, ![5000, 128]⟩
abbrev S5000x64 : Shape := ⟨2, ![5000, 64]⟩
abbrev S1x64 : Shape := ⟨2, ![1, 64]⟩
abbrev S1x64x64 : Shape := ⟨3, ![1, 64, 64]⟩
abbrev S200000x1 : Shape := ⟨2, ![200000, 1]⟩
abbrev S5000x1 : Shape := ⟨2, ![5000, 1]⟩
abbrev S5000 : Shape := ⟨1, ![5000]⟩
abbrev S_ : Shape := ⟨0, ![]⟩
abbrev S2000000x1 : Shape := ⟨2, ![2000000, 1]⟩
abbrev S1 : Shape := ⟨1, ![1]⟩
abbrev S1x1 : Shape := ⟨2, ![1, 1]⟩
abbrev S2000000x64 : Shape := ⟨2, ![2000000, 64]⟩
abbrev S200000x32 : Shape := ⟨2, ![200000, 32]⟩
abbrev S5000x32 : Shape := ⟨2, ![5000, 32]⟩
abbrev S1x32 : Shape := ⟨2, ![1, 32]⟩

abbrev nBuf : Space → Nat
  | .hbm => 403
  | .vmem => 166
  | .smem => 0
  | _ => 0

abbrev hbmTy0_0 (i : Nat) : BufTy := match i % 128 with
  | 0 => ⟨S200000x128, .f32⟩
  | 1 => ⟨S200000x64, .f32⟩
  | 2 => ⟨S2x2000000, .i32⟩
  | 3 => ⟨S2x2000000, .i32⟩
  | 4 => ⟨S128x64, .f32⟩
  | 5 => ⟨S64, .f32⟩
  | 6 => ⟨S64x64, .f32⟩
  | 7 => ⟨S64, .f32⟩
  | 8 => ⟨S2x64x64, .f32⟩
  | 9 => ⟨S2x64, .f32⟩
  | 10 => ⟨S2x64, .f32⟩
  | 11 => ⟨S2x64, .f32⟩
  | 12 => ⟨S2x64, .f32⟩
  | 13 => ⟨S2x64, .f32⟩
  | 14 => ⟨S64x32, .f32⟩
  | 15 => ⟨S32, .f32⟩
  | 16 => ⟨S1x2000000, .i32⟩
  | 17 => ⟨S2000000, .i32⟩
  | 18 => ⟨S1x2000000, .i32⟩
  | 19 => ⟨S2000000, .i32⟩
  | 20 => ⟨S1x2000000, .i32⟩
  | 21 => ⟨S2000000, .i32⟩
  | 22 => ⟨S1x2000000, .i32⟩
  | 23 => ⟨S2000000, .i32⟩
  | 24 => ⟨S200000x64, .f32⟩
  | 25 => ⟨S200000x64, .f32⟩
  | 26 => ⟨S1x64x64, .f32⟩
  | 27 => ⟨S64x64, .f32⟩
  | 28 => ⟨S1x64, .f32⟩
  | 29 => ⟨S64, .f32⟩
  | 30 => ⟨S200000x64, .f32⟩
  | 31 => ⟨S1x64x64, .f32⟩
  | 32 => ⟨S64x64, .f32⟩
  | 33 => ⟨S1x64, .f32⟩
  | 34 => ⟨S64, .f32⟩
  | 35 => ⟨S200000x64, .f32⟩
  | 36 => ⟨S1x64, .f32⟩
  | 37 => ⟨S64, .f32⟩
  | 38 => ⟨S1x64, .f32⟩
  | 39 => ⟨S64, .f32⟩
  | 40 => ⟨S1x64, .f32⟩
  | 41 => ⟨S64, .f32⟩
  | 42 => ⟨S200000x1, .f32⟩
  | 43 => ⟨S200000x1, .f32⟩
  | 44 => ⟨S200000x1, .f32⟩
  | 45 => ⟨S1x64, .f32⟩
  | 46 => ⟨S64, .f32⟩
  | 47 => ⟨S1x64, .f32⟩
  | 48 => ⟨S64, .f32⟩
  | 49 => ⟨S1x64, .f32⟩
  | 50 => ⟨S64, .f32⟩
  | 51 => ⟨S200000x1, .f32⟩
  | 52 => ⟨S200000x1, .f32⟩
  | 53 => ⟨S200000x1, .f32⟩
  | 54 => ⟨S_, .i32⟩
  | 55 => ⟨S2000000, .i32⟩
  | 56 => ⟨S2000000, .i1⟩
  | 57 => ⟨S_, .i32⟩
  | 58 => ⟨S2000000, .i32⟩
  | 59 => ⟨S2000000, .i32⟩
  | 60 => ⟨S2000000, .i32⟩
  | 61 => ⟨S2000000x1, .i32⟩
  | 62 => ⟨S1, .i32⟩
  | 63 => ⟨S_, .i32⟩
  | 64 => ⟨S2000000x1, .i32⟩
  | 65 => ⟨S2000000x1, .i1⟩
  | 66 => ⟨S1x1, .i32⟩
  | 67 => ⟨S2000000x1, .i32⟩
  | 68 => ⟨S2000000x1, .i1⟩
  | 69 => ⟨S2000000x1, .i1⟩
  | 70 => ⟨S_, .i1⟩
  | 71 => ⟨S2000000, .i1⟩
  | 72 => ⟨S2000000x1, .f32⟩
  | 73 => ⟨S2000000x1, .i1⟩
  | 74 => ⟨S_, .f32⟩
  | 75 => ⟨S2000000x1, .f32⟩
  | 76 => ⟨S2000000x1, .f32⟩
  | 77 => ⟨S_, .i32⟩
  | 78 => ⟨S2000000, .i32⟩
  | 79 => ⟨S2000000, .i1⟩
  | 80 => ⟨S_, .i32⟩
  | 81 => ⟨S2000000, .i32⟩
  | 82 => ⟨S2000000, .i32⟩
  | 83 => ⟨S2000000, .i32⟩
  | 84 => ⟨S2000000x1, .i32⟩
  | 85 => ⟨S1, .i32⟩
  | 86 => ⟨S_, .i32⟩
  | 87 => ⟨S2000000x1, .i32⟩
  | 88 => ⟨S2000000x1, .i1⟩
  | 89 => ⟨S1x1, .i32⟩
  | 90 => ⟨S2000000x1, .i32⟩
  | 91 => ⟨S2000000x1, .i1⟩
  | 92 => ⟨S2000000x1, .i1⟩
  | 93 => ⟨S_, .i1⟩
  | 94 => ⟨S2000000, .i1⟩
  | 95 => ⟨S2000000x1, .f32⟩
  | 96 => ⟨S2000000x1, .i1⟩
  | 97 => ⟨S_, .f32⟩
  | 98 => ⟨S2000000x1, .f32⟩
  | 99 => ⟨S2000000x1, .f32⟩
  | 100 => ⟨S_, .i32⟩
  | 101 => ⟨S2000000, .i32⟩
  | 102 => ⟨S2000000, .i1⟩
  | 103 => ⟨S_, .i32⟩
  | 104 => ⟨S2000000, .i32⟩
  | 105 => ⟨S2000000, .i32⟩
  | 106 => ⟨S2000000, .i32⟩
  | 107 => ⟨S2000000x1, .i32⟩
  | 108 => ⟨S1, .i32⟩
  | 109 => ⟨S_, .i32⟩
  | 110 => ⟨S2000000x1, .i32⟩
  | 111 => ⟨S2000000x1, .i1⟩
  | 112 => ⟨S1x1, .i32⟩
  | 113 => ⟨S2000000x1, .i32⟩
  | 114 => ⟨S2000000x1, .i1⟩
  | 115 => ⟨S2000000x1, .i1⟩
  | 116 => ⟨S_, .i1⟩
  | 117 => ⟨S2000000, .i1⟩
  | 118 => ⟨S2000000x64, .f32⟩
  | 119 => ⟨S2000000x64, .i1⟩
  | 120 => ⟨S_, .f32⟩
  | 121 => ⟨S2000000x64, .f32⟩
  | 122 => ⟨S2000000x64, .f32⟩
  | 123 => ⟨S2000000x1, .f32⟩
  | 124 => ⟨S2000000x64, .f32⟩
  | 125 => ⟨S_, .f32⟩
  | 126 => ⟨S200000x1, .f32⟩
  | 127 => ⟨S2000000x1, .i32⟩
  | _ => ⟨S200000x128, .f32⟩

abbrev hbmTy0_1 (i : Nat) : BufTy := match i % 128 with
  | 0 => ⟨S200000x1, .f32⟩
  | 1 => ⟨S_, .f32⟩
  | 2 => ⟨S200000x64, .f32⟩
  | 3 => ⟨S2000000x1, .i32⟩
  | 4 => ⟨S200000x64, .f32⟩
  | 5 => ⟨S200000x64, .f32⟩
  | 6 => ⟨S_, .i32⟩
  | 7 => ⟨S2000000, .i32⟩
  | 8 => ⟨S2000000, .i1⟩
  | 9 => ⟨S_, .i32⟩
  | 10 => ⟨S2000000, .i32⟩
  | 11 => ⟨S2000000, .i32⟩
  | 12 => ⟨S2000000, .i32⟩
  | 13 => ⟨S2000000x1, .i32⟩
  | 14 => ⟨S1, .i32⟩
  | 15 => ⟨S_, .i32⟩
  | 16 => ⟨S2000000x1, .i32⟩
  | 17 => ⟨S2000000x1, .i1⟩
  | 18 => ⟨S1x1, .i32⟩
  | 19 => ⟨S2000000x1, .i32⟩
  | 20 => ⟨S2000000x1, .i1⟩
  | 21 => ⟨S2000000x1, .i1⟩
  | 22 => ⟨S_, .i1⟩
  | 23 => ⟨S2000000, .i1⟩
  | 24 => ⟨S2000000x1, .f32⟩
  | 25 => ⟨S2000000x1, .i1⟩
  | 26 => ⟨S_, .f32⟩
  | 27 => ⟨S2000000x1, .f32⟩
  | 28 => ⟨S2000000x1, .f32⟩
  | 29 => ⟨S_, .i32⟩
  | 30 => ⟨S2000000, .i32⟩
  | 31 => ⟨S2000000, .i1⟩
  | 32 => ⟨S_, .i32⟩
  | 33 => ⟨S2000000, .i32⟩
  | 34 => ⟨S2000000, .i32⟩
  | 35 => ⟨S2000000, .i32⟩
  | 36 => ⟨S2000000x1, .i32⟩
  | 37 => ⟨S1, .i32⟩
  | 38 => ⟨S_, .i32⟩
  | 39 => ⟨S2000000x1, .i32⟩
  | 40 => ⟨S2000000x1, .i1⟩
  | 41 => ⟨S1x1, .i32⟩
  | 42 => ⟨S2000000x1, .i32⟩
  | 43 => ⟨S2000000x1, .i1⟩
  | 44 => ⟨S2000000x1, .i1⟩
  | 45 => ⟨S_, .i1⟩
  | 46 => ⟨S2000000, .i1⟩
  | 47 => ⟨S2000000x1, .f32⟩
  | 48 => ⟨S2000000x1, .i1⟩
  | 49 => ⟨S_, .f32⟩
  | 50 => ⟨S2000000x1, .f32⟩
  | 51 => ⟨S2000000x1, .f32⟩
  | 52 => ⟨S_, .i32⟩
  | 53 => ⟨S2000000, .i32⟩
  | 54 => ⟨S2000000, .i1⟩
  | 55 => ⟨S_, .i32⟩
  | 56 => ⟨S2000000, .i32⟩
  | 57 => ⟨S2000000, .i32⟩
  | 58 => ⟨S2000000, .i32⟩
  | 59 => ⟨S2000000x1, .i32⟩
  | 60 => ⟨S1, .i32⟩
  | 61 => ⟨S_, .i32⟩
  | 62 => ⟨S2000000x1, .i32⟩
  | 63 => ⟨S2000000x1, .i1⟩
  | 64 => ⟨S1x1, .i32⟩
  | 65 => ⟨S2000000x1, .i32⟩
  | 66 => ⟨S2000000x1, .i1⟩
  | 67 => ⟨S2000000x1, .i1⟩
  | 68 => ⟨S_, .i1⟩
  | 69 => ⟨S2000000, .i1⟩
  | 70 => ⟨S2000000x64, .f32⟩
  | 71 => ⟨S2000000x64, .i1⟩
  | 72 => ⟨S_, .f32⟩
  | 73 => ⟨S2000000x64, .f32⟩
  | 74 => ⟨S2000000x64, .f32⟩
  | 75 => ⟨S2000000x1, .f32⟩
  | 76 => ⟨S2000000x64, .f32⟩
  | 77 => ⟨S_, .f32⟩
  | 78 => ⟨S200000x1, .f32⟩
  | 79 => ⟨S2000000x1, .i32⟩
  | 80 => ⟨S200000x1, .f32⟩
  | 81 => ⟨S_, .f32⟩
  | 82 => ⟨S200000x64, .f32⟩
  | 83 => ⟨S2000000x1, .i32⟩
  | 84 => ⟨S200000x64, .f32⟩
  | 85 => ⟨S200000x64, .f32⟩
  | 86 => ⟨S1x64x64, .f32⟩
  | 87 => ⟨S64x64, .f32⟩
  | 88 => ⟨S1x64, .f32⟩
  | 89 => ⟨S64, .f32⟩
  | 90 => ⟨S200000x64, .f32⟩
  | 91 => ⟨S1x64x64, .f32⟩
  | 92 => ⟨S64x64, .f32⟩
  | 93 => ⟨S1x64, .f32⟩
  | 94 => ⟨S64, .f32⟩
  | 95 => ⟨S200000x64, .f32⟩
  | 96 => ⟨S1x64, .f32⟩
  | 97 => ⟨S64, .f32⟩
  | 98 => ⟨S1x64, .f32⟩
  | 99 => ⟨S64, .f32⟩
  | 100 => ⟨S1x64, .f32⟩
  | 101 => ⟨S64, .f32⟩
  | 102 => ⟨S200000x1, .f32⟩
  | 103 => ⟨S200000x1, .f32⟩
  | 104 => ⟨S200000x1, .f32⟩
  | 105 => ⟨S1x64, .f32⟩
  | 106 => ⟨S64, .f32⟩
  | 107 => ⟨S1x64, .f32⟩
  | 108 => ⟨S64, .f32⟩
  | 109 => ⟨S1x64, .f32⟩
  | 110 => ⟨S64, .f32⟩
  | 111 => ⟨S200000x1, .f32⟩
  | 112 => ⟨S200000x1, .f32⟩
  | 113 => ⟨S200000x1, .f32⟩
  | 114 => ⟨S_, .i32⟩
  | 115 => ⟨S2000000, .i32⟩
  | 116 => ⟨S2000000, .i1⟩
  | 117 => ⟨S_, .i32⟩
  | 118 => ⟨S2000000, .i32⟩
  | 119 => ⟨S2000000, .i32⟩
  | 120 => ⟨S2000000, .i32⟩
  | 121 => ⟨S2000000x1, .i32⟩
  | 122 => ⟨S1, .i32⟩
  | 123 => ⟨S_, .i32⟩
  | 124 => ⟨S2000000x1, .i32⟩
  | 125 => ⟨S2000000x1, .i1⟩
  | 126 => ⟨S1x1, .i32⟩
  | 127 => ⟨S2000000x1, .i32⟩
  | _ => ⟨S200000x128, .f32⟩

abbrev hbmTy0_2 (i : Nat) : BufTy := match i % 128 with
  | 0 => ⟨S2000000x1, .i1⟩
  | 1 => ⟨S2000000x1, .i1⟩
  | 2 => ⟨S_, .i1⟩
  | 3 => ⟨S2000000, .i1⟩
  | 4 => ⟨S2000000x1, .f32⟩
  | 5 => ⟨S2000000x1, .i1⟩
  | 6 => ⟨S_, .f32⟩
  | 7 => ⟨S2000000x1, .f32⟩
  | 8 => ⟨S2000000x1, .f32⟩
  | 9 => ⟨S_, .i32⟩
  | 10 => ⟨S2000000, .i32⟩
  | 11 => ⟨S2000000, .i1⟩
  | 12 => ⟨S_, .i32⟩
  | 13 => ⟨S2000000, .i32⟩
  | 14 => ⟨S2000000, .i32⟩
  | 15 => ⟨S2000000, .i32⟩
  | 16 => ⟨S2000000x1, .i32⟩
  | 17 => ⟨S1, .i32⟩
  | 18 => ⟨S_, .i32⟩
  | 19 => ⟨S2000000x1, .i32⟩
  | 20 => ⟨S2000000x1, .i1⟩
  | 21 => ⟨S1x1, .i32⟩
  | 22 => ⟨S2000000x1, .i32⟩
  | 23 => ⟨S2000000x1, .i1⟩
  | 24 => ⟨S2000000x1, .i1⟩
  | 25 => ⟨S_, .i1⟩
  | 26 => ⟨S2000000, .i1⟩
  | 27 => ⟨S2000000x1, .f32⟩
  | 28 => ⟨S2000000x1, .i1⟩
  | 29 => ⟨S_, .f32⟩
  | 30 => ⟨S2000000x1, .f32⟩
  | 31 => ⟨S2000000x1, .f32⟩
  | 32 => ⟨S_, .i32⟩
  | 33 => ⟨S2000000, .i32⟩
  | 34 => ⟨S2000000, .i1⟩
  | 35 => ⟨S_, .i32⟩
  | 36 => ⟨S2000000, .i32⟩
  | 37 => ⟨S2000000, .i32⟩
  | 38 => ⟨S2000000, .i32⟩
  | 39 => ⟨S2000000x1, .i32⟩
  | 40 => ⟨S1, .i32⟩
  | 41 => ⟨S_, .i32⟩
  | 42 => ⟨S2000000x1, .i32⟩
  | 43 => ⟨S2000000x1, .i1⟩
  | 44 => ⟨S1x1, .i32⟩
  | 45 => ⟨S2000000x1, .i32⟩
  | 46 => ⟨S2000000x1, .i1⟩
  | 47 => ⟨S2000000x1, .i1⟩
  | 48 => ⟨S_, .i1⟩
  | 49 => ⟨S2000000, .i1⟩
  | 50 => ⟨S2000000x64, .f32⟩
  | 51 => ⟨S2000000x64, .i1⟩
  | 52 => ⟨S_, .f32⟩
  | 53 => ⟨S2000000x64, .f32⟩
  | 54 => ⟨S2000000x64, .f32⟩
  | 55 => ⟨S2000000x1, .f32⟩
  | 56 => ⟨S2000000x64, .f32⟩
  | 57 => ⟨S_, .f32⟩
  | 58 => ⟨S200000x1, .f32⟩
  | 59 => ⟨S2000000x1, .i32⟩
  | 60 => ⟨S200000x1, .f32⟩
  | 61 => ⟨S_, .f32⟩
  | 62 => ⟨S200000x64, .f32⟩
  | 63 => ⟨S2000000x1, .i32⟩
  | 64 => ⟨S200000x64, .f32⟩
  | 65 => ⟨S200000x64, .f32⟩
  | 66 => ⟨S_, .i32⟩
  | 67 => ⟨S2000000, .i32⟩
  | 68 => ⟨S2000000, .i1⟩
  | 69 => ⟨S_, .i32⟩
  | 70 => ⟨S2000000, .i32⟩
  | 71 => ⟨S2000000, .i32⟩
  | 72 => ⟨S2000000, .i32⟩
  | 73 => ⟨S2000000x1, .i32⟩
  | 74 => ⟨S1, .i32⟩
  | 75 => ⟨S_, .i32⟩
  | 76 => ⟨S2000000x1, .i32⟩
  | 77 => ⟨S2000000x1, .i1⟩
  | 78 => ⟨S1x1, .i32⟩
  | 79 => ⟨S2000000x1, .i32⟩
  | 80 => ⟨S2000000x1, .i1⟩
  | 81 => ⟨S2000000x1, .i1⟩
  | 82 => ⟨S_, .i1⟩
  | 83 => ⟨S2000000, .i1⟩
  | 84 => ⟨S2000000x1, .f32⟩
  | 85 => ⟨S2000000x1, .i1⟩
  | 86 => ⟨S_, .f32⟩
  | 87 => ⟨S2000000x1, .f32⟩
  | 88 => ⟨S2000000x1, .f32⟩
  | 89 => ⟨S_, .i32⟩
  | 90 => ⟨S2000000, .i32⟩
  | 91 => ⟨S2000000, .i1⟩
  | 92 => ⟨S_, .i32⟩
  | 93 => ⟨S2000000, .i32⟩
  | 94 => ⟨S2000000, .i32⟩
  | 95 => ⟨S2000000, .i32⟩
  | 96 => ⟨S2000000x1, .i32⟩
  | 97 => ⟨S1, .i32⟩
  | 98 => ⟨S_, .i32⟩
  | 99 => ⟨S2000000x1, .i32⟩
  | 100 => ⟨S2000000x1, .i1⟩
  | 101 => ⟨S1x1, .i32⟩
  | 102 => ⟨S2000000x1, .i32⟩
  | 103 => ⟨S2000000x1, .i1⟩
  | 104 => ⟨S2000000x1, .i1⟩
  | 105 => ⟨S_, .i1⟩
  | 106 => ⟨S2000000, .i1⟩
  | 107 => ⟨S2000000x1, .f32⟩
  | 108 => ⟨S2000000x1, .i1⟩
  | 109 => ⟨S_, .f32⟩
  | 110 => ⟨S2000000x1, .f32⟩
  | 111 => ⟨S2000000x1, .f32⟩
  | 112 => ⟨S_, .i32⟩
  | 113 => ⟨S2000000, .i32⟩
  | 114 => ⟨S2000000, .i1⟩
  | 115 => ⟨S_, .i32⟩
  | 116 => ⟨S2000000, .i32⟩
  | 117 => ⟨S2000000, .i32⟩
  | 118 => ⟨S2000000, .i32⟩
  | 119 => ⟨S2000000x1, .i32⟩
  | 120 => ⟨S1, .i32⟩
  | 121 => ⟨S_, .i32⟩
  | 122 => ⟨S2000000x1, .i32⟩
  | 123 => ⟨S2000000x1, .i1⟩
  | 124 => ⟨S1x1, .i32⟩
  | 125 => ⟨S2000000x1, .i32⟩
  | 126 => ⟨S2000000x1, .i1⟩
  | 127 => ⟨S2000000x1, .i1⟩
  | _ => ⟨S200000x128, .f32⟩

abbrev hbmTy0_3 (i : Nat) : BufTy := match i % 128 with
  | 0 => ⟨S_, .i1⟩
  | 1 => ⟨S2000000, .i1⟩
  | 2 => ⟨S2000000x64, .f32⟩
  | 3 => ⟨S2000000x64, .i1⟩
  | 4 => ⟨S_, .f32⟩
  | 5 => ⟨S2000000x64, .f32⟩
  | 6 => ⟨S2000000x64, .f32⟩
  | 7 => ⟨S2000000x1, .f32⟩
  | 8 => ⟨S2000000x64, .f32⟩
  | 9 => ⟨S_, .f32⟩
  | 10 => ⟨S200000x1, .f32⟩
  | 11 => ⟨S2000000x1, .i32⟩
  | 12 => ⟨S200000x1, .f32⟩
  | 13 => ⟨S_, .f32⟩
  | 14 => ⟨S200000x64, .f32⟩
  | 15 => ⟨S2000000x1, .i32⟩
  | 16 => ⟨S200000x64, .f32⟩
  | 17 => ⟨S200000x64, .f32⟩
  | 18 => ⟨S200000x32, .f32⟩
  | _ => ⟨S200000x128, .f32⟩

abbrev hbmTy (i : Nat) : BufTy := match i / 128 with
  | 0 => hbmTy0_0 i
  | 1 => hbmTy0_1 i
  | 2 => hbmTy0_2 i
  | 3 => hbmTy0_3 i
  | _ => ⟨S200000x128, .f32⟩

abbrev vmemTy0_0 (i : Nat) : BufTy := match i % 128 with
  | 0 => ⟨S5000x128, .f32⟩
  | 1 => ⟨S5000x128, .f32⟩
  | 2 => ⟨S128x64, .f32⟩
  | 3 => ⟨S64, .f32⟩
  | 4 => ⟨S5000x64, .f32⟩
  | 5 => ⟨S5000x64, .f32⟩
  | 6 => ⟨S5000x64, .f32⟩
  | 7 => ⟨S5000x64, .f32⟩
  | 8 => ⟨S64x64, .f32⟩
  | 9 => ⟨S64, .f32⟩
  | 10 => ⟨S5000x64, .f32⟩
  | 11 => ⟨S5000x64, .f32⟩
  | 12 => ⟨S5000x64, .f32⟩
  | 13 => ⟨S5000x64, .f32⟩
  | 14 => ⟨S64x64, .f32⟩
  | 15 => ⟨S64, .f32⟩
  | 16 => ⟨S5000x64, .f32⟩
  | 17 => ⟨S5000x64, .f32⟩
  | 18 => ⟨S5000x64, .f32⟩
  | 19 => ⟨S5000x64, .f32⟩
  | 20 => ⟨S64x64, .f32⟩
  | 21 => ⟨S64, .f32⟩
  | 22 => ⟨S5000x64, .f32⟩
  | 23 => ⟨S5000x64, .f32⟩
  | 24 => ⟨S5000x64, .f32⟩
  | 25 => ⟨S5000x64, .f32⟩
  | 26 => ⟨S64, .f32⟩
  | 27 => ⟨S64, .f32⟩
  | 28 => ⟨S64, .f32⟩
  | 29 => ⟨S5000x1, .f32⟩
  | 30 => ⟨S5000x1, .f32⟩
  | 31 => ⟨S5000x1, .f32⟩
  | 32 => ⟨S5000x1, .f32⟩
  | 33 => ⟨S5000x1, .f32⟩
  | 34 => ⟨S5000x1, .f32⟩
  | 35 => ⟨S5000x64, .f32⟩
  | 36 => ⟨S5000x64, .f32⟩
  | 37 => ⟨S64, .f32⟩
  | 38 => ⟨S64, .f32⟩
  | 39 => ⟨S64, .f32⟩
  | 40 => ⟨S5000x1, .f32⟩
  | 41 => ⟨S5000x1, .f32⟩
  | 42 => ⟨S5000x1, .f32⟩
  | 43 => ⟨S5000x1, .f32⟩
  | 44 => ⟨S5000x1, .f32⟩
  | 45 => ⟨S5000x1, .f32⟩
  | 46 => ⟨S5000x1, .f32⟩
  | 47 => ⟨S5000x1, .f32⟩
  | 48 => ⟨S5000x1, .f32⟩
  | 49 => ⟨S5000x1, .f32⟩
  | 50 => ⟨S5000x64, .f32⟩
  | 51 => ⟨S5000x64, .f32⟩
  | 52 => ⟨S5000x1, .f32⟩
  | 53 => ⟨S5000x1, .f32⟩
  | 54 => ⟨S5000x64, .f32⟩
  | 55 => ⟨S5000x64, .f32⟩
  | 56 => ⟨S5000x64, .f32⟩
  | 57 => ⟨S5000x64, .f32⟩
  | 58 => ⟨S5000x1, .f32⟩
  | 59 => ⟨S5000x1, .f32⟩
  | 60 => ⟨S5000x1, .f32⟩
  | 61 => ⟨S5000x1, .f32⟩
  | 62 => ⟨S5000x64, .f32⟩
  | 63 => ⟨S5000x64, .f32⟩
  | 64 => ⟨S5000x64, .f32⟩
  | 65 => ⟨S5000x64, .f32⟩
  | 66 => ⟨S5000x1, .f32⟩
  | 67 => ⟨S5000x1, .f32⟩
  | 68 => ⟨S5000x1, .f32⟩
  | 69 => ⟨S5000x1, .f32⟩
  | 70 => ⟨S5000x64, .f32⟩
  | 71 => ⟨S5000x64, .f32⟩
  | 72 => ⟨S5000x1, .f32⟩
  | 73 => ⟨S5000x1, .f32⟩
  | 74 => ⟨S5000x64, .f32⟩
  | 75 => ⟨S5000x64, .f32⟩
  | 76 => ⟨S5000x64, .f32⟩
  | 77 => ⟨S5000x64, .f32⟩
  | 78 => ⟨S5000x1, .f32⟩
  | 79 => ⟨S5000x1, .f32⟩
  | 80 => ⟨S5000x1, .f32⟩
  | 81 => ⟨S5000x1, .f32⟩
  | 82 => ⟨S5000x64, .f32⟩
  | 83 => ⟨S5000x64, .f32⟩
  | 84 => ⟨S5000x64, .f32⟩
  | 85 => ⟨S5000x64, .f32⟩
  | 86 => ⟨S5000x64, .f32⟩
  | 87 => ⟨S5000x64, .f32⟩
  | 88 => ⟨S64x64, .f32⟩
  | 89 => ⟨S64, .f32⟩
  | 90 => ⟨S5000x64, .f32⟩
  | 91 => ⟨S5000x64, .f32⟩
  | 92 => ⟨S5000x64, .f32⟩
  | 93 => ⟨S5000x64, .f32⟩
  | 94 => ⟨S64x64, .f32⟩
  | 95 => ⟨S64, .f32⟩
  | 96 => ⟨S5000x64, .f32⟩
  | 97 => ⟨S5000x64, .f32⟩
  | 98 => ⟨S5000x64, .f32⟩
  | 99 => ⟨S5000x64, .f32⟩
  | 100 => ⟨S64, .f32⟩
  | 101 => ⟨S64, .f32⟩
  | 102 => ⟨S64, .f32⟩
  | 103 => ⟨S5000x1, .f32⟩
  | 104 => ⟨S5000x1, .f32⟩
  | 105 => ⟨S5000x1, .f32⟩
  | 106 => ⟨S5000x1, .f32⟩
  | 107 => ⟨S5000x1, .f32⟩
  | 108 => ⟨S5000x1, .f32⟩
  | 109 => ⟨S5000x64, .f32⟩
  | 110 => ⟨S5000x64, .f32⟩
  | 111 => ⟨S64, .f32⟩
  | 112 => ⟨S64, .f32⟩
  | 113 => ⟨S64, .f32⟩
  | 114 => ⟨S5000x1, .f32⟩
  | 115 => ⟨S5000x1, .f32⟩
  | 116 => ⟨S5000x1, .f32⟩
  | 117 => ⟨S5000x1, .f32⟩
  | 118 => ⟨S5000x1, .f32⟩
  | 119 => ⟨S5000x1, .f32⟩
  | 120 => ⟨S5000x1, .f32⟩
  | 121 => ⟨S5000x1, .f32⟩
  | 122 => ⟨S5000x1, .f32⟩
  | 123 => ⟨S5000x1, .f32⟩
  | 124 => ⟨S5000x64, .f32⟩
  | 125 => ⟨S5000x64, .f32⟩
  | 126 => ⟨S5000x1, .f32⟩
  | 127 => ⟨S5000x1, .f32⟩
  | _ => ⟨S200000x128, .f32⟩

abbrev vmemTy0_1 (i : Nat) : BufTy := match i % 128 with
  | 0 => ⟨S5000x64, .f32⟩
  | 1 => ⟨S5000x64, .f32⟩
  | 2 => ⟨S5000x64, .f32⟩
  | 3 => ⟨S5000x64, .f32⟩
  | 4 => ⟨S5000x1, .f32⟩
  | 5 => ⟨S5000x1, .f32⟩
  | 6 => ⟨S5000x1, .f32⟩
  | 7 => ⟨S5000x1, .f32⟩
  | 8 => ⟨S5000x64, .f32⟩
  | 9 => ⟨S5000x64, .f32⟩
  | 10 => ⟨S5000x64, .f32⟩
  | 11 => ⟨S5000x64, .f32⟩
  | 12 => ⟨S5000x1, .f32⟩
  | 13 => ⟨S5000x1, .f32⟩
  | 14 => ⟨S5000x1, .f32⟩
  | 15 => ⟨S5000x1, .f32⟩
  | 16 => ⟨S5000x64, .f32⟩
  | 17 => ⟨S5000x64, .f32⟩
  | 18 => ⟨S5000x1, .f32⟩
  | 19 => ⟨S5000x1, .f32⟩
  | 20 => ⟨S5000x64, .f32⟩
  | 21 => ⟨S5000x64, .f32⟩
  | 22 => ⟨S5000x64, .f32⟩
  | 23 => ⟨S5000x64, .f32⟩
  | 24 => ⟨S5000x1, .f32⟩
  | 25 => ⟨S5000x1, .f32⟩
  | 26 => ⟨S5000x1, .f32⟩
  | 27 => ⟨S5000x1, .f32⟩
  | 28 => ⟨S5000x64, .f32⟩
  | 29 => ⟨S5000x64, .f32⟩
  | 30 => ⟨S5000x64, .f32⟩
  | 31 => ⟨S5000x64, .f32⟩
  | 32 => ⟨S5000x64, .f32⟩
  | 33 => ⟨S5000x64, .f32⟩
  | 34 => ⟨S64x32, .f32⟩
  | 35 => ⟨S32, .f32⟩
  | 36 => ⟨S5000x32, .f32⟩
  | 37 => ⟨S5000x32, .f32⟩
  | _ => ⟨S200000x128, .f32⟩

abbrev vmemTy (i : Nat) : BufTy := match i / 128 with
  | 0 => vmemTy0_0 i
  | 1 => vmemTy0_1 i
  | _ => ⟨S200000x128, .f32⟩

abbrev bufTy : (tb : Table) → Fin (tcTables nBuf tb) → BufTy
  | .hbm, ⟨i, _⟩ => hbmTy i
  | .local _ .vmem, ⟨i, _⟩ => vmemTy i
  | _, _ => ⟨S200000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 166 → Bool
  | ⟨i, _⟩ => dmaSemScopedAt i

abbrev sig : RefSig :=
  ofTc nBuf bufTy 0 166 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26_0 : Ref sig .tc := ⟨.hbm, 42, rfl⟩
abbrev main_v26_1 : Ref sig .tc := ⟨.hbm, 43, rfl⟩
abbrev main_v26_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33_0 : Ref sig .tc := ⟨.hbm, 51, rfl⟩
abbrev main_v33_1 : Ref sig .tc := ⟨.hbm, 52, rfl⟩
abbrev main_v33_2 : Ref sig .tc := ⟨.hbm, 53, rfl⟩
abbrev main_call0_c : Ref sig .tc := ⟨.hbm, 54, rfl⟩
abbrev main_call0_v0 : Ref sig .tc := ⟨.hbm, 55, rfl⟩
abbrev main_call0_v1 : Ref sig .tc := ⟨.hbm, 56, rfl⟩
abbrev main_call0_c_0 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_c_1 : Ref sig .tc := ⟨.hbm, 62, rfl⟩
abbrev main_call0_c_2 : Ref sig .tc := ⟨.hbm, 63, rfl⟩
abbrev main_call0_v6 : Ref sig .tc := ⟨.hbm, 64, rfl⟩
abbrev main_call0_v7 : Ref sig .tc := ⟨.hbm, 65, rfl⟩
abbrev main_call0_v8 : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_c_3 : Ref sig .tc := ⟨.hbm, 70, rfl⟩
abbrev main_call0_v12 : Ref sig .tc := ⟨.hbm, 71, rfl⟩
abbrev main_call0_v13 : Ref sig .tc := ⟨.hbm, 72, rfl⟩
abbrev main_call0_v14 : Ref sig .tc := ⟨.hbm, 73, rfl⟩
abbrev main_call0_cst : Ref sig .tc := ⟨.hbm, 74, rfl⟩
abbrev main_call0_v15 : Ref sig .tc := ⟨.hbm, 75, rfl⟩
abbrev main_v34 : Ref sig .tc := ⟨.hbm, 76, rfl⟩
abbrev main_call1_c : Ref sig .tc := ⟨.hbm, 77, rfl⟩
abbrev main_call1_v0 : Ref sig .tc := ⟨.hbm, 78, rfl⟩
abbrev main_call1_v1 : Ref sig .tc := ⟨.hbm, 79, rfl⟩
abbrev main_call1_c_0 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_c_1 : Ref sig .tc := ⟨.hbm, 85, rfl⟩
abbrev main_call1_c_2 : Ref sig .tc := ⟨.hbm, 86, rfl⟩
abbrev main_call1_v6 : Ref sig .tc := ⟨.hbm, 87, rfl⟩
abbrev main_call1_v7 : Ref sig .tc := ⟨.hbm, 88, rfl⟩
abbrev main_call1_v8 : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_call1_c_3 : Ref sig .tc := ⟨.hbm, 93, rfl⟩
abbrev main_call1_v12 : Ref sig .tc := ⟨.hbm, 94, rfl⟩
abbrev main_call1_v13 : Ref sig .tc := ⟨.hbm, 95, rfl⟩
abbrev main_call1_v14 : Ref sig .tc := ⟨.hbm, 96, rfl⟩
abbrev main_call1_cst : Ref sig .tc := ⟨.hbm, 97, rfl⟩
abbrev main_call1_v15 : Ref sig .tc := ⟨.hbm, 98, rfl⟩
abbrev main_v35 : Ref sig .tc := ⟨.hbm, 99, rfl⟩
abbrev main_call2_c : Ref sig .tc := ⟨.hbm, 100, rfl⟩
abbrev main_call2_v0 : Ref sig .tc := ⟨.hbm, 101, rfl⟩
abbrev main_call2_v1 : Ref sig .tc := ⟨.hbm, 102, rfl⟩
abbrev main_call2_c_0 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_call2_v5 : Ref sig .tc := ⟨.hbm, 107, rfl⟩
abbrev main_call2_c_1 : Ref sig .tc := ⟨.hbm, 108, rfl⟩
abbrev main_call2_c_2 : Ref sig .tc := ⟨.hbm, 109, rfl⟩
abbrev main_call2_v6 : Ref sig .tc := ⟨.hbm, 110, rfl⟩
abbrev main_call2_v7 : Ref sig .tc := ⟨.hbm, 111, rfl⟩
abbrev main_call2_v8 : Ref sig .tc := ⟨.hbm, 112, rfl⟩
abbrev main_call2_v9 : Ref sig .tc := ⟨.hbm, 113, rfl⟩
abbrev main_call2_v10 : Ref sig .tc := ⟨.hbm, 114, rfl⟩
abbrev main_call2_v11 : Ref sig .tc := ⟨.hbm, 115, rfl⟩
abbrev main_call2_c_3 : Ref sig .tc := ⟨.hbm, 116, rfl⟩
abbrev main_call2_v12 : Ref sig .tc := ⟨.hbm, 117, rfl⟩
abbrev main_call2_v13 : Ref sig .tc := ⟨.hbm, 118, rfl⟩
abbrev main_call2_v14 : Ref sig .tc := ⟨.hbm, 119, rfl⟩
abbrev main_call2_cst : Ref sig .tc := ⟨.hbm, 120, rfl⟩
abbrev main_call2_v15 : Ref sig .tc := ⟨.hbm, 121, rfl⟩
abbrev main_v36 : Ref sig .tc := ⟨.hbm, 122, rfl⟩
abbrev main_v37_0 : Ref sig .tc := ⟨.hbm, 123, rfl⟩
abbrev main_v37_1 : Ref sig .tc := ⟨.hbm, 124, rfl⟩
abbrev main_cst : Ref sig .tc := ⟨.hbm, 125, rfl⟩
abbrev main_v38 : Ref sig .tc := ⟨.hbm, 126, rfl⟩
abbrev main_v39 : Ref sig .tc := ⟨.hbm, 127, rfl⟩
abbrev main_v40 : Ref sig .tc := ⟨.hbm, 128, rfl⟩
abbrev main_cst_0 : Ref sig .tc := ⟨.hbm, 129, rfl⟩
abbrev main_v41 : Ref sig .tc := ⟨.hbm, 130, rfl⟩
abbrev main_v42 : Ref sig .tc := ⟨.hbm, 131, rfl⟩
abbrev main_v43 : Ref sig .tc := ⟨.hbm, 132, rfl⟩
abbrev main_v44 : Ref sig .tc := ⟨.hbm, 133, rfl⟩
abbrev main_call3_c : Ref sig .tc := ⟨.hbm, 134, rfl⟩
abbrev main_call3_v0 : Ref sig .tc := ⟨.hbm, 135, rfl⟩
abbrev main_call3_v1 : Ref sig .tc := ⟨.hbm, 136, rfl⟩
abbrev main_call3_c_0 : Ref sig .tc := ⟨.hbm, 137, rfl⟩
abbrev main_call3_v2 : Ref sig .tc := ⟨.hbm, 138, rfl⟩
abbrev main_call3_v3 : Ref sig .tc := ⟨.hbm, 139, rfl⟩
abbrev main_call3_v4 : Ref sig .tc := ⟨.hbm, 140, rfl⟩
abbrev main_call3_v5 : Ref sig .tc := ⟨.hbm, 141, rfl⟩
abbrev main_call3_c_1 : Ref sig .tc := ⟨.hbm, 142, rfl⟩
abbrev main_call3_c_2 : Ref sig .tc := ⟨.hbm, 143, rfl⟩
abbrev main_call3_v6 : Ref sig .tc := ⟨.hbm, 144, rfl⟩
abbrev main_call3_v7 : Ref sig .tc := ⟨.hbm, 145, rfl⟩
abbrev main_call3_v8 : Ref sig .tc := ⟨.hbm, 146, rfl⟩
abbrev main_call3_v9 : Ref sig .tc := ⟨.hbm, 147, rfl⟩
abbrev main_call3_v10 : Ref sig .tc := ⟨.hbm, 148, rfl⟩
abbrev main_call3_v11 : Ref sig .tc := ⟨.hbm, 149, rfl⟩
abbrev main_call3_c_3 : Ref sig .tc := ⟨.hbm, 150, rfl⟩
abbrev main_call3_v12 : Ref sig .tc := ⟨.hbm, 151, rfl⟩
abbrev main_call3_v13 : Ref sig .tc := ⟨.hbm, 152, rfl⟩
abbrev main_call3_v14 : Ref sig .tc := ⟨.hbm, 153, rfl⟩
abbrev main_call3_cst : Ref sig .tc := ⟨.hbm, 154, rfl⟩
abbrev main_call3_v15 : Ref sig .tc := ⟨.hbm, 155, rfl⟩
abbrev main_v45 : Ref sig .tc := ⟨.hbm, 156, rfl⟩
abbrev main_call4_c : Ref sig .tc := ⟨.hbm, 157, rfl⟩
abbrev main_call4_v0 : Ref sig .tc := ⟨.hbm, 158, rfl⟩
abbrev main_call4_v1 : Ref sig .tc := ⟨.hbm, 159, rfl⟩
abbrev main_call4_c_0 : Ref sig .tc := ⟨.hbm, 160, rfl⟩
abbrev main_call4_v2 : Ref sig .tc := ⟨.hbm, 161, rfl⟩
abbrev main_call4_v3 : Ref sig .tc := ⟨.hbm, 162, rfl⟩
abbrev main_call4_v4 : Ref sig .tc := ⟨.hbm, 163, rfl⟩
abbrev main_call4_v5 : Ref sig .tc := ⟨.hbm, 164, rfl⟩
abbrev main_call4_c_1 : Ref sig .tc := ⟨.hbm, 165, rfl⟩
abbrev main_call4_c_2 : Ref sig .tc := ⟨.hbm, 166, rfl⟩
abbrev main_call4_v6 : Ref sig .tc := ⟨.hbm, 167, rfl⟩
abbrev main_call4_v7 : Ref sig .tc := ⟨.hbm, 168, rfl⟩
abbrev main_call4_v8 : Ref sig .tc := ⟨.hbm, 169, rfl⟩
abbrev main_call4_v9 : Ref sig .tc := ⟨.hbm, 170, rfl⟩
abbrev main_call4_v10 : Ref sig .tc := ⟨.hbm, 171, rfl⟩
abbrev main_call4_v11 : Ref sig .tc := ⟨.hbm, 172, rfl⟩
abbrev main_call4_c_3 : Ref sig .tc := ⟨.hbm, 173, rfl⟩
abbrev main_call4_v12 : Ref sig .tc := ⟨.hbm, 174, rfl⟩
abbrev main_call4_v13 : Ref sig .tc := ⟨.hbm, 175, rfl⟩
abbrev main_call4_v14 : Ref sig .tc := ⟨.hbm, 176, rfl⟩
abbrev main_call4_cst : Ref sig .tc := ⟨.hbm, 177, rfl⟩
abbrev main_call4_v15 : Ref sig .tc := ⟨.hbm, 178, rfl⟩
abbrev main_v46 : Ref sig .tc := ⟨.hbm, 179, rfl⟩
abbrev main_call5_c : Ref sig .tc := ⟨.hbm, 180, rfl⟩
abbrev main_call5_v0 : Ref sig .tc := ⟨.hbm, 181, rfl⟩
abbrev main_call5_v1 : Ref sig .tc := ⟨.hbm, 182, rfl⟩
abbrev main_call5_c_0 : Ref sig .tc := ⟨.hbm, 183, rfl⟩
abbrev main_call5_v2 : Ref sig .tc := ⟨.hbm, 184, rfl⟩
abbrev main_call5_v3 : Ref sig .tc := ⟨.hbm, 185, rfl⟩
abbrev main_call5_v4 : Ref sig .tc := ⟨.hbm, 186, rfl⟩
abbrev main_call5_v5 : Ref sig .tc := ⟨.hbm, 187, rfl⟩
abbrev main_call5_c_1 : Ref sig .tc := ⟨.hbm, 188, rfl⟩
abbrev main_call5_c_2 : Ref sig .tc := ⟨.hbm, 189, rfl⟩
abbrev main_call5_v6 : Ref sig .tc := ⟨.hbm, 190, rfl⟩
abbrev main_call5_v7 : Ref sig .tc := ⟨.hbm, 191, rfl⟩
abbrev main_call5_v8 : Ref sig .tc := ⟨.hbm, 192, rfl⟩
abbrev main_call5_v9 : Ref sig .tc := ⟨.hbm, 193, rfl⟩
abbrev main_call5_v10 : Ref sig .tc := ⟨.hbm, 194, rfl⟩
abbrev main_call5_v11 : Ref sig .tc := ⟨.hbm, 195, rfl⟩
abbrev main_call5_c_3 : Ref sig .tc := ⟨.hbm, 196, rfl⟩
abbrev main_call5_v12 : Ref sig .tc := ⟨.hbm, 197, rfl⟩
abbrev main_call5_v13 : Ref sig .tc := ⟨.hbm, 198, rfl⟩
abbrev main_call5_v14 : Ref sig .tc := ⟨.hbm, 199, rfl⟩
abbrev main_call5_cst : Ref sig .tc := ⟨.hbm, 200, rfl⟩
abbrev main_call5_v15 : Ref sig .tc := ⟨.hbm, 201, rfl⟩
abbrev main_v47 : Ref sig .tc := ⟨.hbm, 202, rfl⟩
abbrev main_v48_0 : Ref sig .tc := ⟨.hbm, 203, rfl⟩
abbrev main_v48_1 : Ref sig .tc := ⟨.hbm, 204, rfl⟩
abbrev main_cst_1 : Ref sig .tc := ⟨.hbm, 205, rfl⟩
abbrev main_v49 : Ref sig .tc := ⟨.hbm, 206, rfl⟩
abbrev main_v50 : Ref sig .tc := ⟨.hbm, 207, rfl⟩
abbrev main_v51 : Ref sig .tc := ⟨.hbm, 208, rfl⟩
abbrev main_cst_2 : Ref sig .tc := ⟨.hbm, 209, rfl⟩
abbrev main_v52 : Ref sig .tc := ⟨.hbm, 210, rfl⟩
abbrev main_v53 : Ref sig .tc := ⟨.hbm, 211, rfl⟩
abbrev main_v54 : Ref sig .tc := ⟨.hbm, 212, rfl⟩
abbrev main_v55 : Ref sig .tc := ⟨.hbm, 213, rfl⟩
abbrev main_v56 : Ref sig .tc := ⟨.hbm, 214, rfl⟩
abbrev main_v57 : Ref sig .tc := ⟨.hbm, 215, rfl⟩
abbrev main_v58 : Ref sig .tc := ⟨.hbm, 216, rfl⟩
abbrev main_v59 : Ref sig .tc := ⟨.hbm, 217, rfl⟩
abbrev main_v60 : Ref sig .tc := ⟨.hbm, 218, rfl⟩
abbrev main_v61 : Ref sig .tc := ⟨.hbm, 219, rfl⟩
abbrev main_v62 : Ref sig .tc := ⟨.hbm, 220, rfl⟩
abbrev main_v63 : Ref sig .tc := ⟨.hbm, 221, rfl⟩
abbrev main_v64 : Ref sig .tc := ⟨.hbm, 222, rfl⟩
abbrev main_v65 : Ref sig .tc := ⟨.hbm, 223, rfl⟩
abbrev main_v66 : Ref sig .tc := ⟨.hbm, 224, rfl⟩
abbrev main_v67 : Ref sig .tc := ⟨.hbm, 225, rfl⟩
abbrev main_v68 : Ref sig .tc := ⟨.hbm, 226, rfl⟩
abbrev main_v69 : Ref sig .tc := ⟨.hbm, 227, rfl⟩
abbrev main_v70 : Ref sig .tc := ⟨.hbm, 228, rfl⟩
abbrev main_v71 : Ref sig .tc := ⟨.hbm, 229, rfl⟩
abbrev main_v72_0 : Ref sig .tc := ⟨.hbm, 230, rfl⟩
abbrev main_v72_1 : Ref sig .tc := ⟨.hbm, 231, rfl⟩
abbrev main_v72_2 : Ref sig .tc := ⟨.hbm, 232, rfl⟩
abbrev main_v73 : Ref sig .tc := ⟨.hbm, 233, rfl⟩
abbrev main_v74 : Ref sig .tc := ⟨.hbm, 234, rfl⟩
abbrev main_v75 : Ref sig .tc := ⟨.hbm, 235, rfl⟩
abbrev main_v76 : Ref sig .tc := ⟨.hbm, 236, rfl⟩
abbrev main_v77 : Ref sig .tc := ⟨.hbm, 237, rfl⟩
abbrev main_v78 : Ref sig .tc := ⟨.hbm, 238, rfl⟩
abbrev main_v79_0 : Ref sig .tc := ⟨.hbm, 239, rfl⟩
abbrev main_v79_1 : Ref sig .tc := ⟨.hbm, 240, rfl⟩
abbrev main_v79_2 : Ref sig .tc := ⟨.hbm, 241, rfl⟩
abbrev main_call6_c : Ref sig .tc := ⟨.hbm, 242, rfl⟩
abbrev main_call6_v0 : Ref sig .tc := ⟨.hbm, 243, rfl⟩
abbrev main_call6_v1 : Ref sig .tc := ⟨.hbm, 244, rfl⟩
abbrev main_call6_c_0 : Ref sig .tc := ⟨.hbm, 245, rfl⟩
abbrev main_call6_v2 : Ref sig .tc := ⟨.hbm, 246, rfl⟩
abbrev main_call6_v3 : Ref sig .tc := ⟨.hbm, 247, rfl⟩
abbrev main_call6_v4 : Ref sig .tc := ⟨.hbm, 248, rfl⟩
abbrev main_call6_v5 : Ref sig .tc := ⟨.hbm, 249, rfl⟩
abbrev main_call6_c_1 : Ref sig .tc := ⟨.hbm, 250, rfl⟩
abbrev main_call6_c_2 : Ref sig .tc := ⟨.hbm, 251, rfl⟩
abbrev main_call6_v6 : Ref sig .tc := ⟨.hbm, 252, rfl⟩
abbrev main_call6_v7 : Ref sig .tc := ⟨.hbm, 253, rfl⟩
abbrev main_call6_v8 : Ref sig .tc := ⟨.hbm, 254, rfl⟩
abbrev main_call6_v9 : Ref sig .tc := ⟨.hbm, 255, rfl⟩
abbrev main_call6_v10 : Ref sig .tc := ⟨.hbm, 256, rfl⟩
abbrev main_call6_v11 : Ref sig .tc := ⟨.hbm, 257, rfl⟩
abbrev main_call6_c_3 : Ref sig .tc := ⟨.hbm, 258, rfl⟩
abbrev main_call6_v12 : Ref sig .tc := ⟨.hbm, 259, rfl⟩
abbrev main_call6_v13 : Ref sig .tc := ⟨.hbm, 260, rfl⟩
abbrev main_call6_v14 : Ref sig .tc := ⟨.hbm, 261, rfl⟩
abbrev main_call6_cst : Ref sig .tc := ⟨.hbm, 262, rfl⟩
abbrev main_call6_v15 : Ref sig .tc := ⟨.hbm, 263, rfl⟩
abbrev main_v80 : Ref sig .tc := ⟨.hbm, 264, rfl⟩
abbrev main_call7_c : Ref sig .tc := ⟨.hbm, 265, rfl⟩
abbrev main_call7_v0 : Ref sig .tc := ⟨.hbm, 266, rfl⟩
abbrev main_call7_v1 : Ref sig .tc := ⟨.hbm, 267, rfl⟩
abbrev main_call7_c_0 : Ref sig .tc := ⟨.hbm, 268, rfl⟩
abbrev main_call7_v2 : Ref sig .tc := ⟨.hbm, 269, rfl⟩
abbrev main_call7_v3 : Ref sig .tc := ⟨.hbm, 270, rfl⟩
abbrev main_call7_v4 : Ref sig .tc := ⟨.hbm, 271, rfl⟩
abbrev main_call7_v5 : Ref sig .tc := ⟨.hbm, 272, rfl⟩
abbrev main_call7_c_1 : Ref sig .tc := ⟨.hbm, 273, rfl⟩
abbrev main_call7_c_2 : Ref sig .tc := ⟨.hbm, 274, rfl⟩
abbrev main_call7_v6 : Ref sig .tc := ⟨.hbm, 275, rfl⟩
abbrev main_call7_v7 : Ref sig .tc := ⟨.hbm, 276, rfl⟩
abbrev main_call7_v8 : Ref sig .tc := ⟨.hbm, 277, rfl⟩
abbrev main_call7_v9 : Ref sig .tc := ⟨.hbm, 278, rfl⟩
abbrev main_call7_v10 : Ref sig .tc := ⟨.hbm, 279, rfl⟩
abbrev main_call7_v11 : Ref sig .tc := ⟨.hbm, 280, rfl⟩
abbrev main_call7_c_3 : Ref sig .tc := ⟨.hbm, 281, rfl⟩
abbrev main_call7_v12 : Ref sig .tc := ⟨.hbm, 282, rfl⟩
abbrev main_call7_v13 : Ref sig .tc := ⟨.hbm, 283, rfl⟩
abbrev main_call7_v14 : Ref sig .tc := ⟨.hbm, 284, rfl⟩
abbrev main_call7_cst : Ref sig .tc := ⟨.hbm, 285, rfl⟩
abbrev main_call7_v15 : Ref sig .tc := ⟨.hbm, 286, rfl⟩
abbrev main_v81 : Ref sig .tc := ⟨.hbm, 287, rfl⟩
abbrev main_call8_c : Ref sig .tc := ⟨.hbm, 288, rfl⟩
abbrev main_call8_v0 : Ref sig .tc := ⟨.hbm, 289, rfl⟩
abbrev main_call8_v1 : Ref sig .tc := ⟨.hbm, 290, rfl⟩
abbrev main_call8_c_0 : Ref sig .tc := ⟨.hbm, 291, rfl⟩
abbrev main_call8_v2 : Ref sig .tc := ⟨.hbm, 292, rfl⟩
abbrev main_call8_v3 : Ref sig .tc := ⟨.hbm, 293, rfl⟩
abbrev main_call8_v4 : Ref sig .tc := ⟨.hbm, 294, rfl⟩
abbrev main_call8_v5 : Ref sig .tc := ⟨.hbm, 295, rfl⟩
abbrev main_call8_c_1 : Ref sig .tc := ⟨.hbm, 296, rfl⟩
abbrev main_call8_c_2 : Ref sig .tc := ⟨.hbm, 297, rfl⟩
abbrev main_call8_v6 : Ref sig .tc := ⟨.hbm, 298, rfl⟩
abbrev main_call8_v7 : Ref sig .tc := ⟨.hbm, 299, rfl⟩
abbrev main_call8_v8 : Ref sig .tc := ⟨.hbm, 300, rfl⟩
abbrev main_call8_v9 : Ref sig .tc := ⟨.hbm, 301, rfl⟩
abbrev main_call8_v10 : Ref sig .tc := ⟨.hbm, 302, rfl⟩
abbrev main_call8_v11 : Ref sig .tc := ⟨.hbm, 303, rfl⟩
abbrev main_call8_c_3 : Ref sig .tc := ⟨.hbm, 304, rfl⟩
abbrev main_call8_v12 : Ref sig .tc := ⟨.hbm, 305, rfl⟩
abbrev main_call8_v13 : Ref sig .tc := ⟨.hbm, 306, rfl⟩
abbrev main_call8_v14 : Ref sig .tc := ⟨.hbm, 307, rfl⟩
abbrev main_call8_cst : Ref sig .tc := ⟨.hbm, 308, rfl⟩
abbrev main_call8_v15 : Ref sig .tc := ⟨.hbm, 309, rfl⟩
abbrev main_v82 : Ref sig .tc := ⟨.hbm, 310, rfl⟩
abbrev main_v83_0 : Ref sig .tc := ⟨.hbm, 311, rfl⟩
abbrev main_v83_1 : Ref sig .tc := ⟨.hbm, 312, rfl⟩
abbrev main_cst_3 : Ref sig .tc := ⟨.hbm, 313, rfl⟩
abbrev main_v84 : Ref sig .tc := ⟨.hbm, 314, rfl⟩
abbrev main_v85 : Ref sig .tc := ⟨.hbm, 315, rfl⟩
abbrev main_v86 : Ref sig .tc := ⟨.hbm, 316, rfl⟩
abbrev main_cst_4 : Ref sig .tc := ⟨.hbm, 317, rfl⟩
abbrev main_v87 : Ref sig .tc := ⟨.hbm, 318, rfl⟩
abbrev main_v88 : Ref sig .tc := ⟨.hbm, 319, rfl⟩
abbrev main_v89 : Ref sig .tc := ⟨.hbm, 320, rfl⟩
abbrev main_v90 : Ref sig .tc := ⟨.hbm, 321, rfl⟩
abbrev main_call9_c : Ref sig .tc := ⟨.hbm, 322, rfl⟩
abbrev main_call9_v0 : Ref sig .tc := ⟨.hbm, 323, rfl⟩
abbrev main_call9_v1 : Ref sig .tc := ⟨.hbm, 324, rfl⟩
abbrev main_call9_c_0 : Ref sig .tc := ⟨.hbm, 325, rfl⟩
abbrev main_call9_v2 : Ref sig .tc := ⟨.hbm, 326, rfl⟩
abbrev main_call9_v3 : Ref sig .tc := ⟨.hbm, 327, rfl⟩
abbrev main_call9_v4 : Ref sig .tc := ⟨.hbm, 328, rfl⟩
abbrev main_call9_v5 : Ref sig .tc := ⟨.hbm, 329, rfl⟩
abbrev main_call9_c_1 : Ref sig .tc := ⟨.hbm, 330, rfl⟩
abbrev main_call9_c_2 : Ref sig .tc := ⟨.hbm, 331, rfl⟩
abbrev main_call9_v6 : Ref sig .tc := ⟨.hbm, 332, rfl⟩
abbrev main_call9_v7 : Ref sig .tc := ⟨.hbm, 333, rfl⟩
abbrev main_call9_v8 : Ref sig .tc := ⟨.hbm, 334, rfl⟩
abbrev main_call9_v9 : Ref sig .tc := ⟨.hbm, 335, rfl⟩
abbrev main_call9_v10 : Ref sig .tc := ⟨.hbm, 336, rfl⟩
abbrev main_call9_v11 : Ref sig .tc := ⟨.hbm, 337, rfl⟩
abbrev main_call9_c_3 : Ref sig .tc := ⟨.hbm, 338, rfl⟩
abbrev main_call9_v12 : Ref sig .tc := ⟨.hbm, 339, rfl⟩
abbrev main_call9_v13 : Ref sig .tc := ⟨.hbm, 340, rfl⟩
abbrev main_call9_v14 : Ref sig .tc := ⟨.hbm, 341, rfl⟩
abbrev main_call9_cst : Ref sig .tc := ⟨.hbm, 342, rfl⟩
abbrev main_call9_v15 : Ref sig .tc := ⟨.hbm, 343, rfl⟩
abbrev main_v91 : Ref sig .tc := ⟨.hbm, 344, rfl⟩
abbrev main_call10_c : Ref sig .tc := ⟨.hbm, 345, rfl⟩
abbrev main_call10_v0 : Ref sig .tc := ⟨.hbm, 346, rfl⟩
abbrev main_call10_v1 : Ref sig .tc := ⟨.hbm, 347, rfl⟩
abbrev main_call10_c_0 : Ref sig .tc := ⟨.hbm, 348, rfl⟩
abbrev main_call10_v2 : Ref sig .tc := ⟨.hbm, 349, rfl⟩
abbrev main_call10_v3 : Ref sig .tc := ⟨.hbm, 350, rfl⟩
abbrev main_call10_v4 : Ref sig .tc := ⟨.hbm, 351, rfl⟩
abbrev main_call10_v5 : Ref sig .tc := ⟨.hbm, 352, rfl⟩
abbrev main_call10_c_1 : Ref sig .tc := ⟨.hbm, 353, rfl⟩
abbrev main_call10_c_2 : Ref sig .tc := ⟨.hbm, 354, rfl⟩
abbrev main_call10_v6 : Ref sig .tc := ⟨.hbm, 355, rfl⟩
abbrev main_call10_v7 : Ref sig .tc := ⟨.hbm, 356, rfl⟩
abbrev main_call10_v8 : Ref sig .tc := ⟨.hbm, 357, rfl⟩
abbrev main_call10_v9 : Ref sig .tc := ⟨.hbm, 358, rfl⟩
abbrev main_call10_v10 : Ref sig .tc := ⟨.hbm, 359, rfl⟩
abbrev main_call10_v11 : Ref sig .tc := ⟨.hbm, 360, rfl⟩
abbrev main_call10_c_3 : Ref sig .tc := ⟨.hbm, 361, rfl⟩
abbrev main_call10_v12 : Ref sig .tc := ⟨.hbm, 362, rfl⟩
abbrev main_call10_v13 : Ref sig .tc := ⟨.hbm, 363, rfl⟩
abbrev main_call10_v14 : Ref sig .tc := ⟨.hbm, 364, rfl⟩
abbrev main_call10_cst : Ref sig .tc := ⟨.hbm, 365, rfl⟩
abbrev main_call10_v15 : Ref sig .tc := ⟨.hbm, 366, rfl⟩
abbrev main_v92 : Ref sig .tc := ⟨.hbm, 367, rfl⟩
abbrev main_call11_c : Ref sig .tc := ⟨.hbm, 368, rfl⟩
abbrev main_call11_v0 : Ref sig .tc := ⟨.hbm, 369, rfl⟩
abbrev main_call11_v1 : Ref sig .tc := ⟨.hbm, 370, rfl⟩
abbrev main_call11_c_0 : Ref sig .tc := ⟨.hbm, 371, rfl⟩
abbrev main_call11_v2 : Ref sig .tc := ⟨.hbm, 372, rfl⟩
abbrev main_call11_v3 : Ref sig .tc := ⟨.hbm, 373, rfl⟩
abbrev main_call11_v4 : Ref sig .tc := ⟨.hbm, 374, rfl⟩
abbrev main_call11_v5 : Ref sig .tc := ⟨.hbm, 375, rfl⟩
abbrev main_call11_c_1 : Ref sig .tc := ⟨.hbm, 376, rfl⟩
abbrev main_call11_c_2 : Ref sig .tc := ⟨.hbm, 377, rfl⟩
abbrev main_call11_v6 : Ref sig .tc := ⟨.hbm, 378, rfl⟩
abbrev main_call11_v7 : Ref sig .tc := ⟨.hbm, 379, rfl⟩
abbrev main_call11_v8 : Ref sig .tc := ⟨.hbm, 380, rfl⟩
abbrev main_call11_v9 : Ref sig .tc := ⟨.hbm, 381, rfl⟩
abbrev main_call11_v10 : Ref sig .tc := ⟨.hbm, 382, rfl⟩
abbrev main_call11_v11 : Ref sig .tc := ⟨.hbm, 383, rfl⟩
abbrev main_call11_c_3 : Ref sig .tc := ⟨.hbm, 384, rfl⟩
abbrev main_call11_v12 : Ref sig .tc := ⟨.hbm, 385, rfl⟩
abbrev main_call11_v13 : Ref sig .tc := ⟨.hbm, 386, rfl⟩
abbrev main_call11_v14 : Ref sig .tc := ⟨.hbm, 387, rfl⟩
abbrev main_call11_cst : Ref sig .tc := ⟨.hbm, 388, rfl⟩
abbrev main_call11_v15 : Ref sig .tc := ⟨.hbm, 389, rfl⟩
abbrev main_v93 : Ref sig .tc := ⟨.hbm, 390, rfl⟩
abbrev main_v94_0 : Ref sig .tc := ⟨.hbm, 391, rfl⟩
abbrev main_v94_1 : Ref sig .tc := ⟨.hbm, 392, rfl⟩
abbrev main_cst_5 : Ref sig .tc := ⟨.hbm, 393, rfl⟩
abbrev main_v95 : Ref sig .tc := ⟨.hbm, 394, rfl⟩
abbrev main_v96 : Ref sig .tc := ⟨.hbm, 395, rfl⟩
abbrev main_v97 : Ref sig .tc := ⟨.hbm, 396, rfl⟩
abbrev main_cst_6 : Ref sig .tc := ⟨.hbm, 397, rfl⟩
abbrev main_v98 : Ref sig .tc := ⟨.hbm, 398, rfl⟩
abbrev main_v99 : Ref sig .tc := ⟨.hbm, 399, rfl⟩
abbrev main_v100 : Ref sig .tc := ⟨.hbm, 400, rfl⟩
abbrev main_v101 : Ref sig .tc := ⟨.hbm, 401, rfl⟩
abbrev main_v102 : Ref sig .tc := ⟨.hbm, 402, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg4_0 : Ref sig .tc := ⟨.vmem, 29, rfl⟩
abbrev cc4_stg4_1 : Ref sig .tc := ⟨.vmem, 30, rfl⟩
abbrev cc4_stg5_0 : Ref sig .tc := ⟨.vmem, 31, rfl⟩
abbrev cc4_stg5_1 : Ref sig .tc := ⟨.vmem, 32, rfl⟩
abbrev cc4_stg6_0 : Ref sig .tc := ⟨.vmem, 33, rfl⟩
abbrev cc4_stg6_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc5_stg5_0 : Ref sig .tc := ⟨.vmem, 42, rfl⟩
abbrev cc5_stg5_1 : Ref sig .tc := ⟨.vmem, 43, rfl⟩
abbrev cc5_stg6_0 : Ref sig .tc := ⟨.vmem, 44, rfl⟩
abbrev cc5_stg6_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg1_1 : Ref sig .tc := ⟨.vmem, 49, rfl⟩
abbrev cc6_stg2_0 : Ref sig .tc := ⟨.vmem, 50, rfl⟩
abbrev cc6_stg2_1 : Ref sig .tc := ⟨.vmem, 51, rfl⟩
abbrev cc6_stg3_0 : Ref sig .tc := ⟨.vmem, 52, rfl⟩
abbrev cc6_stg3_1 : Ref sig .tc := ⟨.vmem, 53, rfl⟩
abbrev cc6_stg4_0 : Ref sig .tc := ⟨.vmem, 54, rfl⟩
abbrev cc6_stg4_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg1_1 : Ref sig .tc := ⟨.vmem, 59, rfl⟩
abbrev cc7_stg2_0 : Ref sig .tc := ⟨.vmem, 60, rfl⟩
abbrev cc7_stg2_1 : Ref sig .tc := ⟨.vmem, 61, rfl⟩
abbrev cc7_stg3_0 : Ref sig .tc := ⟨.vmem, 62, rfl⟩
abbrev cc7_stg3_1 : Ref sig .tc := ⟨.vmem, 63, rfl⟩
abbrev cc7_stg4_0 : Ref sig .tc := ⟨.vmem, 64, rfl⟩
abbrev cc7_stg4_1 : Ref sig .tc := ⟨.vmem, 65, rfl⟩
abbrev cc8_stg0_0 : Ref sig .tc := ⟨.vmem, 66, rfl⟩
abbrev cc8_stg0_1 : Ref sig .tc := ⟨.vmem, 67, rfl⟩
abbrev cc8_stg1_0 : Ref sig .tc := ⟨.vmem, 68, rfl⟩
abbrev cc8_stg1_1 : Ref sig .tc := ⟨.vmem, 69, rfl⟩
abbrev cc8_stg2_0 : Ref sig .tc := ⟨.vmem, 70, rfl⟩
abbrev cc8_stg2_1 : Ref sig .tc := ⟨.vmem, 71, rfl⟩
abbrev cc8_stg3_0 : Ref sig .tc := ⟨.vmem, 72, rfl⟩
abbrev cc8_stg3_1 : Ref sig .tc := ⟨.vmem, 73, rfl⟩
abbrev cc8_stg4_0 : Ref sig .tc := ⟨.vmem, 74, rfl⟩
abbrev cc8_stg4_1 : Ref sig .tc := ⟨.vmem, 75, rfl⟩
abbrev cc9_stg0_0 : Ref sig .tc := ⟨.vmem, 76, rfl⟩
abbrev cc9_stg0_1 : Ref sig .tc := ⟨.vmem, 77, rfl⟩
abbrev cc9_stg1_0 : Ref sig .tc := ⟨.vmem, 78, rfl⟩
abbrev cc9_stg1_1 : Ref sig .tc := ⟨.vmem, 79, rfl⟩
abbrev cc9_stg2_0 : Ref sig .tc := ⟨.vmem, 80, rfl⟩
abbrev cc9_stg2_1 : Ref sig .tc := ⟨.vmem, 81, rfl⟩
abbrev cc9_stg3_0 : Ref sig .tc := ⟨.vmem, 82, rfl⟩
abbrev cc9_stg3_1 : Ref sig .tc := ⟨.vmem, 83, rfl⟩
abbrev cc9_stg4_0 : Ref sig .tc := ⟨.vmem, 84, rfl⟩
abbrev cc9_stg4_1 : Ref sig .tc := ⟨.vmem, 85, rfl⟩
abbrev cc10_stg0_0 : Ref sig .tc := ⟨.vmem, 86, rfl⟩
abbrev cc10_stg0_1 : Ref sig .tc := ⟨.vmem, 87, rfl⟩
abbrev cc10_stg1_0 : Ref sig .tc := ⟨.vmem, 88, rfl⟩
abbrev cc10_stg2_0 : Ref sig .tc := ⟨.vmem, 89, rfl⟩
abbrev cc10_stg3_0 : Ref sig .tc := ⟨.vmem, 90, rfl⟩
abbrev cc10_stg3_1 : Ref sig .tc := ⟨.vmem, 91, rfl⟩
abbrev cc11_stg0_0 : Ref sig .tc := ⟨.vmem, 92, rfl⟩
abbrev cc11_stg0_1 : Ref sig .tc := ⟨.vmem, 93, rfl⟩
abbrev cc11_stg1_0 : Ref sig .tc := ⟨.vmem, 94, rfl⟩
abbrev cc11_stg2_0 : Ref sig .tc := ⟨.vmem, 95, rfl⟩
abbrev cc11_stg3_0 : Ref sig .tc := ⟨.vmem, 96, rfl⟩
abbrev cc11_stg3_1 : Ref sig .tc := ⟨.vmem, 97, rfl⟩
abbrev cc12_stg0_0 : Ref sig .tc := ⟨.vmem, 98, rfl⟩
abbrev cc12_stg0_1 : Ref sig .tc := ⟨.vmem, 99, rfl⟩
abbrev cc12_stg1_0 : Ref sig .tc := ⟨.vmem, 100, rfl⟩
abbrev cc12_stg2_0 : Ref sig .tc := ⟨.vmem, 101, rfl⟩
abbrev cc12_stg3_0 : Ref sig .tc := ⟨.vmem, 102, rfl⟩
abbrev cc12_stg4_0 : Ref sig .tc := ⟨.vmem, 103, rfl⟩
abbrev cc12_stg4_1 : Ref sig .tc := ⟨.vmem, 104, rfl⟩
abbrev cc12_stg5_0 : Ref sig .tc := ⟨.vmem, 105, rfl⟩
abbrev cc12_stg5_1 : Ref sig .tc := ⟨.vmem, 106, rfl⟩
abbrev cc12_stg6_0 : Ref sig .tc := ⟨.vmem, 107, rfl⟩
abbrev cc12_stg6_1 : Ref sig .tc := ⟨.vmem, 108, rfl⟩
abbrev cc13_stg0_0 : Ref sig .tc := ⟨.vmem, 109, rfl⟩
abbrev cc13_stg0_1 : Ref sig .tc := ⟨.vmem, 110, rfl⟩
abbrev cc13_stg1_0 : Ref sig .tc := ⟨.vmem, 111, rfl⟩
abbrev cc13_stg2_0 : Ref sig .tc := ⟨.vmem, 112, rfl⟩
abbrev cc13_stg3_0 : Ref sig .tc := ⟨.vmem, 113, rfl⟩
abbrev cc13_stg4_0 : Ref sig .tc := ⟨.vmem, 114, rfl⟩
abbrev cc13_stg4_1 : Ref sig .tc := ⟨.vmem, 115, rfl⟩
abbrev cc13_stg5_0 : Ref sig .tc := ⟨.vmem, 116, rfl⟩
abbrev cc13_stg5_1 : Ref sig .tc := ⟨.vmem, 117, rfl⟩
abbrev cc13_stg6_0 : Ref sig .tc := ⟨.vmem, 118, rfl⟩
abbrev cc13_stg6_1 : Ref sig .tc := ⟨.vmem, 119, rfl⟩
abbrev cc14_stg0_0 : Ref sig .tc := ⟨.vmem, 120, rfl⟩
abbrev cc14_stg0_1 : Ref sig .tc := ⟨.vmem, 121, rfl⟩
abbrev cc14_stg1_0 : Ref sig .tc := ⟨.vmem, 122, rfl⟩
abbrev cc14_stg1_1 : Ref sig .tc := ⟨.vmem, 123, rfl⟩
abbrev cc14_stg2_0 : Ref sig .tc := ⟨.vmem, 124, rfl⟩
abbrev cc14_stg2_1 : Ref sig .tc := ⟨.vmem, 125, rfl⟩
abbrev cc14_stg3_0 : Ref sig .tc := ⟨.vmem, 126, rfl⟩
abbrev cc14_stg3_1 : Ref sig .tc := ⟨.vmem, 127, rfl⟩
abbrev cc14_stg4_0 : Ref sig .tc := ⟨.vmem, 128, rfl⟩
abbrev cc14_stg4_1 : Ref sig .tc := ⟨.vmem, 129, rfl⟩
abbrev cc15_stg0_0 : Ref sig .tc := ⟨.vmem, 130, rfl⟩
abbrev cc15_stg0_1 : Ref sig .tc := ⟨.vmem, 131, rfl⟩
abbrev cc15_stg1_0 : Ref sig .tc := ⟨.vmem, 132, rfl⟩
abbrev cc15_stg1_1 : Ref sig .tc := ⟨.vmem, 133, rfl⟩
abbrev cc15_stg2_0 : Ref sig .tc := ⟨.vmem, 134, rfl⟩
abbrev cc15_stg2_1 : Ref sig .tc := ⟨.vmem, 135, rfl⟩
abbrev cc15_stg3_0 : Ref sig .tc := ⟨.vmem, 136, rfl⟩
abbrev cc15_stg3_1 : Ref sig .tc := ⟨.vmem, 137, rfl⟩
abbrev cc15_stg4_0 : Ref sig .tc := ⟨.vmem, 138, rfl⟩
abbrev cc15_stg4_1 : Ref sig .tc := ⟨.vmem, 139, rfl⟩
abbrev cc16_stg0_0 : Ref sig .tc := ⟨.vmem, 140, rfl⟩
abbrev cc16_stg0_1 : Ref sig .tc := ⟨.vmem, 141, rfl⟩
abbrev cc16_stg1_0 : Ref sig .tc := ⟨.vmem, 142, rfl⟩
abbrev cc16_stg1_1 : Ref sig .tc := ⟨.vmem, 143, rfl⟩
abbrev cc16_stg2_0 : Ref sig .tc := ⟨.vmem, 144, rfl⟩
abbrev cc16_stg2_1 : Ref sig .tc := ⟨.vmem, 145, rfl⟩
abbrev cc16_stg3_0 : Ref sig .tc := ⟨.vmem, 146, rfl⟩
abbrev cc16_stg3_1 : Ref sig .tc := ⟨.vmem, 147, rfl⟩
abbrev cc16_stg4_0 : Ref sig .tc := ⟨.vmem, 148, rfl⟩
abbrev cc16_stg4_1 : Ref sig .tc := ⟨.vmem, 149, rfl⟩
abbrev cc17_stg0_0 : Ref sig .tc := ⟨.vmem, 150, rfl⟩
abbrev cc17_stg0_1 : Ref sig .tc := ⟨.vmem, 151, rfl⟩
abbrev cc17_stg1_0 : Ref sig .tc := ⟨.vmem, 152, rfl⟩
abbrev cc17_stg1_1 : Ref sig .tc := ⟨.vmem, 153, rfl⟩
abbrev cc17_stg2_0 : Ref sig .tc := ⟨.vmem, 154, rfl⟩
abbrev cc17_stg2_1 : Ref sig .tc := ⟨.vmem, 155, rfl⟩
abbrev cc17_stg3_0 : Ref sig .tc := ⟨.vmem, 156, rfl⟩
abbrev cc17_stg3_1 : Ref sig .tc := ⟨.vmem, 157, rfl⟩
abbrev cc17_stg4_0 : Ref sig .tc := ⟨.vmem, 158, rfl⟩
abbrev cc17_stg4_1 : Ref sig .tc := ⟨.vmem, 159, rfl⟩
abbrev cc18_stg0_0 : Ref sig .tc := ⟨.vmem, 160, rfl⟩
abbrev cc18_stg0_1 : Ref sig .tc := ⟨.vmem, 161, rfl⟩
abbrev cc18_stg1_0 : Ref sig .tc := ⟨.vmem, 162, rfl⟩
abbrev cc18_stg2_0 : Ref sig .tc := ⟨.vmem, 163, rfl⟩
abbrev cc18_stg3_0 : Ref sig .tc := ⟨.vmem, 164, rfl⟩
abbrev cc18_stg3_1 : Ref sig .tc := ⟨.vmem, 165, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem4_0 : DmaSem sig := 29
abbrev cc4_sem4_1 : DmaSem sig := 30
abbrev cc4_sem5_0 : DmaSem sig := 31
abbrev cc4_sem5_1 : DmaSem sig := 32
abbrev cc4_sem6_0 : DmaSem sig := 33
abbrev cc4_sem6_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem3_0 : DmaSem sig := 39
abbrev cc5_sem4_0 : DmaSem sig := 40
abbrev cc5_sem4_1 : DmaSem sig := 41
abbrev cc5_sem5_0 : DmaSem sig := 42
abbrev cc5_sem5_1 : DmaSem sig := 43
abbrev cc5_sem6_0 : DmaSem sig := 44
abbrev cc5_sem6_1 : DmaSem sig := 45
abbrev cc6_sem0_0 : DmaSem sig := 46
abbrev cc6_sem0_1 : DmaSem sig := 47
abbrev cc6_sem1_0 : DmaSem sig := 48
abbrev cc6_sem1_1 : DmaSem sig := 49
abbrev cc6_sem2_0 : DmaSem sig := 50
abbrev cc6_sem2_1 : DmaSem sig := 51
abbrev cc6_sem3_0 : DmaSem sig := 52
abbrev cc6_sem3_1 : DmaSem sig := 53
abbrev cc6_sem4_0 : DmaSem sig := 54
abbrev cc6_sem4_1 : DmaSem sig := 55
abbrev cc7_sem0_0 : DmaSem sig := 56
abbrev cc7_sem0_1 : DmaSem sig := 57
abbrev cc7_sem1_0 : DmaSem sig := 58
abbrev cc7_sem1_1 : DmaSem sig := 59
abbrev cc7_sem2_0 : DmaSem sig := 60
abbrev cc7_sem2_1 : DmaSem sig := 61
abbrev cc7_sem3_0 : DmaSem sig := 62
abbrev cc7_sem3_1 : DmaSem sig := 63
abbrev cc7_sem4_0 : DmaSem sig := 64
abbrev cc7_sem4_1 : DmaSem sig := 65
abbrev cc8_sem0_0 : DmaSem sig := 66
abbrev cc8_sem0_1 : DmaSem sig := 67
abbrev cc8_sem1_0 : DmaSem sig := 68
abbrev cc8_sem1_1 : DmaSem sig := 69
abbrev cc8_sem2_0 : DmaSem sig := 70
abbrev cc8_sem2_1 : DmaSem sig := 71
abbrev cc8_sem3_0 : DmaSem sig := 72
abbrev cc8_sem3_1 : DmaSem sig := 73
abbrev cc8_sem4_0 : DmaSem sig := 74
abbrev cc8_sem4_1 : DmaSem sig := 75
abbrev cc9_sem0_0 : DmaSem sig := 76
abbrev cc9_sem0_1 : DmaSem sig := 77
abbrev cc9_sem1_0 : DmaSem sig := 78
abbrev cc9_sem1_1 : DmaSem sig := 79
abbrev cc9_sem2_0 : DmaSem sig := 80
abbrev cc9_sem2_1 : DmaSem sig := 81
abbrev cc9_sem3_0 : DmaSem sig := 82
abbrev cc9_sem3_1 : DmaSem sig := 83
abbrev cc9_sem4_0 : DmaSem sig := 84
abbrev cc9_sem4_1 : DmaSem sig := 85
abbrev cc10_sem0_0 : DmaSem sig := 86
abbrev cc10_sem0_1 : DmaSem sig := 87
abbrev cc10_sem1_0 : DmaSem sig := 88
abbrev cc10_sem2_0 : DmaSem sig := 89
abbrev cc10_sem3_0 : DmaSem sig := 90
abbrev cc10_sem3_1 : DmaSem sig := 91
abbrev cc11_sem0_0 : DmaSem sig := 92
abbrev cc11_sem0_1 : DmaSem sig := 93
abbrev cc11_sem1_0 : DmaSem sig := 94
abbrev cc11_sem2_0 : DmaSem sig := 95
abbrev cc11_sem3_0 : DmaSem sig := 96
abbrev cc11_sem3_1 : DmaSem sig := 97
abbrev cc12_sem0_0 : DmaSem sig := 98
abbrev cc12_sem0_1 : DmaSem sig := 99
abbrev cc12_sem1_0 : DmaSem sig := 100
abbrev cc12_sem2_0 : DmaSem sig := 101
abbrev cc12_sem3_0 : DmaSem sig := 102
abbrev cc12_sem4_0 : DmaSem sig := 103
abbrev cc12_sem4_1 : DmaSem sig := 104
abbrev cc12_sem5_0 : DmaSem sig := 105
abbrev cc12_sem5_1 : DmaSem sig := 106
abbrev cc12_sem6_0 : DmaSem sig := 107
abbrev cc12_sem6_1 : DmaSem sig := 108
abbrev cc13_sem0_0 : DmaSem sig := 109
abbrev cc13_sem0_1 : DmaSem sig := 110
abbrev cc13_sem1_0 : DmaSem sig := 111
abbrev cc13_sem2_0 : DmaSem sig := 112
abbrev cc13_sem3_0 : DmaSem sig := 113
abbrev cc13_sem4_0 : DmaSem sig := 114
abbrev cc13_sem4_1 : DmaSem sig := 115
abbrev cc13_sem5_0 : DmaSem sig := 116
abbrev cc13_sem5_1 : DmaSem sig := 117
abbrev cc13_sem6_0 : DmaSem sig := 118
abbrev cc13_sem6_1 : DmaSem sig := 119
abbrev cc14_sem0_0 : DmaSem sig := 120
abbrev cc14_sem0_1 : DmaSem sig := 121
abbrev cc14_sem1_0 : DmaSem sig := 122
abbrev cc14_sem1_1 : DmaSem sig := 123
abbrev cc14_sem2_0 : DmaSem sig := 124
abbrev cc14_sem2_1 : DmaSem sig := 125
abbrev cc14_sem3_0 : DmaSem sig := 126
abbrev cc14_sem3_1 : DmaSem sig := 127
abbrev cc14_sem4_0 : DmaSem sig := 128
abbrev cc14_sem4_1 : DmaSem sig := 129
abbrev cc15_sem0_0 : DmaSem sig := 130
abbrev cc15_sem0_1 : DmaSem sig := 131
abbrev cc15_sem1_0 : DmaSem sig := 132
abbrev cc15_sem1_1 : DmaSem sig := 133
abbrev cc15_sem2_0 : DmaSem sig := 134
abbrev cc15_sem2_1 : DmaSem sig := 135
abbrev cc15_sem3_0 : DmaSem sig := 136
abbrev cc15_sem3_1 : DmaSem sig := 137
abbrev cc15_sem4_0 : DmaSem sig := 138
abbrev cc15_sem4_1 : DmaSem sig := 139
abbrev cc16_sem0_0 : DmaSem sig := 140
abbrev cc16_sem0_1 : DmaSem sig := 141
abbrev cc16_sem1_0 : DmaSem sig := 142
abbrev cc16_sem1_1 : DmaSem sig := 143
abbrev cc16_sem2_0 : DmaSem sig := 144
abbrev cc16_sem2_1 : DmaSem sig := 145
abbrev cc16_sem3_0 : DmaSem sig := 146
abbrev cc16_sem3_1 : DmaSem sig := 147
abbrev cc16_sem4_0 : DmaSem sig := 148
abbrev cc16_sem4_1 : DmaSem sig := 149
abbrev cc17_sem0_0 : DmaSem sig := 150
abbrev cc17_sem0_1 : DmaSem sig := 151
abbrev cc17_sem1_0 : DmaSem sig := 152
abbrev cc17_sem1_1 : DmaSem sig := 153
abbrev cc17_sem2_0 : DmaSem sig := 154
abbrev cc17_sem2_1 : DmaSem sig := 155
abbrev cc17_sem3_0 : DmaSem sig := 156
abbrev cc17_sem3_1 : DmaSem sig := 157
abbrev cc17_sem4_0 : DmaSem sig := 158
abbrev cc17_sem4_1 : DmaSem sig := 159
abbrev cc18_sem0_0 : DmaSem sig := 160
abbrev cc18_sem0_1 : DmaSem sig := 161
abbrev cc18_sem1_0 : DmaSem sig := 162
abbrev cc18_sem2_0 : DmaSem sig := 163
abbrev cc18_sem3_0 : DmaSem sig := 164
abbrev cc18_sem3_1 : DmaSem sig := 165

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x1 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S5000x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S5000x1 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![40], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S5000x1 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S5000x1 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![400], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x1 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S5000x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S5000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![40], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S5000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S5000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![400], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x1 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S5000x1 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S5000x64 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![40], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S5000x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S5000x64 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S5000x64 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![40], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S64x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S5000x64 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![40], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S64x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S5000x64 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![40], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 1 → Nat :=
  let arg0 : BitVec 32 := BitVec.ofNat 32 (i 0).val
  let c0_i32 : BitVec 32 := 0#32
  let c0_i32_0 : BitVec 32 := 0#32
  ![c0_i32.toNat]

def cc12_transform_2 (i : grid12.Coords) : Fin 1 → Nat :=
  let arg0 : BitVec 32 := BitVec.ofNat 32 (i 0).val
  let c0_i32 : BitVec 32 := 0#32
  let c0_i32_0 : BitVec 32 := 0#32
  ![c0_i32.toNat]

def cc12_transform_3 (i : grid12.Coords) : Fin 1 → Nat :=
  let arg0 : BitVec 32 := BitVec.ofNat 32 (i 0).val
  let c0_i32 : BitVec 32 := 0#32
  let c0_i32_0 : BitVec 32 := 0#32
  ![c0_i32.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_6 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S64 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S64 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S64 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 2 → Memref sig .tc .vmem S5000x1 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev stage12_5 : Fin 2 → Memref sig .tc .vmem S5000x1 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev stage12_6 : Fin 2 → Memref sig .tc .vmem S5000x1 .f32 := fun | 0 => Memref.whole cc12_stg6_0 | 1 => Memref.whole cc12_stg6_1 | ⟨_ + 2, h⟩ => absurd h (Nat.not_lt.2 (Nat.le_add_left _ _))
abbrev sem12_6 : Fin 2 → DmaSem sig := fun | 0 => cc12_sem6_0 | 1 => cc12_sem6_1 | ⟨_ + 2, h⟩ => absurd h (Nat.not_lt.2 (Nat.le_add_left _ _))
abbrev reads12_6 : Fin grid12.rank → Bool := ![true]

abbrev grid13 : Pipeline.Grid := ⟨1, ![40], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 1 → Nat :=
  let arg0 : BitVec 32 := BitVec.ofNat 32 (i 0).val
  let c0_i32 : BitVec 32 := 0#32
  let c0_i32_0 : BitVec 32 := 0#32
  ![c0_i32.toNat]

def cc13_transform_2 (i : grid13.Coords) : Fin 1 → Nat :=
  let arg0 : BitVec 32 := BitVec.ofNat 32 (i 0).val
  let c0_i32 : BitVec 32 := 0#32
  let c0_i32_0 : BitVec 32 := 0#32
  ![c0_i32.toNat]

def cc13_transform_3 (i : grid13.Coords) : Fin 1 → Nat :=
  let arg0 : BitVec 32 := BitVec.ofNat 32 (i 0).val
  let c0_i32 : BitVec 32 := 0#32
  let c0_i32_0 : BitVec 32 := 0#32
  ![c0_i32.toNat]

def cc13_transform_4 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_6 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S64 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S64 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S64 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 2 → Memref sig .tc .vmem S5000x1 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true]

abbrev stage13_5 : Fin 2 → Memref sig .tc .vmem S5000x1 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

abbrev stage13_6 : Fin 2 → Memref sig .tc .vmem S5000x1 .f32 := fun | 0 => Memref.whole cc13_stg6_0 | 1 => Memref.whole cc13_stg6_1 | ⟨_ + 2, h⟩ => absurd h (Nat.not_lt.2 (Nat.le_add_left _ _))
abbrev sem13_6 : Fin 2 → DmaSem sig := fun | 0 => cc13_sem6_0 | 1 => cc13_sem6_1 | ⟨_ + 2, h⟩ => absurd h (Nat.not_lt.2 (Nat.le_add_left _ _))
abbrev reads13_6 : Fin grid13.rank → Bool := ![true]

abbrev grid14 : Pipeline.Grid := ⟨1, ![400], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_4 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x1 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S5000x1 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 2 → Memref sig .tc .vmem S5000x64 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev stage14_3 : Fin 2 → Memref sig .tc .vmem S5000x1 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev stage14_4 : Fin 2 → Memref sig .tc .vmem S5000x64 .f32 := fun | 0 => Memref.whole cc14_stg4_0 | 1 => Memref.whole cc14_stg4_1 | ⟨_ + 2, h⟩ => absurd h (Nat.not_lt.2 (Nat.le_add_left _ _))
abbrev sem14_4 : Fin 2 → DmaSem sig := fun | 0 => cc14_sem4_0 | 1 => cc14_sem4_1 | ⟨_ + 2, h⟩ => absurd h (Nat.not_lt.2 (Nat.le_add_left _ _))
abbrev reads14_4 : Fin grid14.rank → Bool := ![true]

abbrev grid15 : Pipeline.Grid := ⟨1, ![40], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_4 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S5000x64 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S5000x1 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 2 → Memref sig .tc .vmem S5000x1 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev stage15_3 : Fin 2 → Memref sig .tc .vmem S5000x64 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true]

abbrev stage15_4 : Fin 2 → Memref sig .tc .vmem S5000x64 .f32 := fun | 0 => Memref.whole cc15_stg4_0 | 1 => Memref.whole cc15_stg4_1 | ⟨_ + 2, h⟩ => absurd h (Nat.not_lt.2 (Nat.le_add_left _ _))
abbrev sem15_4 : Fin 2 → DmaSem sig := fun | 0 => cc15_sem4_0 | 1 => cc15_sem4_1 | ⟨_ + 2, h⟩ => absurd h (Nat.not_lt.2 (Nat.le_add_left _ _))
abbrev reads15_4 : Fin grid15.rank → Bool := ![true]

abbrev grid16 : Pipeline.Grid := ⟨1, ![400], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_3 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_4 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S5000x1 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S5000x1 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 2 → Memref sig .tc .vmem S5000x64 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev stage16_3 : Fin 2 → Memref sig .tc .vmem S5000x1 .f32 := fun | 0 => Memref.whole cc16_stg3_0 | 1 => Memref.whole cc16_stg3_1 | ⟨_ + 2, h⟩ => absurd h (Nat.not_lt.2 (Nat.le_add_left _ _))
abbrev sem16_3 : Fin 2 → DmaSem sig := fun | 0 => cc16_sem3_0 | 1 => cc16_sem3_1 | ⟨_ + 2, h⟩ => absurd h (Nat.not_lt.2 (Nat.le_add_left _ _))
abbrev reads16_3 : Fin grid16.rank → Bool := ![true]

abbrev stage16_4 : Fin 2 → Memref sig .tc .vmem S5000x64 .f32 := fun | 0 => Memref.whole cc16_stg4_0 | 1 => Memref.whole cc16_stg4_1 | ⟨_ + 2, h⟩ => absurd h (Nat.not_lt.2 (Nat.le_add_left _ _))
abbrev sem16_4 : Fin 2 → DmaSem sig := fun | 0 => cc16_sem4_0 | 1 => cc16_sem4_1 | ⟨_ + 2, h⟩ => absurd h (Nat.not_lt.2 (Nat.le_add_left _ _))
abbrev reads16_4 : Fin grid16.rank → Bool := ![true]

abbrev grid17 : Pipeline.Grid := ⟨1, ![40], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_2 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_3 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_4 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S5000x64 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 2 → Memref sig .tc .vmem S5000x1 .f32 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true]

abbrev stage17_2 : Fin 2 → Memref sig .tc .vmem S5000x1 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true]

abbrev stage17_3 : Fin 2 → Memref sig .tc .vmem S5000x64 .f32 := fun | 0 => Memref.whole cc17_stg3_0 | 1 => Memref.whole cc17_stg3_1 | ⟨_ + 2, h⟩ => absurd h (Nat.not_lt.2 (Nat.le_add_left _ _))
abbrev sem17_3 : Fin 2 → DmaSem sig := fun | 0 => cc17_sem3_0 | 1 => cc17_sem3_1 | ⟨_ + 2, h⟩ => absurd h (Nat.not_lt.2 (Nat.le_add_left _ _))
abbrev reads17_3 : Fin grid17.rank → Bool := ![true]

abbrev stage17_4 : Fin 2 → Memref sig .tc .vmem S5000x64 .f32 := fun | 0 => Memref.whole cc17_stg4_0 | 1 => Memref.whole cc17_stg4_1 | ⟨_ + 2, h⟩ => absurd h (Nat.not_lt.2 (Nat.le_add_left _ _))
abbrev sem17_4 : Fin 2 → DmaSem sig := fun | 0 => cc17_sem4_0 | 1 => cc17_sem4_1 | ⟨_ + 2, h⟩ => absurd h (Nat.not_lt.2 (Nat.le_add_left _ _))
abbrev reads17_4 : Fin grid17.rank → Bool := ![true]

abbrev grid18 : Pipeline.Grid := ⟨1, ![40], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_2 (i : grid18.Coords) : Fin 1 → Nat :=
  let arg0 : BitVec 32 := BitVec.ofNat 32 (i 0).val
  let c0_i32 : BitVec 32 := 0#32
  let c0_i32_0 : BitVec 32 := 0#32
  ![c0_i32.toNat]

def cc18_transform_3 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S5000x64 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 1 → Memref sig .tc .vmem S64x32 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false]

abbrev stage18_2 : Fin 1 → Memref sig .tc .vmem S32 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev stage18_3 : Fin 2 → Memref sig .tc .vmem S5000x32 .f32 := fun | 0 => Memref.whole cc18_stg3_0 | 1 => Memref.whole cc18_stg3_1 | ⟨_ + 2, h⟩ => absurd h (Nat.not_lt.2 (Nat.le_add_left _ _))
abbrev sem18_3 : Fin 2 → DmaSem sig := fun | 0 => cc18_sem3_0 | 1 => cc18_sem3_1 | ⟨_ + 2, h⟩ => absurd h (Nat.not_lt.2 (Nat.le_add_left _ _))
abbrev reads18_3 : Fin grid18.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  inb_S64x64_S64x64_0_0 : ∀ a, (![0, 0] : Fin 2 → Nat) a + S64x64.size a ≤ S64x64.size a
  h_S64x64 : 0 < S64x64.numel
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  shapeCasts_S5000x64_S5000x64 : S5000x64.ShapeCasts S5000x64
  shapeCasts_S64x64_S64x64 : S64x64.ShapeCasts S64x64
  shapeCasts_S64_S64 : S64.ShapeCasts S64
  reduces_S5000x64_S5000 : S5000x64.Reduces [1] S5000
  shapeCasts_S5000_S5000x1 : S5000.ShapeCasts S5000x1
  inb_S5000x1_S5000x1_0_0 : ∀ a, (![0, 0] : Fin 2 → Nat) a + S5000x1.size a ≤ S5000x1.size a
  h_S5000x1 : 0 < S5000x1.numel
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  reducesTo_S2000000x1_S2000000_d1 : S2000000x1.ReducesTo [1] S2000000
  h_S_ : 0 < S_.numel
  bcast_S2000000_S2000000x64_0 : S2000000.BroadcastsInDim S2000000x64 (![0] : Fin 1 → Fin S2000000x64.rank)
  bcast_S_S2000000x64 : S_.BroadcastsInDim S2000000x64 (![] : Fin 0 → Fin S2000000x64.rank)
  shapeCasts_S5000x1_S5000x1 : S5000x1.ShapeCasts S5000x1
  broadcasts_S5000x1_S5000x64 : S5000x1.Broadcasts S5000x64
  bcast_S_S200000x1 : S_.BroadcastsInDim S200000x1 (![] : Fin 0 → Fin S200000x1.rank)
  bcast_S_S200000x64 : S_.BroadcastsInDim S200000x64 (![] : Fin 0 → Fin S200000x64.rank)
  slices_S2x64x64_S1x64x64_1_0_0 : S2x64x64.Slices ![1, 0, 0] S1x64x64
  slices_S2x64_S1x64_1_0 : S2x64.Slices ![1, 0] S1x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  gather_S200000x1_S2000000x1_S2000000x1_1_0_n_n_0_1_11_wf : GatherDims.WF S200000x1 S2000000x1 S2000000x1 [1] [0] [] [0] [] 1 ![1, 1]
  gather_S200000x64_S2000000x1_S2000000x64_1_0_n_n_0_1_164_wf : GatherDims.WF S200000x64 S2000000x1 S2000000x64 [1] [0] [] [0] [] 1 ![1, 64]
  scatter_S200000x1_S2000000x1_S2000000x1_1_0_0_1_wf : ScatterDims.WF S200000x1 S2000000x1 S2000000x1 [1] [0] [0] 1
  scatter_S200000x64_S2000000x1_S2000000x64_1_0_0_1_wf : ScatterDims.WF S200000x64 S2000000x1 S2000000x64 [1] [0] [0] 1
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S200000x128.size a
  hwx0_0 : ∀ i : grid0.Coords, EltTy.bits .f32 = 32 ∨ (Rect.block (s := S200000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S200000x64.size a
  hwx0_3 : ∀ i : grid0.Coords, EltTy.bits .f32 = 32 ∨ (Rect.block (s := S200000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S200000x64.size a
  hwx1_0 : ∀ i : grid1.Coords, EltTy.bits .f32 = 32 ∨ (Rect.block (s := S200000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S200000x64.size a
  hwx1_3 : ∀ i : grid1.Coords, EltTy.bits .f32 = 32 ∨ (Rect.block (s := S200000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S200000x64.size a
  hwx2_0 : ∀ i : grid2.Coords, EltTy.bits .f32 = 32 ∨ (Rect.block (s := S200000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S200000x64.size a
  hwx2_3 : ∀ i : grid2.Coords, EltTy.bits .f32 = 32 ∨ (Rect.block (s := S200000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S200000x64.size a
  hwx3_0 : ∀ i : grid3.Coords, EltTy.bits .f32 = 32 ∨ (Rect.block (s := S200000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S200000x64.size a
  hwx3_3 : ∀ i : grid3.Coords, EltTy.bits .f32 = 32 ∨ (Rect.block (s := S200000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S200000x64.size a
  hwx4_0 : ∀ i : grid4.Coords, EltTy.bits .f32 = 32 ∨ (Rect.block (s := S200000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64.size a ≤ S64.size a
  hwx4_1 : ∀ i : grid4.Coords, EltTy.bits .f32 = 32 ∨ (Rect.block (s := S64) S64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64.size a ≤ S64.size a
  hwx4_3 : ∀ i : grid4.Coords, EltTy.bits .f32 = 32 ∨ (Rect.block (s := S64) S64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x1.size a ≤ S200000x1.size a
  hwx4_4 : ∀ i : grid4.Coords, EltTy.bits .f32 = 32 ∨ (Rect.block (s := S200000x1) S5000x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x1.size a ≤ S200000x1.size a
  hwx4_5 : ∀ i : grid4.Coords, EltTy.bits .f32 = 32 ∨ (Rect.block (s := S200000x1) S5000x1.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x1.size a ≤ S200000x1.size a
  hwx4_6 : ∀ i : grid4.Coords, EltTy.bits .f32 = 32 ∨ (Rect.block (s := S200000x1) S5000x1.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S200000x64.size a
  hwx5_0 : ∀ i : grid5.Coords, EltTy.bits .f32 = 32 ∨ (Rect.block (s := S200000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64.size a ≤ S64.size a
  hwx5_1 : ∀ i : grid5.Coords, EltTy.bits .f32 = 32 ∨ (Rect.block (s := S64) S64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64.size a ≤ S64.size a
  hwx5_2 : ∀ i : grid5.Coords, EltTy.bits .f32 = 32 ∨ (Rect.block (s := S64) S64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64.size a ≤ S64.size a
  hwx5_3 : ∀ i : grid5.Coords, EltTy.bits .f32 = 32 ∨ (Rect.block (s := S64) S64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x1.size a ≤ S200000x1.size a
  hwx5_4 : ∀ i : grid5.Coords, EltTy.bits .f32 = 32 ∨ (Rect.block (s := S200000x1) S5000x1.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x1.size a ≤ S200000x1.size a
  hwx5_5 : ∀ i : grid5.Coords, EltTy.bits .f32 = 32 ∨ (Rect.block (s := S200000x1) S5000x1.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x1.size a ≤ S200000x1.size a
  hwx5_6 : ∀ i : grid5.Coords, EltTy.bits .f32 = 32 ∨ (Rect.block (s := S200000x1) S5000x1.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x1.size a ≤ S2000000x1.size a
  hwx6_0 : ∀ i : grid6.Coords, EltTy.bits .f32 = 32 ∨ (Rect.block (s := S2000000x1) S5000x1.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S2000000x1.size a
  hwx6_1 : ∀ i : grid6.Coords, EltTy.bits .f32 = 32 ∨ (Rect.block (s := S2000000x1) S5000x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S2000000x64.size a
  hwx6_2 : ∀ i : grid6.Coords, EltTy.bits .f32 = 32 ∨ (Rect.block (s := S2000000x64) S5000x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x1.size a ≤ S2000000x1.size a
  hwx6_3 : ∀ i : grid6.Coords, EltTy.bits .f32 = 32 ∨ (Rect.block (s := S2000000x1) S5000x1.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x64.size a ≤ S2000000x64.size a
  hwx6_4 : ∀ i : grid6.Coords, EltTy.bits .f32 = 32 ∨ (Rect.block (s := S2000000x64) S5000x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S200000x64.size a
  hwx7_0 : ∀ i : grid7.Coords, EltTy.bits .f32 = 32 ∨ (Rect.block (s := S200000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S200000x1.size a
  hwx7_1 : ∀ i : grid7.Coords, EltTy.bits .f32 = 32 ∨ (Rect.block (s := S200000x1) S5000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S200000x1.size a
  hwx7_2 : ∀ i : grid7.Coords, EltTy.bits .f32 = 32 ∨ (Rect.block (s := S200000x1) S5000x1.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x64.size a ≤ S200000x64.size a
  hwx7_3 : ∀ i : grid7.Coords, EltTy.bits .f32 = 32 ∨ (Rect.block (s := S200000x64) S5000x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x64.size a ≤ S200000x64.size a
  hwx7_4 : ∀ i : grid7.Coords, EltTy.bits .f32 = 32 ∨ (Rect.block (s := S200000x64) S5000x64.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x1.size a ≤ S2000000x1.size a
  hwx8_0 : ∀ i : grid8.Coords, EltTy.bits .f32 = 32 ∨ (Rect.block (s := S2000000x1) S5000x1.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x1.size a ≤ S2000000x1.size a
  hwx8_1 : ∀ i : grid8.Coords, EltTy.bits .f32 = 32 ∨ (Rect.block (s := S2000000x1) S5000x1.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x64.size a ≤ S2000000x64.size a
  hwx8_2 : ∀ i : grid8.Coords, EltTy.bits .f32 = 32 ∨ (Rect.block (s := S2000000x64) S5000x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x1.size a ≤ S2000000x1.size a
  hwx8_3 : ∀ i : grid8.Coords, EltTy.bits .f32 = 32 ∨ (Rect.block (s := S2000000x1) S5000x1.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x64.size a ≤ S2000000x64.size a
  hwx8_4 : ∀ i : grid8.Coords, EltTy.bits .f32 = 32 ∨ (Rect.block (s := S2000000x64) S5000x64.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S200000x64.size a
  hwx9_0 : ∀ i : grid9.Coords, EltTy.bits .f32 = 32 ∨ (Rect.block (s := S200000x64) S5000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x1.size a ≤ S200000x1.size a
  hwx9_1 : ∀ i : grid9.Coords, EltTy.bits .f32 = 32 ∨ (Rect.block (s := S200000x1) S5000x1.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x1.size a ≤ S200000x1.size a
  hwx9_2 : ∀ i : grid9.Coords, EltTy.bits .f32 = 32 ∨ (Rect.block (s := S200000x1) S5000x1.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x64.size a ≤ S200000x64.size a
  hwx9_3 : ∀ i : grid9.Coords, EltTy.bits .f32 = 32 ∨ (Rect.block (s := S200000x64) S5000x64.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S5000x64.size a ≤ S200000x64.size a
  hwx9_4 : ∀ i : grid9.Coords, EltTy.bits .f32 = 32 ∨ (Rect.block (s := S200000x64) S5000x64.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x64.size a ≤ S200000x64.size a
  hwx10_0 : ∀ i : grid10.Coords, EltTy.bits .f32 = 32 ∨ (Rect.block (s := S200000x64) S5000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S64x64.size a ≤ S64x64.size a
  hwx10_1 : ∀ i : grid10.Coords, EltTy.bits .f32 = 32 ∨ (Rect.block (s := S64x64) S64x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S64.size a ≤ S64.size a
  hwx10_2 : ∀ i : grid10.Coords, EltTy.bits .f32 = 32 ∨ (Rect.block (s := S64) S64.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S5000x64.size a ≤ S200000x64.size a
  hwx10_3 : ∀ i : grid10.Coords, EltTy.bits .f32 = 32 ∨ (Rect.block (s := S200000x64) S5000x64.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x64.size a ≤ S200000x64.size a
  hwx11_0 : ∀ i : grid11.Coords, EltTy.bits .f32 = 32 ∨ (Rect.block (s := S200000x64) S5000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S64x64.size a ≤ S64x64.size a
  hwx11_1 : ∀ i : grid11.Coords, EltTy.bits .f32 = 32 ∨ (Rect.block (s := S64x64) S64x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S64.size a ≤ S64.size a
  hwx11_2 : ∀ i : grid11.Coords, EltTy.bits .f32 = 32 ∨ (Rect.block (s := S64) S64.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S5000x64.size a ≤ S200000x64.size a
  hwx11_3 : ∀ i : grid11.Coords, EltTy.bits .f32 = 32 ∨ (Rect.block (s := S200000x64) S5000x64.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x64.size a ≤ S200000x64.size a
  hwx12_0 : ∀ i : grid12.Coords, EltTy.bits .f32 = 32 ∨ (Rect.block (s := S200000x64) S5000x64.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S64.size a ≤ S64.size a
  hwx12_1 : ∀ i : grid12.Coords, EltTy.bits .f32 = 32 ∨ (Rect.block (s := S64) S64.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S64.size a ≤ S64.size a
  hwx12_2 : ∀ i : grid12.Coords, EltTy.bits .f32 = 32 ∨ (Rect.block (s := S64) S64.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S64.size a ≤ S64.size a
  hwx12_3 : ∀ i : grid12.Coords, EltTy.bits .f32 = 32 ∨ (Rect.block (s := S64) S64.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S5000x1.size a ≤ S200000x1.size a
  hwx12_4 : ∀ i : grid12.Coords, EltTy.bits .f32 = 32 ∨ (Rect.block (s := S200000x1) S5000x1.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S5000x1.size a ≤ S200000x1.size a
  hwx12_5 : ∀ i : grid12.Coords, EltTy.bits .f32 = 32 ∨ (Rect.block (s := S200000x1) S5000x1.size (cc12_transform_5 i) (hinb12_5 i)).WholeWords (EltTy.packing .f32)
  hstage12_6 : ∀ j, (stage12_6 j).IsWhole
  nbuf12_6 : grid12.bufCount reads12_6 false = 2
  hreads12_6 : ∀ i i' : grid12.Coords, (∀ a, reads12_6 a = true → i a = i' a) → cc12_transform_6 i = cc12_transform_6 i'
  hinb12_6 : ∀ (i : grid12.Coords) a, (cc12_transform_6 i a + 1) * S5000x1.size a ≤ S200000x1.size a
  hwx12_6 : ∀ i : grid12.Coords, EltTy.bits .f32 = 32 ∨ (Rect.block (s := S200000x1) S5000x1.size (cc12_transform_6 i) (hinb12_6 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x64.size a ≤ S200000x64.size a
  hwx13_0 : ∀ i : grid13.Coords, EltTy.bits .f32 = 32 ∨ (Rect.block (s := S200000x64) S5000x64.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S64.size a ≤ S64.size a
  hwx13_1 : ∀ i : grid13.Coords, EltTy.bits .f32 = 32 ∨ (Rect.block (s := S64) S64.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S64.size a ≤ S64.size a
  hwx13_2 : ∀ i : grid13.Coords, EltTy.bits .f32 = 32 ∨ (Rect.block (s := S64) S64.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S64.size a ≤ S64.size a
  hwx13_3 : ∀ i : grid13.Coords, EltTy.bits .f32 = 32 ∨ (Rect.block (s := S64) S64.size (cc13_transform_3 i) (hinb13_3 i)).WholeWords (EltTy.packing .f32)
  hstage13_4 : ∀ j, (stage13_4 j).IsWhole
  nbuf13_4 : grid13.bufCount reads13_4 false = 2
  hreads13_4 : ∀ i i' : grid13.Coords, (∀ a, reads13_4 a = true → i a = i' a) → cc13_transform_4 i = cc13_transform_4 i'
  hinb13_4 : ∀ (i : grid13.Coords) a, (cc13_transform_4 i a + 1) * S5000x1.size a ≤ S200000x1.size a
  hwx13_4 : ∀ i : grid13.Coords, EltTy.bits .f32 = 32 ∨ (Rect.block (s := S200000x1) S5000x1.size (cc13_transform_4 i) (hinb13_4 i)).WholeWords (EltTy.packing .f32)
  hstage13_5 : ∀ j, (stage13_5 j).IsWhole
  nbuf13_5 : grid13.bufCount reads13_5 false = 2
  hreads13_5 : ∀ i i' : grid13.Coords, (∀ a, reads13_5 a = true → i a = i' a) → cc13_transform_5 i = cc13_transform_5 i'
  hinb13_5 : ∀ (i : grid13.Coords) a, (cc13_transform_5 i a + 1) * S5000x1.size a ≤ S200000x1.size a
  hwx13_5 : ∀ i : grid13.Coords, EltTy.bits .f32 = 32 ∨ (Rect.block (s := S200000x1) S5000x1.size (cc13_transform_5 i) (hinb13_5 i)).WholeWords (EltTy.packing .f32)
  hstage13_6 : ∀ j, (stage13_6 j).IsWhole
  nbuf13_6 : grid13.bufCount reads13_6 false = 2
  hreads13_6 : ∀ i i' : grid13.Coords, (∀ a, reads13_6 a = true → i a = i' a) → cc13_transform_6 i = cc13_transform_6 i'
  hinb13_6 : ∀ (i : grid13.Coords) a, (cc13_transform_6 i a + 1) * S5000x1.size a ≤ S200000x1.size a
  hwx13_6 : ∀ i : grid13.Coords, EltTy.bits .f32 = 32 ∨ (Rect.block (s := S200000x1) S5000x1.size (cc13_transform_6 i) (hinb13_6 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x1.size a ≤ S2000000x1.size a
  hwx14_0 : ∀ i : grid14.Coords, EltTy.bits .f32 = 32 ∨ (Rect.block (s := S2000000x1) S5000x1.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S5000x1.size a ≤ S2000000x1.size a
  hwx14_1 : ∀ i : grid14.Coords, EltTy.bits .f32 = 32 ∨ (Rect.block (s := S2000000x1) S5000x1.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S5000x64.size a ≤ S2000000x64.size a
  hwx14_2 : ∀ i : grid14.Coords, EltTy.bits .f32 = 32 ∨ (Rect.block (s := S2000000x64) S5000x64.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S5000x1.size a ≤ S2000000x1.size a
  hwx14_3 : ∀ i : grid14.Coords, EltTy.bits .f32 = 32 ∨ (Rect.block (s := S2000000x1) S5000x1.size (cc14_transform_3 i) (hinb14_3 i)).WholeWords (EltTy.packing .f32)
  hstage14_4 : ∀ j, (stage14_4 j).IsWhole
  nbuf14_4 : grid14.bufCount reads14_4 false = 2
  hreads14_4 : ∀ i i' : grid14.Coords, (∀ a, reads14_4 a = true → i a = i' a) → cc14_transform_4 i = cc14_transform_4 i'
  hinb14_4 : ∀ (i : grid14.Coords) a, (cc14_transform_4 i a + 1) * S5000x64.size a ≤ S2000000x64.size a
  hwx14_4 : ∀ i : grid14.Coords, EltTy.bits .f32 = 32 ∨ (Rect.block (s := S2000000x64) S5000x64.size (cc14_transform_4 i) (hinb14_4 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S5000x64.size a ≤ S200000x64.size a
  hwx15_0 : ∀ i : grid15.Coords, EltTy.bits .f32 = 32 ∨ (Rect.block (s := S200000x64) S5000x64.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S5000x1.size a ≤ S200000x1.size a
  hwx15_1 : ∀ i : grid15.Coords, EltTy.bits .f32 = 32 ∨ (Rect.block (s := S200000x1) S5000x1.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S5000x1.size a ≤ S200000x1.size a
  hwx15_2 : ∀ i : grid15.Coords, EltTy.bits .f32 = 32 ∨ (Rect.block (s := S200000x1) S5000x1.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S5000x64.size a ≤ S200000x64.size a
  hwx15_3 : ∀ i : grid15.Coords, EltTy.bits .f32 = 32 ∨ (Rect.block (s := S200000x64) S5000x64.size (cc15_transform_3 i) (hinb15_3 i)).WholeWords (EltTy.packing .f32)
  hstage15_4 : ∀ j, (stage15_4 j).IsWhole
  nbuf15_4 : grid15.bufCount reads15_4 false = 2
  hreads15_4 : ∀ i i' : grid15.Coords, (∀ a, reads15_4 a = true → i a = i' a) → cc15_transform_4 i = cc15_transform_4 i'
  hinb15_4 : ∀ (i : grid15.Coords) a, (cc15_transform_4 i a + 1) * S5000x64.size a ≤ S200000x64.size a
  hwx15_4 : ∀ i : grid15.Coords, EltTy.bits .f32 = 32 ∨ (Rect.block (s := S200000x64) S5000x64.size (cc15_transform_4 i) (hinb15_4 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S5000x1.size a ≤ S2000000x1.size a
  hwx16_0 : ∀ i : grid16.Coords, EltTy.bits .f32 = 32 ∨ (Rect.block (s := S2000000x1) S5000x1.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S5000x1.size a ≤ S2000000x1.size a
  hwx16_1 : ∀ i : grid16.Coords, EltTy.bits .f32 = 32 ∨ (Rect.block (s := S2000000x1) S5000x1.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S5000x64.size a ≤ S2000000x64.size a
  hwx16_2 : ∀ i : grid16.Coords, EltTy.bits .f32 = 32 ∨ (Rect.block (s := S2000000x64) S5000x64.size (cc16_transform_2 i) (hinb16_2 i)).WholeWords (EltTy.packing .f32)
  hstage16_3 : ∀ j, (stage16_3 j).IsWhole
  nbuf16_3 : grid16.bufCount reads16_3 false = 2
  hreads16_3 : ∀ i i' : grid16.Coords, (∀ a, reads16_3 a = true → i a = i' a) → cc16_transform_3 i = cc16_transform_3 i'
  hinb16_3 : ∀ (i : grid16.Coords) a, (cc16_transform_3 i a + 1) * S5000x1.size a ≤ S2000000x1.size a
  hwx16_3 : ∀ i : grid16.Coords, EltTy.bits .f32 = 32 ∨ (Rect.block (s := S2000000x1) S5000x1.size (cc16_transform_3 i) (hinb16_3 i)).WholeWords (EltTy.packing .f32)
  hstage16_4 : ∀ j, (stage16_4 j).IsWhole
  nbuf16_4 : grid16.bufCount reads16_4 false = 2
  hreads16_4 : ∀ i i' : grid16.Coords, (∀ a, reads16_4 a = true → i a = i' a) → cc16_transform_4 i = cc16_transform_4 i'
  hinb16_4 : ∀ (i : grid16.Coords) a, (cc16_transform_4 i a + 1) * S5000x64.size a ≤ S2000000x64.size a
  hwx16_4 : ∀ i : grid16.Coords, EltTy.bits .f32 = 32 ∨ (Rect.block (s := S2000000x64) S5000x64.size (cc16_transform_4 i) (hinb16_4 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S5000x64.size a ≤ S200000x64.size a
  hwx17_0 : ∀ i : grid17.Coords, EltTy.bits .f32 = 32 ∨ (Rect.block (s := S200000x64) S5000x64.size (cc17_transform_0 i) (hinb17_0 i)).WholeWords (EltTy.packing .f32)
  hstage17_1 : ∀ j, (stage17_1 j).IsWhole
  nbuf17_1 : grid17.bufCount reads17_1 false = 2
  hreads17_1 : ∀ i i' : grid17.Coords, (∀ a, reads17_1 a = true → i a = i' a) → cc17_transform_1 i = cc17_transform_1 i'
  hinb17_1 : ∀ (i : grid17.Coords) a, (cc17_transform_1 i a + 1) * S5000x1.size a ≤ S200000x1.size a
  hwx17_1 : ∀ i : grid17.Coords, EltTy.bits .f32 = 32 ∨ (Rect.block (s := S200000x1) S5000x1.size (cc17_transform_1 i) (hinb17_1 i)).WholeWords (EltTy.packing .f32)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S5000x1.size a ≤ S200000x1.size a
  hwx17_2 : ∀ i : grid17.Coords, EltTy.bits .f32 = 32 ∨ (Rect.block (s := S200000x1) S5000x1.size (cc17_transform_2 i) (hinb17_2 i)).WholeWords (EltTy.packing .f32)
  hstage17_3 : ∀ j, (stage17_3 j).IsWhole
  nbuf17_3 : grid17.bufCount reads17_3 false = 2
  hreads17_3 : ∀ i i' : grid17.Coords, (∀ a, reads17_3 a = true → i a = i' a) → cc17_transform_3 i = cc17_transform_3 i'
  hinb17_3 : ∀ (i : grid17.Coords) a, (cc17_transform_3 i a + 1) * S5000x64.size a ≤ S200000x64.size a
  hwx17_3 : ∀ i : grid17.Coords, EltTy.bits .f32 = 32 ∨ (Rect.block (s := S200000x64) S5000x64.size (cc17_transform_3 i) (hinb17_3 i)).WholeWords (EltTy.packing .f32)
  hstage17_4 : ∀ j, (stage17_4 j).IsWhole
  nbuf17_4 : grid17.bufCount reads17_4 false = 2
  hreads17_4 : ∀ i i' : grid17.Coords, (∀ a, reads17_4 a = true → i a = i' a) → cc17_transform_4 i = cc17_transform_4 i'
  hinb17_4 : ∀ (i : grid17.Coords) a, (cc17_transform_4 i a + 1) * S5000x64.size a ≤ S200000x64.size a
  hwx17_4 : ∀ i : grid17.Coords, EltTy.bits .f32 = 32 ∨ (Rect.block (s := S200000x64) S5000x64.size (cc17_transform_4 i) (hinb17_4 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S5000x64.size a ≤ S200000x64.size a
  hwx18_0 : ∀ i : grid18.Coords, EltTy.bits .f32 = 32 ∨ (Rect.block (s := S200000x64) S5000x64.size (cc18_transform_0 i) (hinb18_0 i)).WholeWords (EltTy.packing .f32)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S64x32.size a ≤ S64x32.size a
  hwx18_1 : ∀ i : grid18.Coords, EltTy.bits .f32 = 32 ∨ (Rect.block (s := S64x32) S64x32.size (cc18_transform_1 i) (hinb18_1 i)).WholeWords (EltTy.packing .f32)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S32.size a ≤ S32.size a
  hwx18_2 : ∀ i : grid18.Coords, EltTy.bits .f32 = 32 ∨ (Rect.block (s := S32) S32.size (cc18_transform_2 i) (hinb18_2 i)).WholeWords (EltTy.packing .f32)
  hstage18_3 : ∀ j, (stage18_3 j).IsWhole
  nbuf18_3 : grid18.bufCount reads18_3 false = 2
  hreads18_3 : ∀ i i' : grid18.Coords, (∀ a, reads18_3 a = true → i a = i' a) → cc18_transform_3 i = cc18_transform_3 i'
  hinb18_3 : ∀ (i : grid18.Coords) a, (cc18_transform_3 i a + 1) * S5000x32.size a ≤ S200000x32.size a
  hwx18_3 : ∀ i : grid18.Coords, EltTy.bits .f32 = 32 ∨ (Rect.block (s := S200000x32) S5000x32.size (cc18_transform_3 i) (hinb18_3 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S200000x1_S2000000x1_S2000000x1_1_0_n_n_0_1_11 : GatherDims S200000x1 S2000000x1 S2000000x1 where
  offsetDims := [1]
  collapsedSliceDims := [0]
  operandBatchingDims := []
  startIndicesBatchingDims := []
  startIndexMap := [0]
  indexVectorDim := 1
  sliceSizes := ![1, 1]
  wf := gather_S200000x1_S2000000x1_S2000000x1_1_0_n_n_0_1_11_wf
def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def scatter_S200000x1_S2000000x1_S2000000x1_1_0_0_1 : ScatterDims S200000x1 S2000000x1 S2000000x1 where
  updateWindowDims := [1]
  insertedWindowDims := [0]
  scatterDimsToOperandDims := [0]
  indexVectorDim := 1
  wf := scatter_S200000x1_S2000000x1_S2000000x1_1_0_0_1_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v9) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v18) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v19) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v14) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v21) S64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v23) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v25) S64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v26_0) S5000x1.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v26_1) S5000x1.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v26_2) S5000x1.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v19) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v28) S64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v30) S64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v32) S64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v33_0) S5000x1.size cc5_transform_4 reads5_4 true false 2 stage5_4 sem5_4
    hrank5 hreads5_4 hinb5_4 nbuf5_4 (Memref.isWhole_whole _) hwx5_4 hstage5_4

abbrev win5_5 : Pipeline.Window sig grid5 :=
  Pipeline.Window.ofSpec (Memref.whole main_v33_1) S5000x1.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v33_2) S5000x1.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v34) S5000x1.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v35) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v36) S5000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v37_0) S5000x1.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v37_1) S5000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v43) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v40) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v26_2) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v14) S5000x64.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v44) S5000x64.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v45) S5000x1.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v46) S5000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v47) S5000x64.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v48_0) S5000x1.size cc8_transform_3 reads8_3 true false 2 stage8_3 sem8_3
    hrank8 hreads8_3 hinb8_3 nbuf8_3 (Memref.isWhole_whole _) hwx8_3 hstage8_3

abbrev win8_4 : Pipeline.Window sig grid8 :=
  Pipeline.Window.ofSpec (Memref.whole main_v48_1) S5000x64.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v54) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v51) S5000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v33_2) S5000x1.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v19) S5000x64.size cc9_transform_3 reads9_3 false false 2 stage9_3 sem9_3
    hrank9 hreads9_3 hinb9_3 nbuf9_3 (Memref.isWhole_whole _) hwx9_3 hstage9_3

abbrev win9_4 : Pipeline.Window sig grid9 :=
  Pipeline.Window.ofSpec (Memref.whole main_v55) S5000x64.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v44) S5000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v57) S64x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v59) S64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v60) S5000x64.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v55) S5000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v62) S64x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v64) S64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v65) S5000x64.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v60) S5000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v67) S64.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v69) S64.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v71) S64.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v72_0) S5000x1.size cc12_transform_4 reads12_4 true false 2 stage12_4 sem12_4
    hrank12 hreads12_4 hinb12_4 nbuf12_4 (Memref.isWhole_whole _) hwx12_4 hstage12_4

abbrev win12_5 : Pipeline.Window sig grid12 :=
  Pipeline.Window.ofSpec (Memref.whole main_v72_1) S5000x1.size cc12_transform_5 reads12_5 true false 2 stage12_5 sem12_5
    hrank12 hreads12_5 hinb12_5 nbuf12_5 (Memref.isWhole_whole _) hwx12_5 hstage12_5

abbrev win12_6 : Pipeline.Window sig grid12 :=
  Pipeline.Window.ofSpec (Memref.whole main_v72_2) S5000x1.size cc12_transform_6 reads12_6 true false 2 stage12_6 sem12_6
    hrank12 hreads12_6 hinb12_6 nbuf12_6 (Memref.isWhole_whole _) hwx12_6 hstage12_6

abbrev win12 : Fin 7 → Pipeline.Window sig grid12 := fun | 0 => win12_0 | 1 => win12_1 | 2 => win12_2 | 3 => win12_3 | 4 => win12_4 | 5 => win12_5 | 6 => win12_6 | ⟨_ + 7, h⟩ => absurd h (Nat.not_lt.2 (Nat.le_add_left _ _))
abbrev spec12 : Fin 7 → Pipeline.WinSpec sig grid12.rank := fun w => (win12 w).toWinSpec

abbrev win13_0 : Pipeline.Window sig grid13 :=
  Pipeline.Window.ofSpec (Memref.whole main_v65) S5000x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v74) S64.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v76) S64.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v78) S64.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v79_0) S5000x1.size cc13_transform_4 reads13_4 true false 2 stage13_4 sem13_4
    hrank13 hreads13_4 hinb13_4 nbuf13_4 (Memref.isWhole_whole _) hwx13_4 hstage13_4

abbrev win13_5 : Pipeline.Window sig grid13 :=
  Pipeline.Window.ofSpec (Memref.whole main_v79_1) S5000x1.size cc13_transform_5 reads13_5 true false 2 stage13_5 sem13_5
    hrank13 hreads13_5 hinb13_5 nbuf13_5 (Memref.isWhole_whole _) hwx13_5 hstage13_5

abbrev win13_6 : Pipeline.Window sig grid13 :=
  Pipeline.Window.ofSpec (Memref.whole main_v79_2) S5000x1.size cc13_transform_6 reads13_6 true false 2 stage13_6 sem13_6
    hrank13 hreads13_6 hinb13_6 nbuf13_6 (Memref.isWhole_whole _) hwx13_6 hstage13_6

abbrev win13 : Fin 7 → Pipeline.Window sig grid13 := fun | 0 => win13_0 | 1 => win13_1 | 2 => win13_2 | 3 => win13_3 | 4 => win13_4 | 5 => win13_5 | 6 => win13_6 | ⟨_ + 7, h⟩ => absurd h (Nat.not_lt.2 (Nat.le_add_left _ _))
abbrev spec13 : Fin 7 → Pipeline.WinSpec sig grid13.rank := fun w => (win13 w).toWinSpec

abbrev win14_0 : Pipeline.Window sig grid14 :=
  Pipeline.Window.ofSpec (Memref.whole main_v80) S5000x1.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v81) S5000x1.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v82) S5000x64.size cc14_transform_2 reads14_2 false false 2 stage14_2 sem14_2
    hrank14 hreads14_2 hinb14_2 nbuf14_2 (Memref.isWhole_whole _) hwx14_2 hstage14_2

abbrev win14_3 : Pipeline.Window sig grid14 :=
  Pipeline.Window.ofSpec (Memref.whole main_v83_0) S5000x1.size cc14_transform_3 reads14_3 true false 2 stage14_3 sem14_3
    hrank14 hreads14_3 hinb14_3 nbuf14_3 (Memref.isWhole_whole _) hwx14_3 hstage14_3

abbrev win14_4 : Pipeline.Window sig grid14 :=
  Pipeline.Window.ofSpec (Memref.whole main_v83_1) S5000x64.size cc14_transform_4 reads14_4 true false 2 stage14_4 sem14_4
    hrank14 hreads14_4 hinb14_4 nbuf14_4 (Memref.isWhole_whole _) hwx14_4 hstage14_4

abbrev win14 : Fin 5 → Pipeline.Window sig grid14 := fun | 0 => win14_0 | 1 => win14_1 | 2 => win14_2 | 3 => win14_3 | 4 => win14_4 | ⟨_ + 5, h⟩ => absurd h (Nat.not_lt.2 (Nat.le_add_left _ _))
abbrev spec14 : Fin 5 → Pipeline.WinSpec sig grid14.rank := fun w => (win14 w).toWinSpec

abbrev win15_0 : Pipeline.Window sig grid15 :=
  Pipeline.Window.ofSpec (Memref.whole main_v89) S5000x64.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v86) S5000x1.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v72_2) S5000x1.size cc15_transform_2 reads15_2 false false 2 stage15_2 sem15_2
    hrank15 hreads15_2 hinb15_2 nbuf15_2 (Memref.isWhole_whole _) hwx15_2 hstage15_2

abbrev win15_3 : Pipeline.Window sig grid15 :=
  Pipeline.Window.ofSpec (Memref.whole main_v60) S5000x64.size cc15_transform_3 reads15_3 false false 2 stage15_3 sem15_3
    hrank15 hreads15_3 hinb15_3 nbuf15_3 (Memref.isWhole_whole _) hwx15_3 hstage15_3

abbrev win15_4 : Pipeline.Window sig grid15 :=
  Pipeline.Window.ofSpec (Memref.whole main_v90) S5000x64.size cc15_transform_4 reads15_4 true false 2 stage15_4 sem15_4
    hrank15 hreads15_4 hinb15_4 nbuf15_4 (Memref.isWhole_whole _) hwx15_4 hstage15_4

abbrev win15 : Fin 5 → Pipeline.Window sig grid15 := fun | 0 => win15_0 | 1 => win15_1 | 2 => win15_2 | 3 => win15_3 | 4 => win15_4 | ⟨_ + 5, h⟩ => absurd h (Nat.not_lt.2 (Nat.le_add_left _ _))
abbrev spec15 : Fin 5 → Pipeline.WinSpec sig grid15.rank := fun w => (win15 w).toWinSpec

abbrev win16_0 : Pipeline.Window sig grid16 :=
  Pipeline.Window.ofSpec (Memref.whole main_v91) S5000x1.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v92) S5000x1.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v93) S5000x64.size cc16_transform_2 reads16_2 false false 2 stage16_2 sem16_2
    hrank16 hreads16_2 hinb16_2 nbuf16_2 (Memref.isWhole_whole _) hwx16_2 hstage16_2

abbrev win16_3 : Pipeline.Window sig grid16 :=
  Pipeline.Window.ofSpec (Memref.whole main_v94_0) S5000x1.size cc16_transform_3 reads16_3 true false 2 stage16_3 sem16_3
    hrank16 hreads16_3 hinb16_3 nbuf16_3 (Memref.isWhole_whole _) hwx16_3 hstage16_3

abbrev win16_4 : Pipeline.Window sig grid16 :=
  Pipeline.Window.ofSpec (Memref.whole main_v94_1) S5000x64.size cc16_transform_4 reads16_4 true false 2 stage16_4 sem16_4
    hrank16 hreads16_4 hinb16_4 nbuf16_4 (Memref.isWhole_whole _) hwx16_4 hstage16_4

abbrev win16 : Fin 5 → Pipeline.Window sig grid16 := fun | 0 => win16_0 | 1 => win16_1 | 2 => win16_2 | 3 => win16_3 | 4 => win16_4 | ⟨_ + 5, h⟩ => absurd h (Nat.not_lt.2 (Nat.le_add_left _ _))
abbrev spec16 : Fin 5 → Pipeline.WinSpec sig grid16.rank := fun w => (win16 w).toWinSpec

abbrev win17_0 : Pipeline.Window sig grid17 :=
  Pipeline.Window.ofSpec (Memref.whole main_v100) S5000x64.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v97) S5000x1.size cc17_transform_1 reads17_1 false false 2 stage17_1 sem17_1
    hrank17 hreads17_1 hinb17_1 nbuf17_1 (Memref.isWhole_whole _) hwx17_1 hstage17_1

abbrev win17_2 : Pipeline.Window sig grid17 :=
  Pipeline.Window.ofSpec (Memref.whole main_v79_2) S5000x1.size cc17_transform_2 reads17_2 false false 2 stage17_2 sem17_2
    hrank17 hreads17_2 hinb17_2 nbuf17_2 (Memref.isWhole_whole _) hwx17_2 hstage17_2

abbrev win17_3 : Pipeline.Window sig grid17 :=
  Pipeline.Window.ofSpec (Memref.whole main_v65) S5000x64.size cc17_transform_3 reads17_3 false false 2 stage17_3 sem17_3
    hrank17 hreads17_3 hinb17_3 nbuf17_3 (Memref.isWhole_whole _) hwx17_3 hstage17_3

abbrev win17_4 : Pipeline.Window sig grid17 :=
  Pipeline.Window.ofSpec (Memref.whole main_v101) S5000x64.size cc17_transform_4 reads17_4 true false 2 stage17_4 sem17_4
    hrank17 hreads17_4 hinb17_4 nbuf17_4 (Memref.isWhole_whole _) hwx17_4 hstage17_4

abbrev win17 : Fin 5 → Pipeline.Window sig grid17 := fun | 0 => win17_0 | 1 => win17_1 | 2 => win17_2 | 3 => win17_3 | 4 => win17_4 | ⟨_ + 5, h⟩ => absurd h (Nat.not_lt.2 (Nat.le_add_left _ _))
abbrev spec17 : Fin 5 → Pipeline.WinSpec sig grid17.rank := fun w => (win17 w).toWinSpec

abbrev win18_0 : Pipeline.Window sig grid18 :=
  Pipeline.Window.ofSpec (Memref.whole main_v90) S5000x64.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_arg14) S64x32.size cc18_transform_1 reads18_1 false true 1 stage18_1 sem18_1
    hrank18 hreads18_1 hinb18_1 nbuf18_1 (Memref.isWhole_whole _) hwx18_1 hstage18_1

abbrev win18_2 : Pipeline.Window sig grid18 :=
  Pipeline.Window.ofSpec (Memref.whole main_arg15) S32.size cc18_transform_2 reads18_2 false true 1 stage18_2 sem18_2
    hrank18 hreads18_2 hinb18_2 nbuf18_2 (Memref.isWhole_whole _) hwx18_2 hstage18_2

abbrev win18_3 : Pipeline.Window sig grid18 :=
  Pipeline.Window.ofSpec (Memref.whole main_v102) S5000x32.size cc18_transform_3 reads18_3 true false 2 stage18_3 sem18_3
    hrank18 hreads18_3 hinb18_3 nbuf18_3 (Memref.isWhole_whole _) hwx18_3 hstage18_3

abbrev win18 : Fin 4 → Pipeline.Window sig grid18 := fun | 0 => win18_0 | 1 => win18_1 | 2 => win18_2 | 3 => win18_3 | ⟨_ + 4, h⟩ => absurd h (Nat.not_lt.2 (Nat.le_add_left _ _))
abbrev spec18 : Fin 4 → Pipeline.WinSpec sig grid18.rank := fun w => (win18 w).toWinSpec

class Facts : Prop extends Facts₀ where

variable [Facts]
-- ==== ReferenceIdeal.lean ====
abbrev S200000x128 : Shape := ⟨2, ![200000, 128]⟩
abbrev S200000x64 : Shape := ⟨2, ![200000, 64]⟩
abbrev S2x2000000 : Shape := ⟨2, ![2, 2000000]⟩
abbrev S128x64 : Shape := ⟨2, ![128, 64]⟩
abbrev S64 : Shape := ⟨1, ![64]⟩
abbrev S64x64 : Shape := ⟨2, ![64, 64]⟩
abbrev S2x64x64 : Shape := ⟨3, ![2, 64, 64]⟩
abbrev S2x64 : Shape := ⟨2, ![2, 64]⟩
abbrev S64x32 : Shape := ⟨2, ![64, 32]⟩
abbrev S32 : Shape := ⟨1, ![32]⟩
abbrev S1x64 : Shape := ⟨2, ![1, 64]⟩
abbrev S_ : Shape := ⟨0, ![]⟩
abbrev S1x64x64 : Shape := ⟨3, ![1, 64, 64]⟩
abbrev S1x2000000 : Shape := ⟨2, ![1, 2000000]⟩
abbrev S2000000 : Shape := ⟨1, ![2000000]⟩
abbrev S64x1 : Shape := ⟨2, ![64, 1]⟩
abbrev S200000x1 : Shape := ⟨2, ![200000, 1]⟩
abbrev S2000000x1 : Shape := ⟨2, ![2000000, 1]⟩
abbrev S2000000x64 : Shape := ⟨2, ![2000000, 64]⟩
abbrev S200000x32 : Shape := ⟨2, ![200000, 32]⟩
abbrev S1x32 : Shape := ⟨2, ![1, 32]⟩

abbrev nBuf : Space → Nat
  | .hbm => 422
  | .vmem => 0
  | .smem => 0
  | _ => 0

abbrev hbmTy0_0 (i : Nat) : BufTy := match i % 128 with
  | 0 => ⟨S200000x128, .f32⟩
  | 1 => ⟨S200000x64, .f32⟩
  | 2 => ⟨S2x2000000, .i32⟩
  | 3 => ⟨S2x2000000, .i32⟩
  | 4 => ⟨S128x64, .f32⟩
  | 5 => ⟨S64, .f32⟩
  | 6 => ⟨S64x64, .f32⟩
  | 7 => ⟨S64, .f32⟩
  | 8 => ⟨S2x64x64, .f32⟩
  | 9 => ⟨S2x64, .f32⟩
  | 10 => ⟨S2x64, .f32⟩
  | 11 => ⟨S2x64, .f32⟩
  | 12 => ⟨S2x64, .f32⟩
  | 13 => ⟨S2x64, .f32⟩
  | 14 => ⟨S64x32, .f32⟩
  | 15 => ⟨S32, .f32⟩
  | 16 => ⟨S200000x64, .f32⟩
  | 17 => ⟨S1x64, .f32⟩
  | 18 => ⟨S200000x64, .f32⟩
  | 19 => ⟨S200000x64, .f32⟩
  | 20 => ⟨S_, .f32⟩
  | 21 => ⟨S200000x64, .f32⟩
  | 22 => ⟨S200000x64, .f32⟩
  | 23 => ⟨S200000x64, .f32⟩
  | 24 => ⟨S1x64, .f32⟩
  | 25 => ⟨S200000x64, .f32⟩
  | 26 => ⟨S200000x64, .f32⟩
  | 27 => ⟨S_, .f32⟩
  | 28 => ⟨S200000x64, .f32⟩
  | 29 => ⟨S200000x64, .f32⟩
  | 30 => ⟨S1x64x64, .f32⟩
  | 31 => ⟨S64x64, .f32⟩
  | 32 => ⟨S200000x64, .f32⟩
  | 33 => ⟨S1x64, .f32⟩
  | 34 => ⟨S64, .f32⟩
  | 35 => ⟨S1x64, .f32⟩
  | 36 => ⟨S200000x64, .f32⟩
  | 37 => ⟨S200000x64, .f32⟩
  | 38 => ⟨S1x64x64, .f32⟩
  | 39 => ⟨S64x64, .f32⟩
  | 40 => ⟨S200000x64, .f32⟩
  | 41 => ⟨S1x64, .f32⟩
  | 42 => ⟨S64, .f32⟩
  | 43 => ⟨S1x64, .f32⟩
  | 44 => ⟨S200000x64, .f32⟩
  | 45 => ⟨S200000x64, .f32⟩
  | 46 => ⟨S1x2000000, .i32⟩
  | 47 => ⟨S2000000, .i32⟩
  | 48 => ⟨S1x2000000, .i32⟩
  | 49 => ⟨S2000000, .i32⟩
  | 50 => ⟨S1x64, .f32⟩
  | 51 => ⟨S64, .f32⟩
  | 52 => ⟨S64x1, .f32⟩
  | 53 => ⟨S1x64, .f32⟩
  | 54 => ⟨S64, .f32⟩
  | 55 => ⟨S64x1, .f32⟩
  | 56 => ⟨S200000x1, .f32⟩
  | 57 => ⟨S200000x1, .f32⟩
  | 58 => ⟨S200000x1, .f32⟩
  | 59 => ⟨S200000x1, .f32⟩
  | 60 => ⟨S_, .f32⟩
  | 61 => ⟨S200000x1, .f32⟩
  | 62 => ⟨S200000x1, .i1⟩
  | 63 => ⟨S_, .f32⟩
  | 64 => ⟨S200000x1, .f32⟩
  | 65 => ⟨S200000x1, .f32⟩
  | 66 => ⟨S200000x1, .f32⟩
  | 67 => ⟨S200000x1, .f32⟩
  | 68 => ⟨S_, .i32⟩
  | 69 => ⟨S2000000, .i32⟩
  | 70 => ⟨S2000000, .i1⟩
  | 71 => ⟨S_, .i32⟩
  | 72 => ⟨S2000000, .i32⟩
  | 73 => ⟨S2000000, .i32⟩
  | 74 => ⟨S2000000, .i32⟩
  | 75 => ⟨S2000000x1, .i32⟩
  | 76 => ⟨S2000000x1, .f32⟩
  | 77 => ⟨S_, .i32⟩
  | 78 => ⟨S2000000, .i32⟩
  | 79 => ⟨S2000000, .i1⟩
  | 80 => ⟨S_, .i32⟩
  | 81 => ⟨S2000000, .i32⟩
  | 82 => ⟨S2000000, .i32⟩
  | 83 => ⟨S2000000, .i32⟩
  | 84 => ⟨S2000000x1, .i32⟩
  | 85 => ⟨S2000000x1, .f32⟩
  | 86 => ⟨S2000000x1, .f32⟩
  | 87 => ⟨S_, .f32⟩
  | 88 => ⟨S2000000x1, .f32⟩
  | 89 => ⟨S2000000x1, .i1⟩
  | 90 => ⟨S_, .f32⟩
  | 91 => ⟨S2000000x1, .f32⟩
  | 92 => ⟨S2000000x1, .f32⟩
  | 93 => ⟨S2000000x1, .f32⟩
  | 94 => ⟨S2000000x1, .f32⟩
  | 95 => ⟨S_, .f32⟩
  | 96 => ⟨S200000x1, .f32⟩
  | 97 => ⟨S2000000x1, .i32⟩
  | 98 => ⟨S200000x1, .f32⟩
  | 99 => ⟨S200000x1, .f32⟩
  | 100 => ⟨S_, .i32⟩
  | 101 => ⟨S2000000, .i32⟩
  | 102 => ⟨S2000000, .i1⟩
  | 103 => ⟨S_, .i32⟩
  | 104 => ⟨S2000000, .i32⟩
  | 105 => ⟨S2000000, .i32⟩
  | 106 => ⟨S2000000, .i32⟩
  | 107 => ⟨S2000000x1, .i32⟩
  | 108 => ⟨S2000000x64, .f32⟩
  | 109 => ⟨S2000000x64, .f32⟩
  | 110 => ⟨S2000000x64, .f32⟩
  | 111 => ⟨S_, .f32⟩
  | 112 => ⟨S200000x64, .f32⟩
  | 113 => ⟨S2000000x1, .i32⟩
  | 114 => ⟨S200000x64, .f32⟩
  | 115 => ⟨S200000x64, .f32⟩
  | 116 => ⟨S200000x64, .f32⟩
  | 117 => ⟨S200000x64, .f32⟩
  | 118 => ⟨S200000x64, .f32⟩
  | 119 => ⟨S200000x64, .f32⟩
  | 120 => ⟨S_, .f32⟩
  | 121 => ⟨S200000x64, .f32⟩
  | 122 => ⟨S200000x64, .i1⟩
  | 123 => ⟨S_, .f32⟩
  | 124 => ⟨S200000x64, .f32⟩
  | 125 => ⟨S200000x64, .i1⟩
  | 126 => ⟨S_, .f32⟩
  | 127 => ⟨S_, .f32⟩
  | _ => ⟨S200000x128, .f32⟩

abbrev hbmTy0_1 (i : Nat) : BufTy := match i % 128 with
  | 0 => ⟨S200000x64, .f32⟩
  | 1 => ⟨S200000x64, .f32⟩
  | 2 => ⟨S200000x64, .f32⟩
  | 3 => ⟨S_, .f32⟩
  | 4 => ⟨S200000x64, .f32⟩
  | 5 => ⟨S200000x64, .f32⟩
  | 6 => ⟨S200000x64, .f32⟩
  | 7 => ⟨S1x2000000, .i32⟩
  | 8 => ⟨S2000000, .i32⟩
  | 9 => ⟨S1x2000000, .i32⟩
  | 10 => ⟨S2000000, .i32⟩
  | 11 => ⟨S1x64, .f32⟩
  | 12 => ⟨S64, .f32⟩
  | 13 => ⟨S64x1, .f32⟩
  | 14 => ⟨S1x64, .f32⟩
  | 15 => ⟨S64, .f32⟩
  | 16 => ⟨S64x1, .f32⟩
  | 17 => ⟨S200000x1, .f32⟩
  | 18 => ⟨S200000x1, .f32⟩
  | 19 => ⟨S200000x1, .f32⟩
  | 20 => ⟨S200000x1, .f32⟩
  | 21 => ⟨S_, .f32⟩
  | 22 => ⟨S200000x1, .f32⟩
  | 23 => ⟨S200000x1, .i1⟩
  | 24 => ⟨S_, .f32⟩
  | 25 => ⟨S200000x1, .f32⟩
  | 26 => ⟨S200000x1, .f32⟩
  | 27 => ⟨S200000x1, .f32⟩
  | 28 => ⟨S200000x1, .f32⟩
  | 29 => ⟨S_, .i32⟩
  | 30 => ⟨S2000000, .i32⟩
  | 31 => ⟨S2000000, .i1⟩
  | 32 => ⟨S_, .i32⟩
  | 33 => ⟨S2000000, .i32⟩
  | 34 => ⟨S2000000, .i32⟩
  | 35 => ⟨S2000000, .i32⟩
  | 36 => ⟨S2000000x1, .i32⟩
  | 37 => ⟨S2000000x1, .f32⟩
  | 38 => ⟨S_, .i32⟩
  | 39 => ⟨S2000000, .i32⟩
  | 40 => ⟨S2000000, .i1⟩
  | 41 => ⟨S_, .i32⟩
  | 42 => ⟨S2000000, .i32⟩
  | 43 => ⟨S2000000, .i32⟩
  | 44 => ⟨S2000000, .i32⟩
  | 45 => ⟨S2000000x1, .i32⟩
  | 46 => ⟨S2000000x1, .f32⟩
  | 47 => ⟨S2000000x1, .f32⟩
  | 48 => ⟨S_, .f32⟩
  | 49 => ⟨S2000000x1, .f32⟩
  | 50 => ⟨S2000000x1, .i1⟩
  | 51 => ⟨S_, .f32⟩
  | 52 => ⟨S2000000x1, .f32⟩
  | 53 => ⟨S2000000x1, .f32⟩
  | 54 => ⟨S2000000x1, .f32⟩
  | 55 => ⟨S2000000x1, .f32⟩
  | 56 => ⟨S_, .f32⟩
  | 57 => ⟨S200000x1, .f32⟩
  | 58 => ⟨S2000000x1, .i32⟩
  | 59 => ⟨S200000x1, .f32⟩
  | 60 => ⟨S200000x1, .f32⟩
  | 61 => ⟨S_, .i32⟩
  | 62 => ⟨S2000000, .i32⟩
  | 63 => ⟨S2000000, .i1⟩
  | 64 => ⟨S_, .i32⟩
  | 65 => ⟨S2000000, .i32⟩
  | 66 => ⟨S2000000, .i32⟩
  | 67 => ⟨S2000000, .i32⟩
  | 68 => ⟨S2000000x1, .i32⟩
  | 69 => ⟨S2000000x64, .f32⟩
  | 70 => ⟨S2000000x64, .f32⟩
  | 71 => ⟨S2000000x64, .f32⟩
  | 72 => ⟨S_, .f32⟩
  | 73 => ⟨S200000x64, .f32⟩
  | 74 => ⟨S2000000x1, .i32⟩
  | 75 => ⟨S200000x64, .f32⟩
  | 76 => ⟨S200000x64, .f32⟩
  | 77 => ⟨S200000x64, .f32⟩
  | 78 => ⟨S200000x64, .f32⟩
  | 79 => ⟨S200000x64, .f32⟩
  | 80 => ⟨S200000x64, .f32⟩
  | 81 => ⟨S_, .f32⟩
  | 82 => ⟨S200000x64, .f32⟩
  | 83 => ⟨S200000x64, .i1⟩
  | 84 => ⟨S_, .f32⟩
  | 85 => ⟨S200000x64, .f32⟩
  | 86 => ⟨S200000x64, .i1⟩
  | 87 => ⟨S_, .f32⟩
  | 88 => ⟨S_, .f32⟩
  | 89 => ⟨S200000x64, .f32⟩
  | 90 => ⟨S200000x64, .f32⟩
  | 91 => ⟨S200000x64, .f32⟩
  | 92 => ⟨S_, .f32⟩
  | 93 => ⟨S200000x64, .f32⟩
  | 94 => ⟨S200000x64, .f32⟩
  | 95 => ⟨S200000x64, .f32⟩
  | 96 => ⟨S1x64x64, .f32⟩
  | 97 => ⟨S64x64, .f32⟩
  | 98 => ⟨S200000x64, .f32⟩
  | 99 => ⟨S1x64, .f32⟩
  | 100 => ⟨S64, .f32⟩
  | 101 => ⟨S1x64, .f32⟩
  | 102 => ⟨S200000x64, .f32⟩
  | 103 => ⟨S200000x64, .f32⟩
  | 104 => ⟨S1x64x64, .f32⟩
  | 105 => ⟨S64x64, .f32⟩
  | 106 => ⟨S200000x64, .f32⟩
  | 107 => ⟨S1x64, .f32⟩
  | 108 => ⟨S64, .f32⟩
  | 109 => ⟨S1x64, .f32⟩
  | 110 => ⟨S200000x64, .f32⟩
  | 111 => ⟨S200000x64, .f32⟩
  | 112 => ⟨S1x2000000, .i32⟩
  | 113 => ⟨S2000000, .i32⟩
  | 114 => ⟨S1x2000000, .i32⟩
  | 115 => ⟨S2000000, .i32⟩
  | 116 => ⟨S1x64, .f32⟩
  | 117 => ⟨S64, .f32⟩
  | 118 => ⟨S64x1, .f32⟩
  | 119 => ⟨S1x64, .f32⟩
  | 120 => ⟨S64, .f32⟩
  | 121 => ⟨S64x1, .f32⟩
  | 122 => ⟨S200000x1, .f32⟩
  | 123 => ⟨S200000x1, .f32⟩
  | 124 => ⟨S200000x1, .f32⟩
  | 125 => ⟨S200000x1, .f32⟩
  | 126 => ⟨S_, .f32⟩
  | 127 => ⟨S200000x1, .f32⟩
  | _ => ⟨S200000x128, .f32⟩

abbrev hbmTy0_2 (i : Nat) : BufTy := match i % 128 with
  | 0 => ⟨S200000x1, .i1⟩
  | 1 => ⟨S_, .f32⟩
  | 2 => ⟨S200000x1, .f32⟩
  | 3 => ⟨S200000x1, .f32⟩
  | 4 => ⟨S200000x1, .f32⟩
  | 5 => ⟨S200000x1, .f32⟩
  | 6 => ⟨S_, .i32⟩
  | 7 => ⟨S2000000, .i32⟩
  | 8 => ⟨S2000000, .i1⟩
  | 9 => ⟨S_, .i32⟩
  | 10 => ⟨S2000000, .i32⟩
  | 11 => ⟨S2000000, .i32⟩
  | 12 => ⟨S2000000, .i32⟩
  | 13 => ⟨S2000000x1, .i32⟩
  | 14 => ⟨S2000000x1, .f32⟩
  | 15 => ⟨S_, .i32⟩
  | 16 => ⟨S2000000, .i32⟩
  | 17 => ⟨S2000000, .i1⟩
  | 18 => ⟨S_, .i32⟩
  | 19 => ⟨S2000000, .i32⟩
  | 20 => ⟨S2000000, .i32⟩
  | 21 => ⟨S2000000, .i32⟩
  | 22 => ⟨S2000000x1, .i32⟩
  | 23 => ⟨S2000000x1, .f32⟩
  | 24 => ⟨S2000000x1, .f32⟩
  | 25 => ⟨S_, .f32⟩
  | 26 => ⟨S2000000x1, .f32⟩
  | 27 => ⟨S2000000x1, .i1⟩
  | 28 => ⟨S_, .f32⟩
  | 29 => ⟨S2000000x1, .f32⟩
  | 30 => ⟨S2000000x1, .f32⟩
  | 31 => ⟨S2000000x1, .f32⟩
  | 32 => ⟨S2000000x1, .f32⟩
  | 33 => ⟨S_, .f32⟩
  | 34 => ⟨S200000x1, .f32⟩
  | 35 => ⟨S2000000x1, .i32⟩
  | 36 => ⟨S200000x1, .f32⟩
  | 37 => ⟨S200000x1, .f32⟩
  | 38 => ⟨S_, .i32⟩
  | 39 => ⟨S2000000, .i32⟩
  | 40 => ⟨S2000000, .i1⟩
  | 41 => ⟨S_, .i32⟩
  | 42 => ⟨S2000000, .i32⟩
  | 43 => ⟨S2000000, .i32⟩
  | 44 => ⟨S2000000, .i32⟩
  | 45 => ⟨S2000000x1, .i32⟩
  | 46 => ⟨S2000000x64, .f32⟩
  | 47 => ⟨S2000000x64, .f32⟩
  | 48 => ⟨S2000000x64, .f32⟩
  | 49 => ⟨S_, .f32⟩
  | 50 => ⟨S200000x64, .f32⟩
  | 51 => ⟨S2000000x1, .i32⟩
  | 52 => ⟨S200000x64, .f32⟩
  | 53 => ⟨S200000x64, .f32⟩
  | 54 => ⟨S200000x64, .f32⟩
  | 55 => ⟨S200000x64, .f32⟩
  | 56 => ⟨S200000x64, .f32⟩
  | 57 => ⟨S200000x64, .f32⟩
  | 58 => ⟨S_, .f32⟩
  | 59 => ⟨S200000x64, .f32⟩
  | 60 => ⟨S200000x64, .i1⟩
  | 61 => ⟨S_, .f32⟩
  | 62 => ⟨S200000x64, .f32⟩
  | 63 => ⟨S200000x64, .i1⟩
  | 64 => ⟨S_, .f32⟩
  | 65 => ⟨S_, .f32⟩
  | 66 => ⟨S200000x64, .f32⟩
  | 67 => ⟨S200000x64, .f32⟩
  | 68 => ⟨S200000x64, .f32⟩
  | 69 => ⟨S_, .f32⟩
  | 70 => ⟨S200000x64, .f32⟩
  | 71 => ⟨S200000x64, .f32⟩
  | 72 => ⟨S200000x64, .f32⟩
  | 73 => ⟨S1x2000000, .i32⟩
  | 74 => ⟨S2000000, .i32⟩
  | 75 => ⟨S1x2000000, .i32⟩
  | 76 => ⟨S2000000, .i32⟩
  | 77 => ⟨S1x64, .f32⟩
  | 78 => ⟨S64, .f32⟩
  | 79 => ⟨S64x1, .f32⟩
  | 80 => ⟨S1x64, .f32⟩
  | 81 => ⟨S64, .f32⟩
  | 82 => ⟨S64x1, .f32⟩
  | 83 => ⟨S200000x1, .f32⟩
  | 84 => ⟨S200000x1, .f32⟩
  | 85 => ⟨S200000x1, .f32⟩
  | 86 => ⟨S200000x1, .f32⟩
  | 87 => ⟨S_, .f32⟩
  | 88 => ⟨S200000x1, .f32⟩
  | 89 => ⟨S200000x1, .i1⟩
  | 90 => ⟨S_, .f32⟩
  | 91 => ⟨S200000x1, .f32⟩
  | 92 => ⟨S200000x1, .f32⟩
  | 93 => ⟨S200000x1, .f32⟩
  | 94 => ⟨S200000x1, .f32⟩
  | 95 => ⟨S_, .i32⟩
  | 96 => ⟨S2000000, .i32⟩
  | 97 => ⟨S2000000, .i1⟩
  | 98 => ⟨S_, .i32⟩
  | 99 => ⟨S2000000, .i32⟩
  | 100 => ⟨S2000000, .i32⟩
  | 101 => ⟨S2000000, .i32⟩
  | 102 => ⟨S2000000x1, .i32⟩
  | 103 => ⟨S2000000x1, .f32⟩
  | 104 => ⟨S_, .i32⟩
  | 105 => ⟨S2000000, .i32⟩
  | 106 => ⟨S2000000, .i1⟩
  | 107 => ⟨S_, .i32⟩
  | 108 => ⟨S2000000, .i32⟩
  | 109 => ⟨S2000000, .i32⟩
  | 110 => ⟨S2000000, .i32⟩
  | 111 => ⟨S2000000x1, .i32⟩
  | 112 => ⟨S2000000x1, .f32⟩
  | 113 => ⟨S2000000x1, .f32⟩
  | 114 => ⟨S_, .f32⟩
  | 115 => ⟨S2000000x1, .f32⟩
  | 116 => ⟨S2000000x1, .i1⟩
  | 117 => ⟨S_, .f32⟩
  | 118 => ⟨S2000000x1, .f32⟩
  | 119 => ⟨S2000000x1, .f32⟩
  | 120 => ⟨S2000000x1, .f32⟩
  | 121 => ⟨S2000000x1, .f32⟩
  | 122 => ⟨S_, .f32⟩
  | 123 => ⟨S200000x1, .f32⟩
  | 124 => ⟨S2000000x1, .i32⟩
  | 125 => ⟨S200000x1, .f32⟩
  | 126 => ⟨S200000x1, .f32⟩
  | 127 => ⟨S_, .i32⟩
  | _ => ⟨S200000x128, .f32⟩

abbrev hbmTy0_3 (i : Nat) : BufTy := match i % 128 with
  | 0 => ⟨S2000000, .i32⟩
  | 1 => ⟨S2000000, .i1⟩
  | 2 => ⟨S_, .i32⟩
  | 3 => ⟨S2000000, .i32⟩
  | 4 => ⟨S2000000, .i32⟩
  | 5 => ⟨S2000000, .i32⟩
  | 6 => ⟨S2000000x1, .i32⟩
  | 7 => ⟨S2000000x64, .f32⟩
  | 8 => ⟨S2000000x64, .f32⟩
  | 9 => ⟨S2000000x64, .f32⟩
  | 10 => ⟨S_, .f32⟩
  | 11 => ⟨S200000x64, .f32⟩
  | 12 => ⟨S2000000x1, .i32⟩
  | 13 => ⟨S200000x64, .f32⟩
  | 14 => ⟨S200000x64, .f32⟩
  | 15 => ⟨S200000x64, .f32⟩
  | 16 => ⟨S200000x64, .f32⟩
  | 17 => ⟨S200000x64, .f32⟩
  | 18 => ⟨S200000x64, .f32⟩
  | 19 => ⟨S_, .f32⟩
  | 20 => ⟨S200000x64, .f32⟩
  | 21 => ⟨S200000x64, .i1⟩
  | 22 => ⟨S_, .f32⟩
  | 23 => ⟨S200000x64, .f32⟩
  | 24 => ⟨S200000x64, .i1⟩
  | 25 => ⟨S_, .f32⟩
  | 26 => ⟨S_, .f32⟩
  | 27 => ⟨S200000x64, .f32⟩
  | 28 => ⟨S200000x64, .f32⟩
  | 29 => ⟨S200000x64, .f32⟩
  | 30 => ⟨S_, .f32⟩
  | 31 => ⟨S200000x64, .f32⟩
  | 32 => ⟨S200000x64, .f32⟩
  | 33 => ⟨S200000x64, .f32⟩
  | 34 => ⟨S200000x32, .f32⟩
  | 35 => ⟨S1x32, .f32⟩
  | 36 => ⟨S200000x32, .f32⟩
  | 37 => ⟨S200000x32, .f32⟩
  | _ => ⟨S200000x128, .f32⟩

abbrev hbmTy (i : Nat) : BufTy := match i / 128 with
  | 0 => hbmTy0_0 i
  | 1 => hbmTy0_1 i
  | 2 => hbmTy0_2 i
  | 3 => hbmTy0_3 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_call1_cst : Ref sig .tc := ⟨.hbm, 27, rfl⟩
abbrev main_call1_v0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst : Ref sig .tc := ⟨.hbm, 60, rfl⟩
abbrev main_v40 : Ref sig .tc := ⟨.hbm, 61, rfl⟩
abbrev main_v41 : Ref sig .tc := ⟨.hbm, 62, rfl⟩
abbrev main_cst_0 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c : Ref sig .tc := ⟨.hbm, 68, rfl⟩
abbrev main_v46 : Ref sig .tc := ⟨.hbm, 69, rfl⟩
abbrev main_v47 : Ref sig .tc := ⟨.hbm, 70, rfl⟩
abbrev main_c_1 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_2 : Ref sig .tc := ⟨.hbm, 77, rfl⟩
abbrev main_v53 : Ref sig .tc := ⟨.hbm, 78, rfl⟩
abbrev main_v54 : Ref sig .tc := ⟨.hbm, 79, rfl⟩
abbrev main_c_3 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_4 : Ref sig .tc := ⟨.hbm, 87, rfl⟩
abbrev main_v61 : Ref sig .tc := ⟨.hbm, 88, rfl⟩
abbrev main_v62 : Ref sig .tc := ⟨.hbm, 89, rfl⟩
abbrev main_cst_5 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_6 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_7 : Ref sig .tc := ⟨.hbm, 100, rfl⟩
abbrev main_v71 : Ref sig .tc := ⟨.hbm, 101, rfl⟩
abbrev main_v72 : Ref sig .tc := ⟨.hbm, 102, rfl⟩
abbrev main_c_8 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_9 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_call4_cst : Ref sig .tc := ⟨.hbm, 120, rfl⟩
abbrev main_call4_v0 : Ref sig .tc := ⟨.hbm, 121, rfl⟩
abbrev main_call4_v1 : Ref sig .tc := ⟨.hbm, 122, rfl⟩
abbrev main_call4_cst_0 : Ref sig .tc := ⟨.hbm, 123, rfl⟩
abbrev main_call4_v2 : Ref sig .tc := ⟨.hbm, 124, rfl⟩
abbrev main_call4_v3 : Ref sig .tc := ⟨.hbm, 125, rfl⟩
abbrev main_call4_cst_1 : Ref sig .tc := ⟨.hbm, 126, rfl⟩
abbrev main_call4_call0_v0 : Ref sig .tc := ⟨.hbm, 127, rfl⟩
abbrev main_call4_call0_v1 : Ref sig .tc := ⟨.hbm, 128, rfl⟩
abbrev main_call4_v4 : Ref sig .tc := ⟨.hbm, 129, rfl⟩
abbrev main_call4_v5 : Ref sig .tc := ⟨.hbm, 130, rfl⟩
abbrev main_call4_cst_2 : Ref sig .tc := ⟨.hbm, 131, rfl⟩
abbrev main_call4_v6 : Ref sig .tc := ⟨.hbm, 132, rfl⟩
abbrev main_call4_v7 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_10 : Ref sig .tc := ⟨.hbm, 149, rfl⟩
abbrev main_v103 : Ref sig .tc := ⟨.hbm, 150, rfl⟩
abbrev main_v104 : Ref sig .tc := ⟨.hbm, 151, rfl⟩
abbrev main_cst_11 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_c_12 : Ref sig .tc := ⟨.hbm, 157, rfl⟩
abbrev main_v109 : Ref sig .tc := ⟨.hbm, 158, rfl⟩
abbrev main_v110 : Ref sig .tc := ⟨.hbm, 159, rfl⟩
abbrev main_c_13 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_c_14 : Ref sig .tc := ⟨.hbm, 166, rfl⟩
abbrev main_v116 : Ref sig .tc := ⟨.hbm, 167, rfl⟩
abbrev main_v117 : Ref sig .tc := ⟨.hbm, 168, rfl⟩
abbrev main_c_15 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_cst_16 : Ref sig .tc := ⟨.hbm, 176, rfl⟩
abbrev main_v124 : Ref sig .tc := ⟨.hbm, 177, rfl⟩
abbrev main_v125 : Ref sig .tc := ⟨.hbm, 178, rfl⟩
abbrev main_cst_17 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_cst_18 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_c_19 : Ref sig .tc := ⟨.hbm, 189, rfl⟩
abbrev main_v134 : Ref sig .tc := ⟨.hbm, 190, rfl⟩
abbrev main_v135 : Ref sig .tc := ⟨.hbm, 191, rfl⟩
abbrev main_c_20 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_cst_21 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_call7_cst : Ref sig .tc := ⟨.hbm, 209, rfl⟩
abbrev main_call7_v0 : Ref sig .tc := ⟨.hbm, 210, rfl⟩
abbrev main_call7_v1 : Ref sig .tc := ⟨.hbm, 211, rfl⟩
abbrev main_call7_cst_0 : Ref sig .tc := ⟨.hbm, 212, rfl⟩
abbrev main_call7_v2 : Ref sig .tc := ⟨.hbm, 213, rfl⟩
abbrev main_call7_v3 : Ref sig .tc := ⟨.hbm, 214, rfl⟩
abbrev main_call7_cst_1 : Ref sig .tc := ⟨.hbm, 215, rfl⟩
abbrev main_call7_call0_v0 : Ref sig .tc := ⟨.hbm, 216, rfl⟩
abbrev main_call7_call0_v1 : Ref sig .tc := ⟨.hbm, 217, rfl⟩
abbrev main_call7_v4 : Ref sig .tc := ⟨.hbm, 218, rfl⟩
abbrev main_call7_v5 : Ref sig .tc := ⟨.hbm, 219, rfl⟩
abbrev main_call7_cst_2 : Ref sig .tc := ⟨.hbm, 220, rfl⟩
abbrev main_call7_v6 : Ref sig .tc := ⟨.hbm, 221, rfl⟩
abbrev main_call7_v7 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_v163 : Ref sig .tc := ⟨.hbm, 235, rfl⟩
abbrev main_v164 : Ref sig .tc := ⟨.hbm, 236, rfl⟩
abbrev main_v165 : Ref sig .tc := ⟨.hbm, 237, rfl⟩
abbrev main_v166 : Ref sig .tc := ⟨.hbm, 238, rfl⟩
abbrev main_v167 : Ref sig .tc := ⟨.hbm, 239, rfl⟩
abbrev main_v168 : Ref sig .tc := ⟨.hbm, 240, rfl⟩
abbrev main_v169 : Ref sig .tc := ⟨.hbm, 241, rfl⟩
abbrev main_v170 : Ref sig .tc := ⟨.hbm, 242, rfl⟩
abbrev main_v171 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_v177 : Ref sig .tc := ⟨.hbm, 249, rfl⟩
abbrev main_v178 : Ref sig .tc := ⟨.hbm, 250, rfl⟩
abbrev main_v179 : Ref sig .tc := ⟨.hbm, 251, rfl⟩
abbrev main_v180 : Ref sig .tc := ⟨.hbm, 252, rfl⟩
abbrev main_v181 : Ref sig .tc := ⟨.hbm, 253, rfl⟩
abbrev main_cst_22 : Ref sig .tc := ⟨.hbm, 254, rfl⟩
abbrev main_v182 : Ref sig .tc := ⟨.hbm, 255, rfl⟩
abbrev main_v183 : Ref sig .tc := ⟨.hbm, 256, rfl⟩
abbrev main_cst_23 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_c_24 : Ref sig .tc := ⟨.hbm, 262, rfl⟩
abbrev main_v188 : Ref sig .tc := ⟨.hbm, 263, rfl⟩
abbrev main_v189 : Ref sig .tc := ⟨.hbm, 264, rfl⟩
abbrev main_c_25 : Ref sig .tc := ⟨.hbm, 265, rfl⟩
abbrev main_v190 : Ref sig .tc := ⟨.hbm, 266, rfl⟩
abbrev main_v191 : Ref sig .tc := ⟨.hbm, 267, rfl⟩
abbrev main_v192 : Ref sig .tc := ⟨.hbm, 268, rfl⟩
abbrev main_v193 : Ref sig .tc := ⟨.hbm, 269, rfl⟩
abbrev main_v194 : Ref sig .tc := ⟨.hbm, 270, rfl⟩
abbrev main_c_26 : Ref sig .tc := ⟨.hbm, 271, rfl⟩
abbrev main_v195 : Ref sig .tc := ⟨.hbm, 272, rfl⟩
abbrev main_v196 : Ref sig .tc := ⟨.hbm, 273, rfl⟩
abbrev main_c_27 : Ref sig .tc := ⟨.hbm, 274, rfl⟩
abbrev main_v197 : Ref sig .tc := ⟨.hbm, 275, rfl⟩
abbrev main_v198 : Ref sig .tc := ⟨.hbm, 276, rfl⟩
abbrev main_v199 : Ref sig .tc := ⟨.hbm, 277, rfl⟩
abbrev main_v200 : Ref sig .tc := ⟨.hbm, 278, rfl⟩
abbrev main_v201 : Ref sig .tc := ⟨.hbm, 279, rfl⟩
abbrev main_v202 : Ref sig .tc := ⟨.hbm, 280, rfl⟩
abbrev main_cst_28 : Ref sig .tc := ⟨.hbm, 281, rfl⟩
abbrev main_v203 : Ref sig .tc := ⟨.hbm, 282, rfl⟩
abbrev main_v204 : Ref sig .tc := ⟨.hbm, 283, rfl⟩
abbrev main_cst_29 : Ref sig .tc := ⟨.hbm, 284, rfl⟩
abbrev main_v205 : Ref sig .tc := ⟨.hbm, 285, rfl⟩
abbrev main_v206 : Ref sig .tc := ⟨.hbm, 286, rfl⟩
abbrev main_v207 : Ref sig .tc := ⟨.hbm, 287, rfl⟩
abbrev main_v208 : Ref sig .tc := ⟨.hbm, 288, rfl⟩
abbrev main_cst_30 : Ref sig .tc := ⟨.hbm, 289, rfl⟩
abbrev main_v209 : Ref sig .tc := ⟨.hbm, 290, rfl⟩
abbrev main_v210 : Ref sig .tc := ⟨.hbm, 291, rfl⟩
abbrev main_v211 : Ref sig .tc := ⟨.hbm, 292, rfl⟩
abbrev main_v212 : Ref sig .tc := ⟨.hbm, 293, rfl⟩
abbrev main_c_31 : Ref sig .tc := ⟨.hbm, 294, rfl⟩
abbrev main_v213 : Ref sig .tc := ⟨.hbm, 295, rfl⟩
abbrev main_v214 : Ref sig .tc := ⟨.hbm, 296, rfl⟩
abbrev main_c_32 : Ref sig .tc := ⟨.hbm, 297, rfl⟩
abbrev main_v215 : Ref sig .tc := ⟨.hbm, 298, rfl⟩
abbrev main_v216 : Ref sig .tc := ⟨.hbm, 299, rfl⟩
abbrev main_v217 : Ref sig .tc := ⟨.hbm, 300, rfl⟩
abbrev main_v218 : Ref sig .tc := ⟨.hbm, 301, rfl⟩
abbrev main_v219 : Ref sig .tc := ⟨.hbm, 302, rfl⟩
abbrev main_v220 : Ref sig .tc := ⟨.hbm, 303, rfl⟩
abbrev main_v221 : Ref sig .tc := ⟨.hbm, 304, rfl⟩
abbrev main_cst_33 : Ref sig .tc := ⟨.hbm, 305, rfl⟩
abbrev main_v222 : Ref sig .tc := ⟨.hbm, 306, rfl⟩
abbrev main_v223 : Ref sig .tc := ⟨.hbm, 307, rfl⟩
abbrev main_v224 : Ref sig .tc := ⟨.hbm, 308, rfl⟩
abbrev main_v225 : Ref sig .tc := ⟨.hbm, 309, rfl⟩
abbrev main_v226 : Ref sig .tc := ⟨.hbm, 310, rfl⟩
abbrev main_v227 : Ref sig .tc := ⟨.hbm, 311, rfl⟩
abbrev main_v228 : Ref sig .tc := ⟨.hbm, 312, rfl⟩
abbrev main_v229 : Ref sig .tc := ⟨.hbm, 313, rfl⟩
abbrev main_call10_cst : Ref sig .tc := ⟨.hbm, 314, rfl⟩
abbrev main_call10_v0 : Ref sig .tc := ⟨.hbm, 315, rfl⟩
abbrev main_call10_v1 : Ref sig .tc := ⟨.hbm, 316, rfl⟩
abbrev main_call10_cst_0 : Ref sig .tc := ⟨.hbm, 317, rfl⟩
abbrev main_call10_v2 : Ref sig .tc := ⟨.hbm, 318, rfl⟩
abbrev main_call10_v3 : Ref sig .tc := ⟨.hbm, 319, rfl⟩
abbrev main_call10_cst_1 : Ref sig .tc := ⟨.hbm, 320, rfl⟩
abbrev main_call10_call0_v0 : Ref sig .tc := ⟨.hbm, 321, rfl⟩
abbrev main_call10_call0_v1 : Ref sig .tc := ⟨.hbm, 322, rfl⟩
abbrev main_call10_v4 : Ref sig .tc := ⟨.hbm, 323, rfl⟩
abbrev main_call10_v5 : Ref sig .tc := ⟨.hbm, 324, rfl⟩
abbrev main_call10_cst_2 : Ref sig .tc := ⟨.hbm, 325, rfl⟩
abbrev main_call10_v6 : Ref sig .tc := ⟨.hbm, 326, rfl⟩
abbrev main_call10_v7 : Ref sig .tc := ⟨.hbm, 327, rfl⟩
abbrev main_v230 : Ref sig .tc := ⟨.hbm, 328, rfl⟩
abbrev main_v231 : Ref sig .tc := ⟨.hbm, 329, rfl⟩
abbrev main_v232 : Ref sig .tc := ⟨.hbm, 330, rfl⟩
abbrev main_v233 : Ref sig .tc := ⟨.hbm, 331, rfl⟩
abbrev main_v234 : Ref sig .tc := ⟨.hbm, 332, rfl⟩
abbrev main_v235 : Ref sig .tc := ⟨.hbm, 333, rfl⟩
abbrev main_v236 : Ref sig .tc := ⟨.hbm, 334, rfl⟩
abbrev main_v237 : Ref sig .tc := ⟨.hbm, 335, rfl⟩
abbrev main_v238 : Ref sig .tc := ⟨.hbm, 336, rfl⟩
abbrev main_v239 : Ref sig .tc := ⟨.hbm, 337, rfl⟩
abbrev main_v240 : Ref sig .tc := ⟨.hbm, 338, rfl⟩
abbrev main_v241 : Ref sig .tc := ⟨.hbm, 339, rfl⟩
abbrev main_v242 : Ref sig .tc := ⟨.hbm, 340, rfl⟩
abbrev main_v243 : Ref sig .tc := ⟨.hbm, 341, rfl⟩
abbrev main_v244 : Ref sig .tc := ⟨.hbm, 342, rfl⟩
abbrev main_cst_34 : Ref sig .tc := ⟨.hbm, 343, rfl⟩
abbrev main_v245 : Ref sig .tc := ⟨.hbm, 344, rfl⟩
abbrev main_v246 : Ref sig .tc := ⟨.hbm, 345, rfl⟩
abbrev main_cst_35 : Ref sig .tc := ⟨.hbm, 346, rfl⟩
abbrev main_v247 : Ref sig .tc := ⟨.hbm, 347, rfl⟩
abbrev main_v248 : Ref sig .tc := ⟨.hbm, 348, rfl⟩
abbrev main_v249 : Ref sig .tc := ⟨.hbm, 349, rfl⟩
abbrev main_v250 : Ref sig .tc := ⟨.hbm, 350, rfl⟩
abbrev main_c_36 : Ref sig .tc := ⟨.hbm, 351, rfl⟩
abbrev main_v251 : Ref sig .tc := ⟨.hbm, 352, rfl⟩
abbrev main_v252 : Ref sig .tc := ⟨.hbm, 353, rfl⟩
abbrev main_c_37 : Ref sig .tc := ⟨.hbm, 354, rfl⟩
abbrev main_v253 : Ref sig .tc := ⟨.hbm, 355, rfl⟩
abbrev main_v254 : Ref sig .tc := ⟨.hbm, 356, rfl⟩
abbrev main_v255 : Ref sig .tc := ⟨.hbm, 357, rfl⟩
abbrev main_v256 : Ref sig .tc := ⟨.hbm, 358, rfl⟩
abbrev main_v257 : Ref sig .tc := ⟨.hbm, 359, rfl⟩
abbrev main_c_38 : Ref sig .tc := ⟨.hbm, 360, rfl⟩
abbrev main_v258 : Ref sig .tc := ⟨.hbm, 361, rfl⟩
abbrev main_v259 : Ref sig .tc := ⟨.hbm, 362, rfl⟩
abbrev main_c_39 : Ref sig .tc := ⟨.hbm, 363, rfl⟩
abbrev main_v260 : Ref sig .tc := ⟨.hbm, 364, rfl⟩
abbrev main_v261 : Ref sig .tc := ⟨.hbm, 365, rfl⟩
abbrev main_v262 : Ref sig .tc := ⟨.hbm, 366, rfl⟩
abbrev main_v263 : Ref sig .tc := ⟨.hbm, 367, rfl⟩
abbrev main_v264 : Ref sig .tc := ⟨.hbm, 368, rfl⟩
abbrev main_v265 : Ref sig .tc := ⟨.hbm, 369, rfl⟩
abbrev main_cst_40 : Ref sig .tc := ⟨.hbm, 370, rfl⟩
abbrev main_v266 : Ref sig .tc := ⟨.hbm, 371, rfl⟩
abbrev main_v267 : Ref sig .tc := ⟨.hbm, 372, rfl⟩
abbrev main_cst_41 : Ref sig .tc := ⟨.hbm, 373, rfl⟩
abbrev main_v268 : Ref sig .tc := ⟨.hbm, 374, rfl⟩
abbrev main_v269 : Ref sig .tc := ⟨.hbm, 375, rfl⟩
abbrev main_v270 : Ref sig .tc := ⟨.hbm, 376, rfl⟩
abbrev main_v271 : Ref sig .tc := ⟨.hbm, 377, rfl⟩
abbrev main_cst_42 : Ref sig .tc := ⟨.hbm, 378, rfl⟩
abbrev main_v272 : Ref sig .tc := ⟨.hbm, 379, rfl⟩
abbrev main_v273 : Ref sig .tc := ⟨.hbm, 380, rfl⟩
abbrev main_v274 : Ref sig .tc := ⟨.hbm, 381, rfl⟩
abbrev main_v275 : Ref sig .tc := ⟨.hbm, 382, rfl⟩
abbrev main_c_43 : Ref sig .tc := ⟨.hbm, 383, rfl⟩
abbrev main_v276 : Ref sig .tc := ⟨.hbm, 384, rfl⟩
abbrev main_v277 : Ref sig .tc := ⟨.hbm, 385, rfl⟩
abbrev main_c_44 : Ref sig .tc := ⟨.hbm, 386, rfl⟩
abbrev main_v278 : Ref sig .tc := ⟨.hbm, 387, rfl⟩
abbrev main_v279 : Ref sig .tc := ⟨.hbm, 388, rfl⟩
abbrev main_v280 : Ref sig .tc := ⟨.hbm, 389, rfl⟩
abbrev main_v281 : Ref sig .tc := ⟨.hbm, 390, rfl⟩
abbrev main_v282 : Ref sig .tc := ⟨.hbm, 391, rfl⟩
abbrev main_v283 : Ref sig .tc := ⟨.hbm, 392, rfl⟩
abbrev main_v284 : Ref sig .tc := ⟨.hbm, 393, rfl⟩
abbrev main_cst_45 : Ref sig .tc := ⟨.hbm, 394, rfl⟩
abbrev main_v285 : Ref sig .tc := ⟨.hbm, 395, rfl⟩
abbrev main_v286 : Ref sig .tc := ⟨.hbm, 396, rfl⟩
abbrev main_v287 : Ref sig .tc := ⟨.hbm, 397, rfl⟩
abbrev main_v288 : Ref sig .tc := ⟨.hbm, 398, rfl⟩
abbrev main_v289 : Ref sig .tc := ⟨.hbm, 399, rfl⟩
abbrev main_v290 : Ref sig .tc := ⟨.hbm, 400, rfl⟩
abbrev main_v291 : Ref sig .tc := ⟨.hbm, 401, rfl⟩
abbrev main_v292 : Ref sig .tc := ⟨.hbm, 402, rfl⟩
abbrev main_call13_cst : Ref sig .tc := ⟨.hbm, 403, rfl⟩
abbrev main_call13_v0 : Ref sig .tc := ⟨.hbm, 404, rfl⟩
abbrev main_call13_v1 : Ref sig .tc := ⟨.hbm, 405, rfl⟩
abbrev main_call13_cst_0 : Ref sig .tc := ⟨.hbm, 406, rfl⟩
abbrev main_call13_v2 : Ref sig .tc := ⟨.hbm, 407, rfl⟩
abbrev main_call13_v3 : Ref sig .tc := ⟨.hbm, 408, rfl⟩
abbrev main_call13_cst_1 : Ref sig .tc := ⟨.hbm, 409, rfl⟩
abbrev main_call13_call0_v0 : Ref sig .tc := ⟨.hbm, 410, rfl⟩
abbrev main_call13_call0_v1 : Ref sig .tc := ⟨.hbm, 411, rfl⟩
abbrev main_call13_v4 : Ref sig .tc := ⟨.hbm, 412, rfl⟩
abbrev main_call13_v5 : Ref sig .tc := ⟨.hbm, 413, rfl⟩
abbrev main_call13_cst_2 : Ref sig .tc := ⟨.hbm, 414, rfl⟩
abbrev main_call13_v6 : Ref sig .tc := ⟨.hbm, 415, rfl⟩
abbrev main_call13_v7 : Ref sig .tc := ⟨.hbm, 416, rfl⟩
abbrev main_v293 : Ref sig .tc := ⟨.hbm, 417, rfl⟩
abbrev main_v294 : Ref sig .tc := ⟨.hbm, 418, rfl⟩
abbrev main_v295 : Ref sig .tc := ⟨.hbm, 419, rfl⟩
abbrev main_v296 : Ref sig .tc := ⟨.hbm, 420, rfl⟩
abbrev main_v297 : Ref sig .tc := ⟨.hbm, 421, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S64_S64x1_0 : S64.BroadcastsInDim S64x1 (![0] : Fin 1 → Fin S64x1.rank)
  bcast_S_S200000x1 : S_.BroadcastsInDim S200000x1 (![] : Fin 0 → Fin S200000x1.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S2000000x1_S2000000x64_0_1 : S2000000x1.BroadcastsInDim S2000000x64 (![0, 1] : Fin 2 → Fin S2000000x64.rank)
  bcast_S200000x1_S200000x64_0_1 : S200000x1.BroadcastsInDim S200000x64 (![0, 1] : Fin 2 → Fin S200000x64.rank)
  slices_S2x64x64_S1x64x64_1_0_0 : S2x64x64.Slices ![1, 0, 0] S1x64x64
  slices_S2x64_S1x64_1_0 : S2x64.Slices ![1, 0] S1x64
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  dot_S200000x128_S128x64_S200000x64_1_0_0_1_n_n_wf : DotDims.WF S200000x128 S128x64 S200000x64 [1] [0] [0] [1] [] []
  dot_S200000x64_S64x64_S200000x64_1_0_0_1_n_n_wf : DotDims.WF S200000x64 S64x64 S200000x64 [1] [0] [0] [1] [] []
  dot_S200000x64_S64x1_S200000x1_1_0_0_1_n_n_wf : DotDims.WF S200000x64 S64x1 S200000x1 [1] [0] [0] [1] [] []
  gather_S200000x1_S2000000x1_S2000000x1_1_0_n_n_0_1_11_wf : GatherDims.WF S200000x1 S2000000x1 S2000000x1 [1] [0] [] [0] [] 1 ![1, 1]
  scatter_S200000x1_S2000000x1_S2000000x1_1_0_0_1_wf : ScatterDims.WF S200000x1 S2000000x1 S2000000x1 [1] [0] [0] 1
  gather_S200000x64_S2000000x1_S2000000x64_1_0_n_n_0_1_164_wf : GatherDims.WF S200000x64 S2000000x1 S2000000x64 [1] [0] [] [0] [] 1 ![1, 64]
  scatter_S200000x64_S2000000x1_S2000000x64_1_0_0_1_wf : ScatterDims.WF S200000x64 S2000000x1 S2000000x64 [1] [0] [0] 1
  dot_S200000x64_S64x32_S200000x32_1_0_0_1_n_n_wf : DotDims.WF S200000x64 S64x32 S200000x32 [1] [0] [0] [1] [] []

variable [Facts₀]

def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def dot_S200000x64_S64x1_S200000x1_1_0_0_1_n_n : DotDims S200000x64 S64x1 S200000x1 where
  lhsContracting := [1]
  rhsContracting := [0]
  lhsNonContracting := [0]
  rhsNonContracting := [1]
  lhsBatch := []
  rhsBatch := []
  wf := dot_S200000x64_S64x1_S200000x1_1_0_0_1_n_n_wf
def gather_S200000x1_S2000000x1_S2000000x1_1_0_n_n_0_1_11 : GatherDims S200000x1 S2000000x1 S2000000x1 where
  offsetDims := [1]
  collapsedSliceDims := [0]
  operandBatchingDims := []
  startIndicesBatchingDims := []
  startIndexMap := [0]
  indexVectorDim := 1
  sliceSizes := ![1, 1]
  wf := gather_S200000x1_S2000000x1_S2000000x1_1_0_n_n_0_1_11_wf
def scatter_S200000x1_S2000000x1_S2000000x1_1_0_0_1 : ScatterDims S200000x1 S2000000x1 S2000000x1 where
  updateWindowDims := [1]
  insertedWindowDims := [0]
  scatterDimsToOperandDims := [0]
  indexVectorDim := 1
  wf := scatter_S200000x1_S2000000x1_S2000000x1_1_0_0_1_wf
def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def dot_S200000x64_S64x32_S200000x32_1_0_0_1_n_n : DotDims S200000x64 S64x32 S200000x32 where
  lhsContracting := [1]
  rhsContracting := [0]
  lhsNonContracting := [0]
  rhsNonContracting := [1]
  lhsBatch := []
  rhsBatch := []
  wf := dot_S200000x64_S64x32_S200000x32_1_0_0_1_n_n_wf

class Facts : Prop extends Facts₀ where

variable [Facts]
-- ==== Proof.KernelRun.lean ====
/-
  The idealized kernel's run with its result named. Every weakly fair execution of @main terminates without a
  fault, and in the final state the result array holds what the last segment boundary holds there: the
  boundary contents are a fold over @main's 44 segments from the launch memory — a stretch of host operations
  applies them, a region replaces its output arrays by what its write-backs leave — and the launch theorem's
  last thread state pins every unscoped buffer, the result among them, to that fold. The sixteen argument
  arrays end as launched.
-/
import proofs.«154843_j76682346102829_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes
-- unfolding plain definitions in a metavariable's type
set_option backward.isDefEq.respectTransparency.types false in
/-- The run: the result array ends at the last boundary's contents, the arguments as launched. -/
theorem run_result : θ_run defs (onTc (τ := τ) (main (F := F))) ⟨m, fun _ => 0, ρ⟩ (fun r => ∀ c : Dev nD,
      r.2.mem ((c.tc : Thread nD τ).loc main_v102) = W44 m ρ c (Proc.devRef .tc main_v102)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W44 m ρ c b)
    (hfin := fun c s' => by
      iintro ⟨⟨Hh, -⟩, HSI⟩
      unfold StableHlo.held
      imodintro
      iapply (pointsTo_read_all (Pipeline.ucRefs τ sig) (fun b => (((c : Thread nD τ)).1, b)) (W44 m ρ c) s')
      isplitl [Hh] <;> iassumption)
    (hQ := fun s h c =>
      ⟨h c _ (mem_uc main_v102 (by decide)),
       (h c _ (mem_uc main_arg0 (by decide))).trans (W44_main_arg0 m ρ c),
       (h c _ (mem_uc main_arg1 (by decide))).trans (W44_main_arg1 m ρ c),
       (h c _ (mem_uc main_arg2 (by decide))).trans (W44_main_arg2 m ρ c),
       (h c _ (mem_uc main_arg3 (by decide))).trans (W44_main_arg3 m ρ c),
       (h c _ (mem_uc main_arg4 (by decide))).trans (W44_main_arg4 m ρ c),
       (h c _ (mem_uc main_arg5 (by decide))).trans (W44_main_arg5 m ρ c),
       (h c _ (mem_uc main_arg6 (by decide))).trans (W44_main_arg6 m ρ c),
       (h c _ (mem_uc main_arg7 (by decide))).trans (W44_main_arg7 m ρ c),
       (h c _ (mem_uc main_arg8 (by decide))).trans (W44_main_arg8 m ρ c),
       (h c _ (mem_uc main_arg9 (by decide))).trans (W44_main_arg9 m ρ c),
       (h c _ (mem_uc main_arg10 (by decide))).trans (W44_main_arg10 m ρ c),
       (h c _ (mem_uc main_arg11 (by decide))).trans (W44_main_arg11 m ρ c),
       (h c _ (mem_uc main_arg12 (by decide))).trans (W44_main_arg12 m ρ c),
       (h c _ (mem_uc main_arg13 (by decide))).trans (W44_main_arg13 m ρ c),
       (h c _ (mem_uc main_arg14 (by decide))).trans (W44_main_arg14 m ρ c),
       (h c _ (mem_uc main_arg15 (by decide))).trans (W44_main_arg15 m ρ c)⟩)

end Cert.KernelIdeal.RunValue

end
-- ==== Proof.Net.lean ====
/-
  The network both programs compute, written once over abstract stage functions.

  Two node sets P and A of 200000 nodes each, two edge types of 2000000 edges each (P→A edges with source row
  `sP` and target row `tP` of the first index array, A→P edges with `sA`, `tA` of the second). An input
  projection with a rectifier per node set; then two hops. A hop applies one dense layer to both node sets,
  computes per node the attention scores (a source score, a cross score for the other edge type, and the
  self-loop weight), gathers the scores and the target rows along the edges, forms each edge's weight and its
  weighted target row, adds them up per source node, and normalises with the self-loop term under an ELU. The
  result is a dense layer on the P nodes after the second hop.

  `Stages` names each stage as a function of whole arrays; `Net` composes them, one definition per
  intermediate value, so that a program's buffers can be identified with these values one stage at a time.
  Arrays are the buffers' contents over the extended reals (index arrays: 32-bit words).
-/
import Idealize.ShloMosaic.PureOps.Ideal
import Idealize.ShloMosaic.Lib.ValueIdx

noncomputable section

namespace Cert.Net

open Idealize.ShloMosaic

/-- Contents of a float array of the given shape over the extended reals. -/
abbrev Arr (r : Nat) (d : Fin r → Nat) : Type := (⟨⟨r, d⟩, .f32⟩ : BufTy).Contents (Elt Ideal)
/-- Contents of a 32-bit index array of the given shape. -/
abbrev Idx (r : Nat) (d : Fin r → Nat) : Type := (⟨⟨r, d⟩, .i32⟩ : BufTy).Contents (Elt Ideal)

abbrev N128 := Arr 2 ![200000, 128]
abbrev N64 := Arr 2 ![200000, 64]
abbrev N1 := Arr 2 ![200000, 1]
abbrev NOut := Arr 2 ![200000, 32]
abbrev W128 := Arr 2 ![128, 64]
abbrev W64 := Arr 2 ![64, 64]
abbrev WOut := Arr 2 ![64, 32]
abbrev B64 := Arr 1 ![64]
abbrev BOut := Arr 1 ![32]
abbrev W3 := Arr 3 ![2, 64, 64]
abbrev B2 := Arr 2 ![2, 64]
abbrev E1 := Arr 2 ![2000000, 1]
abbrev E64 := Arr 2 ![2000000, 64]
abbrev I2 := Idx 2 ![2, 2000000]
abbrev I1 := Idx 1 ![2000000]

/-- The sixteen argument arrays. -/
structure Args where
  xP : N128
  xA : N64
  eiPA : I2
  eiAP : I2
  fc1Pw : W128
  fc1Pb : B64
  fc1Aw : W64
  fc1Ab : B64
  fcsW : W3
  fcsB : B2
  a1PA : B2
  a2PA : B2
  a1AP : B2
  a2AP : B2
  fc2W : WOut
  fc2B : BOut

/-- The stages, each a function of whole arrays. -/
structure Stages where
  /-- `max(x·W + b, 0)` with 128 input features. -/
  relu128 : N128 → W128 → B64 → N64
  /-- `max(x·W + b, 0)` with 64 input features. -/
  relu64 : N64 → W64 → B64 → N64
  /-- `x·W + b`, 64 features to 64. -/
  dense : N64 → W64 → B64 → N64
  /-- `x·W + b`, 64 features to 32. -/
  denseOut : N64 → WOut → BOut → NOut
  /-- Layer `0` resp. `1` of the stacked hop weights. -/
  wRow0 : W3 → W64
  wRow1 : W3 → W64
  /-- Row `0` resp. `1` of a two-row parameter array. -/
  bRow0 : B2 → B64
  bRow1 : B2 → B64
  /-- Row `0` (sources) resp. `1` (targets) of an edge-index array. -/
  iRow0 : I2 → I1
  iRow1 : I2 → I1
  /-- `n ↦ Σ_c x(n,c)·a(c)`. -/
  score : N64 → B64 → N1
  /-- `n ↦ exp(leaky(Σ_c x(n,c)·a1(c) + Σ_c x(n,c)·a2(c)))`. -/
  selfWeight : N64 → B64 → B64 → N1
  /-- A score column read along an index vector. -/
  gCol : N1 → I1 → E1
  /-- Feature rows read along an index vector. -/
  gRow : N64 → I1 → E64
  /-- `e ↦ exp(leaky(x1s(e) + h1t(e)))`. -/
  edgeW : E1 → E1 → E1
  /-- `(e,c) ↦ exp(leaky(x1s(e) + h1t(e)))·ht(e,c)`. -/
  edgeWH : E1 → E1 → E64 → E64
  /-- Per-edge values added up per source node. -/
  segCol : I1 → E1 → N1
  segRow : I1 → E64 → N64
  /-- `elu((agg + w2·x)/(div + w2))`, arguments in the order `agg div w2 x`. -/
  norm : N64 → N1 → N1 → N64 → N64

variable (S : Stages) (A : Args)

def sP : I1 := S.iRow0 A.eiPA
def tP : I1 := S.iRow1 A.eiPA
def sA : I1 := S.iRow0 A.eiAP
def tA : I1 := S.iRow1 A.eiAP

/-! ## Input projection -/
def p0 : N64 := S.relu128 A.xP A.fc1Pw A.fc1Pb
def a0 : N64 := S.relu64 A.xA A.fc1Aw A.fc1Ab

/-! ## First hop -/
def p1 : N64 := S.dense (p0 S A) (S.wRow0 A.fcsW) (S.bRow0 A.fcsB)
def a1 : N64 := S.dense (a0 S A) (S.wRow0 A.fcsW) (S.bRow0 A.fcsB)
def x1PA : N1 := S.score (p1 S A) (S.bRow0 A.a1PA)
def h1AP : N1 := S.score (p1 S A) (S.bRow0 A.a2AP)
def w2PA : N1 := S.selfWeight (p1 S A) (S.bRow0 A.a1PA) (S.bRow0 A.a2PA)
def x1AP : N1 := S.score (a1 S A) (S.bRow0 A.a1AP)
def h1PA : N1 := S.score (a1 S A) (S.bRow0 A.a2PA)
def w2AP : N1 := S.selfWeight (a1 S A) (S.bRow0 A.a1AP) (S.bRow0 A.a2AP)
def x1sPA : E1 := S.gCol (x1PA S A) (sP S A)
def h1tPA : E1 := S.gCol (h1PA S A) (tP S A)
def htPA : E64 := S.gRow (a1 S A) (tP S A)
def w1PA : E1 := S.edgeW (x1sPA S A) (h1tPA S A)
def whPA : E64 := S.edgeWH (x1sPA S A) (h1tPA S A) (htPA S A)
def divPA : N1 := S.segCol (sP S A) (w1PA S A)
def aggPA : N64 := S.segRow (sP S A) (whPA S A)
def p2 : N64 := S.norm (aggPA S A) (divPA S A) (w2PA S A) (p1 S A)
def x1sAP : E1 := S.gCol (x1AP S A) (sA S A)
def h1tAP : E1 := S.gCol (h1AP S A) (tA S A)
def htAP : E64 := S.gRow (p1 S A) (tA S A)
def w1AP : E1 := S.edgeW (x1sAP S A) (h1tAP S A)
def whAP : E64 := S.edgeWH (x1sAP S A) (h1tAP S A) (htAP S A)
def divAP : N1 := S.segCol (sA S A) (w1AP S A)
def aggAP : N64 := S.segRow (sA S A) (whAP S A)
def a2 : N64 := S.norm (aggAP S A) (divAP S A) (w2AP S A) (a1 S A)

/-! ## Second hop (only the P side feeds the result) -/
def p3 : N64 := S.dense (p2 S A) (S.wRow1 A.fcsW) (S.bRow1 A.fcsB)
def a3 : N64 := S.dense (a2 S A) (S.wRow1 A.fcsW) (S.bRow1 A.fcsB)
def x1PA' : N1 := S.score (p3 S A) (S.bRow1 A.a1PA)
def w2PA' : N1 := S.selfWeight (p3 S A) (S.bRow1 A.a1PA) (S.bRow1 A.a2PA)
def h1PA' : N1 := S.score (a3 S A) (S.bRow1 A.a2PA)
def x1sPA' : E1 := S.gCol (x1PA' S A) (sP S A)
def h1tPA' : E1 := S.gCol (h1PA' S A) (tP S A)
def htPA' : E64 := S.gRow (a3 S A) (tP S A)
def w1PA' : E1 := S.edgeW (x1sPA' S A) (h1tPA' S A)
def whPA' : E64 := S.edgeWH (x1sPA' S A) (h1tPA' S A) (htPA' S A)
def divPA' : N1 := S.segCol (sP S A) (w1PA' S A)
def aggPA' : N64 := S.segRow (sP S A) (whPA' S A)
def p4 : N64 := S.norm (aggPA' S A) (divPA' S A) (w2PA' S A) (p3 S A)

/-! ## Output layer -/
def out : NOut := S.denseOut (p4 S A) A.fc2W A.fc2B

end Cert.Net

end
-- ==== Proof.KernelHost.lean ====
/-
  The kernel program's host operations between its device regions, as functions of whole arrays.

  Row `r` of a stacked parameter array is cut out as a one-row slab and re-laid without the unit axis; the two
  rows of an edge-index array likewise give the source and target index vectors. A segment sum adds per-edge
  values into a zero table at the row each edge's source index names (the index vector laid as a column).
  Each lemma `read_…` says what one stretch of host operations leaves in one buffer, as such a function of
  the contents the stretch started from.
-/
import proofs.«154843_j76682346102829_2_alg».proof.Proof.Gen.KernelIdeal.Frame
import proofs.«154843_j76682346102829_2_alg».proof.Proof.Net
import Idealize.ShloMosaic.Lib.StableHlo.Run

set_option maxRecDepth 16384

noncomputable section

namespace Cert.KernelIdeal.HostStage

open Idealize.ShloMosaic Idealize.ShloMosaic.TcCoe Idealize.SL.Sem Idealize.ShloMosaic.StableHlo
open Cert.KernelIdeal Cert.KernelIdeal.Gen

/-- Layer `0` of the stacked hop weights. -/
def wRow0 (w : Cert.Net.W3) : Cert.Net.W64 :=
  shapeCast S64x64 (extractStridedSlice S1x64x64 ![0, 0, 0] w slices_S2x64x64_S1x64x64_0_0_0) shapeCasts_S1x64x64_S64x64
/-- Layer `1` of the stacked hop weights. -/
def wRow1 (w : Cert.Net.W3) : Cert.Net.W64 :=
  shapeCast S64x64 (extractStridedSlice S1x64x64 ![1, 0, 0] w slices_S2x64x64_S1x64x64_1_0_0) shapeCasts_S1x64x64_S64x64
/-- Row `0` of a two-row parameter array. -/
def bRow0 (b : Cert.Net.B2) : Cert.Net.B64 :=
  shapeCast S64 (extractStridedSlice S1x64 ![0, 0] b slices_S2x64_S1x64_0_0) shapeCasts_S1x64_S64
/-- Row `1` of a two-row parameter array. -/
def bRow1 (b : Cert.Net.B2) : Cert.Net.B64 :=
  shapeCast S64 (extractStridedSlice S1x64 ![1, 0] b slices_S2x64_S1x64_1_0) shapeCasts_S1x64_S64
/-- The source indices: row `0` of an edge-index array. -/
def iRow0 (a : Cert.Net.I2) : Cert.Net.I1 :=
  shapeCast S2000000 (extractStridedSlice S1x2000000 ![0, 0] a slices_S2x2000000_S1x2000000_0_0) shapeCasts_S1x2000000_S2000000
/-- The target indices: row `1` of an edge-index array. -/
def iRow1 (a : Cert.Net.I2) : Cert.Net.I1 :=
  shapeCast S2000000 (extractStridedSlice S1x2000000 ![1, 0] a slices_S2x2000000_S1x2000000_1_0) shapeCasts_S1x2000000_S2000000
/-- Per-edge scalars added up per source node, from a zero table. -/
def segCol (i : Cert.Net.I1) (u : Cert.Net.E1) : Cert.Net.N1 :=
  Host.scatterAdd (F := Ideal) scatter_S200000x1_S2000000x1_S2000000x1_1_0_0_1
    (broadcastInDim S200000x1 ![] bcast_S_S200000x1 (constant (F := Ideal) S_ .f32 0x00000000#32))
    (broadcastInDim S2000000x1 ![0] bcast_S2000000_S2000000x1_0 i) u
/-- Per-edge rows added up per source node, from a zero table. -/
def segRow (i : Cert.Net.I1) (u : Cert.Net.E64) : Cert.Net.N64 :=
  Host.scatterAdd (F := Ideal) scatter_S200000x64_S2000000x1_S2000000x64_1_0_0_1
    (broadcastInDim S200000x64 ![] bcast_S_S200000x64 (constant (F := Ideal) S_ .f32 0x00000000#32))
    (broadcastInDim S2000000x1 ![0] bcast_S2000000_S2000000x1_0 i) u

variable (m : (ℓ : Loc nD τ sig) → Buf (Elt Ideal) ℓ) (ρ : Dev nD → PrngReg)

theorem read_v1 (c : Dev nD) : (W1 m ρ c (Proc.devRef .tc main_v1) : Cert.Net.I1) = iRow0 (W0 m ρ c (Proc.devRef .tc main_arg2)) := by
  show StableHlo.after hostOps0 (W0 m ρ c) (Proc.devRef .tc main_v1) = _
  dsimp only [hostOps0]
  after_results
  rfl

theorem read_v3 (c : Dev nD) : (W1 m ρ c (Proc.devRef .tc main_v3) : Cert.Net.I1) = iRow1 (W0 m ρ c (Proc.devRef .tc main_arg2)) := by
  show StableHlo.after hostOps0 (W0 m ρ c) (Proc.devRef .tc main_v3) = _
  dsimp only [hostOps0]
  after_results
  rfl

theorem read_v5 (c : Dev nD) : (W1 m ρ c (Proc.devRef .tc main_v5) : Cert.Net.I1) = iRow0 (W0 m ρ c (Proc.devRef .tc main_arg3)) := by
  show StableHlo.after hostOps0 (W0 m ρ c) (Proc.devRef .tc main_v5) = _
  dsimp only [hostOps0]
  after_results
  rfl

theorem read_v7 (c : Dev nD) : (W1 m ρ c (Proc.devRef .tc main_v7) : Cert.Net.I1) = iRow1 (W0 m ρ c (Proc.devRef .tc main_arg3)) := by
  show StableHlo.after hostOps0 (W0 m ρ c) (Proc.devRef .tc main_v7) = _
  dsimp only [hostOps0]
  after_results
  rfl

theorem read_v11 (c : Dev nD) : (W4 m ρ c (Proc.devRef .tc main_v11) : Cert.Net.W64) = wRow0 (W3 m ρ c (Proc.devRef .tc main_arg8)) := by
  show StableHlo.after hostOps2 (W3 m ρ c) (Proc.devRef .tc main_v11) = _
  dsimp only [hostOps2]
  after_results
  rfl

theorem read_v13 (c : Dev nD) : (W4 m ρ c (Proc.devRef .tc main_v13) : Cert.Net.B64) = bRow0 (W3 m ρ c (Proc.devRef .tc main_arg9)) := by
  show StableHlo.after hostOps2 (W3 m ρ c) (Proc.devRef .tc main_v13) = _
  dsimp only [hostOps2]
  after_results
  rfl

theorem read_v16 (c : Dev nD) : (W6 m ρ c (Proc.devRef .tc main_v16) : Cert.Net.W64) = wRow0 (W5 m ρ c (Proc.devRef .tc main_arg8)) := by
  show StableHlo.after hostOps3 (W5 m ρ c) (Proc.devRef .tc main_v16) = _
  dsimp only [hostOps3]
  after_results
  rfl

theorem read_v18 (c : Dev nD) : (W6 m ρ c (Proc.devRef .tc main_v18) : Cert.Net.B64) = bRow0 (W5 m ρ c (Proc.devRef .tc main_arg9)) := by
  show StableHlo.after hostOps3 (W5 m ρ c) (Proc.devRef .tc main_v18) = _
  dsimp only [hostOps3]
  after_results
  rfl

theorem read_v21 (c : Dev nD) : (W8 m ρ c (Proc.devRef .tc main_v21) : Cert.Net.B64) = bRow0 (W7 m ρ c (Proc.devRef .tc main_arg10)) := by
  show StableHlo.after hostOps4 (W7 m ρ c) (Proc.devRef .tc main_v21) = _
  dsimp only [hostOps4]
  after_results
  rfl

theorem read_v23 (c : Dev nD) : (W8 m ρ c (Proc.devRef .tc main_v23) : Cert.Net.B64) = bRow0 (W7 m ρ c (Proc.devRef .tc main_arg11)) := by
  show StableHlo.after hostOps4 (W7 m ρ c) (Proc.devRef .tc main_v23) = _
  dsimp only [hostOps4]
  after_results
  rfl

theorem read_v25 (c : Dev nD) : (W8 m ρ c (Proc.devRef .tc main_v25) : Cert.Net.B64) = bRow0 (W7 m ρ c (Proc.devRef .tc main_arg13)) := by
  show StableHlo.after hostOps4 (W7 m ρ c) (Proc.devRef .tc main_v25) = _
  dsimp only [hostOps4]
  after_results
  rfl

theorem read_v28 (c : Dev nD) : (W10 m ρ c (Proc.devRef .tc main_v28) : Cert.Net.B64) = bRow0 (W9 m ρ c (Proc.devRef .tc main_arg12)) := by
  show StableHlo.after hostOps5 (W9 m ρ c) (Proc.devRef .tc main_v28) = _
  dsimp only [hostOps5]
  after_results
  rfl

theorem read_v30 (c : Dev nD) : (W10 m ρ c (Proc.devRef .tc main_v30) : Cert.Net.B64) = bRow0 (W9 m ρ c (Proc.devRef .tc main_arg13)) := by
  show StableHlo.after hostOps5 (W9 m ρ c) (Proc.devRef .tc main_v30) = _
  dsimp only [hostOps5]
  after_results
  rfl

theorem read_v32 (c : Dev nD) : (W10 m ρ c (Proc.devRef .tc main_v32) : Cert.Net.B64) = bRow0 (W9 m ρ c (Proc.devRef .tc main_arg11)) := by
  show StableHlo.after hostOps5 (W9 m ρ c) (Proc.devRef .tc main_v32) = _
  dsimp only [hostOps5]
  after_results
  rfl

theorem read_v40 (c : Dev nD) : (W16 m ρ c (Proc.devRef .tc main_v40) : Cert.Net.N1) = segCol (W15 m ρ c (Proc.devRef .tc main_v1)) (W15 m ρ c (Proc.devRef .tc main_v37_0)) := by
  show StableHlo.after hostOps7 (W15 m ρ c) (Proc.devRef .tc main_v40) = _
  dsimp only [hostOps7]
  after_results
  rfl

theorem read_v43 (c : Dev nD) : (W16 m ρ c (Proc.devRef .tc main_v43) : Cert.Net.N64) = segRow (W15 m ρ c (Proc.devRef .tc main_v1)) (W15 m ρ c (Proc.devRef .tc main_v37_1)) := by
  show StableHlo.after hostOps7 (W15 m ρ c) (Proc.devRef .tc main_v43) = _
  dsimp only [hostOps7]
  after_results
  rfl

theorem read_v51 (c : Dev nD) : (W22 m ρ c (Proc.devRef .tc main_v51) : Cert.Net.N1) = segCol (W21 m ρ c (Proc.devRef .tc main_v5)) (W21 m ρ c (Proc.devRef .tc main_v48_0)) := by
  show StableHlo.after hostOps9 (W21 m ρ c) (Proc.devRef .tc main_v51) = _
  dsimp only [hostOps9]
  after_results
  rfl

theorem read_v54 (c : Dev nD) : (W22 m ρ c (Proc.devRef .tc main_v54) : Cert.Net.N64) = segRow (W21 m ρ c (Proc.devRef .tc main_v5)) (W21 m ρ c (Proc.devRef .tc main_v48_1)) := by
  show StableHlo.after hostOps9 (W21 m ρ c) (Proc.devRef .tc main_v54) = _
  dsimp only [hostOps9]
  after_results
  rfl

theorem read_v57 (c : Dev nD) : (W24 m ρ c (Proc.devRef .tc main_v57) : Cert.Net.W64) = wRow1 (W23 m ρ c (Proc.devRef .tc main_arg8)) := by
  show StableHlo.after hostOps10 (W23 m ρ c) (Proc.devRef .tc main_v57) = _
  dsimp only [hostOps10]
  after_results
  rfl

theorem read_v59 (c : Dev nD) : (W24 m ρ c (Proc.devRef .tc main_v59) : Cert.Net.B64) = bRow1 (W23 m ρ c (Proc.devRef .tc main_arg9)) := by
  show StableHlo.after hostOps10 (W23 m ρ c) (Proc.devRef .tc main_v59) = _
  dsimp only [hostOps10]
  after_results
  rfl

theorem read_v62 (c : Dev nD) : (W26 m ρ c (Proc.devRef .tc main_v62) : Cert.Net.W64) = wRow1 (W25 m ρ c (Proc.devRef .tc main_arg8)) := by
  show StableHlo.after hostOps11 (W25 m ρ c) (Proc.devRef .tc main_v62) = _
  dsimp only [hostOps11]
  after_results
  rfl

theorem read_v64 (c : Dev nD) : (W26 m ρ c (Proc.devRef .tc main_v64) : Cert.Net.B64) = bRow1 (W25 m ρ c (Proc.devRef .tc main_arg9)) := by
  show StableHlo.after hostOps11 (W25 m ρ c) (Proc.devRef .tc main_v64) = _
  dsimp only [hostOps11]
  after_results
  rfl

theorem read_v67 (c : Dev nD) : (W28 m ρ c (Proc.devRef .tc main_v67) : Cert.Net.B64) = bRow1 (W27 m ρ c (Proc.devRef .tc main_arg10)) := by
  show StableHlo.after hostOps12 (W27 m ρ c) (Proc.devRef .tc main_v67) = _
  dsimp only [hostOps12]
  after_results
  rfl

theorem read_v69 (c : Dev nD) : (W28 m ρ c (Proc.devRef .tc main_v69) : Cert.Net.B64) = bRow1 (W27 m ρ c (Proc.devRef .tc main_arg11)) := by
  show StableHlo.after hostOps12 (W27 m ρ c) (Proc.devRef .tc main_v69) = _
  dsimp only [hostOps12]
  after_results
  rfl

theorem read_v71 (c : Dev nD) : (W28 m ρ c (Proc.devRef .tc main_v71) : Cert.Net.B64) = bRow1 (W27 m ρ c (Proc.devRef .tc main_arg13)) := by
  show StableHlo.after hostOps12 (W27 m ρ c) (Proc.devRef .tc main_v71) = _
  dsimp only [hostOps12]
  after_results
  rfl

theorem read_v74 (c : Dev nD) : (W30 m ρ c (Proc.devRef .tc main_v74) : Cert.Net.B64) = bRow1 (W29 m ρ c (Proc.devRef .tc main_arg12)) := by
  show StableHlo.after hostOps13 (W29 m ρ c) (Proc.devRef .tc main_v74) = _
  dsimp only [hostOps13]
  after_results
  rfl

theorem read_v76 (c : Dev nD) : (W30 m ρ c (Proc.devRef .tc main_v76) : Cert.Net.B64) = bRow1 (W29 m ρ c (Proc.devRef .tc main_arg13)) := by
  show StableHlo.after hostOps13 (W29 m ρ c) (Proc.devRef .tc main_v76) = _
  dsimp only [hostOps13]
  after_results
  rfl

theorem read_v78 (c : Dev nD) : (W30 m ρ c (Proc.devRef .tc main_v78) : Cert.Net.B64) = bRow1 (W29 m ρ c (Proc.devRef .tc main_arg11)) := by
  show StableHlo.after hostOps13 (W29 m ρ c) (Proc.devRef .tc main_v78) = _
  dsimp only [hostOps13]
  after_results
  rfl

theorem read_v86 (c : Dev nD) : (W36 m ρ c (Proc.devRef .tc main_v86) : Cert.Net.N1) = segCol (W35 m ρ c (Proc.devRef .tc main_v1)) (W35 m ρ c (Proc.devRef .tc main_v83_0)) := by
  show StableHlo.after hostOps15 (W35 m ρ c) (Proc.devRef .tc main_v86) = _
  dsimp only [hostOps15]
  after_results
  rfl

theorem read_v89 (c : Dev nD) : (W36 m ρ c (Proc.devRef .tc main_v89) : Cert.Net.N64) = segRow (W35 m ρ c (Proc.devRef .tc main_v1)) (W35 m ρ c (Proc.devRef .tc main_v83_1)) := by
  show StableHlo.after hostOps15 (W35 m ρ c) (Proc.devRef .tc main_v89) = _
  dsimp only [hostOps15]
  after_results
  rfl

end Cert.KernelIdeal.HostStage

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.LibHostProduct.lean ====
/-
  The host's matrix product and two of its broadcasts, read at an index, at the ideal values.

  For `A : [m, k]` and `B : [k, n]`, the host's product contracting the second axis of `A` with the first of `B` has at
  `(a, b)` the sum over `c` of `A (a, c) · B (c, b)`: it has no accumulator, so this is the whole entry.  An `[a, 1]`
  column laid along the columns of an `[a, b]` array has at `(p, c)` the column's entry `p`, and a vector of length `n`
  laid as a `[1, n]` row has at `(0, q)` its entry `q`.
-/
import Idealize.ShloMosaic.Lib.Pipeline.Value
import Idealize.ShloMosaic.Lib.ValueIdx
import Idealize.ShloMosaic.PureOps.Ideal.Laws

noncomputable section

namespace Cert.HostProduct

open Idealize.ShloMosaic Idealize.ShloMosaic.ValueIdx

/-- The host's `A · B`, read at `(a, b)`: the sum over the shared coordinate of the products. -/
theorem dotGeneral_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

variable {α : Type}

/-- An `[a, 1]` column laid along the columns of an `[a, b]` array: entry `(p, c)` is the column's entry `p`. -/
theorem broadcastInDim_col_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) ?_
  intro ax
  match ax with
  | ⟨0, _⟩ =>
    show p.val = if a = 1 then 0 else p.val
    split
    · have := p.isLt; omega
    · rfl
  | ⟨1, _⟩ =>
    show (0 : ℕ) = if (1 : ℕ) = 1 then 0 else _
    simp

/-- A vector laid as a one-row matrix by the host: entry `(0, q)` is the vector's entry `q`. -/
theorem broadcastInDim_row_apply {n : ℕ} (h : (⟨1, ![n]⟩ : Shape).BroadcastsInDim ⟨2, ![1, n]⟩ ![1])
    (v : (⟨1, ![n]⟩ : Shape).Idx → α) (q : Fin n) :
    broadcastInDim ⟨2, ![1, n]⟩ ![1] h v (ix2 (0 : Fin 1) q) = v (ix1 q) := by
  refine broadcastInDim_apply ![1] h v (ix2 (0 : Fin 1) q) (ix1 q) ?_
  intro ax
  match ax with
  | ⟨0, _⟩ =>
    show q.val = if n = 1 then 0 else q.val
    split
    · have := q.isLt; omega
    · rfl

end Cert.HostProduct

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.LibHostBroadcast.lean ====
/-
  The host's broadcasts of a bias, of a column and of a scalar, read at an index.

  A vector of length `n` placed as a one-row matrix and repeated down `a` rows has at `(p, q)` its entry `q`.  A vector of
  length `a` placed as a one-column matrix and repeated across `b` columns has at `(p, q)` its entry `p`.  A scalar
  repeated over any shape has everywhere its one value.
-/
import Idealize.ShloMosaic.Lib.Pipeline.Value
import Idealize.ShloMosaic.Lib.ValueIdx

noncomputable section

namespace Cert.HostBroadcast

open Idealize.ShloMosaic Idealize.ShloMosaic.ValueIdx

variable {α : Type}

/-- A vector as a `[1, n]` row repeated over `[a, n]`: at `(p, q)` its entry `q`. -/
theorem row_apply {a n : ℕ} (v : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![a, n]⟩ ![0, 1]) (p : Fin a) (q : Fin n) :
    broadcastInDim ⟨2, ![a, n]⟩ ![0, 1] h2 (broadcastInDim ⟨2, ![1, n]⟩ ![1] h1 v) (ix2 p q) = v (ix1 q) := by
  rw [broadcastInDim_apply ![0, 1] h2 _ (ix2 p q) (ix2 (0 : Fin 1) q) (fun ax => by
    match ax with
    | ⟨0, _⟩ => show (0 : ℕ) = if (1 : ℕ) = 1 then 0 else p.val; rw [if_pos rfl]
    | ⟨1, _⟩ =>
      show q.val = if n = 1 then 0 else q.val
      split
      · have := q.isLt; omega
      · rfl)]
  exact broadcastInDim_apply ![1] h1 v (ix2 (0 : Fin 1) q) (ix1 q) (fun ax => by
    match ax with
    | ⟨0, _⟩ =>
      show q.val = if n = 1 then 0 else q.val
      split
      · have := q.isLt; omega
      · rfl)

/-- A vector as an `[a, 1]` column repeated over `[a, b]`: at `(p, q)` its entry `p`. -/
theorem col_apply {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) := by
  rw [broadcastInDim_apply ![0, 1] h2 _ (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])]
  exact broadcastInDim_apply ![0] h1 v (ix2 p (0 : Fin 1)) (ix1 p) (fun ax => by
    match ax with
    | ⟨0, _⟩ =>
      show p.val = if a = 1 then 0 else p.val
      split
      · have := p.isLt; omega
      · rfl)

/-- The same column form one step at a time: an `[a]` vector as an `[a, 1]` column, at `(p, 0)`. -/
theorem col_one_apply {a : ℕ} (v : (⟨1, ![a]⟩ : Shape).Idx → α)
    (h1 : (⟨1, ![a]⟩ : Shape).BroadcastsInDim ⟨2, ![a, 1]⟩ ![0]) (p : Fin a) :
    broadcastInDim ⟨2, ![a, 1]⟩ ![0] h1 v (ix2 p (0 : Fin 1)) = v (ix1 p) :=
  broadcastInDim_apply ![0] h1 v (ix2 p (0 : Fin 1)) (ix1 p) (fun ax => by
    match ax with
    | ⟨0, _⟩ =>
      show p.val = if a = 1 then 0 else p.val
      split
      · have := p.isLt; omega
      · rfl)

/-- An `[a, 1]` column repeated over `[a, b]`, at `(p, q)`: the column's entry `(p, 0)`. -/
theorem col_spread_apply {a b : ℕ} (v : (⟨2, ![a, 1]⟩ : Shape).Idx → α)
    (h2 : (⟨2, ![a, 1]⟩ : Shape).BroadcastsInDim ⟨2, ![a, b]⟩ ![0, 1]) (p : Fin a) (q : Fin b) :
    broadcastInDim ⟨2, ![a, b]⟩ ![0, 1] h2 v (ix2 p q) = v (ix2 p (0 : Fin 1)) :=
  broadcastInDim_apply ![0, 1] h2 v (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])

/-- A scalar repeated over any shape: everywhere its one value. -/
theorem scalar_apply {t : Shape} (x : (⟨0, ![]⟩ : Shape).Idx → α) (dims : Fin 0 → Fin t.rank)
    (h : (⟨0, ![]⟩ : Shape).BroadcastsInDim t dims) (j : t.Idx) :
    broadcastInDim t dims h x j = x ix0 :=
  broadcastInDim_apply dims h x j ix0 (fun ax => ax.elim0)

end Cert.HostBroadcast

end
-- ==== Proof.LibDenseLayer.lean ====
/-
  A dense layer at one entry, and how the device's and the host's vector operations compute it, at the ideal
  values where a float is an extended real and every operation is exact.

  An affine map sends a row z to (sum over c of z c · w (c, q)) + b q; followed by the positive part max(·, 0) it is
  a dense layer.  On the device, a tile product [m, k]·[k, n] into a zero accumulator plus a [1, n] bias row
  repeated down the m rows, read at (p, q), is the affine map of row p; followed by the maximum with the zero
  splat it is the dense layer of row p.  On the host, the product plus a length-n bias vector placed as a row and
  repeated down the rows is the same affine map, and the maximum with the repeated scalar zero the same dense
  layer.  Any extents m, k, n and any operand formats (a change of format is the identity at the ideal values).
-/
import Idealize.ShloMosaic.Lib.Pipeline.Value
import Idealize.ShloMosaic.Lib.ValueIdx
import Idealize.ShloMosaic.PureOps.Ideal.Laws
import proofs.«154843_j76682346102829_2_alg».proof.Proof.LibPlainProduct
import proofs.«154843_j76682346102829_2_alg».proof.Proof.LibHostProduct
import proofs.«154843_j76682346102829_2_alg».proof.Proof.LibRowsProduct
import proofs.«154843_j76682346102829_2_alg».proof.Proof.LibHostBroadcast

noncomputable section

namespace Cert.DenseLayer

open Idealize.ShloMosaic Idealize.ShloMosaic.ValueIdx

/-- The value of the float zero word. -/
abbrev Z : EReal := Ideal.ofBits .f32 0x00000000#32

/-- An affine map at output coordinate q: the row z against column q of w, plus the bias. -/
def affine {k n : ℕ} (z : Fin k → EReal) (w : (⟨2, ![k, n]⟩ : Shape).Idx → EReal) (b : Fin n → EReal) (q : Fin n) : EReal :=
  (∑ c : Fin k, z c * w (ix2 c q)) + b q

/-- A dense layer at output coordinate q: the affine map followed by the positive part. -/
def dense {k n : ℕ} (z : Fin k → EReal) (w : (⟨2, ![k, n]⟩ : Shape).Idx → EReal) (b : Fin n → EReal) (q : Fin n) : EReal :=
  max (affine z w b q) Z

section Device

variable {m k n : ℕ} {φ₁ φ₂ : FTy}

/-- The tile product into a zero accumulator plus a bias row repeated down the rows, at (p, q). -/
theorem tpu_affine_apply (w : DotDims.WF ⟨2, ![m, k]⟩ ⟨2, ![k, n]⟩ ⟨2, ![m, n]⟩ [1] [0] [0] [1] [] [])
    (hb : (⟨2, ![1, n]⟩ : Shape).Broadcasts ⟨2, ![m, n]⟩)
    (A : FVec Ideal ⟨2, ![m, k]⟩ φ₁) (W : FVec Ideal ⟨2, ![k, n]⟩ φ₂) (b : FVec Ideal ⟨2, ![1, n]⟩ .f32)
    (p : Fin m) (q : Fin n) :
    addf (matmul (⟨[1], [0], [0], [1], [], [], w⟩ : DotDims _ _ _) none A W (constant _ .f32 0x00000000#32))
      (broadcastTo ⟨2, ![m, n]⟩ b hb) (ix2 p q)
    = affine (fun c => A (ix2 p c)) W (fun q => b (ix2 (0 : Fin 1) q)) q := by
  rw [addf_apply]
  show FloatOps.matmul _ none A W (constant _ .f32 0x00000000#32) (ix2 p q) + _ = _
  rw [Cert.PlainProduct.matmul_nn_apply, Cert.RowsProduct.broadcastTo_1n_an_apply]
  rfl

/-- The same followed by the maximum with the zero splat: a dense layer of row p. -/
theorem tpu_dense_apply (w : DotDims.WF ⟨2, ![m, k]⟩ ⟨2, ![k, n]⟩ ⟨2, ![m, n]⟩ [1] [0] [0] [1] [] [])
    (hb : (⟨2, ![1, n]⟩ : Shape).Broadcasts ⟨2, ![m, n]⟩)
    (A : FVec Ideal ⟨2, ![m, k]⟩ φ₁) (W : FVec Ideal ⟨2, ![k, n]⟩ φ₂) (b : FVec Ideal ⟨2, ![1, n]⟩ .f32)
    (p : Fin m) (q : Fin n) :
    maximumf (addf (matmul (⟨[1], [0], [0], [1], [], [], w⟩ : DotDims _ _ _) none A W (constant _ .f32 0x00000000#32))
      (broadcastTo ⟨2, ![m, n]⟩ b hb)) (broadcast ⟨2, ![m, n]⟩ (Scalar.ofBits .f32 0x00000000#32)) (ix2 p q)
    = dense (fun c => A (ix2 p c)) W (fun q => b (ix2 (0 : Fin 1) q)) q := by
  rw [maximumf_apply, tpu_affine_apply]
  rfl

end Device

section Host

variable {m k n : ℕ} {φ₁ φ₂ : FTy}

/-- The host's product plus a bias vector repeated down the rows, at (p, q). -/
theorem host_affine_apply (w : DotDims.WF ⟨2, ![m, k]⟩ ⟨2, ![k, n]⟩ ⟨2, ![m, n]⟩ [1] [0] [0] [1] [] [])
    (h1 : (⟨1, ![n]⟩ : Shape).BroadcastsInDim ⟨2, ![1, n]⟩ ![1])
    (h2 : (⟨2, ![1, n]⟩ : Shape).BroadcastsInDim ⟨2, ![m, n]⟩ ![0, 1])
    (A : FVec Ideal ⟨2, ![m, k]⟩ φ₁) (W : FVec Ideal ⟨2, ![k, n]⟩ φ₂) (v : FVec Ideal ⟨1, ![n]⟩ .f32)
    (p : Fin m) (q : Fin n) :
    addf (Host.dotGeneral (⟨[1], [0], [0], [1], [], [], w⟩ : DotDims _ _ _) none A W)
      (broadcastInDim ⟨2, ![m, n]⟩ ![0, 1] h2 (broadcastInDim ⟨2, ![1, n]⟩ ![1] h1 v)) (ix2 p q)
    = affine (fun c => A (ix2 p c)) W (fun q => v (ix1 q)) q := by
  rw [addf_apply, Cert.HostProduct.dotGeneral_nn_apply, Cert.HostBroadcast.row_apply]
  rfl

/-- The same followed by the maximum with the repeated scalar zero: a dense layer of row p. -/
theorem host_dense_apply (w : DotDims.WF ⟨2, ![m, k]⟩ ⟨2, ![k, n]⟩ ⟨2, ![m, n]⟩ [1] [0] [0] [1] [] [])
    (h1 : (⟨1, ![n]⟩ : Shape).BroadcastsInDim ⟨2, ![1, n]⟩ ![1])
    (h2 : (⟨2, ![1, n]⟩ : Shape).BroadcastsInDim ⟨2, ![m, n]⟩ ![0, 1])
    (h0 : (⟨0, ![]⟩ : Shape).BroadcastsInDim ⟨2, ![m, n]⟩ ![])
    (A : FVec Ideal ⟨2, ![m, k]⟩ φ₁) (W : FVec Ideal ⟨2, ![k, n]⟩ φ₂) (v : FVec Ideal ⟨1, ![n]⟩ .f32)
    (p : Fin m) (q : Fin n) :
    maximumf (addf (Host.dotGeneral (⟨[1], [0], [0], [1], [], [], w⟩ : DotDims _ _ _) none A W)
      (broadcastInDim ⟨2, ![m, n]⟩ ![0, 1] h2 (broadcastInDim ⟨2, ![1, n]⟩ ![1] h1 v)))
      (broadcastInDim ⟨2, ![m, n]⟩ ![] h0 (constant (F := Ideal) ⟨0, ![]⟩ .f32 0x00000000#32)) (ix2 p q)
    = dense (fun c => A (ix2 p c)) W (fun q => v (ix1 q)) q := by
  rw [maximumf_apply, host_affine_apply, Cert.HostBroadcast.scalar_apply]
  rfl

end Host

end Cert.DenseLayer

end
-- ==== Proof.DenseSpec.lean ====
/-
  Dense layers over whole arrays, at the ideal values where a float is an extended real.

  For x : [M, K], w : [K, N] and b : [N] the affine map has at (p, q) the sum over c of x (p, c) · w (c, q), plus b q;
  the dense layer is its positive part max(·, 0).  Both are stated index by index through the one-row maps
  `Cert.DenseLayer.affine` and `Cert.DenseLayer.dense`.

  A block of m consecutive rows of either map depends only on the same rows of x: if a function P on [m, N] is,
  row by row, the one-row map of a block X whose row p is row off + p of x, then P at (p, q) is the whole-array map
  at (off + p, q).
-/
import Idealize.ShloMosaic.Lib.ValueIdx
import proofs.«154843_j76682346102829_2_alg».proof.Proof.LibDenseLayer

noncomputable section

namespace Cert.DenseSpec

open Idealize.ShloMosaic Idealize.ShloMosaic.ValueIdx Cert.DenseLayer

variable {M K N : ℕ}

/-- The affine map of a whole array: entry (p, q) is the sum over c of x (p, c) · w (c, q), plus b q. -/
def affineArr (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => affine (fun c => x (ix2 (i 0 : Fin M) c)) w (fun q => b (ix1 q)) (i 1 : Fin N)

/-- The dense layer of a whole array: the affine map followed by the positive part. -/
def denseArr (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => dense (fun c => x (ix2 (i 0 : Fin M) c)) w (fun q => b (ix1 q)) (i 1 : Fin N)

theorem affineArr_apply (x : (⟨2, ![M, K]⟩ : Shape).Idx → EReal) (w : (⟨2, ![K, N]⟩ : Shape).Idx → EReal)
    (b : (⟨1, ![N]⟩ : Shape).Idx → EReal) (p : Fin M) (q : Fin N) :
    affineArr x w b (ix2 p q) = affine (fun c => x (ix2 p c)) w (fun q => b (ix1 q)) q := rfl

theorem denseArr_apply (x : (⟨2, ![M, K]⟩ : Shape).Idx → EReal) (w : (⟨2, ![K, N]⟩ : Shape).Idx → EReal)
    (b : (⟨1, ![N]⟩ : Shape).Idx → EReal) (p : Fin M) (q : Fin N) :
    denseArr x w b (ix2 p q) = dense (fun c => x (ix2 p c)) w (fun q => b (ix1 q)) q := rfl

/-- The dense layer is the positive part of the affine map, entry by entry. -/
theorem denseArr_eq_max (x : (⟨2, ![M, K]⟩ : Shape).Idx → EReal) (w : (⟨2, ![K, N]⟩ : Shape).Idx → EReal)
    (b : (⟨1, ![N]⟩ : Shape).Idx → EReal) (i : (⟨2, ![M, N]⟩ : Shape).Idx) :
    denseArr x w b i = max (affineArr x w b i) Z := rfl

/-- The dense layer as a whole array: the positive part of the affine map. -/
theorem denseArr_eq (x : (⟨2, ![M, K]⟩ : Shape).Idx → EReal) (w : (⟨2, ![K, N]⟩ : Shape).Idx → EReal)
    (b : (⟨1, ![N]⟩ : Shape).Idx → EReal) : denseArr x w b = fun i => max (affineArr x w b i) Z := rfl

/-- The zero offsets of a rank-2 and of a rank-1 rectangle, as constant functions. -/
theorem zero2 : (![0, 0] : Fin 2 → Nat) = fun _ => 0 := funext fun a => by fin_cases a <;> rfl
theorem zero1 : (![0] : Fin 1 → Nat) = fun _ => 0 := funext fun a => by fin_cases a; rfl

/-- A block of m rows of the affine map: if P is row by row the one-row affine map of X (against W', B', which are
    w and b), and row p of X is row off + p of x, then P at an index j is the whole-array map at the index off rows
    further down. -/
theorem affine_block {m : ℕ} (P : (⟨2, ![m, N]⟩ : Shape).Idx → EReal) (X : (⟨2, ![m, K]⟩ : Shape).Idx → EReal)
    (W' w : (⟨2, ![K, N]⟩ : Shape).Idx → EReal) (B' b : (⟨1, ![N]⟩ : Shape).Idx → EReal)
    (hP : ∀ (p : Fin m) (q : Fin N), P (ix2 p q) = affine (fun c => X (ix2 p c)) W' (fun q => B' (ix1 q)) q)
    (hW : W' = w) (hB : B' = b)
    (x : (⟨2, ![M, K]⟩ : Shape).Idx → EReal) (off : ℕ)
    (hX : ∀ (p : Fin m) (r : Fin M) (c : Fin K), r.val = off + p.val → X (ix2 p c) = x (ix2 r c))
    (j : (⟨2, ![m, N]⟩ : Shape).Idx) (i : (⟨2, ![M, N]⟩ : Shape).Idx)
    (h0 : (i 0).val = off + (j 0).val) (h1 : (i 1).val = (j 1).val) :
    P j = affineArr x w b i := by
  subst hW hB
  obtain ⟨p, q, rfl⟩ : ∃ (p : Fin m) (q : Fin N), j = ix2 p q := ⟨j 0, j 1, eq_ix2 j⟩
  obtain ⟨r, q', rfl⟩ : ∃ (r : Fin M) (q' : Fin N), i = ix2 r q' := ⟨i 0, i 1, eq_ix2 i⟩
  have hq : q' = q := Fin.ext h1
  subst hq
  have hr : r.val = off + p.val := h0
  rw [hP, affineArr_apply]
  unfold affine
  congr 1
  exact Finset.sum_congr rfl fun c _ => congrArg (fun v => v * W' (ix2 c q')) (hX p r c hr)

/-- The same for the dense layer. -/
theorem dense_block {m : ℕ} (P : (⟨2, ![m, N]⟩ : Shape).Idx → EReal) (X : (⟨2, ![m, K]⟩ : Shape).Idx → EReal)
    (W' w : (⟨2, ![K, N]⟩ : Shape).Idx → EReal) (B' b : (⟨1, ![N]⟩ : Shape).Idx → EReal)
    (hP : ∀ (p : Fin m) (q : Fin N), P (ix2 p q) = dense (fun c => X (ix2 p c)) W' (fun q => B' (ix1 q)) q)
    (hW : W' = w) (hB : B' = b)
    (x : (⟨2, ![M, K]⟩ : Shape).Idx → EReal) (off : ℕ)
    (hX : ∀ (p : Fin m) (r : Fin M) (c : Fin K), r.val = off + p.val → X (ix2 p c) = x (ix2 r c))
    (j : (⟨2, ![m, N]⟩ : Shape).Idx) (i : (⟨2, ![M, N]⟩ : Shape).Idx)
    (h0 : (i 0).val = off + (j 0).val) (h1 : (i 1).val = (j 1).val) :
    P j = denseArr x w b i := by
  subst hW hB
  obtain ⟨p, q, rfl⟩ : ∃ (p : Fin m) (q : Fin N), j = ix2 p q := ⟨j 0, j 1, eq_ix2 j⟩
  obtain ⟨r, q', rfl⟩ : ∃ (r : Fin M) (q' : Fin N), i = ix2 r q' := ⟨i 0, i 1, eq_ix2 i⟩
  have hq : q' = q := Fin.ext h1
  subst hq
  have hr : r.val = off + p.val := h0
  rw [hP, denseArr_apply]
  unfold dense affine
  congr 2
  exact Finset.sum_congr rfl fun c _ => congrArg (fun v => v * W' (ix2 c q')) (hX p r c hr)

end Cert.DenseSpec

end
-- ==== Proof.DenseStages.lean ====
/-
  The four dense stages of the network as functions of whole arrays: the two input projections with a rectifier
  (128 and 64 input features), the hop layer (64 features to 64) and the output layer (64 features to 32).  Entry
  (p, q) is the sum over c of x (p, c) · w (c, q), plus b q, for the projections followed by the positive part.
-/
import proofs.«154843_j76682346102829_2_alg».proof.Proof.Net
import proofs.«154843_j76682346102829_2_alg».proof.Proof.DenseSpec

noncomputable section

namespace Cert.DenseStages

open Cert.Net Cert.DenseSpec

/-- max(x·w + b, 0) with 128 input features. -/
def relu128 : N128 → W128 → B64 → N64 := fun x w b => denseArr (M := 200000) (K := 128) (N := 64) x w b
/-- max(x·w + b, 0) with 64 input features. -/
def relu64 : N64 → W64 → B64 → N64 := fun x w b => denseArr (M := 200000) (K := 64) (N := 64) x w b
/-- x·w + b, 64 features to 64. -/
def dense : N64 → W64 → B64 → N64 := fun x w b => affineArr (M := 200000) (K := 64) (N := 64) x w b
/-- x·w + b, 64 features to 32. -/
def denseOut : N64 → WOut → BOut → NOut := fun x w b => affineArr (M := 200000) (K := 64) (N := 32) x w b

end Cert.DenseStages

end
-- ==== Proof.ScoreEdgeSpec.lean ====
/-
  The attention-score stage and the edge stage of the network, as functions of whole arrays, index by index.

  Scores of a node table `x : [N, 64]` against a vector `a : [64]`: row `n` gets `Σ_c x(n,c) · a(c)`.  The
  self-loop weight of a node is `exp(leaky(x·a1 + x·a2))`, the weight of an edge `exp(leaky(s + t))` of its source
  and target scores, and the edge's message that weight times the target's feature row.
  `leaky v = v` for `v > 0` and `0.2 · v` otherwise; the constant `0.2` is kept as its binary32 word.
-/
import Idealize.ShloMosaic.PureOps.Ideal
import Idealize.ShloMosaic.Lib.ValueIdx
import proofs.«154843_j76682346102829_2_alg».proof.Proof.Net

noncomputable section

namespace Cert.ScoreEdge

open Idealize.ShloMosaic Idealize.ShloMosaic.ValueIdx Cert.Net

/-- `v` where `v > 0`, else `0.2 · v`. -/
def leaky (v : EReal) : EReal :=
  Scalar.select (Ideal.cmp .ogt v (Ideal.ofBits .f32 0x00000000#32)) v (Ideal.ofBits .f32 0x3E4CCCCD#32 * v)

/-- `exp(leaky v)`. -/
def expLeaky (v : EReal) : EReal := Ideal.exp (leaky v)

/-- The score of every row of `x` against `a`: `Σ_c x(n,c) · a(c)`, as an `[N, 1]` column. -/
def score : N64 → B64 → N1 :=
  fun x a i => ∑ k : Fin 64, (x (ix2 (i 0 : Fin 200000) k) : EReal) * (a (ix1 k) : EReal)

/-- The self-loop weight of every node: `exp(leaky(x·a1 + x·a2))`. -/
def selfWeight : N64 → B64 → B64 → N1 :=
  fun x a1 a2 i => expLeaky (score x a1 i + score x a2 i)

/-- The weight of every edge from its source score `s` and target score `t`: `exp(leaky(s + t))`. -/
def edgeW : E1 → E1 → E1 :=
  fun s t i => expLeaky ((s i : EReal) + (t i : EReal))

/-- The message along every edge: its weight times the target's feature row `h`. -/
def edgeWH : E1 → E1 → E64 → E64 :=
  fun s t h i => (edgeW s t (ix2 (i 0 : Fin 2000000) (0 : Fin 1)) : EReal) * (h i : EReal)

theorem score_apply (x : N64) (a : B64) (n : Fin 200000) :
    score x a (ix2 n (0 : Fin 1)) = ∑ k : Fin 64, (x (ix2 n k) : EReal) * (a (ix1 k) : EReal) := rfl

theorem edgeWH_apply (s t : E1) (h : E64) (e : Fin 2000000) (q : Fin 64) :
    edgeWH s t h (ix2 e q)
      = expLeaky ((s (ix2 e (0 : Fin 1)) : EReal) + (t (ix2 e (0 : Fin 1)) : EReal)) * (h (ix2 e q) : EReal) := rfl

end Cert.ScoreEdge

end
-- ==== Proof.LibMeanAggregate.lean ====
/-
  Mean aggregation commutes with a linear map — the one law that joins the two programs.

  Fix a node. Let `H` be the edges arriving at it, `f e k` the feature `k` of edge `e`'s source row, `w e` the
  edge's weight, `wn k` one column of the neighbour weight matrix, and `d = max D 1` the node's clipped in-degree.
  One program first sums the weighted source rows, scales the sum by `1 / d` and then applies the matrix:

      ∑ k, ((0 + ∑ e ∈ H, f e k · w e) · (1 / d)) · wn k

  the other applies the matrix to every source row first, weights, sums and divides:

      (0 + ∑ e ∈ H, (∑ k, f e k · wn k) · w e) / d.

  Over the reals these agree by exchanging the two finite sums and distributing the products. Over the extended
  reals the same holds as soon as the `f`, `w`, `wn` are real: the divisor `d ≥ 1` is never zero, so dividing by it
  is multiplying by `d⁻¹`, and `d⁻¹` is a real number in `[0, 1]` whatever `D` is (`⊤⁻¹ = 0`); nothing infinite
  enters the sums.
-/
import Idealize.ShloMosaic.PureOps.Ideal

noncomputable section

open scoped BigOperators

namespace Cert.MeanAggregate

open Idealize.ShloMosaic

/-- The inclusion of the reals in the extended reals commutes with finite sums. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- THE LAW OVER THE REALS: scaling the aggregated rows by `c` and then contracting with `wn` is contracting every
    row with `wn` first, then weighting, summing and scaling. -/
theorem aggregate_real {E K : Type} [Fintype K] (H : Finset E) (f : E → K → ℝ) (w : E → ℝ) (wn : K → ℝ) (c : ℝ) :
    ∑ k, ((∑ e ∈ H, f e k * w e) * c) * wn k = (∑ e ∈ H, (∑ k, f e k * wn k) * w e) * c := by
  calc ∑ k, ((∑ e ∈ H, f e k * w e) * c) * wn k
      = ∑ k, ∑ e ∈ H, f e k * w e * c * wn k := by
        refine Finset.sum_congr rfl fun k _ => ?_
        rw [Finset.sum_mul, Finset.sum_mul]
    _ = ∑ e ∈ H, ∑ k, f e k * w e * c * wn k := Finset.sum_comm
    _ = ∑ e ∈ H, (∑ k, f e k * wn k) * w e * c := by
        refine Finset.sum_congr rfl fun e _ => ?_
        rw [Finset.sum_mul, Finset.sum_mul]
        exact Finset.sum_congr rfl fun k _ => by ring
    _ = (∑ e ∈ H, (∑ k, f e k * wn k) * w e) * c := by rw [Finset.sum_mul]

/-- The unit word of single precision denotes the number one. -/
theorem ofBits_one : Ideal.ofBits .f32 0x3F800000#32 = 1 := by
  simp [Ideal.ofBits, Ideal.ieee, -EReal.coe_mul]; norm_num

/-- A degree clipped below at one is never zero, and its inverse is a real number. -/
theorem inv_max_one (D : EReal) : max D 1 ≠ 0 ∧ ∃ c : ℝ, (max D 1)⁻¹ = (c : EReal) := by
  have h1 : (1 : EReal) ≤ max D 1 := le_max_right _ _
  generalize max D 1 = d at h1 ⊢
  refine ⟨fun h0 => ?_, ?_⟩
  · rw [h0] at h1
    exact absurd h1 (by norm_num)
  · induction d using EReal.rec with
    | bot => exact absurd (le_bot_iff.mp h1) (by exact_mod_cast EReal.coe_ne_bot (1 : ℝ))
    | coe r => exact ⟨r⁻¹, (EReal.coe_inv r).symm⟩
    | top => exact ⟨0, by simp⟩

/-- THE LAW OVER THE EXTENDED REALS, in the two programs' own spelling: real features, weights and matrix entries, any
    extended-real degree `D`. -/
theorem aggregate_ereal {E K : Type} [Fintype K] (H : Finset E) (f : E → K → ℝ) (w : E → ℝ) (wn : K → ℝ) (D : EReal) :
    ∑ k, (((0 : EReal) + ∑ e ∈ H, (f e k : EReal) * (w e : EReal)) * Ideal.div 1 (max D 1)) * (wn k : EReal)
      = Ideal.div (0 + ∑ e ∈ H, (∑ k, (f e k : EReal) * (wn k : EReal)) * (w e : EReal)) (max D 1) := by
  obtain ⟨h0, c, hc⟩ := inv_max_one D
  unfold Ideal.div
  rw [if_neg h0, if_neg h0, hc, one_mul, zero_add]
  have hl : ∀ k, (((0 : EReal) + ∑ e ∈ H, (f e k : EReal) * (w e : EReal)) * (c : EReal)) * (wn k : EReal)
      = (((∑ e ∈ H, f e k * w e) * c * wn k : ℝ) : EReal) := fun k => by
    rw [zero_add, EReal.coe_mul, EReal.coe_mul, coe_sum]
    simp only [EReal.coe_mul]
  have hr : ∀ e, (∑ k, (f e k : EReal) * (wn k : EReal)) * (w e : EReal) = (((∑ k, f e k * wn k) * w e : ℝ) : EReal) := fun e => by
    rw [EReal.coe_mul, coe_sum]
    simp only [EReal.coe_mul]
  simp only [hl, hr]
  rw [← coe_sum, ← coe_sum, ← EReal.coe_mul]
  exact congrArg _ (aggregate_real H f w wn c)

end Cert.MeanAggregate

end
-- ==== Proof.LibScaledSum.lean ====
/-
  Two laws of the extended reals that need no finiteness.

  * Scaling a sum. Multiplying by a real number `c ≥ 0` preserves `⊥`, `⊤` and the order of the extended reals and
    sends reals to reals, so it distributes over EVERY finite sum of extended reals — also over a sum that contains
    both infinities (where `⊤ + ⊥ = ⊥` on both sides). Hence, for a divisor `d = max D 1` (never zero, its inverse a
    real in `[0, 1]` whatever `D` is), weighting every term by `1 / d` before the sum is dividing the sum by `d`:

        0 + ∑ e ∈ s, f e · (1 / d)  =  (0 + ∑ e ∈ s, f e) / d        for arbitrary extended reals `f e`.

  * The exponential linear unit in two spellings. `h` above zero and `exp (min h 0) − 1` otherwise is the same
    extended real as `h` above zero and `1 · (exp h' − 1)` otherwise, where `h'` is `0` when `h` is above zero and
    `h` otherwise: off the positive branch `h ≤ 0`, so `min h 0 = h = h'`.
-/
import Idealize.ShloMosaic.PureOps.Ideal
import Idealize.ShloMosaic.PureOps.Ideal.Laws
import Idealize.ShloMosaic.Lib.ValueIdx
import proofs.«154843_j76682346102829_2_alg».proof.Proof.LibMeanAggregate

noncomputable section

open scoped BigOperators

namespace Cert.ScaledSum

open Idealize.ShloMosaic

/-- Multiplication by a nonnegative real distributes over any finite sum of extended reals. -/
theorem sum_mul_coe {ι : Type} (s : Finset ι) (f : ι → EReal) (c : ℝ) (hc : 0 ≤ c) :
    ∑ e ∈ s, f e * (c : EReal) = (∑ e ∈ s, f e) * (c : EReal) := by
  classical
  refine Finset.induction_on s (by simp) ?_
  intro a s ha ih
  rw [Finset.sum_insert ha, Finset.sum_insert ha, ih,
    EReal.right_distrib_of_nonneg_of_ne_top (EReal.coe_nonneg.mpr hc) (EReal.coe_ne_top c)]

/-- A quantity clipped below at one is never zero, and its inverse is a NONNEGATIVE real: the inverse of an extended
    real that is at least one is at least zero. -/
theorem inv_max_one (D : EReal) : max D 1 ≠ 0 ∧ ∃ c : ℝ, 0 ≤ c ∧ (max D 1)⁻¹ = (c : EReal) := by
  obtain ⟨h0, c, hc⟩ := MeanAggregate.inv_max_one D
  refine ⟨h0, c, ?_, hc⟩
  have hpos : (0 : EReal) ≤ max D 1 := le_trans (by norm_num) (le_max_right D 1)
  have hinv : (0 : EReal) ≤ (max D 1)⁻¹ := EReal.inv_nonneg_of_nonneg hpos
  rw [hc] at hinv
  exact_mod_cast hinv

/-- WEIGHTING BEFORE THE SUM IS DIVIDING AFTER IT: for arbitrary extended reals `f e` and any `D`. -/
theorem mean_scaled {ι : Type} (s : Finset ι) (f : ι → EReal) (D : EReal) :
    (0 : EReal) + ∑ e ∈ s, f e * Ideal.div 1 (max D 1) = Ideal.div (0 + ∑ e ∈ s, f e) (max D 1) := by
  obtain ⟨h0, c, hc, hinv⟩ := inv_max_one D
  unfold Ideal.div
  rw [if_neg h0, if_neg h0, hinv, one_mul, zero_add, zero_add]
  exact sum_mul_coe s f c hc

/-- The unit word of single precision denotes the number one. -/
theorem ofBits_one : Ideal.ofBits .f32 0x3F800000#32 = 1 := MeanAggregate.ofBits_one

/-- THE EXPONENTIAL LINEAR UNIT IN ITS TWO SPELLINGS, at any extended real. -/
theorem elu_two_spellings (h : EReal) :
    Scalar.select (Ideal.cmp .ogt h (Ideal.ofBits .f32 0x00000000#32)) h
        (Ideal.ofBits .f32 0x3F800000#32
          * (Ideal.exp (Scalar.select (Ideal.cmp .ogt h (Ideal.ofBits .f32 0x00000000#32)) (Ideal.ofBits .f32 0x00000000#32) h) - 1))
      = Scalar.select (Ideal.cmp .ogt h (Ideal.ofBits .f32 0x00000000#32)) h
        (Ideal.exp (min h (Ideal.ofBits .f32 0x00000000#32)) - Ideal.ofBits .f32 0x3F800000#32) := by
  rw [ofBits_one, Ideal.ofBits_zero_f32]
  by_cases hp : (0 : EReal) < h
  · have hc : Ideal.cmp .ogt h 0 = 1#1 := by simp [Ideal.cmp, hp]
    rw [hc, ValueIdx.select_one, ValueIdx.select_one]
  · have hc : Ideal.cmp .ogt h 0 = 0#1 := by simp [Ideal.cmp, hp]
    have hle : h ≤ 0 := not_lt.mp hp
    rw [hc, ValueIdx.select_zero, ValueIdx.select_zero, ValueIdx.select_zero, one_mul, min_eq_left hle]

end Cert.ScaledSum

end
-- ==== Proof.NormSpec.lean ====
/-
  The normalise-and-ELU stage, index by index, and the second program's spelling of it.

  For a node `n` and a feature `c`, with `agg` the summed weighted neighbour rows, `div` the summed edge weights,
  `w2` the node's self-loop weight and `x` the node's own row:

      y(n, c) = (agg(n, c) + w2(n) · x(n, c)) / (div(n) + w2(n)),      out(n, c) = y if y > 0, else exp(y) − 1.

  The division is the extended reals' (a zero divisor gives its stated value); nothing here needs finiteness: both
  programs apply the same operations to the same entries, and only the spelling of the exponential linear unit
  differs.  One program writes `exp(y) − 1` on the branch `y ≤ 0`; the other writes `1 · (exp(y') − 1)` with
  `y' = 0` where `y > 0` and `y' = y` elsewhere — on the branch that is taken, `y' = y`.
-/
import proofs.«154843_j76682346102829_2_alg».proof.ReferenceIdeal
import proofs.«154843_j76682346102829_2_alg».proof.Proof.Net
import proofs.«154843_j76682346102829_2_alg».proof.Proof.LibHostBroadcast
import proofs.«154843_j76682346102829_2_alg».proof.Proof.LibScaledSum
import Idealize.ShloMosaic.PureOps.Ideal
import Idealize.ShloMosaic.PureOps.Ideal.Laws
import Idealize.ShloMosaic.Lib.ValueIdx

noncomputable section

namespace Cert.NormSpec

open Idealize.ShloMosaic Idealize.ShloMosaic.ValueIdx

/-! ## The stage -/

/-- The exponential linear unit at an extended real: `y` above zero, `exp y − 1` otherwise. -/
def eluAt (y : EReal) : EReal :=
  Scalar.select (Ideal.cmp .ogt y (Ideal.ofBits .f32 0x00000000#32)) y (Ideal.exp y - Ideal.ofBits .f32 0x3F800000#32)

/-- THE STAGE: `elu((agg + w2 · x) / (div + w2))`, the two columns read at the entry's row. -/
def norm : Cert.Net.N64 → Cert.Net.N1 → Cert.Net.N1 → Cert.Net.N64 → Cert.Net.N64 := fun agg div w2 x i =>
  eluAt (Ideal.div
    (agg i + w2 (ix2 (⟨(i 0).val, idx2_lt0 i⟩ : Fin 200000) (0 : Fin 1)) * x i)
    (div (ix2 (⟨(i 0).val, idx2_lt0 i⟩ : Fin 200000) (0 : Fin 1)) + w2 (ix2 (⟨(i 0).val, idx2_lt0 i⟩ : Fin 200000) (0 : Fin 1))))

theorem norm_apply (agg : Cert.Net.N64) (div w2 : Cert.Net.N1) (x : Cert.Net.N64) (p : Fin 200000) (q : Fin 64) :
    norm agg div w2 x (ix2 p q)
      = eluAt (Ideal.div (agg (ix2 p q) + w2 (ix2 p (0 : Fin 1)) * x (ix2 p q)) (div (ix2 p (0 : Fin 1)) + w2 (ix2 p (0 : Fin 1)))) := rfl

/-- THE TWO SPELLINGS OF THE UNIT agree at every extended real: off the positive branch the inner choice returns `y`. -/
theorem elu_spelling (h : EReal) :
    Scalar.select (Ideal.cmp .ogt h (Ideal.ofBits .f32 0x00000000#32)) h
        (Ideal.ofBits .f32 0x3F800000#32
          * (Ideal.exp (Scalar.select (Ideal.cmp .ogt h (Ideal.ofBits .f32 0x00000000#32)) (Ideal.ofBits .f32 0x00000000#32) h) - 1))
      = eluAt h := by
  unfold eluAt
  rw [Cert.ScaledSum.ofBits_one, Ideal.ofBits_zero_f32]
  by_cases hp : (0 : EReal) < h
  · have hc : Ideal.cmp .ogt h 0 = 1#1 := by simp [Ideal.cmp, hp]
    rw [hc, select_one, select_one]
  · have hc : Ideal.cmp .ogt h 0 = 0#1 := by simp [Ideal.cmp, hp]
    rw [hc, select_zero, select_zero, select_zero, one_mul]

/-! ## The second program's operations for the stage -/

section SecondProgram
open Cert.ReferenceIdeal Cert.ReferenceIdeal.Facts₀
variable [Cert.ReferenceIdeal.Facts₀]

/-- The unit as the second program composes it, on a whole array. -/
def refElu : Cert.Net.N64 → Cert.Net.N64 := fun y =>
  select
    (cmpf .ogt y (broadcastInDim S200000x64 ![] bcast_S_S200000x64 (constant (F := Ideal) S_ .f32 0x00000000#32)))
    y
    (mulf (broadcastInDim S200000x64 ![] bcast_S_S200000x64 (constant (F := Ideal) S_ .f32 0x3F800000#32))
      (Host.expm1
        (select
          (cmpf .ogt y (broadcastInDim S200000x64 ![] bcast_S_S200000x64 (constant (F := Ideal) S_ .f32 0x00000000#32)))
          (broadcastInDim S200000x64 ![] bcast_S_S200000x64 (id (constant (F := Ideal) S_ .f32 0x00000000#32)))
          y)))

/-- The stage as the second program composes it. -/
def refNorm : Cert.Net.N64 → Cert.Net.N1 → Cert.Net.N1 → Cert.Net.N64 → Cert.Net.N64 :=
  fun (agg : FVec Ideal S200000x64 .f32) (div w2 : FVec Ideal S200000x1 .f32) (x : FVec Ideal S200000x64 .f32) =>
  refElu
    (Host.divf
      (addf agg (mulf (broadcastInDim S200000x64 ![0, 1] bcast_S200000x1_S200000x64_0_1 w2) x))
      (broadcastInDim S200000x64 ![0, 1] bcast_S200000x1_S200000x64_0_1 (addf div w2)))

/-- The composed unit at an entry is the unit of the entry. -/
theorem refElu_apply (y : Cert.Net.N64) (i : S200000x64.Idx) : refElu y i = eluAt (y i) := by
  have hz : broadcastInDim S200000x64 ![] bcast_S_S200000x64 (constant (F := Ideal) S_ .f32 0x00000000#32) i
      = Ideal.ofBits .f32 0x00000000#32 := Cert.HostBroadcast.scalar_apply _ _ bcast_S_S200000x64 _
  have hz' : broadcastInDim S200000x64 ![] bcast_S_S200000x64 (id (constant (F := Ideal) S_ .f32 0x00000000#32)) i
      = Ideal.ofBits .f32 0x00000000#32 := Cert.HostBroadcast.scalar_apply _ _ bcast_S_S200000x64 _
  have h1 : broadcastInDim S200000x64 ![] bcast_S_S200000x64 (constant (F := Ideal) S_ .f32 0x3F800000#32) i
      = Ideal.ofBits .f32 0x3F800000#32 := Cert.HostBroadcast.scalar_apply _ _ bcast_S_S200000x64 _
  show Scalar.select
      (Ideal.cmp .ogt (y i) (broadcastInDim S200000x64 ![] bcast_S_S200000x64 (constant (F := Ideal) S_ .f32 0x00000000#32) i))
      (y i)
      (broadcastInDim S200000x64 ![] bcast_S_S200000x64 (constant (F := Ideal) S_ .f32 0x3F800000#32) i
        * (Ideal.exp (Scalar.select
            (Ideal.cmp .ogt (y i) (broadcastInDim S200000x64 ![] bcast_S_S200000x64 (constant (F := Ideal) S_ .f32 0x00000000#32) i))
            (broadcastInDim S200000x64 ![] bcast_S_S200000x64 (id (constant (F := Ideal) S_ .f32 0x00000000#32)) i)
            (y i)) - 1)) = eluAt (y i)
  rw [hz, hz', h1]
  exact elu_spelling (y i)

/-- THE SECOND PROGRAM'S OPERATIONS ARE THE STAGE, for arbitrary operand arrays. -/
theorem refNorm_eq : refNorm = norm := by
  funext (agg : FVec Ideal S200000x64 .f32) (div : FVec Ideal S200000x1 .f32) (w2 : FVec Ideal S200000x1 .f32)
    (x : FVec Ideal S200000x64 .f32) i
  obtain ⟨p, q, rfl⟩ : ∃ (p : Fin 200000) (q : Fin 64), i = ix2 p q := ⟨i 0, i 1, eq_ix2 i⟩
  have hw : broadcastInDim S200000x64 ![0, 1] bcast_S200000x1_S200000x64_0_1 w2 (ix2 p q) = w2 (ix2 p (0 : Fin 1)) :=
    Cert.HostBroadcast.col_spread_apply w2 bcast_S200000x1_S200000x64_0_1 p q
  have hd : broadcastInDim S200000x64 ![0, 1] bcast_S200000x1_S200000x64_0_1 (addf div w2) (ix2 p q)
      = div (ix2 p (0 : Fin 1)) + w2 (ix2 p (0 : Fin 1)) :=
    Cert.HostBroadcast.col_spread_apply (addf div w2) bcast_S200000x1_S200000x64_0_1 p q
  unfold refNorm
  rw [refElu_apply, norm_apply]
  show eluAt (Ideal.div
      (agg (ix2 p q) + broadcastInDim S200000x64 ![0, 1] bcast_S200000x1_S200000x64_0_1 w2 (ix2 p q) * x (ix2 p q))
      (broadcastInDim S200000x64 ![0, 1] bcast_S200000x1_S200000x64_0_1 (addf div w2) (ix2 p q))) = _
  rw [hw, hd]

end SecondProgram

end Cert.NormSpec

end
-- ==== Proof.LibRowGatherScatter.lean ====
/-
  Rows taken by index and rows added by index, read at one element.

  For a table `x : [N, C]` and a column of integers `idx : [E, 1]`:

  * taking rows — the gather whose result `[E, C]` has in row `e` the row of `x` that `idx (e, 0)` names — reads at
    `(e, c)` the entry `x (r, c)`, where `r` is `idx (e, 0)` as a signed integer brought into `[0, N − 1]`;
  * adding rows — the scatter that adds row `e` of `u : [E, C]` onto the row of `x` that `idx (e, 0)` names, a row
    named outside `[0, N)` being dropped — has at `(n, c)`, over the extended reals, the entry `x (n, c)` plus the sum
    of `u (e, c)` over exactly those `e` whose integer `idx (e, 0)` is `n`.

  The columns never mix: entry `(·, c)` of either result depends on column `c` only.
-/
import Idealize.ShloMosaic.Lib.ValueIdx
import Idealize.ShloMosaic.PureOps.Ideal.Laws

noncomputable section

open scoped BigOperators

namespace Cert.RowGatherScatter

open Idealize.ShloMosaic Idealize.ShloMosaic.ValueIdx

/-! ## Taking rows -/

section Gather
variable {α : Type}

/-- The dimension numbers of "take the rows `idx` of an `[N, C]` table": the row axis collapsed and indexed, the
    column axis carried whole. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row that entry `e` of the index column names: its integer read signed and brought into `[0, N − 1]`. -/
def rowOf {N E w : Nat} (hN : 0 < N) (idx : IVec ⟨2, ![E, 1]⟩ w) (e : Fin E) : Fin N :=
  ⟨min (idx (ix2 e 0)).toInt.toNat (N - 1), by omega⟩

/-- THE ROWS TAKEN, READ AT `(e, c)`: the table at the named row and the same column. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (rowOf hN idx e) c) := by
  unfold Host.gather
  refine congrArg x ?_
  funext a
  refine Fin.ext ?_
  match a with
  | ⟨0, _⟩ =>
    show (rowGatherDims N E C wf).start (ix2 e c) idx 0 + (rowGatherDims N E C wf).batchCoord (ix2 e c) 0
        + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
        + (rowGatherDims N E C wf).offCoord (ix2 e c) 1 = _
    rw [GatherDims.batchCoord_eq_zero _ _ _ List.not_mem_nil]
    unfold GatherDims.start
    rw [dif_neg (show (1 : Fin 2) ∉ (rowGatherDims N E C wf).startIndexMap from (by decide : (1 : Fin 2) ∉ ([0] : List (Fin 2))))]
    simp only [Nat.add_zero, Nat.zero_add]
    rfl

end Gather

/-! ## Adding rows -/

section Scatter

/-- The dimension numbers of "add the rows of `u : [E, C]` onto the rows `idx` of an `[N, C]` table": the row axis
    inserted and indexed, the column axis the update's window. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- Update `(e, c)` starts, on the row axis, at the integer `idx (e, 0)` read signed. -/
theorem start_row (idx : IVec ⟨2, ![E, 1]⟩ w) (e : Fin E) (c : Fin C) :
    (rowScatterDims N E C wf).start (ix2 e c) idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e c) ⟨List.idxOf (0 : Fin 2) (rowScatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the column axis at zero; -/
theorem start_col (idx : IVec ⟨2, ![E, 1]⟩ w) (e : Fin E) (c : Fin C) :
    (rowScatterDims N E C wf).start (ix2 e c) idx 1 = 0 := by
  unfold ScatterDims.start
  rw [dif_neg (show (1 : Fin 2) ∉ (rowScatterDims N E C wf).scatterDimsToOperandDims from (by decide : (1 : Fin 2) ∉ ([0] : List (Fin 2))))]

/-- its window coordinate is nothing on the row axis -/
theorem window_row (e : Fin E) (c : Fin C) : (rowScatterDims N E C wf).window (ix2 e c) 0 = 0 := by
  unfold ScatterDims.window
  rw [dif_neg (show (0 : Fin 2) ∉ (rowScatterDims N E C wf).sKept from
    (by decide : (0 : Fin 2) ∉ (List.finRange 2).filter (· ∉ ([0] : List (Fin 2)))))]

/-- and its own column on the column axis. -/
theorem window_col (e : Fin E) (c : Fin C) : (rowScatterDims N E C wf).window (ix2 e c) 1 = c.val := by
  unfold ScatterDims.window
  rw [dif_pos (show (1 : Fin 2) ∈ (rowScatterDims N E C wf).sKept from
    (by decide : (1 : Fin 2) ∈ (List.finRange 2).filter (· ∉ ([0] : List (Fin 2)))))]
  rfl

/-- WHERE UPDATE `(e, c)` LANDS: on `(n, c')` exactly when its integer is `n` and the columns agree. -/
theorem resultIdx?_rows (idx : IVec ⟨2, ![E, 1]⟩ w) (e : Fin E) (c : Fin C) (n : Fin N) (c' : Fin C) :
    (rowScatterDims N E C wf).resultIdx? (ix2 e c) idx = some (ix2 n c') ↔ (idx (ix2 e 0)).toInt = (n.val : Int) ∧ c = c' := by
  unfold ScatterDims.resultIdx?
  constructor
  · intro h
    split at h
    · rename_i hin
      have h' := Option.some.inj h
      have h0 := congrArg (fun f => (f 0).val) h'
      have h1 := congrArg (fun f => (f 1).val) h'
      simp only [start_row, start_col, window_row, window_col] at h0 h1
      have hb := hin 0
      rw [start_row, window_row] at hb
      refine ⟨?_, Fin.ext ?_⟩
      · have : ((idx (ix2 e 0)).toInt + ((0 : Nat) : Int)).toNat = n.val := h0
        omega
      · have : (((0 : Int)) + ((c.val : Nat) : Int)).toNat = c'.val := h1
        omega
    · exact absurd h (by simp)
  · rintro ⟨hr, rfl⟩
    have h0 : 0 ≤ (rowScatterDims N E C wf).start (ix2 e c) idx 0 + (rowScatterDims N E C wf).window (ix2 e c) 0
        ∧ (rowScatterDims N E C wf).start (ix2 e c) idx 0 + (rowScatterDims N E C wf).window (ix2 e c) 0
          < (⟨2, ![N, C]⟩ : Shape).size 0 := by
      rw [start_row, window_row, hr]
      have := n.isLt
      refine ⟨by omega, ?_⟩
      show ((n.val : Int) + ((0 : Nat) : Int)) < ((N : Nat) : Int)
      omega
    have h1 : 0 ≤ (rowScatterDims N E C wf).start (ix2 e c) idx 1 + (rowScatterDims N E C wf).window (ix2 e c) 1
        ∧ (rowScatterDims N E C wf).start (ix2 e c) idx 1 + (rowScatterDims N E C wf).window (ix2 e c) 1
          < (⟨2, ![N, C]⟩ : Shape).size 1 := by
      rw [start_col, window_col]
      have := c.isLt
      refine ⟨by omega, ?_⟩
      show ((0 : Int) + ((c.val : Nat) : Int)) < ((C : Nat) : Int)
      omega
    have hin : ∀ a : Fin 2, 0 ≤ (rowScatterDims N E C wf).start (ix2 e c) idx a + (rowScatterDims N E C wf).window (ix2 e c) a
        ∧ (rowScatterDims N E C wf).start (ix2 e c) idx a + (rowScatterDims N E C wf).window (ix2 e c) a
          < (⟨2, ![N, C]⟩ : Shape).size a := fun a => match a with
      | ⟨0, _⟩ => h0
      | ⟨1, _⟩ => h1
    rw [dif_pos hin]
    refine congrArg some ?_
    funext a
    refine Fin.ext ?_
    match a with
    | ⟨0, _⟩ =>
      show ((rowScatterDims N E C wf).start (ix2 e c) idx 0 + (rowScatterDims N E C wf).window (ix2 e c) 0).toNat = n.val
      rw [start_row, window_row, hr]; omega
    | ⟨1, _⟩ =>
      show ((rowScatterDims N E C wf).start (ix2 e c) idx 1 + (rowScatterDims N E C wf).window (ix2 e c) 1).toNat = c.val
      rw [start_col, window_col]; omega

/-- The updates that land in row `n`: the entries of the index column whose integer is `n`. -/
def hits (idx : IVec ⟨2, ![E, 1]⟩ w) (n : Fin N) : Finset (Fin E) :=
  Finset.univ.filter fun e => (idx (ix2 e 0)).toInt = (n.val : Int)

/-- THE ROWS ADDED, READ AT `(n, c)` over the extended reals: the table's entry plus the sum, over the updates that
    land in row `n`, of their entries in column `c`. -/
theorem scatterAdd_rows_apply (x : FVec Ideal ⟨2, ![N, C]⟩ .f32) (idx : IVec ⟨2, ![E, 1]⟩ w)
    (u : FVec Ideal ⟨2, ![E, C]⟩ .f32) (n : Fin N) (c : Fin C) :
    Host.scatterAdd (rowScatterDims N E C wf) x idx u (ix2 n c) = x (ix2 n c) + ∑ e ∈ hits idx n, u (ix2 e c) := by
  show Ideal.hostScatterAdd (rowScatterDims N E C wf) x idx u (ix2 n c) = _
  unfold Ideal.hostScatterAdd
  refine congrArg (fun s => x (ix2 n c) + s) ?_
  rw [Finset.sum_filter, sum_idx2]
  unfold hits
  rw [Finset.sum_filter]
  refine Finset.sum_congr rfl fun e _ => ?_
  by_cases he : (idx (ix2 e 0)).toInt = (n.val : Int)
  · rw [if_pos he]
    rw [Finset.sum_eq_single c]
    · rw [if_pos ((resultIdx?_rows wf idx e c n c).mpr ⟨he, rfl⟩)]
    · intro c' _ hc'
      rw [if_neg (fun h => hc' ((resultIdx?_rows wf idx e c' n c).mp h).2)]
    · intro h; exact absurd (Finset.mem_univ c) h
  · rw [if_neg he]
    refine Finset.sum_eq_zero fun c' _ => ?_
    rw [if_neg (fun h => he ((resultIdx?_rows wf idx e c' n c).mp h).1)]

end Scatter

end Cert.RowGatherScatter

end
-- ==== Proof.LibJoinIota.lean ====
/-
  Two vectors joined end to end, the vector of positions, and the words that name a position — read at one element.

  * Joining: for `a : [A]` and `b : [B]` the vector `[C]`, `C = A + B`, that is `a` followed by `b` reads at `j` the
    entry `a j` when `j < A` and the entry `b (j − A)` when `A ≤ j`.
  * Positions: the vector `[N]` whose entry `n` is the 32-bit word of `n`; while `N ≤ 2³¹` that word, read as a signed
    integer, is `n` itself.
  * Words that name a position: a 32-bit word whose signed integer is a natural number `k < K` (with `K < 2³¹`) is
    not negative, so the rule "add `K` to a negative index" leaves it as it is, and bringing its integer into
    `[0, K − 1]` gives `k`. Stated for every such `K` and at `K = 100000`.
  * The comparison, the sum and the choice of integer vectors read at an index are those of the entries.
-/
import Idealize.ShloMosaic.Lib.ValueIdx
import Idealize.ShloMosaic.Lib.Pipeline.Value
import Idealize.ShloMosaic.Lib.WordArith
import Idealize.ShloMosaic.Lib.Affine

noncomputable section

namespace Cert.JoinIota

open Idealize.ShloMosaic Idealize.ShloMosaic.ValueIdx

/-! ## Two vectors joined end to end -/

section Join
variable {α : Type} {A B C : Nat}

/-- The joined vector is as long as the two together. -/
theorem join_extent (h : Shape.Concatenates [(⟨1, ![A]⟩ : Shape), ⟨1, ![B]⟩] ⟨1, ![C]⟩ 0) : C = A + B := by
  have e : A + (B + 0) = C := h.2.2
  omega

/-- THE JOINED VECTOR READ IN ITS FIRST PART: at `j < A` it is the first vector at `j`. -/
theorem join_left_apply (a : (⟨1, ![A]⟩ : Shape).Idx → α) (b : (⟨1, ![B]⟩ : Shape).Idx → α)
    (h : Shape.Concatenates [(⟨1, ![A]⟩ : Shape), ⟨1, ![B]⟩] ⟨1, ![C]⟩ 0) (j : Fin C) (hj : j.val < A) :
    concatenate ⟨1, ![C]⟩ 0 [⟨⟨1, ![A]⟩, a⟩, ⟨⟨1, ![B]⟩, b⟩] h (ix1 j) = a (ix1 ⟨j.val, hj⟩) :=
  concatenate_pair_apply_left 0 a b h (ix1 j) rfl (ix1 ⟨j.val, hj⟩) (fun c => match c with | ⟨0, _⟩ => rfl)

/-- THE JOINED VECTOR READ IN ITS SECOND PART: at `A ≤ j` it is the second vector at `j − A`. -/
theorem join_right_apply (a : (⟨1, ![A]⟩ : Shape).Idx → α) (b : (⟨1, ![B]⟩ : Shape).Idx → α)
    (h : Shape.Concatenates [(⟨1, ![A]⟩ : Shape), ⟨1, ![B]⟩] ⟨1, ![C]⟩ 0) (j : Fin C) (hj : A ≤ j.val) :
    concatenate ⟨1, ![C]⟩ 0 [⟨⟨1, ![A]⟩, a⟩, ⟨⟨1, ![B]⟩, b⟩] h (ix1 j)
      = b (ix1 ⟨j.val - A, by have := join_extent h; have := j.isLt; omega⟩) :=
  concatenate_pair_apply_right 0 a b h (ix1 j) rfl rfl (ix1 ⟨j.val - A, by have := join_extent h; have := j.isLt; omega⟩)
    (fun c hc => match c, hc with | ⟨0, _⟩, hc => absurd rfl hc)
    (by show j.val - A + A = j.val; omega)

end Join

/-! ## The vector of positions -/

section Iota
variable {N : Nat}

/-- THE VECTOR OF POSITIONS READ AT `n`: the 32-bit word of `n`. -/
theorem iota_vec_apply (n : Fin N) : iotaInDim ⟨1, ![N]⟩ 32 0 (ix1 n) = BitVec.ofNat 32 n.val := rfl

/-- While there are at most `2³¹` positions, the word of position `n` read signed is `n`. -/
theorem iota_toInt (hN : N ≤ 2 ^ 31) (n : Fin N) : (BitVec.ofNat 32 n.val).toInt = (n.val : Int) :=
  WordArith.toInt_ofNat_small n.val (by have := n.isLt; omega)

end Iota

/-! ## Comparison, sum and choice of integer vectors at an index -/

section Pointwise
variable {s : Shape} {w : Nat}

/-- A comparison of integer vectors at an index compares the entries. -/
theorem cmpi_apply (p : CmpIPredicate) (x y : IVec s w) (i : s.Idx) : cmpi p x y i = IntOp.cmpi p (x i) (y i) := rfl
/-- A sum of integer vectors at an index adds the entries (as words, wrapping). -/
theorem addi_apply (x y : IVec s w) (i : s.Idx) : addi x y i = x i + y i := rfl
/-- An integer constant reads its word everywhere. -/
theorem constantI_apply (b : BitVec w) (i : s.Idx) : constantI s w b i = b := rfl

end Pointwise

/-! ## Words that name a position -/

section Words

/-- A word whose signed integer is a natural number is not below zero: the comparison "below zero" answers no. -/
theorem slt_zero_of_hit (v : BitVec 32) (k : Nat) (h : v.toInt = (k : Int)) : IntOp.cmpi .slt v 0#32 = 0#1 := by
  refine eq_zero_of_ne_one fun h1 => ?_
  have := IntOp.cmpi_slt.mp h1
  rw [h] at this
  have h0 : (0#32 : BitVec 32).toInt = 0 := by decide
  rw [h0] at this
  omega

/-- "Add `K` to a negative index" leaves a word that names a position as it is, whatever word `K` is. -/
theorem norm_of_hit' (v c : BitVec 32) (k : Nat) (h : v.toInt = (k : Int)) :
    Scalar.select (IntOp.cmpi .slt v 0#32) (v + c) v = v := by
  rw [slt_zero_of_hit v k h, select_zero]

/-- … in particular at `K = 100000`. -/
theorem norm_of_hit (v : BitVec 32) (k : Nat) (_hk : k < 100000) (h : v.toInt = (k : Int)) :
    Scalar.select (IntOp.cmpi .slt v 0#32) (v + 100000#32) v = v :=
  norm_of_hit' v 100000#32 k h

/-- Bringing the integer of a word that names position `k < K` into `[0, K − 1]` gives `k`. -/
theorem clamp_of_hit' (K : Nat) (v : BitVec 32) (k : Nat) (hk : k < K) (h : v.toInt = (k : Int)) :
    min v.toInt.toNat (K - 1) = k := by
  rw [h]
  omega

/-- … in particular at `K = 100000`. -/
theorem clamp_of_hit (v : BitVec 32) (k : Nat) (hk : k < 100000) (h : v.toInt = (k : Int)) :
    min v.toInt.toNat (100000 - 1) = k :=
  clamp_of_hit' 100000 v k hk h

end Words

end Cert.JoinIota

end
-- ==== Proof.Gathers.lean ====
/-
  Rows of a table taken by a vector of node indices.

  Both programs fetch, for every edge, the row of a node table that the edge's source or target names: from a table
  with 200000 rows and an index vector with one signed 32-bit word per edge they build the array whose row `e` is the
  table's row `idx e`.  Both first apply the rule "a negative index counts from the end" (add 200000 to a negative
  word), lay the words out as a one-column matrix and gather rows with indices clamped into [0, 199999].  One program
  then also replaces every row whose index was outside [0, 199999] by a fixed word; the other does not.

  When every word of the index vector, read as a signed integer, is in [0, 200000) none of this matters: no word is
  negative, so the rule leaves it alone; clamping leaves it alone; no row is replaced.  Both programs then produce the
  same array, `rowsOf table idx`: entry `(e, c)` is the table's entry `(idx e, c)`.
-/
import proofs.«154843_j76682346102829_2_alg».proof.KernelIdeal
import proofs.«154843_j76682346102829_2_alg».proof.ReferenceIdeal
import proofs.«154843_j76682346102829_2_alg».proof.Proof.LibHostBroadcast
import proofs.«154843_j76682346102829_2_alg».proof.Proof.LibRowGatherScatter
import proofs.«154843_j76682346102829_2_alg».proof.Proof.LibJoinIota
import proofs.«154843_j76682346102829_2_alg».proof.Proof.Net
import Idealize.ShloMosaic.Lib.ReduceAll
import Idealize.ShloMosaic.PureOps.Ideal

noncomputable section

namespace Cert.Gathers

open Idealize.ShloMosaic Idealize.ShloMosaic.ValueIdx

/-! ## The array of named rows -/

section Spec
variable {α : Type} {E C : Nat}

/-- Every word of the index vector names a row of a table with 200000 rows. -/
def InRange (idx : IVec ⟨1, ![E]⟩ 32) : Prop :=
  ∀ e : Fin E, 0 ≤ (idx (ix1 e)).toInt ∧ (idx (ix1 e)).toInt < 200000

/-- THE NAMED ROWS: entry `(e, c)` is the table's entry in column `c` of the row that word `e` names (its signed
    integer, brought into [0, 199999] so that the array is defined for every index vector). -/
def rowsOf (table : (⟨2, ![200000, C]⟩ : Shape).Idx → α) (idx : IVec ⟨1, ![E]⟩ 32) : (⟨2, ![E, C]⟩ : Shape).Idx → α :=
  fun j => table (ix2 (⟨min (idx (ix1 (⟨(j 0).val, idx2_lt0 j⟩ : Fin E))).toInt.toNat (200000 - 1), by omega⟩ : Fin 200000)
    (⟨(j 1).val, idx2_lt1 j⟩ : Fin C))

theorem rowsOf_apply (table : (⟨2, ![200000, C]⟩ : Shape).Idx → α) (idx : IVec ⟨1, ![E]⟩ 32) (e : Fin E) (c : Fin C) :
    rowsOf table idx (ix2 e c)
      = table (ix2 (⟨min (idx (ix1 e)).toInt.toNat (200000 - 1), by omega⟩ : Fin 200000) c) := rfl

/-- In range, the named row is the word's integer itself. -/
theorem rowsOf_apply_of_inRange (table : (⟨2, ![200000, C]⟩ : Shape).Idx → α) (idx : IVec ⟨1, ![E]⟩ 32)
    (h : InRange idx) (e : Fin E) (c : Fin C) :
    rowsOf table idx (ix2 e c)
      = table (ix2 (⟨(idx (ix1 e)).toInt.toNat, by have := h e; omega⟩ : Fin 200000) c) := by
  rw [rowsOf_apply]
  refine congrArg (fun r => table (ix2 r c)) (Fin.ext ?_)
  show min (idx (ix1 e)).toInt.toNat (200000 - 1) = (idx (ix1 e)).toInt.toNat
  have := h e
  omega

end Spec

/-! ## The pieces both programs share -/

section Pieces
variable {α : Type} {E C : Nat}

/-- A vector laid down the rows of a matrix (each row filled with the vector's entry): at `(e, c)` its entry `e`. -/
theorem down_rows_apply (b : (⟨1, ![E]⟩ : Shape).BroadcastsInDim ⟨2, ![E, C]⟩ ![0]) (v : (⟨1, ![E]⟩ : Shape).Idx → α)
    (e : Fin E) (c : Fin C) : broadcastInDim ⟨2, ![E, C]⟩ ![0] b v (ix2 e c) = v (ix1 e) :=
  broadcastInDim_apply ![0] b v (ix2 e c) (ix1 e) (fun ax => by
    match ax with
    | ⟨0, _⟩ =>
      show e.val = if E = 1 then 0 else e.val
      split
      · have := e.isLt; omega
      · rfl)

/-- The index vector after "a negative index counts from the end", as a one-column matrix. -/
abbrev normCol (b0 : (⟨0, ![]⟩ : Shape).BroadcastsInDim ⟨1, ![E]⟩ ![])
    (b1 : (⟨1, ![E]⟩ : Shape).BroadcastsInDim ⟨2, ![E, 1]⟩ ![0]) (idx : IVec ⟨1, ![E]⟩ 32) : IVec ⟨2, ![E, 1]⟩ 32 :=
  broadcastInDim ⟨2, ![E, 1]⟩ ![0] b1
    (select (cmpi .slt idx (broadcastInDim ⟨1, ![E]⟩ ![] b0 (constantI ⟨0, ![]⟩ 32 0#32)))
      (addi idx (broadcastInDim ⟨1, ![E]⟩ ![] b0 (constantI ⟨0, ![]⟩ 32 200000#32))) idx)

/-- A word that names a row is left as it is: the column's entry `e` is the vector's entry `e`. -/
theorem normCol_apply (b0 : (⟨0, ![]⟩ : Shape).BroadcastsInDim ⟨1, ![E]⟩ ![])
    (b1 : (⟨1, ![E]⟩ : Shape).BroadcastsInDim ⟨2, ![E, 1]⟩ ![0]) (idx : IVec ⟨1, ![E]⟩ 32) (h : InRange idx) (e : Fin E) :
    normCol b0 b1 idx (ix2 e (0 : Fin 1)) = idx (ix1 e) := by
  show broadcastInDim ⟨2, ![E, 1]⟩ ![0] b1
      (select (cmpi .slt idx (broadcastInDim ⟨1, ![E]⟩ ![] b0 (constantI ⟨0, ![]⟩ 32 0#32)))
        (addi idx (broadcastInDim ⟨1, ![E]⟩ ![] b0 (constantI ⟨0, ![]⟩ 32 200000#32))) idx) (ix2 e (0 : Fin 1)) = idx (ix1 e)
  rw [down_rows_apply b1 _ e (0 : Fin 1), select_apply]
  have hz : broadcastInDim ⟨1, ![E]⟩ ![] b0 (constantI ⟨0, ![]⟩ 32 0#32) (ix1 e) = 0#32 :=
    Cert.HostBroadcast.scalar_apply _ _ b0 _
  have hk : broadcastInDim ⟨1, ![E]⟩ ![] b0 (constantI ⟨0, ![]⟩ 32 200000#32) (ix1 e) = 200000#32 :=
    Cert.HostBroadcast.scalar_apply _ _ b0 _
  rw [Cert.JoinIota.cmpi_apply, Cert.JoinIota.addi_apply, hz, hk]
  exact Cert.JoinIota.norm_of_hit' _ _ (idx (ix1 e)).toInt.toNat (by have := (h e).1; omega)

/-- THE CLAMPED GATHER of the normalised column, in range: the named rows. -/
theorem gather_norm_apply
    (wf : GatherDims.WF ⟨2, ![200000, C]⟩ ⟨2, ![E, 1]⟩ ⟨2, ![E, C]⟩ [1] [0] [] [0] [] 1 ![1, C])
    (b0 : (⟨0, ![]⟩ : Shape).BroadcastsInDim ⟨1, ![E]⟩ ![])
    (b1 : (⟨1, ![E]⟩ : Shape).BroadcastsInDim ⟨2, ![E, 1]⟩ ![0])
    (table : (⟨2, ![200000, C]⟩ : Shape).Idx → α) (idx : IVec ⟨1, ![E]⟩ 32) (h : InRange idx) (e : Fin E) (c : Fin C) :
    Host.gather (Cert.RowGatherScatter.rowGatherDims 200000 E C wf) table (normCol b0 b1 idx) (ix2 e c)
      = rowsOf table idx (ix2 e c) := by
  rw [Cert.RowGatherScatter.gather_rows_apply (by decide : 0 < 200000), rowsOf_apply]
  refine congrArg (fun r => table (ix2 r c)) (Fin.ext ?_)
  show min (normCol b0 b1 idx (ix2 e (0 : Fin 1))).toInt.toNat (200000 - 1) = min (idx (ix1 e)).toInt.toNat (200000 - 1)
  rw [normCol_apply b0 b1 idx h e]

/-- An `and` over words that are all 1, begun at 1, is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_ones f hf l

/-- "Every entry along these axes is 1" answers 1 wherever all entries are 1. -/
theorem reduce_andi_of_all {s t u : Shape} {axes : List (Fin s.rank)} (x : s.Idx → BitVec 1) (init : u.Idx → BitVec 1)
    (h : s.ReducesTo axes t) (hu : 0 < u.numel) (j : t.Idx) (hx : ∀ i, x i = 1#1)
    (hi : init (Shape.Idx.first hu) = 1#1) : Host.reduce IntOp.andi x init h hu j = 1#1 := by
  rw [Host.reduce_eq_foldl, hi]
  exact foldl_andi_ones x hx _

/-- The mask "this row's index is in [0, 199999]" is 1 at every row when every entry of the column is in range. -/
theorem mask_apply (b2 : (⟨0, ![]⟩ : Shape).BroadcastsInDim ⟨2, ![E, 1]⟩ ![])
    (b3 : (⟨1, ![1]⟩ : Shape).BroadcastsInDim ⟨2, ![1, 1]⟩ ![1])
    (b4 : (⟨2, ![1, 1]⟩ : Shape).BroadcastsInDim ⟨2, ![E, 1]⟩ ![0, 1])
    (r : (⟨2, ![E, 1]⟩ : Shape).ReducesTo [1] ⟨1, ![E]⟩) (hu : 0 < (⟨0, ![]⟩ : Shape).numel)
    (col : IVec ⟨2, ![E, 1]⟩ 32)
    (hcol : ∀ e : Fin E, 0 ≤ (col (ix2 e (0 : Fin 1))).toInt ∧ (col (ix2 e (0 : Fin 1))).toInt < 200000)
    (j : (⟨1, ![E]⟩ : Shape).Idx) :
    Host.reduce IntOp.andi
      (andi (cmpi .sge col (broadcastInDim ⟨2, ![E, 1]⟩ ![] b2 (constantI ⟨0, ![]⟩ 32 0#32)))
        (cmpi .sle col (broadcastInDim ⟨2, ![E, 1]⟩ ![0, 1] b4
          (broadcastInDim ⟨2, ![1, 1]⟩ ![1] b3 (constantI ⟨1, ![1]⟩ 32 199999#32)))))
      (constantI ⟨0, ![]⟩ 1 1#1) r hu j = 1#1 := by
  refine reduce_andi_of_all _ _ r hu j (fun i => ?_) rfl
  obtain ⟨e, q, rfl⟩ : ∃ (e : Fin E) (q : Fin 1), i = ix2 e q := ⟨i 0, i 1, eq_ix2 i⟩
  obtain rfl : q = 0 := Subsingleton.elim _ _
  have hz : broadcastInDim ⟨2, ![E, 1]⟩ ![] b2 (constantI ⟨0, ![]⟩ 32 0#32) (ix2 e (0 : Fin 1)) = 0#32 :=
    Cert.HostBroadcast.scalar_apply _ _ b2 _
  have hk : broadcastInDim ⟨2, ![E, 1]⟩ ![0, 1] b4
      (broadcastInDim ⟨2, ![1, 1]⟩ ![1] b3 (constantI ⟨1, ![1]⟩ 32 199999#32)) (ix2 e (0 : Fin 1)) = 199999#32 :=
    Cert.HostBroadcast.row_apply _ b3 b4 e (0 : Fin 1)
  show IntOp.andi (IntOp.cmpi .sge (col (ix2 e (0 : Fin 1))) _) (IntOp.cmpi .sle (col (ix2 e (0 : Fin 1))) _) = 1#1
  rw [hz, hk, IntOp.andi_eq_one, IntOp.cmpi_sge, IntOp.cmpi_sle]
  have z : (0#32 : BitVec 32).toInt = 0 := by decide
  have k : (199999#32 : BitVec 32).toInt = 199999 := by decide
  rw [z, k]
  have := hcol e
  omega

/-- THE GUARDED TAKE, in range: the mask is 1 everywhere, so the result is the clamped gather — the named rows. -/
theorem take_apply
    (wf : GatherDims.WF ⟨2, ![200000, C]⟩ ⟨2, ![E, 1]⟩ ⟨2, ![E, C]⟩ [1] [0] [] [0] [] 1 ![1, C])
    (b0 : (⟨0, ![]⟩ : Shape).BroadcastsInDim ⟨1, ![E]⟩ ![])
    (b1 : (⟨1, ![E]⟩ : Shape).BroadcastsInDim ⟨2, ![E, 1]⟩ ![0])
    (b2 : (⟨0, ![]⟩ : Shape).BroadcastsInDim ⟨2, ![E, 1]⟩ ![])
    (b3 : (⟨1, ![1]⟩ : Shape).BroadcastsInDim ⟨2, ![1, 1]⟩ ![1])
    (b4 : (⟨2, ![1, 1]⟩ : Shape).BroadcastsInDim ⟨2, ![E, 1]⟩ ![0, 1])
    (r : (⟨2, ![E, 1]⟩ : Shape).ReducesTo [1] ⟨1, ![E]⟩) (hu : 0 < (⟨0, ![]⟩ : Shape).numel)
    (b5 : (⟨1, ![E]⟩ : Shape).BroadcastsInDim ⟨2, ![E, C]⟩ ![0])
    (table : (⟨2, ![200000, C]⟩ : Shape).Idx → α) (idx : IVec ⟨1, ![E]⟩ 32) (fill : (⟨2, ![E, C]⟩ : Shape).Idx → α)
    (h : InRange idx) (e : Fin E) (c : Fin C) :
    select
        (broadcastInDim ⟨2, ![E, C]⟩ ![0] b5
          (Host.reduce IntOp.andi
            (andi (cmpi .sge (normCol b0 b1 idx) (broadcastInDim ⟨2, ![E, 1]⟩ ![] b2 (constantI ⟨0, ![]⟩ 32 0#32)))
              (cmpi .sle (normCol b0 b1 idx) (broadcastInDim ⟨2, ![E, 1]⟩ ![0, 1] b4
                (broadcastInDim ⟨2, ![1, 1]⟩ ![1] b3 (constantI ⟨1, ![1]⟩ 32 199999#32)))))
            (constantI ⟨0, ![]⟩ 1 1#1) r hu))
        (Host.gather (Cert.RowGatherScatter.rowGatherDims 200000 E C wf) table (normCol b0 b1 idx)) fill (ix2 e c)
      = rowsOf table idx (ix2 e c) := by
  rw [select_apply, down_rows_apply b5 _ e c,
    mask_apply b2 b3 b4 r hu (normCol b0 b1 idx) (fun e' => by rw [normCol_apply b0 b1 idx h e']; exact h e'),
    select_one]
  exact gather_norm_apply wf b0 b1 table idx h e c

end Pieces

/-! ## The first program's two takes, in its own spelling -/

section FirstProgram
open Cert.KernelIdeal Cert.KernelIdeal.Facts₀
variable [Cert.KernelIdeal.Facts₀]

/-- The guarded take of a one-column table, as the program composes it. -/
def kernelCol : Cert.Net.N1 → Cert.Net.I1 → Cert.Net.E1 := fun table idx =>
  select
    (broadcastInDim S2000000x1 ![0] bcast_S2000000_S2000000x1_0
      (Host.reduce IntOp.andi
        (andi
          (cmpi .sge
            (broadcastInDim S2000000x1 ![0] bcast_S2000000_S2000000x1_0
              (select (cmpi .slt idx (broadcastInDim S2000000 ![] bcast_S_S2000000 (constantI S_ 32 0#32)))
                (addi idx (broadcastInDim S2000000 ![] bcast_S_S2000000 (constantI S_ 32 200000#32))) idx))
            (broadcastInDim S2000000x1 ![] bcast_S_S2000000x1 (constantI S_ 32 0#32)))
          (cmpi .sle
            (broadcastInDim S2000000x1 ![0] bcast_S2000000_S2000000x1_0
              (select (cmpi .slt idx (broadcastInDim S2000000 ![] bcast_S_S2000000 (constantI S_ 32 0#32)))
                (addi idx (broadcastInDim S2000000 ![] bcast_S_S2000000 (constantI S_ 32 200000#32))) idx))
            (broadcastInDim S2000000x1 ![0, 1] bcast_S1x1_S2000000x1_0_1
              (broadcastInDim S1x1 ![1] bcast_S1_S1x1_1 (constantI S1 32 199999#32)))))
        (constantI S_ 1 1#1) reducesTo_S2000000x1_S2000000_d1 h_S_))
    (Host.gather gather_S200000x1_S2000000x1_S2000000x1_1_0_n_n_0_1_11 table
      (broadcastInDim S2000000x1 ![0] bcast_S2000000_S2000000x1_0
        (select (cmpi .slt idx (broadcastInDim S2000000 ![] bcast_S_S2000000 (constantI S_ 32 0#32)))
          (addi idx (broadcastInDim S2000000 ![] bcast_S_S2000000 (constantI S_ 32 200000#32))) idx)))
    (broadcastInDim S2000000x1 ![] bcast_S_S2000000x1 (constant (F := Ideal) S_ .f32 0x7FC00000#32))

/-- The guarded take of a 64-column table, as the program composes it. -/
def kernelRow : Cert.Net.N64 → Cert.Net.I1 → Cert.Net.E64 := fun table idx =>
  select
    (broadcastInDim S2000000x64 ![0] bcast_S2000000_S2000000x64_0
      (Host.reduce IntOp.andi
        (andi
          (cmpi .sge
            (broadcastInDim S2000000x1 ![0] bcast_S2000000_S2000000x1_0
              (select (cmpi .slt idx (broadcastInDim S2000000 ![] bcast_S_S2000000 (constantI S_ 32 0#32)))
                (addi idx (broadcastInDim S2000000 ![] bcast_S_S2000000 (constantI S_ 32 200000#32))) idx))
            (broadcastInDim S2000000x1 ![] bcast_S_S2000000x1 (constantI S_ 32 0#32)))
          (cmpi .sle
            (broadcastInDim S2000000x1 ![0] bcast_S2000000_S2000000x1_0
              (select (cmpi .slt idx (broadcastInDim S2000000 ![] bcast_S_S2000000 (constantI S_ 32 0#32)))
                (addi idx (broadcastInDim S2000000 ![] bcast_S_S2000000 (constantI S_ 32 200000#32))) idx))
            (broadcastInDim S2000000x1 ![0, 1] bcast_S1x1_S2000000x1_0_1
              (broadcastInDim S1x1 ![1] bcast_S1_S1x1_1 (constantI S1 32 199999#32)))))
        (constantI S_ 1 1#1) reducesTo_S2000000x1_S2000000_d1 h_S_))
    (Host.gather gather_S200000x64_S2000000x1_S2000000x64_1_0_n_n_0_1_164 table
      (broadcastInDim S2000000x1 ![0] bcast_S2000000_S2000000x1_0
        (select (cmpi .slt idx (broadcastInDim S2000000 ![] bcast_S_S2000000 (constantI S_ 32 0#32)))
          (addi idx (broadcastInDim S2000000 ![] bcast_S_S2000000 (constantI S_ 32 200000#32))) idx)))
    (broadcastInDim S2000000x64 ![] bcast_S_S2000000x64 (constant (F := Ideal) S_ .f32 0x7FC00000#32))

/-- In range the one-column take is the array of named rows. -/
theorem kernelCol_eq (table : Cert.Net.N1) (idx : Cert.Net.I1) (h : InRange idx) :
    kernelCol table idx = rowsOf table idx := by
  funext j
  obtain ⟨e, c, rfl⟩ : ∃ (e : Fin 2000000) (c : Fin 1), j = ix2 e c := ⟨j 0, j 1, eq_ix2 j⟩
  unfold kernelCol
  exact take_apply (E := 2000000) (C := 1) gather_S200000x1_S2000000x1_S2000000x1_1_0_n_n_0_1_11_wf bcast_S_S2000000
    bcast_S2000000_S2000000x1_0 bcast_S_S2000000x1 bcast_S1_S1x1_1 bcast_S1x1_S2000000x1_0_1
    reducesTo_S2000000x1_S2000000_d1 h_S_ bcast_S2000000_S2000000x1_0 table idx _ h e c

/-- In range the 64-column take is the array of named rows. -/
theorem kernelRow_eq (table : Cert.Net.N64) (idx : Cert.Net.I1) (h : InRange idx) :
    kernelRow table idx = rowsOf table idx := by
  funext j
  obtain ⟨e, c, rfl⟩ : ∃ (e : Fin 2000000) (c : Fin 64), j = ix2 e c := ⟨j 0, j 1, eq_ix2 j⟩
  unfold kernelRow
  exact take_apply (E := 2000000) (C := 64) gather_S200000x64_S2000000x1_S2000000x64_1_0_n_n_0_1_164_wf bcast_S_S2000000
    bcast_S2000000_S2000000x1_0 bcast_S_S2000000x1 bcast_S1_S1x1_1 bcast_S1x1_S2000000x1_0_1
    reducesTo_S2000000x1_S2000000_d1 h_S_ bcast_S2000000_S2000000x64_0 table idx _ h e c

end FirstProgram

/-! ## The second program's two gathers, in its own spelling -/

section SecondProgram
open Cert.ReferenceIdeal Cert.ReferenceIdeal.Facts₀
variable [Cert.ReferenceIdeal.Facts₀]

/-- The gather of a one-column table at the normalised indices, as the program composes it. -/
def refCol : Cert.Net.N1 → Cert.Net.I1 → Cert.Net.E1 := fun table idx =>
  Host.gather gather_S200000x1_S2000000x1_S2000000x1_1_0_n_n_0_1_11 table
    (broadcastInDim S2000000x1 ![0] bcast_S2000000_S2000000x1_0
      (select (cmpi .slt idx (broadcastInDim S2000000 ![] bcast_S_S2000000 (constantI S_ 32 0#32)))
        (addi idx (broadcastInDim S2000000 ![] bcast_S_S2000000 (constantI S_ 32 200000#32))) idx))

/-- The gather of a 64-column table at the normalised indices, as the program composes it. -/
def refRow : Cert.Net.N64 → Cert.Net.I1 → Cert.Net.E64 := fun table idx =>
  Host.gather gather_S200000x64_S2000000x1_S2000000x64_1_0_n_n_0_1_164 table
    (broadcastInDim S2000000x1 ![0] bcast_S2000000_S2000000x1_0
      (select (cmpi .slt idx (broadcastInDim S2000000 ![] bcast_S_S2000000 (constantI S_ 32 0#32)))
        (addi idx (broadcastInDim S2000000 ![] bcast_S_S2000000 (constantI S_ 32 200000#32))) idx))

/-- In range the one-column gather is the array of named rows. -/
theorem refCol_eq (table : Cert.Net.N1) (idx : Cert.Net.I1) (h : InRange idx) :
    refCol table idx = rowsOf table idx := by
  funext j
  obtain ⟨e, c, rfl⟩ : ∃ (e : Fin 2000000) (c : Fin 1), j = ix2 e c := ⟨j 0, j 1, eq_ix2 j⟩
  unfold refCol
  exact gather_norm_apply (E := 2000000) (C := 1) gather_S200000x1_S2000000x1_S2000000x1_1_0_n_n_0_1_11_wf bcast_S_S2000000
    bcast_S2000000_S2000000x1_0 table idx h e c

/-- In range the 64-column gather is the array of named rows. -/
theorem refRow_eq (table : Cert.Net.N64) (idx : Cert.Net.I1) (h : InRange idx) :
    refRow table idx = rowsOf table idx := by
  funext j
  obtain ⟨e, c, rfl⟩ : ∃ (e : Fin 2000000) (c : Fin 64), j = ix2 e c := ⟨j 0, j 1, eq_ix2 j⟩
  unfold refRow
  exact gather_norm_apply (E := 2000000) (C := 64) gather_S200000x64_S2000000x1_S2000000x64_1_0_n_n_0_1_164_wf bcast_S_S2000000
    bcast_S2000000_S2000000x1_0 table idx h e c

end SecondProgram

/-! ## In range the two programs take the same rows -/

/-- THE COLUMN TAKES AGREE for an index vector in range, whatever the table. -/
theorem kernelCol_eq_refCol [Cert.KernelIdeal.Facts₀] [Cert.ReferenceIdeal.Facts₀] (table : Cert.Net.N1) (idx : Cert.Net.I1)
    (h : InRange idx) : kernelCol table idx = refCol table idx :=
  (kernelCol_eq table idx h).trans (refCol_eq table idx h).symm

/-- THE ROW TAKES AGREE for an index vector in range, whatever the table. -/
theorem kernelRow_eq_refRow [Cert.KernelIdeal.Facts₀] [Cert.ReferenceIdeal.Facts₀] (table : Cert.Net.N64) (idx : Cert.Net.I1)
    (h : InRange idx) : kernelRow table idx = refRow table idx :=
  (kernelRow_eq table idx h).trans (refRow_eq table idx h).symm

end Cert.Gathers

end
-- ==== Proof.KernelStages.lean ====
/-
  The kernel's stages as one record, and its argument arrays.

  `KS` collects the whole-array functions of the idealized kernel: the stage each kind of device region computes,
  the cuts of parameter rows and index rows and the segment sums its host operations perform between regions,
  and its two guarded gathers. `kargs` reads the sixteen argument arrays off the launch memory.
-/
import proofs.«154843_j76682346102829_2_alg».proof.Proof.KernelHost
import proofs.«154843_j76682346102829_2_alg».proof.Proof.DenseStages
import proofs.«154843_j76682346102829_2_alg».proof.Proof.ScoreEdgeSpec
import proofs.«154843_j76682346102829_2_alg».proof.Proof.NormSpec
import proofs.«154843_j76682346102829_2_alg».proof.Proof.Gathers

noncomputable section

namespace Cert.KernelIdeal.Values

open Idealize.ShloMosaic Idealize.ShloMosaic.TcCoe Idealize.SL.Sem
open Cert.KernelIdeal Cert.KernelIdeal.Gen

/-- The kernel's stages. -/
def KS : Cert.Net.Stages where
  relu128 := Cert.DenseStages.relu128
  relu64 := Cert.DenseStages.relu64
  dense := Cert.DenseStages.dense
  denseOut := Cert.DenseStages.denseOut
  wRow0 := HostStage.wRow0
  wRow1 := HostStage.wRow1
  bRow0 := HostStage.bRow0
  bRow1 := HostStage.bRow1
  iRow0 := HostStage.iRow0
  iRow1 := HostStage.iRow1
  score := Cert.ScoreEdge.score
  selfWeight := Cert.ScoreEdge.selfWeight
  gCol := Cert.Gathers.kernelCol
  gRow := Cert.Gathers.kernelRow
  edgeW := Cert.ScoreEdge.edgeW
  edgeWH := Cert.ScoreEdge.edgeWH
  segCol := HostStage.segCol
  segRow := HostStage.segRow
  norm := Cert.NormSpec.norm

/-! Each field of `KS` is the function it was given (stated for the functions, not for their values at arguments,
    so that nothing is unfolded to see it). -/
theorem KS_relu128 : KS.relu128 = Cert.DenseStages.relu128 := by simp only [KS]
theorem KS_relu64 : KS.relu64 = Cert.DenseStages.relu64 := by simp only [KS]
theorem KS_dense : KS.dense = Cert.DenseStages.dense := by simp only [KS]
theorem KS_denseOut : KS.denseOut = Cert.DenseStages.denseOut := by simp only [KS]
theorem KS_wRow0 : KS.wRow0 = HostStage.wRow0 := by simp only [KS]
theorem KS_wRow1 : KS.wRow1 = HostStage.wRow1 := by simp only [KS]
theorem KS_bRow0 : KS.bRow0 = HostStage.bRow0 := by simp only [KS]
theorem KS_bRow1 : KS.bRow1 = HostStage.bRow1 := by simp only [KS]
theorem KS_iRow0 : KS.iRow0 = HostStage.iRow0 := by simp only [KS]
theorem KS_iRow1 : KS.iRow1 = HostStage.iRow1 := by simp only [KS]
theorem KS_score : KS.score = Cert.ScoreEdge.score := by simp only [KS]
theorem KS_selfWeight : KS.selfWeight = Cert.ScoreEdge.selfWeight := by simp only [KS]
theorem KS_gCol : KS.gCol = Cert.Gathers.kernelCol := by simp only [KS]
theorem KS_gRow : KS.gRow = Cert.Gathers.kernelRow := by simp only [KS]
theorem KS_edgeW : KS.edgeW = Cert.ScoreEdge.edgeW := by simp only [KS]
theorem KS_edgeWH : KS.edgeWH = Cert.ScoreEdge.edgeWH := by simp only [KS]
theorem KS_segCol : KS.segCol = HostStage.segCol := by simp only [KS]
theorem KS_segRow : KS.segRow = HostStage.segRow := by simp only [KS]
theorem KS_norm : KS.norm = Cert.NormSpec.norm := by simp only [KS]

variable (m : (ℓ : Loc nD τ sig) → Buf (Elt Ideal) ℓ)

/-- The sixteen argument arrays as launched. -/
def kargs (c : Dev nD) : Cert.Net.Args where
  xP := m ((c : Thread nD τ).loc main_arg0)
  xA := m ((c : Thread nD τ).loc main_arg1)
  eiPA := m ((c : Thread nD τ).loc main_arg2)
  eiAP := m ((c : Thread nD τ).loc main_arg3)
  fc1Pw := m ((c : Thread nD τ).loc main_arg4)
  fc1Pb := m ((c : Thread nD τ).loc main_arg5)
  fc1Aw := m ((c : Thread nD τ).loc main_arg6)
  fc1Ab := m ((c : Thread nD τ).loc main_arg7)
  fcsW := m ((c : Thread nD τ).loc main_arg8)
  fcsB := m ((c : Thread nD τ).loc main_arg9)
  a1PA := m ((c : Thread nD τ).loc main_arg10)
  a2PA := m ((c : Thread nD τ).loc main_arg11)
  a1AP := m ((c : Thread nD τ).loc main_arg12)
  a2AP := m ((c : Thread nD τ).loc main_arg13)
  fc2W := m ((c : Thread nD τ).loc main_arg14)
  fc2B := m ((c : Thread nD τ).loc main_arg15)

end Cert.KernelIdeal.Values

end
-- ==== Proof.CarryHopOneP.lean ====
/-
  Buffers carried within the first hop: dense layers, score regions, the P-side gathers, edge region and normalisation.
  A buffer keeps its contents across every segment of @main that does not write it: a region replaces only its
  own output arrays (an array it reads through an input window ends as it was entered), a stretch of host operations only the buffers its operations name as results. Each lemma
  here walks one buffer back, segment by segment, from the boundary where it is read to the boundary where it
  was written (or, for an argument array, to the launch memory).
-/
import proofs.«154843_j76682346102829_2_alg».proof.Proof.Gen.KernelIdeal.Frame

set_option maxRecDepth 16384

noncomputable section

namespace Cert.KernelIdeal.Carry

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- A stretch of host operations leaves a buffer none of them writes as it was: the stretch's operations are
    listed, each one's written buffer read off, and the reference decided different from it. -/
local macro "carried" l:ident : tactic => `(tactic| (
  refine StableHlo.after_of_forall_not_mem _ _ (List.forall_iff_forall_mem.mp ?_)
  simp only [$l:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

theorem arg0_0_1 (c : Dev nD) : W1 m ρ c (Proc.devRef .tc main_arg0) = W0 m ρ c (Proc.devRef .tc main_arg0) :=
  calc W1 m ρ c (Proc.devRef .tc main_arg0)
    _ = W0 m ρ c (Proc.devRef .tc main_arg0) := by carried hostOps0

theorem arg4_0_1 (c : Dev nD) : W1 m ρ c (Proc.devRef .tc main_arg4) = W0 m ρ c (Proc.devRef .tc main_arg4) :=
  calc W1 m ρ c (Proc.devRef .tc main_arg4)
    _ = W0 m ρ c (Proc.devRef .tc main_arg4) := by carried hostOps0

theorem arg5_0_1 (c : Dev nD) : W1 m ρ c (Proc.devRef .tc main_arg5) = W0 m ρ c (Proc.devRef .tc main_arg5) :=
  calc W1 m ρ c (Proc.devRef .tc main_arg5)
    _ = W0 m ρ c (Proc.devRef .tc main_arg5) := by carried hostOps0

theorem arg1_0_2 (c : Dev nD) : W2 m ρ c (Proc.devRef .tc main_arg1) = W0 m ρ c (Proc.devRef .tc main_arg1) :=
  calc W2 m ρ c (Proc.devRef .tc main_arg1)
    _ = W1 m ρ c (Proc.devRef .tc main_arg1) := W2_of_ne m ρ c main_arg1 (by decide)
    _ = W0 m ρ c (Proc.devRef .tc main_arg1) := by carried hostOps0

theorem arg6_0_2 (c : Dev nD) : W2 m ρ c (Proc.devRef .tc main_arg6) = W0 m ρ c (Proc.devRef .tc main_arg6) :=
  calc W2 m ρ c (Proc.devRef .tc main_arg6)
    _ = W1 m ρ c (Proc.devRef .tc main_arg6) := W2_of_ne m ρ c main_arg6 (by decide)
    _ = W0 m ρ c (Proc.devRef .tc main_arg6) := by carried hostOps0

theorem arg7_0_2 (c : Dev nD) : W2 m ρ c (Proc.devRef .tc main_arg7) = W0 m ρ c (Proc.devRef .tc main_arg7) :=
  calc W2 m ρ c (Proc.devRef .tc main_arg7)
    _ = W1 m ρ c (Proc.devRef .tc main_arg7) := W2_of_ne m ρ c main_arg7 (by decide)
    _ = W0 m ρ c (Proc.devRef .tc main_arg7) := by carried hostOps0

theorem arg8_0_3 (c : Dev nD) : W3 m ρ c (Proc.devRef .tc main_arg8) = W0 m ρ c (Proc.devRef .tc main_arg8) :=
  calc W3 m ρ c (Proc.devRef .tc main_arg8)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := by carried hostOps0

theorem arg9_0_3 (c : Dev nD) : W3 m ρ c (Proc.devRef .tc main_arg9) = W0 m ρ c (Proc.devRef .tc main_arg9) :=
  calc W3 m ρ c (Proc.devRef .tc main_arg9)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := by carried hostOps0

theorem v8_2_4 (c : Dev nD) : W4 m ρ c (Proc.devRef .tc main_v8) = W2 m ρ c (Proc.devRef .tc main_v8) :=
  calc W4 m ρ c (Proc.devRef .tc main_v8)
    _ = W3 m ρ c (Proc.devRef .tc main_v8) := by carried hostOps2
    _ = W2 m ρ c (Proc.devRef .tc main_v8) := W3_of_ne m ρ c main_v8 (by decide)

theorem arg8_0_5 (c : Dev nD) : W5 m ρ c (Proc.devRef .tc main_arg8) = W0 m ρ c (Proc.devRef .tc main_arg8) :=
  calc W5 m ρ c (Proc.devRef .tc main_arg8)
    _ = W4 m ρ c (Proc.devRef .tc main_arg8) := W5_of_ne m ρ c main_arg8 (by decide)
    _ = W3 m ρ c (Proc.devRef .tc main_arg8) := by carried hostOps2
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := by carried hostOps0

theorem arg9_0_5 (c : Dev nD) : W5 m ρ c (Proc.devRef .tc main_arg9) = W0 m ρ c (Proc.devRef .tc main_arg9) :=
  calc W5 m ρ c (Proc.devRef .tc main_arg9)
    _ = W4 m ρ c (Proc.devRef .tc main_arg9) := W5_of_ne m ρ c main_arg9 (by decide)
    _ = W3 m ρ c (Proc.devRef .tc main_arg9) := by carried hostOps2
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := by carried hostOps0

theorem v9_3_6 (c : Dev nD) : W6 m ρ c (Proc.devRef .tc main_v9) = W3 m ρ c (Proc.devRef .tc main_v9) :=
  calc W6 m ρ c (Proc.devRef .tc main_v9)
    _ = W5 m ρ c (Proc.devRef .tc main_v9) := by carried hostOps3
    _ = W4 m ρ c (Proc.devRef .tc main_v9) := W5_of_ne m ρ c main_v9 (by decide)
    _ = W3 m ρ c (Proc.devRef .tc main_v9) := by carried hostOps2

theorem arg10_0_7 (c : Dev nD) : W7 m ρ c (Proc.devRef .tc main_arg10) = W0 m ρ c (Proc.devRef .tc main_arg10) :=
  calc W7 m ρ c (Proc.devRef .tc main_arg10)
    _ = W6 m ρ c (Proc.devRef .tc main_arg10) := W7_of_ne m ρ c main_arg10 (by decide)
    _ = W5 m ρ c (Proc.devRef .tc main_arg10) := by carried hostOps3
    _ = W4 m ρ c (Proc.devRef .tc main_arg10) := W5_of_ne m ρ c main_arg10 (by decide)
    _ = W3 m ρ c (Proc.devRef .tc main_arg10) := by carried hostOps2
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := by carried hostOps0

theorem arg11_0_7 (c : Dev nD) : W7 m ρ c (Proc.devRef .tc main_arg11) = W0 m ρ c (Proc.devRef .tc main_arg11) :=
  calc W7 m ρ c (Proc.devRef .tc main_arg11)
    _ = W6 m ρ c (Proc.devRef .tc main_arg11) := W7_of_ne m ρ c main_arg11 (by decide)
    _ = W5 m ρ c (Proc.devRef .tc main_arg11) := by carried hostOps3
    _ = W4 m ρ c (Proc.devRef .tc main_arg11) := W5_of_ne m ρ c main_arg11 (by decide)
    _ = W3 m ρ c (Proc.devRef .tc main_arg11) := by carried hostOps2
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := by carried hostOps0

theorem arg13_0_7 (c : Dev nD) : W7 m ρ c (Proc.devRef .tc main_arg13) = W0 m ρ c (Proc.devRef .tc main_arg13) :=
  calc W7 m ρ c (Proc.devRef .tc main_arg13)
    _ = W6 m ρ c (Proc.devRef .tc main_arg13) := W7_of_ne m ρ c main_arg13 (by decide)
    _ = W5 m ρ c (Proc.devRef .tc main_arg13) := by carried hostOps3
    _ = W4 m ρ c (Proc.devRef .tc main_arg13) := W5_of_ne m ρ c main_arg13 (by decide)
    _ = W3 m ρ c (Proc.devRef .tc main_arg13) := by carried hostOps2
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := by carried hostOps0

theorem v14_5_8 (c : Dev nD) : W8 m ρ c (Proc.devRef .tc main_v14) = W5 m ρ c (Proc.devRef .tc main_v14) :=
  calc W8 m ρ c (Proc.devRef .tc main_v14)
    _ = W7 m ρ c (Proc.devRef .tc main_v14) := by carried hostOps4
    _ = W6 m ρ c (Proc.devRef .tc main_v14) := W7_of_ne m ρ c main_v14 (by decide)
    _ = W5 m ρ c (Proc.devRef .tc main_v14) := by carried hostOps3

theorem arg12_0_9 (c : Dev nD) : W9 m ρ c (Proc.devRef .tc main_arg12) = W0 m ρ c (Proc.devRef .tc main_arg12) :=
  calc W9 m ρ c (Proc.devRef .tc main_arg12)
    _ = W8 m ρ c (Proc.devRef .tc main_arg12) := W9_of_ne m ρ c main_arg12 (by decide)
    _ = W7 m ρ c (Proc.devRef .tc main_arg12) := by carried hostOps4
    _ = W6 m ρ c (Proc.devRef .tc main_arg12) := W7_of_ne m ρ c main_arg12 (by decide)
    _ = W5 m ρ c (Proc.devRef .tc main_arg12) := by carried hostOps3
    _ = W4 m ρ c (Proc.devRef .tc main_arg12) := W5_of_ne m ρ c main_arg12 (by decide)
    _ = W3 m ρ c (Proc.devRef .tc main_arg12) := by carried hostOps2
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := by carried hostOps0

theorem arg13_0_9 (c : Dev nD) : W9 m ρ c (Proc.devRef .tc main_arg13) = W0 m ρ c (Proc.devRef .tc main_arg13) :=
  calc W9 m ρ c (Proc.devRef .tc main_arg13)
    _ = W8 m ρ c (Proc.devRef .tc main_arg13) := W9_of_ne m ρ c main_arg13 (by decide)
    _ = W7 m ρ c (Proc.devRef .tc main_arg13) := by carried hostOps4
    _ = W6 m ρ c (Proc.devRef .tc main_arg13) := W7_of_ne m ρ c main_arg13 (by decide)
    _ = W5 m ρ c (Proc.devRef .tc main_arg13) := by carried hostOps3
    _ = W4 m ρ c (Proc.devRef .tc main_arg13) := W5_of_ne m ρ c main_arg13 (by decide)
    _ = W3 m ρ c (Proc.devRef .tc main_arg13) := by carried hostOps2
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := by carried hostOps0

theorem arg11_0_9 (c : Dev nD) : W9 m ρ c (Proc.devRef .tc main_arg11) = W0 m ρ c (Proc.devRef .tc main_arg11) :=
  calc W9 m ρ c (Proc.devRef .tc main_arg11)
    _ = W8 m ρ c (Proc.devRef .tc main_arg11) := W9_of_ne m ρ c main_arg11 (by decide)
    _ = W7 m ρ c (Proc.devRef .tc main_arg11) := by carried hostOps4
    _ = W6 m ρ c (Proc.devRef .tc main_arg11) := W7_of_ne m ρ c main_arg11 (by decide)
    _ = W5 m ρ c (Proc.devRef .tc main_arg11) := by carried hostOps3
    _ = W4 m ρ c (Proc.devRef .tc main_arg11) := W5_of_ne m ρ c main_arg11 (by decide)
    _ = W3 m ρ c (Proc.devRef .tc main_arg11) := by carried hostOps2
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := by carried hostOps0

theorem v19_7_10 (c : Dev nD) : W10 m ρ c (Proc.devRef .tc main_v19) = W7 m ρ c (Proc.devRef .tc main_v19) :=
  calc W10 m ρ c (Proc.devRef .tc main_v19)
    _ = W9 m ρ c (Proc.devRef .tc main_v19) := by carried hostOps5
    _ = W8 m ρ c (Proc.devRef .tc main_v19) := W9_of_ne m ρ c main_v19 (by decide)
    _ = W7 m ρ c (Proc.devRef .tc main_v19) := by carried hostOps4

theorem v26_0_9_11 (c : Dev nD) : W11 m ρ c (Proc.devRef .tc main_v26_0) = W9 m ρ c (Proc.devRef .tc main_v26_0) :=
  calc W11 m ρ c (Proc.devRef .tc main_v26_0)
    _ = W10 m ρ c (Proc.devRef .tc main_v26_0) := W11_of_ne m ρ c main_v26_0 (by decide)
    _ = W9 m ρ c (Proc.devRef .tc main_v26_0) := by carried hostOps5

theorem v1_1_11 (c : Dev nD) : W11 m ρ c (Proc.devRef .tc main_v1) = W1 m ρ c (Proc.devRef .tc main_v1) :=
  calc W11 m ρ c (Proc.devRef .tc main_v1)
    _ = W10 m ρ c (Proc.devRef .tc main_v1) := W11_of_ne m ρ c main_v1 (by decide)
    _ = W9 m ρ c (Proc.devRef .tc main_v1) := by carried hostOps5
    _ = W8 m ρ c (Proc.devRef .tc main_v1) := W9_of_ne m ρ c main_v1 (by decide)
    _ = W7 m ρ c (Proc.devRef .tc main_v1) := by carried hostOps4
    _ = W6 m ρ c (Proc.devRef .tc main_v1) := W7_of_ne m ρ c main_v1 (by decide)
    _ = W5 m ρ c (Proc.devRef .tc main_v1) := by carried hostOps3
    _ = W4 m ρ c (Proc.devRef .tc main_v1) := W5_of_ne m ρ c main_v1 (by decide)
    _ = W3 m ρ c (Proc.devRef .tc main_v1) := by carried hostOps2
    _ = W2 m ρ c (Proc.devRef .tc main_v1) := W3_of_ne m ρ c main_v1 (by decide)
    _ = W1 m ρ c (Proc.devRef .tc main_v1) := W2_of_ne m ρ c main_v1 (by decide)

theorem v33_1_11_12 (c : Dev nD) : W12 m ρ c (Proc.devRef .tc main_v33_1) = W11 m ρ c (Proc.devRef .tc main_v33_1) :=
  calc W12 m ρ c (Proc.devRef .tc main_v33_1)
    _ = W11 m ρ c (Proc.devRef .tc main_v33_1) := by carried hostOps6

theorem v3_1_12 (c : Dev nD) : W12 m ρ c (Proc.devRef .tc main_v3) = W1 m ρ c (Proc.devRef .tc main_v3) :=
  calc W12 m ρ c (Proc.devRef .tc main_v3)
    _ = W11 m ρ c (Proc.devRef .tc main_v3) := by carried hostOps6
    _ = W10 m ρ c (Proc.devRef .tc main_v3) := W11_of_ne m ρ c main_v3 (by decide)
    _ = W9 m ρ c (Proc.devRef .tc main_v3) := by carried hostOps5
    _ = W8 m ρ c (Proc.devRef .tc main_v3) := W9_of_ne m ρ c main_v3 (by decide)
    _ = W7 m ρ c (Proc.devRef .tc main_v3) := by carried hostOps4
    _ = W6 m ρ c (Proc.devRef .tc main_v3) := W7_of_ne m ρ c main_v3 (by decide)
    _ = W5 m ρ c (Proc.devRef .tc main_v3) := by carried hostOps3
    _ = W4 m ρ c (Proc.devRef .tc main_v3) := W5_of_ne m ρ c main_v3 (by decide)
    _ = W3 m ρ c (Proc.devRef .tc main_v3) := by carried hostOps2
    _ = W2 m ρ c (Proc.devRef .tc main_v3) := W3_of_ne m ρ c main_v3 (by decide)
    _ = W1 m ρ c (Proc.devRef .tc main_v3) := W2_of_ne m ρ c main_v3 (by decide)

theorem v19_7_13 (c : Dev nD) : W13 m ρ c (Proc.devRef .tc main_v19) = W7 m ρ c (Proc.devRef .tc main_v19) :=
  calc W13 m ρ c (Proc.devRef .tc main_v19)
    _ = W12 m ρ c (Proc.devRef .tc main_v19) := by carried hostOps6_1
    _ = W11 m ρ c (Proc.devRef .tc main_v19) := by carried hostOps6
    _ = W10 m ρ c (Proc.devRef .tc main_v19) := (W11_arr m ρ c 0).trans (((dat5 (V10 m ρ) c).arrAt_in 0 rfl _).trans (A_eq5 (V10 m ρ) c 0))
    _ = W9 m ρ c (Proc.devRef .tc main_v19) := by carried hostOps5
    _ = W8 m ρ c (Proc.devRef .tc main_v19) := W9_of_ne m ρ c main_v19 (by decide)
    _ = W7 m ρ c (Proc.devRef .tc main_v19) := by carried hostOps4

theorem v3_1_13 (c : Dev nD) : W13 m ρ c (Proc.devRef .tc main_v3) = W1 m ρ c (Proc.devRef .tc main_v3) :=
  calc W13 m ρ c (Proc.devRef .tc main_v3)
    _ = W12 m ρ c (Proc.devRef .tc main_v3) := by carried hostOps6_1
    _ = W11 m ρ c (Proc.devRef .tc main_v3) := by carried hostOps6
    _ = W10 m ρ c (Proc.devRef .tc main_v3) := W11_of_ne m ρ c main_v3 (by decide)
    _ = W9 m ρ c (Proc.devRef .tc main_v3) := by carried hostOps5
    _ = W8 m ρ c (Proc.devRef .tc main_v3) := W9_of_ne m ρ c main_v3 (by decide)
    _ = W7 m ρ c (Proc.devRef .tc main_v3) := by carried hostOps4
    _ = W6 m ρ c (Proc.devRef .tc main_v3) := W7_of_ne m ρ c main_v3 (by decide)
    _ = W5 m ρ c (Proc.devRef .tc main_v3) := by carried hostOps3
    _ = W4 m ρ c (Proc.devRef .tc main_v3) := W5_of_ne m ρ c main_v3 (by decide)
    _ = W3 m ρ c (Proc.devRef .tc main_v3) := by carried hostOps2
    _ = W2 m ρ c (Proc.devRef .tc main_v3) := W3_of_ne m ρ c main_v3 (by decide)
    _ = W1 m ρ c (Proc.devRef .tc main_v3) := W2_of_ne m ρ c main_v3 (by decide)

theorem v34_12_14 (c : Dev nD) : W14 m ρ c (Proc.devRef .tc main_v34) = W12 m ρ c (Proc.devRef .tc main_v34) :=
  calc W14 m ρ c (Proc.devRef .tc main_v34)
    _ = W13 m ρ c (Proc.devRef .tc main_v34) := by carried hostOps6_2
    _ = W12 m ρ c (Proc.devRef .tc main_v34) := by carried hostOps6_1

theorem v35_13_14 (c : Dev nD) : W14 m ρ c (Proc.devRef .tc main_v35) = W13 m ρ c (Proc.devRef .tc main_v35) :=
  calc W14 m ρ c (Proc.devRef .tc main_v35)
    _ = W13 m ρ c (Proc.devRef .tc main_v35) := by carried hostOps6_2

theorem v1_1_15 (c : Dev nD) : W15 m ρ c (Proc.devRef .tc main_v1) = W1 m ρ c (Proc.devRef .tc main_v1) :=
  calc W15 m ρ c (Proc.devRef .tc main_v1)
    _ = W14 m ρ c (Proc.devRef .tc main_v1) := W15_of_ne m ρ c main_v1 (by decide)
    _ = W13 m ρ c (Proc.devRef .tc main_v1) := by carried hostOps6_2
    _ = W12 m ρ c (Proc.devRef .tc main_v1) := by carried hostOps6_1
    _ = W11 m ρ c (Proc.devRef .tc main_v1) := by carried hostOps6
    _ = W10 m ρ c (Proc.devRef .tc main_v1) := W11_of_ne m ρ c main_v1 (by decide)
    _ = W9 m ρ c (Proc.devRef .tc main_v1) := by carried hostOps5
    _ = W8 m ρ c (Proc.devRef .tc main_v1) := W9_of_ne m ρ c main_v1 (by decide)
    _ = W7 m ρ c (Proc.devRef .tc main_v1) := by carried hostOps4
    _ = W6 m ρ c (Proc.devRef .tc main_v1) := W7_of_ne m ρ c main_v1 (by decide)
    _ = W5 m ρ c (Proc.devRef .tc main_v1) := by carried hostOps3
    _ = W4 m ρ c (Proc.devRef .tc main_v1) := W5_of_ne m ρ c main_v1 (by decide)
    _ = W3 m ρ c (Proc.devRef .tc main_v1) := by carried hostOps2
    _ = W2 m ρ c (Proc.devRef .tc main_v1) := W3_of_ne m ρ c main_v1 (by decide)
    _ = W1 m ρ c (Proc.devRef .tc main_v1) := W2_of_ne m ρ c main_v1 (by decide)

theorem v26_2_9_16 (c : Dev nD) : W16 m ρ c (Proc.devRef .tc main_v26_2) = W9 m ρ c (Proc.devRef .tc main_v26_2) :=
  calc W16 m ρ c (Proc.devRef .tc main_v26_2)
    _ = W15 m ρ c (Proc.devRef .tc main_v26_2) := by carried hostOps7
    _ = W14 m ρ c (Proc.devRef .tc main_v26_2) := W15_of_ne m ρ c main_v26_2 (by decide)
    _ = W13 m ρ c (Proc.devRef .tc main_v26_2) := by carried hostOps6_2
    _ = W12 m ρ c (Proc.devRef .tc main_v26_2) := by carried hostOps6_1
    _ = W11 m ρ c (Proc.devRef .tc main_v26_2) := by carried hostOps6
    _ = W10 m ρ c (Proc.devRef .tc main_v26_2) := W11_of_ne m ρ c main_v26_2 (by decide)
    _ = W9 m ρ c (Proc.devRef .tc main_v26_2) := by carried hostOps5

theorem v14_5_16 (c : Dev nD) : W16 m ρ c (Proc.devRef .tc main_v14) = W5 m ρ c (Proc.devRef .tc main_v14) :=
  calc W16 m ρ c (Proc.devRef .tc main_v14)
    _ = W15 m ρ c (Proc.devRef .tc main_v14) := by carried hostOps7
    _ = W14 m ρ c (Proc.devRef .tc main_v14) := W15_of_ne m ρ c main_v14 (by decide)
    _ = W13 m ρ c (Proc.devRef .tc main_v14) := by carried hostOps6_2
    _ = W12 m ρ c (Proc.devRef .tc main_v14) := by carried hostOps6_1
    _ = W11 m ρ c (Proc.devRef .tc main_v14) := by carried hostOps6
    _ = W10 m ρ c (Proc.devRef .tc main_v14) := W11_of_ne m ρ c main_v14 (by decide)
    _ = W9 m ρ c (Proc.devRef .tc main_v14) := by carried hostOps5
    _ = W8 m ρ c (Proc.devRef .tc main_v14) := (W9_arr m ρ c 0).trans (((dat4 (V8 m ρ) c).arrAt_in 0 rfl _).trans (A_eq4 (V8 m ρ) c 0))
    _ = W7 m ρ c (Proc.devRef .tc main_v14) := by carried hostOps4
    _ = W6 m ρ c (Proc.devRef .tc main_v14) := W7_of_ne m ρ c main_v14 (by decide)
    _ = W5 m ρ c (Proc.devRef .tc main_v14) := by carried hostOps3
end Cert.KernelIdeal.Carry

end
-- ==== Proof.CarryHopOneA.lean ====
/-
  Buffers carried within the first hop: the A-side gathers, edge region and normalisation.
  A buffer keeps its contents across every segment of @main that does not write it: a region replaces only its
  own output arrays (an array it reads through an input window ends as it was entered), a stretch of host operations only the buffers its operations name as results. Each lemma
  here walks one buffer back, segment by segment, from the boundary where it is read to the boundary where it
  was written (or, for an argument array, to the launch memory).
-/
import proofs.«154843_j76682346102829_2_alg».proof.Proof.Gen.KernelIdeal.Frame

set_option maxRecDepth 16384

noncomputable section

namespace Cert.KernelIdeal.Carry

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- A stretch of host operations leaves a buffer none of them writes as it was: the stretch's operations are
    listed, each one's written buffer read off, and the reference decided different from it. -/
local macro "carried" l:ident : tactic => `(tactic| (
  refine StableHlo.after_of_forall_not_mem _ _ (List.forall_iff_forall_mem.mp ?_)
  simp only [$l:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

theorem v33_0_11_17 (c : Dev nD) : W17 m ρ c (Proc.devRef .tc main_v33_0) = W11 m ρ c (Proc.devRef .tc main_v33_0) :=
  calc W17 m ρ c (Proc.devRef .tc main_v33_0)
    _ = W16 m ρ c (Proc.devRef .tc main_v33_0) := W17_of_ne m ρ c main_v33_0 (by decide)
    _ = W15 m ρ c (Proc.devRef .tc main_v33_0) := by carried hostOps7
    _ = W14 m ρ c (Proc.devRef .tc main_v33_0) := W15_of_ne m ρ c main_v33_0 (by decide)
    _ = W13 m ρ c (Proc.devRef .tc main_v33_0) := by carried hostOps6_2
    _ = W12 m ρ c (Proc.devRef .tc main_v33_0) := by carried hostOps6_1
    _ = W11 m ρ c (Proc.devRef .tc main_v33_0) := by carried hostOps6

theorem v5_1_17 (c : Dev nD) : W17 m ρ c (Proc.devRef .tc main_v5) = W1 m ρ c (Proc.devRef .tc main_v5) :=
  calc W17 m ρ c (Proc.devRef .tc main_v5)
    _ = W16 m ρ c (Proc.devRef .tc main_v5) := W17_of_ne m ρ c main_v5 (by decide)
    _ = W15 m ρ c (Proc.devRef .tc main_v5) := by carried hostOps7
    _ = W14 m ρ c (Proc.devRef .tc main_v5) := W15_of_ne m ρ c main_v5 (by decide)
    _ = W13 m ρ c (Proc.devRef .tc main_v5) := by carried hostOps6_2
    _ = W12 m ρ c (Proc.devRef .tc main_v5) := by carried hostOps6_1
    _ = W11 m ρ c (Proc.devRef .tc main_v5) := by carried hostOps6
    _ = W10 m ρ c (Proc.devRef .tc main_v5) := W11_of_ne m ρ c main_v5 (by decide)
    _ = W9 m ρ c (Proc.devRef .tc main_v5) := by carried hostOps5
    _ = W8 m ρ c (Proc.devRef .tc main_v5) := W9_of_ne m ρ c main_v5 (by decide)
    _ = W7 m ρ c (Proc.devRef .tc main_v5) := by carried hostOps4
    _ = W6 m ρ c (Proc.devRef .tc main_v5) := W7_of_ne m ρ c main_v5 (by decide)
    _ = W5 m ρ c (Proc.devRef .tc main_v5) := by carried hostOps3
    _ = W4 m ρ c (Proc.devRef .tc main_v5) := W5_of_ne m ρ c main_v5 (by decide)
    _ = W3 m ρ c (Proc.devRef .tc main_v5) := by carried hostOps2
    _ = W2 m ρ c (Proc.devRef .tc main_v5) := W3_of_ne m ρ c main_v5 (by decide)
    _ = W1 m ρ c (Proc.devRef .tc main_v5) := W2_of_ne m ρ c main_v5 (by decide)

theorem v26_1_9_18 (c : Dev nD) : W18 m ρ c (Proc.devRef .tc main_v26_1) = W9 m ρ c (Proc.devRef .tc main_v26_1) :=
  calc W18 m ρ c (Proc.devRef .tc main_v26_1)
    _ = W17 m ρ c (Proc.devRef .tc main_v26_1) := by carried hostOps8
    _ = W16 m ρ c (Proc.devRef .tc main_v26_1) := W17_of_ne m ρ c main_v26_1 (by decide)
    _ = W15 m ρ c (Proc.devRef .tc main_v26_1) := by carried hostOps7
    _ = W14 m ρ c (Proc.devRef .tc main_v26_1) := W15_of_ne m ρ c main_v26_1 (by decide)
    _ = W13 m ρ c (Proc.devRef .tc main_v26_1) := by carried hostOps6_2
    _ = W12 m ρ c (Proc.devRef .tc main_v26_1) := by carried hostOps6_1
    _ = W11 m ρ c (Proc.devRef .tc main_v26_1) := by carried hostOps6
    _ = W10 m ρ c (Proc.devRef .tc main_v26_1) := W11_of_ne m ρ c main_v26_1 (by decide)
    _ = W9 m ρ c (Proc.devRef .tc main_v26_1) := by carried hostOps5

theorem v7_1_18 (c : Dev nD) : W18 m ρ c (Proc.devRef .tc main_v7) = W1 m ρ c (Proc.devRef .tc main_v7) :=
  calc W18 m ρ c (Proc.devRef .tc main_v7)
    _ = W17 m ρ c (Proc.devRef .tc main_v7) := by carried hostOps8
    _ = W16 m ρ c (Proc.devRef .tc main_v7) := W17_of_ne m ρ c main_v7 (by decide)
    _ = W15 m ρ c (Proc.devRef .tc main_v7) := by carried hostOps7
    _ = W14 m ρ c (Proc.devRef .tc main_v7) := W15_of_ne m ρ c main_v7 (by decide)
    _ = W13 m ρ c (Proc.devRef .tc main_v7) := by carried hostOps6_2
    _ = W12 m ρ c (Proc.devRef .tc main_v7) := by carried hostOps6_1
    _ = W11 m ρ c (Proc.devRef .tc main_v7) := by carried hostOps6
    _ = W10 m ρ c (Proc.devRef .tc main_v7) := W11_of_ne m ρ c main_v7 (by decide)
    _ = W9 m ρ c (Proc.devRef .tc main_v7) := by carried hostOps5
    _ = W8 m ρ c (Proc.devRef .tc main_v7) := W9_of_ne m ρ c main_v7 (by decide)
    _ = W7 m ρ c (Proc.devRef .tc main_v7) := by carried hostOps4
    _ = W6 m ρ c (Proc.devRef .tc main_v7) := W7_of_ne m ρ c main_v7 (by decide)
    _ = W5 m ρ c (Proc.devRef .tc main_v7) := by carried hostOps3
    _ = W4 m ρ c (Proc.devRef .tc main_v7) := W5_of_ne m ρ c main_v7 (by decide)
    _ = W3 m ρ c (Proc.devRef .tc main_v7) := by carried hostOps2
    _ = W2 m ρ c (Proc.devRef .tc main_v7) := W3_of_ne m ρ c main_v7 (by decide)
    _ = W1 m ρ c (Proc.devRef .tc main_v7) := W2_of_ne m ρ c main_v7 (by decide)

theorem v14_5_19 (c : Dev nD) : W19 m ρ c (Proc.devRef .tc main_v14) = W5 m ρ c (Proc.devRef .tc main_v14) :=
  calc W19 m ρ c (Proc.devRef .tc main_v14)
    _ = W18 m ρ c (Proc.devRef .tc main_v14) := by carried hostOps8_1
    _ = W17 m ρ c (Proc.devRef .tc main_v14) := by carried hostOps8
    _ = W16 m ρ c (Proc.devRef .tc main_v14) := (W17_arr m ρ c 3).trans (((dat7 (V16 m ρ) c).arrAt_in 3 rfl _).trans (A_eq7 (V16 m ρ) c 3))
    _ = W15 m ρ c (Proc.devRef .tc main_v14) := by carried hostOps7
    _ = W14 m ρ c (Proc.devRef .tc main_v14) := W15_of_ne m ρ c main_v14 (by decide)
    _ = W13 m ρ c (Proc.devRef .tc main_v14) := by carried hostOps6_2
    _ = W12 m ρ c (Proc.devRef .tc main_v14) := by carried hostOps6_1
    _ = W11 m ρ c (Proc.devRef .tc main_v14) := by carried hostOps6
    _ = W10 m ρ c (Proc.devRef .tc main_v14) := W11_of_ne m ρ c main_v14 (by decide)
    _ = W9 m ρ c (Proc.devRef .tc main_v14) := by carried hostOps5
    _ = W8 m ρ c (Proc.devRef .tc main_v14) := (W9_arr m ρ c 0).trans (((dat4 (V8 m ρ) c).arrAt_in 0 rfl _).trans (A_eq4 (V8 m ρ) c 0))
    _ = W7 m ρ c (Proc.devRef .tc main_v14) := by carried hostOps4
    _ = W6 m ρ c (Proc.devRef .tc main_v14) := W7_of_ne m ρ c main_v14 (by decide)
    _ = W5 m ρ c (Proc.devRef .tc main_v14) := by carried hostOps3

theorem v7_1_19 (c : Dev nD) : W19 m ρ c (Proc.devRef .tc main_v7) = W1 m ρ c (Proc.devRef .tc main_v7) :=
  calc W19 m ρ c (Proc.devRef .tc main_v7)
    _ = W18 m ρ c (Proc.devRef .tc main_v7) := by carried hostOps8_1
    _ = W17 m ρ c (Proc.devRef .tc main_v7) := by carried hostOps8
    _ = W16 m ρ c (Proc.devRef .tc main_v7) := W17_of_ne m ρ c main_v7 (by decide)
    _ = W15 m ρ c (Proc.devRef .tc main_v7) := by carried hostOps7
    _ = W14 m ρ c (Proc.devRef .tc main_v7) := W15_of_ne m ρ c main_v7 (by decide)
    _ = W13 m ρ c (Proc.devRef .tc main_v7) := by carried hostOps6_2
    _ = W12 m ρ c (Proc.devRef .tc main_v7) := by carried hostOps6_1
    _ = W11 m ρ c (Proc.devRef .tc main_v7) := by carried hostOps6
    _ = W10 m ρ c (Proc.devRef .tc main_v7) := W11_of_ne m ρ c main_v7 (by decide)
    _ = W9 m ρ c (Proc.devRef .tc main_v7) := by carried hostOps5
    _ = W8 m ρ c (Proc.devRef .tc main_v7) := W9_of_ne m ρ c main_v7 (by decide)
    _ = W7 m ρ c (Proc.devRef .tc main_v7) := by carried hostOps4
    _ = W6 m ρ c (Proc.devRef .tc main_v7) := W7_of_ne m ρ c main_v7 (by decide)
    _ = W5 m ρ c (Proc.devRef .tc main_v7) := by carried hostOps3
    _ = W4 m ρ c (Proc.devRef .tc main_v7) := W5_of_ne m ρ c main_v7 (by decide)
    _ = W3 m ρ c (Proc.devRef .tc main_v7) := by carried hostOps2
    _ = W2 m ρ c (Proc.devRef .tc main_v7) := W3_of_ne m ρ c main_v7 (by decide)
    _ = W1 m ρ c (Proc.devRef .tc main_v7) := W2_of_ne m ρ c main_v7 (by decide)

theorem v45_18_20 (c : Dev nD) : W20 m ρ c (Proc.devRef .tc main_v45) = W18 m ρ c (Proc.devRef .tc main_v45) :=
  calc W20 m ρ c (Proc.devRef .tc main_v45)
    _ = W19 m ρ c (Proc.devRef .tc main_v45) := by carried hostOps8_2
    _ = W18 m ρ c (Proc.devRef .tc main_v45) := by carried hostOps8_1

theorem v46_19_20 (c : Dev nD) : W20 m ρ c (Proc.devRef .tc main_v46) = W19 m ρ c (Proc.devRef .tc main_v46) :=
  calc W20 m ρ c (Proc.devRef .tc main_v46)
    _ = W19 m ρ c (Proc.devRef .tc main_v46) := by carried hostOps8_2

theorem v5_1_21 (c : Dev nD) : W21 m ρ c (Proc.devRef .tc main_v5) = W1 m ρ c (Proc.devRef .tc main_v5) :=
  calc W21 m ρ c (Proc.devRef .tc main_v5)
    _ = W20 m ρ c (Proc.devRef .tc main_v5) := W21_of_ne m ρ c main_v5 (by decide)
    _ = W19 m ρ c (Proc.devRef .tc main_v5) := by carried hostOps8_2
    _ = W18 m ρ c (Proc.devRef .tc main_v5) := by carried hostOps8_1
    _ = W17 m ρ c (Proc.devRef .tc main_v5) := by carried hostOps8
    _ = W16 m ρ c (Proc.devRef .tc main_v5) := W17_of_ne m ρ c main_v5 (by decide)
    _ = W15 m ρ c (Proc.devRef .tc main_v5) := by carried hostOps7
    _ = W14 m ρ c (Proc.devRef .tc main_v5) := W15_of_ne m ρ c main_v5 (by decide)
    _ = W13 m ρ c (Proc.devRef .tc main_v5) := by carried hostOps6_2
    _ = W12 m ρ c (Proc.devRef .tc main_v5) := by carried hostOps6_1
    _ = W11 m ρ c (Proc.devRef .tc main_v5) := by carried hostOps6
    _ = W10 m ρ c (Proc.devRef .tc main_v5) := W11_of_ne m ρ c main_v5 (by decide)
    _ = W9 m ρ c (Proc.devRef .tc main_v5) := by carried hostOps5
    _ = W8 m ρ c (Proc.devRef .tc main_v5) := W9_of_ne m ρ c main_v5 (by decide)
    _ = W7 m ρ c (Proc.devRef .tc main_v5) := by carried hostOps4
    _ = W6 m ρ c (Proc.devRef .tc main_v5) := W7_of_ne m ρ c main_v5 (by decide)
    _ = W5 m ρ c (Proc.devRef .tc main_v5) := by carried hostOps3
    _ = W4 m ρ c (Proc.devRef .tc main_v5) := W5_of_ne m ρ c main_v5 (by decide)
    _ = W3 m ρ c (Proc.devRef .tc main_v5) := by carried hostOps2
    _ = W2 m ρ c (Proc.devRef .tc main_v5) := W3_of_ne m ρ c main_v5 (by decide)
    _ = W1 m ρ c (Proc.devRef .tc main_v5) := W2_of_ne m ρ c main_v5 (by decide)

theorem v33_2_11_22 (c : Dev nD) : W22 m ρ c (Proc.devRef .tc main_v33_2) = W11 m ρ c (Proc.devRef .tc main_v33_2) :=
  calc W22 m ρ c (Proc.devRef .tc main_v33_2)
    _ = W21 m ρ c (Proc.devRef .tc main_v33_2) := by carried hostOps9
    _ = W20 m ρ c (Proc.devRef .tc main_v33_2) := W21_of_ne m ρ c main_v33_2 (by decide)
    _ = W19 m ρ c (Proc.devRef .tc main_v33_2) := by carried hostOps8_2
    _ = W18 m ρ c (Proc.devRef .tc main_v33_2) := by carried hostOps8_1
    _ = W17 m ρ c (Proc.devRef .tc main_v33_2) := by carried hostOps8
    _ = W16 m ρ c (Proc.devRef .tc main_v33_2) := W17_of_ne m ρ c main_v33_2 (by decide)
    _ = W15 m ρ c (Proc.devRef .tc main_v33_2) := by carried hostOps7
    _ = W14 m ρ c (Proc.devRef .tc main_v33_2) := W15_of_ne m ρ c main_v33_2 (by decide)
    _ = W13 m ρ c (Proc.devRef .tc main_v33_2) := by carried hostOps6_2
    _ = W12 m ρ c (Proc.devRef .tc main_v33_2) := by carried hostOps6_1
    _ = W11 m ρ c (Proc.devRef .tc main_v33_2) := by carried hostOps6

theorem v19_7_22 (c : Dev nD) : W22 m ρ c (Proc.devRef .tc main_v19) = W7 m ρ c (Proc.devRef .tc main_v19) :=
  calc W22 m ρ c (Proc.devRef .tc main_v19)
    _ = W21 m ρ c (Proc.devRef .tc main_v19) := by carried hostOps9
    _ = W20 m ρ c (Proc.devRef .tc main_v19) := W21_of_ne m ρ c main_v19 (by decide)
    _ = W19 m ρ c (Proc.devRef .tc main_v19) := by carried hostOps8_2
    _ = W18 m ρ c (Proc.devRef .tc main_v19) := by carried hostOps8_1
    _ = W17 m ρ c (Proc.devRef .tc main_v19) := by carried hostOps8
    _ = W16 m ρ c (Proc.devRef .tc main_v19) := W17_of_ne m ρ c main_v19 (by decide)
    _ = W15 m ρ c (Proc.devRef .tc main_v19) := by carried hostOps7
    _ = W14 m ρ c (Proc.devRef .tc main_v19) := W15_of_ne m ρ c main_v19 (by decide)
    _ = W13 m ρ c (Proc.devRef .tc main_v19) := by carried hostOps6_2
    _ = W12 m ρ c (Proc.devRef .tc main_v19) := by carried hostOps6_1
    _ = W11 m ρ c (Proc.devRef .tc main_v19) := by carried hostOps6
    _ = W10 m ρ c (Proc.devRef .tc main_v19) := (W11_arr m ρ c 0).trans (((dat5 (V10 m ρ) c).arrAt_in 0 rfl _).trans (A_eq5 (V10 m ρ) c 0))
    _ = W9 m ρ c (Proc.devRef .tc main_v19) := by carried hostOps5
    _ = W8 m ρ c (Proc.devRef .tc main_v19) := W9_of_ne m ρ c main_v19 (by decide)
    _ = W7 m ρ c (Proc.devRef .tc main_v19) := by carried hostOps4
end Cert.KernelIdeal.Carry

end
-- ==== Proof.CarryHopTwo.lean ====
/-
  Buffers carried within the second hop: dense layers, score regions, the P-side gathers, edge region and normalisation.
  A buffer keeps its contents across every segment of @main that does not write it: a region replaces only its
  own output arrays (an array it reads through an input window ends as it was entered), a stretch of host operations only the buffers its operations name as results. Each lemma
  here walks one buffer back, segment by segment, from the boundary where it is read to the boundary where it
  was written (or, for an argument array, to the launch memory).
-/
import proofs.«154843_j76682346102829_2_alg».proof.Proof.Gen.KernelIdeal.Frame

set_option maxRecDepth 16384

noncomputable section

namespace Cert.KernelIdeal.Carry

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- A stretch of host operations leaves a buffer none of them writes as it was: the stretch's operations are
    listed, each one's written buffer read off, and the reference decided different from it. -/
local macro "carried" l:ident : tactic => `(tactic| (
  refine StableHlo.after_of_forall_not_mem _ _ (List.forall_iff_forall_mem.mp ?_)
  simp only [$l:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

theorem arg8_0_23 (c : Dev nD) : W23 m ρ c (Proc.devRef .tc main_arg8) = W0 m ρ c (Proc.devRef .tc main_arg8) :=
  calc W23 m ρ c (Proc.devRef .tc main_arg8)
    _ = W22 m ρ c (Proc.devRef .tc main_arg8) := W23_of_ne m ρ c main_arg8 (by decide)
    _ = W21 m ρ c (Proc.devRef .tc main_arg8) := by carried hostOps9
    _ = W20 m ρ c (Proc.devRef .tc main_arg8) := W21_of_ne m ρ c main_arg8 (by decide)
    _ = W19 m ρ c (Proc.devRef .tc main_arg8) := by carried hostOps8_2
    _ = W18 m ρ c (Proc.devRef .tc main_arg8) := by carried hostOps8_1
    _ = W17 m ρ c (Proc.devRef .tc main_arg8) := by carried hostOps8
    _ = W16 m ρ c (Proc.devRef .tc main_arg8) := W17_of_ne m ρ c main_arg8 (by decide)
    _ = W15 m ρ c (Proc.devRef .tc main_arg8) := by carried hostOps7
    _ = W14 m ρ c (Proc.devRef .tc main_arg8) := W15_of_ne m ρ c main_arg8 (by decide)
    _ = W13 m ρ c (Proc.devRef .tc main_arg8) := by carried hostOps6_2
    _ = W12 m ρ c (Proc.devRef .tc main_arg8) := by carried hostOps6_1
    _ = W11 m ρ c (Proc.devRef .tc main_arg8) := by carried hostOps6
    _ = W10 m ρ c (Proc.devRef .tc main_arg8) := W11_of_ne m ρ c main_arg8 (by decide)
    _ = W9 m ρ c (Proc.devRef .tc main_arg8) := by carried hostOps5
    _ = W8 m ρ c (Proc.devRef .tc main_arg8) := W9_of_ne m ρ c main_arg8 (by decide)
    _ = W7 m ρ c (Proc.devRef .tc main_arg8) := by carried hostOps4
    _ = W6 m ρ c (Proc.devRef .tc main_arg8) := W7_of_ne m ρ c main_arg8 (by decide)
    _ = W5 m ρ c (Proc.devRef .tc main_arg8) := by carried hostOps3
    _ = W4 m ρ c (Proc.devRef .tc main_arg8) := W5_of_ne m ρ c main_arg8 (by decide)
    _ = W3 m ρ c (Proc.devRef .tc main_arg8) := by carried hostOps2
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := by carried hostOps0

theorem arg9_0_23 (c : Dev nD) : W23 m ρ c (Proc.devRef .tc main_arg9) = W0 m ρ c (Proc.devRef .tc main_arg9) :=
  calc W23 m ρ c (Proc.devRef .tc main_arg9)
    _ = W22 m ρ c (Proc.devRef .tc main_arg9) := W23_of_ne m ρ c main_arg9 (by decide)
    _ = W21 m ρ c (Proc.devRef .tc main_arg9) := by carried hostOps9
    _ = W20 m ρ c (Proc.devRef .tc main_arg9) := W21_of_ne m ρ c main_arg9 (by decide)
    _ = W19 m ρ c (Proc.devRef .tc main_arg9) := by carried hostOps8_2
    _ = W18 m ρ c (Proc.devRef .tc main_arg9) := by carried hostOps8_1
    _ = W17 m ρ c (Proc.devRef .tc main_arg9) := by carried hostOps8
    _ = W16 m ρ c (Proc.devRef .tc main_arg9) := W17_of_ne m ρ c main_arg9 (by decide)
    _ = W15 m ρ c (Proc.devRef .tc main_arg9) := by carried hostOps7
    _ = W14 m ρ c (Proc.devRef .tc main_arg9) := W15_of_ne m ρ c main_arg9 (by decide)
    _ = W13 m ρ c (Proc.devRef .tc main_arg9) := by carried hostOps6_2
    _ = W12 m ρ c (Proc.devRef .tc main_arg9) := by carried hostOps6_1
    _ = W11 m ρ c (Proc.devRef .tc main_arg9) := by carried hostOps6
    _ = W10 m ρ c (Proc.devRef .tc main_arg9) := W11_of_ne m ρ c main_arg9 (by decide)
    _ = W9 m ρ c (Proc.devRef .tc main_arg9) := by carried hostOps5
    _ = W8 m ρ c (Proc.devRef .tc main_arg9) := W9_of_ne m ρ c main_arg9 (by decide)
    _ = W7 m ρ c (Proc.devRef .tc main_arg9) := by carried hostOps4
    _ = W6 m ρ c (Proc.devRef .tc main_arg9) := W7_of_ne m ρ c main_arg9 (by decide)
    _ = W5 m ρ c (Proc.devRef .tc main_arg9) := by carried hostOps3
    _ = W4 m ρ c (Proc.devRef .tc main_arg9) := W5_of_ne m ρ c main_arg9 (by decide)
    _ = W3 m ρ c (Proc.devRef .tc main_arg9) := by carried hostOps2
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := by carried hostOps0

theorem v44_17_24 (c : Dev nD) : W24 m ρ c (Proc.devRef .tc main_v44) = W17 m ρ c (Proc.devRef .tc main_v44) :=
  calc W24 m ρ c (Proc.devRef .tc main_v44)
    _ = W23 m ρ c (Proc.devRef .tc main_v44) := by carried hostOps10
    _ = W22 m ρ c (Proc.devRef .tc main_v44) := W23_of_ne m ρ c main_v44 (by decide)
    _ = W21 m ρ c (Proc.devRef .tc main_v44) := by carried hostOps9
    _ = W20 m ρ c (Proc.devRef .tc main_v44) := W21_of_ne m ρ c main_v44 (by decide)
    _ = W19 m ρ c (Proc.devRef .tc main_v44) := by carried hostOps8_2
    _ = W18 m ρ c (Proc.devRef .tc main_v44) := by carried hostOps8_1
    _ = W17 m ρ c (Proc.devRef .tc main_v44) := by carried hostOps8

theorem arg8_0_25 (c : Dev nD) : W25 m ρ c (Proc.devRef .tc main_arg8) = W0 m ρ c (Proc.devRef .tc main_arg8) :=
  calc W25 m ρ c (Proc.devRef .tc main_arg8)
    _ = W24 m ρ c (Proc.devRef .tc main_arg8) := W25_of_ne m ρ c main_arg8 (by decide)
    _ = W23 m ρ c (Proc.devRef .tc main_arg8) := by carried hostOps10
    _ = W22 m ρ c (Proc.devRef .tc main_arg8) := W23_of_ne m ρ c main_arg8 (by decide)
    _ = W21 m ρ c (Proc.devRef .tc main_arg8) := by carried hostOps9
    _ = W20 m ρ c (Proc.devRef .tc main_arg8) := W21_of_ne m ρ c main_arg8 (by decide)
    _ = W19 m ρ c (Proc.devRef .tc main_arg8) := by carried hostOps8_2
    _ = W18 m ρ c (Proc.devRef .tc main_arg8) := by carried hostOps8_1
    _ = W17 m ρ c (Proc.devRef .tc main_arg8) := by carried hostOps8
    _ = W16 m ρ c (Proc.devRef .tc main_arg8) := W17_of_ne m ρ c main_arg8 (by decide)
    _ = W15 m ρ c (Proc.devRef .tc main_arg8) := by carried hostOps7
    _ = W14 m ρ c (Proc.devRef .tc main_arg8) := W15_of_ne m ρ c main_arg8 (by decide)
    _ = W13 m ρ c (Proc.devRef .tc main_arg8) := by carried hostOps6_2
    _ = W12 m ρ c (Proc.devRef .tc main_arg8) := by carried hostOps6_1
    _ = W11 m ρ c (Proc.devRef .tc main_arg8) := by carried hostOps6
    _ = W10 m ρ c (Proc.devRef .tc main_arg8) := W11_of_ne m ρ c main_arg8 (by decide)
    _ = W9 m ρ c (Proc.devRef .tc main_arg8) := by carried hostOps5
    _ = W8 m ρ c (Proc.devRef .tc main_arg8) := W9_of_ne m ρ c main_arg8 (by decide)
    _ = W7 m ρ c (Proc.devRef .tc main_arg8) := by carried hostOps4
    _ = W6 m ρ c (Proc.devRef .tc main_arg8) := W7_of_ne m ρ c main_arg8 (by decide)
    _ = W5 m ρ c (Proc.devRef .tc main_arg8) := by carried hostOps3
    _ = W4 m ρ c (Proc.devRef .tc main_arg8) := W5_of_ne m ρ c main_arg8 (by decide)
    _ = W3 m ρ c (Proc.devRef .tc main_arg8) := by carried hostOps2
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := by carried hostOps0

theorem arg9_0_25 (c : Dev nD) : W25 m ρ c (Proc.devRef .tc main_arg9) = W0 m ρ c (Proc.devRef .tc main_arg9) :=
  calc W25 m ρ c (Proc.devRef .tc main_arg9)
    _ = W24 m ρ c (Proc.devRef .tc main_arg9) := W25_of_ne m ρ c main_arg9 (by decide)
    _ = W23 m ρ c (Proc.devRef .tc main_arg9) := by carried hostOps10
    _ = W22 m ρ c (Proc.devRef .tc main_arg9) := W23_of_ne m ρ c main_arg9 (by decide)
    _ = W21 m ρ c (Proc.devRef .tc main_arg9) := by carried hostOps9
    _ = W20 m ρ c (Proc.devRef .tc main_arg9) := W21_of_ne m ρ c main_arg9 (by decide)
    _ = W19 m ρ c (Proc.devRef .tc main_arg9) := by carried hostOps8_2
    _ = W18 m ρ c (Proc.devRef .tc main_arg9) := by carried hostOps8_1
    _ = W17 m ρ c (Proc.devRef .tc main_arg9) := by carried hostOps8
    _ = W16 m ρ c (Proc.devRef .tc main_arg9) := W17_of_ne m ρ c main_arg9 (by decide)
    _ = W15 m ρ c (Proc.devRef .tc main_arg9) := by carried hostOps7
    _ = W14 m ρ c (Proc.devRef .tc main_arg9) := W15_of_ne m ρ c main_arg9 (by decide)
    _ = W13 m ρ c (Proc.devRef .tc main_arg9) := by carried hostOps6_2
    _ = W12 m ρ c (Proc.devRef .tc main_arg9) := by carried hostOps6_1
    _ = W11 m ρ c (Proc.devRef .tc main_arg9) := by carried hostOps6
    _ = W10 m ρ c (Proc.devRef .tc main_arg9) := W11_of_ne m ρ c main_arg9 (by decide)
    _ = W9 m ρ c (Proc.devRef .tc main_arg9) := by carried hostOps5
    _ = W8 m ρ c (Proc.devRef .tc main_arg9) := W9_of_ne m ρ c main_arg9 (by decide)
    _ = W7 m ρ c (Proc.devRef .tc main_arg9) := by carried hostOps4
    _ = W6 m ρ c (Proc.devRef .tc main_arg9) := W7_of_ne m ρ c main_arg9 (by decide)
    _ = W5 m ρ c (Proc.devRef .tc main_arg9) := by carried hostOps3
    _ = W4 m ρ c (Proc.devRef .tc main_arg9) := W5_of_ne m ρ c main_arg9 (by decide)
    _ = W3 m ρ c (Proc.devRef .tc main_arg9) := by carried hostOps2
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := by carried hostOps0

theorem v55_23_26 (c : Dev nD) : W26 m ρ c (Proc.devRef .tc main_v55) = W23 m ρ c (Proc.devRef .tc main_v55) :=
  calc W26 m ρ c (Proc.devRef .tc main_v55)
    _ = W25 m ρ c (Proc.devRef .tc main_v55) := by carried hostOps11
    _ = W24 m ρ c (Proc.devRef .tc main_v55) := W25_of_ne m ρ c main_v55 (by decide)
    _ = W23 m ρ c (Proc.devRef .tc main_v55) := by carried hostOps10

theorem arg10_0_27 (c : Dev nD) : W27 m ρ c (Proc.devRef .tc main_arg10) = W0 m ρ c (Proc.devRef .tc main_arg10) :=
  calc W27 m ρ c (Proc.devRef .tc main_arg10)
    _ = W26 m ρ c (Proc.devRef .tc main_arg10) := W27_of_ne m ρ c main_arg10 (by decide)
    _ = W25 m ρ c (Proc.devRef .tc main_arg10) := by carried hostOps11
    _ = W24 m ρ c (Proc.devRef .tc main_arg10) := W25_of_ne m ρ c main_arg10 (by decide)
    _ = W23 m ρ c (Proc.devRef .tc main_arg10) := by carried hostOps10
    _ = W22 m ρ c (Proc.devRef .tc main_arg10) := W23_of_ne m ρ c main_arg10 (by decide)
    _ = W21 m ρ c (Proc.devRef .tc main_arg10) := by carried hostOps9
    _ = W20 m ρ c (Proc.devRef .tc main_arg10) := W21_of_ne m ρ c main_arg10 (by decide)
    _ = W19 m ρ c (Proc.devRef .tc main_arg10) := by carried hostOps8_2
    _ = W18 m ρ c (Proc.devRef .tc main_arg10) := by carried hostOps8_1
    _ = W17 m ρ c (Proc.devRef .tc main_arg10) := by carried hostOps8
    _ = W16 m ρ c (Proc.devRef .tc main_arg10) := W17_of_ne m ρ c main_arg10 (by decide)
    _ = W15 m ρ c (Proc.devRef .tc main_arg10) := by carried hostOps7
    _ = W14 m ρ c (Proc.devRef .tc main_arg10) := W15_of_ne m ρ c main_arg10 (by decide)
    _ = W13 m ρ c (Proc.devRef .tc main_arg10) := by carried hostOps6_2
    _ = W12 m ρ c (Proc.devRef .tc main_arg10) := by carried hostOps6_1
    _ = W11 m ρ c (Proc.devRef .tc main_arg10) := by carried hostOps6
    _ = W10 m ρ c (Proc.devRef .tc main_arg10) := W11_of_ne m ρ c main_arg10 (by decide)
    _ = W9 m ρ c (Proc.devRef .tc main_arg10) := by carried hostOps5
    _ = W8 m ρ c (Proc.devRef .tc main_arg10) := W9_of_ne m ρ c main_arg10 (by decide)
    _ = W7 m ρ c (Proc.devRef .tc main_arg10) := by carried hostOps4
    _ = W6 m ρ c (Proc.devRef .tc main_arg10) := W7_of_ne m ρ c main_arg10 (by decide)
    _ = W5 m ρ c (Proc.devRef .tc main_arg10) := by carried hostOps3
    _ = W4 m ρ c (Proc.devRef .tc main_arg10) := W5_of_ne m ρ c main_arg10 (by decide)
    _ = W3 m ρ c (Proc.devRef .tc main_arg10) := by carried hostOps2
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := by carried hostOps0

theorem arg11_0_27 (c : Dev nD) : W27 m ρ c (Proc.devRef .tc main_arg11) = W0 m ρ c (Proc.devRef .tc main_arg11) :=
  calc W27 m ρ c (Proc.devRef .tc main_arg11)
    _ = W26 m ρ c (Proc.devRef .tc main_arg11) := W27_of_ne m ρ c main_arg11 (by decide)
    _ = W25 m ρ c (Proc.devRef .tc main_arg11) := by carried hostOps11
    _ = W24 m ρ c (Proc.devRef .tc main_arg11) := W25_of_ne m ρ c main_arg11 (by decide)
    _ = W23 m ρ c (Proc.devRef .tc main_arg11) := by carried hostOps10
    _ = W22 m ρ c (Proc.devRef .tc main_arg11) := W23_of_ne m ρ c main_arg11 (by decide)
    _ = W21 m ρ c (Proc.devRef .tc main_arg11) := by carried hostOps9
    _ = W20 m ρ c (Proc.devRef .tc main_arg11) := W21_of_ne m ρ c main_arg11 (by decide)
    _ = W19 m ρ c (Proc.devRef .tc main_arg11) := by carried hostOps8_2
    _ = W18 m ρ c (Proc.devRef .tc main_arg11) := by carried hostOps8_1
    _ = W17 m ρ c (Proc.devRef .tc main_arg11) := by carried hostOps8
    _ = W16 m ρ c (Proc.devRef .tc main_arg11) := W17_of_ne m ρ c main_arg11 (by decide)
    _ = W15 m ρ c (Proc.devRef .tc main_arg11) := by carried hostOps7
    _ = W14 m ρ c (Proc.devRef .tc main_arg11) := W15_of_ne m ρ c main_arg11 (by decide)
    _ = W13 m ρ c (Proc.devRef .tc main_arg11) := by carried hostOps6_2
    _ = W12 m ρ c (Proc.devRef .tc main_arg11) := by carried hostOps6_1
    _ = W11 m ρ c (Proc.devRef .tc main_arg11) := by carried hostOps6
    _ = W10 m ρ c (Proc.devRef .tc main_arg11) := W11_of_ne m ρ c main_arg11 (by decide)
    _ = W9 m ρ c (Proc.devRef .tc main_arg11) := by carried hostOps5
    _ = W8 m ρ c (Proc.devRef .tc main_arg11) := W9_of_ne m ρ c main_arg11 (by decide)
    _ = W7 m ρ c (Proc.devRef .tc main_arg11) := by carried hostOps4
    _ = W6 m ρ c (Proc.devRef .tc main_arg11) := W7_of_ne m ρ c main_arg11 (by decide)
    _ = W5 m ρ c (Proc.devRef .tc main_arg11) := by carried hostOps3
    _ = W4 m ρ c (Proc.devRef .tc main_arg11) := W5_of_ne m ρ c main_arg11 (by decide)
    _ = W3 m ρ c (Proc.devRef .tc main_arg11) := by carried hostOps2
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := by carried hostOps0

theorem arg13_0_27 (c : Dev nD) : W27 m ρ c (Proc.devRef .tc main_arg13) = W0 m ρ c (Proc.devRef .tc main_arg13) :=
  calc W27 m ρ c (Proc.devRef .tc main_arg13)
    _ = W26 m ρ c (Proc.devRef .tc main_arg13) := W27_of_ne m ρ c main_arg13 (by decide)
    _ = W25 m ρ c (Proc.devRef .tc main_arg13) := by carried hostOps11
    _ = W24 m ρ c (Proc.devRef .tc main_arg13) := W25_of_ne m ρ c main_arg13 (by decide)
    _ = W23 m ρ c (Proc.devRef .tc main_arg13) := by carried hostOps10
    _ = W22 m ρ c (Proc.devRef .tc main_arg13) := W23_of_ne m ρ c main_arg13 (by decide)
    _ = W21 m ρ c (Proc.devRef .tc main_arg13) := by carried hostOps9
    _ = W20 m ρ c (Proc.devRef .tc main_arg13) := W21_of_ne m ρ c main_arg13 (by decide)
    _ = W19 m ρ c (Proc.devRef .tc main_arg13) := by carried hostOps8_2
    _ = W18 m ρ c (Proc.devRef .tc main_arg13) := by carried hostOps8_1
    _ = W17 m ρ c (Proc.devRef .tc main_arg13) := by carried hostOps8
    _ = W16 m ρ c (Proc.devRef .tc main_arg13) := W17_of_ne m ρ c main_arg13 (by decide)
    _ = W15 m ρ c (Proc.devRef .tc main_arg13) := by carried hostOps7
    _ = W14 m ρ c (Proc.devRef .tc main_arg13) := W15_of_ne m ρ c main_arg13 (by decide)
    _ = W13 m ρ c (Proc.devRef .tc main_arg13) := by carried hostOps6_2
    _ = W12 m ρ c (Proc.devRef .tc main_arg13) := by carried hostOps6_1
    _ = W11 m ρ c (Proc.devRef .tc main_arg13) := by carried hostOps6
    _ = W10 m ρ c (Proc.devRef .tc main_arg13) := W11_of_ne m ρ c main_arg13 (by decide)
    _ = W9 m ρ c (Proc.devRef .tc main_arg13) := by carried hostOps5
    _ = W8 m ρ c (Proc.devRef .tc main_arg13) := W9_of_ne m ρ c main_arg13 (by decide)
    _ = W7 m ρ c (Proc.devRef .tc main_arg13) := by carried hostOps4
    _ = W6 m ρ c (Proc.devRef .tc main_arg13) := W7_of_ne m ρ c main_arg13 (by decide)
    _ = W5 m ρ c (Proc.devRef .tc main_arg13) := by carried hostOps3
    _ = W4 m ρ c (Proc.devRef .tc main_arg13) := W5_of_ne m ρ c main_arg13 (by decide)
    _ = W3 m ρ c (Proc.devRef .tc main_arg13) := by carried hostOps2
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := by carried hostOps0

theorem v60_25_28 (c : Dev nD) : W28 m ρ c (Proc.devRef .tc main_v60) = W25 m ρ c (Proc.devRef .tc main_v60) :=
  calc W28 m ρ c (Proc.devRef .tc main_v60)
    _ = W27 m ρ c (Proc.devRef .tc main_v60) := by carried hostOps12
    _ = W26 m ρ c (Proc.devRef .tc main_v60) := W27_of_ne m ρ c main_v60 (by decide)
    _ = W25 m ρ c (Proc.devRef .tc main_v60) := by carried hostOps11

theorem arg12_0_29 (c : Dev nD) : W29 m ρ c (Proc.devRef .tc main_arg12) = W0 m ρ c (Proc.devRef .tc main_arg12) :=
  calc W29 m ρ c (Proc.devRef .tc main_arg12)
    _ = W28 m ρ c (Proc.devRef .tc main_arg12) := W29_of_ne m ρ c main_arg12 (by decide)
    _ = W27 m ρ c (Proc.devRef .tc main_arg12) := by carried hostOps12
    _ = W26 m ρ c (Proc.devRef .tc main_arg12) := W27_of_ne m ρ c main_arg12 (by decide)
    _ = W25 m ρ c (Proc.devRef .tc main_arg12) := by carried hostOps11
    _ = W24 m ρ c (Proc.devRef .tc main_arg12) := W25_of_ne m ρ c main_arg12 (by decide)
    _ = W23 m ρ c (Proc.devRef .tc main_arg12) := by carried hostOps10
    _ = W22 m ρ c (Proc.devRef .tc main_arg12) := W23_of_ne m ρ c main_arg12 (by decide)
    _ = W21 m ρ c (Proc.devRef .tc main_arg12) := by carried hostOps9
    _ = W20 m ρ c (Proc.devRef .tc main_arg12) := W21_of_ne m ρ c main_arg12 (by decide)
    _ = W19 m ρ c (Proc.devRef .tc main_arg12) := by carried hostOps8_2
    _ = W18 m ρ c (Proc.devRef .tc main_arg12) := by carried hostOps8_1
    _ = W17 m ρ c (Proc.devRef .tc main_arg12) := by carried hostOps8
    _ = W16 m ρ c (Proc.devRef .tc main_arg12) := W17_of_ne m ρ c main_arg12 (by decide)
    _ = W15 m ρ c (Proc.devRef .tc main_arg12) := by carried hostOps7
    _ = W14 m ρ c (Proc.devRef .tc main_arg12) := W15_of_ne m ρ c main_arg12 (by decide)
    _ = W13 m ρ c (Proc.devRef .tc main_arg12) := by carried hostOps6_2
    _ = W12 m ρ c (Proc.devRef .tc main_arg12) := by carried hostOps6_1
    _ = W11 m ρ c (Proc.devRef .tc main_arg12) := by carried hostOps6
    _ = W10 m ρ c (Proc.devRef .tc main_arg12) := W11_of_ne m ρ c main_arg12 (by decide)
    _ = W9 m ρ c (Proc.devRef .tc main_arg12) := by carried hostOps5
    _ = W8 m ρ c (Proc.devRef .tc main_arg12) := W9_of_ne m ρ c main_arg12 (by decide)
    _ = W7 m ρ c (Proc.devRef .tc main_arg12) := by carried hostOps4
    _ = W6 m ρ c (Proc.devRef .tc main_arg12) := W7_of_ne m ρ c main_arg12 (by decide)
    _ = W5 m ρ c (Proc.devRef .tc main_arg12) := by carried hostOps3
    _ = W4 m ρ c (Proc.devRef .tc main_arg12) := W5_of_ne m ρ c main_arg12 (by decide)
    _ = W3 m ρ c (Proc.devRef .tc main_arg12) := by carried hostOps2
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := by carried hostOps0

theorem arg13_0_29 (c : Dev nD) : W29 m ρ c (Proc.devRef .tc main_arg13) = W0 m ρ c (Proc.devRef .tc main_arg13) :=
  calc W29 m ρ c (Proc.devRef .tc main_arg13)
    _ = W28 m ρ c (Proc.devRef .tc main_arg13) := W29_of_ne m ρ c main_arg13 (by decide)
    _ = W27 m ρ c (Proc.devRef .tc main_arg13) := by carried hostOps12
    _ = W26 m ρ c (Proc.devRef .tc main_arg13) := W27_of_ne m ρ c main_arg13 (by decide)
    _ = W25 m ρ c (Proc.devRef .tc main_arg13) := by carried hostOps11
    _ = W24 m ρ c (Proc.devRef .tc main_arg13) := W25_of_ne m ρ c main_arg13 (by decide)
    _ = W23 m ρ c (Proc.devRef .tc main_arg13) := by carried hostOps10
    _ = W22 m ρ c (Proc.devRef .tc main_arg13) := W23_of_ne m ρ c main_arg13 (by decide)
    _ = W21 m ρ c (Proc.devRef .tc main_arg13) := by carried hostOps9
    _ = W20 m ρ c (Proc.devRef .tc main_arg13) := W21_of_ne m ρ c main_arg13 (by decide)
    _ = W19 m ρ c (Proc.devRef .tc main_arg13) := by carried hostOps8_2
    _ = W18 m ρ c (Proc.devRef .tc main_arg13) := by carried hostOps8_1
    _ = W17 m ρ c (Proc.devRef .tc main_arg13) := by carried hostOps8
    _ = W16 m ρ c (Proc.devRef .tc main_arg13) := W17_of_ne m ρ c main_arg13 (by decide)
    _ = W15 m ρ c (Proc.devRef .tc main_arg13) := by carried hostOps7
    _ = W14 m ρ c (Proc.devRef .tc main_arg13) := W15_of_ne m ρ c main_arg13 (by decide)
    _ = W13 m ρ c (Proc.devRef .tc main_arg13) := by carried hostOps6_2
    _ = W12 m ρ c (Proc.devRef .tc main_arg13) := by carried hostOps6_1
    _ = W11 m ρ c (Proc.devRef .tc main_arg13) := by carried hostOps6
    _ = W10 m ρ c (Proc.devRef .tc main_arg13) := W11_of_ne m ρ c main_arg13 (by decide)
    _ = W9 m ρ c (Proc.devRef .tc main_arg13) := by carried hostOps5
    _ = W8 m ρ c (Proc.devRef .tc main_arg13) := W9_of_ne m ρ c main_arg13 (by decide)
    _ = W7 m ρ c (Proc.devRef .tc main_arg13) := by carried hostOps4
    _ = W6 m ρ c (Proc.devRef .tc main_arg13) := W7_of_ne m ρ c main_arg13 (by decide)
    _ = W5 m ρ c (Proc.devRef .tc main_arg13) := by carried hostOps3
    _ = W4 m ρ c (Proc.devRef .tc main_arg13) := W5_of_ne m ρ c main_arg13 (by decide)
    _ = W3 m ρ c (Proc.devRef .tc main_arg13) := by carried hostOps2
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := by carried hostOps0

theorem arg11_0_29 (c : Dev nD) : W29 m ρ c (Proc.devRef .tc main_arg11) = W0 m ρ c (Proc.devRef .tc main_arg11) :=
  calc W29 m ρ c (Proc.devRef .tc main_arg11)
    _ = W28 m ρ c (Proc.devRef .tc main_arg11) := W29_of_ne m ρ c main_arg11 (by decide)
    _ = W27 m ρ c (Proc.devRef .tc main_arg11) := by carried hostOps12
    _ = W26 m ρ c (Proc.devRef .tc main_arg11) := W27_of_ne m ρ c main_arg11 (by decide)
    _ = W25 m ρ c (Proc.devRef .tc main_arg11) := by carried hostOps11
    _ = W24 m ρ c (Proc.devRef .tc main_arg11) := W25_of_ne m ρ c main_arg11 (by decide)
    _ = W23 m ρ c (Proc.devRef .tc main_arg11) := by carried hostOps10
    _ = W22 m ρ c (Proc.devRef .tc main_arg11) := W23_of_ne m ρ c main_arg11 (by decide)
    _ = W21 m ρ c (Proc.devRef .tc main_arg11) := by carried hostOps9
    _ = W20 m ρ c (Proc.devRef .tc main_arg11) := W21_of_ne m ρ c main_arg11 (by decide)
    _ = W19 m ρ c (Proc.devRef .tc main_arg11) := by carried hostOps8_2
    _ = W18 m ρ c (Proc.devRef .tc main_arg11) := by carried hostOps8_1
    _ = W17 m ρ c (Proc.devRef .tc main_arg11) := by carried hostOps8
    _ = W16 m ρ c (Proc.devRef .tc main_arg11) := W17_of_ne m ρ c main_arg11 (by decide)
    _ = W15 m ρ c (Proc.devRef .tc main_arg11) := by carried hostOps7
    _ = W14 m ρ c (Proc.devRef .tc main_arg11) := W15_of_ne m ρ c main_arg11 (by decide)
    _ = W13 m ρ c (Proc.devRef .tc main_arg11) := by carried hostOps6_2
    _ = W12 m ρ c (Proc.devRef .tc main_arg11) := by carried hostOps6_1
    _ = W11 m ρ c (Proc.devRef .tc main_arg11) := by carried hostOps6
    _ = W10 m ρ c (Proc.devRef .tc main_arg11) := W11_of_ne m ρ c main_arg11 (by decide)
    _ = W9 m ρ c (Proc.devRef .tc main_arg11) := by carried hostOps5
    _ = W8 m ρ c (Proc.devRef .tc main_arg11) := W9_of_ne m ρ c main_arg11 (by decide)
    _ = W7 m ρ c (Proc.devRef .tc main_arg11) := by carried hostOps4
    _ = W6 m ρ c (Proc.devRef .tc main_arg11) := W7_of_ne m ρ c main_arg11 (by decide)
    _ = W5 m ρ c (Proc.devRef .tc main_arg11) := by carried hostOps3
    _ = W4 m ρ c (Proc.devRef .tc main_arg11) := W5_of_ne m ρ c main_arg11 (by decide)
    _ = W3 m ρ c (Proc.devRef .tc main_arg11) := by carried hostOps2
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := by carried hostOps0

theorem v65_27_30 (c : Dev nD) : W30 m ρ c (Proc.devRef .tc main_v65) = W27 m ρ c (Proc.devRef .tc main_v65) :=
  calc W30 m ρ c (Proc.devRef .tc main_v65)
    _ = W29 m ρ c (Proc.devRef .tc main_v65) := by carried hostOps13
    _ = W28 m ρ c (Proc.devRef .tc main_v65) := W29_of_ne m ρ c main_v65 (by decide)
    _ = W27 m ρ c (Proc.devRef .tc main_v65) := by carried hostOps12

theorem v72_0_29_31 (c : Dev nD) : W31 m ρ c (Proc.devRef .tc main_v72_0) = W29 m ρ c (Proc.devRef .tc main_v72_0) :=
  calc W31 m ρ c (Proc.devRef .tc main_v72_0)
    _ = W30 m ρ c (Proc.devRef .tc main_v72_0) := W31_of_ne m ρ c main_v72_0 (by decide)
    _ = W29 m ρ c (Proc.devRef .tc main_v72_0) := by carried hostOps13

theorem v1_1_31 (c : Dev nD) : W31 m ρ c (Proc.devRef .tc main_v1) = W1 m ρ c (Proc.devRef .tc main_v1) :=
  calc W31 m ρ c (Proc.devRef .tc main_v1)
    _ = W30 m ρ c (Proc.devRef .tc main_v1) := W31_of_ne m ρ c main_v1 (by decide)
    _ = W29 m ρ c (Proc.devRef .tc main_v1) := by carried hostOps13
    _ = W28 m ρ c (Proc.devRef .tc main_v1) := W29_of_ne m ρ c main_v1 (by decide)
    _ = W27 m ρ c (Proc.devRef .tc main_v1) := by carried hostOps12
    _ = W26 m ρ c (Proc.devRef .tc main_v1) := W27_of_ne m ρ c main_v1 (by decide)
    _ = W25 m ρ c (Proc.devRef .tc main_v1) := by carried hostOps11
    _ = W24 m ρ c (Proc.devRef .tc main_v1) := W25_of_ne m ρ c main_v1 (by decide)
    _ = W23 m ρ c (Proc.devRef .tc main_v1) := by carried hostOps10
    _ = W22 m ρ c (Proc.devRef .tc main_v1) := W23_of_ne m ρ c main_v1 (by decide)
    _ = W21 m ρ c (Proc.devRef .tc main_v1) := by carried hostOps9
    _ = W20 m ρ c (Proc.devRef .tc main_v1) := W21_of_ne m ρ c main_v1 (by decide)
    _ = W19 m ρ c (Proc.devRef .tc main_v1) := by carried hostOps8_2
    _ = W18 m ρ c (Proc.devRef .tc main_v1) := by carried hostOps8_1
    _ = W17 m ρ c (Proc.devRef .tc main_v1) := by carried hostOps8
    _ = W16 m ρ c (Proc.devRef .tc main_v1) := W17_of_ne m ρ c main_v1 (by decide)
    _ = W15 m ρ c (Proc.devRef .tc main_v1) := by carried hostOps7
    _ = W14 m ρ c (Proc.devRef .tc main_v1) := W15_of_ne m ρ c main_v1 (by decide)
    _ = W13 m ρ c (Proc.devRef .tc main_v1) := by carried hostOps6_2
    _ = W12 m ρ c (Proc.devRef .tc main_v1) := by carried hostOps6_1
    _ = W11 m ρ c (Proc.devRef .tc main_v1) := by carried hostOps6
    _ = W10 m ρ c (Proc.devRef .tc main_v1) := W11_of_ne m ρ c main_v1 (by decide)
    _ = W9 m ρ c (Proc.devRef .tc main_v1) := by carried hostOps5
    _ = W8 m ρ c (Proc.devRef .tc main_v1) := W9_of_ne m ρ c main_v1 (by decide)
    _ = W7 m ρ c (Proc.devRef .tc main_v1) := by carried hostOps4
    _ = W6 m ρ c (Proc.devRef .tc main_v1) := W7_of_ne m ρ c main_v1 (by decide)
    _ = W5 m ρ c (Proc.devRef .tc main_v1) := by carried hostOps3
    _ = W4 m ρ c (Proc.devRef .tc main_v1) := W5_of_ne m ρ c main_v1 (by decide)
    _ = W3 m ρ c (Proc.devRef .tc main_v1) := by carried hostOps2
    _ = W2 m ρ c (Proc.devRef .tc main_v1) := W3_of_ne m ρ c main_v1 (by decide)
    _ = W1 m ρ c (Proc.devRef .tc main_v1) := W2_of_ne m ρ c main_v1 (by decide)

theorem v79_1_31_32 (c : Dev nD) : W32 m ρ c (Proc.devRef .tc main_v79_1) = W31 m ρ c (Proc.devRef .tc main_v79_1) :=
  calc W32 m ρ c (Proc.devRef .tc main_v79_1)
    _ = W31 m ρ c (Proc.devRef .tc main_v79_1) := by carried hostOps14

theorem v3_1_32 (c : Dev nD) : W32 m ρ c (Proc.devRef .tc main_v3) = W1 m ρ c (Proc.devRef .tc main_v3) :=
  calc W32 m ρ c (Proc.devRef .tc main_v3)
    _ = W31 m ρ c (Proc.devRef .tc main_v3) := by carried hostOps14
    _ = W30 m ρ c (Proc.devRef .tc main_v3) := W31_of_ne m ρ c main_v3 (by decide)
    _ = W29 m ρ c (Proc.devRef .tc main_v3) := by carried hostOps13
    _ = W28 m ρ c (Proc.devRef .tc main_v3) := W29_of_ne m ρ c main_v3 (by decide)
    _ = W27 m ρ c (Proc.devRef .tc main_v3) := by carried hostOps12
    _ = W26 m ρ c (Proc.devRef .tc main_v3) := W27_of_ne m ρ c main_v3 (by decide)
    _ = W25 m ρ c (Proc.devRef .tc main_v3) := by carried hostOps11
    _ = W24 m ρ c (Proc.devRef .tc main_v3) := W25_of_ne m ρ c main_v3 (by decide)
    _ = W23 m ρ c (Proc.devRef .tc main_v3) := by carried hostOps10
    _ = W22 m ρ c (Proc.devRef .tc main_v3) := W23_of_ne m ρ c main_v3 (by decide)
    _ = W21 m ρ c (Proc.devRef .tc main_v3) := by carried hostOps9
    _ = W20 m ρ c (Proc.devRef .tc main_v3) := W21_of_ne m ρ c main_v3 (by decide)
    _ = W19 m ρ c (Proc.devRef .tc main_v3) := by carried hostOps8_2
    _ = W18 m ρ c (Proc.devRef .tc main_v3) := by carried hostOps8_1
    _ = W17 m ρ c (Proc.devRef .tc main_v3) := by carried hostOps8
    _ = W16 m ρ c (Proc.devRef .tc main_v3) := W17_of_ne m ρ c main_v3 (by decide)
    _ = W15 m ρ c (Proc.devRef .tc main_v3) := by carried hostOps7
    _ = W14 m ρ c (Proc.devRef .tc main_v3) := W15_of_ne m ρ c main_v3 (by decide)
    _ = W13 m ρ c (Proc.devRef .tc main_v3) := by carried hostOps6_2
    _ = W12 m ρ c (Proc.devRef .tc main_v3) := by carried hostOps6_1
    _ = W11 m ρ c (Proc.devRef .tc main_v3) := by carried hostOps6
    _ = W10 m ρ c (Proc.devRef .tc main_v3) := W11_of_ne m ρ c main_v3 (by decide)
    _ = W9 m ρ c (Proc.devRef .tc main_v3) := by carried hostOps5
    _ = W8 m ρ c (Proc.devRef .tc main_v3) := W9_of_ne m ρ c main_v3 (by decide)
    _ = W7 m ρ c (Proc.devRef .tc main_v3) := by carried hostOps4
    _ = W6 m ρ c (Proc.devRef .tc main_v3) := W7_of_ne m ρ c main_v3 (by decide)
    _ = W5 m ρ c (Proc.devRef .tc main_v3) := by carried hostOps3
    _ = W4 m ρ c (Proc.devRef .tc main_v3) := W5_of_ne m ρ c main_v3 (by decide)
    _ = W3 m ρ c (Proc.devRef .tc main_v3) := by carried hostOps2
    _ = W2 m ρ c (Proc.devRef .tc main_v3) := W3_of_ne m ρ c main_v3 (by decide)
    _ = W1 m ρ c (Proc.devRef .tc main_v3) := W2_of_ne m ρ c main_v3 (by decide)

theorem v65_27_33 (c : Dev nD) : W33 m ρ c (Proc.devRef .tc main_v65) = W27 m ρ c (Proc.devRef .tc main_v65) :=
  calc W33 m ρ c (Proc.devRef .tc main_v65)
    _ = W32 m ρ c (Proc.devRef .tc main_v65) := by carried hostOps14_1
    _ = W31 m ρ c (Proc.devRef .tc main_v65) := by carried hostOps14
    _ = W30 m ρ c (Proc.devRef .tc main_v65) := (W31_arr m ρ c 0).trans (((dat13 (V30 m ρ) c).arrAt_in 0 rfl _).trans (A_eq13 (V30 m ρ) c 0))
    _ = W29 m ρ c (Proc.devRef .tc main_v65) := by carried hostOps13
    _ = W28 m ρ c (Proc.devRef .tc main_v65) := W29_of_ne m ρ c main_v65 (by decide)
    _ = W27 m ρ c (Proc.devRef .tc main_v65) := by carried hostOps12

theorem v3_1_33 (c : Dev nD) : W33 m ρ c (Proc.devRef .tc main_v3) = W1 m ρ c (Proc.devRef .tc main_v3) :=
  calc W33 m ρ c (Proc.devRef .tc main_v3)
    _ = W32 m ρ c (Proc.devRef .tc main_v3) := by carried hostOps14_1
    _ = W31 m ρ c (Proc.devRef .tc main_v3) := by carried hostOps14
    _ = W30 m ρ c (Proc.devRef .tc main_v3) := W31_of_ne m ρ c main_v3 (by decide)
    _ = W29 m ρ c (Proc.devRef .tc main_v3) := by carried hostOps13
    _ = W28 m ρ c (Proc.devRef .tc main_v3) := W29_of_ne m ρ c main_v3 (by decide)
    _ = W27 m ρ c (Proc.devRef .tc main_v3) := by carried hostOps12
    _ = W26 m ρ c (Proc.devRef .tc main_v3) := W27_of_ne m ρ c main_v3 (by decide)
    _ = W25 m ρ c (Proc.devRef .tc main_v3) := by carried hostOps11
    _ = W24 m ρ c (Proc.devRef .tc main_v3) := W25_of_ne m ρ c main_v3 (by decide)
    _ = W23 m ρ c (Proc.devRef .tc main_v3) := by carried hostOps10
    _ = W22 m ρ c (Proc.devRef .tc main_v3) := W23_of_ne m ρ c main_v3 (by decide)
    _ = W21 m ρ c (Proc.devRef .tc main_v3) := by carried hostOps9
    _ = W20 m ρ c (Proc.devRef .tc main_v3) := W21_of_ne m ρ c main_v3 (by decide)
    _ = W19 m ρ c (Proc.devRef .tc main_v3) := by carried hostOps8_2
    _ = W18 m ρ c (Proc.devRef .tc main_v3) := by carried hostOps8_1
    _ = W17 m ρ c (Proc.devRef .tc main_v3) := by carried hostOps8
    _ = W16 m ρ c (Proc.devRef .tc main_v3) := W17_of_ne m ρ c main_v3 (by decide)
    _ = W15 m ρ c (Proc.devRef .tc main_v3) := by carried hostOps7
    _ = W14 m ρ c (Proc.devRef .tc main_v3) := W15_of_ne m ρ c main_v3 (by decide)
    _ = W13 m ρ c (Proc.devRef .tc main_v3) := by carried hostOps6_2
    _ = W12 m ρ c (Proc.devRef .tc main_v3) := by carried hostOps6_1
    _ = W11 m ρ c (Proc.devRef .tc main_v3) := by carried hostOps6
    _ = W10 m ρ c (Proc.devRef .tc main_v3) := W11_of_ne m ρ c main_v3 (by decide)
    _ = W9 m ρ c (Proc.devRef .tc main_v3) := by carried hostOps5
    _ = W8 m ρ c (Proc.devRef .tc main_v3) := W9_of_ne m ρ c main_v3 (by decide)
    _ = W7 m ρ c (Proc.devRef .tc main_v3) := by carried hostOps4
    _ = W6 m ρ c (Proc.devRef .tc main_v3) := W7_of_ne m ρ c main_v3 (by decide)
    _ = W5 m ρ c (Proc.devRef .tc main_v3) := by carried hostOps3
    _ = W4 m ρ c (Proc.devRef .tc main_v3) := W5_of_ne m ρ c main_v3 (by decide)
    _ = W3 m ρ c (Proc.devRef .tc main_v3) := by carried hostOps2
    _ = W2 m ρ c (Proc.devRef .tc main_v3) := W3_of_ne m ρ c main_v3 (by decide)
    _ = W1 m ρ c (Proc.devRef .tc main_v3) := W2_of_ne m ρ c main_v3 (by decide)

theorem v80_32_34 (c : Dev nD) : W34 m ρ c (Proc.devRef .tc main_v80) = W32 m ρ c (Proc.devRef .tc main_v80) :=
  calc W34 m ρ c (Proc.devRef .tc main_v80)
    _ = W33 m ρ c (Proc.devRef .tc main_v80) := by carried hostOps14_2
    _ = W32 m ρ c (Proc.devRef .tc main_v80) := by carried hostOps14_1

theorem v81_33_34 (c : Dev nD) : W34 m ρ c (Proc.devRef .tc main_v81) = W33 m ρ c (Proc.devRef .tc main_v81) :=
  calc W34 m ρ c (Proc.devRef .tc main_v81)
    _ = W33 m ρ c (Proc.devRef .tc main_v81) := by carried hostOps14_2

theorem v1_1_35 (c : Dev nD) : W35 m ρ c (Proc.devRef .tc main_v1) = W1 m ρ c (Proc.devRef .tc main_v1) :=
  calc W35 m ρ c (Proc.devRef .tc main_v1)
    _ = W34 m ρ c (Proc.devRef .tc main_v1) := W35_of_ne m ρ c main_v1 (by decide)
    _ = W33 m ρ c (Proc.devRef .tc main_v1) := by carried hostOps14_2
    _ = W32 m ρ c (Proc.devRef .tc main_v1) := by carried hostOps14_1
    _ = W31 m ρ c (Proc.devRef .tc main_v1) := by carried hostOps14
    _ = W30 m ρ c (Proc.devRef .tc main_v1) := W31_of_ne m ρ c main_v1 (by decide)
    _ = W29 m ρ c (Proc.devRef .tc main_v1) := by carried hostOps13
    _ = W28 m ρ c (Proc.devRef .tc main_v1) := W29_of_ne m ρ c main_v1 (by decide)
    _ = W27 m ρ c (Proc.devRef .tc main_v1) := by carried hostOps12
    _ = W26 m ρ c (Proc.devRef .tc main_v1) := W27_of_ne m ρ c main_v1 (by decide)
    _ = W25 m ρ c (Proc.devRef .tc main_v1) := by carried hostOps11
    _ = W24 m ρ c (Proc.devRef .tc main_v1) := W25_of_ne m ρ c main_v1 (by decide)
    _ = W23 m ρ c (Proc.devRef .tc main_v1) := by carried hostOps10
    _ = W22 m ρ c (Proc.devRef .tc main_v1) := W23_of_ne m ρ c main_v1 (by decide)
    _ = W21 m ρ c (Proc.devRef .tc main_v1) := by carried hostOps9
    _ = W20 m ρ c (Proc.devRef .tc main_v1) := W21_of_ne m ρ c main_v1 (by decide)
    _ = W19 m ρ c (Proc.devRef .tc main_v1) := by carried hostOps8_2
    _ = W18 m ρ c (Proc.devRef .tc main_v1) := by carried hostOps8_1
    _ = W17 m ρ c (Proc.devRef .tc main_v1) := by carried hostOps8
    _ = W16 m ρ c (Proc.devRef .tc main_v1) := W17_of_ne m ρ c main_v1 (by decide)
    _ = W15 m ρ c (Proc.devRef .tc main_v1) := by carried hostOps7
    _ = W14 m ρ c (Proc.devRef .tc main_v1) := W15_of_ne m ρ c main_v1 (by decide)
    _ = W13 m ρ c (Proc.devRef .tc main_v1) := by carried hostOps6_2
    _ = W12 m ρ c (Proc.devRef .tc main_v1) := by carried hostOps6_1
    _ = W11 m ρ c (Proc.devRef .tc main_v1) := by carried hostOps6
    _ = W10 m ρ c (Proc.devRef .tc main_v1) := W11_of_ne m ρ c main_v1 (by decide)
    _ = W9 m ρ c (Proc.devRef .tc main_v1) := by carried hostOps5
    _ = W8 m ρ c (Proc.devRef .tc main_v1) := W9_of_ne m ρ c main_v1 (by decide)
    _ = W7 m ρ c (Proc.devRef .tc main_v1) := by carried hostOps4
    _ = W6 m ρ c (Proc.devRef .tc main_v1) := W7_of_ne m ρ c main_v1 (by decide)
    _ = W5 m ρ c (Proc.devRef .tc main_v1) := by carried hostOps3
    _ = W4 m ρ c (Proc.devRef .tc main_v1) := W5_of_ne m ρ c main_v1 (by decide)
    _ = W3 m ρ c (Proc.devRef .tc main_v1) := by carried hostOps2
    _ = W2 m ρ c (Proc.devRef .tc main_v1) := W3_of_ne m ρ c main_v1 (by decide)
    _ = W1 m ρ c (Proc.devRef .tc main_v1) := W2_of_ne m ρ c main_v1 (by decide)

theorem v72_2_29_36 (c : Dev nD) : W36 m ρ c (Proc.devRef .tc main_v72_2) = W29 m ρ c (Proc.devRef .tc main_v72_2) :=
  calc W36 m ρ c (Proc.devRef .tc main_v72_2)
    _ = W35 m ρ c (Proc.devRef .tc main_v72_2) := by carried hostOps15
    _ = W34 m ρ c (Proc.devRef .tc main_v72_2) := W35_of_ne m ρ c main_v72_2 (by decide)
    _ = W33 m ρ c (Proc.devRef .tc main_v72_2) := by carried hostOps14_2
    _ = W32 m ρ c (Proc.devRef .tc main_v72_2) := by carried hostOps14_1
    _ = W31 m ρ c (Proc.devRef .tc main_v72_2) := by carried hostOps14
    _ = W30 m ρ c (Proc.devRef .tc main_v72_2) := W31_of_ne m ρ c main_v72_2 (by decide)
    _ = W29 m ρ c (Proc.devRef .tc main_v72_2) := by carried hostOps13

theorem v60_25_36 (c : Dev nD) : W36 m ρ c (Proc.devRef .tc main_v60) = W25 m ρ c (Proc.devRef .tc main_v60) :=
  calc W36 m ρ c (Proc.devRef .tc main_v60)
    _ = W35 m ρ c (Proc.devRef .tc main_v60) := by carried hostOps15
    _ = W34 m ρ c (Proc.devRef .tc main_v60) := W35_of_ne m ρ c main_v60 (by decide)
    _ = W33 m ρ c (Proc.devRef .tc main_v60) := by carried hostOps14_2
    _ = W32 m ρ c (Proc.devRef .tc main_v60) := by carried hostOps14_1
    _ = W31 m ρ c (Proc.devRef .tc main_v60) := by carried hostOps14
    _ = W30 m ρ c (Proc.devRef .tc main_v60) := W31_of_ne m ρ c main_v60 (by decide)
    _ = W29 m ρ c (Proc.devRef .tc main_v60) := by carried hostOps13
    _ = W28 m ρ c (Proc.devRef .tc main_v60) := (W29_arr m ρ c 0).trans (((dat12 (V28 m ρ) c).arrAt_in 0 rfl _).trans (A_eq12 (V28 m ρ) c 0))
    _ = W27 m ρ c (Proc.devRef .tc main_v60) := by carried hostOps12
    _ = W26 m ρ c (Proc.devRef .tc main_v60) := W27_of_ne m ρ c main_v60 (by decide)
    _ = W25 m ρ c (Proc.devRef .tc main_v60) := by carried hostOps11
end Cert.KernelIdeal.Carry

end
-- ==== Proof.CarryOutput.lean ====
/-
  Buffers carried to the output layer.
  A buffer keeps its contents across every segment of @main that does not write it: a region replaces only its
  own output arrays (an array it reads through an input window ends as it was entered), a stretch of host operations only the buffers its operations name as results. Each lemma
  here walks one buffer back, segment by segment, from the boundary where it is read to the boundary where it
  was written (or, for an argument array, to the launch memory).
-/
import proofs.«154843_j76682346102829_2_alg».proof.Proof.Gen.KernelIdeal.Frame

set_option maxRecDepth 16384

noncomputable section

namespace Cert.KernelIdeal.Carry

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- A stretch of host operations leaves a buffer none of them writes as it was: the stretch's operations are
    listed, each one's written buffer read off, and the reference decided different from it. -/
local macro "carried" l:ident : tactic => `(tactic| (
  refine StableHlo.after_of_forall_not_mem _ _ (List.forall_iff_forall_mem.mp ?_)
  simp only [$l:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

theorem v90_37_43 (c : Dev nD) : W43 m ρ c (Proc.devRef .tc main_v90) = W37 m ρ c (Proc.devRef .tc main_v90) :=
  calc W43 m ρ c (Proc.devRef .tc main_v90)
    _ = W42 m ρ c (Proc.devRef .tc main_v90) := W43_of_ne m ρ c main_v90 (by decide)
    _ = W41 m ρ c (Proc.devRef .tc main_v90) := by carried hostOps17
    _ = W40 m ρ c (Proc.devRef .tc main_v90) := W41_of_ne m ρ c main_v90 (by decide)
    _ = W39 m ρ c (Proc.devRef .tc main_v90) := by carried hostOps16_2
    _ = W38 m ρ c (Proc.devRef .tc main_v90) := by carried hostOps16_1
    _ = W37 m ρ c (Proc.devRef .tc main_v90) := by carried hostOps16

theorem arg14_0_43 (c : Dev nD) : W43 m ρ c (Proc.devRef .tc main_arg14) = W0 m ρ c (Proc.devRef .tc main_arg14) :=
  calc W43 m ρ c (Proc.devRef .tc main_arg14)
    _ = W42 m ρ c (Proc.devRef .tc main_arg14) := W43_of_ne m ρ c main_arg14 (by decide)
    _ = W41 m ρ c (Proc.devRef .tc main_arg14) := by carried hostOps17
    _ = W40 m ρ c (Proc.devRef .tc main_arg14) := W41_of_ne m ρ c main_arg14 (by decide)
    _ = W39 m ρ c (Proc.devRef .tc main_arg14) := by carried hostOps16_2
    _ = W38 m ρ c (Proc.devRef .tc main_arg14) := by carried hostOps16_1
    _ = W37 m ρ c (Proc.devRef .tc main_arg14) := by carried hostOps16
    _ = W36 m ρ c (Proc.devRef .tc main_arg14) := W37_of_ne m ρ c main_arg14 (by decide)
    _ = W35 m ρ c (Proc.devRef .tc main_arg14) := by carried hostOps15
    _ = W34 m ρ c (Proc.devRef .tc main_arg14) := W35_of_ne m ρ c main_arg14 (by decide)
    _ = W33 m ρ c (Proc.devRef .tc main_arg14) := by carried hostOps14_2
    _ = W32 m ρ c (Proc.devRef .tc main_arg14) := by carried hostOps14_1
    _ = W31 m ρ c (Proc.devRef .tc main_arg14) := by carried hostOps14
    _ = W30 m ρ c (Proc.devRef .tc main_arg14) := W31_of_ne m ρ c main_arg14 (by decide)
    _ = W29 m ρ c (Proc.devRef .tc main_arg14) := by carried hostOps13
    _ = W28 m ρ c (Proc.devRef .tc main_arg14) := W29_of_ne m ρ c main_arg14 (by decide)
    _ = W27 m ρ c (Proc.devRef .tc main_arg14) := by carried hostOps12
    _ = W26 m ρ c (Proc.devRef .tc main_arg14) := W27_of_ne m ρ c main_arg14 (by decide)
    _ = W25 m ρ c (Proc.devRef .tc main_arg14) := by carried hostOps11
    _ = W24 m ρ c (Proc.devRef .tc main_arg14) := W25_of_ne m ρ c main_arg14 (by decide)
    _ = W23 m ρ c (Proc.devRef .tc main_arg14) := by carried hostOps10
    _ = W22 m ρ c (Proc.devRef .tc main_arg14) := W23_of_ne m ρ c main_arg14 (by decide)
    _ = W21 m ρ c (Proc.devRef .tc main_arg14) := by carried hostOps9
    _ = W20 m ρ c (Proc.devRef .tc main_arg14) := W21_of_ne m ρ c main_arg14 (by decide)
    _ = W19 m ρ c (Proc.devRef .tc main_arg14) := by carried hostOps8_2
    _ = W18 m ρ c (Proc.devRef .tc main_arg14) := by carried hostOps8_1
    _ = W17 m ρ c (Proc.devRef .tc main_arg14) := by carried hostOps8
    _ = W16 m ρ c (Proc.devRef .tc main_arg14) := W17_of_ne m ρ c main_arg14 (by decide)
    _ = W15 m ρ c (Proc.devRef .tc main_arg14) := by carried hostOps7
    _ = W14 m ρ c (Proc.devRef .tc main_arg14) := W15_of_ne m ρ c main_arg14 (by decide)
    _ = W13 m ρ c (Proc.devRef .tc main_arg14) := by carried hostOps6_2
    _ = W12 m ρ c (Proc.devRef .tc main_arg14) := by carried hostOps6_1
    _ = W11 m ρ c (Proc.devRef .tc main_arg14) := by carried hostOps6
    _ = W10 m ρ c (Proc.devRef .tc main_arg14) := W11_of_ne m ρ c main_arg14 (by decide)
    _ = W9 m ρ c (Proc.devRef .tc main_arg14) := by carried hostOps5
    _ = W8 m ρ c (Proc.devRef .tc main_arg14) := W9_of_ne m ρ c main_arg14 (by decide)
    _ = W7 m ρ c (Proc.devRef .tc main_arg14) := by carried hostOps4
    _ = W6 m ρ c (Proc.devRef .tc main_arg14) := W7_of_ne m ρ c main_arg14 (by decide)
    _ = W5 m ρ c (Proc.devRef .tc main_arg14) := by carried hostOps3
    _ = W4 m ρ c (Proc.devRef .tc main_arg14) := W5_of_ne m ρ c main_arg14 (by decide)
    _ = W3 m ρ c (Proc.devRef .tc main_arg14) := by carried hostOps2
    _ = W2 m ρ c (Proc.devRef .tc main_arg14) := W3_of_ne m ρ c main_arg14 (by decide)
    _ = W1 m ρ c (Proc.devRef .tc main_arg14) := W2_of_ne m ρ c main_arg14 (by decide)
    _ = W0 m ρ c (Proc.devRef .tc main_arg14) := by carried hostOps0

theorem arg15_0_43 (c : Dev nD) : W43 m ρ c (Proc.devRef .tc main_arg15) = W0 m ρ c (Proc.devRef .tc main_arg15) :=
  calc W43 m ρ c (Proc.devRef .tc main_arg15)
    _ = W42 m ρ c (Proc.devRef .tc main_arg15) := W43_of_ne m ρ c main_arg15 (by decide)
    _ = W41 m ρ c (Proc.devRef .tc main_arg15) := by carried hostOps17
    _ = W40 m ρ c (Proc.devRef .tc main_arg15) := W41_of_ne m ρ c main_arg15 (by decide)
    _ = W39 m ρ c (Proc.devRef .tc main_arg15) := by carried hostOps16_2
    _ = W38 m ρ c (Proc.devRef .tc main_arg15) := by carried hostOps16_1
    _ = W37 m ρ c (Proc.devRef .tc main_arg15) := by carried hostOps16
    _ = W36 m ρ c (Proc.devRef .tc main_arg15) := W37_of_ne m ρ c main_arg15 (by decide)
    _ = W35 m ρ c (Proc.devRef .tc main_arg15) := by carried hostOps15
    _ = W34 m ρ c (Proc.devRef .tc main_arg15) := W35_of_ne m ρ c main_arg15 (by decide)
    _ = W33 m ρ c (Proc.devRef .tc main_arg15) := by carried hostOps14_2
    _ = W32 m ρ c (Proc.devRef .tc main_arg15) := by carried hostOps14_1
    _ = W31 m ρ c (Proc.devRef .tc main_arg15) := by carried hostOps14
    _ = W30 m ρ c (Proc.devRef .tc main_arg15) := W31_of_ne m ρ c main_arg15 (by decide)
    _ = W29 m ρ c (Proc.devRef .tc main_arg15) := by carried hostOps13
    _ = W28 m ρ c (Proc.devRef .tc main_arg15) := W29_of_ne m ρ c main_arg15 (by decide)
    _ = W27 m ρ c (Proc.devRef .tc main_arg15) := by carried hostOps12
    _ = W26 m ρ c (Proc.devRef .tc main_arg15) := W27_of_ne m ρ c main_arg15 (by decide)
    _ = W25 m ρ c (Proc.devRef .tc main_arg15) := by carried hostOps11
    _ = W24 m ρ c (Proc.devRef .tc main_arg15) := W25_of_ne m ρ c main_arg15 (by decide)
    _ = W23 m ρ c (Proc.devRef .tc main_arg15) := by carried hostOps10
    _ = W22 m ρ c (Proc.devRef .tc main_arg15) := W23_of_ne m ρ c main_arg15 (by decide)
    _ = W21 m ρ c (Proc.devRef .tc main_arg15) := by carried hostOps9
    _ = W20 m ρ c (Proc.devRef .tc main_arg15) := W21_of_ne m ρ c main_arg15 (by decide)
    _ = W19 m ρ c (Proc.devRef .tc main_arg15) := by carried hostOps8_2
    _ = W18 m ρ c (Proc.devRef .tc main_arg15) := by carried hostOps8_1
    _ = W17 m ρ c (Proc.devRef .tc main_arg15) := by carried hostOps8
    _ = W16 m ρ c (Proc.devRef .tc main_arg15) := W17_of_ne m ρ c main_arg15 (by decide)
    _ = W15 m ρ c (Proc.devRef .tc main_arg15) := by carried hostOps7
    _ = W14 m ρ c (Proc.devRef .tc main_arg15) := W15_of_ne m ρ c main_arg15 (by decide)
    _ = W13 m ρ c (Proc.devRef .tc main_arg15) := by carried hostOps6_2
    _ = W12 m ρ c (Proc.devRef .tc main_arg15) := by carried hostOps6_1
    _ = W11 m ρ c (Proc.devRef .tc main_arg15) := by carried hostOps6
    _ = W10 m ρ c (Proc.devRef .tc main_arg15) := W11_of_ne m ρ c main_arg15 (by decide)
    _ = W9 m ρ c (Proc.devRef .tc main_arg15) := by carried hostOps5
    _ = W8 m ρ c (Proc.devRef .tc main_arg15) := W9_of_ne m ρ c main_arg15 (by decide)
    _ = W7 m ρ c (Proc.devRef .tc main_arg15) := by carried hostOps4
    _ = W6 m ρ c (Proc.devRef .tc main_arg15) := W7_of_ne m ρ c main_arg15 (by decide)
    _ = W5 m ρ c (Proc.devRef .tc main_arg15) := by carried hostOps3
    _ = W4 m ρ c (Proc.devRef .tc main_arg15) := W5_of_ne m ρ c main_arg15 (by decide)
    _ = W3 m ρ c (Proc.devRef .tc main_arg15) := by carried hostOps2
    _ = W2 m ρ c (Proc.devRef .tc main_arg15) := W3_of_ne m ρ c main_arg15 (by decide)
    _ = W1 m ρ c (Proc.devRef .tc main_arg15) := W2_of_ne m ρ c main_arg15 (by decide)
    _ = W0 m ρ c (Proc.devRef .tc main_arg15) := by carried hostOps0
end Cert.KernelIdeal.Carry

end
-- ==== Proof.LibTypedRef.lean ====
/-
  A value written into the buffer of a typed reference and read back through the same reference is the value.

  A typed reference names a buffer together with the type of the tensor value it holds and an equation saying that the
  buffer's own type is that type.  Contents pass between the value's type and the buffer's type by transport along that
  equation, in either direction.  The two transports are inverse to each other: to the buffer and back gives the value,
  and from the buffer and back gives the buffer's contents.  Both are proved for an arbitrary reference by making the
  equation the reflexive one, so neither statement asks what any particular reference's type is.

  Use: a stretch of host operations printed through typed references (the operations of an outlined function) leaves,
  once each operation's result has been rewritten to its function's value, every intermediate value wrapped in such a
  pair of transports.  Rewriting with the first lemma removes the pairs one by one, whichever proofs the two references
  carry, without the type of any reference being computed.
-/
import Idealize.ShloMosaic.Lib.StableHlo

namespace Cert.TypedRef

open Idealize.ShloMosaic Idealize.ShloMosaic.StableHlo

variable {sig : RefSig} {Val : EltTy → Type} {T : BufTy}

/-- Contents at the value's type, moved to the type of the reference's buffer and back, are unchanged. -/
theorem ofBuf_toBuf (x : TRef sig T) (w : T.Contents Val) : x.ofBuf (x.toBuf w) = w := by
  obtain ⟨r, h, _, _⟩ := x
  subst h
  rfl

/-- Contents of the reference's buffer, moved to the value's type and back, are unchanged. -/
theorem toBuf_ofBuf (x : TRef sig T) (w : x.ref.ty.Contents Val) : x.toBuf (x.ofBuf w) = w := by
  obtain ⟨r, h, _, _⟩ := x
  subst h
  rfl

end Cert.TypedRef
-- ==== Proof.KernelTakes.lean ====
/-
  The kernel program's gathers between its device regions.

  Before each edge region three stretches of host operations take, along an index vector, a score column of the
  source nodes, a score column of the target nodes and the target nodes' feature rows: the index is brought
  into range once (a negative index gets the table's length added), the table is read at it, and an entry whose
  index is still out of range is replaced by a fill word. Each lemma says that such a stretch leaves, in its
  result buffer, that guarded take of the table and index vector it found. The operations are printed through
  typed references; moving a value to a reference's buffer type and back changes nothing.
-/
import proofs.«154843_j76682346102829_2_alg».proof.Proof.Gen.KernelIdeal.Frame
import proofs.«154843_j76682346102829_2_alg».proof.Proof.Net
import proofs.«154843_j76682346102829_2_alg».proof.Proof.Gathers
import proofs.«154843_j76682346102829_2_alg».proof.Proof.LibTypedRef
import Idealize.ShloMosaic.Lib.StableHlo.Run

set_option maxRecDepth 16384

noncomputable section

namespace Cert.KernelIdeal.Takes

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- A value read from a literal reference's buffer at the value's own type: the transport is along an equation
    between a type and itself, so it changes nothing. -/
theorem ofBuf_lit {T : BufTy} (r : Ref sig .tc) (h1 : r.ty = T) (h2 : r.space ≠ .host) (h3 : r.isScoped = false)
    (w : r.ty.Contents (Elt Ideal)) (w' : T.Contents (Elt Ideal)) (hw : HEq w w') :
    (TRef.of (sig := sig) r h1 h2 h3).ofBuf w = w' := by
  subst h1; exact eq_of_heq hw
/-- The same for a value written to a literal reference's buffer. -/
theorem toBuf_lit {T : BufTy} (r : Ref sig .tc) (h1 : r.ty = T) (h2 : r.space ≠ .host) (h3 : r.isScoped = false)
    (v : T.Contents (Elt Ideal)) (v' : r.ty.Contents (Elt Ideal)) (hv : HEq v v') :
    (TRef.of (sig := sig) r h1 h2 h3).toBuf v = v' := by
  subst h1; exact eq_of_heq hv

theorem take_v34_of (U : Valuation τ sig (Elt Ideal)) : (StableHlo.after hostOps6 U (Proc.devRef .tc main_v34) : Cert.Net.E1)
    = Cert.Gathers.kernelCol (U (Proc.devRef .tc main_v26_0)) (U (Proc.devRef .tc main_v1)) := by
  dsimp only [hostOps6]
  after_results_simp
  simp only [Cert.TypedRef.ofBuf_toBuf]
  rw [ofBuf_lit main_v1 _ _ _ _ (U (Proc.devRef .tc main_v1)) HEq.rfl,
      ofBuf_lit main_v26_0 _ _ _ _ (U (Proc.devRef .tc main_v26_0)) HEq.rfl]
  exact toBuf_lit main_v34 _ _ _ _ _ HEq.rfl
theorem take_v34 (c : Dev nD) : (W12 m ρ c (Proc.devRef .tc main_v34) : Cert.Net.E1)
    = Cert.Gathers.kernelCol (W11 m ρ c (Proc.devRef .tc main_v26_0)) (W11 m ρ c (Proc.devRef .tc main_v1)) :=
  take_v34_of (W11 m ρ c)

theorem take_v35_of (U : Valuation τ sig (Elt Ideal)) : (StableHlo.after hostOps6_1 U (Proc.devRef .tc main_v35) : Cert.Net.E1)
    = Cert.Gathers.kernelCol (U (Proc.devRef .tc main_v33_1)) (U (Proc.devRef .tc main_v3)) := by
  dsimp only [hostOps6_1]
  after_results_simp
  simp only [Cert.TypedRef.ofBuf_toBuf]
  rw [ofBuf_lit main_v3 _ _ _ _ (U (Proc.devRef .tc main_v3)) HEq.rfl,
      ofBuf_lit main_v33_1 _ _ _ _ (U (Proc.devRef .tc main_v33_1)) HEq.rfl]
  exact toBuf_lit main_v35 _ _ _ _ _ HEq.rfl
theorem take_v35 (c : Dev nD) : (W13 m ρ c (Proc.devRef .tc main_v35) : Cert.Net.E1)
    = Cert.Gathers.kernelCol (W12 m ρ c (Proc.devRef .tc main_v33_1)) (W12 m ρ c (Proc.devRef .tc main_v3)) :=
  take_v35_of (W12 m ρ c)

theorem take_v36_of (U : Valuation τ sig (Elt Ideal)) : (StableHlo.after hostOps6_2 U (Proc.devRef .tc main_v36) : Cert.Net.E64)
    = Cert.Gathers.kernelRow (U (Proc.devRef .tc main_v19)) (U (Proc.devRef .tc main_v3)) := by
  dsimp only [hostOps6_2]
  after_results_simp
  simp only [Cert.TypedRef.ofBuf_toBuf]
  rw [ofBuf_lit main_v3 _ _ _ _ (U (Proc.devRef .tc main_v3)) HEq.rfl,
      ofBuf_lit main_v19 _ _ _ _ (U (Proc.devRef .tc main_v19)) HEq.rfl]
  exact toBuf_lit main_v36 _ _ _ _ _ HEq.rfl
theorem take_v36 (c : Dev nD) : (W14 m ρ c (Proc.devRef .tc main_v36) : Cert.Net.E64)
    = Cert.Gathers.kernelRow (W13 m ρ c (Proc.devRef .tc main_v19)) (W13 m ρ c (Proc.devRef .tc main_v3)) :=
  take_v36_of (W13 m ρ c)

theorem take_v45_of (U : Valuation τ sig (Elt Ideal)) : (StableHlo.after hostOps8 U (Proc.devRef .tc main_v45) : Cert.Net.E1)
    = Cert.Gathers.kernelCol (U (Proc.devRef .tc main_v33_0)) (U (Proc.devRef .tc main_v5)) := by
  dsimp only [hostOps8]
  after_results_simp
  simp only [Cert.TypedRef.ofBuf_toBuf]
  rw [ofBuf_lit main_v5 _ _ _ _ (U (Proc.devRef .tc main_v5)) HEq.rfl,
      ofBuf_lit main_v33_0 _ _ _ _ (U (Proc.devRef .tc main_v33_0)) HEq.rfl]
  exact toBuf_lit main_v45 _ _ _ _ _ HEq.rfl
theorem take_v45 (c : Dev nD) : (W18 m ρ c (Proc.devRef .tc main_v45) : Cert.Net.E1)
    = Cert.Gathers.kernelCol (W17 m ρ c (Proc.devRef .tc main_v33_0)) (W17 m ρ c (Proc.devRef .tc main_v5)) :=
  take_v45_of (W17 m ρ c)

theorem take_v46_of (U : Valuation τ sig (Elt Ideal)) : (StableHlo.after hostOps8_1 U (Proc.devRef .tc main_v46) : Cert.Net.E1)
    = Cert.Gathers.kernelCol (U (Proc.devRef .tc main_v26_1)) (U (Proc.devRef .tc main_v7)) := by
  dsimp only [hostOps8_1]
  after_results_simp
  simp only [Cert.TypedRef.ofBuf_toBuf]
  rw [ofBuf_lit main_v7 _ _ _ _ (U (Proc.devRef .tc main_v7)) HEq.rfl,
      ofBuf_lit main_v26_1 _ _ _ _ (U (Proc.devRef .tc main_v26_1)) HEq.rfl]
  exact toBuf_lit main_v46 _ _ _ _ _ HEq.rfl
theorem take_v46 (c : Dev nD) : (W19 m ρ c (Proc.devRef .tc main_v46) : Cert.Net.E1)
    = Cert.Gathers.kernelCol (W18 m ρ c (Proc.devRef .tc main_v26_1)) (W18 m ρ c (Proc.devRef .tc main_v7)) :=
  take_v46_of (W18 m ρ c)

theorem take_v47_of (U : Valuation τ sig (Elt Ideal)) : (StableHlo.after hostOps8_2 U (Proc.devRef .tc main_v47) : Cert.Net.E64)
    = Cert.Gathers.kernelRow (U (Proc.devRef .tc main_v14)) (U (Proc.devRef .tc main_v7)) := by
  dsimp only [hostOps8_2]
  after_results_simp
  simp only [Cert.TypedRef.ofBuf_toBuf]
  rw [ofBuf_lit main_v7 _ _ _ _ (U (Proc.devRef .tc main_v7)) HEq.rfl,
      ofBuf_lit main_v14 _ _ _ _ (U (Proc.devRef .tc main_v14)) HEq.rfl]
  exact toBuf_lit main_v47 _ _ _ _ _ HEq.rfl
theorem take_v47 (c : Dev nD) : (W20 m ρ c (Proc.devRef .tc main_v47) : Cert.Net.E64)
    = Cert.Gathers.kernelRow (W19 m ρ c (Proc.devRef .tc main_v14)) (W19 m ρ c (Proc.devRef .tc main_v7)) :=
  take_v47_of (W19 m ρ c)

theorem take_v80_of (U : Valuation τ sig (Elt Ideal)) : (StableHlo.after hostOps14 U (Proc.devRef .tc main_v80) : Cert.Net.E1)
    = Cert.Gathers.kernelCol (U (Proc.devRef .tc main_v72_0)) (U (Proc.devRef .tc main_v1)) := by
  dsimp only [hostOps14]
  after_results_simp
  simp only [Cert.TypedRef.ofBuf_toBuf]
  rw [ofBuf_lit main_v1 _ _ _ _ (U (Proc.devRef .tc main_v1)) HEq.rfl,
      ofBuf_lit main_v72_0 _ _ _ _ (U (Proc.devRef .tc main_v72_0)) HEq.rfl]
  exact toBuf_lit main_v80 _ _ _ _ _ HEq.rfl
theorem take_v80 (c : Dev nD) : (W32 m ρ c (Proc.devRef .tc main_v80) : Cert.Net.E1)
    = Cert.Gathers.kernelCol (W31 m ρ c (Proc.devRef .tc main_v72_0)) (W31 m ρ c (Proc.devRef .tc main_v1)) :=
  take_v80_of (W31 m ρ c)

theorem take_v81_of (U : Valuation τ sig (Elt Ideal)) : (StableHlo.after hostOps14_1 U (Proc.devRef .tc main_v81) : Cert.Net.E1)
    = Cert.Gathers.kernelCol (U (Proc.devRef .tc main_v79_1)) (U (Proc.devRef .tc main_v3)) := by
  dsimp only [hostOps14_1]
  after_results_simp
  simp only [Cert.TypedRef.ofBuf_toBuf]
  rw [ofBuf_lit main_v3 _ _ _ _ (U (Proc.devRef .tc main_v3)) HEq.rfl,
      ofBuf_lit main_v79_1 _ _ _ _ (U (Proc.devRef .tc main_v79_1)) HEq.rfl]
  exact toBuf_lit main_v81 _ _ _ _ _ HEq.rfl
theorem take_v81 (c : Dev nD) : (W33 m ρ c (Proc.devRef .tc main_v81) : Cert.Net.E1)
    = Cert.Gathers.kernelCol (W32 m ρ c (Proc.devRef .tc main_v79_1)) (W32 m ρ c (Proc.devRef .tc main_v3)) :=
  take_v81_of (W32 m ρ c)

theorem take_v82_of (U : Valuation τ sig (Elt Ideal)) : (StableHlo.after hostOps14_2 U (Proc.devRef .tc main_v82) : Cert.Net.E64)
    = Cert.Gathers.kernelRow (U (Proc.devRef .tc main_v65)) (U (Proc.devRef .tc main_v3)) := by
  dsimp only [hostOps14_2]
  after_results_simp
  simp only [Cert.TypedRef.ofBuf_toBuf]
  rw [ofBuf_lit main_v3 _ _ _ _ (U (Proc.devRef .tc main_v3)) HEq.rfl,
      ofBuf_lit main_v65 _ _ _ _ (U (Proc.devRef .tc main_v65)) HEq.rfl]
  exact toBuf_lit main_v82 _ _ _ _ _ HEq.rfl
theorem take_v82 (c : Dev nD) : (W34 m ρ c (Proc.devRef .tc main_v82) : Cert.Net.E64)
    = Cert.Gathers.kernelRow (W33 m ρ c (Proc.devRef .tc main_v65)) (W33 m ρ c (Proc.devRef .tc main_v3)) :=
  take_v82_of (W33 m ρ c)

end Cert.KernelIdeal.Takes

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.DensePayload.lean ====
/-
  The stored value of each of the seven dense-layer kernels at one entry (p, q) of its [5000, N] block, at the ideal
  values: the tile product of the x block with w into a zero accumulator, plus the bias re-laid as a row and repeated
  down the rows (for the first two kernels followed by the maximum with zero), is the one-row affine map (dense
  layer) of row p of the x block.
-/
import proofs.«154843_j76682346102829_2_alg».proof.Proof.Gen.KernelIdeal.Skeleton
import proofs.«154843_j76682346102829_2_alg».proof.Proof.LibDenseLayer
import proofs.«154843_j76682346102829_2_alg».proof.Proof.LibBroadcast

noncomputable section

namespace Cert.DensePayload

open Idealize.ShloMosaic Idealize.ShloMosaic.ValueIdx Cert.KernelIdeal Cert.KernelIdeal.Gen Cert.DenseLayer

/-- Region 0's stored value at (p, q): the dense layer of row p of the x block against the whole w and b
    (a change of float format is the identity at the ideal values). -/
theorem k0_pay1_apply (x : Vec Ideal S5000x128 .f32) (w : Vec Ideal S128x64 .f32) (b : Vec Ideal S64 .f32) (p : Fin 5000) (q : Fin 64) :
    k0_pay1 (F := Ideal) x w b (ix2 p q) = dense (fun c => x (ix2 p c)) w (fun q => b (ix1 q)) q := by
  unfold k0_pay1
  refine (tpu_dense_apply dot_S5000x128_S128x64_S5000x64_1_0_0_1_n_n_wf broadcasts_S1x64_S5000x64 _ _ _ p q).trans ?_
  exact congrArg (fun g => dense (fun c => x (ix2 p c)) w g q) (funext fun q' => Cert.Layout.shapeCast_row_apply b _ q')

/-- Region 1's stored value at (p, q): the dense layer of row p of the x block against the whole w and b
    (a change of float format is the identity at the ideal values). -/
theorem k1_pay1_apply (x : Vec Ideal S5000x64 .f32) (w : Vec Ideal S64x64 .f32) (b : Vec Ideal S64 .f32) (p : Fin 5000) (q : Fin 64) :
    k1_pay1 (F := Ideal) x w b (ix2 p q) = dense (fun c => x (ix2 p c)) w (fun q => b (ix1 q)) q := by
  unfold k1_pay1
  refine (tpu_dense_apply dot_S5000x64_S64x64_S5000x64_1_0_0_1_n_n_wf broadcasts_S1x64_S5000x64 _ _ _ p q).trans ?_
  exact congrArg (fun g => dense (fun c => x (ix2 p c)) w g q) (funext fun q' => Cert.Layout.shapeCast_row_apply b _ q')

/-- Region 2's stored value at (p, q): the affine map of row p of the x block against the whole w and b
    (a change of float format is the identity at the ideal values, a re-layout to the same shape changes nothing). -/
theorem k2_pay1_apply (x : Vec Ideal S5000x64 .f32) (w : Vec Ideal S64x64 .f32) (b : Vec Ideal S64 .f32) (p : Fin 5000) (q : Fin 64) :
    k2_pay1 (F := Ideal) x w b (ix2 p q) = affine (fun c => x (ix2 p c)) w (fun q => b (ix1 q)) q := by
  unfold k2_pay1
  simp only [shapeCast_self]
  refine (tpu_affine_apply dot_S5000x64_S64x64_S5000x64_1_0_0_1_n_n_wf broadcasts_S1x64_S5000x64 _ _ _ p q).trans ?_
  exact congrArg (fun g => affine (fun c => x (ix2 p c)) w g q) (funext fun q' => Cert.Layout.shapeCast_row_apply b _ q')

/-- Region 3's stored value at (p, q): the affine map of row p of the x block against the whole w and b
    (a change of float format is the identity at the ideal values, a re-layout to the same shape changes nothing). -/
theorem k3_pay1_apply (x : Vec Ideal S5000x64 .f32) (w : Vec Ideal S64x64 .f32) (b : Vec Ideal S64 .f32) (p : Fin 5000) (q : Fin 64) :
    k3_pay1 (F := Ideal) x w b (ix2 p q) = affine (fun c => x (ix2 p c)) w (fun q => b (ix1 q)) q := by
  unfold k3_pay1
  simp only [shapeCast_self]
  refine (tpu_affine_apply dot_S5000x64_S64x64_S5000x64_1_0_0_1_n_n_wf broadcasts_S1x64_S5000x64 _ _ _ p q).trans ?_
  exact congrArg (fun g => affine (fun c => x (ix2 p c)) w g q) (funext fun q' => Cert.Layout.shapeCast_row_apply b _ q')

/-- Region 10's stored value at (p, q): the affine map of row p of the x block against the whole w and b
    (a change of float format is the identity at the ideal values, a re-layout to the same shape changes nothing). -/
theorem k10_pay1_apply (x : Vec Ideal S5000x64 .f32) (w : Vec Ideal S64x64 .f32) (b : Vec Ideal S64 .f32) (p : Fin 5000) (q : Fin 64) :
    k10_pay1 (F := Ideal) x w b (ix2 p q) = affine (fun c => x (ix2 p c)) w (fun q => b (ix1 q)) q := by
  unfold k10_pay1
  simp only [shapeCast_self]
  refine (tpu_affine_apply dot_S5000x64_S64x64_S5000x64_1_0_0_1_n_n_wf broadcasts_S1x64_S5000x64 _ _ _ p q).trans ?_
  exact congrArg (fun g => affine (fun c => x (ix2 p c)) w g q) (funext fun q' => Cert.Layout.shapeCast_row_apply b _ q')

/-- Region 11's stored value at (p, q): the affine map of row p of the x block against the whole w and b
    (a change of float format is the identity at the ideal values, a re-layout to the same shape changes nothing). -/
theorem k11_pay1_apply (x : Vec Ideal S5000x64 .f32) (w : Vec Ideal S64x64 .f32) (b : Vec Ideal S64 .f32) (p : Fin 5000) (q : Fin 64) :
    k11_pay1 (F := Ideal) x w b (ix2 p q) = affine (fun c => x (ix2 p c)) w (fun q => b (ix1 q)) q := by
  unfold k11_pay1
  simp only [shapeCast_self]
  refine (tpu_affine_apply dot_S5000x64_S64x64_S5000x64_1_0_0_1_n_n_wf broadcasts_S1x64_S5000x64 _ _ _ p q).trans ?_
  exact congrArg (fun g => affine (fun c => x (ix2 p c)) w g q) (funext fun q' => Cert.Layout.shapeCast_row_apply b _ q')

/-- Region 18's stored value at (p, q): the affine map of row p of the x block against the whole w and b
    (a change of float format is the identity at the ideal values, a re-layout to the same shape changes nothing). -/
theorem k18_pay1_apply (x : Vec Ideal S5000x64 .f32) (w : Vec Ideal S64x32 .f32) (b : Vec Ideal S32 .f32) (p : Fin 5000) (q : Fin 32) :
    k18_pay1 (F := Ideal) x w b (ix2 p q) = affine (fun c => x (ix2 p c)) w (fun q => b (ix1 q)) q := by
  unfold k18_pay1
  simp only [shapeCast_self]
  refine (tpu_affine_apply dot_S5000x64_S64x32_S5000x32_1_0_0_1_n_n_wf broadcasts_S1x32_S5000x32 _ _ _ p q).trans ?_
  exact congrArg (fun g => affine (fun c => x (ix2 p c)) w g q) (funext fun q' => Cert.Layout.shapeCast_row_apply b _ q')

end Cert.DensePayload

end
-- ==== Proof.DenseRegion0.lean ====
/-
  Region 0 of the kernel program, one of its dense layers: the output array after the region is the dense layer of the three
  input arrays as the region finds them,  (p, q) ↦ max(Σ_c x (p, c) · w (c, q) + b q, 0),  x : [200000, 128], w : [128, 64],
  b : [64].

  The grid has 40 points; point t reads rows 5000 t … 5000 t + 4999 of x and all of w and b, and writes the same rows of
  the output.  What point t writes back is its block of the whole-array function; row r is covered by point r / 5000.
-/
import proofs.«154843_j76682346102829_2_alg».proof.Proof.Gen.KernelIdeal.Frame
import proofs.«154843_j76682346102829_2_alg».proof.Proof.DenseSpec
import proofs.«154843_j76682346102829_2_alg».proof.Proof.DenseStages
import proofs.«154843_j76682346102829_2_alg».proof.Proof.DensePayload
import Idealize.ShloMosaic.Lib.Pipeline.Value

set_option maxRecDepth 16384

noncomputable section

namespace Cert.DenseRegions

open Cert.KernelIdeal Cert.KernelIdeal.Gen Idealize.ShloMosaic Idealize.ShloMosaic.TcCoe Idealize.SL.Sem
open Idealize.ShloMosaic.ValueIdx Cert.DenseSpec Cert.DensePayload
open Idealize.ShloMosaic.Pipeline (Dat)

variable (V : (c : Dev nD) → (b : Ref sig .tc) → Buf (Elt Ideal) ((c : Thread nD τ).loc b))

/-- The block indices over the grid: the x window and the output window sit at row block t, the w and b windows at
    block zero (decided over the 40 points). -/
theorem idx0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- Row p of the x block at point t is row 5000 t + p of the x array. -/
theorem iblk0_0_apply (c : Dev nD) (t : Fin cfg0.N) (p : Fin 5000) (r : Fin 200000) (q : Fin 128)
    (h : r.val = t.val * 5000 + p.val) :
    (iblk0 V c 0 t : S5000x128.Idx → EReal) (ix2 p q) = (V c (Pipeline.arrRef spec0 0) : S200000x128.Idx → EReal) (ix2 r q) := by
  obtain ⟨e0, e1, -⟩ := idx0 t
  show (V c (Pipeline.arrRef spec0 0) : S200000x128.Idx → EReal) (((cfg0.win 0).blk t).view.emb (ix2 p q)) = (V c (Pipeline.arrRef spec0 0) : S200000x128.Idx → EReal) (ix2 r q)
  refine congrArg (V c (Pipeline.arrRef spec0 0) : S200000x128.Idx → EReal) ?_
  funext a; apply Fin.ext
  match a with
  | ⟨0, _⟩ => show win0_0.index t (0 : Fin 2) * 5000 + 1 * p.val = r.val; omega
  | ⟨1, _⟩ => show win0_0.index t (1 : Fin 2) * 128 + 1 * q.val = q.val; omega

/-- The w block at every point is the w array. -/
theorem iblk0_1_eq (c : Dev nD) (t : Fin cfg0.N) :
    (iblk0 V c 1 t : S128x64.Idx → EReal) = (V c (Pipeline.arrRef spec0 1) : S128x64.Idx → EReal) := by
  obtain ⟨-, -, e2, e3, -⟩ := idx0 t
  funext y
  show (V c (Pipeline.arrRef spec0 1) : S128x64.Idx → EReal) (((cfg0.win 1).blk t).view.emb y) = (V c (Pipeline.arrRef spec0 1) : S128x64.Idx → EReal) y
  refine congrArg (V c (Pipeline.arrRef spec0 1) : S128x64.Idx → EReal) ?_
  funext a; apply Fin.ext
  match a with
  | ⟨0, _⟩ => show win0_1.index t (0 : Fin 2) * 128 + 1 * (y 0).val = (y 0).val; omega
  | ⟨1, _⟩ => show win0_1.index t (1 : Fin 2) * 64 + 1 * (y 1).val = (y 1).val; omega

/-- The b block at every point is the b array. -/
theorem iblk0_2_eq (c : Dev nD) (t : Fin cfg0.N) :
    (iblk0 V c 2 t : S64.Idx → EReal) = (V c (Pipeline.arrRef spec0 2) : S64.Idx → EReal) := by
  obtain ⟨-, -, -, -, e4, -⟩ := idx0 t
  funext y
  show (V c (Pipeline.arrRef spec0 2) : S64.Idx → EReal) (((cfg0.win 2).blk t).view.emb y) = (V c (Pipeline.arrRef spec0 2) : S64.Idx → EReal) y
  refine congrArg (V c (Pipeline.arrRef spec0 2) : S64.Idx → EReal) ?_
  funext a; apply Fin.ext
  match a with
  | ⟨0, _⟩ => show win0_2.index t (0 : Fin 1) * 64 + 1 * (y 0).val = (y 0).val; omega

/-- What point t writes back to the output array is its block of the dense layer of the three input arrays. -/
theorem flushed0_3 (c : Dev nD) (t : Fin cfg0.N) :
    (dat0 V c).flushed 3 t = ((cfg0.win 3).blk t).view.read (Elt Ideal)
      (denseArr (V c (Pipeline.arrRef spec0 0) : S200000x128.Idx → EReal) (V c (Pipeline.arrRef spec0 1) : S128x64.Idx → EReal) (V c (Pipeline.arrRef spec0 2) : S64.Idx → EReal)) := by
  show (cfg0.win 3).cut (grid0.coords t) ((dat0 V c).after 3 t) = _
  rw [after0_3]
  unfold out0_3
  rw [View.canon_unit_zero zero2]
  simp only [View.ld_unit_zero (S := S5000x128) zero2, View.ld_unit_zero (S := S128x64) zero2, View.ld_unit_zero (S := S64) zero1]
  obtain ⟨-, -, -, -, -, e5, e6⟩ := idx0 t
  funext j
  refine dense_block (M := 200000) (K := 128) (N := 64) (m := 5000)
    (k0_pay1 (F := Ideal) (iblk0 V c 0 t) (iblk0 V c 1 t) (iblk0 V c 2 t))
    (iblk0 V c 0 t) (iblk0 V c 1 t) (V c (Pipeline.arrRef spec0 1)) (iblk0 V c 2 t) (V c (Pipeline.arrRef spec0 2))
    (fun p q => k0_pay1_apply (iblk0 V c 0 t) (iblk0 V c 1 t) (iblk0 V c 2 t) p q) (iblk0_1_eq V c t) (iblk0_2_eq V c t)
    (V c (Pipeline.arrRef spec0 0)) (t.val * 5000) (fun p r q h => iblk0_0_apply V c t p r q h)
    j (((cfg0.win 3).blk t).view.emb j) ?_ ?_
  · show win0_3.index t (0 : Fin 2) * 5000 + 1 * (j 0).val = t.val * 5000 + (j 0).val; omega
  · show win0_3.index t (1 : Fin 2) * 64 + 1 * (j 1).val = (j 1).val; omega

/-- An index of the output array is in point t's block iff each coordinate is in the block's range on its axis. -/
theorem mem_blk0_3 (t : Fin cfg0.N) (i : S200000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v8).slice (win0_3.rect t)).set ↔ _
  rw [View.set_slice_whole, Rect.mem_set_unit]
  exact Iff.rfl

/-- Every index of the output array is in some point's block: row r in point r / 5000's. -/
theorem covered0_3 (i : S200000x64.Idx) :
    ∃ t : Fin cfg0.N, (cfg0.win 3).flush t = true ∧ i ∈ ((cfg0.win 3).blk t).view.set := by
  have hi0 : (i 0).val < 200000 := (i 0).isLt
  have hi1 : (i 1).val < 64 := (i 1).isLt
  have hN : grid0.N = 40 := N_0
  obtain ⟨t, ht⟩ : ∃ t : Fin cfg0.N, t.val = (i 0).val / 5000 :=
    ⟨⟨(i 0).val / 5000, by show (i 0).val / 5000 < grid0.N; omega⟩, rfl⟩
  obtain ⟨-, -, -, -, -, e5, e6⟩ := idx0 t
  refine ⟨t, flush0_3 t, ?_⟩
  rw [mem_blk0_3]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The output array after region 0 is the dense layer of the region's three input arrays. -/
theorem region0_out3 (c : Dev nD) :
    ((dat0 V c).arrAt 3 cfg0.N : S200000x64.Idx → EReal)
      = denseArr (V c (Pipeline.arrRef spec0 0) : S200000x128.Idx → EReal) (V c (Pipeline.arrRef spec0 1) : S128x64.Idx → EReal) (V c (Pipeline.arrRef spec0 2) : S64.Idx → EReal) :=
  (dat0 V c).arrAt_eq_of_cover 3 _ (fun t _ => flushed0_3 V c t) covered0_3

/-- The same with the stage named: the output array after region 0 is the network's `relu128` stage of the region's
    three input arrays. -/
theorem region0 (c : Dev nD) :
    ((dat0 V c).arrAt 3 cfg0.N : Cert.Net.N64)
      = Cert.DenseStages.relu128 (V c (Pipeline.arrRef spec0 0) : Cert.Net.N128) (V c (Pipeline.arrRef spec0 1) : Cert.Net.W128)
          (V c (Pipeline.arrRef spec0 2) : Cert.Net.B64) :=
  region0_out3 V c

end Cert.DenseRegions

end
-- ==== Proof.DenseRegion1.lean ====
/-
  Region 1 of the kernel program, one of its dense layers: the output array after the region is the dense layer of the three
  input arrays as the region finds them,  (p, q) ↦ max(Σ_c x (p, c) · w (c, q) + b q, 0),  x : [200000, 64], w : [64, 64],
  b : [64].

  The grid has 40 points; point t reads rows 5000 t … 5000 t + 4999 of x and all of w and b, and writes the same rows of
  the output.  What point t writes back is its block of the whole-array function; row r is covered by point r / 5000.
-/
import proofs.«154843_j76682346102829_2_alg».proof.Proof.Gen.KernelIdeal.Frame
import proofs.«154843_j76682346102829_2_alg».proof.Proof.DenseSpec
import proofs.«154843_j76682346102829_2_alg».proof.Proof.DenseStages
import proofs.«154843_j76682346102829_2_alg».proof.Proof.DensePayload
import Idealize.ShloMosaic.Lib.Pipeline.Value

set_option maxRecDepth 16384

noncomputable section

namespace Cert.DenseRegions

open Cert.KernelIdeal Cert.KernelIdeal.Gen Idealize.ShloMosaic Idealize.ShloMosaic.TcCoe Idealize.SL.Sem
open Idealize.ShloMosaic.ValueIdx Cert.DenseSpec Cert.DensePayload
open Idealize.ShloMosaic.Pipeline (Dat)

variable (V : (c : Dev nD) → (b : Ref sig .tc) → Buf (Elt Ideal) ((c : Thread nD τ).loc b))

/-- The block indices over the grid: the x window and the output window sit at row block t, the w and b windows at
    block zero (decided over the 40 points). -/
theorem idx1 : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0 :=
  (by decide +kernel : ∀ t : Fin grid1.N, _)

/-- Row p of the x block at point t is row 5000 t + p of the x array. -/
theorem iblk1_0_apply (c : Dev nD) (t : Fin cfg1.N) (p : Fin 5000) (r : Fin 200000) (q : Fin 64)
    (h : r.val = t.val * 5000 + p.val) :
    (iblk1 V c 0 t : S5000x64.Idx → EReal) (ix2 p q) = (V c (Pipeline.arrRef spec1 0) : S200000x64.Idx → EReal) (ix2 r q) := by
  obtain ⟨e0, e1, -⟩ := idx1 t
  show (V c (Pipeline.arrRef spec1 0) : S200000x64.Idx → EReal) (((cfg1.win 0).blk t).view.emb (ix2 p q)) = (V c (Pipeline.arrRef spec1 0) : S200000x64.Idx → EReal) (ix2 r q)
  refine congrArg (V c (Pipeline.arrRef spec1 0) : S200000x64.Idx → EReal) ?_
  funext a; apply Fin.ext
  match a with
  | ⟨0, _⟩ => show win1_0.index t (0 : Fin 2) * 5000 + 1 * p.val = r.val; omega
  | ⟨1, _⟩ => show win1_0.index t (1 : Fin 2) * 64 + 1 * q.val = q.val; omega

/-- The w block at every point is the w array. -/
theorem iblk1_1_eq (c : Dev nD) (t : Fin cfg1.N) :
    (iblk1 V c 1 t : S64x64.Idx → EReal) = (V c (Pipeline.arrRef spec1 1) : S64x64.Idx → EReal) := by
  obtain ⟨-, -, e2, e3, -⟩ := idx1 t
  funext y
  show (V c (Pipeline.arrRef spec1 1) : S64x64.Idx → EReal) (((cfg1.win 1).blk t).view.emb y) = (V c (Pipeline.arrRef spec1 1) : S64x64.Idx → EReal) y
  refine congrArg (V c (Pipeline.arrRef spec1 1) : S64x64.Idx → EReal) ?_
  funext a; apply Fin.ext
  match a with
  | ⟨0, _⟩ => show win1_1.index t (0 : Fin 2) * 64 + 1 * (y 0).val = (y 0).val; omega
  | ⟨1, _⟩ => show win1_1.index t (1 : Fin 2) * 64 + 1 * (y 1).val = (y 1).val; omega

/-- The b block at every point is the b array. -/
theorem iblk1_2_eq (c : Dev nD) (t : Fin cfg1.N) :
    (iblk1 V c 2 t : S64.Idx → EReal) = (V c (Pipeline.arrRef spec1 2) : S64.Idx → EReal) := by
  obtain ⟨-, -, -, -, e4, -⟩ := idx1 t
  funext y
  show (V c (Pipeline.arrRef spec1 2) : S64.Idx → EReal) (((cfg1.win 2).blk t).view.emb y) = (V c (Pipeline.arrRef spec1 2) : S64.Idx → EReal) y
  refine congrArg (V c (Pipeline.arrRef spec1 2) : S64.Idx → EReal) ?_
  funext a; apply Fin.ext
  match a with
  | ⟨0, _⟩ => show win1_2.index t (0 : Fin 1) * 64 + 1 * (y 0).val = (y 0).val; omega

/-- What point t writes back to the output array is its block of the dense layer of the three input arrays. -/
theorem flushed1_3 (c : Dev nD) (t : Fin cfg1.N) :
    (dat1 V c).flushed 3 t = ((cfg1.win 3).blk t).view.read (Elt Ideal)
      (denseArr (V c (Pipeline.arrRef spec1 0) : S200000x64.Idx → EReal) (V c (Pipeline.arrRef spec1 1) : S64x64.Idx → EReal) (V c (Pipeline.arrRef spec1 2) : S64.Idx → EReal)) := by
  show (cfg1.win 3).cut (grid1.coords t) ((dat1 V c).after 3 t) = _
  rw [after1_3]
  unfold out1_3
  rw [View.canon_unit_zero zero2]
  simp only [View.ld_unit_zero (S := S5000x64) zero2, View.ld_unit_zero (S := S64x64) zero2, View.ld_unit_zero (S := S64) zero1]
  obtain ⟨-, -, -, -, -, e5, e6⟩ := idx1 t
  funext j
  refine dense_block (M := 200000) (K := 64) (N := 64) (m := 5000)
    (k1_pay1 (F := Ideal) (iblk1 V c 0 t) (iblk1 V c 1 t) (iblk1 V c 2 t))
    (iblk1 V c 0 t) (iblk1 V c 1 t) (V c (Pipeline.arrRef spec1 1)) (iblk1 V c 2 t) (V c (Pipeline.arrRef spec1 2))
    (fun p q => k1_pay1_apply (iblk1 V c 0 t) (iblk1 V c 1 t) (iblk1 V c 2 t) p q) (iblk1_1_eq V c t) (iblk1_2_eq V c t)
    (V c (Pipeline.arrRef spec1 0)) (t.val * 5000) (fun p r q h => iblk1_0_apply V c t p r q h)
    j (((cfg1.win 3).blk t).view.emb j) ?_ ?_
  · show win1_3.index t (0 : Fin 2) * 5000 + 1 * (j 0).val = t.val * 5000 + (j 0).val; omega
  · show win1_3.index t (1 : Fin 2) * 64 + 1 * (j 1).val = (j 1).val; omega

/-- An index of the output array is in point t's block iff each coordinate is in the block's range on its axis. -/
theorem mem_blk1_3 (t : Fin cfg1.N) (i : S200000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v9).slice (win1_3.rect t)).set ↔ _
  rw [View.set_slice_whole, Rect.mem_set_unit]
  exact Iff.rfl

/-- Every index of the output array is in some point's block: row r in point r / 5000's. -/
theorem covered1_3 (i : S200000x64.Idx) :
    ∃ t : Fin cfg1.N, (cfg1.win 3).flush t = true ∧ i ∈ ((cfg1.win 3).blk t).view.set := by
  have hi0 : (i 0).val < 200000 := (i 0).isLt
  have hi1 : (i 1).val < 64 := (i 1).isLt
  have hN : grid1.N = 40 := N_1
  obtain ⟨t, ht⟩ : ∃ t : Fin cfg1.N, t.val = (i 0).val / 5000 :=
    ⟨⟨(i 0).val / 5000, by show (i 0).val / 5000 < grid1.N; omega⟩, rfl⟩
  obtain ⟨-, -, -, -, -, e5, e6⟩ := idx1 t
  refine ⟨t, flush1_3 t, ?_⟩
  rw [mem_blk1_3]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- The output array after region 1 is the dense layer of the region's three input arrays. -/
theorem region1_out3 (c : Dev nD) :
    ((dat1 V c).arrAt 3 cfg1.N : S200000x64.Idx → EReal)
      = denseArr (V c (Pipeline.arrRef spec1 0) : S200000x64.Idx → EReal) (V c (Pipeline.arrRef spec1 1) : S64x64.Idx → EReal) (V c (Pipeline.arrRef spec1 2) : S64.Idx → EReal) :=
  (dat1 V c).arrAt_eq_of_cover 3 _ (fun t _ => flushed1_3 V c t) covered1_3

/-- The same with the stage named: the output array after region 1 is the network's `relu64` stage of the region's
    three input arrays. -/
theorem region1 (c : Dev nD) :
    ((dat1 V c).arrAt 3 cfg1.N : Cert.Net.N64)
      = Cert.DenseStages.relu64 (V c (Pipeline.arrRef spec1 0) : Cert.Net.N64) (V c (Pipeline.arrRef spec1 1) : Cert.Net.W64)
          (V c (Pipeline.arrRef spec1 2) : Cert.Net.B64) :=
  region1_out3 V c

end Cert.DenseRegions

end
-- ==== Proof.DenseRegion2.lean ====
/-
  Region 2 of the kernel program, one of its dense layers: the output array after the region is the affine map of the three
  input arrays as the region finds them,  (p, q) ↦ Σ_c x (p, c) · w (c, q) + b q,  x : [200000, 64], w : [64, 64],
  b : [64].

  The grid has 40 points; point t reads rows 5000 t … 5000 t + 4999 of x and all of w and b, and writes the same rows of
  the output.  What point t writes back is its block of the whole-array function; row r is covered by point r / 5000.
-/
import proofs.«154843_j76682346102829_2_alg».proof.Proof.Gen.KernelIdeal.Frame
import proofs.«154843_j76682346102829_2_alg».proof.Proof.DenseSpec
import proofs.«154843_j76682346102829_2_alg».proof.Proof.DenseStages
import proofs.«154843_j76682346102829_2_alg».proof.Proof.DensePayload
import Idealize.ShloMosaic.Lib.Pipeline.Value

set_option maxRecDepth 16384

noncomputable section

namespace Cert.DenseRegions

open Cert.KernelIdeal Cert.KernelIdeal.Gen Idealize.ShloMosaic Idealize.ShloMosaic.TcCoe Idealize.SL.Sem
open Idealize.ShloMosaic.ValueIdx Cert.DenseSpec Cert.DensePayload
open Idealize.ShloMosaic.Pipeline (Dat)

variable (V : (c : Dev nD) → (b : Ref sig .tc) → Buf (Elt Ideal) ((c : Thread nD τ).loc b))

/-- The block indices over the grid: the x window and the output window sit at row block t, the w and b windows at
    block zero (decided over the 40 points). -/
theorem idx2 : ∀ t : Fin cfg2.N, win2_0.index t (0 : Fin 2) = t.val ∧ win2_0.index t (1 : Fin 2) = 0
    ∧ win2_1.index t (0 : Fin 2) = 0 ∧ win2_1.index t (1 : Fin 2) = 0 ∧ win2_2.index t (0 : Fin 1) = 0
    ∧ win2_3.index t (0 : Fin 2) = t.val ∧ win2_3.index t (1 : Fin 2) = 0 :=
  (by decide +kernel : ∀ t : Fin grid2.N, _)

/-- Row p of the x block at point t is row 5000 t + p of the x array. -/
theorem iblk2_0_apply (c : Dev nD) (t : Fin cfg2.N) (p : Fin 5000) (r : Fin 200000) (q : Fin 64)
    (h : r.val = t.val * 5000 + p.val) :
    (iblk2 V c 0 t : S5000x64.Idx → EReal) (ix2 p q) = (V c (Pipeline.arrRef spec2 0) : S200000x64.Idx → EReal) (ix2 r q) := by
  obtain ⟨e0, e1, -⟩ := idx2 t
  show (V c (Pipeline.arrRef spec2 0) : S200000x64.Idx → EReal) (((cfg2.win 0).blk t).view.emb (ix2 p q)) = (V c (Pipeline.arrRef spec2 0) : S200000x64.Idx → EReal) (ix2 r q)
  refine congrArg (V c (Pipeline.arrRef spec2 0) : S200000x64.Idx → EReal) ?_
  funext a; apply Fin.ext
  match a with
  | ⟨0, _⟩ => show win2_0.index t (0 : Fin 2) * 5000 + 1 * p.val = r.val; omega
  | ⟨1, _⟩ => show win2_0.index t (1 : Fin 2) * 64 + 1 * q.val = q.val; omega

/-- The w block at every point is the w array. -/
theorem iblk2_1_eq (c : Dev nD) (t : Fin cfg2.N) :
    (iblk2 V c 1 t : S64x64.Idx → EReal) = (V c (Pipeline.arrRef spec2 1) : S64x64.Idx → EReal) := by
  obtain ⟨-, -, e2, e3, -⟩ := idx2 t
  funext y
  show (V c (Pipeline.arrRef spec2 1) : S64x64.Idx → EReal) (((cfg2.win 1).blk t).view.emb y) = (V c (Pipeline.arrRef spec2 1) : S64x64.Idx → EReal) y
  refine congrArg (V c (Pipeline.arrRef spec2 1) : S64x64.Idx → EReal) ?_
  funext a; apply Fin.ext
  match a with
  | ⟨0, _⟩ => show win2_1.index t (0 : Fin 2) * 64 + 1 * (y 0).val = (y 0).val; omega
  | ⟨1, _⟩ => show win2_1.index t (1 : Fin 2) * 64 + 1 * (y 1).val = (y 1).val; omega

/-- The b block at every point is the b array. -/
theorem iblk2_2_eq (c : Dev nD) (t : Fin cfg2.N) :
    (iblk2 V c 2 t : S64.Idx → EReal) = (V c (Pipeline.arrRef spec2 2) : S64.Idx → EReal) := by
  obtain ⟨-, -, -, -, e4, -⟩ := idx2 t
  funext y
  show (V c (Pipeline.arrRef spec2 2) : S64.Idx → EReal) (((cfg2.win 2).blk t).view.emb y) = (V c (Pipeline.arrRef spec2 2) : S64.Idx → EReal) y
  refine congrArg (V c (Pipeline.arrRef spec2 2) : S64.Idx → EReal) ?_
  funext a; apply Fin.ext
  match a with
  | ⟨0, _⟩ => show win2_2.index t (0 : Fin 1) * 64 + 1 * (y 0).val = (y 0).val; omega

/-- What point t writes back to the output array is its block of the affine map of the three input arrays. -/
theorem flushed2_3 (c : Dev nD) (t : Fin cfg2.N) :
    (dat2 V c).flushed 3 t = ((cfg2.win 3).blk t).view.read (Elt Ideal)
      (affineArr (V c (Pipeline.arrRef spec2 0) : S200000x64.Idx → EReal) (V c (Pipeline.arrRef spec2 1) : S64x64.Idx → EReal) (V c (Pipeline.arrRef spec2 2) : S64.Idx → EReal)) := by
  show (cfg2.win 3).cut (grid2.coords t) ((dat2 V c).after 3 t) = _
  rw [after2_3]
  unfold out2_3
  rw [View.canon_unit_zero zero2]
  simp only [View.ld_unit_zero (S := S5000x64) zero2, View.ld_unit_zero (S := S64x64) zero2, View.ld_unit_zero (S := S64) zero1]
  obtain ⟨-, -, -, -, -, e5, e6⟩ := idx2 t
  funext j
  refine affine_block (M := 200000) (K := 64) (N := 64) (m := 5000)
    (k2_pay1 (F := Ideal) (iblk2 V c 0 t) (iblk2 V c 1 t) (iblk2 V c 2 t))
    (iblk2 V c 0 t) (iblk2 V c 1 t) (V c (Pipeline.arrRef spec2 1)) (iblk2 V c 2 t) (V c (Pipeline.arrRef spec2 2))
    (fun p q => k2_pay1_apply (iblk2 V c 0 t) (iblk2 V c 1 t) (iblk2 V c 2 t) p q) (iblk2_1_eq V c t) (iblk2_2_eq V c t)
    (V c (Pipeline.arrRef spec2 0)) (t.val * 5000) (fun p r q h => iblk2_0_apply V c t p r q h)
    j (((cfg2.win 3).blk t).view.emb j) ?_ ?_
  · show win2_3.index t (0 : Fin 2) * 5000 + 1 * (j 0).val = t.val * 5000 + (j 0).val; omega
  · show win2_3.index t (1 : Fin 2) * 64 + 1 * (j 1).val = (j 1).val; omega

/-- An index of the output array is in point t's block iff each coordinate is in the block's range on its axis. -/
theorem mem_blk2_3 (t : Fin cfg2.N) (i : S200000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v14).slice (win2_3.rect t)).set ↔ _
  rw [View.set_slice_whole, Rect.mem_set_unit]
  exact Iff.rfl

/-- Every index of the output array is in some point's block: row r in point r / 5000's. -/
theorem covered2_3 (i : S200000x64.Idx) :
    ∃ t : Fin cfg2.N, (cfg2.win 3).flush t = true ∧ i ∈ ((cfg2.win 3).blk t).view.set := by
  have hi0 : (i 0).val < 200000 := (i 0).isLt
  have hi1 : (i 1).val < 64 := (i 1).isLt
  have hN : grid2.N = 40 := N_2
  obtain ⟨t, ht⟩ : ∃ t : Fin cfg2.N, t.val = (i 0).val / 5000 :=
    ⟨⟨(i 0).val / 5000, by show (i 0).val / 5000 < grid2.N; omega⟩, rfl⟩
  obtain ⟨-, -, -, -, -, e5, e6⟩ := idx2 t
  refine ⟨t, flush2_3 t, ?_⟩
  rw [mem_blk2_3]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- The output array after region 2 is the affine map of the region's three input arrays. -/
theorem region2_out3 (c : Dev nD) :
    ((dat2 V c).arrAt 3 cfg2.N : S200000x64.Idx → EReal)
      = affineArr (V c (Pipeline.arrRef spec2 0) : S200000x64.Idx → EReal) (V c (Pipeline.arrRef spec2 1) : S64x64.Idx → EReal) (V c (Pipeline.arrRef spec2 2) : S64.Idx → EReal) :=
  (dat2 V c).arrAt_eq_of_cover 3 _ (fun t _ => flushed2_3 V c t) covered2_3

/-- The same with the stage named: the output array after region 2 is the network's `dense` stage of the region's
    three input arrays. -/
theorem region2 (c : Dev nD) :
    ((dat2 V c).arrAt 3 cfg2.N : Cert.Net.N64)
      = Cert.DenseStages.dense (V c (Pipeline.arrRef spec2 0) : Cert.Net.N64) (V c (Pipeline.arrRef spec2 1) : Cert.Net.W64)
          (V c (Pipeline.arrRef spec2 2) : Cert.Net.B64) :=
  region2_out3 V c

end Cert.DenseRegions

end
-- ==== Proof.DenseRegion3.lean ====
/-
  Region 3 of the kernel program, one of its dense layers: the output array after the region is the affine map of the three
  input arrays as the region finds them,  (p, q) ↦ Σ_c x (p, c) · w (c, q) + b q,  x : [200000, 64], w : [64, 64],
  b : [64].

  The grid has 40 points; point t reads rows 5000 t … 5000 t + 4999 of x and all of w and b, and writes the same rows of
  the output.  What point t writes back is its block of the whole-array function; row r is covered by point r / 5000.
-/
import proofs.«154843_j76682346102829_2_alg».proof.Proof.Gen.KernelIdeal.Frame
import proofs.«154843_j76682346102829_2_alg».proof.Proof.DenseSpec
import proofs.«154843_j76682346102829_2_alg».proof.Proof.DenseStages
import proofs.«154843_j76682346102829_2_alg».proof.Proof.DensePayload
import Idealize.ShloMosaic.Lib.Pipeline.Value

set_option maxRecDepth 16384

noncomputable section

namespace Cert.DenseRegions

open Cert.KernelIdeal Cert.KernelIdeal.Gen Idealize.ShloMosaic Idealize.ShloMosaic.TcCoe Idealize.SL.Sem
open Idealize.ShloMosaic.ValueIdx Cert.DenseSpec Cert.DensePayload
open Idealize.ShloMosaic.Pipeline (Dat)

variable (V : (c : Dev nD) → (b : Ref sig .tc) → Buf (Elt Ideal) ((c : Thread nD τ).loc b))

/-- The block indices over the grid: the x window and the output window sit at row block t, the w and b windows at
    block zero (decided over the 40 points). -/
theorem idx3 : ∀ t : Fin cfg3.N, win3_0.index t (0 : Fin 2) = t.val ∧ win3_0.index t (1 : Fin 2) = 0
    ∧ win3_1.index t (0 : Fin 2) = 0 ∧ win3_1.index t (1 : Fin 2) = 0 ∧ win3_2.index t (0 : Fin 1) = 0
    ∧ win3_3.index t (0 : Fin 2) = t.val ∧ win3_3.index t (1 : Fin 2) = 0 :=
  (by decide +kernel : ∀ t : Fin grid3.N, _)

/-- Row p of the x block at point t is row 5000 t + p of the x array. -/
theorem iblk3_0_apply (c : Dev nD) (t : Fin cfg3.N) (p : Fin 5000) (r : Fin 200000) (q : Fin 64)
    (h : r.val = t.val * 5000 + p.val) :
    (iblk3 V c 0 t : S5000x64.Idx → EReal) (ix2 p q) = (V c (Pipeline.arrRef spec3 0) : S200000x64.Idx → EReal) (ix2 r q) := by
  obtain ⟨e0, e1, -⟩ := idx3 t
  show (V c (Pipeline.arrRef spec3 0) : S200000x64.Idx → EReal) (((cfg3.win 0).blk t).view.emb (ix2 p q)) = (V c (Pipeline.arrRef spec3 0) : S200000x64.Idx → EReal) (ix2 r q)
  refine congrArg (V c (Pipeline.arrRef spec3 0) : S200000x64.Idx → EReal) ?_
  funext a; apply Fin.ext
  match a with
  | ⟨0, _⟩ => show win3_0.index t (0 : Fin 2) * 5000 + 1 * p.val = r.val; omega
  | ⟨1, _⟩ => show win3_0.index t (1 : Fin 2) * 64 + 1 * q.val = q.val; omega

/-- The w block at every point is the w array. -/
theorem iblk3_1_eq (c : Dev nD) (t : Fin cfg3.N) :
    (iblk3 V c 1 t : S64x64.Idx → EReal) = (V c (Pipeline.arrRef spec3 1) : S64x64.Idx → EReal) := by
  obtain ⟨-, -, e2, e3, -⟩ := idx3 t
  funext y
  show (V c (Pipeline.arrRef spec3 1) : S64x64.Idx → EReal) (((cfg3.win 1).blk t).view.emb y) = (V c (Pipeline.arrRef spec3 1) : S64x64.Idx → EReal) y
  refine congrArg (V c (Pipeline.arrRef spec3 1) : S64x64.Idx → EReal) ?_
  funext a; apply Fin.ext
  match a with
  | ⟨0, _⟩ => show win3_1.index t (0 : Fin 2) * 64 + 1 * (y 0).val = (y 0).val; omega
  | ⟨1, _⟩ => show win3_1.index t (1 : Fin 2) * 64 + 1 * (y 1).val = (y 1).val; omega

/-- The b block at every point is the b array. -/
theorem iblk3_2_eq (c : Dev nD) (t : Fin cfg3.N) :
    (iblk3 V c 2 t : S64.Idx → EReal) = (V c (Pipeline.arrRef spec3 2) : S64.Idx → EReal) := by
  obtain ⟨-, -, -, -, e4, -⟩ := idx3 t
  funext y
  show (V c (Pipeline.arrRef spec3 2) : S64.Idx → EReal) (((cfg3.win 2).blk t).view.emb y) = (V c (Pipeline.arrRef spec3 2) : S64.Idx → EReal) y
  refine congrArg (V c (Pipeline.arrRef spec3 2) : S64.Idx → EReal) ?_
  funext a; apply Fin.ext
  match a with
  | ⟨0, _⟩ => show win3_2.index t (0 : Fin 1) * 64 + 1 * (y 0).val = (y 0).val; omega

/-- What point t writes back to the output array is its block of the affine map of the three input arrays. -/
theorem flushed3_3 (c : Dev nD) (t : Fin cfg3.N) :
    (dat3 V c).flushed 3 t = ((cfg3.win 3).blk t).view.read (Elt Ideal)
      (affineArr (V c (Pipeline.arrRef spec3 0) : S200000x64.Idx → EReal) (V c (Pipeline.arrRef spec3 1) : S64x64.Idx → EReal) (V c (Pipeline.arrRef spec3 2) : S64.Idx → EReal)) := by
  show (cfg3.win 3).cut (grid3.coords t) ((dat3 V c).after 3 t) = _
  rw [after3_3]
  unfold out3_3
  rw [View.canon_unit_zero zero2]
  simp only [View.ld_unit_zero (S := S5000x64) zero2, View.ld_unit_zero (S := S64x64) zero2, View.ld_unit_zero (S := S64) zero1]
  obtain ⟨-, -, -, -, -, e5, e6⟩ := idx3 t
  funext j
  refine affine_block (M := 200000) (K := 64) (N := 64) (m := 5000)
    (k3_pay1 (F := Ideal) (iblk3 V c 0 t) (iblk3 V c 1 t) (iblk3 V c 2 t))
    (iblk3 V c 0 t) (iblk3 V c 1 t) (V c (Pipeline.arrRef spec3 1)) (iblk3 V c 2 t) (V c (Pipeline.arrRef spec3 2))
    (fun p q => k3_pay1_apply (iblk3 V c 0 t) (iblk3 V c 1 t) (iblk3 V c 2 t) p q) (iblk3_1_eq V c t) (iblk3_2_eq V c t)
    (V c (Pipeline.arrRef spec3 0)) (t.val * 5000) (fun p r q h => iblk3_0_apply V c t p r q h)
    j (((cfg3.win 3).blk t).view.emb j) ?_ ?_
  · show win3_3.index t (0 : Fin 2) * 5000 + 1 * (j 0).val = t.val * 5000 + (j 0).val; omega
  · show win3_3.index t (1 : Fin 2) * 64 + 1 * (j 1).val = (j 1).val; omega

/-- An index of the output array is in point t's block iff each coordinate is in the block's range on its axis. -/
theorem mem_blk3_3 (t : Fin cfg3.N) (i : S200000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v19).slice (win3_3.rect t)).set ↔ _
  rw [View.set_slice_whole, Rect.mem_set_unit]
  exact Iff.rfl

/-- Every index of the output array is in some point's block: row r in point r / 5000's. -/
theorem covered3_3 (i : S200000x64.Idx) :
    ∃ t : Fin cfg3.N, (cfg3.win 3).flush t = true ∧ i ∈ ((cfg3.win 3).blk t).view.set := by
  have hi0 : (i 0).val < 200000 := (i 0).isLt
  have hi1 : (i 1).val < 64 := (i 1).isLt
  have hN : grid3.N = 40 := N_3
  obtain ⟨t, ht⟩ : ∃ t : Fin cfg3.N, t.val = (i 0).val / 5000 :=
    ⟨⟨(i 0).val / 5000, by show (i 0).val / 5000 < grid3.N; omega⟩, rfl⟩
  obtain ⟨-, -, -, -, -, e5, e6⟩ := idx3 t
  refine ⟨t, flush3_3 t, ?_⟩
  rw [mem_blk3_3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- The output array after region 3 is the affine map of the region's three input arrays. -/
theorem region3_out3 (c : Dev nD) :
    ((dat3 V c).arrAt 3 cfg3.N : S200000x64.Idx → EReal)
      = affineArr (V c (Pipeline.arrRef spec3 0) : S200000x64.Idx → EReal) (V c (Pipeline.arrRef spec3 1) : S64x64.Idx → EReal) (V c (Pipeline.arrRef spec3 2) : S64.Idx → EReal) :=
  (dat3 V c).arrAt_eq_of_cover 3 _ (fun t _ => flushed3_3 V c t) covered3_3

/-- The same with the stage named: the output array after region 3 is the network's `dense` stage of the region's
    three input arrays. -/
theorem region3 (c : Dev nD) :
    ((dat3 V c).arrAt 3 cfg3.N : Cert.Net.N64)
      = Cert.DenseStages.dense (V c (Pipeline.arrRef spec3 0) : Cert.Net.N64) (V c (Pipeline.arrRef spec3 1) : Cert.Net.W64)
          (V c (Pipeline.arrRef spec3 2) : Cert.Net.B64) :=
  region3_out3 V c

end Cert.DenseRegions

end
-- ==== Proof.DenseRegion10.lean ====
/-
  Region 10 of the kernel program, one of its dense layers: the output array after the region is the affine map of the three
  input arrays as the region finds them,  (p, q) ↦ Σ_c x (p, c) · w (c, q) + b q,  x : [200000, 64], w : [64, 64],
  b : [64].

  The grid has 40 points; point t reads rows 5000 t … 5000 t + 4999 of x and all of w and b, and writes the same rows of
  the output.  What point t writes back is its block of the whole-array function; row r is covered by point r / 5000.
-/
import proofs.«154843_j76682346102829_2_alg».proof.Proof.Gen.KernelIdeal.Frame
import proofs.«154843_j76682346102829_2_alg».proof.Proof.DenseSpec
import proofs.«154843_j76682346102829_2_alg».proof.Proof.DenseStages
import proofs.«154843_j76682346102829_2_alg».proof.Proof.DensePayload
import Idealize.ShloMosaic.Lib.Pipeline.Value

set_option maxRecDepth 16384

noncomputable section

namespace Cert.DenseRegions

open Cert.KernelIdeal Cert.KernelIdeal.Gen Idealize.ShloMosaic Idealize.ShloMosaic.TcCoe Idealize.SL.Sem
open Idealize.ShloMosaic.ValueIdx Cert.DenseSpec Cert.DensePayload
open Idealize.ShloMosaic.Pipeline (Dat)

variable (V : (c : Dev nD) → (b : Ref sig .tc) → Buf (Elt Ideal) ((c : Thread nD τ).loc b))

/-- The block indices over the grid: the x window and the output window sit at row block t, the w and b windows at
    block zero (decided over the 40 points). -/
theorem idx10 : ∀ t : Fin cfg10.N, win10_0.index t (0 : Fin 2) = t.val ∧ win10_0.index t (1 : Fin 2) = 0
    ∧ win10_1.index t (0 : Fin 2) = 0 ∧ win10_1.index t (1 : Fin 2) = 0 ∧ win10_2.index t (0 : Fin 1) = 0
    ∧ win10_3.index t (0 : Fin 2) = t.val ∧ win10_3.index t (1 : Fin 2) = 0 :=
  (by decide +kernel : ∀ t : Fin grid10.N, _)

/-- Row p of the x block at point t is row 5000 t + p of the x array. -/
theorem iblk10_0_apply (c : Dev nD) (t : Fin cfg10.N) (p : Fin 5000) (r : Fin 200000) (q : Fin 64)
    (h : r.val = t.val * 5000 + p.val) :
    (iblk10 V c 0 t : S5000x64.Idx → EReal) (ix2 p q) = (V c (Pipeline.arrRef spec10 0) : S200000x64.Idx → EReal) (ix2 r q) := by
  obtain ⟨e0, e1, -⟩ := idx10 t
  show (V c (Pipeline.arrRef spec10 0) : S200000x64.Idx → EReal) (((cfg10.win 0).blk t).view.emb (ix2 p q)) = (V c (Pipeline.arrRef spec10 0) : S200000x64.Idx → EReal) (ix2 r q)
  refine congrArg (V c (Pipeline.arrRef spec10 0) : S200000x64.Idx → EReal) ?_
  funext a; apply Fin.ext
  match a with
  | ⟨0, _⟩ => show win10_0.index t (0 : Fin 2) * 5000 + 1 * p.val = r.val; omega
  | ⟨1, _⟩ => show win10_0.index t (1 : Fin 2) * 64 + 1 * q.val = q.val; omega

/-- The w block at every point is the w array. -/
theorem iblk10_1_eq (c : Dev nD) (t : Fin cfg10.N) :
    (iblk10 V c 1 t : S64x64.Idx → EReal) = (V c (Pipeline.arrRef spec10 1) : S64x64.Idx → EReal) := by
  obtain ⟨-, -, e2, e3, -⟩ := idx10 t
  funext y
  show (V c (Pipeline.arrRef spec10 1) : S64x64.Idx → EReal) (((cfg10.win 1).blk t).view.emb y) = (V c (Pipeline.arrRef spec10 1) : S64x64.Idx → EReal) y
  refine congrArg (V c (Pipeline.arrRef spec10 1) : S64x64.Idx → EReal) ?_
  funext a; apply Fin.ext
  match a with
  | ⟨0, _⟩ => show win10_1.index t (0 : Fin 2) * 64 + 1 * (y 0).val = (y 0).val; omega
  | ⟨1, _⟩ => show win10_1.index t (1 : Fin 2) * 64 + 1 * (y 1).val = (y 1).val; omega

/-- The b block at every point is the b array. -/
theorem iblk10_2_eq (c : Dev nD) (t : Fin cfg10.N) :
    (iblk10 V c 2 t : S64.Idx → EReal) = (V c (Pipeline.arrRef spec10 2) : S64.Idx → EReal) := by
  obtain ⟨-, -, -, -, e4, -⟩ := idx10 t
  funext y
  show (V c (Pipeline.arrRef spec10 2) : S64.Idx → EReal) (((cfg10.win 2).blk t).view.emb y) = (V c (Pipeline.arrRef spec10 2) : S64.Idx → EReal) y
  refine congrArg (V c (Pipeline.arrRef spec10 2) : S64.Idx → EReal) ?_
  funext a; apply Fin.ext
  match a with
  | ⟨0, _⟩ => show win10_2.index t (0 : Fin 1) * 64 + 1 * (y 0).val = (y 0).val; omega

/-- What point t writes back to the output array is its block of the affine map of the three input arrays. -/
theorem flushed10_3 (c : Dev nD) (t : Fin cfg10.N) :
    (dat10 V c).flushed 3 t = ((cfg10.win 3).blk t).view.read (Elt Ideal)
      (affineArr (V c (Pipeline.arrRef spec10 0) : S200000x64.Idx → EReal) (V c (Pipeline.arrRef spec10 1) : S64x64.Idx → EReal) (V c (Pipeline.arrRef spec10 2) : S64.Idx → EReal)) := by
  show (cfg10.win 3).cut (grid10.coords t) ((dat10 V c).after 3 t) = _
  rw [after10_3]
  unfold out10_3
  rw [View.canon_unit_zero zero2]
  simp only [View.ld_unit_zero (S := S5000x64) zero2, View.ld_unit_zero (S := S64x64) zero2, View.ld_unit_zero (S := S64) zero1]
  obtain ⟨-, -, -, -, -, e5, e6⟩ := idx10 t
  funext j
  refine affine_block (M := 200000) (K := 64) (N := 64) (m := 5000)
    (k10_pay1 (F := Ideal) (iblk10 V c 0 t) (iblk10 V c 1 t) (iblk10 V c 2 t))
    (iblk10 V c 0 t) (iblk10 V c 1 t) (V c (Pipeline.arrRef spec10 1)) (iblk10 V c 2 t) (V c (Pipeline.arrRef spec10 2))
    (fun p q => k10_pay1_apply (iblk10 V c 0 t) (iblk10 V c 1 t) (iblk10 V c 2 t) p q) (iblk10_1_eq V c t) (iblk10_2_eq V c t)
    (V c (Pipeline.arrRef spec10 0)) (t.val * 5000) (fun p r q h => iblk10_0_apply V c t p r q h)
    j (((cfg10.win 3).blk t).view.emb j) ?_ ?_
  · show win10_3.index t (0 : Fin 2) * 5000 + 1 * (j 0).val = t.val * 5000 + (j 0).val; omega
  · show win10_3.index t (1 : Fin 2) * 64 + 1 * (j 1).val = (j 1).val; omega

/-- An index of the output array is in point t's block iff each coordinate is in the block's range on its axis. -/
theorem mem_blk10_3 (t : Fin cfg10.N) (i : S200000x64.Idx) :
    i ∈ ((cfg10.win 3).blk t).view.set ↔ ∀ a : Fin 2, win10_3.index t a * S5000x64.size a ≤ (i a).val ∧ (i a).val < win10_3.index t a * S5000x64.size a + S5000x64.size a := by
  show i ∈ ((View.whole main_v60).slice (win10_3.rect t)).set ↔ _
  rw [View.set_slice_whole, Rect.mem_set_unit]
  exact Iff.rfl

/-- Every index of the output array is in some point's block: row r in point r / 5000's. -/
theorem covered10_3 (i : S200000x64.Idx) :
    ∃ t : Fin cfg10.N, (cfg10.win 3).flush t = true ∧ i ∈ ((cfg10.win 3).blk t).view.set := by
  have hi0 : (i 0).val < 200000 := (i 0).isLt
  have hi1 : (i 1).val < 64 := (i 1).isLt
  have hN : grid10.N = 40 := N_10
  obtain ⟨t, ht⟩ : ∃ t : Fin cfg10.N, t.val = (i 0).val / 5000 :=
    ⟨⟨(i 0).val / 5000, by show (i 0).val / 5000 < grid10.N; omega⟩, rfl⟩
  obtain ⟨-, -, -, -, -, e5, e6⟩ := idx10 t
  refine ⟨t, flush10_3 t, ?_⟩
  rw [mem_blk10_3]
  intro a
  match a with
  | ⟨0, _⟩ => show win10_3.index t (0 : Fin 2) * 5000 ≤ (i 0).val ∧ (i 0).val < win10_3.index t (0 : Fin 2) * 5000 + 5000; omega
  | ⟨1, _⟩ => show win10_3.index t (1 : Fin 2) * 64 ≤ (i 1).val ∧ (i 1).val < win10_3.index t (1 : Fin 2) * 64 + 64; omega

/-- The output array after region 10 is the affine map of the region's three input arrays. -/
theorem region10_out3 (c : Dev nD) :
    ((dat10 V c).arrAt 3 cfg10.N : S200000x64.Idx → EReal)
      = affineArr (V c (Pipeline.arrRef spec10 0) : S200000x64.Idx → EReal) (V c (Pipeline.arrRef spec10 1) : S64x64.Idx → EReal) (V c (Pipeline.arrRef spec10 2) : S64.Idx → EReal) :=
  (dat10 V c).arrAt_eq_of_cover 3 _ (fun t _ => flushed10_3 V c t) covered10_3

/-- The same with the stage named: the output array after region 10 is the network's `dense` stage of the region's
    three input arrays. -/
theorem region10 (c : Dev nD) :
    ((dat10 V c).arrAt 3 cfg10.N : Cert.Net.N64)
      = Cert.DenseStages.dense (V c (Pipeline.arrRef spec10 0) : Cert.Net.N64) (V c (Pipeline.arrRef spec10 1) : Cert.Net.W64)
          (V c (Pipeline.arrRef spec10 2) : Cert.Net.B64) :=
  region10_out3 V c

end Cert.DenseRegions

end
-- ==== Proof.DenseRegion11.lean ====
/-
  Region 11 of the kernel program, one of its dense layers: the output array after the region is the affine map of the three
  input arrays as the region finds them,  (p, q) ↦ Σ_c x (p, c) · w (c, q) + b q,  x : [200000, 64], w : [64, 64],
  b : [64].

  The grid has 40 points; point t reads rows 5000 t … 5000 t + 4999 of x and all of w and b, and writes the same rows of
  the output.  What point t writes back is its block of the whole-array function; row r is covered by point r / 5000.
-/
import proofs.«154843_j76682346102829_2_alg».proof.Proof.Gen.KernelIdeal.Frame
import proofs.«154843_j76682346102829_2_alg».proof.Proof.DenseSpec
import proofs.«154843_j76682346102829_2_alg».proof.Proof.DenseStages
import proofs.«154843_j76682346102829_2_alg».proof.Proof.DensePayload
import Idealize.ShloMosaic.Lib.Pipeline.Value

set_option maxRecDepth 16384

noncomputable section

namespace Cert.DenseRegions

open Cert.KernelIdeal Cert.KernelIdeal.Gen Idealize.ShloMosaic Idealize.ShloMosaic.TcCoe Idealize.SL.Sem
open Idealize.ShloMosaic.ValueIdx Cert.DenseSpec Cert.DensePayload
open Idealize.ShloMosaic.Pipeline (Dat)

variable (V : (c : Dev nD) → (b : Ref sig .tc) → Buf (Elt Ideal) ((c : Thread nD τ).loc b))

/-- The block indices over the grid: the x window and the output window sit at row block t, the w and b windows at
    block zero (decided over the 40 points). -/
theorem idx11 : ∀ t : Fin cfg11.N, win11_0.index t (0 : Fin 2) = t.val ∧ win11_0.index t (1 : Fin 2) = 0
    ∧ win11_1.index t (0 : Fin 2) = 0 ∧ win11_1.index t (1 : Fin 2) = 0 ∧ win11_2.index t (0 : Fin 1) = 0
    ∧ win11_3.index t (0 : Fin 2) = t.val ∧ win11_3.index t (1 : Fin 2) = 0 :=
  (by decide +kernel : ∀ t : Fin grid11.N, _)

/-- Row p of the x block at point t is row 5000 t + p of the x array. -/
theorem iblk11_0_apply (c : Dev nD) (t : Fin cfg11.N) (p : Fin 5000) (r : Fin 200000) (q : Fin 64)
    (h : r.val = t.val * 5000 + p.val) :
    (iblk11 V c 0 t : S5000x64.Idx → EReal) (ix2 p q) = (V c (Pipeline.arrRef spec11 0) : S200000x64.Idx → EReal) (ix2 r q) := by
  obtain ⟨e0, e1, -⟩ := idx11 t
  show (V c (Pipeline.arrRef spec11 0) : S200000x64.Idx → EReal) (((cfg11.win 0).blk t).view.emb (ix2 p q)) = (V c (Pipeline.arrRef spec11 0) : S200000x64.Idx → EReal) (ix2 r q)
  refine congrArg (V c (Pipeline.arrRef spec11 0) : S200000x64.Idx → EReal) ?_
  funext a; apply Fin.ext
  match a with
  | ⟨0, _⟩ => show win11_0.index t (0 : Fin 2) * 5000 + 1 * p.val = r.val; omega
  | ⟨1, _⟩ => show win11_0.index t (1 : Fin 2) * 64 + 1 * q.val = q.val; omega

/-- The w block at every point is the w array. -/
theorem iblk11_1_eq (c : Dev nD) (t : Fin cfg11.N) :
    (iblk11 V c 1 t : S64x64.Idx → EReal) = (V c (Pipeline.arrRef spec11 1) : S64x64.Idx → EReal) := by
  obtain ⟨-, -, e2, e3, -⟩ := idx11 t
  funext y
  show (V c (Pipeline.arrRef spec11 1) : S64x64.Idx → EReal) (((cfg11.win 1).blk t).view.emb y) = (V c (Pipeline.arrRef spec11 1) : S64x64.Idx → EReal) y
  refine congrArg (V c (Pipeline.arrRef spec11 1) : S64x64.Idx → EReal) ?_
  funext a; apply Fin.ext
  match a with
  | ⟨0, _⟩ => show win11_1.index t (0 : Fin 2) * 64 + 1 * (y 0).val = (y 0).val; omega
  | ⟨1, _⟩ => show win11_1.index t (1 : Fin 2) * 64 + 1 * (y 1).val = (y 1).val; omega

/-- The b block at every point is the b array. -/
theorem iblk11_2_eq (c : Dev nD) (t : Fin cfg11.N) :
    (iblk11 V c 2 t : S64.Idx → EReal) = (V c (Pipeline.arrRef spec11 2) : S64.Idx → EReal) := by
  obtain ⟨-, -, -, -, e4, -⟩ := idx11 t
  funext y
  show (V c (Pipeline.arrRef spec11 2) : S64.Idx → EReal) (((cfg11.win 2).blk t).view.emb y) = (V c (Pipeline.arrRef spec11 2) : S64.Idx → EReal) y
  refine congrArg (V c (Pipeline.arrRef spec11 2) : S64.Idx → EReal) ?_
  funext a; apply Fin.ext
  match a with
  | ⟨0, _⟩ => show win11_2.index t (0 : Fin 1) * 64 + 1 * (y 0).val = (y 0).val; omega

/-- What point t writes back to the output array is its block of the affine map of the three input arrays. -/
theorem flushed11_3 (c : Dev nD) (t : Fin cfg11.N) :
    (dat11 V c).flushed 3 t = ((cfg11.win 3).blk t).view.read (Elt Ideal)
      (affineArr (V c (Pipeline.arrRef spec11 0) : S200000x64.Idx → EReal) (V c (Pipeline.arrRef spec11 1) : S64x64.Idx → EReal) (V c (Pipeline.arrRef spec11 2) : S64.Idx → EReal)) := by
  show (cfg11.win 3).cut (grid11.coords t) ((dat11 V c).after 3 t) = _
  rw [after11_3]
  unfold out11_3
  rw [View.canon_unit_zero zero2]
  simp only [View.ld_unit_zero (S := S5000x64) zero2, View.ld_unit_zero (S := S64x64) zero2, View.ld_unit_zero (S := S64) zero1]
  obtain ⟨-, -, -, -, -, e5, e6⟩ := idx11 t
  funext j
  refine affine_block (M := 200000) (K := 64) (N := 64) (m := 5000)
    (k11_pay1 (F := Ideal) (iblk11 V c 0 t) (iblk11 V c 1 t) (iblk11 V c 2 t))
    (iblk11 V c 0 t) (iblk11 V c 1 t) (V c (Pipeline.arrRef spec11 1)) (iblk11 V c 2 t) (V c (Pipeline.arrRef spec11 2))
    (fun p q => k11_pay1_apply (iblk11 V c 0 t) (iblk11 V c 1 t) (iblk11 V c 2 t) p q) (iblk11_1_eq V c t) (iblk11_2_eq V c t)
    (V c (Pipeline.arrRef spec11 0)) (t.val * 5000) (fun p r q h => iblk11_0_apply V c t p r q h)
    j (((cfg11.win 3).blk t).view.emb j) ?_ ?_
  · show win11_3.index t (0 : Fin 2) * 5000 + 1 * (j 0).val = t.val * 5000 + (j 0).val; omega
  · show win11_3.index t (1 : Fin 2) * 64 + 1 * (j 1).val = (j 1).val; omega

/-- An index of the output array is in point t's block iff each coordinate is in the block's range on its axis. -/
theorem mem_blk11_3 (t : Fin cfg11.N) (i : S200000x64.Idx) :
    i ∈ ((cfg11.win 3).blk t).view.set ↔ ∀ a : Fin 2, win11_3.index t a * S5000x64.size a ≤ (i a).val ∧ (i a).val < win11_3.index t a * S5000x64.size a + S5000x64.size a := by
  show i ∈ ((View.whole main_v65).slice (win11_3.rect t)).set ↔ _
  rw [View.set_slice_whole, Rect.mem_set_unit]
  exact Iff.rfl

/-- Every index of the output array is in some point's block: row r in point r / 5000's. -/
theorem covered11_3 (i : S200000x64.Idx) :
    ∃ t : Fin cfg11.N, (cfg11.win 3).flush t = true ∧ i ∈ ((cfg11.win 3).blk t).view.set := by
  have hi0 : (i 0).val < 200000 := (i 0).isLt
  have hi1 : (i 1).val < 64 := (i 1).isLt
  have hN : grid11.N = 40 := N_11
  obtain ⟨t, ht⟩ : ∃ t : Fin cfg11.N, t.val = (i 0).val / 5000 :=
    ⟨⟨(i 0).val / 5000, by show (i 0).val / 5000 < grid11.N; omega⟩, rfl⟩
  obtain ⟨-, -, -, -, -, e5, e6⟩ := idx11 t
  refine ⟨t, flush11_3 t, ?_⟩
  rw [mem_blk11_3]
  intro a
  match a with
  | ⟨0, _⟩ => show win11_3.index t (0 : Fin 2) * 5000 ≤ (i 0).val ∧ (i 0).val < win11_3.index t (0 : Fin 2) * 5000 + 5000; omega
  | ⟨1, _⟩ => show win11_3.index t (1 : Fin 2) * 64 ≤ (i 1).val ∧ (i 1).val < win11_3.index t (1 : Fin 2) * 64 + 64; omega

/-- The output array after region 11 is the affine map of the region's three input arrays. -/
theorem region11_out3 (c : Dev nD) :
    ((dat11 V c).arrAt 3 cfg11.N : S200000x64.Idx → EReal)
      = affineArr (V c (Pipeline.arrRef spec11 0) : S200000x64.Idx → EReal) (V c (Pipeline.arrRef spec11 1) : S64x64.Idx → EReal) (V c (Pipeline.arrRef spec11 2) : S64.Idx → EReal) :=
  (dat11 V c).arrAt_eq_of_cover 3 _ (fun t _ => flushed11_3 V c t) covered11_3

/-- The same with the stage named: the output array after region 11 is the network's `dense` stage of the region's
    three input arrays. -/
theorem region11 (c : Dev nD) :
    ((dat11 V c).arrAt 3 cfg11.N : Cert.Net.N64)
      = Cert.DenseStages.dense (V c (Pipeline.arrRef spec11 0) : Cert.Net.N64) (V c (Pipeline.arrRef spec11 1) : Cert.Net.W64)
          (V c (Pipeline.arrRef spec11 2) : Cert.Net.B64) :=
  region11_out3 V c

end Cert.DenseRegions

end
-- ==== Proof.DenseRegion18.lean ====
/-
  Region 18 of the kernel program, one of its dense layers: the output array after the region is the affine map of the three
  input arrays as the region finds them,  (p, q) ↦ Σ_c x (p, c) · w (c, q) + b q,  x : [200000, 64], w : [64, 32],
  b : [32].

  The grid has 40 points; point t reads rows 5000 t … 5000 t + 4999 of x and all of w and b, and writes the same rows of
  the output.  What point t writes back is its block of the whole-array function; row r is covered by point r / 5000.
-/
import proofs.«154843_j76682346102829_2_alg».proof.Proof.Gen.KernelIdeal.Frame
import proofs.«154843_j76682346102829_2_alg».proof.Proof.DenseSpec
import proofs.«154843_j76682346102829_2_alg».proof.Proof.DenseStages
import proofs.«154843_j76682346102829_2_alg».proof.Proof.DensePayload
import Idealize.ShloMosaic.Lib.Pipeline.Value

set_option maxRecDepth 16384

noncomputable section

namespace Cert.DenseRegions

open Cert.KernelIdeal Cert.KernelIdeal.Gen Idealize.ShloMosaic Idealize.ShloMosaic.TcCoe Idealize.SL.Sem
open Idealize.ShloMosaic.ValueIdx Cert.DenseSpec Cert.DensePayload
open Idealize.ShloMosaic.Pipeline (Dat)

variable (V : (c : Dev nD) → (b : Ref sig .tc) → Buf (Elt Ideal) ((c : Thread nD τ).loc b))

/-- The block indices over the grid: the x window and the output window sit at row block t, the w and b windows at
    block zero (decided over the 40 points). -/
theorem idx18 : ∀ t : Fin cfg18.N, win18_0.index t (0 : Fin 2) = t.val ∧ win18_0.index t (1 : Fin 2) = 0
    ∧ win18_1.index t (0 : Fin 2) = 0 ∧ win18_1.index t (1 : Fin 2) = 0 ∧ win18_2.index t (0 : Fin 1) = 0
    ∧ win18_3.index t (0 : Fin 2) = t.val ∧ win18_3.index t (1 : Fin 2) = 0 :=
  (by decide +kernel : ∀ t : Fin grid18.N, _)

/-- Row p of the x block at point t is row 5000 t + p of the x array. -/
theorem iblk18_0_apply (c : Dev nD) (t : Fin cfg18.N) (p : Fin 5000) (r : Fin 200000) (q : Fin 64)
    (h : r.val = t.val * 5000 + p.val) :
    (iblk18 V c 0 t : S5000x64.Idx → EReal) (ix2 p q) = (V c (Pipeline.arrRef spec18 0) : S200000x64.Idx → EReal) (ix2 r q) := by
  obtain ⟨e0, e1, -⟩ := idx18 t
  show (V c (Pipeline.arrRef spec18 0) : S200000x64.Idx → EReal) (((cfg18.win 0).blk t).view.emb (ix2 p q)) = (V c (Pipeline.arrRef spec18 0) : S200000x64.Idx → EReal) (ix2 r q)
  refine congrArg (V c (Pipeline.arrRef spec18 0) : S200000x64.Idx → EReal) ?_
  funext a; apply Fin.ext
  match a with
  | ⟨0, _⟩ => show win18_0.index t (0 : Fin 2) * 5000 + 1 * p.val = r.val; omega
  | ⟨1, _⟩ => show win18_0.index t (1 : Fin 2) * 64 + 1 * q.val = q.val; omega

/-- The w block at every point is the w array. -/
theorem iblk18_1_eq (c : Dev nD) (t : Fin cfg18.N) :
    (iblk18 V c 1 t : S64x32.Idx → EReal) = (V c (Pipeline.arrRef spec18 1) : S64x32.Idx → EReal) := by
  obtain ⟨-, -, e2, e3, -⟩ := idx18 t
  funext y
  show (V c (Pipeline.arrRef spec18 1) : S64x32.Idx → EReal) (((cfg18.win 1).blk t).view.emb y) = (V c (Pipeline.arrRef spec18 1) : S64x32.Idx → EReal) y
  refine congrArg (V c (Pipeline.arrRef spec18 1) : S64x32.Idx → EReal) ?_
  funext a; apply Fin.ext
  match a with
  | ⟨0, _⟩ => show win18_1.index t (0 : Fin 2) * 64 + 1 * (y 0).val = (y 0).val; omega
  | ⟨1, _⟩ => show win18_1.index t (1 : Fin 2) * 32 + 1 * (y 1).val = (y 1).val; omega

/-- The b block at every point is the b array. -/
theorem iblk18_2_eq (c : Dev nD) (t : Fin cfg18.N) :
    (iblk18 V c 2 t : S32.Idx → EReal) = (V c (Pipeline.arrRef spec18 2) : S32.Idx → EReal) := by
  obtain ⟨-, -, -, -, e4, -⟩ := idx18 t
  funext y
  show (V c (Pipeline.arrRef spec18 2) : S32.Idx → EReal) (((cfg18.win 2).blk t).view.emb y) = (V c (Pipeline.arrRef spec18 2) : S32.Idx → EReal) y
  refine congrArg (V c (Pipeline.arrRef spec18 2) : S32.Idx → EReal) ?_
  funext a; apply Fin.ext
  match a with
  | ⟨0, _⟩ => show win18_2.index t (0 : Fin 1) * 32 + 1 * (y 0).val = (y 0).val; omega

/-- What point t writes back to the output array is its block of the affine map of the three input arrays. -/
theorem flushed18_3 (c : Dev nD) (t : Fin cfg18.N) :
    (dat18 V c).flushed 3 t = ((cfg18.win 3).blk t).view.read (Elt Ideal)
      (affineArr (V c (Pipeline.arrRef spec18 0) : S200000x64.Idx → EReal) (V c (Pipeline.arrRef spec18 1) : S64x32.Idx → EReal) (V c (Pipeline.arrRef spec18 2) : S32.Idx → EReal)) := by
  show (cfg18.win 3).cut (grid18.coords t) ((dat18 V c).after 3 t) = _
  rw [after18_3]
  unfold out18_3
  rw [View.canon_unit_zero zero2]
  simp only [View.ld_unit_zero (S := S5000x64) zero2, View.ld_unit_zero (S := S64x32) zero2, View.ld_unit_zero (S := S32) zero1]
  obtain ⟨-, -, -, -, -, e5, e6⟩ := idx18 t
  funext j
  refine affine_block (M := 200000) (K := 64) (N := 32) (m := 5000)
    (k18_pay1 (F := Ideal) (iblk18 V c 0 t) (iblk18 V c 1 t) (iblk18 V c 2 t))
    (iblk18 V c 0 t) (iblk18 V c 1 t) (V c (Pipeline.arrRef spec18 1)) (iblk18 V c 2 t) (V c (Pipeline.arrRef spec18 2))
    (fun p q => k18_pay1_apply (iblk18 V c 0 t) (iblk18 V c 1 t) (iblk18 V c 2 t) p q) (iblk18_1_eq V c t) (iblk18_2_eq V c t)
    (V c (Pipeline.arrRef spec18 0)) (t.val * 5000) (fun p r q h => iblk18_0_apply V c t p r q h)
    j (((cfg18.win 3).blk t).view.emb j) ?_ ?_
  · show win18_3.index t (0 : Fin 2) * 5000 + 1 * (j 0).val = t.val * 5000 + (j 0).val; omega
  · show win18_3.index t (1 : Fin 2) * 32 + 1 * (j 1).val = (j 1).val; omega

/-- An index of the output array is in point t's block iff each coordinate is in the block's range on its axis. -/
theorem mem_blk18_3 (t : Fin cfg18.N) (i : S200000x32.Idx) :
    i ∈ ((cfg18.win 3).blk t).view.set ↔ ∀ a : Fin 2, win18_3.index t a * S5000x32.size a ≤ (i a).val ∧ (i a).val < win18_3.index t a * S5000x32.size a + S5000x32.size a := by
  show i ∈ ((View.whole main_v102).slice (win18_3.rect t)).set ↔ _
  rw [View.set_slice_whole, Rect.mem_set_unit]
  exact Iff.rfl

/-- Every index of the output array is in some point's block: row r in point r / 5000's. -/
theorem covered18_3 (i : S200000x32.Idx) :
    ∃ t : Fin cfg18.N, (cfg18.win 3).flush t = true ∧ i ∈ ((cfg18.win 3).blk t).view.set := by
  have hi0 : (i 0).val < 200000 := (i 0).isLt
  have hi1 : (i 1).val < 32 := (i 1).isLt
  have hN : grid18.N = 40 := N_18
  obtain ⟨t, ht⟩ : ∃ t : Fin cfg18.N, t.val = (i 0).val / 5000 :=
    ⟨⟨(i 0).val / 5000, by show (i 0).val / 5000 < grid18.N; omega⟩, rfl⟩
  obtain ⟨-, -, -, -, -, e5, e6⟩ := idx18 t
  refine ⟨t, flush18_3 t, ?_⟩
  rw [mem_blk18_3]
  intro a
  match a with
  | ⟨0, _⟩ => show win18_3.index t (0 : Fin 2) * 5000 ≤ (i 0).val ∧ (i 0).val < win18_3.index t (0 : Fin 2) * 5000 + 5000; omega
  | ⟨1, _⟩ => show win18_3.index t (1 : Fin 2) * 32 ≤ (i 1).val ∧ (i 1).val < win18_3.index t (1 : Fin 2) * 32 + 32; omega

/-- The output array after region 18 is the affine map of the region's three input arrays. -/
theorem region18_out3 (c : Dev nD) :
    ((dat18 V c).arrAt 3 cfg18.N : S200000x32.Idx → EReal)
      = affineArr (V c (Pipeline.arrRef spec18 0) : S200000x64.Idx → EReal) (V c (Pipeline.arrRef spec18 1) : S64x32.Idx → EReal) (V c (Pipeline.arrRef spec18 2) : S32.Idx → EReal) :=
  (dat18 V c).arrAt_eq_of_cover 3 _ (fun t _ => flushed18_3 V c t) covered18_3

/-- The same with the stage named: the output array after region 18 is the network's `denseOut` stage of the region's
    three input arrays. -/
theorem region18 (c : Dev nD) :
    ((dat18 V c).arrAt 3 cfg18.N : Cert.Net.NOut)
      = Cert.DenseStages.denseOut (V c (Pipeline.arrRef spec18 0) : Cert.Net.N64) (V c (Pipeline.arrRef spec18 1) : Cert.Net.WOut)
          (V c (Pipeline.arrRef spec18 2) : Cert.Net.BOut) :=
  region18_out3 V c

end Cert.DenseRegions

end
-- ==== Proof.EdgeRegion6.lean ====
/-
  Edge region 6 of the kernel, read as whole arrays.

  An edge region walks the edges in 400 blocks of 5000.  At every block it reads the source scores, the target scores and
  the targets' feature rows of the block's edges and writes, for each edge `e`, the weight `exp(leaky(s(e) + t(e)))`
  and the message `weight(e) · h(e, ·)`.  Every window moves with the block number, so the array a region leaves is
  the edge stage's function of the arrays the region finds, index by index.
-/
import proofs.«154843_j76682346102829_2_alg».proof.Proof.Gen.KernelIdeal.Frame
import proofs.«154843_j76682346102829_2_alg».proof.Proof.ScoreEdgeSpec
import proofs.«154843_j76682346102829_2_alg».proof.Proof.LibBroadcast
import Idealize.ShloMosaic.Lib.Pipeline.Value

set_option maxRecDepth 16384

noncomputable section

namespace Cert.EdgeRegions

open Cert.KernelIdeal Cert.KernelIdeal.Gen Idealize.ShloMosaic Idealize.ShloMosaic.TcCoe Idealize.SL.Sem
open Idealize.ShloMosaic.ValueIdx Cert.ScoreEdge
open Cert.Net (N64 B64 N1 E1 E64)
open Idealize.ShloMosaic.Pipeline (Dat)

theorem hz2_6 : (![0, 0] : Fin 2 → Nat) = fun _ => 0 := funext fun a => by fin_cases a <;> rfl

/-! ## The body's arithmetic at an index -/

/-- Region 6: the weight payload, entry by entry, is `exp(leaky(s + t))` of the two loaded columns. -/
theorem k6_pay1_eq (x0 x1 : Vec Ideal S5000x1 .f32) :
    k6_pay1 (F := Ideal) x0 x1 = fun i => expLeaky (x0 i + x1 i) := by
  unfold k6_pay1
  simp only [shapeCast_self]
  rfl

/-- Region 6: the message payload at `(p, q)` is the weight of row `p` times the loaded feature entry. -/
theorem k6_pay2_apply (x0 x1 : Vec Ideal S5000x1 .f32) (x2 : Vec Ideal S5000x64 .f32) (p : Fin 5000) (q : Fin 64) :
    k6_pay2 (F := Ideal) x0 x1 x2 (ix2 p q)
      = expLeaky (x0 (ix2 p (0 : Fin 1)) + x1 (ix2 p (0 : Fin 1))) * x2 (ix2 p q) := by
  unfold k6_pay2
  show broadcastTo S5000x64 (k6_pay1 (F := Ideal) x0 x1) broadcasts_S5000x1_S5000x64 (ix2 p q)
      * shapeCast S5000x64 x2 shapeCasts_S5000x64_S5000x64 (ix2 p q) = _
  rw [Cert.Layout.broadcastTo_a1_ab_apply, shapeCast_self, k6_pay1_eq]

theorem k6_pay2_eq (x0 x1 : Vec Ideal S5000x1 .f32) (x2 : Vec Ideal S5000x64 .f32) :
    k6_pay2 (F := Ideal) x0 x1 x2
      = fun i => expLeaky (x0 (ix2 (i 0 : Fin 5000) (0 : Fin 1)) + x1 (ix2 (i 0 : Fin 5000) (0 : Fin 1))) * x2 i := by
  funext i
  obtain ⟨p, q, rfl⟩ : ∃ (p : Fin 5000) (q : Fin 64), i = ix2 p q := ⟨i 0, i 1, eq_ix2 i⟩
  exact k6_pay2_apply x0 x1 x2 p q

/-- Region 6: a block entry of the weights is the edge weight of the arrays where the loaded blocks sit in them. -/
theorem k6_w_block (A0 A1 : E1) (x0 x1 : Vec Ideal S5000x1 .f32) (y : S5000x1.Idx) (i : S2000000x1.Idx)
    (h0 : x0 y = A0 i) (h1 : x1 y = A1 i) : k6_pay1 (F := Ideal) x0 x1 y = edgeW A0 A1 i := by
  rw [k6_pay1_eq]
  show expLeaky (x0 y + x1 y) = expLeaky ((A0 i : EReal) + (A1 i : EReal))
  rw [h0, h1]

/-- Region 6: a block entry of the messages is the edge message of the arrays where the loaded blocks sit in them. -/
theorem k6_wh_block (A0 A1 : E1) (A2 : E64) (x0 x1 : Vec Ideal S5000x1 .f32) (x2 : Vec Ideal S5000x64 .f32)
    (y : S5000x64.Idx) (i : S2000000x64.Idx)
    (h0 : x0 (ix2 (y 0 : Fin 5000) (0 : Fin 1)) = A0 (ix2 (i 0 : Fin 2000000) (0 : Fin 1)))
    (h1 : x1 (ix2 (y 0 : Fin 5000) (0 : Fin 1)) = A1 (ix2 (i 0 : Fin 2000000) (0 : Fin 1)))
    (h2 : x2 y = A2 i) : k6_pay2 (F := Ideal) x0 x1 x2 y = edgeWH A0 A1 A2 i := by
  rw [k6_pay2_eq]
  show expLeaky (x0 (ix2 (y 0 : Fin 5000) (0 : Fin 1)) + x1 (ix2 (y 0 : Fin 5000) (0 : Fin 1))) * x2 y
      = expLeaky ((A0 (ix2 (i 0 : Fin 2000000) (0 : Fin 1)) : EReal) + (A1 (ix2 (i 0 : Fin 2000000) (0 : Fin 1)) : EReal)) * (A2 i : EReal)
  rw [h0, h1, h2]

/-! ## Region 6 -/

section Region6
variable (V : (c : Dev nD) → (b : Ref sig .tc) → Buf (Elt Ideal) ((c : Thread nD τ).loc b))

/-- Every window of region 6 sits, at point `t`, on block `t` of its array's rows and on the whole second axis. -/
theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0 :=
  (by decide +kernel : ∀ t : Fin grid6.N, _)

/-- Region 6, window 0: an entry of the block at point `t` is the array's entry `5000·t` rows further down. -/
theorem iblk6_0_apply (c : Dev nD) (t : Fin cfg6.N) (y : S5000x1.Idx) (i : S2000000x1.Idx)
    (h0 : (i 0).val = t.val * 5000 + (y 0).val) (h1 : (i 1).val = (y 1).val) :
    (iblk6 V c 0 t : Vec Ideal S5000x1 .f32) y = (V c (Pipeline.arrRef spec6 0) : E1) i := by
  obtain ⟨e00, e01, e10, e11, e20, e21, e30, e31, e40, e41⟩ := idx_facts6 t
  show (V c (Pipeline.arrRef spec6 0) : E1) _ = (V c (Pipeline.arrRef spec6 0) : E1) i
  refine congrArg _ ?_
  funext a; apply Fin.ext
  match a with
  | ⟨0, _⟩ => show win6_0.index t (0 : Fin 2) * 5000 + 1 * (y 0).val = (i 0).val; omega
  | ⟨1, _⟩ => show win6_0.index t (1 : Fin 2) * 1 + 1 * (y 1).val = (i 1).val; omega

/-- Region 6, window 1: an entry of the block at point `t` is the array's entry `5000·t` rows further down. -/
theorem iblk6_1_apply (c : Dev nD) (t : Fin cfg6.N) (y : S5000x1.Idx) (i : S2000000x1.Idx)
    (h0 : (i 0).val = t.val * 5000 + (y 0).val) (h1 : (i 1).val = (y 1).val) :
    (iblk6 V c 1 t : Vec Ideal S5000x1 .f32) y = (V c (Pipeline.arrRef spec6 1) : E1) i := by
  obtain ⟨e00, e01, e10, e11, e20, e21, e30, e31, e40, e41⟩ := idx_facts6 t
  show (V c (Pipeline.arrRef spec6 1) : E1) _ = (V c (Pipeline.arrRef spec6 1) : E1) i
  refine congrArg _ ?_
  funext a; apply Fin.ext
  match a with
  | ⟨0, _⟩ => show win6_1.index t (0 : Fin 2) * 5000 + 1 * (y 0).val = (i 0).val; omega
  | ⟨1, _⟩ => show win6_1.index t (1 : Fin 2) * 1 + 1 * (y 1).val = (i 1).val; omega

/-- Region 6, window 2: an entry of the block at point `t` is the array's entry `5000·t` rows further down. -/
theorem iblk6_2_apply (c : Dev nD) (t : Fin cfg6.N) (y : S5000x64.Idx) (i : S2000000x64.Idx)
    (h0 : (i 0).val = t.val * 5000 + (y 0).val) (h1 : (i 1).val = (y 1).val) :
    (iblk6 V c 2 t : Vec Ideal S5000x64 .f32) y = (V c (Pipeline.arrRef spec6 2) : E64) i := by
  obtain ⟨e00, e01, e10, e11, e20, e21, e30, e31, e40, e41⟩ := idx_facts6 t
  show (V c (Pipeline.arrRef spec6 2) : E64) _ = (V c (Pipeline.arrRef spec6 2) : E64) i
  refine congrArg _ ?_
  funext a; apply Fin.ext
  match a with
  | ⟨0, _⟩ => show win6_2.index t (0 : Fin 2) * 5000 + 1 * (y 0).val = (i 0).val; omega
  | ⟨1, _⟩ => show win6_2.index t (1 : Fin 2) * 64 + 1 * (y 1).val = (i 1).val; omega

/-- What point `t` writes back to the weights is block `t` of the edge weights of the arrays the region finds. -/
theorem flushed6_3_eq (c : Dev nD) (t : Fin cfg6.N) :
    (dat6 (F := Ideal) V c).flushed 3 t = ((cfg6.win 3).blk t).view.read (Elt Ideal)
      (edgeW (V c (Pipeline.arrRef spec6 0)) (V c (Pipeline.arrRef spec6 1))) := by
  show (cfg6.win 3).cut (grid6.coords t) ((dat6 (F := Ideal) V c).after 3 t) = _
  rw [after6_3]
  unfold out6_3
  rw [View.canon_unit_zero hz2_6]
  simp only [View.ld_unit_zero (S := S5000x1) hz2_6]
  obtain ⟨e00, e01, e10, e11, e20, e21, e30, e31, e40, e41⟩ := idx_facts6 t
  funext j
  have g0 : ((((cfg6.win 3).blk t).view.emb j) 0).val = t.val * 5000 + (j 0).val := by
    show win6_3.index t (0 : Fin 2) * 5000 + 1 * (j 0).val = _; omega
  have g1 : ((((cfg6.win 3).blk t).view.emb j) 1).val = (j 1).val := by
    show win6_3.index t (1 : Fin 2) * 1 + 1 * (j 1).val = _; omega
  exact k6_w_block (V c (Pipeline.arrRef spec6 0)) (V c (Pipeline.arrRef spec6 1)) (iblk6 V c 0 t) (iblk6 V c 1 t) j (((cfg6.win 3).blk t).view.emb j)
    (iblk6_0_apply V c t j (((cfg6.win 3).blk t).view.emb j) g0 g1) (iblk6_1_apply V c t j (((cfg6.win 3).blk t).view.emb j) g0 g1)

/-- What point `t` writes back to the messages is block `t` of the edge messages of the arrays the region finds. -/
theorem flushed6_4_eq (c : Dev nD) (t : Fin cfg6.N) :
    (dat6 (F := Ideal) V c).flushed 4 t = ((cfg6.win 4).blk t).view.read (Elt Ideal)
      (edgeWH (V c (Pipeline.arrRef spec6 0)) (V c (Pipeline.arrRef spec6 1)) (V c (Pipeline.arrRef spec6 2))) := by
  show (cfg6.win 4).cut (grid6.coords t) ((dat6 (F := Ideal) V c).after 4 t) = _
  rw [after6_4]
  unfold out6_4
  rw [View.canon_unit_zero hz2_6]
  simp only [View.ld_unit_zero (S := S5000x1) hz2_6, View.ld_unit_zero (S := S5000x64) hz2_6]
  obtain ⟨e00, e01, e10, e11, e20, e21, e30, e31, e40, e41⟩ := idx_facts6 t
  funext j
  have g0 : ((((cfg6.win 4).blk t).view.emb j) 0).val = t.val * 5000 + (j 0).val := by
    show win6_4.index t (0 : Fin 2) * 5000 + 1 * (j 0).val = _; omega
  have g1 : ((((cfg6.win 4).blk t).view.emb j) 1).val = (j 1).val := by
    show win6_4.index t (1 : Fin 2) * 64 + 1 * (j 1).val = _; omega
  exact k6_wh_block (V c (Pipeline.arrRef spec6 0)) (V c (Pipeline.arrRef spec6 1)) (V c (Pipeline.arrRef spec6 2)) (iblk6 V c 0 t) (iblk6 V c 1 t) (iblk6 V c 2 t) j (((cfg6.win 4).blk t).view.emb j)
    (iblk6_0_apply V c t (ix2 (j 0 : Fin 5000) (0 : Fin 1)) (ix2 ((((cfg6.win 4).blk t).view.emb j) 0 : Fin 2000000) (0 : Fin 1)) g0 rfl)
    (iblk6_1_apply V c t (ix2 (j 0 : Fin 5000) (0 : Fin 1)) (ix2 ((((cfg6.win 4).blk t).view.emb j) 0 : Fin 2000000) (0 : Fin 1)) g0 rfl)
    (iblk6_2_apply V c t j (((cfg6.win 4).blk t).view.emb j) g0 g1)

/-- An index of the weights is in point `t`'s block iff each coordinate is in the block's range on its axis. -/
theorem mem_blk6_3 (t : Fin cfg6.N) (i : S2000000x1.Idx) :
    i ∈ ((cfg6.win 3).blk t).view.set ↔ ∀ a : Fin 2, win6_3.index t a * S5000x1.size a ≤ (i a).val ∧ (i a).val < win6_3.index t a * S5000x1.size a + S5000x1.size a := by
  show i ∈ ((View.whole main_v37_0).slice (win6_3.rect t)).set ↔ _
  rw [View.set_slice_whole, Rect.mem_set_unit]
  exact Iff.rfl

theorem mem_blk6_4 (t : Fin cfg6.N) (i : S2000000x64.Idx) :
    i ∈ ((cfg6.win 4).blk t).view.set ↔ ∀ a : Fin 2, win6_4.index t a * S5000x64.size a ≤ (i a).val ∧ (i a).val < win6_4.index t a * S5000x64.size a + S5000x64.size a := by
  show i ∈ ((View.whole main_v37_1).slice (win6_4.rect t)).set ↔ _
  rw [View.set_slice_whole, Rect.mem_set_unit]
  exact Iff.rfl

/-- Row `r` of the weights is written back by point `r / 5000`. -/
theorem covered6_3 (i : S2000000x1.Idx) :
    ∃ t : Fin cfg6.N, (cfg6.win 3).flush t = true ∧ i ∈ ((cfg6.win 3).blk t).view.set := by
  have hi0 : (i 0).val < 2000000 := (i 0).isLt
  have hi1 : (i 1).val < 1 := (i 1).isLt
  obtain ⟨t, ht⟩ : ∃ t : Fin cfg6.N, t.val = (i 0).val / 5000 :=
    ⟨⟨(i 0).val / 5000, by rw [show cfg6.N = 400 from N_6]; omega⟩, rfl⟩
  obtain ⟨e00, e01, e10, e11, e20, e21, e30, e31, e40, e41⟩ := idx_facts6 t
  refine ⟨t, flush6_3 t, ?_⟩
  rw [mem_blk6_3]
  intro a
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 1 ≤ (i 1).val ∧ (i 1).val < win6_3.index t (1 : Fin 2) * 1 + 1; omega

/-- Row `r` of the messages is written back by point `r / 5000`. -/
theorem covered6_4 (i : S2000000x64.Idx) :
    ∃ t : Fin cfg6.N, (cfg6.win 4).flush t = true ∧ i ∈ ((cfg6.win 4).blk t).view.set := by
  have hi0 : (i 0).val < 2000000 := (i 0).isLt
  have hi1 : (i 1).val < 64 := (i 1).isLt
  obtain ⟨t, ht⟩ : ∃ t : Fin cfg6.N, t.val = (i 0).val / 5000 :=
    ⟨⟨(i 0).val / 5000, by rw [show cfg6.N = 400 from N_6]; omega⟩, rfl⟩
  obtain ⟨e00, e01, e10, e11, e20, e21, e30, e31, e40, e41⟩ := idx_facts6 t
  refine ⟨t, flush6_4 t, ?_⟩
  rw [mem_blk6_4]
  intro a
  match a with
  | ⟨0, _⟩ => show win6_4.index t (0 : Fin 2) * 5000 ≤ (i 0).val ∧ (i 0).val < win6_4.index t (0 : Fin 2) * 5000 + 5000; omega
  | ⟨1, _⟩ => show win6_4.index t (1 : Fin 2) * 64 ≤ (i 1).val ∧ (i 1).val < win6_4.index t (1 : Fin 2) * 64 + 64; omega

/-- REGION 6, the weights: after the region the array holds `exp(leaky(s + t))` of the score columns it found. -/
theorem region6_out3 (c : Dev nD) :
    ((dat6 (F := Ideal) V c).arrAt 3 cfg6.N : E1)
      = edgeW (V c (Pipeline.arrRef spec6 0)) (V c (Pipeline.arrRef spec6 1)) :=
  (dat6 (F := Ideal) V c).arrAt_eq_of_cover 3 _ (fun t _ => flushed6_3_eq V c t) covered6_3

/-- REGION 6, the messages: after the region the array holds weight times feature row of the arrays it found. -/
theorem region6_out4 (c : Dev nD) :
    ((dat6 (F := Ideal) V c).arrAt 4 cfg6.N : E64)
      = edgeWH (V c (Pipeline.arrRef spec6 0)) (V c (Pipeline.arrRef spec6 1)) (V c (Pipeline.arrRef spec6 2)) :=
  (dat6 (F := Ideal) V c).arrAt_eq_of_cover 4 _ (fun t _ => flushed6_4_eq V c t) covered6_4

end Region6

end Cert.EdgeRegions

end
-- ==== Proof.EdgeRegion8.lean ====
/-
  Edge region 8 of the kernel, read as whole arrays.

  An edge region walks the edges in 400 blocks of 5000.  At every block it reads the source scores, the target scores and
  the targets' feature rows of the block's edges and writes, for each edge `e`, the weight `exp(leaky(s(e) + t(e)))`
  and the message `weight(e) · h(e, ·)`.  Every window moves with the block number, so the array a region leaves is
  the edge stage's function of the arrays the region finds, index by index.
-/
import proofs.«154843_j76682346102829_2_alg».proof.Proof.Gen.KernelIdeal.Frame
import proofs.«154843_j76682346102829_2_alg».proof.Proof.ScoreEdgeSpec
import proofs.«154843_j76682346102829_2_alg».proof.Proof.LibBroadcast
import Idealize.ShloMosaic.Lib.Pipeline.Value

set_option maxRecDepth 16384

noncomputable section

namespace Cert.EdgeRegions

open Cert.KernelIdeal Cert.KernelIdeal.Gen Idealize.ShloMosaic Idealize.ShloMosaic.TcCoe Idealize.SL.Sem
open Idealize.ShloMosaic.ValueIdx Cert.ScoreEdge
open Cert.Net (N64 B64 N1 E1 E64)
open Idealize.ShloMosaic.Pipeline (Dat)

theorem hz2_8 : (![0, 0] : Fin 2 → Nat) = fun _ => 0 := funext fun a => by fin_cases a <;> rfl

/-! ## The body's arithmetic at an index -/

/-- Region 8: the weight payload, entry by entry, is `exp(leaky(s + t))` of the two loaded columns. -/
theorem k8_pay1_eq (x0 x1 : Vec Ideal S5000x1 .f32) :
    k8_pay1 (F := Ideal) x0 x1 = fun i => expLeaky (x0 i + x1 i) := by
  unfold k8_pay1
  simp only [shapeCast_self]
  rfl

/-- Region 8: the message payload at `(p, q)` is the weight of row `p` times the loaded feature entry. -/
theorem k8_pay2_apply (x0 x1 : Vec Ideal S5000x1 .f32) (x2 : Vec Ideal S5000x64 .f32) (p : Fin 5000) (q : Fin 64) :
    k8_pay2 (F := Ideal) x0 x1 x2 (ix2 p q)
      = expLeaky (x0 (ix2 p (0 : Fin 1)) + x1 (ix2 p (0 : Fin 1))) * x2 (ix2 p q) := by
  unfold k8_pay2
  show broadcastTo S5000x64 (k8_pay1 (F := Ideal) x0 x1) broadcasts_S5000x1_S5000x64 (ix2 p q)
      * shapeCast S5000x64 x2 shapeCasts_S5000x64_S5000x64 (ix2 p q) = _
  rw [Cert.Layout.broadcastTo_a1_ab_apply, shapeCast_self, k8_pay1_eq]

theorem k8_pay2_eq (x0 x1 : Vec Ideal S5000x1 .f32) (x2 : Vec Ideal S5000x64 .f32) :
    k8_pay2 (F := Ideal) x0 x1 x2
      = fun i => expLeaky (x0 (ix2 (i 0 : Fin 5000) (0 : Fin 1)) + x1 (ix2 (i 0 : Fin 5000) (0 : Fin 1))) * x2 i := by
  funext i
  obtain ⟨p, q, rfl⟩ : ∃ (p : Fin 5000) (q : Fin 64), i = ix2 p q := ⟨i 0, i 1, eq_ix2 i⟩
  exact k8_pay2_apply x0 x1 x2 p q

/-- Region 8: a block entry of the weights is the edge weight of the arrays where the loaded blocks sit in them. -/
theorem k8_w_block (A0 A1 : E1) (x0 x1 : Vec Ideal S5000x1 .f32) (y : S5000x1.Idx) (i : S2000000x1.Idx)
    (h0 : x0 y = A0 i) (h1 : x1 y = A1 i) : k8_pay1 (F := Ideal) x0 x1 y = edgeW A0 A1 i := by
  rw [k8_pay1_eq]
  show expLeaky (x0 y + x1 y) = expLeaky ((A0 i : EReal) + (A1 i : EReal))
  rw [h0, h1]

/-- Region 8: a block entry of the messages is the edge message of the arrays where the loaded blocks sit in them. -/
theorem k8_wh_block (A0 A1 : E1) (A2 : E64) (x0 x1 : Vec Ideal S5000x1 .f32) (x2 : Vec Ideal S5000x64 .f32)
    (y : S5000x64.Idx) (i : S2000000x64.Idx)
    (h0 : x0 (ix2 (y 0 : Fin 5000) (0 : Fin 1)) = A0 (ix2 (i 0 : Fin 2000000) (0 : Fin 1)))
    (h1 : x1 (ix2 (y 0 : Fin 5000) (0 : Fin 1)) = A1 (ix2 (i 0 : Fin 2000000) (0 : Fin 1)))
    (h2 : x2 y = A2 i) : k8_pay2 (F := Ideal) x0 x1 x2 y = edgeWH A0 A1 A2 i := by
  rw [k8_pay2_eq]
  show expLeaky (x0 (ix2 (y 0 : Fin 5000) (0 : Fin 1)) + x1 (ix2 (y 0 : Fin 5000) (0 : Fin 1))) * x2 y
      = expLeaky ((A0 (ix2 (i 0 : Fin 2000000) (0 : Fin 1)) : EReal) + (A1 (ix2 (i 0 : Fin 2000000) (0 : Fin 1)) : EReal)) * (A2 i : EReal)
  rw [h0, h1, h2]

/-! ## Region 8 -/

section Region8
variable (V : (c : Dev nD) → (b : Ref sig .tc) → Buf (Elt Ideal) ((c : Thread nD τ).loc b))

/-- Every window of region 8 sits, at point `t`, on block `t` of its array's rows and on the whole second axis. -/
theorem idx_facts8 : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = t.val ∧ win8_3.index t (1 : Fin 2) = 0
    ∧ win8_4.index t (0 : Fin 2) = t.val ∧ win8_4.index t (1 : Fin 2) = 0 :=
  (by decide +kernel : ∀ t : Fin grid8.N, _)

/-- Region 8, window 0: an entry of the block at point `t` is the array's entry `5000·t` rows further down. -/
theorem iblk8_0_apply (c : Dev nD) (t : Fin cfg8.N) (y : S5000x1.Idx) (i : S2000000x1.Idx)
    (h0 : (i 0).val = t.val * 5000 + (y 0).val) (h1 : (i 1).val = (y 1).val) :
    (iblk8 V c 0 t : Vec Ideal S5000x1 .f32) y = (V c (Pipeline.arrRef spec8 0) : E1) i := by
  obtain ⟨e00, e01, e10, e11, e20, e21, e30, e31, e40, e41⟩ := idx_facts8 t
  show (V c (Pipeline.arrRef spec8 0) : E1) _ = (V c (Pipeline.arrRef spec8 0) : E1) i
  refine congrArg _ ?_
  funext a; apply Fin.ext
  match a with
  | ⟨0, _⟩ => show win8_0.index t (0 : Fin 2) * 5000 + 1 * (y 0).val = (i 0).val; omega
  | ⟨1, _⟩ => show win8_0.index t (1 : Fin 2) * 1 + 1 * (y 1).val = (i 1).val; omega

/-- Region 8, window 1: an entry of the block at point `t` is the array's entry `5000·t` rows further down. -/
theorem iblk8_1_apply (c : Dev nD) (t : Fin cfg8.N) (y : S5000x1.Idx) (i : S2000000x1.Idx)
    (h0 : (i 0).val = t.val * 5000 + (y 0).val) (h1 : (i 1).val = (y 1).val) :
    (iblk8 V c 1 t : Vec Ideal S5000x1 .f32) y = (V c (Pipeline.arrRef spec8 1) : E1) i := by
  obtain ⟨e00, e01, e10, e11, e20, e21, e30, e31, e40, e41⟩ := idx_facts8 t
  show (V c (Pipeline.arrRef spec8 1) : E1) _ = (V c (Pipeline.arrRef spec8 1) : E1) i
  refine congrArg _ ?_
  funext a; apply Fin.ext
  match a with
  | ⟨0, _⟩ => show win8_1.index t (0 : Fin 2) * 5000 + 1 * (y 0).val = (i 0).val; omega
  | ⟨1, _⟩ => show win8_1.index t (1 : Fin 2) * 1 + 1 * (y 1).val = (i 1).val; omega

/-- Region 8, window 2: an entry of the block at point `t` is the array's entry `5000·t` rows further down. -/
theorem iblk8_2_apply (c : Dev nD) (t : Fin cfg8.N) (y : S5000x64.Idx) (i : S2000000x64.Idx)
    (h0 : (i 0).val = t.val * 5000 + (y 0).val) (h1 : (i 1).val = (y 1).val) :
    (iblk8 V c 2 t : Vec Ideal S5000x64 .f32) y = (V c (Pipeline.arrRef spec8 2) : E64) i := by
  obtain ⟨e00, e01, e10, e11, e20, e21, e30, e31, e40, e41⟩ := idx_facts8 t
  show (V c (Pipeline.arrRef spec8 2) : E64) _ = (V c (Pipeline.arrRef spec8 2) : E64) i
  refine congrArg _ ?_
  funext a; apply Fin.ext
  match a with
  | ⟨0, _⟩ => show win8_2.index t (0 : Fin 2) * 5000 + 1 * (y 0).val = (i 0).val; omega
  | ⟨1, _⟩ => show win8_2.index t (1 : Fin 2) * 64 + 1 * (y 1).val = (i 1).val; omega

/-- What point `t` writes back to the weights is block `t` of the edge weights of the arrays the region finds. -/
theorem flushed8_3_eq (c : Dev nD) (t : Fin cfg8.N) :
    (dat8 (F := Ideal) V c).flushed 3 t = ((cfg8.win 3).blk t).view.read (Elt Ideal)
      (edgeW (V c (Pipeline.arrRef spec8 0)) (V c (Pipeline.arrRef spec8 1))) := by
  show (cfg8.win 3).cut (grid8.coords t) ((dat8 (F := Ideal) V c).after 3 t) = _
  rw [after8_3]
  unfold out8_3
  rw [View.canon_unit_zero hz2_8]
  simp only [View.ld_unit_zero (S := S5000x1) hz2_8]
  obtain ⟨e00, e01, e10, e11, e20, e21, e30, e31, e40, e41⟩ := idx_facts8 t
  funext j
  have g0 : ((((cfg8.win 3).blk t).view.emb j) 0).val = t.val * 5000 + (j 0).val := by
    show win8_3.index t (0 : Fin 2) * 5000 + 1 * (j 0).val = _; omega
  have g1 : ((((cfg8.win 3).blk t).view.emb j) 1).val = (j 1).val := by
    show win8_3.index t (1 : Fin 2) * 1 + 1 * (j 1).val = _; omega
  exact k8_w_block (V c (Pipeline.arrRef spec8 0)) (V c (Pipeline.arrRef spec8 1)) (iblk8 V c 0 t) (iblk8 V c 1 t) j (((cfg8.win 3).blk t).view.emb j)
    (iblk8_0_apply V c t j (((cfg8.win 3).blk t).view.emb j) g0 g1) (iblk8_1_apply V c t j (((cfg8.win 3).blk t).view.emb j) g0 g1)

/-- What point `t` writes back to the messages is block `t` of the edge messages of the arrays the region finds. -/
theorem flushed8_4_eq (c : Dev nD) (t : Fin cfg8.N) :
    (dat8 (F := Ideal) V c).flushed 4 t = ((cfg8.win 4).blk t).view.read (Elt Ideal)
      (edgeWH (V c (Pipeline.arrRef spec8 0)) (V c (Pipeline.arrRef spec8 1)) (V c (Pipeline.arrRef spec8 2))) := by
  show (cfg8.win 4).cut (grid8.coords t) ((dat8 (F := Ideal) V c).after 4 t) = _
  rw [after8_4]
  unfold out8_4
  rw [View.canon_unit_zero hz2_8]
  simp only [View.ld_unit_zero (S := S5000x1) hz2_8, View.ld_unit_zero (S := S5000x64) hz2_8]
  obtain ⟨e00, e01, e10, e11, e20, e21, e30, e31, e40, e41⟩ := idx_facts8 t
  funext j
  have g0 : ((((cfg8.win 4).blk t).view.emb j) 0).val = t.val * 5000 + (j 0).val := by
    show win8_4.index t (0 : Fin 2) * 5000 + 1 * (j 0).val = _; omega
  have g1 : ((((cfg8.win 4).blk t).view.emb j) 1).val = (j 1).val := by
    show win8_4.index t (1 : Fin 2) * 64 + 1 * (j 1).val = _; omega
  exact k8_wh_block (V c (Pipeline.arrRef spec8 0)) (V c (Pipeline.arrRef spec8 1)) (V c (Pipeline.arrRef spec8 2)) (iblk8 V c 0 t) (iblk8 V c 1 t) (iblk8 V c 2 t) j (((cfg8.win 4).blk t).view.emb j)
    (iblk8_0_apply V c t (ix2 (j 0 : Fin 5000) (0 : Fin 1)) (ix2 ((((cfg8.win 4).blk t).view.emb j) 0 : Fin 2000000) (0 : Fin 1)) g0 rfl)
    (iblk8_1_apply V c t (ix2 (j 0 : Fin 5000) (0 : Fin 1)) (ix2 ((((cfg8.win 4).blk t).view.emb j) 0 : Fin 2000000) (0 : Fin 1)) g0 rfl)
    (iblk8_2_apply V c t j (((cfg8.win 4).blk t).view.emb j) g0 g1)

/-- An index of the weights is in point `t`'s block iff each coordinate is in the block's range on its axis. -/
theorem mem_blk8_3 (t : Fin cfg8.N) (i : S2000000x1.Idx) :
    i ∈ ((cfg8.win 3).blk t).view.set ↔ ∀ a : Fin 2, win8_3.index t a * S5000x1.size a ≤ (i a).val ∧ (i a).val < win8_3.index t a * S5000x1.size a + S5000x1.size a := by
  show i ∈ ((View.whole main_v48_0).slice (win8_3.rect t)).set ↔ _
  rw [View.set_slice_whole, Rect.mem_set_unit]
  exact Iff.rfl

theorem mem_blk8_4 (t : Fin cfg8.N) (i : S2000000x64.Idx) :
    i ∈ ((cfg8.win 4).blk t).view.set ↔ ∀ a : Fin 2, win8_4.index t a * S5000x64.size a ≤ (i a).val ∧ (i a).val < win8_4.index t a * S5000x64.size a + S5000x64.size a := by
  show i ∈ ((View.whole main_v48_1).slice (win8_4.rect t)).set ↔ _
  rw [View.set_slice_whole, Rect.mem_set_unit]
  exact Iff.rfl

/-- Row `r` of the weights is written back by point `r / 5000`. -/
theorem covered8_3 (i : S2000000x1.Idx) :
    ∃ t : Fin cfg8.N, (cfg8.win 3).flush t = true ∧ i ∈ ((cfg8.win 3).blk t).view.set := by
  have hi0 : (i 0).val < 2000000 := (i 0).isLt
  have hi1 : (i 1).val < 1 := (i 1).isLt
  obtain ⟨t, ht⟩ : ∃ t : Fin cfg8.N, t.val = (i 0).val / 5000 :=
    ⟨⟨(i 0).val / 5000, by rw [show cfg8.N = 400 from N_8]; omega⟩, rfl⟩
  obtain ⟨e00, e01, e10, e11, e20, e21, e30, e31, e40, e41⟩ := idx_facts8 t
  refine ⟨t, flush8_3 t, ?_⟩
  rw [mem_blk8_3]
  intro a
  match a with
  | ⟨0, _⟩ => show win8_3.index t (0 : Fin 2) * 5000 ≤ (i 0).val ∧ (i 0).val < win8_3.index t (0 : Fin 2) * 5000 + 5000; omega
  | ⟨1, _⟩ => show win8_3.index t (1 : Fin 2) * 1 ≤ (i 1).val ∧ (i 1).val < win8_3.index t (1 : Fin 2) * 1 + 1; omega

/-- Row `r` of the messages is written back by point `r / 5000`. -/
theorem covered8_4 (i : S2000000x64.Idx) :
    ∃ t : Fin cfg8.N, (cfg8.win 4).flush t = true ∧ i ∈ ((cfg8.win 4).blk t).view.set := by
  have hi0 : (i 0).val < 2000000 := (i 0).isLt
  have hi1 : (i 1).val < 64 := (i 1).isLt
  obtain ⟨t, ht⟩ : ∃ t : Fin cfg8.N, t.val = (i 0).val / 5000 :=
    ⟨⟨(i 0).val / 5000, by rw [show cfg8.N = 400 from N_8]; omega⟩, rfl⟩
  obtain ⟨e00, e01, e10, e11, e20, e21, e30, e31, e40, e41⟩ := idx_facts8 t
  refine ⟨t, flush8_4 t, ?_⟩
  rw [mem_blk8_4]
  intro a
  match a with
  | ⟨0, _⟩ => show win8_4.index t (0 : Fin 2) * 5000 ≤ (i 0).val ∧ (i 0).val < win8_4.index t (0 : Fin 2) * 5000 + 5000; omega
  | ⟨1, _⟩ => show win8_4.index t (1 : Fin 2) * 64 ≤ (i 1).val ∧ (i 1).val < win8_4.index t (1 : Fin 2) * 64 + 64; omega

/-- REGION 8, the weights: after the region the array holds `exp(leaky(s + t))` of the score columns it found. -/
theorem region8_out3 (c : Dev nD) :
    ((dat8 (F := Ideal) V c).arrAt 3 cfg8.N : E1)
      = edgeW (V c (Pipeline.arrRef spec8 0)) (V c (Pipeline.arrRef spec8 1)) :=
  (dat8 (F := Ideal) V c).arrAt_eq_of_cover 3 _ (fun t _ => flushed8_3_eq V c t) covered8_3

/-- REGION 8, the messages: after the region the array holds weight times feature row of the arrays it found. -/
theorem region8_out4 (c : Dev nD) :
    ((dat8 (F := Ideal) V c).arrAt 4 cfg8.N : E64)
      = edgeWH (V c (Pipeline.arrRef spec8 0)) (V c (Pipeline.arrRef spec8 1)) (V c (Pipeline.arrRef spec8 2)) :=
  (dat8 (F := Ideal) V c).arrAt_eq_of_cover 4 _ (fun t _ => flushed8_4_eq V c t) covered8_4

end Region8

end Cert.EdgeRegions

end
-- ==== Proof.EdgeRegion14.lean ====
/-
  Edge region 14 of the kernel, read as whole arrays.

  An edge region walks the edges in 400 blocks of 5000.  At every block it reads the source scores, the target scores and
  the targets' feature rows of the block's edges and writes, for each edge `e`, the weight `exp(leaky(s(e) + t(e)))`
  and the message `weight(e) · h(e, ·)`.  Every window moves with the block number, so the array a region leaves is
  the edge stage's function of the arrays the region finds, index by index.
-/
import proofs.«154843_j76682346102829_2_alg».proof.Proof.Gen.KernelIdeal.Frame
import proofs.«154843_j76682346102829_2_alg».proof.Proof.ScoreEdgeSpec
import proofs.«154843_j76682346102829_2_alg».proof.Proof.LibBroadcast
import Idealize.ShloMosaic.Lib.Pipeline.Value

set_option maxRecDepth 16384

noncomputable section

namespace Cert.EdgeRegions

open Cert.KernelIdeal Cert.KernelIdeal.Gen Idealize.ShloMosaic Idealize.ShloMosaic.TcCoe Idealize.SL.Sem
open Idealize.ShloMosaic.ValueIdx Cert.ScoreEdge
open Cert.Net (N64 B64 N1 E1 E64)
open Idealize.ShloMosaic.Pipeline (Dat)

theorem hz2_14 : (![0, 0] : Fin 2 → Nat) = fun _ => 0 := funext fun a => by fin_cases a <;> rfl

/-! ## The body's arithmetic at an index -/

/-- Region 14: the weight payload, entry by entry, is `exp(leaky(s + t))` of the two loaded columns. -/
theorem k14_pay1_eq (x0 x1 : Vec Ideal S5000x1 .f32) :
    k14_pay1 (F := Ideal) x0 x1 = fun i => expLeaky (x0 i + x1 i) := by
  unfold k14_pay1
  simp only [shapeCast_self]
  rfl

/-- Region 14: the message payload at `(p, q)` is the weight of row `p` times the loaded feature entry. -/
theorem k14_pay2_apply (x0 x1 : Vec Ideal S5000x1 .f32) (x2 : Vec Ideal S5000x64 .f32) (p : Fin 5000) (q : Fin 64) :
    k14_pay2 (F := Ideal) x0 x1 x2 (ix2 p q)
      = expLeaky (x0 (ix2 p (0 : Fin 1)) + x1 (ix2 p (0 : Fin 1))) * x2 (ix2 p q) := by
  unfold k14_pay2
  show broadcastTo S5000x64 (k14_pay1 (F := Ideal) x0 x1) broadcasts_S5000x1_S5000x64 (ix2 p q)
      * shapeCast S5000x64 x2 shapeCasts_S5000x64_S5000x64 (ix2 p q) = _
  rw [Cert.Layout.broadcastTo_a1_ab_apply, shapeCast_self, k14_pay1_eq]

theorem k14_pay2_eq (x0 x1 : Vec Ideal S5000x1 .f32) (x2 : Vec Ideal S5000x64 .f32) :
    k14_pay2 (F := Ideal) x0 x1 x2
      = fun i => expLeaky (x0 (ix2 (i 0 : Fin 5000) (0 : Fin 1)) + x1 (ix2 (i 0 : Fin 5000) (0 : Fin 1))) * x2 i := by
  funext i
  obtain ⟨p, q, rfl⟩ : ∃ (p : Fin 5000) (q : Fin 64), i = ix2 p q := ⟨i 0, i 1, eq_ix2 i⟩
  exact k14_pay2_apply x0 x1 x2 p q

/-- Region 14: a block entry of the weights is the edge weight of the arrays where the loaded blocks sit in them. -/
theorem k14_w_block (A0 A1 : E1) (x0 x1 : Vec Ideal S5000x1 .f32) (y : S5000x1.Idx) (i : S2000000x1.Idx)
    (h0 : x0 y = A0 i) (h1 : x1 y = A1 i) : k14_pay1 (F := Ideal) x0 x1 y = edgeW A0 A1 i := by
  rw [k14_pay1_eq]
  show expLeaky (x0 y + x1 y) = expLeaky ((A0 i : EReal) + (A1 i : EReal))
  rw [h0, h1]

/-- Region 14: a block entry of the messages is the edge message of the arrays where the loaded blocks sit in them. -/
theorem k14_wh_block (A0 A1 : E1) (A2 : E64) (x0 x1 : Vec Ideal S5000x1 .f32) (x2 : Vec Ideal S5000x64 .f32)
    (y : S5000x64.Idx) (i : S2000000x64.Idx)
    (h0 : x0 (ix2 (y 0 : Fin 5000) (0 : Fin 1)) = A0 (ix2 (i 0 : Fin 2000000) (0 : Fin 1)))
    (h1 : x1 (ix2 (y 0 : Fin 5000) (0 : Fin 1)) = A1 (ix2 (i 0 : Fin 2000000) (0 : Fin 1)))
    (h2 : x2 y = A2 i) : k14_pay2 (F := Ideal) x0 x1 x2 y = edgeWH A0 A1 A2 i := by
  rw [k14_pay2_eq]
  show expLeaky (x0 (ix2 (y 0 : Fin 5000) (0 : Fin 1)) + x1 (ix2 (y 0 : Fin 5000) (0 : Fin 1))) * x2 y
      = expLeaky ((A0 (ix2 (i 0 : Fin 2000000) (0 : Fin 1)) : EReal) + (A1 (ix2 (i 0 : Fin 2000000) (0 : Fin 1)) : EReal)) * (A2 i : EReal)
  rw [h0, h1, h2]

/-! ## Region 14 -/

section Region14
variable (V : (c : Dev nD) → (b : Ref sig .tc) → Buf (Elt Ideal) ((c : Thread nD τ).loc b))

/-- Every window of region 14 sits, at point `t`, on block `t` of its array's rows and on the whole second axis. -/
theorem idx_facts14 : ∀ t : Fin cfg14.N,
    win14_0.index t (0 : Fin 2) = t.val ∧ win14_0.index t (1 : Fin 2) = 0
    ∧ win14_1.index t (0 : Fin 2) = t.val ∧ win14_1.index t (1 : Fin 2) = 0
    ∧ win14_2.index t (0 : Fin 2) = t.val ∧ win14_2.index t (1 : Fin 2) = 0
    ∧ win14_3.index t (0 : Fin 2) = t.val ∧ win14_3.index t (1 : Fin 2) = 0
    ∧ win14_4.index t (0 : Fin 2) = t.val ∧ win14_4.index t (1 : Fin 2) = 0 :=
  (by decide +kernel : ∀ t : Fin grid14.N, _)

/-- Region 14, window 0: an entry of the block at point `t` is the array's entry `5000·t` rows further down. -/
theorem iblk14_0_apply (c : Dev nD) (t : Fin cfg14.N) (y : S5000x1.Idx) (i : S2000000x1.Idx)
    (h0 : (i 0).val = t.val * 5000 + (y 0).val) (h1 : (i 1).val = (y 1).val) :
    (iblk14 V c 0 t : Vec Ideal S5000x1 .f32) y = (V c (Pipeline.arrRef spec14 0) : E1) i := by
  obtain ⟨e00, e01, e10, e11, e20, e21, e30, e31, e40, e41⟩ := idx_facts14 t
  show (V c (Pipeline.arrRef spec14 0) : E1) _ = (V c (Pipeline.arrRef spec14 0) : E1) i
  refine congrArg _ ?_
  funext a; apply Fin.ext
  match a with
  | ⟨0, _⟩ => show win14_0.index t (0 : Fin 2) * 5000 + 1 * (y 0).val = (i 0).val; omega
  | ⟨1, _⟩ => show win14_0.index t (1 : Fin 2) * 1 + 1 * (y 1).val = (i 1).val; omega

/-- Region 14, window 1: an entry of the block at point `t` is the array's entry `5000·t` rows further down. -/
theorem iblk14_1_apply (c : Dev nD) (t : Fin cfg14.N) (y : S5000x1.Idx) (i : S2000000x1.Idx)
    (h0 : (i 0).val = t.val * 5000 + (y 0).val) (h1 : (i 1).val = (y 1).val) :
    (iblk14 V c 1 t : Vec Ideal S5000x1 .f32) y = (V c (Pipeline.arrRef spec14 1) : E1) i := by
  obtain ⟨e00, e01, e10, e11, e20, e21, e30, e31, e40, e41⟩ := idx_facts14 t
  show (V c (Pipeline.arrRef spec14 1) : E1) _ = (V c (Pipeline.arrRef spec14 1) : E1) i
  refine congrArg _ ?_
  funext a; apply Fin.ext
  match a with
  | ⟨0, _⟩ => show win14_1.index t (0 : Fin 2) * 5000 + 1 * (y 0).val = (i 0).val; omega
  | ⟨1, _⟩ => show win14_1.index t (1 : Fin 2) * 1 + 1 * (y 1).val = (i 1).val; omega

/-- Region 14, window 2: an entry of the block at point `t` is the array's entry `5000·t` rows further down. -/
theorem iblk14_2_apply (c : Dev nD) (t : Fin cfg14.N) (y : S5000x64.Idx) (i : S2000000x64.Idx)
    (h0 : (i 0).val = t.val * 5000 + (y 0).val) (h1 : (i 1).val = (y 1).val) :
    (iblk14 V c 2 t : Vec Ideal S5000x64 .f32) y = (V c (Pipeline.arrRef spec14 2) : E64) i := by
  obtain ⟨e00, e01, e10, e11, e20, e21, e30, e31, e40, e41⟩ := idx_facts14 t
  show (V c (Pipeline.arrRef spec14 2) : E64) _ = (V c (Pipeline.arrRef spec14 2) : E64) i
  refine congrArg _ ?_
  funext a; apply Fin.ext
  match a with
  | ⟨0, _⟩ => show win14_2.index t (0 : Fin 2) * 5000 + 1 * (y 0).val = (i 0).val; omega
  | ⟨1, _⟩ => show win14_2.index t (1 : Fin 2) * 64 + 1 * (y 1).val = (i 1).val; omega

/-- What point `t` writes back to the weights is block `t` of the edge weights of the arrays the region finds. -/
theorem flushed14_3_eq (c : Dev nD) (t : Fin cfg14.N) :
    (dat14 (F := Ideal) V c).flushed 3 t = ((cfg14.win 3).blk t).view.read (Elt Ideal)
      (edgeW (V c (Pipeline.arrRef spec14 0)) (V c (Pipeline.arrRef spec14 1))) := by
  show (cfg14.win 3).cut (grid14.coords t) ((dat14 (F := Ideal) V c).after 3 t) = _
  rw [after14_3]
  unfold out14_3
  rw [View.canon_unit_zero hz2_14]
  simp only [View.ld_unit_zero (S := S5000x1) hz2_14]
  obtain ⟨e00, e01, e10, e11, e20, e21, e30, e31, e40, e41⟩ := idx_facts14 t
  funext j
  have g0 : ((((cfg14.win 3).blk t).view.emb j) 0).val = t.val * 5000 + (j 0).val := by
    show win14_3.index t (0 : Fin 2) * 5000 + 1 * (j 0).val = _; omega
  have g1 : ((((cfg14.win 3).blk t).view.emb j) 1).val = (j 1).val := by
    show win14_3.index t (1 : Fin 2) * 1 + 1 * (j 1).val = _; omega
  exact k14_w_block (V c (Pipeline.arrRef spec14 0)) (V c (Pipeline.arrRef spec14 1)) (iblk14 V c 0 t) (iblk14 V c 1 t) j (((cfg14.win 3).blk t).view.emb j)
    (iblk14_0_apply V c t j (((cfg14.win 3).blk t).view.emb j) g0 g1) (iblk14_1_apply V c t j (((cfg14.win 3).blk t).view.emb j) g0 g1)

/-- What point `t` writes back to the messages is block `t` of the edge messages of the arrays the region finds. -/
theorem flushed14_4_eq (c : Dev nD) (t : Fin cfg14.N) :
    (dat14 (F := Ideal) V c).flushed 4 t = ((cfg14.win 4).blk t).view.read (Elt Ideal)
      (edgeWH (V c (Pipeline.arrRef spec14 0)) (V c (Pipeline.arrRef spec14 1)) (V c (Pipeline.arrRef spec14 2))) := by
  show (cfg14.win 4).cut (grid14.coords t) ((dat14 (F := Ideal) V c).after 4 t) = _
  rw [after14_4]
  unfold out14_4
  rw [View.canon_unit_zero hz2_14]
  simp only [View.ld_unit_zero (S := S5000x1) hz2_14, View.ld_unit_zero (S := S5000x64) hz2_14]
  obtain ⟨e00, e01, e10, e11, e20, e21, e30, e31, e40, e41⟩ := idx_facts14 t
  funext j
  have g0 : ((((cfg14.win 4).blk t).view.emb j) 0).val = t.val * 5000 + (j 0).val := by
    show win14_4.index t (0 : Fin 2) * 5000 + 1 * (j 0).val = _; omega
  have g1 : ((((cfg14.win 4).blk t).view.emb j) 1).val = (j 1).val := by
    show win14_4.index t (1 : Fin 2) * 64 + 1 * (j 1).val = _; omega
  exact k14_wh_block (V c (Pipeline.arrRef spec14 0)) (V c (Pipeline.arrRef spec14 1)) (V c (Pipeline.arrRef spec14 2)) (iblk14 V c 0 t) (iblk14 V c 1 t) (iblk14 V c 2 t) j (((cfg14.win 4).blk t).view.emb j)
    (iblk14_0_apply V c t (ix2 (j 0 : Fin 5000) (0 : Fin 1)) (ix2 ((((cfg14.win 4).blk t).view.emb j) 0 : Fin 2000000) (0 : Fin 1)) g0 rfl)
    (iblk14_1_apply V c t (ix2 (j 0 : Fin 5000) (0 : Fin 1)) (ix2 ((((cfg14.win 4).blk t).view.emb j) 0 : Fin 2000000) (0 : Fin 1)) g0 rfl)
    (iblk14_2_apply V c t j (((cfg14.win 4).blk t).view.emb j) g0 g1)

/-- An index of the weights is in point `t`'s block iff each coordinate is in the block's range on its axis. -/
theorem mem_blk14_3 (t : Fin cfg14.N) (i : S2000000x1.Idx) :
    i ∈ ((cfg14.win 3).blk t).view.set ↔ ∀ a : Fin 2, win14_3.index t a * S5000x1.size a ≤ (i a).val ∧ (i a).val < win14_3.index t a * S5000x1.size a + S5000x1.size a := by
  show i ∈ ((View.whole main_v83_0).slice (win14_3.rect t)).set ↔ _
  rw [View.set_slice_whole, Rect.mem_set_unit]
  exact Iff.rfl

theorem mem_blk14_4 (t : Fin cfg14.N) (i : S2000000x64.Idx) :
    i ∈ ((cfg14.win 4).blk t).view.set ↔ ∀ a : Fin 2, win14_4.index t a * S5000x64.size a ≤ (i a).val ∧ (i a).val < win14_4.index t a * S5000x64.size a + S5000x64.size a := by
  show i ∈ ((View.whole main_v83_1).slice (win14_4.rect t)).set ↔ _
  rw [View.set_slice_whole, Rect.mem_set_unit]
  exact Iff.rfl

/-- Row `r` of the weights is written back by point `r / 5000`. -/
theorem covered14_3 (i : S2000000x1.Idx) :
    ∃ t : Fin cfg14.N, (cfg14.win 3).flush t = true ∧ i ∈ ((cfg14.win 3).blk t).view.set := by
  have hi0 : (i 0).val < 2000000 := (i 0).isLt
  have hi1 : (i 1).val < 1 := (i 1).isLt
  obtain ⟨t, ht⟩ : ∃ t : Fin cfg14.N, t.val = (i 0).val / 5000 :=
    ⟨⟨(i 0).val / 5000, by rw [show cfg14.N = 400 from N_14]; omega⟩, rfl⟩
  obtain ⟨e00, e01, e10, e11, e20, e21, e30, e31, e40, e41⟩ := idx_facts14 t
  refine ⟨t, flush14_3 t, ?_⟩
  rw [mem_blk14_3]
  intro a
  match a with
  | ⟨0, _⟩ => show win14_3.index t (0 : Fin 2) * 5000 ≤ (i 0).val ∧ (i 0).val < win14_3.index t (0 : Fin 2) * 5000 + 5000; omega
  | ⟨1, _⟩ => show win14_3.index t (1 : Fin 2) * 1 ≤ (i 1).val ∧ (i 1).val < win14_3.index t (1 : Fin 2) * 1 + 1; omega

/-- Row `r` of the messages is written back by point `r / 5000`. -/
theorem covered14_4 (i : S2000000x64.Idx) :
    ∃ t : Fin cfg14.N, (cfg14.win 4).flush t = true ∧ i ∈ ((cfg14.win 4).blk t).view.set := by
  have hi0 : (i 0).val < 2000000 := (i 0).isLt
  have hi1 : (i 1).val < 64 := (i 1).isLt
  obtain ⟨t, ht⟩ : ∃ t : Fin cfg14.N, t.val = (i 0).val / 5000 :=
    ⟨⟨(i 0).val / 5000, by rw [show cfg14.N = 400 from N_14]; omega⟩, rfl⟩
  obtain ⟨e00, e01, e10, e11, e20, e21, e30, e31, e40, e41⟩ := idx_facts14 t
  refine ⟨t, flush14_4 t, ?_⟩
  rw [mem_blk14_4]
  intro a
  match a with
  | ⟨0, _⟩ => show win14_4.index t (0 : Fin 2) * 5000 ≤ (i 0).val ∧ (i 0).val < win14_4.index t (0 : Fin 2) * 5000 + 5000; omega
  | ⟨1, _⟩ => show win14_4.index t (1 : Fin 2) * 64 ≤ (i 1).val ∧ (i 1).val < win14_4.index t (1 : Fin 2) * 64 + 64; omega

/-- REGION 14, the weights: after the region the array holds `exp(leaky(s + t))` of the score columns it found. -/
theorem region14_out3 (c : Dev nD) :
    ((dat14 (F := Ideal) V c).arrAt 3 cfg14.N : E1)
      = edgeW (V c (Pipeline.arrRef spec14 0)) (V c (Pipeline.arrRef spec14 1)) :=
  (dat14 (F := Ideal) V c).arrAt_eq_of_cover 3 _ (fun t _ => flushed14_3_eq V c t) covered14_3

/-- REGION 14, the messages: after the region the array holds weight times feature row of the arrays it found. -/
theorem region14_out4 (c : Dev nD) :
    ((dat14 (F := Ideal) V c).arrAt 4 cfg14.N : E64)
      = edgeWH (V c (Pipeline.arrRef spec14 0)) (V c (Pipeline.arrRef spec14 1)) (V c (Pipeline.arrRef spec14 2)) :=
  (dat14 (F := Ideal) V c).arrAt_eq_of_cover 4 _ (fun t _ => flushed14_4_eq V c t) covered14_4

end Region14

end Cert.EdgeRegions

end
-- ==== Proof.EdgeRegion16.lean ====
/-
  Edge region 16 of the kernel, read as whole arrays.

  An edge region walks the edges in 400 blocks of 5000.  At every block it reads the source scores, the target scores and
  the targets' feature rows of the block's edges and writes, for each edge `e`, the weight `exp(leaky(s(e) + t(e)))`
  and the message `weight(e) · h(e, ·)`.  Every window moves with the block number, so the array a region leaves is
  the edge stage's function of the arrays the region finds, index by index.
-/
import proofs.«154843_j76682346102829_2_alg».proof.Proof.Gen.KernelIdeal.Frame
import proofs.«154843_j76682346102829_2_alg».proof.Proof.ScoreEdgeSpec
import proofs.«154843_j76682346102829_2_alg».proof.Proof.LibBroadcast
import Idealize.ShloMosaic.Lib.Pipeline.Value

set_option maxRecDepth 16384

noncomputable section

namespace Cert.EdgeRegions

open Cert.KernelIdeal Cert.KernelIdeal.Gen Idealize.ShloMosaic Idealize.ShloMosaic.TcCoe Idealize.SL.Sem
open Idealize.ShloMosaic.ValueIdx Cert.ScoreEdge
open Cert.Net (N64 B64 N1 E1 E64)
open Idealize.ShloMosaic.Pipeline (Dat)

theorem hz2_16 : (![0, 0] : Fin 2 → Nat) = fun _ => 0 := funext fun a => by fin_cases a <;> rfl

/-! ## The body's arithmetic at an index -/

/-- Region 16: the weight payload, entry by entry, is `exp(leaky(s + t))` of the two loaded columns. -/
theorem k16_pay1_eq (x0 x1 : Vec Ideal S5000x1 .f32) :
    k16_pay1 (F := Ideal) x0 x1 = fun i => expLeaky (x0 i + x1 i) := by
  unfold k16_pay1
  simp only [shapeCast_self]
  rfl

/-- Region 16: the message payload at `(p, q)` is the weight of row `p` times the loaded feature entry. -/
theorem k16_pay2_apply (x0 x1 : Vec Ideal S5000x1 .f32) (x2 : Vec Ideal S5000x64 .f32) (p : Fin 5000) (q : Fin 64) :
    k16_pay2 (F := Ideal) x0 x1 x2 (ix2 p q)
      = expLeaky (x0 (ix2 p (0 : Fin 1)) + x1 (ix2 p (0 : Fin 1))) * x2 (ix2 p q) := by
  unfold k16_pay2
  show broadcastTo S5000x64 (k16_pay1 (F := Ideal) x0 x1) broadcasts_S5000x1_S5000x64 (ix2 p q)
      * shapeCast S5000x64 x2 shapeCasts_S5000x64_S5000x64 (ix2 p q) = _
  rw [Cert.Layout.broadcastTo_a1_ab_apply, shapeCast_self, k16_pay1_eq]

theorem k16_pay2_eq (x0 x1 : Vec Ideal S5000x1 .f32) (x2 : Vec Ideal S5000x64 .f32) :
    k16_pay2 (F := Ideal) x0 x1 x2
      = fun i => expLeaky (x0 (ix2 (i 0 : Fin 5000) (0 : Fin 1)) + x1 (ix2 (i 0 : Fin 5000) (0 : Fin 1))) * x2 i := by
  funext i
  obtain ⟨p, q, rfl⟩ : ∃ (p : Fin 5000) (q : Fin 64), i = ix2 p q := ⟨i 0, i 1, eq_ix2 i⟩
  exact k16_pay2_apply x0 x1 x2 p q

/-- Region 16: a block entry of the weights is the edge weight of the arrays where the loaded blocks sit in them. -/
theorem k16_w_block (A0 A1 : E1) (x0 x1 : Vec Ideal S5000x1 .f32) (y : S5000x1.Idx) (i : S2000000x1.Idx)
    (h0 : x0 y = A0 i) (h1 : x1 y = A1 i) : k16_pay1 (F := Ideal) x0 x1 y = edgeW A0 A1 i := by
  rw [k16_pay1_eq]
  show expLeaky (x0 y + x1 y) = expLeaky ((A0 i : EReal) + (A1 i : EReal))
  rw [h0, h1]

/-- Region 16: a block entry of the messages is the edge message of the arrays where the loaded blocks sit in them. -/
theorem k16_wh_block (A0 A1 : E1) (A2 : E64) (x0 x1 : Vec Ideal S5000x1 .f32) (x2 : Vec Ideal S5000x64 .f32)
    (y : S5000x64.Idx) (i : S2000000x64.Idx)
    (h0 : x0 (ix2 (y 0 : Fin 5000) (0 : Fin 1)) = A0 (ix2 (i 0 : Fin 2000000) (0 : Fin 1)))
    (h1 : x1 (ix2 (y 0 : Fin 5000) (0 : Fin 1)) = A1 (ix2 (i 0 : Fin 2000000) (0 : Fin 1)))
    (h2 : x2 y = A2 i) : k16_pay2 (F := Ideal) x0 x1 x2 y = edgeWH A0 A1 A2 i := by
  rw [k16_pay2_eq]
  show expLeaky (x0 (ix2 (y 0 : Fin 5000) (0 : Fin 1)) + x1 (ix2 (y 0 : Fin 5000) (0 : Fin 1))) * x2 y
      = expLeaky ((A0 (ix2 (i 0 : Fin 2000000) (0 : Fin 1)) : EReal) + (A1 (ix2 (i 0 : Fin 2000000) (0 : Fin 1)) : EReal)) * (A2 i : EReal)
  rw [h0, h1, h2]

/-! ## Region 16 -/

section Region16
variable (V : (c : Dev nD) → (b : Ref sig .tc) → Buf (Elt Ideal) ((c : Thread nD τ).loc b))

/-- Every window of region 16 sits, at point `t`, on block `t` of its array's rows and on the whole second axis. -/
theorem idx_facts16 : ∀ t : Fin cfg16.N,
    win16_0.index t (0 : Fin 2) = t.val ∧ win16_0.index t (1 : Fin 2) = 0
    ∧ win16_1.index t (0 : Fin 2) = t.val ∧ win16_1.index t (1 : Fin 2) = 0
    ∧ win16_2.index t (0 : Fin 2) = t.val ∧ win16_2.index t (1 : Fin 2) = 0
    ∧ win16_3.index t (0 : Fin 2) = t.val ∧ win16_3.index t (1 : Fin 2) = 0
    ∧ win16_4.index t (0 : Fin 2) = t.val ∧ win16_4.index t (1 : Fin 2) = 0 :=
  (by decide +kernel : ∀ t : Fin grid16.N, _)

/-- Region 16, window 0: an entry of the block at point `t` is the array's entry `5000·t` rows further down. -/
theorem iblk16_0_apply (c : Dev nD) (t : Fin cfg16.N) (y : S5000x1.Idx) (i : S2000000x1.Idx)
    (h0 : (i 0).val = t.val * 5000 + (y 0).val) (h1 : (i 1).val = (y 1).val) :
    (iblk16 V c 0 t : Vec Ideal S5000x1 .f32) y = (V c (Pipeline.arrRef spec16 0) : E1) i := by
  obtain ⟨e00, e01, e10, e11, e20, e21, e30, e31, e40, e41⟩ := idx_facts16 t
  show (V c (Pipeline.arrRef spec16 0) : E1) _ = (V c (Pipeline.arrRef spec16 0) : E1) i
  refine congrArg _ ?_
  funext a; apply Fin.ext
  match a with
  | ⟨0, _⟩ => show win16_0.index t (0 : Fin 2) * 5000 + 1 * (y 0).val = (i 0).val; omega
  | ⟨1, _⟩ => show win16_0.index t (1 : Fin 2) * 1 + 1 * (y 1).val = (i 1).val; omega

/-- Region 16, window 1: an entry of the block at point `t` is the array's entry `5000·t` rows further down. -/
theorem iblk16_1_apply (c : Dev nD) (t : Fin cfg16.N) (y : S5000x1.Idx) (i : S2000000x1.Idx)
    (h0 : (i 0).val = t.val * 5000 + (y 0).val) (h1 : (i 1).val = (y 1).val) :
    (iblk16 V c 1 t : Vec Ideal S5000x1 .f32) y = (V c (Pipeline.arrRef spec16 1) : E1) i := by
  obtain ⟨e00, e01, e10, e11, e20, e21, e30, e31, e40, e41⟩ := idx_facts16 t
  show (V c (Pipeline.arrRef spec16 1) : E1) _ = (V c (Pipeline.arrRef spec16 1) : E1) i
  refine congrArg _ ?_
  funext a; apply Fin.ext
  match a with
  | ⟨0, _⟩ => show win16_1.index t (0 : Fin 2) * 5000 + 1 * (y 0).val = (i 0).val; omega
  | ⟨1, _⟩ => show win16_1.index t (1 : Fin 2) * 1 + 1 * (y 1).val = (i 1).val; omega

/-- Region 16, window 2: an entry of the block at point `t` is the array's entry `5000·t` rows further down. -/
theorem iblk16_2_apply (c : Dev nD) (t : Fin cfg16.N) (y : S5000x64.Idx) (i : S2000000x64.Idx)
    (h0 : (i 0).val = t.val * 5000 + (y 0).val) (h1 : (i 1).val = (y 1).val) :
    (iblk16 V c 2 t : Vec Ideal S5000x64 .f32) y = (V c (Pipeline.arrRef spec16 2) : E64) i := by
  obtain ⟨e00, e01, e10, e11, e20, e21, e30, e31, e40, e41⟩ := idx_facts16 t
  show (V c (Pipeline.arrRef spec16 2) : E64) _ = (V c (Pipeline.arrRef spec16 2) : E64) i
  refine congrArg _ ?_
  funext a; apply Fin.ext
  match a with
  | ⟨0, _⟩ => show win16_2.index t (0 : Fin 2) * 5000 + 1 * (y 0).val = (i 0).val; omega
  | ⟨1, _⟩ => show win16_2.index t (1 : Fin 2) * 64 + 1 * (y 1).val = (i 1).val; omega

/-- What point `t` writes back to the weights is block `t` of the edge weights of the arrays the region finds. -/
theorem flushed16_3_eq (c : Dev nD) (t : Fin cfg16.N) :
    (dat16 (F := Ideal) V c).flushed 3 t = ((cfg16.win 3).blk t).view.read (Elt Ideal)
      (edgeW (V c (Pipeline.arrRef spec16 0)) (V c (Pipeline.arrRef spec16 1))) := by
  show (cfg16.win 3).cut (grid16.coords t) ((dat16 (F := Ideal) V c).after 3 t) = _
  rw [after16_3]
  unfold out16_3
  rw [View.canon_unit_zero hz2_16]
  simp only [View.ld_unit_zero (S := S5000x1) hz2_16]
  obtain ⟨e00, e01, e10, e11, e20, e21, e30, e31, e40, e41⟩ := idx_facts16 t
  funext j
  have g0 : ((((cfg16.win 3).blk t).view.emb j) 0).val = t.val * 5000 + (j 0).val := by
    show win16_3.index t (0 : Fin 2) * 5000 + 1 * (j 0).val = _; omega
  have g1 : ((((cfg16.win 3).blk t).view.emb j) 1).val = (j 1).val := by
    show win16_3.index t (1 : Fin 2) * 1 + 1 * (j 1).val = _; omega
  exact k16_w_block (V c (Pipeline.arrRef spec16 0)) (V c (Pipeline.arrRef spec16 1)) (iblk16 V c 0 t) (iblk16 V c 1 t) j (((cfg16.win 3).blk t).view.emb j)
    (iblk16_0_apply V c t j (((cfg16.win 3).blk t).view.emb j) g0 g1) (iblk16_1_apply V c t j (((cfg16.win 3).blk t).view.emb j) g0 g1)

/-- What point `t` writes back to the messages is block `t` of the edge messages of the arrays the region finds. -/
theorem flushed16_4_eq (c : Dev nD) (t : Fin cfg16.N) :
    (dat16 (F := Ideal) V c).flushed 4 t = ((cfg16.win 4).blk t).view.read (Elt Ideal)
      (edgeWH (V c (Pipeline.arrRef spec16 0)) (V c (Pipeline.arrRef spec16 1)) (V c (Pipeline.arrRef spec16 2))) := by
  show (cfg16.win 4).cut (grid16.coords t) ((dat16 (F := Ideal) V c).after 4 t) = _
  rw [after16_4]
  unfold out16_4
  rw [View.canon_unit_zero hz2_16]
  simp only [View.ld_unit_zero (S := S5000x1) hz2_16, View.ld_unit_zero (S := S5000x64) hz2_16]
  obtain ⟨e00, e01, e10, e11, e20, e21, e30, e31, e40, e41⟩ := idx_facts16 t
  funext j
  have g0 : ((((cfg16.win 4).blk t).view.emb j) 0).val = t.val * 5000 + (j 0).val := by
    show win16_4.index t (0 : Fin 2) * 5000 + 1 * (j 0).val = _; omega
  have g1 : ((((cfg16.win 4).blk t).view.emb j) 1).val = (j 1).val := by
    show win16_4.index t (1 : Fin 2) * 64 + 1 * (j 1).val = _; omega
  exact k16_wh_block (V c (Pipeline.arrRef spec16 0)) (V c (Pipeline.arrRef spec16 1)) (V c (Pipeline.arrRef spec16 2)) (iblk16 V c 0 t) (iblk16 V c 1 t) (iblk16 V c 2 t) j (((cfg16.win 4).blk t).view.emb j)
    (iblk16_0_apply V c t (ix2 (j 0 : Fin 5000) (0 : Fin 1)) (ix2 ((((cfg16.win 4).blk t).view.emb j) 0 : Fin 2000000) (0 : Fin 1)) g0 rfl)
    (iblk16_1_apply V c t (ix2 (j 0 : Fin 5000) (0 : Fin 1)) (ix2 ((((cfg16.win 4).blk t).view.emb j) 0 : Fin 2000000) (0 : Fin 1)) g0 rfl)
    (iblk16_2_apply V c t j (((cfg16.win 4).blk t).view.emb j) g0 g1)

/-- An index of the weights is in point `t`'s block iff each coordinate is in the block's range on its axis. -/
theorem mem_blk16_3 (t : Fin cfg16.N) (i : S2000000x1.Idx) :
    i ∈ ((cfg16.win 3).blk t).view.set ↔ ∀ a : Fin 2, win16_3.index t a * S5000x1.size a ≤ (i a).val ∧ (i a).val < win16_3.index t a * S5000x1.size a + S5000x1.size a := by
  show i ∈ ((View.whole main_v94_0).slice (win16_3.rect t)).set ↔ _
  rw [View.set_slice_whole, Rect.mem_set_unit]
  exact Iff.rfl

theorem mem_blk16_4 (t : Fin cfg16.N) (i : S2000000x64.Idx) :
    i ∈ ((cfg16.win 4).blk t).view.set ↔ ∀ a : Fin 2, win16_4.index t a * S5000x64.size a ≤ (i a).val ∧ (i a).val < win16_4.index t a * S5000x64.size a + S5000x64.size a := by
  show i ∈ ((View.whole main_v94_1).slice (win16_4.rect t)).set ↔ _
  rw [View.set_slice_whole, Rect.mem_set_unit]
  exact Iff.rfl

/-- Row `r` of the weights is written back by point `r / 5000`. -/
theorem covered16_3 (i : S2000000x1.Idx) :
    ∃ t : Fin cfg16.N, (cfg16.win 3).flush t = true ∧ i ∈ ((cfg16.win 3).blk t).view.set := by
  have hi0 : (i 0).val < 2000000 := (i 0).isLt
  have hi1 : (i 1).val < 1 := (i 1).isLt
  obtain ⟨t, ht⟩ : ∃ t : Fin cfg16.N, t.val = (i 0).val / 5000 :=
    ⟨⟨(i 0).val / 5000, by rw [show cfg16.N = 400 from N_16]; omega⟩, rfl⟩
  obtain ⟨e00, e01, e10, e11, e20, e21, e30, e31, e40, e41⟩ := idx_facts16 t
  refine ⟨t, flush16_3 t, ?_⟩
  rw [mem_blk16_3]
  intro a
  match a with
  | ⟨0, _⟩ => show win16_3.index t (0 : Fin 2) * 5000 ≤ (i 0).val ∧ (i 0).val < win16_3.index t (0 : Fin 2) * 5000 + 5000; omega
  | ⟨1, _⟩ => show win16_3.index t (1 : Fin 2) * 1 ≤ (i 1).val ∧ (i 1).val < win16_3.index t (1 : Fin 2) * 1 + 1; omega

/-- Row `r` of the messages is written back by point `r / 5000`. -/
theorem covered16_4 (i : S2000000x64.Idx) :
    ∃ t : Fin cfg16.N, (cfg16.win 4).flush t = true ∧ i ∈ ((cfg16.win 4).blk t).view.set := by
  have hi0 : (i 0).val < 2000000 := (i 0).isLt
  have hi1 : (i 1).val < 64 := (i 1).isLt
  obtain ⟨t, ht⟩ : ∃ t : Fin cfg16.N, t.val = (i 0).val / 5000 :=
    ⟨⟨(i 0).val / 5000, by rw [show cfg16.N = 400 from N_16]; omega⟩, rfl⟩
  obtain ⟨e00, e01, e10, e11, e20, e21, e30, e31, e40, e41⟩ := idx_facts16 t
  refine ⟨t, flush16_4 t, ?_⟩
  rw [mem_blk16_4]
  intro a
  match a with
  | ⟨0, _⟩ => show win16_4.index t (0 : Fin 2) * 5000 ≤ (i 0).val ∧ (i 0).val < win16_4.index t (0 : Fin 2) * 5000 + 5000; omega
  | ⟨1, _⟩ => show win16_4.index t (1 : Fin 2) * 64 ≤ (i 1).val ∧ (i 1).val < win16_4.index t (1 : Fin 2) * 64 + 64; omega

/-- REGION 16, the weights: after the region the array holds `exp(leaky(s + t))` of the score columns it found. -/
theorem region16_out3 (c : Dev nD) :
    ((dat16 (F := Ideal) V c).arrAt 3 cfg16.N : E1)
      = edgeW (V c (Pipeline.arrRef spec16 0)) (V c (Pipeline.arrRef spec16 1)) :=
  (dat16 (F := Ideal) V c).arrAt_eq_of_cover 3 _ (fun t _ => flushed16_3_eq V c t) covered16_3

/-- REGION 16, the messages: after the region the array holds weight times feature row of the arrays it found. -/
theorem region16_out4 (c : Dev nD) :
    ((dat16 (F := Ideal) V c).arrAt 4 cfg16.N : E64)
      = edgeWH (V c (Pipeline.arrRef spec16 0)) (V c (Pipeline.arrRef spec16 1)) (V c (Pipeline.arrRef spec16 2)) :=
  (dat16 (F := Ideal) V c).arrAt_eq_of_cover 4 _ (fun t _ => flushed16_4_eq V c t) covered16_4

end Region16

end Cert.EdgeRegions

end
-- ==== Proof.EdgeRegions.lean ====
/-
  The four edge regions of the kernel, read as whole arrays: regions 6 and 8 (first hop), 14 and 16 (second hop).
  Each leaves, in its two result arrays, the edge weights and the edge messages of the three arrays it finds.
-/
import proofs.«154843_j76682346102829_2_alg».proof.Proof.EdgeRegion6
import proofs.«154843_j76682346102829_2_alg».proof.Proof.EdgeRegion8
import proofs.«154843_j76682346102829_2_alg».proof.Proof.EdgeRegion14
import proofs.«154843_j76682346102829_2_alg».proof.Proof.EdgeRegion16
-- ==== Proof.LibRowFolds.lean ====
/-
  Reductions along the second axis of an `[a, b]` array, read at a row.

  At the ideal values a lane sum of row `p` is the sum of the row's entries, and a lane maximum the fold of `max` over
  them from the accumulator's value; the host's reduction by a commutative, associative operation is the same fold
  from its initial value.
-/
import Idealize.ShloMosaic.Lib.ValueIdx
import Idealize.ShloMosaic.PureOps.Ideal.Laws

noncomputable section

namespace Cert.RowFolds

open Idealize.ShloMosaic Idealize.ShloMosaic.ValueIdx

/-- Inserting coordinate `k` on the second axis of the one-coordinate index `p` gives `(p, k)`. -/
theorem lift_row {a b : ℕ} (h : Shape.Reduces ⟨2, ![a, b]⟩ [1] ⟨1, ![a]⟩) (p : Fin a) (k : Fin b) :
    h.lift (ix1 p) k = ix2 p k :=
  funext fun ax => Fin.ext (by match ax with | ⟨0, _⟩ => rfl | ⟨1, _⟩ => rfl)

/-- A lane sum over the second axis, at row `p`: the sum of the row. -/
theorem laneSum_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (lift_row h p k))

/-- A lane maximum over the second axis, at row `p`: the fold of `max` over the row from the accumulator's value. -/
theorem laneMax_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (Finset.fold max (Ideal.ofBits φ acc) · (Finset.univ : Finset (Fin b)))
      (funext fun k => congrArg v (lift_row h p k)))

/-- The host's reduction over the second axis by a commutative, associative operation, at row `p`: the fold over the
    row from the initial value. -/
theorem hostFold_apply {α : Type} {a b : ℕ} {u : Shape} (f : α → α → α) [Std.Commutative f] [Std.Associative f]
    (x : (⟨2, ![a, b]⟩ : Shape).Idx → α) (init : u.Idx → α) (h' : Shape.ReducesTo ⟨2, ![a, b]⟩ [1] ⟨1, ![a]⟩)
    (h : Shape.Reduces ⟨2, ![a, b]⟩ [1] ⟨1, ![a]⟩) (hu : 0 < u.numel) (p : Fin a) :
    Host.reduce f x init h' hu (ix1 p)
      = (Finset.univ : Finset (Fin b)).fold f (init (Shape.Idx.first hu)) (fun k => x (ix2 p k)) :=
  (Host.reduce_eq_fold_single f x init h' h hu (ix1 p)).trans
    (congrArg (Finset.fold f (init (Shape.Idx.first hu)) · (Finset.univ : Finset (Fin b)))
      (funext fun k => congrArg x (lift_row h p k)))

end Cert.RowFolds

end
-- ==== Proof.ScoreLane.lean ====
/-
  A row of a loaded block against a loaded vector, as the kernels compute it.

  The vector is re-laid as a one-row matrix and repeated down the block's rows, multiplied into the block entry by entry,
  and each row is summed along its lanes from the zero word; the sums are re-laid as a column.  Row `p` of that column
  is the sum over `k` of the block's `(p, k)` times the vector's `k`.
-/
import proofs.«154843_j76682346102829_2_alg».proof.Proof.Gen.KernelIdeal.Skeleton
import proofs.«154843_j76682346102829_2_alg».proof.Proof.LibBroadcast
import proofs.«154843_j76682346102829_2_alg».proof.Proof.LibRowFolds
import Idealize.ShloMosaic.Lib.Pipeline.Value
import Idealize.ShloMosaic.Lib.ValueLayout

set_option maxRecDepth 16384

noncomputable section

namespace Cert.ScoreRegions

open Cert.KernelIdeal Cert.KernelIdeal.Gen Idealize.ShloMosaic
open Idealize.ShloMosaic.ValueIdx

/-! ## The body's arithmetic at an index -/

/-- A vector laid along the rows of a block, multiplied into the block and summed along each row from the zero word, the
    sums re-laid as a column: row `p` holds the sum over `k` of the block's `(p, k)` times the vector's `k`. -/
theorem laneDot (v0 : Vec Ideal S5000x64 .f32) (a : Vec Ideal S64 .f32) (p : Fin 5000) :
    shapeCast S5000x1
        (multiReduction .add [1] S5000
          (mulf (shapeCast S5000x64 v0 shapeCasts_S5000x64_S5000x64 : FVec Ideal S5000x64 .f32)
            (broadcastTo S5000x64 (shapeCast S1x64 (shapeCast S64 a shapeCasts_S64_S64) shapeCasts_S64_S1x64) broadcasts_S1x64_S5000x64))
          0x00000000#32 reduces_S5000x64_S5000 (.inl rfl) rfl)
        shapeCasts_S5000_S5000x1 (ix2 p (0 : Fin 1))
      = ∑ k : Fin 64, v0 (ix2 p k) * a (ix1 k) := by
  refine (Cert.Layout.shapeCast_col_apply _ shapeCasts_S5000_S5000x1 p).trans ?_
  refine (Cert.RowFolds.laneSum_apply _ _ reduces_S5000x64_S5000 _ _ p).trans ?_
  refine Finset.sum_congr rfl fun k _ => ?_
  show shapeCast S5000x64 v0 shapeCasts_S5000x64_S5000x64 (ix2 p k)
      * broadcastTo S5000x64 (shapeCast S1x64 (shapeCast S64 a shapeCasts_S64_S64) shapeCasts_S64_S1x64) broadcasts_S1x64_S5000x64 (ix2 p k) = _
  rw [broadcastTo_1b_ab_apply, shapeCast_a_1a_apply, shapeCast_self, shapeCast_self]

end Cert.ScoreRegions

end
-- ==== Proof.ScoreRegion4.lean ====
/-
  Attention-score region 4 of the kernel, read as whole arrays.

  A score region walks a node table in 40 blocks of 5000 rows.  At every block it reads the block's feature rows and
  three whole vectors `a1`, `a2`, `a3` of length 64 and writes, for each row `n`, the scores `Σ_c x(n,c)·a1(c)` and
  `Σ_c x(n,c)·a3(c)` and the self-loop weight `exp(leaky(Σ_c x(n,c)·a1(c) + Σ_c x(n,c)·a2(c)))`.  A score is a lane sum
  of the row against the vector laid along the rows; the row windows move with the block number and the vectors stay
  put, so each array a region leaves is that function of the arrays the region finds, index by index.
-/
import proofs.«154843_j76682346102829_2_alg».proof.Proof.Gen.KernelIdeal.Frame
import proofs.«154843_j76682346102829_2_alg».proof.Proof.ScoreEdgeSpec
import proofs.«154843_j76682346102829_2_alg».proof.Proof.LibBroadcast
import proofs.«154843_j76682346102829_2_alg».proof.Proof.LibRowFolds
import proofs.«154843_j76682346102829_2_alg».proof.Proof.ScoreLane
import Idealize.ShloMosaic.Lib.Pipeline.Value
import Idealize.ShloMosaic.Lib.ValueLayout

set_option maxRecDepth 16384

noncomputable section

namespace Cert.ScoreRegions

open Cert.KernelIdeal Cert.KernelIdeal.Gen Idealize.ShloMosaic Idealize.ShloMosaic.TcCoe Idealize.SL.Sem
open Idealize.ShloMosaic.ValueIdx Cert.ScoreEdge
open Cert.Net (N64 B64 N1 E1 E64)
open Idealize.ShloMosaic.Pipeline (Dat)

theorem hz2_4 : (![0, 0] : Fin 2 → Nat) = fun _ => 0 := funext fun a => by fin_cases a <;> rfl
theorem hz1_4 : (![0] : Fin 1 → Nat) = fun _ => 0 := funext fun a => by fin_cases a <;> rfl

/-! ## The body's arithmetic at an index -/

/-- Region 4: the three payloads at row `p`. -/
theorem k4_pay2_apply (v0 : Vec Ideal S5000x64 .f32) (v2 : Vec Ideal S64 .f32) (p : Fin 5000) :
    k4_pay2 (F := Ideal) v0 v2 (ix2 p (0 : Fin 1)) = ∑ k : Fin 64, v0 (ix2 p k) * v2 (ix1 k) :=
  laneDot v0 v2 p

theorem k4_pay3_apply (v0 : Vec Ideal S5000x64 .f32) (v8 : Vec Ideal S64 .f32) (p : Fin 5000) :
    k4_pay3 (F := Ideal) v0 v8 (ix2 p (0 : Fin 1)) = ∑ k : Fin 64, v0 (ix2 p k) * v8 (ix1 k) :=
  laneDot v0 v8 p

theorem k4_pay4_apply (v0 : Vec Ideal S5000x64 .f32) (v2 v5 : Vec Ideal S64 .f32) (p : Fin 5000) :
    k4_pay4 (F := Ideal) v0 v2 v5 (ix2 p (0 : Fin 1))
      = expLeaky ((∑ k : Fin 64, v0 (ix2 p k) * v2 (ix1 k)) + ∑ k : Fin 64, v0 (ix2 p k) * v5 (ix1 k)) := by
  rw [← k4_pay2_apply v0 v2 p, ← laneDot v0 v5 p]
  rfl

/-- Region 4: the payloads as functions of the block's index. -/
theorem k4_pay2_eq (v0 : Vec Ideal S5000x64 .f32) (v2 : Vec Ideal S64 .f32) :
    k4_pay2 (F := Ideal) v0 v2 = fun i => ∑ k : Fin 64, v0 (ix2 (i 0 : Fin 5000) k) * v2 (ix1 k) := by
  funext i
  obtain ⟨p, q, rfl⟩ : ∃ (p : Fin 5000) (q : Fin 1), i = ix2 p q := ⟨i 0, i 1, eq_ix2 i⟩
  obtain rfl : q = 0 := Subsingleton.elim q 0
  exact k4_pay2_apply v0 v2 p

theorem k4_pay3_eq (v0 : Vec Ideal S5000x64 .f32) (v8 : Vec Ideal S64 .f32) :
    k4_pay3 (F := Ideal) v0 v8 = fun i => ∑ k : Fin 64, v0 (ix2 (i 0 : Fin 5000) k) * v8 (ix1 k) := by
  funext i
  obtain ⟨p, q, rfl⟩ : ∃ (p : Fin 5000) (q : Fin 1), i = ix2 p q := ⟨i 0, i 1, eq_ix2 i⟩
  obtain rfl : q = 0 := Subsingleton.elim q 0
  exact k4_pay3_apply v0 v8 p

theorem k4_pay4_eq (v0 : Vec Ideal S5000x64 .f32) (v2 v5 : Vec Ideal S64 .f32) :
    k4_pay4 (F := Ideal) v0 v2 v5 = fun i => expLeaky ((∑ k : Fin 64, v0 (ix2 (i 0 : Fin 5000) k) * v2 (ix1 k))
      + ∑ k : Fin 64, v0 (ix2 (i 0 : Fin 5000) k) * v5 (ix1 k)) := by
  funext i
  obtain ⟨p, q, rfl⟩ : ∃ (p : Fin 5000) (q : Fin 1), i = ix2 p q := ⟨i 0, i 1, eq_ix2 i⟩
  obtain rfl : q = 0 := Subsingleton.elim q 0
  exact k4_pay4_apply v0 v2 v5 p

/-- Region 4: a block entry of a score column is the score of the arrays where the loaded blocks sit in them. -/
theorem k4_score2_block (A0 : N64) (A1 : B64) (x0 : Vec Ideal S5000x64 .f32) (x1 : Vec Ideal S64 .f32)
    (y : S5000x1.Idx) (i : S200000x1.Idx)
    (h0 : ∀ k : Fin 64, x0 (ix2 (y 0 : Fin 5000) k) = A0 (ix2 (i 0 : Fin 200000) k))
    (h1 : ∀ k : Fin 64, x1 (ix1 k) = A1 (ix1 k)) : k4_pay2 (F := Ideal) x0 x1 y = score A0 A1 i := by
  rw [k4_pay2_eq]
  show (∑ k : Fin 64, x0 (ix2 (y 0 : Fin 5000) k) * x1 (ix1 k))
      = ∑ k : Fin 64, (A0 (ix2 (i 0 : Fin 200000) k) : EReal) * (A1 (ix1 k) : EReal)
  refine Finset.sum_congr rfl fun k _ => ?_
  rw [h0 k, h1 k]

theorem k4_score3_block (A0 : N64) (A1 : B64) (x0 : Vec Ideal S5000x64 .f32) (x1 : Vec Ideal S64 .f32)
    (y : S5000x1.Idx) (i : S200000x1.Idx)
    (h0 : ∀ k : Fin 64, x0 (ix2 (y 0 : Fin 5000) k) = A0 (ix2 (i 0 : Fin 200000) k))
    (h1 : ∀ k : Fin 64, x1 (ix1 k) = A1 (ix1 k)) : k4_pay3 (F := Ideal) x0 x1 y = score A0 A1 i := by
  rw [k4_pay3_eq]
  show (∑ k : Fin 64, x0 (ix2 (y 0 : Fin 5000) k) * x1 (ix1 k))
      = ∑ k : Fin 64, (A0 (ix2 (i 0 : Fin 200000) k) : EReal) * (A1 (ix1 k) : EReal)
  refine Finset.sum_congr rfl fun k _ => ?_
  rw [h0 k, h1 k]

/-- Region 4: a block entry of the self-loop weights likewise. -/
theorem k4_self_block (A0 : N64) (A1 A2 : B64) (x0 : Vec Ideal S5000x64 .f32) (x1 x2 : Vec Ideal S64 .f32)
    (y : S5000x1.Idx) (i : S200000x1.Idx)
    (h0 : ∀ k : Fin 64, x0 (ix2 (y 0 : Fin 5000) k) = A0 (ix2 (i 0 : Fin 200000) k))
    (h1 : ∀ k : Fin 64, x1 (ix1 k) = A1 (ix1 k)) (h2 : ∀ k : Fin 64, x2 (ix1 k) = A2 (ix1 k)) :
    k4_pay4 (F := Ideal) x0 x1 x2 y = selfWeight A0 A1 A2 i := by
  rw [k4_pay4_eq]
  show expLeaky ((∑ k : Fin 64, x0 (ix2 (y 0 : Fin 5000) k) * x1 (ix1 k)) + ∑ k : Fin 64, x0 (ix2 (y 0 : Fin 5000) k) * x2 (ix1 k))
      = expLeaky ((∑ k : Fin 64, (A0 (ix2 (i 0 : Fin 200000) k) : EReal) * (A1 (ix1 k) : EReal))
        + ∑ k : Fin 64, (A0 (ix2 (i 0 : Fin 200000) k) : EReal) * (A2 (ix1 k) : EReal))
  simp only [h0, h1, h2]

/-! ## Region 4 -/

section Region4
variable (V : (c : Dev nD) → (b : Ref sig .tc) → Buf (Elt Ideal) ((c : Thread nD τ).loc b))

/-- At point `t` the row windows of region 4 sit on block `t` of their arrays' rows and the three vectors on their
    whole arrays. -/
theorem idx_facts4 : ∀ t : Fin cfg4.N,
    win4_0.index t (0 : Fin 2) = t.val ∧ win4_0.index t (1 : Fin 2) = 0
    ∧ win4_1.index t (0 : Fin 1) = 0 ∧ win4_2.index t (0 : Fin 1) = 0 ∧ win4_3.index t (0 : Fin 1) = 0
    ∧ win4_4.index t (0 : Fin 2) = t.val ∧ win4_4.index t (1 : Fin 2) = 0
    ∧ win4_5.index t (0 : Fin 2) = t.val ∧ win4_5.index t (1 : Fin 2) = 0
    ∧ win4_6.index t (0 : Fin 2) = t.val ∧ win4_6.index t (1 : Fin 2) = 0 :=
  (by decide +kernel : ∀ t : Fin grid4.N, _)

/-- Region 4, window 0: an entry of the block at point `t` is the array's entry `5000·t` rows further down. -/
theorem iblk4_0_apply (c : Dev nD) (t : Fin cfg4.N) (y : S5000x64.Idx) (i : S200000x64.Idx)
    (h0 : (i 0).val = t.val * 5000 + (y 0).val) (h1 : (i 1).val = (y 1).val) :
    (iblk4 V c 0 t : Vec Ideal S5000x64 .f32) y = (V c (Pipeline.arrRef spec4 0) : N64) i := by
  obtain ⟨e00, e01, e1, e2, e3, e40, e41, e50, e51, e60, e61⟩ := idx_facts4 t
  show (V c (Pipeline.arrRef spec4 0) : N64) _ = (V c (Pipeline.arrRef spec4 0) : N64) i
  refine congrArg _ ?_
  funext a; apply Fin.ext
  match a with
  | ⟨0, _⟩ => show win4_0.index t (0 : Fin 2) * 5000 + 1 * (y 0).val = (i 0).val; omega
  | ⟨1, _⟩ => show win4_0.index t (1 : Fin 2) * 64 + 1 * (y 1).val = (i 1).val; omega

/-- Region 4, window 1: the block of a vector window is the whole vector. -/
theorem iblk4_1_apply (c : Dev nD) (t : Fin cfg4.N) (y : S64.Idx) (i : S64.Idx) (h0 : (i 0).val = (y 0).val) :
    (iblk4 V c 1 t : Vec Ideal S64 .f32) y = (V c (Pipeline.arrRef spec4 1) : B64) i := by
  obtain ⟨e00, e01, e1, e2, e3, e40, e41, e50, e51, e60, e61⟩ := idx_facts4 t
  show (V c (Pipeline.arrRef spec4 1) : B64) _ = (V c (Pipeline.arrRef spec4 1) : B64) i
  refine congrArg _ ?_
  funext a; apply Fin.ext
  match a with
  | ⟨0, _⟩ => show win4_1.index t (0 : Fin 1) * 64 + 1 * (y 0).val = (i 0).val; omega

/-- Region 4, window 2: the block of a vector window is the whole vector. -/
theorem iblk4_2_apply (c : Dev nD) (t : Fin cfg4.N) (y : S64.Idx) (i : S64.Idx) (h0 : (i 0).val = (y 0).val) :
    (iblk4 V c 2 t : Vec Ideal S64 .f32) y = (V c (Pipeline.arrRef spec4 2) : B64) i := by
  obtain ⟨e00, e01, e1, e2, e3, e40, e41, e50, e51, e60, e61⟩ := idx_facts4 t
  show (V c (Pipeline.arrRef spec4 2) : B64) _ = (V c (Pipeline.arrRef spec4 2) : B64) i
  refine congrArg _ ?_
  funext a; apply Fin.ext
  match a with
  | ⟨0, _⟩ => show win4_2.index t (0 : Fin 1) * 64 + 1 * (y 0).val = (i 0).val; omega

/-- Region 4, window 3: the block of a vector window is the whole vector. -/
theorem iblk4_3_apply (c : Dev nD) (t : Fin cfg4.N) (y : S64.Idx) (i : S64.Idx) (h0 : (i 0).val = (y 0).val) :
    (iblk4 V c 3 t : Vec Ideal S64 .f32) y = (V c (Pipeline.arrRef spec4 3) : B64) i := by
  obtain ⟨e00, e01, e1, e2, e3, e40, e41, e50, e51, e60, e61⟩ := idx_facts4 t
  show (V c (Pipeline.arrRef spec4 3) : B64) _ = (V c (Pipeline.arrRef spec4 3) : B64) i
  refine congrArg _ ?_
  funext a; apply Fin.ext
  match a with
  | ⟨0, _⟩ => show win4_3.index t (0 : Fin 1) * 64 + 1 * (y 0).val = (i 0).val; omega

/-! What point `t` writes back to each output is block `t` of the stage's function of the arrays the region finds. -/

theorem flushed4_4_eq (c : Dev nD) (t : Fin cfg4.N) :
    (dat4 (F := Ideal) V c).flushed 4 t = ((cfg4.win 4).blk t).view.read (Elt Ideal)
      (score (V c (Pipeline.arrRef spec4 0)) (V c (Pipeline.arrRef spec4 1))) := by
  show (cfg4.win 4).cut (grid4.coords t) ((dat4 (F := Ideal) V c).after 4 t) = _
  rw [after4_4]
  unfold out4_4
  rw [View.canon_unit_zero hz2_4]
  simp only [View.ld_unit_zero (S := S5000x64) hz2_4, View.ld_unit_zero (S := S64) hz1_4]
  obtain ⟨e00, e01, e1, e2, e3, e40, e41, e50, e51, e60, e61⟩ := idx_facts4 t
  funext j
  have g0 : ((((cfg4.win 4).blk t).view.emb j) 0).val = t.val * 5000 + (j 0).val := by
    show win4_4.index t (0 : Fin 2) * 5000 + 1 * (j 0).val = _; omega
  exact k4_score2_block (V c (Pipeline.arrRef spec4 0)) (V c (Pipeline.arrRef spec4 1)) (iblk4 V c 0 t) (iblk4 V c 1 t) j (((cfg4.win 4).blk t).view.emb j)
    (fun k => iblk4_0_apply V c t (ix2 (j 0 : Fin 5000) k) (ix2 ((((cfg4.win 4).blk t).view.emb j) 0 : Fin 200000) k) g0 rfl)
    (fun k => iblk4_1_apply V c t (ix1 k) (ix1 k) rfl)

theorem flushed4_5_eq (c : Dev nD) (t : Fin cfg4.N) :
    (dat4 (F := Ideal) V c).flushed 5 t = ((cfg4.win 5).blk t).view.read (Elt Ideal)
      (score (V c (Pipeline.arrRef spec4 0)) (V c (Pipeline.arrRef spec4 3))) := by
  show (cfg4.win 5).cut (grid4.coords t) ((dat4 (F := Ideal) V c).after 5 t) = _
  rw [after4_5]
  unfold out4_5
  rw [View.canon_unit_zero hz2_4]
  simp only [View.ld_unit_zero (S := S5000x64) hz2_4, View.ld_unit_zero (S := S64) hz1_4]
  obtain ⟨e00, e01, e1, e2, e3, e40, e41, e50, e51, e60, e61⟩ := idx_facts4 t
  funext j
  have g0 : ((((cfg4.win 5).blk t).view.emb j) 0).val = t.val * 5000 + (j 0).val := by
    show win4_5.index t (0 : Fin 2) * 5000 + 1 * (j 0).val = _; omega
  exact k4_score3_block (V c (Pipeline.arrRef spec4 0)) (V c (Pipeline.arrRef spec4 3)) (iblk4 V c 0 t) (iblk4 V c 3 t) j (((cfg4.win 5).blk t).view.emb j)
    (fun k => iblk4_0_apply V c t (ix2 (j 0 : Fin 5000) k) (ix2 ((((cfg4.win 5).blk t).view.emb j) 0 : Fin 200000) k) g0 rfl)
    (fun k => iblk4_3_apply V c t (ix1 k) (ix1 k) rfl)

theorem flushed4_6_eq (c : Dev nD) (t : Fin cfg4.N) :
    (dat4 (F := Ideal) V c).flushed 6 t = ((cfg4.win 6).blk t).view.read (Elt Ideal)
      (selfWeight (V c (Pipeline.arrRef spec4 0)) (V c (Pipeline.arrRef spec4 1)) (V c (Pipeline.arrRef spec4 2))) := by
  show (cfg4.win 6).cut (grid4.coords t) ((dat4 (F := Ideal) V c).after 6 t) = _
  rw [after4_6]
  unfold out4_6
  rw [View.canon_unit_zero hz2_4]
  simp only [View.ld_unit_zero (S := S5000x64) hz2_4, View.ld_unit_zero (S := S64) hz1_4]
  obtain ⟨e00, e01, e1, e2, e3, e40, e41, e50, e51, e60, e61⟩ := idx_facts4 t
  funext j
  have g0 : ((((cfg4.win 6).blk t).view.emb j) 0).val = t.val * 5000 + (j 0).val := by
    show win4_6.index t (0 : Fin 2) * 5000 + 1 * (j 0).val = _; omega
  exact k4_self_block (V c (Pipeline.arrRef spec4 0)) (V c (Pipeline.arrRef spec4 1)) (V c (Pipeline.arrRef spec4 2)) (iblk4 V c 0 t) (iblk4 V c 1 t) (iblk4 V c 2 t) j (((cfg4.win 6).blk t).view.emb j)
    (fun k => iblk4_0_apply V c t (ix2 (j 0 : Fin 5000) k) (ix2 ((((cfg4.win 6).blk t).view.emb j) 0 : Fin 200000) k) g0 rfl)
    (fun k => iblk4_1_apply V c t (ix1 k) (ix1 k) rfl) (fun k => iblk4_2_apply V c t (ix1 k) (ix1 k) rfl)

theorem mem_blk4_4 (t : Fin cfg4.N) (i : S200000x1.Idx) :
    i ∈ ((cfg4.win 4).blk t).view.set ↔ ∀ a : Fin 2, win4_4.index t a * S5000x1.size a ≤ (i a).val ∧ (i a).val < win4_4.index t a * S5000x1.size a + S5000x1.size a := by
  show i ∈ ((View.whole main_v26_0).slice (win4_4.rect t)).set ↔ _
  rw [View.set_slice_whole, Rect.mem_set_unit]
  exact Iff.rfl

/-- Row `r` is written back by point `r / 5000`. -/
theorem covered4_4 (i : S200000x1.Idx) :
    ∃ t : Fin cfg4.N, (cfg4.win 4).flush t = true ∧ i ∈ ((cfg4.win 4).blk t).view.set := by
  have hi0 : (i 0).val < 200000 := (i 0).isLt
  have hi1 : (i 1).val < 1 := (i 1).isLt
  obtain ⟨t, ht⟩ : ∃ t : Fin cfg4.N, t.val = (i 0).val / 5000 :=
    ⟨⟨(i 0).val / 5000, by rw [show cfg4.N = 40 from N_4]; omega⟩, rfl⟩
  obtain ⟨e00, e01, e1, e2, e3, e40, e41, e50, e51, e60, e61⟩ := idx_facts4 t
  refine ⟨t, flush4_4 t, ?_⟩
  rw [mem_blk4_4]
  intro a
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 1 ≤ (i 1).val ∧ (i 1).val < win4_4.index t (1 : Fin 2) * 1 + 1; omega

theorem mem_blk4_5 (t : Fin cfg4.N) (i : S200000x1.Idx) :
    i ∈ ((cfg4.win 5).blk t).view.set ↔ ∀ a : Fin 2, win4_5.index t a * S5000x1.size a ≤ (i a).val ∧ (i a).val < win4_5.index t a * S5000x1.size a + S5000x1.size a := by
  show i ∈ ((View.whole main_v26_1).slice (win4_5.rect t)).set ↔ _
  rw [View.set_slice_whole, Rect.mem_set_unit]
  exact Iff.rfl

/-- Row `r` is written back by point `r / 5000`. -/
theorem covered4_5 (i : S200000x1.Idx) :
    ∃ t : Fin cfg4.N, (cfg4.win 5).flush t = true ∧ i ∈ ((cfg4.win 5).blk t).view.set := by
  have hi0 : (i 0).val < 200000 := (i 0).isLt
  have hi1 : (i 1).val < 1 := (i 1).isLt
  obtain ⟨t, ht⟩ : ∃ t : Fin cfg4.N, t.val = (i 0).val / 5000 :=
    ⟨⟨(i 0).val / 5000, by rw [show cfg4.N = 40 from N_4]; omega⟩, rfl⟩
  obtain ⟨e00, e01, e1, e2, e3, e40, e41, e50, e51, e60, e61⟩ := idx_facts4 t
  refine ⟨t, flush4_5 t, ?_⟩
  rw [mem_blk4_5]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 1 ≤ (i 1).val ∧ (i 1).val < win4_5.index t (1 : Fin 2) * 1 + 1; omega

theorem mem_blk4_6 (t : Fin cfg4.N) (i : S200000x1.Idx) :
    i ∈ ((cfg4.win 6).blk t).view.set ↔ ∀ a : Fin 2, win4_6.index t a * S5000x1.size a ≤ (i a).val ∧ (i a).val < win4_6.index t a * S5000x1.size a + S5000x1.size a := by
  show i ∈ ((View.whole main_v26_2).slice (win4_6.rect t)).set ↔ _
  rw [View.set_slice_whole, Rect.mem_set_unit]
  exact Iff.rfl

/-- Row `r` is written back by point `r / 5000`. -/
theorem covered4_6 (i : S200000x1.Idx) :
    ∃ t : Fin cfg4.N, (cfg4.win 6).flush t = true ∧ i ∈ ((cfg4.win 6).blk t).view.set := by
  have hi0 : (i 0).val < 200000 := (i 0).isLt
  have hi1 : (i 1).val < 1 := (i 1).isLt
  obtain ⟨t, ht⟩ : ∃ t : Fin cfg4.N, t.val = (i 0).val / 5000 :=
    ⟨⟨(i 0).val / 5000, by rw [show cfg4.N = 40 from N_4]; omega⟩, rfl⟩
  obtain ⟨e00, e01, e1, e2, e3, e40, e41, e50, e51, e60, e61⟩ := idx_facts4 t
  refine ⟨t, flush4_6 t, ?_⟩
  rw [mem_blk4_6]
  intro a
  match a with
  | ⟨0, _⟩ => show win4_6.index t (0 : Fin 2) * 5000 ≤ (i 0).val ∧ (i 0).val < win4_6.index t (0 : Fin 2) * 5000 + 5000; omega
  | ⟨1, _⟩ => show win4_6.index t (1 : Fin 2) * 1 ≤ (i 1).val ∧ (i 1).val < win4_6.index t (1 : Fin 2) * 1 + 1; omega

/-- REGION 4, first output: the rows' scores against the first vector. -/
theorem region4_out4 (c : Dev nD) :
    ((dat4 (F := Ideal) V c).arrAt 4 cfg4.N : N1) = score (V c (Pipeline.arrRef spec4 0)) (V c (Pipeline.arrRef spec4 1)) :=
  (dat4 (F := Ideal) V c).arrAt_eq_of_cover 4 _ (fun t _ => flushed4_4_eq V c t) covered4_4

/-- REGION 4, second output: the rows' scores against the third vector. -/
theorem region4_out5 (c : Dev nD) :
    ((dat4 (F := Ideal) V c).arrAt 5 cfg4.N : N1) = score (V c (Pipeline.arrRef spec4 0)) (V c (Pipeline.arrRef spec4 3)) :=
  (dat4 (F := Ideal) V c).arrAt_eq_of_cover 5 _ (fun t _ => flushed4_5_eq V c t) covered4_5

/-- REGION 4, third output: the self-loop weights from the first and second vectors. -/
theorem region4_out6 (c : Dev nD) :
    ((dat4 (F := Ideal) V c).arrAt 6 cfg4.N : N1) = selfWeight (V c (Pipeline.arrRef spec4 0)) (V c (Pipeline.arrRef spec4 1)) (V c (Pipeline.arrRef spec4 2)) :=
  (dat4 (F := Ideal) V c).arrAt_eq_of_cover 6 _ (fun t _ => flushed4_6_eq V c t) covered4_6

end Region4

end Cert.ScoreRegions

end
-- ==== Proof.ScoreRegion5.lean ====
/-
  Attention-score region 5 of the kernel, read as whole arrays.

  A score region walks a node table in 40 blocks of 5000 rows.  At every block it reads the block's feature rows and
  three whole vectors `a1`, `a2`, `a3` of length 64 and writes, for each row `n`, the scores `Σ_c x(n,c)·a1(c)` and
  `Σ_c x(n,c)·a3(c)` and the self-loop weight `exp(leaky(Σ_c x(n,c)·a1(c) + Σ_c x(n,c)·a2(c)))`.  A score is a lane sum
  of the row against the vector laid along the rows; the row windows move with the block number and the vectors stay
  put, so each array a region leaves is that function of the arrays the region finds, index by index.
-/
import proofs.«154843_j76682346102829_2_alg».proof.Proof.Gen.KernelIdeal.Frame
import proofs.«154843_j76682346102829_2_alg».proof.Proof.ScoreEdgeSpec
import proofs.«154843_j76682346102829_2_alg».proof.Proof.LibBroadcast
import proofs.«154843_j76682346102829_2_alg».proof.Proof.LibRowFolds
import proofs.«154843_j76682346102829_2_alg».proof.Proof.ScoreLane
import Idealize.ShloMosaic.Lib.Pipeline.Value
import Idealize.ShloMosaic.Lib.ValueLayout

set_option maxRecDepth 16384

noncomputable section

namespace Cert.ScoreRegions

open Cert.KernelIdeal Cert.KernelIdeal.Gen Idealize.ShloMosaic Idealize.ShloMosaic.TcCoe Idealize.SL.Sem
open Idealize.ShloMosaic.ValueIdx Cert.ScoreEdge
open Cert.Net (N64 B64 N1 E1 E64)
open Idealize.ShloMosaic.Pipeline (Dat)

theorem hz2_5 : (![0, 0] : Fin 2 → Nat) = fun _ => 0 := funext fun a => by fin_cases a <;> rfl
theorem hz1_5 : (![0] : Fin 1 → Nat) = fun _ => 0 := funext fun a => by fin_cases a <;> rfl

/-! ## The body's arithmetic at an index -/

/-- Region 5: the three payloads at row `p`. -/
theorem k5_pay2_apply (v0 : Vec Ideal S5000x64 .f32) (v2 : Vec Ideal S64 .f32) (p : Fin 5000) :
    k5_pay2 (F := Ideal) v0 v2 (ix2 p (0 : Fin 1)) = ∑ k : Fin 64, v0 (ix2 p k) * v2 (ix1 k) :=
  laneDot v0 v2 p

theorem k5_pay3_apply (v0 : Vec Ideal S5000x64 .f32) (v8 : Vec Ideal S64 .f32) (p : Fin 5000) :
    k5_pay3 (F := Ideal) v0 v8 (ix2 p (0 : Fin 1)) = ∑ k : Fin 64, v0 (ix2 p k) * v8 (ix1 k) :=
  laneDot v0 v8 p

theorem k5_pay4_apply (v0 : Vec Ideal S5000x64 .f32) (v2 v5 : Vec Ideal S64 .f32) (p : Fin 5000) :
    k5_pay4 (F := Ideal) v0 v2 v5 (ix2 p (0 : Fin 1))
      = expLeaky ((∑ k : Fin 64, v0 (ix2 p k) * v2 (ix1 k)) + ∑ k : Fin 64, v0 (ix2 p k) * v5 (ix1 k)) := by
  rw [← k5_pay2_apply v0 v2 p, ← laneDot v0 v5 p]
  rfl

/-- Region 5: the payloads as functions of the block's index. -/
theorem k5_pay2_eq (v0 : Vec Ideal S5000x64 .f32) (v2 : Vec Ideal S64 .f32) :
    k5_pay2 (F := Ideal) v0 v2 = fun i => ∑ k : Fin 64, v0 (ix2 (i 0 : Fin 5000) k) * v2 (ix1 k) := by
  funext i
  obtain ⟨p, q, rfl⟩ : ∃ (p : Fin 5000) (q : Fin 1), i = ix2 p q := ⟨i 0, i 1, eq_ix2 i⟩
  obtain rfl : q = 0 := Subsingleton.elim q 0
  exact k5_pay2_apply v0 v2 p

theorem k5_pay3_eq (v0 : Vec Ideal S5000x64 .f32) (v8 : Vec Ideal S64 .f32) :
    k5_pay3 (F := Ideal) v0 v8 = fun i => ∑ k : Fin 64, v0 (ix2 (i 0 : Fin 5000) k) * v8 (ix1 k) := by
  funext i
  obtain ⟨p, q, rfl⟩ : ∃ (p : Fin 5000) (q : Fin 1), i = ix2 p q := ⟨i 0, i 1, eq_ix2 i⟩
  obtain rfl : q = 0 := Subsingleton.elim q 0
  exact k5_pay3_apply v0 v8 p

theorem k5_pay4_eq (v0 : Vec Ideal S5000x64 .f32) (v2 v5 : Vec Ideal S64 .f32) :
    k5_pay4 (F := Ideal) v0 v2 v5 = fun i => expLeaky ((∑ k : Fin 64, v0 (ix2 (i 0 : Fin 5000) k) * v2 (ix1 k))
      + ∑ k : Fin 64, v0 (ix2 (i 0 : Fin 5000) k) * v5 (ix1 k)) := by
  funext i
  obtain ⟨p, q, rfl⟩ : ∃ (p : Fin 5000) (q : Fin 1), i = ix2 p q := ⟨i 0, i 1, eq_ix2 i⟩
  obtain rfl : q = 0 := Subsingleton.elim q 0
  exact k5_pay4_apply v0 v2 v5 p

/-- Region 5: a block entry of a score column is the score of the arrays where the loaded blocks sit in them. -/
theorem k5_score2_block (A0 : N64) (A1 : B64) (x0 : Vec Ideal S5000x64 .f32) (x1 : Vec Ideal S64 .f32)
    (y : S5000x1.Idx) (i : S200000x1.Idx)
    (h0 : ∀ k : Fin 64, x0 (ix2 (y 0 : Fin 5000) k) = A0 (ix2 (i 0 : Fin 200000) k))
    (h1 : ∀ k : Fin 64, x1 (ix1 k) = A1 (ix1 k)) : k5_pay2 (F := Ideal) x0 x1 y = score A0 A1 i := by
  rw [k5_pay2_eq]
  show (∑ k : Fin 64, x0 (ix2 (y 0 : Fin 5000) k) * x1 (ix1 k))
      = ∑ k : Fin 64, (A0 (ix2 (i 0 : Fin 200000) k) : EReal) * (A1 (ix1 k) : EReal)
  refine Finset.sum_congr rfl fun k _ => ?_
  rw [h0 k, h1 k]

theorem k5_score3_block (A0 : N64) (A1 : B64) (x0 : Vec Ideal S5000x64 .f32) (x1 : Vec Ideal S64 .f32)
    (y : S5000x1.Idx) (i : S200000x1.Idx)
    (h0 : ∀ k : Fin 64, x0 (ix2 (y 0 : Fin 5000) k) = A0 (ix2 (i 0 : Fin 200000) k))
    (h1 : ∀ k : Fin 64, x1 (ix1 k) = A1 (ix1 k)) : k5_pay3 (F := Ideal) x0 x1 y = score A0 A1 i := by
  rw [k5_pay3_eq]
  show (∑ k : Fin 64, x0 (ix2 (y 0 : Fin 5000) k) * x1 (ix1 k))
      = ∑ k : Fin 64, (A0 (ix2 (i 0 : Fin 200000) k) : EReal) * (A1 (ix1 k) : EReal)
  refine Finset.sum_congr rfl fun k _ => ?_
  rw [h0 k, h1 k]

/-- Region 5: a block entry of the self-loop weights likewise. -/
theorem k5_self_block (A0 : N64) (A1 A2 : B64) (x0 : Vec Ideal S5000x64 .f32) (x1 x2 : Vec Ideal S64 .f32)
    (y : S5000x1.Idx) (i : S200000x1.Idx)
    (h0 : ∀ k : Fin 64, x0 (ix2 (y 0 : Fin 5000) k) = A0 (ix2 (i 0 : Fin 200000) k))
    (h1 : ∀ k : Fin 64, x1 (ix1 k) = A1 (ix1 k)) (h2 : ∀ k : Fin 64, x2 (ix1 k) = A2 (ix1 k)) :
    k5_pay4 (F := Ideal) x0 x1 x2 y = selfWeight A0 A1 A2 i := by
  rw [k5_pay4_eq]
  show expLeaky ((∑ k : Fin 64, x0 (ix2 (y 0 : Fin 5000) k) * x1 (ix1 k)) + ∑ k : Fin 64, x0 (ix2 (y 0 : Fin 5000) k) * x2 (ix1 k))
      = expLeaky ((∑ k : Fin 64, (A0 (ix2 (i 0 : Fin 200000) k) : EReal) * (A1 (ix1 k) : EReal))
        + ∑ k : Fin 64, (A0 (ix2 (i 0 : Fin 200000) k) : EReal) * (A2 (ix1 k) : EReal))
  simp only [h0, h1, h2]

/-! ## Region 5 -/

section Region5
variable (V : (c : Dev nD) → (b : Ref sig .tc) → Buf (Elt Ideal) ((c : Thread nD τ).loc b))

/-- At point `t` the row windows of region 5 sit on block `t` of their arrays' rows and the three vectors on their
    whole arrays. -/
theorem idx_facts5 : ∀ t : Fin cfg5.N,
    win5_0.index t (0 : Fin 2) = t.val ∧ win5_0.index t (1 : Fin 2) = 0
    ∧ win5_1.index t (0 : Fin 1) = 0 ∧ win5_2.index t (0 : Fin 1) = 0 ∧ win5_3.index t (0 : Fin 1) = 0
    ∧ win5_4.index t (0 : Fin 2) = t.val ∧ win5_4.index t (1 : Fin 2) = 0
    ∧ win5_5.index t (0 : Fin 2) = t.val ∧ win5_5.index t (1 : Fin 2) = 0
    ∧ win5_6.index t (0 : Fin 2) = t.val ∧ win5_6.index t (1 : Fin 2) = 0 :=
  (by decide +kernel : ∀ t : Fin grid5.N, _)

/-- Region 5, window 0: an entry of the block at point `t` is the array's entry `5000·t` rows further down. -/
theorem iblk5_0_apply (c : Dev nD) (t : Fin cfg5.N) (y : S5000x64.Idx) (i : S200000x64.Idx)
    (h0 : (i 0).val = t.val * 5000 + (y 0).val) (h1 : (i 1).val = (y 1).val) :
    (iblk5 V c 0 t : Vec Ideal S5000x64 .f32) y = (V c (Pipeline.arrRef spec5 0) : N64) i := by
  obtain ⟨e00, e01, e1, e2, e3, e40, e41, e50, e51, e60, e61⟩ := idx_facts5 t
  show (V c (Pipeline.arrRef spec5 0) : N64) _ = (V c (Pipeline.arrRef spec5 0) : N64) i
  refine congrArg _ ?_
  funext a; apply Fin.ext
  match a with
  | ⟨0, _⟩ => show win5_0.index t (0 : Fin 2) * 5000 + 1 * (y 0).val = (i 0).val; omega
  | ⟨1, _⟩ => show win5_0.index t (1 : Fin 2) * 64 + 1 * (y 1).val = (i 1).val; omega

/-- Region 5, window 1: the block of a vector window is the whole vector. -/
theorem iblk5_1_apply (c : Dev nD) (t : Fin cfg5.N) (y : S64.Idx) (i : S64.Idx) (h0 : (i 0).val = (y 0).val) :
    (iblk5 V c 1 t : Vec Ideal S64 .f32) y = (V c (Pipeline.arrRef spec5 1) : B64) i := by
  obtain ⟨e00, e01, e1, e2, e3, e40, e41, e50, e51, e60, e61⟩ := idx_facts5 t
  show (V c (Pipeline.arrRef spec5 1) : B64) _ = (V c (Pipeline.arrRef spec5 1) : B64) i
  refine congrArg _ ?_
  funext a; apply Fin.ext
  match a with
  | ⟨0, _⟩ => show win5_1.index t (0 : Fin 1) * 64 + 1 * (y 0).val = (i 0).val; omega

/-- Region 5, window 2: the block of a vector window is the whole vector. -/
theorem iblk5_2_apply (c : Dev nD) (t : Fin cfg5.N) (y : S64.Idx) (i : S64.Idx) (h0 : (i 0).val = (y 0).val) :
    (iblk5 V c 2 t : Vec Ideal S64 .f32) y = (V c (Pipeline.arrRef spec5 2) : B64) i := by
  obtain ⟨e00, e01, e1, e2, e3, e40, e41, e50, e51, e60, e61⟩ := idx_facts5 t
  show (V c (Pipeline.arrRef spec5 2) : B64) _ = (V c (Pipeline.arrRef spec5 2) : B64) i
  refine congrArg _ ?_
  funext a; apply Fin.ext
  match a with
  | ⟨0, _⟩ => show win5_2.index t (0 : Fin 1) * 64 + 1 * (y 0).val = (i 0).val; omega

/-- Region 5, window 3: the block of a vector window is the whole vector. -/
theorem iblk5_3_apply (c : Dev nD) (t : Fin cfg5.N) (y : S64.Idx) (i : S64.Idx) (h0 : (i 0).val = (y 0).val) :
    (iblk5 V c 3 t : Vec Ideal S64 .f32) y = (V c (Pipeline.arrRef spec5 3) : B64) i := by
  obtain ⟨e00, e01, e1, e2, e3, e40, e41, e50, e51, e60, e61⟩ := idx_facts5 t
  show (V c (Pipeline.arrRef spec5 3) : B64) _ = (V c (Pipeline.arrRef spec5 3) : B64) i
  refine congrArg _ ?_
  funext a; apply Fin.ext
  match a with
  | ⟨0, _⟩ => show win5_3.index t (0 : Fin 1) * 64 + 1 * (y 0).val = (i 0).val; omega

/-! What point `t` writes back to each output is block `t` of the stage's function of the arrays the region finds. -/

theorem flushed5_4_eq (c : Dev nD) (t : Fin cfg5.N) :
    (dat5 (F := Ideal) V c).flushed 4 t = ((cfg5.win 4).blk t).view.read (Elt Ideal)
      (score (V c (Pipeline.arrRef spec5 0)) (V c (Pipeline.arrRef spec5 1))) := by
  show (cfg5.win 4).cut (grid5.coords t) ((dat5 (F := Ideal) V c).after 4 t) = _
  rw [after5_4]
  unfold out5_4
  rw [View.canon_unit_zero hz2_5]
  simp only [View.ld_unit_zero (S := S5000x64) hz2_5, View.ld_unit_zero (S := S64) hz1_5]
  obtain ⟨e00, e01, e1, e2, e3, e40, e41, e50, e51, e60, e61⟩ := idx_facts5 t
  funext j
  have g0 : ((((cfg5.win 4).blk t).view.emb j) 0).val = t.val * 5000 + (j 0).val := by
    show win5_4.index t (0 : Fin 2) * 5000 + 1 * (j 0).val = _; omega
  exact k5_score2_block (V c (Pipeline.arrRef spec5 0)) (V c (Pipeline.arrRef spec5 1)) (iblk5 V c 0 t) (iblk5 V c 1 t) j (((cfg5.win 4).blk t).view.emb j)
    (fun k => iblk5_0_apply V c t (ix2 (j 0 : Fin 5000) k) (ix2 ((((cfg5.win 4).blk t).view.emb j) 0 : Fin 200000) k) g0 rfl)
    (fun k => iblk5_1_apply V c t (ix1 k) (ix1 k) rfl)

theorem flushed5_5_eq (c : Dev nD) (t : Fin cfg5.N) :
    (dat5 (F := Ideal) V c).flushed 5 t = ((cfg5.win 5).blk t).view.read (Elt Ideal)
      (score (V c (Pipeline.arrRef spec5 0)) (V c (Pipeline.arrRef spec5 3))) := by
  show (cfg5.win 5).cut (grid5.coords t) ((dat5 (F := Ideal) V c).after 5 t) = _
  rw [after5_5]
  unfold out5_5
  rw [View.canon_unit_zero hz2_5]
  simp only [View.ld_unit_zero (S := S5000x64) hz2_5, View.ld_unit_zero (S := S64) hz1_5]
  obtain ⟨e00, e01, e1, e2, e3, e40, e41, e50, e51, e60, e61⟩ := idx_facts5 t
  funext j
  have g0 : ((((cfg5.win 5).blk t).view.emb j) 0).val = t.val * 5000 + (j 0).val := by
    show win5_5.index t (0 : Fin 2) * 5000 + 1 * (j 0).val = _; omega
  exact k5_score3_block (V c (Pipeline.arrRef spec5 0)) (V c (Pipeline.arrRef spec5 3)) (iblk5 V c 0 t) (iblk5 V c 3 t) j (((cfg5.win 5).blk t).view.emb j)
    (fun k => iblk5_0_apply V c t (ix2 (j 0 : Fin 5000) k) (ix2 ((((cfg5.win 5).blk t).view.emb j) 0 : Fin 200000) k) g0 rfl)
    (fun k => iblk5_3_apply V c t (ix1 k) (ix1 k) rfl)

theorem flushed5_6_eq (c : Dev nD) (t : Fin cfg5.N) :
    (dat5 (F := Ideal) V c).flushed 6 t = ((cfg5.win 6).blk t).view.read (Elt Ideal)
      (selfWeight (V c (Pipeline.arrRef spec5 0)) (V c (Pipeline.arrRef spec5 1)) (V c (Pipeline.arrRef spec5 2))) := by
  show (cfg5.win 6).cut (grid5.coords t) ((dat5 (F := Ideal) V c).after 6 t) = _
  rw [after5_6]
  unfold out5_6
  rw [View.canon_unit_zero hz2_5]
  simp only [View.ld_unit_zero (S := S5000x64) hz2_5, View.ld_unit_zero (S := S64) hz1_5]
  obtain ⟨e00, e01, e1, e2, e3, e40, e41, e50, e51, e60, e61⟩ := idx_facts5 t
  funext j
  have g0 : ((((cfg5.win 6).blk t).view.emb j) 0).val = t.val * 5000 + (j 0).val := by
    show win5_6.index t (0 : Fin 2) * 5000 + 1 * (j 0).val = _; omega
  exact k5_self_block (V c (Pipeline.arrRef spec5 0)) (V c (Pipeline.arrRef spec5 1)) (V c (Pipeline.arrRef spec5 2)) (iblk5 V c 0 t) (iblk5 V c 1 t) (iblk5 V c 2 t) j (((cfg5.win 6).blk t).view.emb j)
    (fun k => iblk5_0_apply V c t (ix2 (j 0 : Fin 5000) k) (ix2 ((((cfg5.win 6).blk t).view.emb j) 0 : Fin 200000) k) g0 rfl)
    (fun k => iblk5_1_apply V c t (ix1 k) (ix1 k) rfl) (fun k => iblk5_2_apply V c t (ix1 k) (ix1 k) rfl)

theorem mem_blk5_4 (t : Fin cfg5.N) (i : S200000x1.Idx) :
    i ∈ ((cfg5.win 4).blk t).view.set ↔ ∀ a : Fin 2, win5_4.index t a * S5000x1.size a ≤ (i a).val ∧ (i a).val < win5_4.index t a * S5000x1.size a + S5000x1.size a := by
  show i ∈ ((View.whole main_v33_0).slice (win5_4.rect t)).set ↔ _
  rw [View.set_slice_whole, Rect.mem_set_unit]
  exact Iff.rfl

/-- Row `r` is written back by point `r / 5000`. -/
theorem covered5_4 (i : S200000x1.Idx) :
    ∃ t : Fin cfg5.N, (cfg5.win 4).flush t = true ∧ i ∈ ((cfg5.win 4).blk t).view.set := by
  have hi0 : (i 0).val < 200000 := (i 0).isLt
  have hi1 : (i 1).val < 1 := (i 1).isLt
  obtain ⟨t, ht⟩ : ∃ t : Fin cfg5.N, t.val = (i 0).val / 5000 :=
    ⟨⟨(i 0).val / 5000, by rw [show cfg5.N = 40 from N_5]; omega⟩, rfl⟩
  obtain ⟨e00, e01, e1, e2, e3, e40, e41, e50, e51, e60, e61⟩ := idx_facts5 t
  refine ⟨t, flush5_4 t, ?_⟩
  rw [mem_blk5_4]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 1 ≤ (i 1).val ∧ (i 1).val < win5_4.index t (1 : Fin 2) * 1 + 1; omega

theorem mem_blk5_5 (t : Fin cfg5.N) (i : S200000x1.Idx) :
    i ∈ ((cfg5.win 5).blk t).view.set ↔ ∀ a : Fin 2, win5_5.index t a * S5000x1.size a ≤ (i a).val ∧ (i a).val < win5_5.index t a * S5000x1.size a + S5000x1.size a := by
  show i ∈ ((View.whole main_v33_1).slice (win5_5.rect t)).set ↔ _
  rw [View.set_slice_whole, Rect.mem_set_unit]
  exact Iff.rfl

/-- Row `r` is written back by point `r / 5000`. -/
theorem covered5_5 (i : S200000x1.Idx) :
    ∃ t : Fin cfg5.N, (cfg5.win 5).flush t = true ∧ i ∈ ((cfg5.win 5).blk t).view.set := by
  have hi0 : (i 0).val < 200000 := (i 0).isLt
  have hi1 : (i 1).val < 1 := (i 1).isLt
  obtain ⟨t, ht⟩ : ∃ t : Fin cfg5.N, t.val = (i 0).val / 5000 :=
    ⟨⟨(i 0).val / 5000, by rw [show cfg5.N = 40 from N_5]; omega⟩, rfl⟩
  obtain ⟨e00, e01, e1, e2, e3, e40, e41, e50, e51, e60, e61⟩ := idx_facts5 t
  refine ⟨t, flush5_5 t, ?_⟩
  rw [mem_blk5_5]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 1 ≤ (i 1).val ∧ (i 1).val < win5_5.index t (1 : Fin 2) * 1 + 1; omega

theorem mem_blk5_6 (t : Fin cfg5.N) (i : S200000x1.Idx) :
    i ∈ ((cfg5.win 6).blk t).view.set ↔ ∀ a : Fin 2, win5_6.index t a * S5000x1.size a ≤ (i a).val ∧ (i a).val < win5_6.index t a * S5000x1.size a + S5000x1.size a := by
  show i ∈ ((View.whole main_v33_2).slice (win5_6.rect t)).set ↔ _
  rw [View.set_slice_whole, Rect.mem_set_unit]
  exact Iff.rfl

/-- Row `r` is written back by point `r / 5000`. -/
theorem covered5_6 (i : S200000x1.Idx) :
    ∃ t : Fin cfg5.N, (cfg5.win 6).flush t = true ∧ i ∈ ((cfg5.win 6).blk t).view.set := by
  have hi0 : (i 0).val < 200000 := (i 0).isLt
  have hi1 : (i 1).val < 1 := (i 1).isLt
  obtain ⟨t, ht⟩ : ∃ t : Fin cfg5.N, t.val = (i 0).val / 5000 :=
    ⟨⟨(i 0).val / 5000, by rw [show cfg5.N = 40 from N_5]; omega⟩, rfl⟩
  obtain ⟨e00, e01, e1, e2, e3, e40, e41, e50, e51, e60, e61⟩ := idx_facts5 t
  refine ⟨t, flush5_6 t, ?_⟩
  rw [mem_blk5_6]
  intro a
  match a with
  | ⟨0, _⟩ => show win5_6.index t (0 : Fin 2) * 5000 ≤ (i 0).val ∧ (i 0).val < win5_6.index t (0 : Fin 2) * 5000 + 5000; omega
  | ⟨1, _⟩ => show win5_6.index t (1 : Fin 2) * 1 ≤ (i 1).val ∧ (i 1).val < win5_6.index t (1 : Fin 2) * 1 + 1; omega

/-- REGION 5, first output: the rows' scores against the first vector. -/
theorem region5_out4 (c : Dev nD) :
    ((dat5 (F := Ideal) V c).arrAt 4 cfg5.N : N1) = score (V c (Pipeline.arrRef spec5 0)) (V c (Pipeline.arrRef spec5 1)) :=
  (dat5 (F := Ideal) V c).arrAt_eq_of_cover 4 _ (fun t _ => flushed5_4_eq V c t) covered5_4

/-- REGION 5, second output: the rows' scores against the third vector. -/
theorem region5_out5 (c : Dev nD) :
    ((dat5 (F := Ideal) V c).arrAt 5 cfg5.N : N1) = score (V c (Pipeline.arrRef spec5 0)) (V c (Pipeline.arrRef spec5 3)) :=
  (dat5 (F := Ideal) V c).arrAt_eq_of_cover 5 _ (fun t _ => flushed5_5_eq V c t) covered5_5

/-- REGION 5, third output: the self-loop weights from the first and second vectors. -/
theorem region5_out6 (c : Dev nD) :
    ((dat5 (F := Ideal) V c).arrAt 6 cfg5.N : N1) = selfWeight (V c (Pipeline.arrRef spec5 0)) (V c (Pipeline.arrRef spec5 1)) (V c (Pipeline.arrRef spec5 2)) :=
  (dat5 (F := Ideal) V c).arrAt_eq_of_cover 6 _ (fun t _ => flushed5_6_eq V c t) covered5_6

end Region5

end Cert.ScoreRegions

end
-- ==== Proof.ScoreRegion12.lean ====
/-
  Attention-score region 12 of the kernel, read as whole arrays.

  A score region walks a node table in 40 blocks of 5000 rows.  At every block it reads the block's feature rows and
  three whole vectors `a1`, `a2`, `a3` of length 64 and writes, for each row `n`, the scores `Σ_c x(n,c)·a1(c)` and
  `Σ_c x(n,c)·a3(c)` and the self-loop weight `exp(leaky(Σ_c x(n,c)·a1(c) + Σ_c x(n,c)·a2(c)))`.  A score is a lane sum
  of the row against the vector laid along the rows; the row windows move with the block number and the vectors stay
  put, so each array a region leaves is that function of the arrays the region finds, index by index.
-/
import proofs.«154843_j76682346102829_2_alg».proof.Proof.Gen.KernelIdeal.Frame
import proofs.«154843_j76682346102829_2_alg».proof.Proof.ScoreEdgeSpec
import proofs.«154843_j76682346102829_2_alg».proof.Proof.LibBroadcast
import proofs.«154843_j76682346102829_2_alg».proof.Proof.LibRowFolds
import proofs.«154843_j76682346102829_2_alg».proof.Proof.ScoreLane
import Idealize.ShloMosaic.Lib.Pipeline.Value
import Idealize.ShloMosaic.Lib.ValueLayout

set_option maxRecDepth 16384

noncomputable section

namespace Cert.ScoreRegions

open Cert.KernelIdeal Cert.KernelIdeal.Gen Idealize.ShloMosaic Idealize.ShloMosaic.TcCoe Idealize.SL.Sem
open Idealize.ShloMosaic.ValueIdx Cert.ScoreEdge
open Cert.Net (N64 B64 N1 E1 E64)
open Idealize.ShloMosaic.Pipeline (Dat)

theorem hz2_12 : (![0, 0] : Fin 2 → Nat) = fun _ => 0 := funext fun a => by fin_cases a <;> rfl
theorem hz1_12 : (![0] : Fin 1 → Nat) = fun _ => 0 := funext fun a => by fin_cases a <;> rfl

/-! ## The body's arithmetic at an index -/

/-- Region 12: the three payloads at row `p`. -/
theorem k12_pay2_apply (v0 : Vec Ideal S5000x64 .f32) (v2 : Vec Ideal S64 .f32) (p : Fin 5000) :
    k12_pay2 (F := Ideal) v0 v2 (ix2 p (0 : Fin 1)) = ∑ k : Fin 64, v0 (ix2 p k) * v2 (ix1 k) :=
  laneDot v0 v2 p

theorem k12_pay3_apply (v0 : Vec Ideal S5000x64 .f32) (v8 : Vec Ideal S64 .f32) (p : Fin 5000) :
    k12_pay3 (F := Ideal) v0 v8 (ix2 p (0 : Fin 1)) = ∑ k : Fin 64, v0 (ix2 p k) * v8 (ix1 k) :=
  laneDot v0 v8 p

theorem k12_pay4_apply (v0 : Vec Ideal S5000x64 .f32) (v2 v5 : Vec Ideal S64 .f32) (p : Fin 5000) :
    k12_pay4 (F := Ideal) v0 v2 v5 (ix2 p (0 : Fin 1))
      = expLeaky ((∑ k : Fin 64, v0 (ix2 p k) * v2 (ix1 k)) + ∑ k : Fin 64, v0 (ix2 p k) * v5 (ix1 k)) := by
  rw [← k12_pay2_apply v0 v2 p, ← laneDot v0 v5 p]
  rfl

/-- Region 12: the payloads as functions of the block's index. -/
theorem k12_pay2_eq (v0 : Vec Ideal S5000x64 .f32) (v2 : Vec Ideal S64 .f32) :
    k12_pay2 (F := Ideal) v0 v2 = fun i => ∑ k : Fin 64, v0 (ix2 (i 0 : Fin 5000) k) * v2 (ix1 k) := by
  funext i
  obtain ⟨p, q, rfl⟩ : ∃ (p : Fin 5000) (q : Fin 1), i = ix2 p q := ⟨i 0, i 1, eq_ix2 i⟩
  obtain rfl : q = 0 := Subsingleton.elim q 0
  exact k12_pay2_apply v0 v2 p

theorem k12_pay3_eq (v0 : Vec Ideal S5000x64 .f32) (v8 : Vec Ideal S64 .f32) :
    k12_pay3 (F := Ideal) v0 v8 = fun i => ∑ k : Fin 64, v0 (ix2 (i 0 : Fin 5000) k) * v8 (ix1 k) := by
  funext i
  obtain ⟨p, q, rfl⟩ : ∃ (p : Fin 5000) (q : Fin 1), i = ix2 p q := ⟨i 0, i 1, eq_ix2 i⟩
  obtain rfl : q = 0 := Subsingleton.elim q 0
  exact k12_pay3_apply v0 v8 p

theorem k12_pay4_eq (v0 : Vec Ideal S5000x64 .f32) (v2 v5 : Vec Ideal S64 .f32) :
    k12_pay4 (F := Ideal) v0 v2 v5 = fun i => expLeaky ((∑ k : Fin 64, v0 (ix2 (i 0 : Fin 5000) k) * v2 (ix1 k))
      + ∑ k : Fin 64, v0 (ix2 (i 0 : Fin 5000) k) * v5 (ix1 k)) := by
  funext i
  obtain ⟨p, q, rfl⟩ : ∃ (p : Fin 5000) (q : Fin 1), i = ix2 p q := ⟨i 0, i 1, eq_ix2 i⟩
  obtain rfl : q = 0 := Subsingleton.elim q 0
  exact k12_pay4_apply v0 v2 v5 p

/-- Region 12: a block entry of a score column is the score of the arrays where the loaded blocks sit in them. -/
theorem k12_score2_block (A0 : N64) (A1 : B64) (x0 : Vec Ideal S5000x64 .f32) (x1 : Vec Ideal S64 .f32)
    (y : S5000x1.Idx) (i : S200000x1.Idx)
    (h0 : ∀ k : Fin 64, x0 (ix2 (y 0 : Fin 5000) k) = A0 (ix2 (i 0 : Fin 200000) k))
    (h1 : ∀ k : Fin 64, x1 (ix1 k) = A1 (ix1 k)) : k12_pay2 (F := Ideal) x0 x1 y = score A0 A1 i := by
  rw [k12_pay2_eq]
  show (∑ k : Fin 64, x0 (ix2 (y 0 : Fin 5000) k) * x1 (ix1 k))
      = ∑ k : Fin 64, (A0 (ix2 (i 0 : Fin 200000) k) : EReal) * (A1 (ix1 k) : EReal)
  refine Finset.sum_congr rfl fun k _ => ?_
  rw [h0 k, h1 k]

theorem k12_score3_block (A0 : N64) (A1 : B64) (x0 : Vec Ideal S5000x64 .f32) (x1 : Vec Ideal S64 .f32)
    (y : S5000x1.Idx) (i : S200000x1.Idx)
    (h0 : ∀ k : Fin 64, x0 (ix2 (y 0 : Fin 5000) k) = A0 (ix2 (i 0 : Fin 200000) k))
    (h1 : ∀ k : Fin 64, x1 (ix1 k) = A1 (ix1 k)) : k12_pay3 (F := Ideal) x0 x1 y = score A0 A1 i := by
  rw [k12_pay3_eq]
  show (∑ k : Fin 64, x0 (ix2 (y 0 : Fin 5000) k) * x1 (ix1 k))
      = ∑ k : Fin 64, (A0 (ix2 (i 0 : Fin 200000) k) : EReal) * (A1 (ix1 k) : EReal)
  refine Finset.sum_congr rfl fun k _ => ?_
  rw [h0 k, h1 k]

/-- Region 12: a block entry of the self-loop weights likewise. -/
theorem k12_self_block (A0 : N64) (A1 A2 : B64) (x0 : Vec Ideal S5000x64 .f32) (x1 x2 : Vec Ideal S64 .f32)
    (y : S5000x1.Idx) (i : S200000x1.Idx)
    (h0 : ∀ k : Fin 64, x0 (ix2 (y 0 : Fin 5000) k) = A0 (ix2 (i 0 : Fin 200000) k))
    (h1 : ∀ k : Fin 64, x1 (ix1 k) = A1 (ix1 k)) (h2 : ∀ k : Fin 64, x2 (ix1 k) = A2 (ix1 k)) :
    k12_pay4 (F := Ideal) x0 x1 x2 y = selfWeight A0 A1 A2 i := by
  rw [k12_pay4_eq]
  show expLeaky ((∑ k : Fin 64, x0 (ix2 (y 0 : Fin 5000) k) * x1 (ix1 k)) + ∑ k : Fin 64, x0 (ix2 (y 0 : Fin 5000) k) * x2 (ix1 k))
      = expLeaky ((∑ k : Fin 64, (A0 (ix2 (i 0 : Fin 200000) k) : EReal) * (A1 (ix1 k) : EReal))
        + ∑ k : Fin 64, (A0 (ix2 (i 0 : Fin 200000) k) : EReal) * (A2 (ix1 k) : EReal))
  simp only [h0, h1, h2]

/-! ## Region 12 -/

section Region12
variable (V : (c : Dev nD) → (b : Ref sig .tc) → Buf (Elt Ideal) ((c : Thread nD τ).loc b))

/-- At point `t` the row windows of region 12 sit on block `t` of their arrays' rows and the three vectors on their
    whole arrays. -/
theorem idx_facts12 : ∀ t : Fin cfg12.N,
    win12_0.index t (0 : Fin 2) = t.val ∧ win12_0.index t (1 : Fin 2) = 0
    ∧ win12_1.index t (0 : Fin 1) = 0 ∧ win12_2.index t (0 : Fin 1) = 0 ∧ win12_3.index t (0 : Fin 1) = 0
    ∧ win12_4.index t (0 : Fin 2) = t.val ∧ win12_4.index t (1 : Fin 2) = 0
    ∧ win12_5.index t (0 : Fin 2) = t.val ∧ win12_5.index t (1 : Fin 2) = 0
    ∧ win12_6.index t (0 : Fin 2) = t.val ∧ win12_6.index t (1 : Fin 2) = 0 :=
  (by decide +kernel : ∀ t : Fin grid12.N, _)

/-- Region 12, window 0: an entry of the block at point `t` is the array's entry `5000·t` rows further down. -/
theorem iblk12_0_apply (c : Dev nD) (t : Fin cfg12.N) (y : S5000x64.Idx) (i : S200000x64.Idx)
    (h0 : (i 0).val = t.val * 5000 + (y 0).val) (h1 : (i 1).val = (y 1).val) :
    (iblk12 V c 0 t : Vec Ideal S5000x64 .f32) y = (V c (Pipeline.arrRef spec12 0) : N64) i := by
  obtain ⟨e00, e01, e1, e2, e3, e40, e41, e50, e51, e60, e61⟩ := idx_facts12 t
  show (V c (Pipeline.arrRef spec12 0) : N64) _ = (V c (Pipeline.arrRef spec12 0) : N64) i
  refine congrArg _ ?_
  funext a; apply Fin.ext
  match a with
  | ⟨0, _⟩ => show win12_0.index t (0 : Fin 2) * 5000 + 1 * (y 0).val = (i 0).val; omega
  | ⟨1, _⟩ => show win12_0.index t (1 : Fin 2) * 64 + 1 * (y 1).val = (i 1).val; omega

/-- Region 12, window 1: the block of a vector window is the whole vector. -/
theorem iblk12_1_apply (c : Dev nD) (t : Fin cfg12.N) (y : S64.Idx) (i : S64.Idx) (h0 : (i 0).val = (y 0).val) :
    (iblk12 V c 1 t : Vec Ideal S64 .f32) y = (V c (Pipeline.arrRef spec12 1) : B64) i := by
  obtain ⟨e00, e01, e1, e2, e3, e40, e41, e50, e51, e60, e61⟩ := idx_facts12 t
  show (V c (Pipeline.arrRef spec12 1) : B64) _ = (V c (Pipeline.arrRef spec12 1) : B64) i
  refine congrArg _ ?_
  funext a; apply Fin.ext
  match a with
  | ⟨0, _⟩ => show win12_1.index t (0 : Fin 1) * 64 + 1 * (y 0).val = (i 0).val; omega

/-- Region 12, window 2: the block of a vector window is the whole vector. -/
theorem iblk12_2_apply (c : Dev nD) (t : Fin cfg12.N) (y : S64.Idx) (i : S64.Idx) (h0 : (i 0).val = (y 0).val) :
    (iblk12 V c 2 t : Vec Ideal S64 .f32) y = (V c (Pipeline.arrRef spec12 2) : B64) i := by
  obtain ⟨e00, e01, e1, e2, e3, e40, e41, e50, e51, e60, e61⟩ := idx_facts12 t
  show (V c (Pipeline.arrRef spec12 2) : B64) _ = (V c (Pipeline.arrRef spec12 2) : B64) i
  refine congrArg _ ?_
  funext a; apply Fin.ext
  match a with
  | ⟨0, _⟩ => show win12_2.index t (0 : Fin 1) * 64 + 1 * (y 0).val = (i 0).val; omega

/-- Region 12, window 3: the block of a vector window is the whole vector. -/
theorem iblk12_3_apply (c : Dev nD) (t : Fin cfg12.N) (y : S64.Idx) (i : S64.Idx) (h0 : (i 0).val = (y 0).val) :
    (iblk12 V c 3 t : Vec Ideal S64 .f32) y = (V c (Pipeline.arrRef spec12 3) : B64) i := by
  obtain ⟨e00, e01, e1, e2, e3, e40, e41, e50, e51, e60, e61⟩ := idx_facts12 t
  show (V c (Pipeline.arrRef spec12 3) : B64) _ = (V c (Pipeline.arrRef spec12 3) : B64) i
  refine congrArg _ ?_
  funext a; apply Fin.ext
  match a with
  | ⟨0, _⟩ => show win12_3.index t (0 : Fin 1) * 64 + 1 * (y 0).val = (i 0).val; omega

/-! What point `t` writes back to each output is block `t` of the stage's function of the arrays the region finds. -/

theorem flushed12_4_eq (c : Dev nD) (t : Fin cfg12.N) :
    (dat12 (F := Ideal) V c).flushed 4 t = ((cfg12.win 4).blk t).view.read (Elt Ideal)
      (score (V c (Pipeline.arrRef spec12 0)) (V c (Pipeline.arrRef spec12 1))) := by
  show (cfg12.win 4).cut (grid12.coords t) ((dat12 (F := Ideal) V c).after 4 t) = _
  rw [after12_4]
  unfold out12_4
  rw [View.canon_unit_zero hz2_12]
  simp only [View.ld_unit_zero (S := S5000x64) hz2_12, View.ld_unit_zero (S := S64) hz1_12]
  obtain ⟨e00, e01, e1, e2, e3, e40, e41, e50, e51, e60, e61⟩ := idx_facts12 t
  funext j
  have g0 : ((((cfg12.win 4).blk t).view.emb j) 0).val = t.val * 5000 + (j 0).val := by
    show win12_4.index t (0 : Fin 2) * 5000 + 1 * (j 0).val = _; omega
  exact k12_score2_block (V c (Pipeline.arrRef spec12 0)) (V c (Pipeline.arrRef spec12 1)) (iblk12 V c 0 t) (iblk12 V c 1 t) j (((cfg12.win 4).blk t).view.emb j)
    (fun k => iblk12_0_apply V c t (ix2 (j 0 : Fin 5000) k) (ix2 ((((cfg12.win 4).blk t).view.emb j) 0 : Fin 200000) k) g0 rfl)
    (fun k => iblk12_1_apply V c t (ix1 k) (ix1 k) rfl)

theorem flushed12_5_eq (c : Dev nD) (t : Fin cfg12.N) :
    (dat12 (F := Ideal) V c).flushed 5 t = ((cfg12.win 5).blk t).view.read (Elt Ideal)
      (score (V c (Pipeline.arrRef spec12 0)) (V c (Pipeline.arrRef spec12 3))) := by
  show (cfg12.win 5).cut (grid12.coords t) ((dat12 (F := Ideal) V c).after 5 t) = _
  rw [after12_5]
  unfold out12_5
  rw [View.canon_unit_zero hz2_12]
  simp only [View.ld_unit_zero (S := S5000x64) hz2_12, View.ld_unit_zero (S := S64) hz1_12]
  obtain ⟨e00, e01, e1, e2, e3, e40, e41, e50, e51, e60, e61⟩ := idx_facts12 t
  funext j
  have g0 : ((((cfg12.win 5).blk t).view.emb j) 0).val = t.val * 5000 + (j 0).val := by
    show win12_5.index t (0 : Fin 2) * 5000 + 1 * (j 0).val = _; omega
  exact k12_score3_block (V c (Pipeline.arrRef spec12 0)) (V c (Pipeline.arrRef spec12 3)) (iblk12 V c 0 t) (iblk12 V c 3 t) j (((cfg12.win 5).blk t).view.emb j)
    (fun k => iblk12_0_apply V c t (ix2 (j 0 : Fin 5000) k) (ix2 ((((cfg12.win 5).blk t).view.emb j) 0 : Fin 200000) k) g0 rfl)
    (fun k => iblk12_3_apply V c t (ix1 k) (ix1 k) rfl)

theorem flushed12_6_eq (c : Dev nD) (t : Fin cfg12.N) :
    (dat12 (F := Ideal) V c).flushed 6 t = ((cfg12.win 6).blk t).view.read (Elt Ideal)
      (selfWeight (V c (Pipeline.arrRef spec12 0)) (V c (Pipeline.arrRef spec12 1)) (V c (Pipeline.arrRef spec12 2))) := by
  show (cfg12.win 6).cut (grid12.coords t) ((dat12 (F := Ideal) V c).after 6 t) = _
  rw [after12_6]
  unfold out12_6
  rw [View.canon_unit_zero hz2_12]
  simp only [View.ld_unit_zero (S := S5000x64) hz2_12, View.ld_unit_zero (S := S64) hz1_12]
  obtain ⟨e00, e01, e1, e2, e3, e40, e41, e50, e51, e60, e61⟩ := idx_facts12 t
  funext j
  have g0 : ((((cfg12.win 6).blk t).view.emb j) 0).val = t.val * 5000 + (j 0).val := by
    show win12_6.index t (0 : Fin 2) * 5000 + 1 * (j 0).val = _; omega
  exact k12_self_block (V c (Pipeline.arrRef spec12 0)) (V c (Pipeline.arrRef spec12 1)) (V c (Pipeline.arrRef spec12 2)) (iblk12 V c 0 t) (iblk12 V c 1 t) (iblk12 V c 2 t) j (((cfg12.win 6).blk t).view.emb j)
    (fun k => iblk12_0_apply V c t (ix2 (j 0 : Fin 5000) k) (ix2 ((((cfg12.win 6).blk t).view.emb j) 0 : Fin 200000) k) g0 rfl)
    (fun k => iblk12_1_apply V c t (ix1 k) (ix1 k) rfl) (fun k => iblk12_2_apply V c t (ix1 k) (ix1 k) rfl)

theorem mem_blk12_4 (t : Fin cfg12.N) (i : S200000x1.Idx) :
    i ∈ ((cfg12.win 4).blk t).view.set ↔ ∀ a : Fin 2, win12_4.index t a * S5000x1.size a ≤ (i a).val ∧ (i a).val < win12_4.index t a * S5000x1.size a + S5000x1.size a := by
  show i ∈ ((View.whole main_v72_0).slice (win12_4.rect t)).set ↔ _
  rw [View.set_slice_whole, Rect.mem_set_unit]
  exact Iff.rfl

/-- Row `r` is written back by point `r / 5000`. -/
theorem covered12_4 (i : S200000x1.Idx) :
    ∃ t : Fin cfg12.N, (cfg12.win 4).flush t = true ∧ i ∈ ((cfg12.win 4).blk t).view.set := by
  have hi0 : (i 0).val < 200000 := (i 0).isLt
  have hi1 : (i 1).val < 1 := (i 1).isLt
  obtain ⟨t, ht⟩ : ∃ t : Fin cfg12.N, t.val = (i 0).val / 5000 :=
    ⟨⟨(i 0).val / 5000, by rw [show cfg12.N = 40 from N_12]; omega⟩, rfl⟩
  obtain ⟨e00, e01, e1, e2, e3, e40, e41, e50, e51, e60, e61⟩ := idx_facts12 t
  refine ⟨t, flush12_4 t, ?_⟩
  rw [mem_blk12_4]
  intro a
  match a with
  | ⟨0, _⟩ => show win12_4.index t (0 : Fin 2) * 5000 ≤ (i 0).val ∧ (i 0).val < win12_4.index t (0 : Fin 2) * 5000 + 5000; omega
  | ⟨1, _⟩ => show win12_4.index t (1 : Fin 2) * 1 ≤ (i 1).val ∧ (i 1).val < win12_4.index t (1 : Fin 2) * 1 + 1; omega

theorem mem_blk12_5 (t : Fin cfg12.N) (i : S200000x1.Idx) :
    i ∈ ((cfg12.win 5).blk t).view.set ↔ ∀ a : Fin 2, win12_5.index t a * S5000x1.size a ≤ (i a).val ∧ (i a).val < win12_5.index t a * S5000x1.size a + S5000x1.size a := by
  show i ∈ ((View.whole main_v72_1).slice (win12_5.rect t)).set ↔ _
  rw [View.set_slice_whole, Rect.mem_set_unit]
  exact Iff.rfl

/-- Row `r` is written back by point `r / 5000`. -/
theorem covered12_5 (i : S200000x1.Idx) :
    ∃ t : Fin cfg12.N, (cfg12.win 5).flush t = true ∧ i ∈ ((cfg12.win 5).blk t).view.set := by
  have hi0 : (i 0).val < 200000 := (i 0).isLt
  have hi1 : (i 1).val < 1 := (i 1).isLt
  obtain ⟨t, ht⟩ : ∃ t : Fin cfg12.N, t.val = (i 0).val / 5000 :=
    ⟨⟨(i 0).val / 5000, by rw [show cfg12.N = 40 from N_12]; omega⟩, rfl⟩
  obtain ⟨e00, e01, e1, e2, e3, e40, e41, e50, e51, e60, e61⟩ := idx_facts12 t
  refine ⟨t, flush12_5 t, ?_⟩
  rw [mem_blk12_5]
  intro a
  match a with
  | ⟨0, _⟩ => show win12_5.index t (0 : Fin 2) * 5000 ≤ (i 0).val ∧ (i 0).val < win12_5.index t (0 : Fin 2) * 5000 + 5000; omega
  | ⟨1, _⟩ => show win12_5.index t (1 : Fin 2) * 1 ≤ (i 1).val ∧ (i 1).val < win12_5.index t (1 : Fin 2) * 1 + 1; omega

theorem mem_blk12_6 (t : Fin cfg12.N) (i : S200000x1.Idx) :
    i ∈ ((cfg12.win 6).blk t).view.set ↔ ∀ a : Fin 2, win12_6.index t a * S5000x1.size a ≤ (i a).val ∧ (i a).val < win12_6.index t a * S5000x1.size a + S5000x1.size a := by
  show i ∈ ((View.whole main_v72_2).slice (win12_6.rect t)).set ↔ _
  rw [View.set_slice_whole, Rect.mem_set_unit]
  exact Iff.rfl

/-- Row `r` is written back by point `r / 5000`. -/
theorem covered12_6 (i : S200000x1.Idx) :
    ∃ t : Fin cfg12.N, (cfg12.win 6).flush t = true ∧ i ∈ ((cfg12.win 6).blk t).view.set := by
  have hi0 : (i 0).val < 200000 := (i 0).isLt
  have hi1 : (i 1).val < 1 := (i 1).isLt
  obtain ⟨t, ht⟩ : ∃ t : Fin cfg12.N, t.val = (i 0).val / 5000 :=
    ⟨⟨(i 0).val / 5000, by rw [show cfg12.N = 40 from N_12]; omega⟩, rfl⟩
  obtain ⟨e00, e01, e1, e2, e3, e40, e41, e50, e51, e60, e61⟩ := idx_facts12 t
  refine ⟨t, flush12_6 t, ?_⟩
  rw [mem_blk12_6]
  intro a
  match a with
  | ⟨0, _⟩ => show win12_6.index t (0 : Fin 2) * 5000 ≤ (i 0).val ∧ (i 0).val < win12_6.index t (0 : Fin 2) * 5000 + 5000; omega
  | ⟨1, _⟩ => show win12_6.index t (1 : Fin 2) * 1 ≤ (i 1).val ∧ (i 1).val < win12_6.index t (1 : Fin 2) * 1 + 1; omega

/-- REGION 12, first output: the rows' scores against the first vector. -/
theorem region12_out4 (c : Dev nD) :
    ((dat12 (F := Ideal) V c).arrAt 4 cfg12.N : N1) = score (V c (Pipeline.arrRef spec12 0)) (V c (Pipeline.arrRef spec12 1)) :=
  (dat12 (F := Ideal) V c).arrAt_eq_of_cover 4 _ (fun t _ => flushed12_4_eq V c t) covered12_4

/-- REGION 12, second output: the rows' scores against the third vector. -/
theorem region12_out5 (c : Dev nD) :
    ((dat12 (F := Ideal) V c).arrAt 5 cfg12.N : N1) = score (V c (Pipeline.arrRef spec12 0)) (V c (Pipeline.arrRef spec12 3)) :=
  (dat12 (F := Ideal) V c).arrAt_eq_of_cover 5 _ (fun t _ => flushed12_5_eq V c t) covered12_5

/-- REGION 12, third output: the self-loop weights from the first and second vectors. -/
theorem region12_out6 (c : Dev nD) :
    ((dat12 (F := Ideal) V c).arrAt 6 cfg12.N : N1) = selfWeight (V c (Pipeline.arrRef spec12 0)) (V c (Pipeline.arrRef spec12 1)) (V c (Pipeline.arrRef spec12 2)) :=
  (dat12 (F := Ideal) V c).arrAt_eq_of_cover 6 _ (fun t _ => flushed12_6_eq V c t) covered12_6

end Region12

end Cert.ScoreRegions

end
-- ==== Proof.ScoreRegion13.lean ====
/-
  Attention-score region 13 of the kernel, read as whole arrays.

  A score region walks a node table in 40 blocks of 5000 rows.  At every block it reads the block's feature rows and
  three whole vectors `a1`, `a2`, `a3` of length 64 and writes, for each row `n`, the scores `Σ_c x(n,c)·a1(c)` and
  `Σ_c x(n,c)·a3(c)` and the self-loop weight `exp(leaky(Σ_c x(n,c)·a1(c) + Σ_c x(n,c)·a2(c)))`.  A score is a lane sum
  of the row against the vector laid along the rows; the row windows move with the block number and the vectors stay
  put, so each array a region leaves is that function of the arrays the region finds, index by index.
-/
import proofs.«154843_j76682346102829_2_alg».proof.Proof.Gen.KernelIdeal.Frame
import proofs.«154843_j76682346102829_2_alg».proof.Proof.ScoreEdgeSpec
import proofs.«154843_j76682346102829_2_alg».proof.Proof.LibBroadcast
import proofs.«154843_j76682346102829_2_alg».proof.Proof.LibRowFolds
import proofs.«154843_j76682346102829_2_alg».proof.Proof.ScoreLane
import Idealize.ShloMosaic.Lib.Pipeline.Value
import Idealize.ShloMosaic.Lib.ValueLayout

set_option maxRecDepth 16384

noncomputable section

namespace Cert.ScoreRegions

open Cert.KernelIdeal Cert.KernelIdeal.Gen Idealize.ShloMosaic Idealize.ShloMosaic.TcCoe Idealize.SL.Sem
open Idealize.ShloMosaic.ValueIdx Cert.ScoreEdge
open Cert.Net (N64 B64 N1 E1 E64)
open Idealize.ShloMosaic.Pipeline (Dat)

theorem hz2_13 : (![0, 0] : Fin 2 → Nat) = fun _ => 0 := funext fun a => by fin_cases a <;> rfl
theorem hz1_13 : (![0] : Fin 1 → Nat) = fun _ => 0 := funext fun a => by fin_cases a <;> rfl

/-! ## The body's arithmetic at an index -/

/-- Region 13: the three payloads at row `p`. -/
theorem k13_pay2_apply (v0 : Vec Ideal S5000x64 .f32) (v2 : Vec Ideal S64 .f32) (p : Fin 5000) :
    k13_pay2 (F := Ideal) v0 v2 (ix2 p (0 : Fin 1)) = ∑ k : Fin 64, v0 (ix2 p k) * v2 (ix1 k) :=
  laneDot v0 v2 p

theorem k13_pay3_apply (v0 : Vec Ideal S5000x64 .f32) (v8 : Vec Ideal S64 .f32) (p : Fin 5000) :
    k13_pay3 (F := Ideal) v0 v8 (ix2 p (0 : Fin 1)) = ∑ k : Fin 64, v0 (ix2 p k) * v8 (ix1 k) :=
  laneDot v0 v8 p

theorem k13_pay4_apply (v0 : Vec Ideal S5000x64 .f32) (v2 v5 : Vec Ideal S64 .f32) (p : Fin 5000) :
    k13_pay4 (F := Ideal) v0 v2 v5 (ix2 p (0 : Fin 1))
      = expLeaky ((∑ k : Fin 64, v0 (ix2 p k) * v2 (ix1 k)) + ∑ k : Fin 64, v0 (ix2 p k) * v5 (ix1 k)) := by
  rw [← k13_pay2_apply v0 v2 p, ← laneDot v0 v5 p]
  rfl

/-- Region 13: the payloads as functions of the block's index. -/
theorem k13_pay2_eq (v0 : Vec Ideal S5000x64 .f32) (v2 : Vec Ideal S64 .f32) :
    k13_pay2 (F := Ideal) v0 v2 = fun i => ∑ k : Fin 64, v0 (ix2 (i 0 : Fin 5000) k) * v2 (ix1 k) := by
  funext i
  obtain ⟨p, q, rfl⟩ : ∃ (p : Fin 5000) (q : Fin 1), i = ix2 p q := ⟨i 0, i 1, eq_ix2 i⟩
  obtain rfl : q = 0 := Subsingleton.elim q 0
  exact k13_pay2_apply v0 v2 p

theorem k13_pay3_eq (v0 : Vec Ideal S5000x64 .f32) (v8 : Vec Ideal S64 .f32) :
    k13_pay3 (F := Ideal) v0 v8 = fun i => ∑ k : Fin 64, v0 (ix2 (i 0 : Fin 5000) k) * v8 (ix1 k) := by
  funext i
  obtain ⟨p, q, rfl⟩ : ∃ (p : Fin 5000) (q : Fin 1), i = ix2 p q := ⟨i 0, i 1, eq_ix2 i⟩
  obtain rfl : q = 0 := Subsingleton.elim q 0
  exact k13_pay3_apply v0 v8 p

theorem k13_pay4_eq (v0 : Vec Ideal S5000x64 .f32) (v2 v5 : Vec Ideal S64 .f32) :
    k13_pay4 (F := Ideal) v0 v2 v5 = fun i => expLeaky ((∑ k : Fin 64, v0 (ix2 (i 0 : Fin 5000) k) * v2 (ix1 k))
      + ∑ k : Fin 64, v0 (ix2 (i 0 : Fin 5000) k) * v5 (ix1 k)) := by
  funext i
  obtain ⟨p, q, rfl⟩ : ∃ (p : Fin 5000) (q : Fin 1), i = ix2 p q := ⟨i 0, i 1, eq_ix2 i⟩
  obtain rfl : q = 0 := Subsingleton.elim q 0
  exact k13_pay4_apply v0 v2 v5 p

/-- Region 13: a block entry of a score column is the score of the arrays where the loaded blocks sit in them. -/
theorem k13_score2_block (A0 : N64) (A1 : B64) (x0 : Vec Ideal S5000x64 .f32) (x1 : Vec Ideal S64 .f32)
    (y : S5000x1.Idx) (i : S200000x1.Idx)
    (h0 : ∀ k : Fin 64, x0 (ix2 (y 0 : Fin 5000) k) = A0 (ix2 (i 0 : Fin 200000) k))
    (h1 : ∀ k : Fin 64, x1 (ix1 k) = A1 (ix1 k)) : k13_pay2 (F := Ideal) x0 x1 y = score A0 A1 i := by
  rw [k13_pay2_eq]
  show (∑ k : Fin 64, x0 (ix2 (y 0 : Fin 5000) k) * x1 (ix1 k))
      = ∑ k : Fin 64, (A0 (ix2 (i 0 : Fin 200000) k) : EReal) * (A1 (ix1 k) : EReal)
  refine Finset.sum_congr rfl fun k _ => ?_
  rw [h0 k, h1 k]

theorem k13_score3_block (A0 : N64) (A1 : B64) (x0 : Vec Ideal S5000x64 .f32) (x1 : Vec Ideal S64 .f32)
    (y : S5000x1.Idx) (i : S200000x1.Idx)
    (h0 : ∀ k : Fin 64, x0 (ix2 (y 0 : Fin 5000) k) = A0 (ix2 (i 0 : Fin 200000) k))
    (h1 : ∀ k : Fin 64, x1 (ix1 k) = A1 (ix1 k)) : k13_pay3 (F := Ideal) x0 x1 y = score A0 A1 i := by
  rw [k13_pay3_eq]
  show (∑ k : Fin 64, x0 (ix2 (y 0 : Fin 5000) k) * x1 (ix1 k))
      = ∑ k : Fin 64, (A0 (ix2 (i 0 : Fin 200000) k) : EReal) * (A1 (ix1 k) : EReal)
  refine Finset.sum_congr rfl fun k _ => ?_
  rw [h0 k, h1 k]

/-- Region 13: a block entry of the self-loop weights likewise. -/
theorem k13_self_block (A0 : N64) (A1 A2 : B64) (x0 : Vec Ideal S5000x64 .f32) (x1 x2 : Vec Ideal S64 .f32)
    (y : S5000x1.Idx) (i : S200000x1.Idx)
    (h0 : ∀ k : Fin 64, x0 (ix2 (y 0 : Fin 5000) k) = A0 (ix2 (i 0 : Fin 200000) k))
    (h1 : ∀ k : Fin 64, x1 (ix1 k) = A1 (ix1 k)) (h2 : ∀ k : Fin 64, x2 (ix1 k) = A2 (ix1 k)) :
    k13_pay4 (F := Ideal) x0 x1 x2 y = selfWeight A0 A1 A2 i := by
  rw [k13_pay4_eq]
  show expLeaky ((∑ k : Fin 64, x0 (ix2 (y 0 : Fin 5000) k) * x1 (ix1 k)) + ∑ k : Fin 64, x0 (ix2 (y 0 : Fin 5000) k) * x2 (ix1 k))
      = expLeaky ((∑ k : Fin 64, (A0 (ix2 (i 0 : Fin 200000) k) : EReal) * (A1 (ix1 k) : EReal))
        + ∑ k : Fin 64, (A0 (ix2 (i 0 : Fin 200000) k) : EReal) * (A2 (ix1 k) : EReal))
  simp only [h0, h1, h2]

/-! ## Region 13 -/

section Region13
variable (V : (c : Dev nD) → (b : Ref sig .tc) → Buf (Elt Ideal) ((c : Thread nD τ).loc b))

/-- At point `t` the row windows of region 13 sit on block `t` of their arrays' rows and the three vectors on their
    whole arrays. -/
theorem idx_facts13 : ∀ t : Fin cfg13.N,
    win13_0.index t (0 : Fin 2) = t.val ∧ win13_0.index t (1 : Fin 2) = 0
    ∧ win13_1.index t (0 : Fin 1) = 0 ∧ win13_2.index t (0 : Fin 1) = 0 ∧ win13_3.index t (0 : Fin 1) = 0
    ∧ win13_4.index t (0 : Fin 2) = t.val ∧ win13_4.index t (1 : Fin 2) = 0
    ∧ win13_5.index t (0 : Fin 2) = t.val ∧ win13_5.index t (1 : Fin 2) = 0
    ∧ win13_6.index t (0 : Fin 2) = t.val ∧ win13_6.index t (1 : Fin 2) = 0 :=
  (by decide +kernel : ∀ t : Fin grid13.N, _)

/-- Region 13, window 0: an entry of the block at point `t` is the array's entry `5000·t` rows further down. -/
theorem iblk13_0_apply (c : Dev nD) (t : Fin cfg13.N) (y : S5000x64.Idx) (i : S200000x64.Idx)
    (h0 : (i 0).val = t.val * 5000 + (y 0).val) (h1 : (i 1).val = (y 1).val) :
    (iblk13 V c 0 t : Vec Ideal S5000x64 .f32) y = (V c (Pipeline.arrRef spec13 0) : N64) i := by
  obtain ⟨e00, e01, e1, e2, e3, e40, e41, e50, e51, e60, e61⟩ := idx_facts13 t
  show (V c (Pipeline.arrRef spec13 0) : N64) _ = (V c (Pipeline.arrRef spec13 0) : N64) i
  refine congrArg _ ?_
  funext a; apply Fin.ext
  match a with
  | ⟨0, _⟩ => show win13_0.index t (0 : Fin 2) * 5000 + 1 * (y 0).val = (i 0).val; omega
  | ⟨1, _⟩ => show win13_0.index t (1 : Fin 2) * 64 + 1 * (y 1).val = (i 1).val; omega

/-- Region 13, window 1: the block of a vector window is the whole vector. -/
theorem iblk13_1_apply (c : Dev nD) (t : Fin cfg13.N) (y : S64.Idx) (i : S64.Idx) (h0 : (i 0).val = (y 0).val) :
    (iblk13 V c 1 t : Vec Ideal S64 .f32) y = (V c (Pipeline.arrRef spec13 1) : B64) i := by
  obtain ⟨e00, e01, e1, e2, e3, e40, e41, e50, e51, e60, e61⟩ := idx_facts13 t
  show (V c (Pipeline.arrRef spec13 1) : B64) _ = (V c (Pipeline.arrRef spec13 1) : B64) i
  refine congrArg _ ?_
  funext a; apply Fin.ext
  match a with
  | ⟨0, _⟩ => show win13_1.index t (0 : Fin 1) * 64 + 1 * (y 0).val = (i 0).val; omega

/-- Region 13, window 2: the block of a vector window is the whole vector. -/
theorem iblk13_2_apply (c : Dev nD) (t : Fin cfg13.N) (y : S64.Idx) (i : S64.Idx) (h0 : (i 0).val = (y 0).val) :
    (iblk13 V c 2 t : Vec Ideal S64 .f32) y = (V c (Pipeline.arrRef spec13 2) : B64) i := by
  obtain ⟨e00, e01, e1, e2, e3, e40, e41, e50, e51, e60, e61⟩ := idx_facts13 t
  show (V c (Pipeline.arrRef spec13 2) : B64) _ = (V c (Pipeline.arrRef spec13 2) : B64) i
  refine congrArg _ ?_
  funext a; apply Fin.ext
  match a with
  | ⟨0, _⟩ => show win13_2.index t (0 : Fin 1) * 64 + 1 * (y 0).val = (i 0).val; omega

/-- Region 13, window 3: the block of a vector window is the whole vector. -/
theorem iblk13_3_apply (c : Dev nD) (t : Fin cfg13.N) (y : S64.Idx) (i : S64.Idx) (h0 : (i 0).val = (y 0).val) :
    (iblk13 V c 3 t : Vec Ideal S64 .f32) y = (V c (Pipeline.arrRef spec13 3) : B64) i := by
  obtain ⟨e00, e01, e1, e2, e3, e40, e41, e50, e51, e60, e61⟩ := idx_facts13 t
  show (V c (Pipeline.arrRef spec13 3) : B64) _ = (V c (Pipeline.arrRef spec13 3) : B64) i
  refine congrArg _ ?_
  funext a; apply Fin.ext
  match a with
  | ⟨0, _⟩ => show win13_3.index t (0 : Fin 1) * 64 + 1 * (y 0).val = (i 0).val; omega

/-! What point `t` writes back to each output is block `t` of the stage's function of the arrays the region finds. -/

theorem flushed13_4_eq (c : Dev nD) (t : Fin cfg13.N) :
    (dat13 (F := Ideal) V c).flushed 4 t = ((cfg13.win 4).blk t).view.read (Elt Ideal)
      (score (V c (Pipeline.arrRef spec13 0)) (V c (Pipeline.arrRef spec13 1))) := by
  show (cfg13.win 4).cut (grid13.coords t) ((dat13 (F := Ideal) V c).after 4 t) = _
  rw [after13_4]
  unfold out13_4
  rw [View.canon_unit_zero hz2_13]
  simp only [View.ld_unit_zero (S := S5000x64) hz2_13, View.ld_unit_zero (S := S64) hz1_13]
  obtain ⟨e00, e01, e1, e2, e3, e40, e41, e50, e51, e60, e61⟩ := idx_facts13 t
  funext j
  have g0 : ((((cfg13.win 4).blk t).view.emb j) 0).val = t.val * 5000 + (j 0).val := by
    show win13_4.index t (0 : Fin 2) * 5000 + 1 * (j 0).val = _; omega
  exact k13_score2_block (V c (Pipeline.arrRef spec13 0)) (V c (Pipeline.arrRef spec13 1)) (iblk13 V c 0 t) (iblk13 V c 1 t) j (((cfg13.win 4).blk t).view.emb j)
    (fun k => iblk13_0_apply V c t (ix2 (j 0 : Fin 5000) k) (ix2 ((((cfg13.win 4).blk t).view.emb j) 0 : Fin 200000) k) g0 rfl)
    (fun k => iblk13_1_apply V c t (ix1 k) (ix1 k) rfl)

theorem flushed13_5_eq (c : Dev nD) (t : Fin cfg13.N) :
    (dat13 (F := Ideal) V c).flushed 5 t = ((cfg13.win 5).blk t).view.read (Elt Ideal)
      (score (V c (Pipeline.arrRef spec13 0)) (V c (Pipeline.arrRef spec13 3))) := by
  show (cfg13.win 5).cut (grid13.coords t) ((dat13 (F := Ideal) V c).after 5 t) = _
  rw [after13_5]
  unfold out13_5
  rw [View.canon_unit_zero hz2_13]
  simp only [View.ld_unit_zero (S := S5000x64) hz2_13, View.ld_unit_zero (S := S64) hz1_13]
  obtain ⟨e00, e01, e1, e2, e3, e40, e41, e50, e51, e60, e61⟩ := idx_facts13 t
  funext j
  have g0 : ((((cfg13.win 5).blk t).view.emb j) 0).val = t.val * 5000 + (j 0).val := by
    show win13_5.index t (0 : Fin 2) * 5000 + 1 * (j 0).val = _; omega
  exact k13_score3_block (V c (Pipeline.arrRef spec13 0)) (V c (Pipeline.arrRef spec13 3)) (iblk13 V c 0 t) (iblk13 V c 3 t) j (((cfg13.win 5).blk t).view.emb j)
    (fun k => iblk13_0_apply V c t (ix2 (j 0 : Fin 5000) k) (ix2 ((((cfg13.win 5).blk t).view.emb j) 0 : Fin 200000) k) g0 rfl)
    (fun k => iblk13_3_apply V c t (ix1 k) (ix1 k) rfl)

theorem flushed13_6_eq (c : Dev nD) (t : Fin cfg13.N) :
    (dat13 (F := Ideal) V c).flushed 6 t = ((cfg13.win 6).blk t).view.read (Elt Ideal)
      (selfWeight (V c (Pipeline.arrRef spec13 0)) (V c (Pipeline.arrRef spec13 1)) (V c (Pipeline.arrRef spec13 2))) := by
  show (cfg13.win 6).cut (grid13.coords t) ((dat13 (F := Ideal) V c).after 6 t) = _
  rw [after13_6]
  unfold out13_6
  rw [View.canon_unit_zero hz2_13]
  simp only [View.ld_unit_zero (S := S5000x64) hz2_13, View.ld_unit_zero (S := S64) hz1_13]
  obtain ⟨e00, e01, e1, e2, e3, e40, e41, e50, e51, e60, e61⟩ := idx_facts13 t
  funext j
  have g0 : ((((cfg13.win 6).blk t).view.emb j) 0).val = t.val * 5000 + (j 0).val := by
    show win13_6.index t (0 : Fin 2) * 5000 + 1 * (j 0).val = _; omega
  exact k13_self_block (V c (Pipeline.arrRef spec13 0)) (V c (Pipeline.arrRef spec13 1)) (V c (Pipeline.arrRef spec13 2)) (iblk13 V c 0 t) (iblk13 V c 1 t) (iblk13 V c 2 t) j (((cfg13.win 6).blk t).view.emb j)
    (fun k => iblk13_0_apply V c t (ix2 (j 0 : Fin 5000) k) (ix2 ((((cfg13.win 6).blk t).view.emb j) 0 : Fin 200000) k) g0 rfl)
    (fun k => iblk13_1_apply V c t (ix1 k) (ix1 k) rfl) (fun k => iblk13_2_apply V c t (ix1 k) (ix1 k) rfl)

theorem mem_blk13_4 (t : Fin cfg13.N) (i : S200000x1.Idx) :
    i ∈ ((cfg13.win 4).blk t).view.set ↔ ∀ a : Fin 2, win13_4.index t a * S5000x1.size a ≤ (i a).val ∧ (i a).val < win13_4.index t a * S5000x1.size a + S5000x1.size a := by
  show i ∈ ((View.whole main_v79_0).slice (win13_4.rect t)).set ↔ _
  rw [View.set_slice_whole, Rect.mem_set_unit]
  exact Iff.rfl

/-- Row `r` is written back by point `r / 5000`. -/
theorem covered13_4 (i : S200000x1.Idx) :
    ∃ t : Fin cfg13.N, (cfg13.win 4).flush t = true ∧ i ∈ ((cfg13.win 4).blk t).view.set := by
  have hi0 : (i 0).val < 200000 := (i 0).isLt
  have hi1 : (i 1).val < 1 := (i 1).isLt
  obtain ⟨t, ht⟩ : ∃ t : Fin cfg13.N, t.val = (i 0).val / 5000 :=
    ⟨⟨(i 0).val / 5000, by rw [show cfg13.N = 40 from N_13]; omega⟩, rfl⟩
  obtain ⟨e00, e01, e1, e2, e3, e40, e41, e50, e51, e60, e61⟩ := idx_facts13 t
  refine ⟨t, flush13_4 t, ?_⟩
  rw [mem_blk13_4]
  intro a
  match a with
  | ⟨0, _⟩ => show win13_4.index t (0 : Fin 2) * 5000 ≤ (i 0).val ∧ (i 0).val < win13_4.index t (0 : Fin 2) * 5000 + 5000; omega
  | ⟨1, _⟩ => show win13_4.index t (1 : Fin 2) * 1 ≤ (i 1).val ∧ (i 1).val < win13_4.index t (1 : Fin 2) * 1 + 1; omega

theorem mem_blk13_5 (t : Fin cfg13.N) (i : S200000x1.Idx) :
    i ∈ ((cfg13.win 5).blk t).view.set ↔ ∀ a : Fin 2, win13_5.index t a * S5000x1.size a ≤ (i a).val ∧ (i a).val < win13_5.index t a * S5000x1.size a + S5000x1.size a := by
  show i ∈ ((View.whole main_v79_1).slice (win13_5.rect t)).set ↔ _
  rw [View.set_slice_whole, Rect.mem_set_unit]
  exact Iff.rfl

/-- Row `r` is written back by point `r / 5000`. -/
theorem covered13_5 (i : S200000x1.Idx) :
    ∃ t : Fin cfg13.N, (cfg13.win 5).flush t = true ∧ i ∈ ((cfg13.win 5).blk t).view.set := by
  have hi0 : (i 0).val < 200000 := (i 0).isLt
  have hi1 : (i 1).val < 1 := (i 1).isLt
  obtain ⟨t, ht⟩ : ∃ t : Fin cfg13.N, t.val = (i 0).val / 5000 :=
    ⟨⟨(i 0).val / 5000, by rw [show cfg13.N = 40 from N_13]; omega⟩, rfl⟩
  obtain ⟨e00, e01, e1, e2, e3, e40, e41, e50, e51, e60, e61⟩ := idx_facts13 t
  refine ⟨t, flush13_5 t, ?_⟩
  rw [mem_blk13_5]
  intro a
  match a with
  | ⟨0, _⟩ => show win13_5.index t (0 : Fin 2) * 5000 ≤ (i 0).val ∧ (i 0).val < win13_5.index t (0 : Fin 2) * 5000 + 5000; omega
  | ⟨1, _⟩ => show win13_5.index t (1 : Fin 2) * 1 ≤ (i 1).val ∧ (i 1).val < win13_5.index t (1 : Fin 2) * 1 + 1; omega

theorem mem_blk13_6 (t : Fin cfg13.N) (i : S200000x1.Idx) :
    i ∈ ((cfg13.win 6).blk t).view.set ↔ ∀ a : Fin 2, win13_6.index t a * S5000x1.size a ≤ (i a).val ∧ (i a).val < win13_6.index t a * S5000x1.size a + S5000x1.size a := by
  show i ∈ ((View.whole main_v79_2).slice (win13_6.rect t)).set ↔ _
  rw [View.set_slice_whole, Rect.mem_set_unit]
  exact Iff.rfl

/-- Row `r` is written back by point `r / 5000`. -/
theorem covered13_6 (i : S200000x1.Idx) :
    ∃ t : Fin cfg13.N, (cfg13.win 6).flush t = true ∧ i ∈ ((cfg13.win 6).blk t).view.set := by
  have hi0 : (i 0).val < 200000 := (i 0).isLt
  have hi1 : (i 1).val < 1 := (i 1).isLt
  obtain ⟨t, ht⟩ : ∃ t : Fin cfg13.N, t.val = (i 0).val / 5000 :=
    ⟨⟨(i 0).val / 5000, by rw [show cfg13.N = 40 from N_13]; omega⟩, rfl⟩
  obtain ⟨e00, e01, e1, e2, e3, e40, e41, e50, e51, e60, e61⟩ := idx_facts13 t
  refine ⟨t, flush13_6 t, ?_⟩
  rw [mem_blk13_6]
  intro a
  match a with
  | ⟨0, _⟩ => show win13_6.index t (0 : Fin 2) * 5000 ≤ (i 0).val ∧ (i 0).val < win13_6.index t (0 : Fin 2) * 5000 + 5000; omega
  | ⟨1, _⟩ => show win13_6.index t (1 : Fin 2) * 1 ≤ (i 1).val ∧ (i 1).val < win13_6.index t (1 : Fin 2) * 1 + 1; omega

/-- REGION 13, first output: the rows' scores against the first vector. -/
theorem region13_out4 (c : Dev nD) :
    ((dat13 (F := Ideal) V c).arrAt 4 cfg13.N : N1) = score (V c (Pipeline.arrRef spec13 0)) (V c (Pipeline.arrRef spec13 1)) :=
  (dat13 (F := Ideal) V c).arrAt_eq_of_cover 4 _ (fun t _ => flushed13_4_eq V c t) covered13_4

/-- REGION 13, second output: the rows' scores against the third vector. -/
theorem region13_out5 (c : Dev nD) :
    ((dat13 (F := Ideal) V c).arrAt 5 cfg13.N : N1) = score (V c (Pipeline.arrRef spec13 0)) (V c (Pipeline.arrRef spec13 3)) :=
  (dat13 (F := Ideal) V c).arrAt_eq_of_cover 5 _ (fun t _ => flushed13_5_eq V c t) covered13_5

/-- REGION 13, third output: the self-loop weights from the first and second vectors. -/
theorem region13_out6 (c : Dev nD) :
    ((dat13 (F := Ideal) V c).arrAt 6 cfg13.N : N1) = selfWeight (V c (Pipeline.arrRef spec13 0)) (V c (Pipeline.arrRef spec13 1)) (V c (Pipeline.arrRef spec13 2)) :=
  (dat13 (F := Ideal) V c).arrAt_eq_of_cover 6 _ (fun t _ => flushed13_6_eq V c t) covered13_6

end Region13

end Cert.ScoreRegions

end
-- ==== Proof.ScoreRegions.lean ====
/-
  The four attention-score regions of the kernel, read as whole arrays: regions 4 and 5 (first hop), 12 and 13 (second
  hop).  Each leaves, in its three result arrays, the two score columns and the self-loop weights of the node table and
  the three vectors it finds.
-/
import proofs.«154843_j76682346102829_2_alg».proof.Proof.ScoreRegion4
import proofs.«154843_j76682346102829_2_alg».proof.Proof.ScoreRegion5
import proofs.«154843_j76682346102829_2_alg».proof.Proof.ScoreRegion12
import proofs.«154843_j76682346102829_2_alg».proof.Proof.ScoreRegion13
-- ==== Proof.NormRegion7.lean ====
/-
  Normalise-and-ELU region 7 of the first program, read as one function of whole arrays.

  The region walks 40 grid points; point `t` fetches rows 5000t … 5000t + 4999 of four arrays — the
  summed weighted neighbour rows `agg` [200000, 64], the summed edge weights `div` [200000, 1], the self-loop weights
  `w2` [200000, 1] and the nodes' own rows `x` [200000, 64] —, computes on that block of rows

      y = (agg + w2 · x) / (div + w2)   (the two columns repeated across the 64 features),   out = y if y > 0 else exp y − 1,

  and writes the block back to rows 5000t … 5000t + 4999 of the output.  Entry `(r, c)` of a block is entry
  `(5000t + r, c)` of the array, for every window alike, so what point `t` writes is block `t` of the stage
  `NormSpec.norm` applied to the four whole arrays; row `r` of the output lies in the block of point `r / 5000`, the 40
  blocks cover the array, and so the output array after the region is `norm agg div w2 x`.
-/
import proofs.«154843_j76682346102829_2_alg».proof.Proof.Gen.KernelIdeal.Frame
import proofs.«154843_j76682346102829_2_alg».proof.Proof.NormSpec
import proofs.«154843_j76682346102829_2_alg».proof.Proof.LibBroadcast
import Idealize.ShloMosaic.Lib.Pipeline.Value

set_option maxRecDepth 16384

noncomputable section

namespace Cert.NormRegions

open Cert.KernelIdeal Cert.KernelIdeal.Gen Idealize.ShloMosaic Idealize.ShloMosaic.TcCoe Idealize.ShloMosaic.ValueIdx
open Idealize.SL.Sem
open Idealize.ShloMosaic.Pipeline (Dat)
open Cert.NormSpec

/-- A block that starts at the origin of its buffer. -/
theorem hz7 : (![0, 0] : Fin 2 → Nat) = fun _ => 0 := funext fun a => by fin_cases a <;> rfl

/-- Region 7's arithmetic at one entry of a block: the unit of (agg + w2·x)/(div + w2), the two columns read at the
    entry's row (`y'` is the entry `(row, 0)` of a one-column block). -/
theorem pay7_at (v0 v9 : Vec Ideal S5000x1 .f32) (v2 v4 : Vec Ideal S5000x64 .f32) (y : S5000x64.Idx) (y' : S5000x1.Idx)
    (hy : (y' 0).val = (y 0).val) :
    k7_pay1 (F := Ideal) v0 v2 v4 v9 y = eluAt (Ideal.div (v2 y + v0 y' * v4 y) (v9 y' + v0 y')) := by
  obtain ⟨p, q, rfl⟩ : ∃ (p : Fin 5000) (q : Fin 64), y = ix2 p q := ⟨y 0, y 1, eq_ix2 y⟩
  obtain ⟨p', q', rfl⟩ : ∃ (p' : Fin 5000) (q' : Fin 1), y' = ix2 p' q' := ⟨y' 0, y' 1, eq_ix2 y'⟩
  obtain rfl : q' = 0 := Subsingleton.elim _ _
  have hp : p' = p := Fin.ext hy
  rw [hp]
  have hb0 : broadcastTo S5000x64 v0 broadcasts_S5000x1_S5000x64 (ix2 p q) = v0 (ix2 p (0 : Fin 1)) :=
    Cert.Layout.broadcastTo_a1_ab_apply v0 broadcasts_S5000x1_S5000x64 p q
  have hb1 : broadcastTo S5000x64 (addf (F := Ideal) (s := S5000x1) (φ := .f32) v9 v0) broadcasts_S5000x1_S5000x64 (ix2 p q)
      = v9 (ix2 p (0 : Fin 1)) + v0 (ix2 p (0 : Fin 1)) :=
    Cert.Layout.broadcastTo_a1_ab_apply (addf (F := Ideal) (s := S5000x1) (φ := .f32) v9 v0) broadcasts_S5000x1_S5000x64 p q
  unfold k7_pay1
  simp only [shapeCast_self]
  show eluAt (Ideal.div
      (v2 (ix2 p q) + broadcastTo S5000x64 v0 broadcasts_S5000x1_S5000x64 (ix2 p q) * v4 (ix2 p q))
      (broadcastTo S5000x64 (addf (F := Ideal) (s := S5000x1) (φ := .f32) v9 v0) broadcasts_S5000x1_S5000x64 (ix2 p q))) = _
  rw [hb0, hb1]

/-! ## Region 7 -/

/-- The printed index maps over the 40 points: every window's block row is the point's number, its block column 0. -/
theorem idx_facts7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0
    ∧ win7_4.index t (0 : Fin 2) = t.val ∧ win7_4.index t (1 : Fin 2) = 0 :=
  (by decide +kernel : ∀ t : Fin grid7.N, _)

set_option maxHeartbeats 4000000 in
/-- WHAT POINT `t` WRITES BACK is block `t` (rows 5000t … 5000t + 4999) of the stage applied to the four input arrays. -/
theorem flushed7 (V : (c : Dev nD) → (b : Ref sig .tc) → Buf (Elt Ideal) ((c : Thread nD τ).loc b)) (c : Dev nD)
    (t : Fin cfg7.N) :
    (dat7 (F := Ideal) V c).flushed 4 t
      = ((cfg7.win 4).blk t).view.read (Elt Ideal)
          (norm (V c (Pipeline.arrRef spec7 0)) (V c (Pipeline.arrRef spec7 1)) (V c (Pipeline.arrRef spec7 2))
            (V c (Pipeline.arrRef spec7 3))) := by
  show (cfg7.win 4).cut (grid7.coords t) ((dat7 (F := Ideal) V c).after 4 t) = _
  rw [after7_4]
  unfold out7_4
  rw [View.canon_unit_zero hz7]
  simp only [View.ld_unit_zero (S := S5000x64) hz7, View.ld_unit_zero (S := S5000x1) hz7]
  obtain ⟨e00, e01, e10, e11, e20, e21, e30, e31, e40, e41⟩ := idx_facts7 t
  funext j
  have hj0 : (j 0).val < 5000 := (j 0).isLt
  have hj1 : (j 1).val < 64 := (j 1).isLt
  refine (pay7_at (iblk7 V c 2 t) (iblk7 V c 1 t) (iblk7 V c 0 t) (iblk7 V c 3 t) j
    (ix2 (⟨(j 0).val, hj0⟩ : Fin 5000) (0 : Fin 1)) rfl).trans ?_
  have h0 : ((cfg7.win 0).blk t).view.emb j = ((cfg7.win 4).blk t).view.emb j := by
    funext a; apply Fin.ext
    match a with
    | ⟨0, _⟩ => show win7_0.index t (0 : Fin 2) * 5000 + 1 * (j 0).val = win7_4.index t (0 : Fin 2) * 5000 + 1 * (j 0).val; omega
    | ⟨1, _⟩ => show win7_0.index t (1 : Fin 2) * 64 + 1 * (j 1).val = win7_4.index t (1 : Fin 2) * 64 + 1 * (j 1).val; omega
  have h3 : ((cfg7.win 3).blk t).view.emb j = ((cfg7.win 4).blk t).view.emb j := by
    funext a; apply Fin.ext
    match a with
    | ⟨0, _⟩ => show win7_3.index t (0 : Fin 2) * 5000 + 1 * (j 0).val = win7_4.index t (0 : Fin 2) * 5000 + 1 * (j 0).val; omega
    | ⟨1, _⟩ => show win7_3.index t (1 : Fin 2) * 64 + 1 * (j 1).val = win7_4.index t (1 : Fin 2) * 64 + 1 * (j 1).val; omega
  have h1 : ((cfg7.win 1).blk t).view.emb (ix2 (⟨(j 0).val, hj0⟩ : Fin 5000) (0 : Fin 1))
      = ix2 (⟨((((cfg7.win 4).blk t).view.emb j) 0).val, idx2_lt0 _⟩ : Fin 200000) (0 : Fin 1) := by
    funext a; apply Fin.ext
    match a with
    | ⟨0, _⟩ => show win7_1.index t (0 : Fin 2) * 5000 + 1 * (j 0).val = win7_4.index t (0 : Fin 2) * 5000 + 1 * (j 0).val; omega
    | ⟨1, _⟩ => show win7_1.index t (1 : Fin 2) * 1 + 1 * 0 = 0; omega
  have h2 : ((cfg7.win 2).blk t).view.emb (ix2 (⟨(j 0).val, hj0⟩ : Fin 5000) (0 : Fin 1))
      = ix2 (⟨((((cfg7.win 4).blk t).view.emb j) 0).val, idx2_lt0 _⟩ : Fin 200000) (0 : Fin 1) := by
    funext a; apply Fin.ext
    match a with
    | ⟨0, _⟩ => show win7_2.index t (0 : Fin 2) * 5000 + 1 * (j 0).val = win7_4.index t (0 : Fin 2) * 5000 + 1 * (j 0).val; omega
    | ⟨1, _⟩ => show win7_2.index t (1 : Fin 2) * 1 + 1 * 0 = 0; omega
  have e0 : iblk7 V c 0 t j
      = (V c (Pipeline.arrRef spec7 0) : S200000x64.Idx → EReal) (((cfg7.win 4).blk t).view.emb j) :=
    congrArg (V c (Pipeline.arrRef spec7 0) : S200000x64.Idx → EReal) h0
  have e3 : iblk7 V c 3 t j
      = (V c (Pipeline.arrRef spec7 3) : S200000x64.Idx → EReal) (((cfg7.win 4).blk t).view.emb j) :=
    congrArg (V c (Pipeline.arrRef spec7 3) : S200000x64.Idx → EReal) h3
  have e1 : iblk7 V c 1 t (ix2 (⟨(j 0).val, hj0⟩ : Fin 5000) (0 : Fin 1))
      = (V c (Pipeline.arrRef spec7 1) : S200000x1.Idx → EReal)
          (ix2 (⟨((((cfg7.win 4).blk t).view.emb j) 0).val, idx2_lt0 _⟩ : Fin 200000) (0 : Fin 1)) :=
    congrArg (V c (Pipeline.arrRef spec7 1) : S200000x1.Idx → EReal) h1
  have e2 : iblk7 V c 2 t (ix2 (⟨(j 0).val, hj0⟩ : Fin 5000) (0 : Fin 1))
      = (V c (Pipeline.arrRef spec7 2) : S200000x1.Idx → EReal)
          (ix2 (⟨((((cfg7.win 4).blk t).view.emb j) 0).val, idx2_lt0 _⟩ : Fin 200000) (0 : Fin 1)) :=
    congrArg (V c (Pipeline.arrRef spec7 2) : S200000x1.Idx → EReal) h2
  rw [e0, e3, e1, e2]
  rfl

/-- An index of the output array is in point `t`'s block iff each coordinate is in the block's range on its axis. -/
theorem mem_blk7 (t : Fin cfg7.N) (i : S200000x64.Idx) :
    i ∈ ((cfg7.win 4).blk t).view.set
      ↔ ∀ a : Fin 2, win7_4.index t a * S5000x64.size a ≤ (i a).val ∧ (i a).val < win7_4.index t a * S5000x64.size a + S5000x64.size a := by
  show i ∈ ((View.whole main_v44).slice (win7_4.rect t)).set ↔ _
  rw [View.set_slice_whole, Rect.mem_set_unit]
  exact Iff.rfl

/-- Row `r` of the output lies in the block of point `r / 5000`. -/
theorem cover7 (i : S200000x64.Idx) :
    ∃ t : Fin cfg7.N, (cfg7.win 4).flush t = true ∧ i ∈ ((cfg7.win 4).blk t).view.set := by
  have hi0 : (i 0).val < 200000 := (i 0).isLt
  have hi1 : (i 1).val < 64 := (i 1).isLt
  have hN : cfg7.N = 40 := N_7
  have hT : (i 0).val / 5000 < cfg7.N := by rw [hN]; omega
  obtain ⟨-, -, -, -, -, -, -, -, e40, e41⟩ := idx_facts7 ⟨(i 0).val / 5000, hT⟩
  have e40' : win7_4.index ⟨(i 0).val / 5000, hT⟩ (0 : Fin 2) = (i 0).val / 5000 := e40
  refine ⟨⟨(i 0).val / 5000, hT⟩, flush7_4 _, ?_⟩
  rw [mem_blk7]
  intro a
  match a with
  | ⟨0, _⟩ =>
    show win7_4.index ⟨(i 0).val / 5000, hT⟩ (0 : Fin 2) * 5000 ≤ (i 0).val
      ∧ (i 0).val < win7_4.index ⟨(i 0).val / 5000, hT⟩ (0 : Fin 2) * 5000 + 5000
    rw [e40']; omega
  | ⟨1, _⟩ =>
    show win7_4.index ⟨(i 0).val / 5000, hT⟩ (1 : Fin 2) * 64 ≤ (i 1).val
      ∧ (i 1).val < win7_4.index ⟨(i 0).val / 5000, hT⟩ (1 : Fin 2) * 64 + 64
    rw [e41]; omega

/-- REGION 7: the output array after the region is the stage applied to the region's four input arrays as it finds
    them (window 0 the summed neighbour rows, 1 the summed edge weights, 2 the self-loop weights, 3 the nodes' rows). -/
theorem region7_out4 (V : (c : Dev nD) → (b : Ref sig .tc) → Buf (Elt Ideal) ((c : Thread nD τ).loc b)) (c : Dev nD) :
    (dat7 (F := Ideal) V c).arrAt 4 cfg7.N
      = norm (V c (Pipeline.arrRef spec7 0)) (V c (Pipeline.arrRef spec7 1)) (V c (Pipeline.arrRef spec7 2))
          (V c (Pipeline.arrRef spec7 3)) :=
  (dat7 (F := Ideal) V c).arrAt_eq_of_cover 4 _ (fun t _ => flushed7 V c t) cover7

end Cert.NormRegions

end
-- ==== Proof.NormRegion9.lean ====
/-
  Normalise-and-ELU region 9 of the first program, read as one function of whole arrays.

  The region walks 40 grid points; point `t` fetches rows 5000t … 5000t + 4999 of four arrays — the
  summed weighted neighbour rows `agg` [200000, 64], the summed edge weights `div` [200000, 1], the self-loop weights
  `w2` [200000, 1] and the nodes' own rows `x` [200000, 64] —, computes on that block of rows

      y = (agg + w2 · x) / (div + w2)   (the two columns repeated across the 64 features),   out = y if y > 0 else exp y − 1,

  and writes the block back to rows 5000t … 5000t + 4999 of the output.  Entry `(r, c)` of a block is entry
  `(5000t + r, c)` of the array, for every window alike, so what point `t` writes is block `t` of the stage
  `NormSpec.norm` applied to the four whole arrays; row `r` of the output lies in the block of point `r / 5000`, the 40
  blocks cover the array, and so the output array after the region is `norm agg div w2 x`.
-/
import proofs.«154843_j76682346102829_2_alg».proof.Proof.Gen.KernelIdeal.Frame
import proofs.«154843_j76682346102829_2_alg».proof.Proof.NormSpec
import proofs.«154843_j76682346102829_2_alg».proof.Proof.LibBroadcast
import Idealize.ShloMosaic.Lib.Pipeline.Value

set_option maxRecDepth 16384

noncomputable section

namespace Cert.NormRegions

open Cert.KernelIdeal Cert.KernelIdeal.Gen Idealize.ShloMosaic Idealize.ShloMosaic.TcCoe Idealize.ShloMosaic.ValueIdx
open Idealize.SL.Sem
open Idealize.ShloMosaic.Pipeline (Dat)
open Cert.NormSpec

/-- A block that starts at the origin of its buffer. -/
theorem hz9 : (![0, 0] : Fin 2 → Nat) = fun _ => 0 := funext fun a => by fin_cases a <;> rfl

/-- Region 9's arithmetic at one entry of a block: the unit of (agg + w2·x)/(div + w2), the two columns read at the
    entry's row (`y'` is the entry `(row, 0)` of a one-column block). -/
theorem pay9_at (v0 v9 : Vec Ideal S5000x1 .f32) (v2 v4 : Vec Ideal S5000x64 .f32) (y : S5000x64.Idx) (y' : S5000x1.Idx)
    (hy : (y' 0).val = (y 0).val) :
    k9_pay1 (F := Ideal) v0 v2 v4 v9 y = eluAt (Ideal.div (v2 y + v0 y' * v4 y) (v9 y' + v0 y')) := by
  obtain ⟨p, q, rfl⟩ : ∃ (p : Fin 5000) (q : Fin 64), y = ix2 p q := ⟨y 0, y 1, eq_ix2 y⟩
  obtain ⟨p', q', rfl⟩ : ∃ (p' : Fin 5000) (q' : Fin 1), y' = ix2 p' q' := ⟨y' 0, y' 1, eq_ix2 y'⟩
  obtain rfl : q' = 0 := Subsingleton.elim _ _
  have hp : p' = p := Fin.ext hy
  rw [hp]
  have hb0 : broadcastTo S5000x64 v0 broadcasts_S5000x1_S5000x64 (ix2 p q) = v0 (ix2 p (0 : Fin 1)) :=
    Cert.Layout.broadcastTo_a1_ab_apply v0 broadcasts_S5000x1_S5000x64 p q
  have hb1 : broadcastTo S5000x64 (addf (F := Ideal) (s := S5000x1) (φ := .f32) v9 v0) broadcasts_S5000x1_S5000x64 (ix2 p q)
      = v9 (ix2 p (0 : Fin 1)) + v0 (ix2 p (0 : Fin 1)) :=
    Cert.Layout.broadcastTo_a1_ab_apply (addf (F := Ideal) (s := S5000x1) (φ := .f32) v9 v0) broadcasts_S5000x1_S5000x64 p q
  unfold k9_pay1
  simp only [shapeCast_self]
  show eluAt (Ideal.div
      (v2 (ix2 p q) + broadcastTo S5000x64 v0 broadcasts_S5000x1_S5000x64 (ix2 p q) * v4 (ix2 p q))
      (broadcastTo S5000x64 (addf (F := Ideal) (s := S5000x1) (φ := .f32) v9 v0) broadcasts_S5000x1_S5000x64 (ix2 p q))) = _
  rw [hb0, hb1]

/-! ## Region 9 -/

/-- The printed index maps over the 40 points: every window's block row is the point's number, its block column 0. -/
theorem idx_facts9 : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = t.val ∧ win9_3.index t (1 : Fin 2) = 0
    ∧ win9_4.index t (0 : Fin 2) = t.val ∧ win9_4.index t (1 : Fin 2) = 0 :=
  (by decide +kernel : ∀ t : Fin grid9.N, _)

set_option maxHeartbeats 4000000 in
/-- WHAT POINT `t` WRITES BACK is block `t` (rows 5000t … 5000t + 4999) of the stage applied to the four input arrays. -/
theorem flushed9 (V : (c : Dev nD) → (b : Ref sig .tc) → Buf (Elt Ideal) ((c : Thread nD τ).loc b)) (c : Dev nD)
    (t : Fin cfg9.N) :
    (dat9 (F := Ideal) V c).flushed 4 t
      = ((cfg9.win 4).blk t).view.read (Elt Ideal)
          (norm (V c (Pipeline.arrRef spec9 0)) (V c (Pipeline.arrRef spec9 1)) (V c (Pipeline.arrRef spec9 2))
            (V c (Pipeline.arrRef spec9 3))) := by
  show (cfg9.win 4).cut (grid9.coords t) ((dat9 (F := Ideal) V c).after 4 t) = _
  rw [after9_4]
  unfold out9_4
  rw [View.canon_unit_zero hz9]
  simp only [View.ld_unit_zero (S := S5000x64) hz9, View.ld_unit_zero (S := S5000x1) hz9]
  obtain ⟨e00, e01, e10, e11, e20, e21, e30, e31, e40, e41⟩ := idx_facts9 t
  funext j
  have hj0 : (j 0).val < 5000 := (j 0).isLt
  have hj1 : (j 1).val < 64 := (j 1).isLt
  refine (pay9_at (iblk9 V c 2 t) (iblk9 V c 1 t) (iblk9 V c 0 t) (iblk9 V c 3 t) j
    (ix2 (⟨(j 0).val, hj0⟩ : Fin 5000) (0 : Fin 1)) rfl).trans ?_
  have h0 : ((cfg9.win 0).blk t).view.emb j = ((cfg9.win 4).blk t).view.emb j := by
    funext a; apply Fin.ext
    match a with
    | ⟨0, _⟩ => show win9_0.index t (0 : Fin 2) * 5000 + 1 * (j 0).val = win9_4.index t (0 : Fin 2) * 5000 + 1 * (j 0).val; omega
    | ⟨1, _⟩ => show win9_0.index t (1 : Fin 2) * 64 + 1 * (j 1).val = win9_4.index t (1 : Fin 2) * 64 + 1 * (j 1).val; omega
  have h3 : ((cfg9.win 3).blk t).view.emb j = ((cfg9.win 4).blk t).view.emb j := by
    funext a; apply Fin.ext
    match a with
    | ⟨0, _⟩ => show win9_3.index t (0 : Fin 2) * 5000 + 1 * (j 0).val = win9_4.index t (0 : Fin 2) * 5000 + 1 * (j 0).val; omega
    | ⟨1, _⟩ => show win9_3.index t (1 : Fin 2) * 64 + 1 * (j 1).val = win9_4.index t (1 : Fin 2) * 64 + 1 * (j 1).val; omega
  have h1 : ((cfg9.win 1).blk t).view.emb (ix2 (⟨(j 0).val, hj0⟩ : Fin 5000) (0 : Fin 1))
      = ix2 (⟨((((cfg9.win 4).blk t).view.emb j) 0).val, idx2_lt0 _⟩ : Fin 200000) (0 : Fin 1) := by
    funext a; apply Fin.ext
    match a with
    | ⟨0, _⟩ => show win9_1.index t (0 : Fin 2) * 5000 + 1 * (j 0).val = win9_4.index t (0 : Fin 2) * 5000 + 1 * (j 0).val; omega
    | ⟨1, _⟩ => show win9_1.index t (1 : Fin 2) * 1 + 1 * 0 = 0; omega
  have h2 : ((cfg9.win 2).blk t).view.emb (ix2 (⟨(j 0).val, hj0⟩ : Fin 5000) (0 : Fin 1))
      = ix2 (⟨((((cfg9.win 4).blk t).view.emb j) 0).val, idx2_lt0 _⟩ : Fin 200000) (0 : Fin 1) := by
    funext a; apply Fin.ext
    match a with
    | ⟨0, _⟩ => show win9_2.index t (0 : Fin 2) * 5000 + 1 * (j 0).val = win9_4.index t (0 : Fin 2) * 5000 + 1 * (j 0).val; omega
    | ⟨1, _⟩ => show win9_2.index t (1 : Fin 2) * 1 + 1 * 0 = 0; omega
  have e0 : iblk9 V c 0 t j
      = (V c (Pipeline.arrRef spec9 0) : S200000x64.Idx → EReal) (((cfg9.win 4).blk t).view.emb j) :=
    congrArg (V c (Pipeline.arrRef spec9 0) : S200000x64.Idx → EReal) h0
  have e3 : iblk9 V c 3 t j
      = (V c (Pipeline.arrRef spec9 3) : S200000x64.Idx → EReal) (((cfg9.win 4).blk t).view.emb j) :=
    congrArg (V c (Pipeline.arrRef spec9 3) : S200000x64.Idx → EReal) h3
  have e1 : iblk9 V c 1 t (ix2 (⟨(j 0).val, hj0⟩ : Fin 5000) (0 : Fin 1))
      = (V c (Pipeline.arrRef spec9 1) : S200000x1.Idx → EReal)
          (ix2 (⟨((((cfg9.win 4).blk t).view.emb j) 0).val, idx2_lt0 _⟩ : Fin 200000) (0 : Fin 1)) :=
    congrArg (V c (Pipeline.arrRef spec9 1) : S200000x1.Idx → EReal) h1
  have e2 : iblk9 V c 2 t (ix2 (⟨(j 0).val, hj0⟩ : Fin 5000) (0 : Fin 1))
      = (V c (Pipeline.arrRef spec9 2) : S200000x1.Idx → EReal)
          (ix2 (⟨((((cfg9.win 4).blk t).view.emb j) 0).val, idx2_lt0 _⟩ : Fin 200000) (0 : Fin 1)) :=
    congrArg (V c (Pipeline.arrRef spec9 2) : S200000x1.Idx → EReal) h2
  rw [e0, e3, e1, e2]
  rfl

/-- An index of the output array is in point `t`'s block iff each coordinate is in the block's range on its axis. -/
theorem mem_blk9 (t : Fin cfg9.N) (i : S200000x64.Idx) :
    i ∈ ((cfg9.win 4).blk t).view.set
      ↔ ∀ a : Fin 2, win9_4.index t a * S5000x64.size a ≤ (i a).val ∧ (i a).val < win9_4.index t a * S5000x64.size a + S5000x64.size a := by
  show i ∈ ((View.whole main_v55).slice (win9_4.rect t)).set ↔ _
  rw [View.set_slice_whole, Rect.mem_set_unit]
  exact Iff.rfl

/-- Row `r` of the output lies in the block of point `r / 5000`. -/
theorem cover9 (i : S200000x64.Idx) :
    ∃ t : Fin cfg9.N, (cfg9.win 4).flush t = true ∧ i ∈ ((cfg9.win 4).blk t).view.set := by
  have hi0 : (i 0).val < 200000 := (i 0).isLt
  have hi1 : (i 1).val < 64 := (i 1).isLt
  have hN : cfg9.N = 40 := N_9
  have hT : (i 0).val / 5000 < cfg9.N := by rw [hN]; omega
  obtain ⟨-, -, -, -, -, -, -, -, e40, e41⟩ := idx_facts9 ⟨(i 0).val / 5000, hT⟩
  have e40' : win9_4.index ⟨(i 0).val / 5000, hT⟩ (0 : Fin 2) = (i 0).val / 5000 := e40
  refine ⟨⟨(i 0).val / 5000, hT⟩, flush9_4 _, ?_⟩
  rw [mem_blk9]
  intro a
  match a with
  | ⟨0, _⟩ =>
    show win9_4.index ⟨(i 0).val / 5000, hT⟩ (0 : Fin 2) * 5000 ≤ (i 0).val
      ∧ (i 0).val < win9_4.index ⟨(i 0).val / 5000, hT⟩ (0 : Fin 2) * 5000 + 5000
    rw [e40']; omega
  | ⟨1, _⟩ =>
    show win9_4.index ⟨(i 0).val / 5000, hT⟩ (1 : Fin 2) * 64 ≤ (i 1).val
      ∧ (i 1).val < win9_4.index ⟨(i 0).val / 5000, hT⟩ (1 : Fin 2) * 64 + 64
    rw [e41]; omega

/-- REGION 9: the output array after the region is the stage applied to the region's four input arrays as it finds
    them (window 0 the summed neighbour rows, 1 the summed edge weights, 2 the self-loop weights, 3 the nodes' rows). -/
theorem region9_out4 (V : (c : Dev nD) → (b : Ref sig .tc) → Buf (Elt Ideal) ((c : Thread nD τ).loc b)) (c : Dev nD) :
    (dat9 (F := Ideal) V c).arrAt 4 cfg9.N
      = norm (V c (Pipeline.arrRef spec9 0)) (V c (Pipeline.arrRef spec9 1)) (V c (Pipeline.arrRef spec9 2))
          (V c (Pipeline.arrRef spec9 3)) :=
  (dat9 (F := Ideal) V c).arrAt_eq_of_cover 4 _ (fun t _ => flushed9 V c t) cover9

end Cert.NormRegions

end
-- ==== Proof.NormRegion15.lean ====
/-
  Normalise-and-ELU region 15 of the first program, read as one function of whole arrays.

  The region walks 40 grid points; point `t` fetches rows 5000t … 5000t + 4999 of four arrays — the
  summed weighted neighbour rows `agg` [200000, 64], the summed edge weights `div` [200000, 1], the self-loop weights
  `w2` [200000, 1] and the nodes' own rows `x` [200000, 64] —, computes on that block of rows

      y = (agg + w2 · x) / (div + w2)   (the two columns repeated across the 64 features),   out = y if y > 0 else exp y − 1,

  and writes the block back to rows 5000t … 5000t + 4999 of the output.  Entry `(r, c)` of a block is entry
  `(5000t + r, c)` of the array, for every window alike, so what point `t` writes is block `t` of the stage
  `NormSpec.norm` applied to the four whole arrays; row `r` of the output lies in the block of point `r / 5000`, the 40
  blocks cover the array, and so the output array after the region is `norm agg div w2 x`.
-/
import proofs.«154843_j76682346102829_2_alg».proof.Proof.Gen.KernelIdeal.Frame
import proofs.«154843_j76682346102829_2_alg».proof.Proof.NormSpec
import proofs.«154843_j76682346102829_2_alg».proof.Proof.LibBroadcast
import Idealize.ShloMosaic.Lib.Pipeline.Value

set_option maxRecDepth 16384

noncomputable section

namespace Cert.NormRegions

open Cert.KernelIdeal Cert.KernelIdeal.Gen Idealize.ShloMosaic Idealize.ShloMosaic.TcCoe Idealize.ShloMosaic.ValueIdx
open Idealize.SL.Sem
open Idealize.ShloMosaic.Pipeline (Dat)
open Cert.NormSpec

/-- A block that starts at the origin of its buffer. -/
theorem hz15 : (![0, 0] : Fin 2 → Nat) = fun _ => 0 := funext fun a => by fin_cases a <;> rfl

/-- Region 15's arithmetic at one entry of a block: the unit of (agg + w2·x)/(div + w2), the two columns read at the
    entry's row (`y'` is the entry `(row, 0)` of a one-column block). -/
theorem pay15_at (v0 v9 : Vec Ideal S5000x1 .f32) (v2 v4 : Vec Ideal S5000x64 .f32) (y : S5000x64.Idx) (y' : S5000x1.Idx)
    (hy : (y' 0).val = (y 0).val) :
    k15_pay1 (F := Ideal) v0 v2 v4 v9 y = eluAt (Ideal.div (v2 y + v0 y' * v4 y) (v9 y' + v0 y')) := by
  obtain ⟨p, q, rfl⟩ : ∃ (p : Fin 5000) (q : Fin 64), y = ix2 p q := ⟨y 0, y 1, eq_ix2 y⟩
  obtain ⟨p', q', rfl⟩ : ∃ (p' : Fin 5000) (q' : Fin 1), y' = ix2 p' q' := ⟨y' 0, y' 1, eq_ix2 y'⟩
  obtain rfl : q' = 0 := Subsingleton.elim _ _
  have hp : p' = p := Fin.ext hy
  rw [hp]
  have hb0 : broadcastTo S5000x64 v0 broadcasts_S5000x1_S5000x64 (ix2 p q) = v0 (ix2 p (0 : Fin 1)) :=
    Cert.Layout.broadcastTo_a1_ab_apply v0 broadcasts_S5000x1_S5000x64 p q
  have hb1 : broadcastTo S5000x64 (addf (F := Ideal) (s := S5000x1) (φ := .f32) v9 v0) broadcasts_S5000x1_S5000x64 (ix2 p q)
      = v9 (ix2 p (0 : Fin 1)) + v0 (ix2 p (0 : Fin 1)) :=
    Cert.Layout.broadcastTo_a1_ab_apply (addf (F := Ideal) (s := S5000x1) (φ := .f32) v9 v0) broadcasts_S5000x1_S5000x64 p q
  unfold k15_pay1
  simp only [shapeCast_self]
  show eluAt (Ideal.div
      (v2 (ix2 p q) + broadcastTo S5000x64 v0 broadcasts_S5000x1_S5000x64 (ix2 p q) * v4 (ix2 p q))
      (broadcastTo S5000x64 (addf (F := Ideal) (s := S5000x1) (φ := .f32) v9 v0) broadcasts_S5000x1_S5000x64 (ix2 p q))) = _
  rw [hb0, hb1]

/-! ## Region 15 -/

/-- The printed index maps over the 40 points: every window's block row is the point's number, its block column 0. -/
theorem idx_facts15 : ∀ t : Fin cfg15.N,
    win15_0.index t (0 : Fin 2) = t.val ∧ win15_0.index t (1 : Fin 2) = 0
    ∧ win15_1.index t (0 : Fin 2) = t.val ∧ win15_1.index t (1 : Fin 2) = 0
    ∧ win15_2.index t (0 : Fin 2) = t.val ∧ win15_2.index t (1 : Fin 2) = 0
    ∧ win15_3.index t (0 : Fin 2) = t.val ∧ win15_3.index t (1 : Fin 2) = 0
    ∧ win15_4.index t (0 : Fin 2) = t.val ∧ win15_4.index t (1 : Fin 2) = 0 :=
  (by decide +kernel : ∀ t : Fin grid15.N, _)

set_option maxHeartbeats 4000000 in
/-- WHAT POINT `t` WRITES BACK is block `t` (rows 5000t … 5000t + 4999) of the stage applied to the four input arrays. -/
theorem flushed15 (V : (c : Dev nD) → (b : Ref sig .tc) → Buf (Elt Ideal) ((c : Thread nD τ).loc b)) (c : Dev nD)
    (t : Fin cfg15.N) :
    (dat15 (F := Ideal) V c).flushed 4 t
      = ((cfg15.win 4).blk t).view.read (Elt Ideal)
          (norm (V c (Pipeline.arrRef spec15 0)) (V c (Pipeline.arrRef spec15 1)) (V c (Pipeline.arrRef spec15 2))
            (V c (Pipeline.arrRef spec15 3))) := by
  show (cfg15.win 4).cut (grid15.coords t) ((dat15 (F := Ideal) V c).after 4 t) = _
  rw [after15_4]
  unfold out15_4
  rw [View.canon_unit_zero hz15]
  simp only [View.ld_unit_zero (S := S5000x64) hz15, View.ld_unit_zero (S := S5000x1) hz15]
  obtain ⟨e00, e01, e10, e11, e20, e21, e30, e31, e40, e41⟩ := idx_facts15 t
  funext j
  have hj0 : (j 0).val < 5000 := (j 0).isLt
  have hj1 : (j 1).val < 64 := (j 1).isLt
  refine (pay15_at (iblk15 V c 2 t) (iblk15 V c 1 t) (iblk15 V c 0 t) (iblk15 V c 3 t) j
    (ix2 (⟨(j 0).val, hj0⟩ : Fin 5000) (0 : Fin 1)) rfl).trans ?_
  have h0 : ((cfg15.win 0).blk t).view.emb j = ((cfg15.win 4).blk t).view.emb j := by
    funext a; apply Fin.ext
    match a with
    | ⟨0, _⟩ => show win15_0.index t (0 : Fin 2) * 5000 + 1 * (j 0).val = win15_4.index t (0 : Fin 2) * 5000 + 1 * (j 0).val; omega
    | ⟨1, _⟩ => show win15_0.index t (1 : Fin 2) * 64 + 1 * (j 1).val = win15_4.index t (1 : Fin 2) * 64 + 1 * (j 1).val; omega
  have h3 : ((cfg15.win 3).blk t).view.emb j = ((cfg15.win 4).blk t).view.emb j := by
    funext a; apply Fin.ext
    match a with
    | ⟨0, _⟩ => show win15_3.index t (0 : Fin 2) * 5000 + 1 * (j 0).val = win15_4.index t (0 : Fin 2) * 5000 + 1 * (j 0).val; omega
    | ⟨1, _⟩ => show win15_3.index t (1 : Fin 2) * 64 + 1 * (j 1).val = win15_4.index t (1 : Fin 2) * 64 + 1 * (j 1).val; omega
  have h1 : ((cfg15.win 1).blk t).view.emb (ix2 (⟨(j 0).val, hj0⟩ : Fin 5000) (0 : Fin 1))
      = ix2 (⟨((((cfg15.win 4).blk t).view.emb j) 0).val, idx2_lt0 _⟩ : Fin 200000) (0 : Fin 1) := by
    funext a; apply Fin.ext
    match a with
    | ⟨0, _⟩ => show win15_1.index t (0 : Fin 2) * 5000 + 1 * (j 0).val = win15_4.index t (0 : Fin 2) * 5000 + 1 * (j 0).val; omega
    | ⟨1, _⟩ => show win15_1.index t (1 : Fin 2) * 1 + 1 * 0 = 0; omega
  have h2 : ((cfg15.win 2).blk t).view.emb (ix2 (⟨(j 0).val, hj0⟩ : Fin 5000) (0 : Fin 1))
      = ix2 (⟨((((cfg15.win 4).blk t).view.emb j) 0).val, idx2_lt0 _⟩ : Fin 200000) (0 : Fin 1) := by
    funext a; apply Fin.ext
    match a with
    | ⟨0, _⟩ => show win15_2.index t (0 : Fin 2) * 5000 + 1 * (j 0).val = win15_4.index t (0 : Fin 2) * 5000 + 1 * (j 0).val; omega
    | ⟨1, _⟩ => show win15_2.index t (1 : Fin 2) * 1 + 1 * 0 = 0; omega
  have e0 : iblk15 V c 0 t j
      = (V c (Pipeline.arrRef spec15 0) : S200000x64.Idx → EReal) (((cfg15.win 4).blk t).view.emb j) :=
    congrArg (V c (Pipeline.arrRef spec15 0) : S200000x64.Idx → EReal) h0
  have e3 : iblk15 V c 3 t j
      = (V c (Pipeline.arrRef spec15 3) : S200000x64.Idx → EReal) (((cfg15.win 4).blk t).view.emb j) :=
    congrArg (V c (Pipeline.arrRef spec15 3) : S200000x64.Idx → EReal) h3
  have e1 : iblk15 V c 1 t (ix2 (⟨(j 0).val, hj0⟩ : Fin 5000) (0 : Fin 1))
      = (V c (Pipeline.arrRef spec15 1) : S200000x1.Idx → EReal)
          (ix2 (⟨((((cfg15.win 4).blk t).view.emb j) 0).val, idx2_lt0 _⟩ : Fin 200000) (0 : Fin 1)) :=
    congrArg (V c (Pipeline.arrRef spec15 1) : S200000x1.Idx → EReal) h1
  have e2 : iblk15 V c 2 t (ix2 (⟨(j 0).val, hj0⟩ : Fin 5000) (0 : Fin 1))
      = (V c (Pipeline.arrRef spec15 2) : S200000x1.Idx → EReal)
          (ix2 (⟨((((cfg15.win 4).blk t).view.emb j) 0).val, idx2_lt0 _⟩ : Fin 200000) (0 : Fin 1)) :=
    congrArg (V c (Pipeline.arrRef spec15 2) : S200000x1.Idx → EReal) h2
  rw [e0, e3, e1, e2]
  rfl

/-- An index of the output array is in point `t`'s block iff each coordinate is in the block's range on its axis. -/
theorem mem_blk15 (t : Fin cfg15.N) (i : S200000x64.Idx) :
    i ∈ ((cfg15.win 4).blk t).view.set
      ↔ ∀ a : Fin 2, win15_4.index t a * S5000x64.size a ≤ (i a).val ∧ (i a).val < win15_4.index t a * S5000x64.size a + S5000x64.size a := by
  show i ∈ ((View.whole main_v90).slice (win15_4.rect t)).set ↔ _
  rw [View.set_slice_whole, Rect.mem_set_unit]
  exact Iff.rfl

/-- Row `r` of the output lies in the block of point `r / 5000`. -/
theorem cover15 (i : S200000x64.Idx) :
    ∃ t : Fin cfg15.N, (cfg15.win 4).flush t = true ∧ i ∈ ((cfg15.win 4).blk t).view.set := by
  have hi0 : (i 0).val < 200000 := (i 0).isLt
  have hi1 : (i 1).val < 64 := (i 1).isLt
  have hN : cfg15.N = 40 := N_15
  have hT : (i 0).val / 5000 < cfg15.N := by rw [hN]; omega
  obtain ⟨-, -, -, -, -, -, -, -, e40, e41⟩ := idx_facts15 ⟨(i 0).val / 5000, hT⟩
  have e40' : win15_4.index ⟨(i 0).val / 5000, hT⟩ (0 : Fin 2) = (i 0).val / 5000 := e40
  refine ⟨⟨(i 0).val / 5000, hT⟩, flush15_4 _, ?_⟩
  rw [mem_blk15]
  intro a
  match a with
  | ⟨0, _⟩ =>
    show win15_4.index ⟨(i 0).val / 5000, hT⟩ (0 : Fin 2) * 5000 ≤ (i 0).val
      ∧ (i 0).val < win15_4.index ⟨(i 0).val / 5000, hT⟩ (0 : Fin 2) * 5000 + 5000
    rw [e40']; omega
  | ⟨1, _⟩ =>
    show win15_4.index ⟨(i 0).val / 5000, hT⟩ (1 : Fin 2) * 64 ≤ (i 1).val
      ∧ (i 1).val < win15_4.index ⟨(i 0).val / 5000, hT⟩ (1 : Fin 2) * 64 + 64
    rw [e41]; omega

/-- REGION 15: the output array after the region is the stage applied to the region's four input arrays as it finds
    them (window 0 the summed neighbour rows, 1 the summed edge weights, 2 the self-loop weights, 3 the nodes' rows). -/
theorem region15_out4 (V : (c : Dev nD) → (b : Ref sig .tc) → Buf (Elt Ideal) ((c : Thread nD τ).loc b)) (c : Dev nD) :
    (dat15 (F := Ideal) V c).arrAt 4 cfg15.N
      = norm (V c (Pipeline.arrRef spec15 0)) (V c (Pipeline.arrRef spec15 1)) (V c (Pipeline.arrRef spec15 2))
          (V c (Pipeline.arrRef spec15 3)) :=
  (dat15 (F := Ideal) V c).arrAt_eq_of_cover 4 _ (fun t _ => flushed15 V c t) cover15

end Cert.NormRegions

end
-- ==== Proof.NormRegion17.lean ====
/-
  Normalise-and-ELU region 17 of the first program, read as one function of whole arrays.

  The region walks 40 grid points; point `t` fetches rows 5000t … 5000t + 4999 of four arrays — the
  summed weighted neighbour rows `agg` [200000, 64], the summed edge weights `div` [200000, 1], the self-loop weights
  `w2` [200000, 1] and the nodes' own rows `x` [200000, 64] —, computes on that block of rows

      y = (agg + w2 · x) / (div + w2)   (the two columns repeated across the 64 features),   out = y if y > 0 else exp y − 1,

  and writes the block back to rows 5000t … 5000t + 4999 of the output.  Entry `(r, c)` of a block is entry
  `(5000t + r, c)` of the array, for every window alike, so what point `t` writes is block `t` of the stage
  `NormSpec.norm` applied to the four whole arrays; row `r` of the output lies in the block of point `r / 5000`, the 40
  blocks cover the array, and so the output array after the region is `norm agg div w2 x`.
-/
import proofs.«154843_j76682346102829_2_alg».proof.Proof.Gen.KernelIdeal.Frame
import proofs.«154843_j76682346102829_2_alg».proof.Proof.NormSpec
import proofs.«154843_j76682346102829_2_alg».proof.Proof.LibBroadcast
import Idealize.ShloMosaic.Lib.Pipeline.Value

set_option maxRecDepth 16384

noncomputable section

namespace Cert.NormRegions

open Cert.KernelIdeal Cert.KernelIdeal.Gen Idealize.ShloMosaic Idealize.ShloMosaic.TcCoe Idealize.ShloMosaic.ValueIdx
open Idealize.SL.Sem
open Idealize.ShloMosaic.Pipeline (Dat)
open Cert.NormSpec

/-- A block that starts at the origin of its buffer. -/
theorem hz17 : (![0, 0] : Fin 2 → Nat) = fun _ => 0 := funext fun a => by fin_cases a <;> rfl

/-- Region 17's arithmetic at one entry of a block: the unit of (agg + w2·x)/(div + w2), the two columns read at the
    entry's row (`y'` is the entry `(row, 0)` of a one-column block). -/
theorem pay17_at (v0 v9 : Vec Ideal S5000x1 .f32) (v2 v4 : Vec Ideal S5000x64 .f32) (y : S5000x64.Idx) (y' : S5000x1.Idx)
    (hy : (y' 0).val = (y 0).val) :
    k17_pay1 (F := Ideal) v0 v2 v4 v9 y = eluAt (Ideal.div (v2 y + v0 y' * v4 y) (v9 y' + v0 y')) := by
  obtain ⟨p, q, rfl⟩ : ∃ (p : Fin 5000) (q : Fin 64), y = ix2 p q := ⟨y 0, y 1, eq_ix2 y⟩
  obtain ⟨p', q', rfl⟩ : ∃ (p' : Fin 5000) (q' : Fin 1), y' = ix2 p' q' := ⟨y' 0, y' 1, eq_ix2 y'⟩
  obtain rfl : q' = 0 := Subsingleton.elim _ _
  have hp : p' = p := Fin.ext hy
  rw [hp]
  have hb0 : broadcastTo S5000x64 v0 broadcasts_S5000x1_S5000x64 (ix2 p q) = v0 (ix2 p (0 : Fin 1)) :=
    Cert.Layout.broadcastTo_a1_ab_apply v0 broadcasts_S5000x1_S5000x64 p q
  have hb1 : broadcastTo S5000x64 (addf (F := Ideal) (s := S5000x1) (φ := .f32) v9 v0) broadcasts_S5000x1_S5000x64 (ix2 p q)
      = v9 (ix2 p (0 : Fin 1)) + v0 (ix2 p (0 : Fin 1)) :=
    Cert.Layout.broadcastTo_a1_ab_apply (addf (F := Ideal) (s := S5000x1) (φ := .f32) v9 v0) broadcasts_S5000x1_S5000x64 p q
  unfold k17_pay1
  simp only [shapeCast_self]
  show eluAt (Ideal.div
      (v2 (ix2 p q) + broadcastTo S5000x64 v0 broadcasts_S5000x1_S5000x64 (ix2 p q) * v4 (ix2 p q))
      (broadcastTo S5000x64 (addf (F := Ideal) (s := S5000x1) (φ := .f32) v9 v0) broadcasts_S5000x1_S5000x64 (ix2 p q))) = _
  rw [hb0, hb1]

/-! ## Region 17 -/

/-- The printed index maps over the 40 points: every window's block row is the point's number, its block column 0. -/
theorem idx_facts17 : ∀ t : Fin cfg17.N,
    win17_0.index t (0 : Fin 2) = t.val ∧ win17_0.index t (1 : Fin 2) = 0
    ∧ win17_1.index t (0 : Fin 2) = t.val ∧ win17_1.index t (1 : Fin 2) = 0
    ∧ win17_2.index t (0 : Fin 2) = t.val ∧ win17_2.index t (1 : Fin 2) = 0
    ∧ win17_3.index t (0 : Fin 2) = t.val ∧ win17_3.index t (1 : Fin 2) = 0
    ∧ win17_4.index t (0 : Fin 2) = t.val ∧ win17_4.index t (1 : Fin 2) = 0 :=
  (by decide +kernel : ∀ t : Fin grid17.N, _)

set_option maxHeartbeats 4000000 in
/-- WHAT POINT `t` WRITES BACK is block `t` (rows 5000t … 5000t + 4999) of the stage applied to the four input arrays. -/
theorem flushed17 (V : (c : Dev nD) → (b : Ref sig .tc) → Buf (Elt Ideal) ((c : Thread nD τ).loc b)) (c : Dev nD)
    (t : Fin cfg17.N) :
    (dat17 (F := Ideal) V c).flushed 4 t
      = ((cfg17.win 4).blk t).view.read (Elt Ideal)
          (norm (V c (Pipeline.arrRef spec17 0)) (V c (Pipeline.arrRef spec17 1)) (V c (Pipeline.arrRef spec17 2))
            (V c (Pipeline.arrRef spec17 3))) := by
  show (cfg17.win 4).cut (grid17.coords t) ((dat17 (F := Ideal) V c).after 4 t) = _
  rw [after17_4]
  unfold out17_4
  rw [View.canon_unit_zero hz17]
  simp only [View.ld_unit_zero (S := S5000x64) hz17, View.ld_unit_zero (S := S5000x1) hz17]
  obtain ⟨e00, e01, e10, e11, e20, e21, e30, e31, e40, e41⟩ := idx_facts17 t
  funext j
  have hj0 : (j 0).val < 5000 := (j 0).isLt
  have hj1 : (j 1).val < 64 := (j 1).isLt
  refine (pay17_at (iblk17 V c 2 t) (iblk17 V c 1 t) (iblk17 V c 0 t) (iblk17 V c 3 t) j
    (ix2 (⟨(j 0).val, hj0⟩ : Fin 5000) (0 : Fin 1)) rfl).trans ?_
  have h0 : ((cfg17.win 0).blk t).view.emb j = ((cfg17.win 4).blk t).view.emb j := by
    funext a; apply Fin.ext
    match a with
    | ⟨0, _⟩ => show win17_0.index t (0 : Fin 2) * 5000 + 1 * (j 0).val = win17_4.index t (0 : Fin 2) * 5000 + 1 * (j 0).val; omega
    | ⟨1, _⟩ => show win17_0.index t (1 : Fin 2) * 64 + 1 * (j 1).val = win17_4.index t (1 : Fin 2) * 64 + 1 * (j 1).val; omega
  have h3 : ((cfg17.win 3).blk t).view.emb j = ((cfg17.win 4).blk t).view.emb j := by
    funext a; apply Fin.ext
    match a with
    | ⟨0, _⟩ => show win17_3.index t (0 : Fin 2) * 5000 + 1 * (j 0).val = win17_4.index t (0 : Fin 2) * 5000 + 1 * (j 0).val; omega
    | ⟨1, _⟩ => show win17_3.index t (1 : Fin 2) * 64 + 1 * (j 1).val = win17_4.index t (1 : Fin 2) * 64 + 1 * (j 1).val; omega
  have h1 : ((cfg17.win 1).blk t).view.emb (ix2 (⟨(j 0).val, hj0⟩ : Fin 5000) (0 : Fin 1))
      = ix2 (⟨((((cfg17.win 4).blk t).view.emb j) 0).val, idx2_lt0 _⟩ : Fin 200000) (0 : Fin 1) := by
    funext a; apply Fin.ext
    match a with
    | ⟨0, _⟩ => show win17_1.index t (0 : Fin 2) * 5000 + 1 * (j 0).val = win17_4.index t (0 : Fin 2) * 5000 + 1 * (j 0).val; omega
    | ⟨1, _⟩ => show win17_1.index t (1 : Fin 2) * 1 + 1 * 0 = 0; omega
  have h2 : ((cfg17.win 2).blk t).view.emb (ix2 (⟨(j 0).val, hj0⟩ : Fin 5000) (0 : Fin 1))
      = ix2 (⟨((((cfg17.win 4).blk t).view.emb j) 0).val, idx2_lt0 _⟩ : Fin 200000) (0 : Fin 1) := by
    funext a; apply Fin.ext
    match a with
    | ⟨0, _⟩ => show win17_2.index t (0 : Fin 2) * 5000 + 1 * (j 0).val = win17_4.index t (0 : Fin 2) * 5000 + 1 * (j 0).val; omega
    | ⟨1, _⟩ => show win17_2.index t (1 : Fin 2) * 1 + 1 * 0 = 0; omega
  have e0 : iblk17 V c 0 t j
      = (V c (Pipeline.arrRef spec17 0) : S200000x64.Idx → EReal) (((cfg17.win 4).blk t).view.emb j) :=
    congrArg (V c (Pipeline.arrRef spec17 0) : S200000x64.Idx → EReal) h0
  have e3 : iblk17 V c 3 t j
      = (V c (Pipeline.arrRef spec17 3) : S200000x64.Idx → EReal) (((cfg17.win 4).blk t).view.emb j) :=
    congrArg (V c (Pipeline.arrRef spec17 3) : S200000x64.Idx → EReal) h3
  have e1 : iblk17 V c 1 t (ix2 (⟨(j 0).val, hj0⟩ : Fin 5000) (0 : Fin 1))
      = (V c (Pipeline.arrRef spec17 1) : S200000x1.Idx → EReal)
          (ix2 (⟨((((cfg17.win 4).blk t).view.emb j) 0).val, idx2_lt0 _⟩ : Fin 200000) (0 : Fin 1)) :=
    congrArg (V c (Pipeline.arrRef spec17 1) : S200000x1.Idx → EReal) h1
  have e2 : iblk17 V c 2 t (ix2 (⟨(j 0).val, hj0⟩ : Fin 5000) (0 : Fin 1))
      = (V c (Pipeline.arrRef spec17 2) : S200000x1.Idx → EReal)
          (ix2 (⟨((((cfg17.win 4).blk t).view.emb j) 0).val, idx2_lt0 _⟩ : Fin 200000) (0 : Fin 1)) :=
    congrArg (V c (Pipeline.arrRef spec17 2) : S200000x1.Idx → EReal) h2
  rw [e0, e3, e1, e2]
  rfl

/-- An index of the output array is in point `t`'s block iff each coordinate is in the block's range on its axis. -/
theorem mem_blk17 (t : Fin cfg17.N) (i : S200000x64.Idx) :
    i ∈ ((cfg17.win 4).blk t).view.set
      ↔ ∀ a : Fin 2, win17_4.index t a * S5000x64.size a ≤ (i a).val ∧ (i a).val < win17_4.index t a * S5000x64.size a + S5000x64.size a := by
  show i ∈ ((View.whole main_v101).slice (win17_4.rect t)).set ↔ _
  rw [View.set_slice_whole, Rect.mem_set_unit]
  exact Iff.rfl

/-- Row `r` of the output lies in the block of point `r / 5000`. -/
theorem cover17 (i : S200000x64.Idx) :
    ∃ t : Fin cfg17.N, (cfg17.win 4).flush t = true ∧ i ∈ ((cfg17.win 4).blk t).view.set := by
  have hi0 : (i 0).val < 200000 := (i 0).isLt
  have hi1 : (i 1).val < 64 := (i 1).isLt
  have hN : cfg17.N = 40 := N_17
  have hT : (i 0).val / 5000 < cfg17.N := by rw [hN]; omega
  obtain ⟨-, -, -, -, -, -, -, -, e40, e41⟩ := idx_facts17 ⟨(i 0).val / 5000, hT⟩
  have e40' : win17_4.index ⟨(i 0).val / 5000, hT⟩ (0 : Fin 2) = (i 0).val / 5000 := e40
  refine ⟨⟨(i 0).val / 5000, hT⟩, flush17_4 _, ?_⟩
  rw [mem_blk17]
  intro a
  match a with
  | ⟨0, _⟩ =>
    show win17_4.index ⟨(i 0).val / 5000, hT⟩ (0 : Fin 2) * 5000 ≤ (i 0).val
      ∧ (i 0).val < win17_4.index ⟨(i 0).val / 5000, hT⟩ (0 : Fin 2) * 5000 + 5000
    rw [e40']; omega
  | ⟨1, _⟩ =>
    show win17_4.index ⟨(i 0).val / 5000, hT⟩ (1 : Fin 2) * 64 ≤ (i 1).val
      ∧ (i 1).val < win17_4.index ⟨(i 0).val / 5000, hT⟩ (1 : Fin 2) * 64 + 64
    rw [e41]; omega

/-- REGION 17: the output array after the region is the stage applied to the region's four input arrays as it finds
    them (window 0 the summed neighbour rows, 1 the summed edge weights, 2 the self-loop weights, 3 the nodes' rows). -/
theorem region17_out4 (V : (c : Dev nD) → (b : Ref sig .tc) → Buf (Elt Ideal) ((c : Thread nD τ).loc b)) (c : Dev nD) :
    (dat17 (F := Ideal) V c).arrAt 4 cfg17.N
      = norm (V c (Pipeline.arrRef spec17 0)) (V c (Pipeline.arrRef spec17 1)) (V c (Pipeline.arrRef spec17 2))
          (V c (Pipeline.arrRef spec17 3)) :=
  (dat17 (F := Ideal) V c).arrAt_eq_of_cover 4 _ (fun t _ => flushed17 V c t) cover17

end Cert.NormRegions

end
-- ==== Proof.NormRegions.lean ====
/-
  The four normalise-and-ELU regions of the first program (regions 7, 9, 15 and 17), each read as the stage
  `NormSpec.norm` applied to the whole arrays the region finds: one module per region, gathered here.
-/
import proofs.«154843_j76682346102829_2_alg».proof.Proof.NormRegion7
import proofs.«154843_j76682346102829_2_alg».proof.Proof.NormRegion9
import proofs.«154843_j76682346102829_2_alg».proof.Proof.NormRegion15
import proofs.«154843_j76682346102829_2_alg».proof.Proof.NormRegion17
-- ==== Proof.KernelValues.lean ====
/-
  The idealized kernel computes the network, one buffer at a time.

  For every intermediate value of the network, the kernel buffer that is to hold it does hold it, at the segment
  boundary right after the segment that writes it: a region's output array is the region's stage applied to the
  region's input arrays as it finds them; a stretch of host operations leaves its operations' results; and each
  input, carried unchanged from the boundary where it was written, is by the earlier lemmas the network's value
  under the kernel's stages `KS`. The last lemma is the result array after the run.
-/
import proofs.«154843_j76682346102829_2_alg».proof.Proof.KernelStages
import proofs.«154843_j76682346102829_2_alg».proof.Proof.CarryHopOneP
import proofs.«154843_j76682346102829_2_alg».proof.Proof.CarryHopOneA
import proofs.«154843_j76682346102829_2_alg».proof.Proof.CarryHopTwo
import proofs.«154843_j76682346102829_2_alg».proof.Proof.CarryOutput
import proofs.«154843_j76682346102829_2_alg».proof.Proof.KernelTakes
import proofs.«154843_j76682346102829_2_alg».proof.Proof.DenseRegion0
import proofs.«154843_j76682346102829_2_alg».proof.Proof.DenseRegion1
import proofs.«154843_j76682346102829_2_alg».proof.Proof.DenseRegion2
import proofs.«154843_j76682346102829_2_alg».proof.Proof.DenseRegion3
import proofs.«154843_j76682346102829_2_alg».proof.Proof.DenseRegion10
import proofs.«154843_j76682346102829_2_alg».proof.Proof.DenseRegion11
import proofs.«154843_j76682346102829_2_alg».proof.Proof.DenseRegion18
import proofs.«154843_j76682346102829_2_alg».proof.Proof.EdgeRegions
import proofs.«154843_j76682346102829_2_alg».proof.Proof.ScoreRegions
import proofs.«154843_j76682346102829_2_alg».proof.Proof.NormRegions

set_option maxRecDepth 16384

noncomputable section

namespace Cert.KernelIdeal.Values

open Idealize.ShloMosaic Idealize.ShloMosaic.TcCoe Idealize.SL.Sem
open Cert.KernelIdeal Cert.KernelIdeal.Gen

theorem app1 {α β : Type} (f : α → β) {a a' : α} (ha : a = a') : f a = f a' := by subst ha; rfl
theorem app2 {α β γ : Type} (f : α → β → γ) {a a' : α} {b b' : β} (ha : a = a') (hb : b = b') : f a b = f a' b' := by
  subst ha hb; rfl
theorem app3 {α β γ δ : Type} (f : α → β → γ → δ) {a a' : α} {b b' : β} {c c' : γ} (ha : a = a') (hb : b = b') (hc : c = c') :
    f a b c = f a' b' c' := by subst ha hb hc; rfl
theorem app4 {α β γ δ ε : Type} (f : α → β → γ → δ → ε) {a a' : α} {b b' : β} {c c' : γ} {d d' : δ}
    (ha : a = a') (hb : b = b') (hc : c = c') (hd : d = d') : f a b c d = f a' b' c' d' := by subst ha hb hc hd; rfl

variable (m : (ℓ : Loc nD τ sig) → Buf (Elt Ideal) ℓ) (ρ : Dev nD → PrngReg)

theorem k_sP (c : Dev nD) : (W1 m ρ c (Proc.devRef .tc main_v1) : Cert.Net.I1) = Cert.Net.sP KS (kargs m c) := by
  unfold Cert.Net.sP
  rw [KS_iRow0]
  refine (HostStage.read_v1 m ρ c).trans ?_
  exact app1 HostStage.iRow0
    rfl

theorem k_tP (c : Dev nD) : (W1 m ρ c (Proc.devRef .tc main_v3) : Cert.Net.I1) = Cert.Net.tP KS (kargs m c) := by
  unfold Cert.Net.tP
  rw [KS_iRow1]
  refine (HostStage.read_v3 m ρ c).trans ?_
  exact app1 HostStage.iRow1
    rfl

theorem k_sA (c : Dev nD) : (W1 m ρ c (Proc.devRef .tc main_v5) : Cert.Net.I1) = Cert.Net.sA KS (kargs m c) := by
  unfold Cert.Net.sA
  rw [KS_iRow0]
  refine (HostStage.read_v5 m ρ c).trans ?_
  exact app1 HostStage.iRow0
    rfl

theorem k_tA (c : Dev nD) : (W1 m ρ c (Proc.devRef .tc main_v7) : Cert.Net.I1) = Cert.Net.tA KS (kargs m c) := by
  unfold Cert.Net.tA
  rw [KS_iRow1]
  refine (HostStage.read_v7 m ρ c).trans ?_
  exact app1 HostStage.iRow1
    rfl

theorem k_p0 (c : Dev nD) : (W2 m ρ c (Proc.devRef .tc main_v8) : Cert.Net.N64) = Cert.Net.p0 KS (kargs m c) := by
  unfold Cert.Net.p0
  rw [KS_relu128]
  refine (W2_arr m ρ c 3).trans ((Cert.DenseRegions.region0 (V1 m ρ) c).trans ?_)
  exact app3 Cert.DenseStages.relu128
    (Cert.KernelIdeal.Carry.arg0_0_1 m ρ c)
    (Cert.KernelIdeal.Carry.arg4_0_1 m ρ c)
    (Cert.KernelIdeal.Carry.arg5_0_1 m ρ c)

theorem k_a0 (c : Dev nD) : (W3 m ρ c (Proc.devRef .tc main_v9) : Cert.Net.N64) = Cert.Net.a0 KS (kargs m c) := by
  unfold Cert.Net.a0
  rw [KS_relu64]
  refine (W3_arr m ρ c 3).trans ((Cert.DenseRegions.region1 (V2 m ρ) c).trans ?_)
  exact app3 Cert.DenseStages.relu64
    (Cert.KernelIdeal.Carry.arg1_0_2 m ρ c)
    (Cert.KernelIdeal.Carry.arg6_0_2 m ρ c)
    (Cert.KernelIdeal.Carry.arg7_0_2 m ρ c)

theorem k_p1 (c : Dev nD) : (W5 m ρ c (Proc.devRef .tc main_v14) : Cert.Net.N64) = Cert.Net.p1 KS (kargs m c) := by
  unfold Cert.Net.p1
  rw [KS_dense, KS_wRow0, KS_bRow0]
  refine (W5_arr m ρ c 3).trans ((Cert.DenseRegions.region2 (V4 m ρ) c).trans ?_)
  exact app3 Cert.DenseStages.dense
    ((Cert.KernelIdeal.Carry.v8_2_4 m ρ c).trans (k_p0 m ρ c))
    ((HostStage.read_v11 m ρ c).trans (congrArg HostStage.wRow0 (Cert.KernelIdeal.Carry.arg8_0_3 m ρ c)))
    ((HostStage.read_v13 m ρ c).trans (congrArg HostStage.bRow0 (Cert.KernelIdeal.Carry.arg9_0_3 m ρ c)))

theorem k_a1 (c : Dev nD) : (W7 m ρ c (Proc.devRef .tc main_v19) : Cert.Net.N64) = Cert.Net.a1 KS (kargs m c) := by
  unfold Cert.Net.a1
  rw [KS_dense, KS_wRow0, KS_bRow0]
  refine (W7_arr m ρ c 3).trans ((Cert.DenseRegions.region3 (V6 m ρ) c).trans ?_)
  exact app3 Cert.DenseStages.dense
    ((Cert.KernelIdeal.Carry.v9_3_6 m ρ c).trans (k_a0 m ρ c))
    ((HostStage.read_v16 m ρ c).trans (congrArg HostStage.wRow0 (Cert.KernelIdeal.Carry.arg8_0_5 m ρ c)))
    ((HostStage.read_v18 m ρ c).trans (congrArg HostStage.bRow0 (Cert.KernelIdeal.Carry.arg9_0_5 m ρ c)))

theorem k_x1PA (c : Dev nD) : (W9 m ρ c (Proc.devRef .tc main_v26_0) : Cert.Net.N1) = Cert.Net.x1PA KS (kargs m c) := by
  unfold Cert.Net.x1PA
  rw [KS_score, KS_bRow0]
  refine (W9_arr m ρ c 4).trans ((Cert.ScoreRegions.region4_out4 (V8 m ρ) c).trans ?_)
  exact app2 Cert.ScoreEdge.score
    ((Cert.KernelIdeal.Carry.v14_5_8 m ρ c).trans (k_p1 m ρ c))
    ((HostStage.read_v21 m ρ c).trans (congrArg HostStage.bRow0 (Cert.KernelIdeal.Carry.arg10_0_7 m ρ c)))

theorem k_h1AP (c : Dev nD) : (W9 m ρ c (Proc.devRef .tc main_v26_1) : Cert.Net.N1) = Cert.Net.h1AP KS (kargs m c) := by
  unfold Cert.Net.h1AP
  rw [KS_score, KS_bRow0]
  refine (W9_arr m ρ c 5).trans ((Cert.ScoreRegions.region4_out5 (V8 m ρ) c).trans ?_)
  exact app2 Cert.ScoreEdge.score
    ((Cert.KernelIdeal.Carry.v14_5_8 m ρ c).trans (k_p1 m ρ c))
    ((HostStage.read_v25 m ρ c).trans (congrArg HostStage.bRow0 (Cert.KernelIdeal.Carry.arg13_0_7 m ρ c)))

theorem k_w2PA (c : Dev nD) : (W9 m ρ c (Proc.devRef .tc main_v26_2) : Cert.Net.N1) = Cert.Net.w2PA KS (kargs m c) := by
  unfold Cert.Net.w2PA
  rw [KS_selfWeight, KS_bRow0]
  refine (W9_arr m ρ c 6).trans ((Cert.ScoreRegions.region4_out6 (V8 m ρ) c).trans ?_)
  exact app3 Cert.ScoreEdge.selfWeight
    ((Cert.KernelIdeal.Carry.v14_5_8 m ρ c).trans (k_p1 m ρ c))
    ((HostStage.read_v21 m ρ c).trans (congrArg HostStage.bRow0 (Cert.KernelIdeal.Carry.arg10_0_7 m ρ c)))
    ((HostStage.read_v23 m ρ c).trans (congrArg HostStage.bRow0 (Cert.KernelIdeal.Carry.arg11_0_7 m ρ c)))

theorem k_x1AP (c : Dev nD) : (W11 m ρ c (Proc.devRef .tc main_v33_0) : Cert.Net.N1) = Cert.Net.x1AP KS (kargs m c) := by
  unfold Cert.Net.x1AP
  rw [KS_score, KS_bRow0]
  refine (W11_arr m ρ c 4).trans ((Cert.ScoreRegions.region5_out4 (V10 m ρ) c).trans ?_)
  exact app2 Cert.ScoreEdge.score
    ((Cert.KernelIdeal.Carry.v19_7_10 m ρ c).trans (k_a1 m ρ c))
    ((HostStage.read_v28 m ρ c).trans (congrArg HostStage.bRow0 (Cert.KernelIdeal.Carry.arg12_0_9 m ρ c)))

theorem k_h1PA (c : Dev nD) : (W11 m ρ c (Proc.devRef .tc main_v33_1) : Cert.Net.N1) = Cert.Net.h1PA KS (kargs m c) := by
  unfold Cert.Net.h1PA
  rw [KS_score, KS_bRow0]
  refine (W11_arr m ρ c 5).trans ((Cert.ScoreRegions.region5_out5 (V10 m ρ) c).trans ?_)
  exact app2 Cert.ScoreEdge.score
    ((Cert.KernelIdeal.Carry.v19_7_10 m ρ c).trans (k_a1 m ρ c))
    ((HostStage.read_v32 m ρ c).trans (congrArg HostStage.bRow0 (Cert.KernelIdeal.Carry.arg11_0_9 m ρ c)))

theorem k_w2AP (c : Dev nD) : (W11 m ρ c (Proc.devRef .tc main_v33_2) : Cert.Net.N1) = Cert.Net.w2AP KS (kargs m c) := by
  unfold Cert.Net.w2AP
  rw [KS_selfWeight, KS_bRow0]
  refine (W11_arr m ρ c 6).trans ((Cert.ScoreRegions.region5_out6 (V10 m ρ) c).trans ?_)
  exact app3 Cert.ScoreEdge.selfWeight
    ((Cert.KernelIdeal.Carry.v19_7_10 m ρ c).trans (k_a1 m ρ c))
    ((HostStage.read_v28 m ρ c).trans (congrArg HostStage.bRow0 (Cert.KernelIdeal.Carry.arg12_0_9 m ρ c)))
    ((HostStage.read_v30 m ρ c).trans (congrArg HostStage.bRow0 (Cert.KernelIdeal.Carry.arg13_0_9 m ρ c)))

theorem k_x1sPA (c : Dev nD) : (W12 m ρ c (Proc.devRef .tc main_v34) : Cert.Net.E1) = Cert.Net.x1sPA KS (kargs m c) := by
  unfold Cert.Net.x1sPA
  rw [KS_gCol]
  refine (Takes.take_v34 m ρ c).trans ?_
  exact app2 Cert.Gathers.kernelCol
    ((Cert.KernelIdeal.Carry.v26_0_9_11 m ρ c).trans (k_x1PA m ρ c))
    ((Cert.KernelIdeal.Carry.v1_1_11 m ρ c).trans (k_sP m ρ c))

theorem k_h1tPA (c : Dev nD) : (W13 m ρ c (Proc.devRef .tc main_v35) : Cert.Net.E1) = Cert.Net.h1tPA KS (kargs m c) := by
  unfold Cert.Net.h1tPA
  rw [KS_gCol]
  refine (Takes.take_v35 m ρ c).trans ?_
  exact app2 Cert.Gathers.kernelCol
    ((Cert.KernelIdeal.Carry.v33_1_11_12 m ρ c).trans (k_h1PA m ρ c))
    ((Cert.KernelIdeal.Carry.v3_1_12 m ρ c).trans (k_tP m ρ c))

theorem k_htPA (c : Dev nD) : (W14 m ρ c (Proc.devRef .tc main_v36) : Cert.Net.E64) = Cert.Net.htPA KS (kargs m c) := by
  unfold Cert.Net.htPA
  rw [KS_gRow]
  refine (Takes.take_v36 m ρ c).trans ?_
  exact app2 Cert.Gathers.kernelRow
    ((Cert.KernelIdeal.Carry.v19_7_13 m ρ c).trans (k_a1 m ρ c))
    ((Cert.KernelIdeal.Carry.v3_1_13 m ρ c).trans (k_tP m ρ c))

theorem k_w1PA (c : Dev nD) : (W15 m ρ c (Proc.devRef .tc main_v37_0) : Cert.Net.E1) = Cert.Net.w1PA KS (kargs m c) := by
  unfold Cert.Net.w1PA
  rw [KS_edgeW]
  refine (W15_arr m ρ c 3).trans ((Cert.EdgeRegions.region6_out3 (V14 m ρ) c).trans ?_)
  exact app2 Cert.ScoreEdge.edgeW
    ((Cert.KernelIdeal.Carry.v34_12_14 m ρ c).trans (k_x1sPA m ρ c))
    ((Cert.KernelIdeal.Carry.v35_13_14 m ρ c).trans (k_h1tPA m ρ c))

theorem k_whPA (c : Dev nD) : (W15 m ρ c (Proc.devRef .tc main_v37_1) : Cert.Net.E64) = Cert.Net.whPA KS (kargs m c) := by
  unfold Cert.Net.whPA
  rw [KS_edgeWH]
  refine (W15_arr m ρ c 4).trans ((Cert.EdgeRegions.region6_out4 (V14 m ρ) c).trans ?_)
  exact app3 Cert.ScoreEdge.edgeWH
    ((Cert.KernelIdeal.Carry.v34_12_14 m ρ c).trans (k_x1sPA m ρ c))
    ((Cert.KernelIdeal.Carry.v35_13_14 m ρ c).trans (k_h1tPA m ρ c))
    (k_htPA m ρ c)

theorem k_divPA (c : Dev nD) : (W16 m ρ c (Proc.devRef .tc main_v40) : Cert.Net.N1) = Cert.Net.divPA KS (kargs m c) := by
  unfold Cert.Net.divPA
  rw [KS_segCol]
  refine (HostStage.read_v40 m ρ c).trans ?_
  exact app2 HostStage.segCol
    ((Cert.KernelIdeal.Carry.v1_1_15 m ρ c).trans (k_sP m ρ c))
    (k_w1PA m ρ c)

theorem k_aggPA (c : Dev nD) : (W16 m ρ c (Proc.devRef .tc main_v43) : Cert.Net.N64) = Cert.Net.aggPA KS (kargs m c) := by
  unfold Cert.Net.aggPA
  rw [KS_segRow]
  refine (HostStage.read_v43 m ρ c).trans ?_
  exact app2 HostStage.segRow
    ((Cert.KernelIdeal.Carry.v1_1_15 m ρ c).trans (k_sP m ρ c))
    (k_whPA m ρ c)

theorem k_p2 (c : Dev nD) : (W17 m ρ c (Proc.devRef .tc main_v44) : Cert.Net.N64) = Cert.Net.p2 KS (kargs m c) := by
  unfold Cert.Net.p2
  rw [KS_norm]
  refine (W17_arr m ρ c 4).trans ((Cert.NormRegions.region7_out4 (V16 m ρ) c).trans ?_)
  exact app4 Cert.NormSpec.norm
    (k_aggPA m ρ c)
    (k_divPA m ρ c)
    ((Cert.KernelIdeal.Carry.v26_2_9_16 m ρ c).trans (k_w2PA m ρ c))
    ((Cert.KernelIdeal.Carry.v14_5_16 m ρ c).trans (k_p1 m ρ c))

theorem k_x1sAP (c : Dev nD) : (W18 m ρ c (Proc.devRef .tc main_v45) : Cert.Net.E1) = Cert.Net.x1sAP KS (kargs m c) := by
  unfold Cert.Net.x1sAP
  rw [KS_gCol]
  refine (Takes.take_v45 m ρ c).trans ?_
  exact app2 Cert.Gathers.kernelCol
    ((Cert.KernelIdeal.Carry.v33_0_11_17 m ρ c).trans (k_x1AP m ρ c))
    ((Cert.KernelIdeal.Carry.v5_1_17 m ρ c).trans (k_sA m ρ c))

theorem k_h1tAP (c : Dev nD) : (W19 m ρ c (Proc.devRef .tc main_v46) : Cert.Net.E1) = Cert.Net.h1tAP KS (kargs m c) := by
  unfold Cert.Net.h1tAP
  rw [KS_gCol]
  refine (Takes.take_v46 m ρ c).trans ?_
  exact app2 Cert.Gathers.kernelCol
    ((Cert.KernelIdeal.Carry.v26_1_9_18 m ρ c).trans (k_h1AP m ρ c))
    ((Cert.KernelIdeal.Carry.v7_1_18 m ρ c).trans (k_tA m ρ c))

theorem k_htAP (c : Dev nD) : (W20 m ρ c (Proc.devRef .tc main_v47) : Cert.Net.E64) = Cert.Net.htAP KS (kargs m c) := by
  unfold Cert.Net.htAP
  rw [KS_gRow]
  refine (Takes.take_v47 m ρ c).trans ?_
  exact app2 Cert.Gathers.kernelRow
    ((Cert.KernelIdeal.Carry.v14_5_19 m ρ c).trans (k_p1 m ρ c))
    ((Cert.KernelIdeal.Carry.v7_1_19 m ρ c).trans (k_tA m ρ c))

theorem k_w1AP (c : Dev nD) : (W21 m ρ c (Proc.devRef .tc main_v48_0) : Cert.Net.E1) = Cert.Net.w1AP KS (kargs m c) := by
  unfold Cert.Net.w1AP
  rw [KS_edgeW]
  refine (W21_arr m ρ c 3).trans ((Cert.EdgeRegions.region8_out3 (V20 m ρ) c).trans ?_)
  exact app2 Cert.ScoreEdge.edgeW
    ((Cert.KernelIdeal.Carry.v45_18_20 m ρ c).trans (k_x1sAP m ρ c))
    ((Cert.KernelIdeal.Carry.v46_19_20 m ρ c).trans (k_h1tAP m ρ c))

theorem k_whAP (c : Dev nD) : (W21 m ρ c (Proc.devRef .tc main_v48_1) : Cert.Net.E64) = Cert.Net.whAP KS (kargs m c) := by
  unfold Cert.Net.whAP
  rw [KS_edgeWH]
  refine (W21_arr m ρ c 4).trans ((Cert.EdgeRegions.region8_out4 (V20 m ρ) c).trans ?_)
  exact app3 Cert.ScoreEdge.edgeWH
    ((Cert.KernelIdeal.Carry.v45_18_20 m ρ c).trans (k_x1sAP m ρ c))
    ((Cert.KernelIdeal.Carry.v46_19_20 m ρ c).trans (k_h1tAP m ρ c))
    (k_htAP m ρ c)

theorem k_divAP (c : Dev nD) : (W22 m ρ c (Proc.devRef .tc main_v51) : Cert.Net.N1) = Cert.Net.divAP KS (kargs m c) := by
  unfold Cert.Net.divAP
  rw [KS_segCol]
  refine (HostStage.read_v51 m ρ c).trans ?_
  exact app2 HostStage.segCol
    ((Cert.KernelIdeal.Carry.v5_1_21 m ρ c).trans (k_sA m ρ c))
    (k_w1AP m ρ c)

theorem k_aggAP (c : Dev nD) : (W22 m ρ c (Proc.devRef .tc main_v54) : Cert.Net.N64) = Cert.Net.aggAP KS (kargs m c) := by
  unfold Cert.Net.aggAP
  rw [KS_segRow]
  refine (HostStage.read_v54 m ρ c).trans ?_
  exact app2 HostStage.segRow
    ((Cert.KernelIdeal.Carry.v5_1_21 m ρ c).trans (k_sA m ρ c))
    (k_whAP m ρ c)

theorem k_a2 (c : Dev nD) : (W23 m ρ c (Proc.devRef .tc main_v55) : Cert.Net.N64) = Cert.Net.a2 KS (kargs m c) := by
  unfold Cert.Net.a2
  rw [KS_norm]
  refine (W23_arr m ρ c 4).trans ((Cert.NormRegions.region9_out4 (V22 m ρ) c).trans ?_)
  exact app4 Cert.NormSpec.norm
    (k_aggAP m ρ c)
    (k_divAP m ρ c)
    ((Cert.KernelIdeal.Carry.v33_2_11_22 m ρ c).trans (k_w2AP m ρ c))
    ((Cert.KernelIdeal.Carry.v19_7_22 m ρ c).trans (k_a1 m ρ c))

theorem k_p3 (c : Dev nD) : (W25 m ρ c (Proc.devRef .tc main_v60) : Cert.Net.N64) = Cert.Net.p3 KS (kargs m c) := by
  unfold Cert.Net.p3
  rw [KS_dense, KS_wRow1, KS_bRow1]
  refine (W25_arr m ρ c 3).trans ((Cert.DenseRegions.region10 (V24 m ρ) c).trans ?_)
  exact app3 Cert.DenseStages.dense
    ((Cert.KernelIdeal.Carry.v44_17_24 m ρ c).trans (k_p2 m ρ c))
    ((HostStage.read_v57 m ρ c).trans (congrArg HostStage.wRow1 (Cert.KernelIdeal.Carry.arg8_0_23 m ρ c)))
    ((HostStage.read_v59 m ρ c).trans (congrArg HostStage.bRow1 (Cert.KernelIdeal.Carry.arg9_0_23 m ρ c)))

theorem k_a3 (c : Dev nD) : (W27 m ρ c (Proc.devRef .tc main_v65) : Cert.Net.N64) = Cert.Net.a3 KS (kargs m c) := by
  unfold Cert.Net.a3
  rw [KS_dense, KS_wRow1, KS_bRow1]
  refine (W27_arr m ρ c 3).trans ((Cert.DenseRegions.region11 (V26 m ρ) c).trans ?_)
  exact app3 Cert.DenseStages.dense
    ((Cert.KernelIdeal.Carry.v55_23_26 m ρ c).trans (k_a2 m ρ c))
    ((HostStage.read_v62 m ρ c).trans (congrArg HostStage.wRow1 (Cert.KernelIdeal.Carry.arg8_0_25 m ρ c)))
    ((HostStage.read_v64 m ρ c).trans (congrArg HostStage.bRow1 (Cert.KernelIdeal.Carry.arg9_0_25 m ρ c)))

theorem k_x1PA2 (c : Dev nD) : (W29 m ρ c (Proc.devRef .tc main_v72_0) : Cert.Net.N1) = Cert.Net.x1PA' KS (kargs m c) := by
  unfold Cert.Net.x1PA'
  rw [KS_score, KS_bRow1]
  refine (W29_arr m ρ c 4).trans ((Cert.ScoreRegions.region12_out4 (V28 m ρ) c).trans ?_)
  exact app2 Cert.ScoreEdge.score
    ((Cert.KernelIdeal.Carry.v60_25_28 m ρ c).trans (k_p3 m ρ c))
    ((HostStage.read_v67 m ρ c).trans (congrArg HostStage.bRow1 (Cert.KernelIdeal.Carry.arg10_0_27 m ρ c)))

theorem k_w2PA2 (c : Dev nD) : (W29 m ρ c (Proc.devRef .tc main_v72_2) : Cert.Net.N1) = Cert.Net.w2PA' KS (kargs m c) := by
  unfold Cert.Net.w2PA'
  rw [KS_selfWeight, KS_bRow1]
  refine (W29_arr m ρ c 6).trans ((Cert.ScoreRegions.region12_out6 (V28 m ρ) c).trans ?_)
  exact app3 Cert.ScoreEdge.selfWeight
    ((Cert.KernelIdeal.Carry.v60_25_28 m ρ c).trans (k_p3 m ρ c))
    ((HostStage.read_v67 m ρ c).trans (congrArg HostStage.bRow1 (Cert.KernelIdeal.Carry.arg10_0_27 m ρ c)))
    ((HostStage.read_v69 m ρ c).trans (congrArg HostStage.bRow1 (Cert.KernelIdeal.Carry.arg11_0_27 m ρ c)))

theorem k_h1PA2 (c : Dev nD) : (W31 m ρ c (Proc.devRef .tc main_v79_1) : Cert.Net.N1) = Cert.Net.h1PA' KS (kargs m c) := by
  unfold Cert.Net.h1PA'
  rw [KS_score, KS_bRow1]
  refine (W31_arr m ρ c 5).trans ((Cert.ScoreRegions.region13_out5 (V30 m ρ) c).trans ?_)
  exact app2 Cert.ScoreEdge.score
    ((Cert.KernelIdeal.Carry.v65_27_30 m ρ c).trans (k_a3 m ρ c))
    ((HostStage.read_v78 m ρ c).trans (congrArg HostStage.bRow1 (Cert.KernelIdeal.Carry.arg11_0_29 m ρ c)))

theorem k_x1sPA2 (c : Dev nD) : (W32 m ρ c (Proc.devRef .tc main_v80) : Cert.Net.E1) = Cert.Net.x1sPA' KS (kargs m c) := by
  unfold Cert.Net.x1sPA'
  rw [KS_gCol]
  refine (Takes.take_v80 m ρ c).trans ?_
  exact app2 Cert.Gathers.kernelCol
    ((Cert.KernelIdeal.Carry.v72_0_29_31 m ρ c).trans (k_x1PA2 m ρ c))
    ((Cert.KernelIdeal.Carry.v1_1_31 m ρ c).trans (k_sP m ρ c))

theorem k_h1tPA2 (c : Dev nD) : (W33 m ρ c (Proc.devRef .tc main_v81) : Cert.Net.E1) = Cert.Net.h1tPA' KS (kargs m c) := by
  unfold Cert.Net.h1tPA'
  rw [KS_gCol]
  refine (Takes.take_v81 m ρ c).trans ?_
  exact app2 Cert.Gathers.kernelCol
    ((Cert.KernelIdeal.Carry.v79_1_31_32 m ρ c).trans (k_h1PA2 m ρ c))
    ((Cert.KernelIdeal.Carry.v3_1_32 m ρ c).trans (k_tP m ρ c))

theorem k_htPA2 (c : Dev nD) : (W34 m ρ c (Proc.devRef .tc main_v82) : Cert.Net.E64) = Cert.Net.htPA' KS (kargs m c) := by
  unfold Cert.Net.htPA'
  rw [KS_gRow]
  refine (Takes.take_v82 m ρ c).trans ?_
  exact app2 Cert.Gathers.kernelRow
    ((Cert.KernelIdeal.Carry.v65_27_33 m ρ c).trans (k_a3 m ρ c))
    ((Cert.KernelIdeal.Carry.v3_1_33 m ρ c).trans (k_tP m ρ c))

theorem k_w1PA2 (c : Dev nD) : (W35 m ρ c (Proc.devRef .tc main_v83_0) : Cert.Net.E1) = Cert.Net.w1PA' KS (kargs m c) := by
  unfold Cert.Net.w1PA'
  rw [KS_edgeW]
  refine (W35_arr m ρ c 3).trans ((Cert.EdgeRegions.region14_out3 (V34 m ρ) c).trans ?_)
  exact app2 Cert.ScoreEdge.edgeW
    ((Cert.KernelIdeal.Carry.v80_32_34 m ρ c).trans (k_x1sPA2 m ρ c))
    ((Cert.KernelIdeal.Carry.v81_33_34 m ρ c).trans (k_h1tPA2 m ρ c))

theorem k_whPA2 (c : Dev nD) : (W35 m ρ c (Proc.devRef .tc main_v83_1) : Cert.Net.E64) = Cert.Net.whPA' KS (kargs m c) := by
  unfold Cert.Net.whPA'
  rw [KS_edgeWH]
  refine (W35_arr m ρ c 4).trans ((Cert.EdgeRegions.region14_out4 (V34 m ρ) c).trans ?_)
  exact app3 Cert.ScoreEdge.edgeWH
    ((Cert.KernelIdeal.Carry.v80_32_34 m ρ c).trans (k_x1sPA2 m ρ c))
    ((Cert.KernelIdeal.Carry.v81_33_34 m ρ c).trans (k_h1tPA2 m ρ c))
    (k_htPA2 m ρ c)

theorem k_divPA2 (c : Dev nD) : (W36 m ρ c (Proc.devRef .tc main_v86) : Cert.Net.N1) = Cert.Net.divPA' KS (kargs m c) := by
  unfold Cert.Net.divPA'
  rw [KS_segCol]
  refine (HostStage.read_v86 m ρ c).trans ?_
  exact app2 HostStage.segCol
    ((Cert.KernelIdeal.Carry.v1_1_35 m ρ c).trans (k_sP m ρ c))
    (k_w1PA2 m ρ c)

theorem k_aggPA2 (c : Dev nD) : (W36 m ρ c (Proc.devRef .tc main_v89) : Cert.Net.N64) = Cert.Net.aggPA' KS (kargs m c) := by
  unfold Cert.Net.aggPA'
  rw [KS_segRow]
  refine (HostStage.read_v89 m ρ c).trans ?_
  exact app2 HostStage.segRow
    ((Cert.KernelIdeal.Carry.v1_1_35 m ρ c).trans (k_sP m ρ c))
    (k_whPA2 m ρ c)

theorem k_p4 (c : Dev nD) : (W37 m ρ c (Proc.devRef .tc main_v90) : Cert.Net.N64) = Cert.Net.p4 KS (kargs m c) := by
  unfold Cert.Net.p4
  rw [KS_norm]
  refine (W37_arr m ρ c 4).trans ((Cert.NormRegions.region15_out4 (V36 m ρ) c).trans ?_)
  exact app4 Cert.NormSpec.norm
    (k_aggPA2 m ρ c)
    (k_divPA2 m ρ c)
    ((Cert.KernelIdeal.Carry.v72_2_29_36 m ρ c).trans (k_w2PA2 m ρ c))
    ((Cert.KernelIdeal.Carry.v60_25_36 m ρ c).trans (k_p3 m ρ c))

theorem k_out (c : Dev nD) : (W44 m ρ c (Proc.devRef .tc main_v102) : Cert.Net.NOut) = Cert.Net.out KS (kargs m c) := by
  unfold Cert.Net.out
  rw [KS_denseOut]
  refine (W44_arr m ρ c 3).trans ((Cert.DenseRegions.region18 (V43 m ρ) c).trans ?_)
  exact app3 Cert.DenseStages.denseOut
    ((Cert.KernelIdeal.Carry.v90_37_43 m ρ c).trans (k_p4 m ρ c))
    (Cert.KernelIdeal.Carry.arg14_0_43 m ρ c)
    (Cert.KernelIdeal.Carry.arg15_0_43 m ρ c)

end Cert.KernelIdeal.Values

end
-- ==== Proof.RefRunOps0.lean ====
/-
  The reference program's host operations 1 … 64 of 406 (the first window of its entry function),
  as a list in program order.  The operations of the outlined functions (the rectifier, the three-way selects, the
  exponential linear unit) stand inline at their call sites, each over the buffers that call names.  Stated here: the window
  of the program is the list run in order; every operation reads and writes device buffers only and determines its
  result; the buffers the window writes, and that any other buffer keeps its contents through the window.
-/
import proofs.«154843_j76682346102829_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
abbrev ops0 : List (HloOp τ sig (Elt F)) :=
  [ binary main_arg0 main_arg4 main_v0 ((fun l r => Host.dotGeneral dot_S200000x128_S128x64_S200000x64_1_0_0_1_n_n none l r) : (⟨S200000x128, .f32⟩ : BufTy).Contents (Elt F) → (⟨S128x64, .f32⟩ : BufTy).Contents (Elt F) → (⟨S200000x64, .f32⟩ : BufTy).Contents (Elt F)),
    unary main_arg5 main_v1 (broadcastInDim S1x64 ![1] bcast_S64_S1x64_1 : (⟨S64, .f32⟩ : BufTy).Contents (Elt F) → (⟨S1x64, .f32⟩ : BufTy).Contents (Elt F)),
    unary main_v1 main_v2 (broadcastInDim S200000x64 ![0, 1] bcast_S1x64_S200000x64_0_1 : (⟨S1x64, .f32⟩ : BufTy).Contents (Elt F) → (⟨S200000x64, .f32⟩ : BufTy).Contents (Elt F)),
    binary main_v0 main_v2 main_v3 (addf : (⟨S200000x64, .f32⟩ : BufTy).Contents (Elt F) → (⟨S200000x64, .f32⟩ : BufTy).Contents (Elt F) → (⟨S200000x64, .f32⟩ : BufTy).Contents (Elt F)),
    nullary main_call0_cst (constant S_ .f32 0x00000000#32),
    unary main_call0_cst main_call0_v0 (broadcastInDim S200000x64 ![] bcast_S_S200000x64 : (⟨S_, .f32⟩ : BufTy).Contents (Elt F) → (⟨S200000x64, .f32⟩ : BufTy).Contents (Elt F)),
    binary main_v3 main_call0_v0 main_v4 (maximumf : (⟨S200000x64, .f32⟩ : BufTy).Contents (Elt F) → (⟨S200000x64, .f32⟩ : BufTy).Contents (Elt F) → (⟨S200000x64, .f32⟩ : BufTy).Contents (Elt F)),
    binary main_arg1 main_arg6 main_v5 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    unary main_arg7 main_v6 (broadcastInDim S1x64 ![1] bcast_S64_S1x64_1 : (⟨S64, .f32⟩ : BufTy).Contents (Elt F) → (⟨S1x64, .f32⟩ : BufTy).Contents (Elt F)),
    unary main_v6 main_v7 (broadcastInDim S200000x64 ![0, 1] bcast_S1x64_S200000x64_0_1 : (⟨S1x64, .f32⟩ : BufTy).Contents (Elt F) → (⟨S200000x64, .f32⟩ : BufTy).Contents (Elt F)),
    binary main_v5 main_v7 main_v8 (addf : (⟨S200000x64, .f32⟩ : BufTy).Contents (Elt F) → (⟨S200000x64, .f32⟩ : BufTy).Contents (Elt F) → (⟨S200000x64, .f32⟩ : BufTy).Contents (Elt F)),
    nullary main_call1_cst (constant S_ .f32 0x00000000#32),
    unary main_call1_cst main_call1_v0 (broadcastInDim S200000x64 ![] bcast_S_S200000x64 : (⟨S_, .f32⟩ : BufTy).Contents (Elt F) → (⟨S200000x64, .f32⟩ : BufTy).Contents (Elt F)),
    binary main_v8 main_call1_v0 main_v9 (maximumf : (⟨S200000x64, .f32⟩ : BufTy).Contents (Elt F) → (⟨S200000x64, .f32⟩ : BufTy).Contents (Elt F) → (⟨S200000x64, .f32⟩ : BufTy).Contents (Elt F)),
    unary main_arg8 main_v10 ((extractStridedSlice S1x64x64 ![0, 0, 0] · slices_S2x64x64_S1x64x64_0_0_0) : (⟨S2x64x64, .f32⟩ : BufTy).Contents (Elt F) → (⟨S1x64x64, .f32⟩ : BufTy).Contents (Elt F)),
    reshape main_v10 main_v11 rfl shapeCasts_S1x64x64_S64x64,
    binary main_v4 main_v11 main_v12 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    unary main_arg9 main_v13 ((extractStridedSlice S1x64 ![0, 0] · slices_S2x64_S1x64_0_0) : (⟨S2x64, .f32⟩ : BufTy).Contents (Elt F) → (⟨S1x64, .f32⟩ : BufTy).Contents (Elt F)),
    reshape main_v13 main_v14 rfl shapeCasts_S1x64_S64,
    unary main_v14 main_v15 (broadcastInDim S1x64 ![1] bcast_S64_S1x64_1 : (⟨S64, .f32⟩ : BufTy).Contents (Elt F) → (⟨S1x64, .f32⟩ : BufTy).Contents (Elt F)),
    unary main_v15 main_v16 (broadcastInDim S200000x64 ![0, 1] bcast_S1x64_S200000x64_0_1 : (⟨S1x64, .f32⟩ : BufTy).Contents (Elt F) → (⟨S200000x64, .f32⟩ : BufTy).Contents (Elt F)),
    binary main_v12 main_v16 main_v17 (addf : (⟨S200000x64, .f32⟩ : BufTy).Contents (Elt F) → (⟨S200000x64, .f32⟩ : BufTy).Contents (Elt F) → (⟨S200000x64, .f32⟩ : BufTy).Contents (Elt F)),
    unary main_arg8 main_v18 ((extractStridedSlice S1x64x64 ![0, 0, 0] · slices_S2x64x64_S1x64x64_0_0_0) : (⟨S2x64x64, .f32⟩ : BufTy).Contents (Elt F) → (⟨S1x64x64, .f32⟩ : BufTy).Contents (Elt F)),
    reshape main_v18 main_v19 rfl shapeCasts_S1x64x64_S64x64,
    binary main_v9 main_v19 main_v20 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    unary main_arg9 main_v21 ((extractStridedSlice S1x64 ![0, 0] · slices_S2x64_S1x64_0_0) : (⟨S2x64, .f32⟩ : BufTy).Contents (Elt F) → (⟨S1x64, .f32⟩ : BufTy).Contents (Elt F)),
    reshape main_v21 main_v22 rfl shapeCasts_S1x64_S64,
    unary main_v22 main_v23 (broadcastInDim S1x64 ![1] bcast_S64_S1x64_1 : (⟨S64, .f32⟩ : BufTy).Contents (Elt F) → (⟨S1x64, .f32⟩ : BufTy).Contents (Elt F)),
    unary main_v23 main_v24 (broadcastInDim S200000x64 ![0, 1] bcast_S1x64_S200000x64_0_1 : (⟨S1x64, .f32⟩ : BufTy).Contents (Elt F) → (⟨S200000x64, .f32⟩ : BufTy).Contents (Elt F)),
    binary main_v20 main_v24 main_v25 (addf : (⟨S200000x64, .f32⟩ : BufTy).Contents (Elt F) → (⟨S200000x64, .f32⟩ : BufTy).Contents (Elt F) → (⟨S200000x64, .f32⟩ : BufTy).Contents (Elt F)),
    unary main_arg2 main_v26 ((extractStridedSlice S1x2000000 ![0, 0] · slices_S2x2000000_S1x2000000_0_0) : (⟨S2x2000000, .i32⟩ : BufTy).Contents (Elt F) → (⟨S1x2000000, .i32⟩ : BufTy).Contents (Elt F)),
    reshape main_v26 main_v27 rfl shapeCasts_S1x2000000_S2000000,
    unary main_arg2 main_v28 ((extractStridedSlice S1x2000000 ![1, 0] · slices_S2x2000000_S1x2000000_1_0) : (⟨S2x2000000, .i32⟩ : BufTy).Contents (Elt F) → (⟨S1x2000000, .i32⟩ : BufTy).Contents (Elt F)),
    reshape main_v28 main_v29 rfl shapeCasts_S1x2000000_S2000000,
    unary main_arg10 main_v30 ((extractStridedSlice S1x64 ![0, 0] · slices_S2x64_S1x64_0_0) : (⟨S2x64, .f32⟩ : BufTy).Contents (Elt F) → (⟨S1x64, .f32⟩ : BufTy).Contents (Elt F)),
    reshape main_v30 main_v31 rfl shapeCasts_S1x64_S64,
    unary main_v31 main_v32 (broadcastInDim S64x1 ![0] bcast_S64_S64x1_0 : (⟨S64, .f32⟩ : BufTy).Contents (Elt F) → (⟨S64x1, .f32⟩ : BufTy).Contents (Elt F)),
    unary main_arg11 main_v33 ((extractStridedSlice S1x64 ![0, 0] · slices_S2x64_S1x64_0_0) : (⟨S2x64, .f32⟩ : BufTy).Contents (Elt F) → (⟨S1x64, .f32⟩ : BufTy).Contents (Elt F)),
    reshape main_v33 main_v34 rfl shapeCasts_S1x64_S64,
    unary main_v34 main_v35 (broadcastInDim S64x1 ![0] bcast_S64_S64x1_0 : (⟨S64, .f32⟩ : BufTy).Contents (Elt F) → (⟨S64x1, .f32⟩ : BufTy).Contents (Elt F)),
    binary main_v17 main_v32 main_v36 ((fun l r => Host.dotGeneral dot_S200000x64_S64x1_S200000x1_1_0_0_1_n_n none l r) : (⟨S200000x64, .f32⟩ : BufTy).Contents (Elt F) → (⟨S64x1, .f32⟩ : BufTy).Contents (Elt F) → (⟨S200000x1, .f32⟩ : BufTy).Contents (Elt F)),
    binary main_v25 main_v35 main_v37 ((fun l r => Host.dotGeneral dot_S200000x64_S64x1_S200000x1_1_0_0_1_n_n none l r) : (⟨S200000x64, .f32⟩ : BufTy).Contents (Elt F) → (⟨S64x1, .f32⟩ : BufTy).Contents (Elt F) → (⟨S200000x1, .f32⟩ : BufTy).Contents (Elt F)),
    binary main_v17 main_v35 main_v38 ((fun l r => Host.dotGeneral dot_S200000x64_S64x1_S200000x1_1_0_0_1_n_n none l r) : (⟨S200000x64, .f32⟩ : BufTy).Contents (Elt F) → (⟨S64x1, .f32⟩ : BufTy).Contents (Elt F) → (⟨S200000x1, .f32⟩ : BufTy).Contents (Elt F)),
    binary main_v36 main_v38 main_v39 (addf : (⟨S200000x1, .f32⟩ : BufTy).Contents (Elt F) → (⟨S200000x1, .f32⟩ : BufTy).Contents (Elt F) → (⟨S200000x1, .f32⟩ : BufTy).Contents (Elt F)),
    nullary main_cst (constant S_ .f32 0x00000000#32),
    unary main_cst main_v40 (broadcastInDim S200000x1 ![] bcast_S_S200000x1 : (⟨S_, .f32⟩ : BufTy).Contents (Elt F) → (⟨S200000x1, .f32⟩ : BufTy).Contents (Elt F)),
    binary main_v39 main_v40 main_v41 (cmpf .ogt : (⟨S200000x1, .f32⟩ : BufTy).Contents (Elt F) → (⟨S200000x1, .f32⟩ : BufTy).Contents (Elt F) → (⟨S200000x1, .i1⟩ : BufTy).Contents (Elt F)),
    nullary main_cst_0 (constant S_ .f32 0x3E4CCCCD#32),
    unary main_cst_0 main_v42 (broadcastInDim S200000x1 ![] bcast_S_S200000x1 : (⟨S_, .f32⟩ : BufTy).Contents (Elt F) → (⟨S200000x1, .f32⟩ : BufTy).Contents (Elt F)),
    binary main_v42 main_v39 main_v43 (mulf : (⟨S200000x1, .f32⟩ : BufTy).Contents (Elt F) → (⟨S200000x1, .f32⟩ : BufTy).Contents (Elt F) → (⟨S200000x1, .f32⟩ : BufTy).Contents (Elt F)),
    ternary main_v41 main_v39 main_v43 main_v44 (select : (⟨S200000x1, .i1⟩ : BufTy).Contents (Elt F) → (⟨S200000x1, .f32⟩ : BufTy).Contents (Elt F) → (⟨S200000x1, .f32⟩ : BufTy).Contents (Elt F) → (⟨S200000x1, .f32⟩ : BufTy).Contents (Elt F)),
    unary main_v44 main_v45 (Host.exp : (⟨S200000x1, .f32⟩ : BufTy).Contents (Elt F) → (⟨S200000x1, .f32⟩ : BufTy).Contents (Elt F)),
    nullary main_c (constantI S_ 32 0#32),
    unary main_c main_v46 (broadcastInDim S2000000 ![] bcast_S_S2000000 : (⟨S_, .i32⟩ : BufTy).Contents (Elt F) → (⟨S2000000, .i32⟩ : BufTy).Contents (Elt F)),
    binary main_v27 main_v46 main_v47 (cmpi .slt : (⟨S2000000, .i32⟩ : BufTy).Contents (Elt F) → (⟨S2000000, .i32⟩ : BufTy).Contents (Elt F) → (⟨S2000000, .i1⟩ : BufTy).Contents (Elt F)),
    nullary main_c_1 (constantI S_ 32 200000#32),
    unary main_c_1 main_v48 (broadcastInDim S2000000 ![] bcast_S_S2000000 : (⟨S_, .i32⟩ : BufTy).Contents (Elt F) → (⟨S2000000, .i32⟩ : BufTy).Contents (Elt F)),
    binary main_v27 main_v48 main_v49 (addi : (⟨S2000000, .i32⟩ : BufTy).Contents (Elt F) → (⟨S2000000, .i32⟩ : BufTy).Contents (Elt F) → (⟨S2000000, .i32⟩ : BufTy).Contents (Elt F)),
    ternary main_v47 main_v49 main_v27 main_v50 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v50 main_v51 (broadcastInDim S2000000x1 ![0] bcast_S2000000_S2000000x1_0 : (⟨S2000000, .i32⟩ : BufTy).Contents (Elt F) → (⟨S2000000x1, .i32⟩ : BufTy).Contents (Elt F)),
    binary main_v36 main_v51 main_v52 ((fun x i => Host.gather gather_S200000x1_S2000000x1_S2000000x1_1_0_n_n_0_1_11 x i) : (⟨S200000x1, .f32⟩ : BufTy).Contents (Elt F) → (⟨S2000000x1, .i32⟩ : BufTy).Contents (Elt F) → (⟨S2000000x1, .f32⟩ : BufTy).Contents (Elt F)),
    nullary main_c_2 (constantI S_ 32 0#32),
    unary main_c_2 main_v53 (broadcastInDim S2000000 ![] bcast_S_S2000000 : (⟨S_, .i32⟩ : BufTy).Contents (Elt F) → (⟨S2000000, .i32⟩ : BufTy).Contents (Elt F)),
    binary main_v29 main_v53 main_v54 (cmpi .slt : (⟨S2000000, .i32⟩ : BufTy).Contents (Elt F) → (⟨S2000000, .i32⟩ : BufTy).Contents (Elt F) → (⟨S2000000, .i1⟩ : BufTy).Contents (Elt F)) ]

set_option maxRecDepth 8192 in
set_option maxHeartbeats 4000000 in
/-- The window is that straight line: the outlined functions unfolded at their calls, both sides are one chain of
    steps once sequencing is reassociated. -/
theorem main_part0_eq (c : Dev nD) : main_part0 (F := F) c = seq ops0 := by
  simp only [main_part0, fn_relu.body, fn_where.body, seq, bind_assoc, pure_bind] <;> rfl

set_option maxRecDepth 8192 in
/-- Every operation of the window reads and writes buffers of the device. -/
theorem ops0_sub : (ops0 : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub .., unary_bufs_sub .., reshape_bufs_sub .., binary_bufs_sub .., unary_bufs_sub ..,
    reshape_bufs_sub .., unary_bufs_sub .., unary_bufs_sub .., binary_bufs_sub .., unary_bufs_sub .., reshape_bufs_sub ..,
    binary_bufs_sub .., unary_bufs_sub .., reshape_bufs_sub .., unary_bufs_sub .., unary_bufs_sub .., binary_bufs_sub ..,
    unary_bufs_sub .., reshape_bufs_sub .., unary_bufs_sub .., reshape_bufs_sub .., unary_bufs_sub .., reshape_bufs_sub ..,
    unary_bufs_sub .., unary_bufs_sub .., reshape_bufs_sub .., unary_bufs_sub .., binary_bufs_sub .., binary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub ..⟩

set_option maxRecDepth 8192 in
set_option maxHeartbeats 4000000 in
/-- Every operation of the window determines its result (none only allocates). -/
theorem ops0_fresh : ∀ op ∈ (ops0 : List (HloOp τ sig (Elt F))), op.fresh = ∅ := by
  intro _ h; (repeat (cases h with | head => rfl | tail _ h => ?_)); exact nomatch h

/-- The buffers the window's operations write, in order. -/
abbrev ops0_W : List (Ref sig .tc) :=
  [main_v0, main_v1, main_v2, main_v3, main_call0_cst, main_call0_v0, main_v4, main_v5, main_v6, main_v7,
   main_v8, main_call1_cst, main_call1_v0, main_v9, main_v10, main_v11, main_v12, main_v13, main_v14, main_v15,
   main_v16, main_v17, main_v18, main_v19, main_v20, main_v21, main_v22, main_v23, main_v24, main_v25,
   main_v26, main_v27, main_v28, main_v29, main_v30, main_v31, main_v32, main_v33, main_v34, main_v35,
   main_v36, main_v37, main_v38, main_v39, main_cst, main_v40, main_v41, main_cst_0, main_v42, main_v43,
   main_v44, main_v45, main_c, main_v46, main_v47, main_c_1, main_v48, main_v49, main_v50, main_v51,
   main_v52, main_c_2, main_v53, main_v54]

set_option maxRecDepth 8192 in
set_option maxHeartbeats 4000000 in
theorem ops0_writes : (ops0 : List (HloOp τ sig (Elt F))).Forall fun op =>
    op.writes ⊆ (ops0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals simp only [nullary_writes, unary_writes, binary_writes, ternary_writes, reshape_writes, Finset.singleton_subset_iff, List.mem_toFinset]; exact List.mem_map_of_mem (by decide)

/-- A buffer the window does not write keeps its contents through it. -/
theorem ops0_keep (V : Valuation τ sig (Elt F)) (r : Ref sig .tc) (h : r ∉ ops0_W) :
    after ops0 V (Proc.devRef .tc r) = V (Proc.devRef .tc r) :=
  after_of_writes_sub ops0 V ops0_writes h

end Cert.ReferenceIdeal.RefRun

end
-- ==== Proof.RefRunOps1.lean ====
/-
  The reference program's host operations 65 … 138 of 406 (the second window of its entry function),
  as a list in program order.  The operations of the outlined functions (the rectifier, the three-way selects, the
  exponential linear unit) stand inline at their call sites, each over the buffers that call names.  Stated here: the window
  of the program is the list run in order; every operation reads and writes device buffers only and determines its
  result; the buffers the window writes, and that any other buffer keeps its contents through the window.
-/
import proofs.«154843_j76682346102829_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
abbrev ops1 : List (HloOp τ sig (Elt F)) :=
  [ nullary main_c_3 (constantI S_ 32 200000#32),
    unary main_c_3 main_v55 (broadcastInDim S2000000 ![] bcast_S_S2000000 : (⟨S_, .i32⟩ : BufTy).Contents (Elt F) → (⟨S2000000, .i32⟩ : BufTy).Contents (Elt F)),
    binary main_v29 main_v55 main_v56 (addi : (⟨S2000000, .i32⟩ : BufTy).Contents (Elt F) → (⟨S2000000, .i32⟩ : BufTy).Contents (Elt F) → (⟨S2000000, .i32⟩ : BufTy).Contents (Elt F)),
    ternary main_v54 main_v56 main_v29 main_v57 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v57 main_v58 (broadcastInDim S2000000x1 ![0] bcast_S2000000_S2000000x1_0 : (⟨S2000000, .i32⟩ : BufTy).Contents (Elt F) → (⟨S2000000x1, .i32⟩ : BufTy).Contents (Elt F)),
    binary main_v37 main_v58 main_v59 ((fun x i => Host.gather gather_S200000x1_S2000000x1_S2000000x1_1_0_n_n_0_1_11 x i) : (⟨S200000x1, .f32⟩ : BufTy).Contents (Elt F) → (⟨S2000000x1, .i32⟩ : BufTy).Contents (Elt F) → (⟨S2000000x1, .f32⟩ : BufTy).Contents (Elt F)),
    binary main_v52 main_v59 main_v60 (addf : (⟨S2000000x1, .f32⟩ : BufTy).Contents (Elt F) → (⟨S2000000x1, .f32⟩ : BufTy).Contents (Elt F) → (⟨S2000000x1, .f32⟩ : BufTy).Contents (Elt F)),
    nullary main_cst_4 (constant S_ .f32 0x00000000#32),
    unary main_cst_4 main_v61 (broadcastInDim S2000000x1 ![] bcast_S_S2000000x1 : (⟨S_, .f32⟩ : BufTy).Contents (Elt F) → (⟨S2000000x1, .f32⟩ : BufTy).Contents (Elt F)),
    binary main_v60 main_v61 main_v62 (cmpf .ogt : (⟨S2000000x1, .f32⟩ : BufTy).Contents (Elt F) → (⟨S2000000x1, .f32⟩ : BufTy).Contents (Elt F) → (⟨S2000000x1, .i1⟩ : BufTy).Contents (Elt F)),
    nullary main_cst_5 (constant S_ .f32 0x3E4CCCCD#32),
    unary main_cst_5 main_v63 (broadcastInDim S2000000x1 ![] bcast_S_S2000000x1 : (⟨S_, .f32⟩ : BufTy).Contents (Elt F) → (⟨S2000000x1, .f32⟩ : BufTy).Contents (Elt F)),
    binary main_v63 main_v60 main_v64 (mulf : (⟨S2000000x1, .f32⟩ : BufTy).Contents (Elt F) → (⟨S2000000x1, .f32⟩ : BufTy).Contents (Elt F) → (⟨S2000000x1, .f32⟩ : BufTy).Contents (Elt F)),
    ternary main_v62 main_v60 main_v64 main_v65 (select : (⟨S2000000x1, .i1⟩ : BufTy).Contents (Elt F) → (⟨S2000000x1, .f32⟩ : BufTy).Contents (Elt F) → (⟨S2000000x1, .f32⟩ : BufTy).Contents (Elt F) → (⟨S2000000x1, .f32⟩ : BufTy).Contents (Elt F)),
    unary main_v65 main_v66 (Host.exp : (⟨S2000000x1, .f32⟩ : BufTy).Contents (Elt F) → (⟨S2000000x1, .f32⟩ : BufTy).Contents (Elt F)),
    nullary main_cst_6 (constant S_ .f32 0x00000000#32),
    unary main_cst_6 main_v67 (broadcastInDim S200000x1 ![] bcast_S_S200000x1 : (⟨S_, .f32⟩ : BufTy).Contents (Elt F) → (⟨S200000x1, .f32⟩ : BufTy).Contents (Elt F)),
    unary main_v27 main_v68 (broadcastInDim S2000000x1 ![0] bcast_S2000000_S2000000x1_0 : (⟨S2000000, .i32⟩ : BufTy).Contents (Elt F) → (⟨S2000000x1, .i32⟩ : BufTy).Contents (Elt F)),
    ternary main_v67 main_v68 main_v66 main_v69 ((fun x i u => Host.scatterAdd scatter_S200000x1_S2000000x1_S2000000x1_1_0_0_1 x i u) : (⟨S200000x1, .f32⟩ : BufTy).Contents (Elt F) → (⟨S2000000x1, .i32⟩ : BufTy).Contents (Elt F) → (⟨S2000000x1, .f32⟩ : BufTy).Contents (Elt F) → (⟨S200000x1, .f32⟩ : BufTy).Contents (Elt F)),
    binary main_v69 main_v45 main_v70 (addf : (⟨S200000x1, .f32⟩ : BufTy).Contents (Elt F) → (⟨S200000x1, .f32⟩ : BufTy).Contents (Elt F) → (⟨S200000x1, .f32⟩ : BufTy).Contents (Elt F)),
    nullary main_c_7 (constantI S_ 32 0#32),
    unary main_c_7 main_v71 (broadcastInDim S2000000 ![] bcast_S_S2000000 : (⟨S_, .i32⟩ : BufTy).Contents (Elt F) → (⟨S2000000, .i32⟩ : BufTy).Contents (Elt F)),
    binary main_v29 main_v71 main_v72 (cmpi .slt : (⟨S2000000, .i32⟩ : BufTy).Contents (Elt F) → (⟨S2000000, .i32⟩ : BufTy).Contents (Elt F) → (⟨S2000000, .i1⟩ : BufTy).Contents (Elt F)),
    nullary main_c_8 (constantI S_ 32 200000#32),
    unary main_c_8 main_v73 (broadcastInDim S2000000 ![] bcast_S_S2000000 : (⟨S_, .i32⟩ : BufTy).Contents (Elt F) → (⟨S2000000, .i32⟩ : BufTy).Contents (Elt F)),
    binary main_v29 main_v73 main_v74 (addi : (⟨S2000000, .i32⟩ : BufTy).Contents (Elt F) → (⟨S2000000, .i32⟩ : BufTy).Contents (Elt F) → (⟨S2000000, .i32⟩ : BufTy).Contents (Elt F)),
    ternary main_v72 main_v74 main_v29 main_v75 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v75 main_v76 (broadcastInDim S2000000x1 ![0] bcast_S2000000_S2000000x1_0 : (⟨S2000000, .i32⟩ : BufTy).Contents (Elt F) → (⟨S2000000x1, .i32⟩ : BufTy).Contents (Elt F)),
    binary main_v25 main_v76 main_v77 ((fun x i => Host.gather gather_S200000x64_S2000000x1_S2000000x64_1_0_n_n_0_1_164 x i) : (⟨S200000x64, .f32⟩ : BufTy).Contents (Elt F) → (⟨S2000000x1, .i32⟩ : BufTy).Contents (Elt F) → (⟨S2000000x64, .f32⟩ : BufTy).Contents (Elt F)),
    unary main_v66 main_v78 (broadcastInDim S2000000x64 ![0, 1] bcast_S2000000x1_S2000000x64_0_1 : (⟨S2000000x1, .f32⟩ : BufTy).Contents (Elt F) → (⟨S2000000x64, .f32⟩ : BufTy).Contents (Elt F)),
    binary main_v78 main_v77 main_v79 (mulf : (⟨S2000000x64, .f32⟩ : BufTy).Contents (Elt F) → (⟨S2000000x64, .f32⟩ : BufTy).Contents (Elt F) → (⟨S2000000x64, .f32⟩ : BufTy).Contents (Elt F)),
    nullary main_cst_9 (constant S_ .f32 0x00000000#32),
    unary main_cst_9 main_v80 (broadcastInDim S200000x64 ![] bcast_S_S200000x64 : (⟨S_, .f32⟩ : BufTy).Contents (Elt F) → (⟨S200000x64, .f32⟩ : BufTy).Contents (Elt F)),
    unary main_v27 main_v81 (broadcastInDim S2000000x1 ![0] bcast_S2000000_S2000000x1_0 : (⟨S2000000, .i32⟩ : BufTy).Contents (Elt F) → (⟨S2000000x1, .i32⟩ : BufTy).Contents (Elt F)),
    ternary main_v80 main_v81 main_v79 main_v82 ((fun x i u => Host.scatterAdd scatter_S200000x64_S2000000x1_S2000000x64_1_0_0_1 x i u) : (⟨S200000x64, .f32⟩ : BufTy).Contents (Elt F) → (⟨S2000000x1, .i32⟩ : BufTy).Contents (Elt F) → (⟨S2000000x64, .f32⟩ : BufTy).Contents (Elt F) → (⟨S200000x64, .f32⟩ : BufTy).Contents (Elt F)),
    unary main_v45 main_v83 (broadcastInDim S200000x64 ![0, 1] bcast_S200000x1_S200000x64_0_1 : (⟨S200000x1, .f32⟩ : BufTy).Contents (Elt F) → (⟨S200000x64, .f32⟩ : BufTy).Contents (Elt F)),
    binary main_v83 main_v17 main_v84 (mulf : (⟨S200000x64, .f32⟩ : BufTy).Contents (Elt F) → (⟨S200000x64, .f32⟩ : BufTy).Contents (Elt F) → (⟨S200000x64, .f32⟩ : BufTy).Contents (Elt F)),
    binary main_v82 main_v84 main_v85 (addf : (⟨S200000x64, .f32⟩ : BufTy).Contents (Elt F) → (⟨S200000x64, .f32⟩ : BufTy).Contents (Elt F) → (⟨S200000x64, .f32⟩ : BufTy).Contents (Elt F)),
    unary main_v70 main_v86 (broadcastInDim S200000x64 ![0, 1] bcast_S200000x1_S200000x64_0_1 : (⟨S200000x1, .f32⟩ : BufTy).Contents (Elt F) → (⟨S200000x64, .f32⟩ : BufTy).Contents (Elt F)),
    binary main_v85 main_v86 main_v87 (Host.divf : (⟨S200000x64, .f32⟩ : BufTy).Contents (Elt F) → (⟨S200000x64, .f32⟩ : BufTy).Contents (Elt F) → (⟨S200000x64, .f32⟩ : BufTy).Contents (Elt F)),
    nullary main_call4_cst (constant S_ .f32 0x00000000#32),
    unary main_call4_cst main_call4_v0 (broadcastInDim S200000x64 ![] bcast_S_S200000x64 : (⟨S_, .f32⟩ : BufTy).Contents (Elt F) → (⟨S200000x64, .f32⟩ : BufTy).Contents (Elt F)),
    binary main_v87 main_call4_v0 main_call4_v1 (cmpf .ogt : (⟨S200000x64, .f32⟩ : BufTy).Contents (Elt F) → (⟨S200000x64, .f32⟩ : BufTy).Contents (Elt F) → (⟨S200000x64, .i1⟩ : BufTy).Contents (Elt F)),
    nullary main_call4_cst_0 (constant S_ .f32 0x00000000#32),
    unary main_call4_cst_0 main_call4_v2 (broadcastInDim S200000x64 ![] bcast_S_S200000x64 : (⟨S_, .f32⟩ : BufTy).Contents (Elt F) → (⟨S200000x64, .f32⟩ : BufTy).Contents (Elt F)),
    binary main_v87 main_call4_v2 main_call4_v3 (cmpf .ogt : (⟨S200000x64, .f32⟩ : BufTy).Contents (Elt F) → (⟨S200000x64, .f32⟩ : BufTy).Contents (Elt F) → (⟨S200000x64, .i1⟩ : BufTy).Contents (Elt F)),
    nullary main_call4_cst_1 (constant S_ .f32 0x00000000#32),
    unary main_call4_cst_1 main_call4_call0_v0 (id : (⟨S_, .f32⟩ : BufTy).Contents (Elt F) → (⟨S_, .f32⟩ : BufTy).Contents (Elt F)),
    unary main_call4_call0_v0 main_call4_call0_v1 (broadcastInDim S200000x64 ![] bcast_S_S200000x64 : (⟨S_, .f32⟩ : BufTy).Contents (Elt F) → (⟨S200000x64, .f32⟩ : BufTy).Contents (Elt F)),
    ternary main_call4_v3 main_call4_call0_v1 main_v87 main_call4_v4 (select : (⟨S200000x64, .i1⟩ : BufTy).Contents (Elt F) → (⟨S200000x64, .f32⟩ : BufTy).Contents (Elt F) → (⟨S200000x64, .f32⟩ : BufTy).Contents (Elt F) → (⟨S200000x64, .f32⟩ : BufTy).Contents (Elt F)),
    unary main_call4_v4 main_call4_v5 (Host.expm1 : (⟨S200000x64, .f32⟩ : BufTy).Contents (Elt F) → (⟨S200000x64, .f32⟩ : BufTy).Contents (Elt F)),
    nullary main_call4_cst_2 (constant S_ .f32 0x3F800000#32),
    unary main_call4_cst_2 main_call4_v6 (broadcastInDim S200000x64 ![] bcast_S_S200000x64 : (⟨S_, .f32⟩ : BufTy).Contents (Elt F) → (⟨S200000x64, .f32⟩ : BufTy).Contents (Elt F)),
    binary main_call4_v6 main_call4_v5 main_call4_v7 (mulf : (⟨S200000x64, .f32⟩ : BufTy).Contents (Elt F) → (⟨S200000x64, .f32⟩ : BufTy).Contents (Elt F) → (⟨S200000x64, .f32⟩ : BufTy).Contents (Elt F)),
    ternary main_call4_v1 main_v87 main_call4_v7 main_v88 (select : (⟨S200000x64, .i1⟩ : BufTy).Contents (Elt F) → (⟨S200000x64, .f32⟩ : BufTy).Contents (Elt F) → (⟨S200000x64, .f32⟩ : BufTy).Contents (Elt F) → (⟨S200000x64, .f32⟩ : BufTy).Contents (Elt F)),
    unary main_arg3 main_v89 ((extractStridedSlice S1x2000000 ![0, 0] · slices_S2x2000000_S1x2000000_0_0) : (⟨S2x2000000, .i32⟩ : BufTy).Contents (Elt F) → (⟨S1x2000000, .i32⟩ : BufTy).Contents (Elt F)),
    reshape main_v89 main_v90 rfl shapeCasts_S1x2000000_S2000000,
    unary main_arg3 main_v91 ((extractStridedSlice S1x2000000 ![1, 0] · slices_S2x2000000_S1x2000000_1_0) : (⟨S2x2000000, .i32⟩ : BufTy).Contents (Elt F) → (⟨S1x2000000, .i32⟩ : BufTy).Contents (Elt F)),
    reshape main_v91 main_v92 rfl shapeCasts_S1x2000000_S2000000,
    unary main_arg12 main_v93 ((extractStridedSlice S1x64 ![0, 0] · slices_S2x64_S1x64_0_0) : (⟨S2x64, .f32⟩ : BufTy).Contents (Elt F) → (⟨S1x64, .f32⟩ : BufTy).Contents (Elt F)),
    reshape main_v93 main_v94 rfl shapeCasts_S1x64_S64,
    unary main_v94 main_v95 (broadcastInDim S64x1 ![0] bcast_S64_S64x1_0 : (⟨S64, .f32⟩ : BufTy).Contents (Elt F) → (⟨S64x1, .f32⟩ : BufTy).Contents (Elt F)),
    unary main_arg13 main_v96 ((extractStridedSlice S1x64 ![0, 0] · slices_S2x64_S1x64_0_0) : (⟨S2x64, .f32⟩ : BufTy).Contents (Elt F) → (⟨S1x64, .f32⟩ : BufTy).Contents (Elt F)),
    reshape main_v96 main_v97 rfl shapeCasts_S1x64_S64,
    unary main_v97 main_v98 (broadcastInDim S64x1 ![0] bcast_S64_S64x1_0 : (⟨S64, .f32⟩ : BufTy).Contents (Elt F) → (⟨S64x1, .f32⟩ : BufTy).Contents (Elt F)),
    binary main_v25 main_v95 main_v99 ((fun l r => Host.dotGeneral dot_S200000x64_S64x1_S200000x1_1_0_0_1_n_n none l r) : (⟨S200000x64, .f32⟩ : BufTy).Contents (Elt F) → (⟨S64x1, .f32⟩ : BufTy).Contents (Elt F) → (⟨S200000x1, .f32⟩ : BufTy).Contents (Elt F)),
    binary main_v17 main_v98 main_v100 ((fun l r => Host.dotGeneral dot_S200000x64_S64x1_S200000x1_1_0_0_1_n_n none l r) : (⟨S200000x64, .f32⟩ : BufTy).Contents (Elt F) → (⟨S64x1, .f32⟩ : BufTy).Contents (Elt F) → (⟨S200000x1, .f32⟩ : BufTy).Contents (Elt F)),
    binary main_v25 main_v98 main_v101 ((fun l r => Host.dotGeneral dot_S200000x64_S64x1_S200000x1_1_0_0_1_n_n none l r) : (⟨S200000x64, .f32⟩ : BufTy).Contents (Elt F) → (⟨S64x1, .f32⟩ : BufTy).Contents (Elt F) → (⟨S200000x1, .f32⟩ : BufTy).Contents (Elt F)),
    binary main_v99 main_v101 main_v102 (addf : (⟨S200000x1, .f32⟩ : BufTy).Contents (Elt F) → (⟨S200000x1, .f32⟩ : BufTy).Contents (Elt F) → (⟨S200000x1, .f32⟩ : BufTy).Contents (Elt F)),
    nullary main_cst_10 (constant S_ .f32 0x00000000#32),
    unary main_cst_10 main_v103 (broadcastInDim S200000x1 ![] bcast_S_S200000x1 : (⟨S_, .f32⟩ : BufTy).Contents (Elt F) → (⟨S200000x1, .f32⟩ : BufTy).Contents (Elt F)),
    binary main_v102 main_v103 main_v104 (cmpf .ogt : (⟨S200000x1, .f32⟩ : BufTy).Contents (Elt F) → (⟨S200000x1, .f32⟩ : BufTy).Contents (Elt F) → (⟨S200000x1, .i1⟩ : BufTy).Contents (Elt F)),
    nullary main_cst_11 (constant S_ .f32 0x3E4CCCCD#32),
    unary main_cst_11 main_v105 (broadcastInDim S200000x1 ![] bcast_S_S200000x1 : (⟨S_, .f32⟩ : BufTy).Contents (Elt F) → (⟨S200000x1, .f32⟩ : BufTy).Contents (Elt F)) ]

set_option maxRecDepth 8192 in
set_option maxHeartbeats 4000000 in
/-- The window is that straight line: the outlined functions unfolded at their calls, both sides are one chain of
    steps once sequencing is reassociated. -/
theorem main_part1_eq (c : Dev nD) : main_part1 (F := F) c = seq ops1 := by
  simp only [main_part1, fn_where_0.body, fn_elu.body, fn_where_1.body, fn_where_2.body, seq, bind_assoc, pure_bind] <;> rfl

set_option maxRecDepth 8192 in
/-- Every operation of the window reads and writes buffers of the device. -/
theorem ops1_sub : (ops1 : List (HloOp τ sig (Elt F))).Forall fun op => op.bufs ⊆ tcRefs τ sig :=
  ⟨nullary_bufs_sub .., unary_bufs_sub .., binary_bufs_sub .., ternary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., nullary_bufs_sub .., unary_bufs_sub .., unary_bufs_sub ..,
    ternary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., nullary_bufs_sub .., unary_bufs_sub .., unary_bufs_sub .., ternary_bufs_sub .., unary_bufs_sub ..,
    binary_bufs_sub .., binary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub .., unary_bufs_sub .., reshape_bufs_sub .., unary_bufs_sub .., reshape_bufs_sub .., unary_bufs_sub ..,
    reshape_bufs_sub .., unary_bufs_sub .., unary_bufs_sub .., reshape_bufs_sub .., unary_bufs_sub .., binary_bufs_sub ..,
    binary_bufs_sub .., binary_bufs_sub .., binary_bufs_sub .., nullary_bufs_sub .., unary_bufs_sub .., binary_bufs_sub ..,
    nullary_bufs_sub .., unary_bufs_sub ..⟩

set_option maxRecDepth 8192 in
set_option maxHeartbeats 4000000 in
/-- Every operation of the window determines its result (none only allocates). -/
theorem ops1_fresh : ∀ op ∈ (ops1 : List (HloOp τ sig (Elt F))), op.fresh = ∅ := by
  intro _ h; (repeat (cases h with | head => rfl | tail _ h => ?_)); exact nomatch h

/-- The buffers the window's operations write, in order. -/
abbrev ops1_W : List (Ref sig .tc) :=
  [main_c_3, main_v55, main_v56, main_v57, main_v58, main_v59, main_v60, main_cst_4, main_v61, main_v62,
   main_cst_5, main_v63, main_v64, main_v65, main_v66, main_cst_6, main_v67, main_v68, main_v69, main_v70,
   main_c_7, main_v71, main_v72, main_c_8, main_v73, main_v74, main_v75, main_v76, main_v77, main_v78,
   main_v79, main_cst_9, main_v80, main_v81, main_v82, main_v83, main_v84, main_v85, main_v86, main_v87,
   main_call4_cst, main_call4_v0, main_call4_v1, main_call4_cst_0, main_call4_v2, main_call4_v3, main_call4_cst_1, main_call4_call0_v0, main_call4_call0_v1, main_call4_v4,
   main_call4_v5, main_call4_cst_2, main_call4_v6, main_call4_v7, main_v88, main_v89, main_v90, main_v91, main_v92, main_v93,
   main_v94, main_v95, main_v96, main_v97, main_v98, main_v99, main_v100, main_v101, main_v102, main_cst_10,
   main_v103, main_v104, main_cst_11, main_v105]

set_option maxRecDepth 8192 in
set_option maxHeartbeats 4000000 in
theorem ops1_writes : (ops1 : List (HloOp τ sig (Elt F))).Forall fun op =>
    op.writes ⊆ (ops1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals simp only [nullary_writes, unary_writes, binary_writes, ternary_writes, reshape_writes, Finset.singleton_subset_iff, List.mem_toFinset]; exact List.mem_map_of_mem (by decide)

/-- A buffer the window does not write keeps its contents through it. -/
theorem ops1_keep (V : Valuation τ sig (Elt F)) (r : Ref sig .tc) (h : r ∉ ops1_W) :
    after ops1 V (Proc.devRef .tc r) = V (Proc.devRef .tc r) :=
  after_of_writes_sub ops1 V ops1_writes h

end Cert.ReferenceIdeal.RefRun

end
-- ==== Proof.RefRunOps2.lean ====
/-
  The reference program's host operations 139 … 212 of 406 (the third window of its entry function),
  as a list in program order.  The operations of the outlined functions (the rectifier, the three-way selects, the
  exponential linear unit) stand inline at their call sites, each over the buffers that call names.  Stated here: the window
  of the program is the list run in order; every operation reads and writes device buffers only and determines its
  result; the buffers the window writes, and that any other buffer keeps its contents through the window.
-/
import proofs.«154843_j76682346102829_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
abbrev ops2 : List (HloOp τ sig (Elt F)) :=
  [ binary main_v105 main_v102 main_v106 (mulf : (⟨S200000x1, .f32⟩ : BufTy).Contents (Elt F) → (⟨S200000x1, .f32⟩ : BufTy).Contents (Elt F) → (⟨S200000x1, .f32⟩ : BufTy).Contents (Elt F)),
    ternary main_v104 main_v102 main_v106 main_v107 (select : (⟨S200000x1, .i1⟩ : BufTy).Contents (Elt F) → (⟨S200000x1, .f32⟩ : BufTy).Contents (Elt F) → (⟨S200000x1, .f32⟩ : BufTy).Contents (Elt F) → (⟨S200000x1, .f32⟩ : BufTy).Contents (Elt F)),
    unary main_v107 main_v108 (Host.exp : (⟨S200000x1, .f32⟩ : BufTy).Contents (Elt F) → (⟨S200000x1, .f32⟩ : BufTy).Contents (Elt F)),
    nullary main_c_12 (constantI S_ 32 0#32),
    unary main_c_12 main_v109 (broadcastInDim S2000000 ![] bcast_S_S2000000 : (⟨S_, .i32⟩ : BufTy).Contents (Elt F) → (⟨S2000000, .i32⟩ : BufTy).Contents (Elt F)),
    binary main_v90 main_v109 main_v110 (cmpi .slt : (⟨S2000000, .i32⟩ : BufTy).Contents (Elt F) → (⟨S2000000, .i32⟩ : BufTy).Contents (Elt F) → (⟨S2000000, .i1⟩ : BufTy).Contents (Elt F)),
    nullary main_c_13 (constantI S_ 32 200000#32),
    unary main_c_13 main_v111 (broadcastInDim S2000000 ![] bcast_S_S2000000 : (⟨S_, .i32⟩ : BufTy).Contents (Elt F) → (⟨S2000000, .i32⟩ : BufTy).Contents (Elt F)),
    binary main_v90 main_v111 main_v112 (addi : (⟨S2000000, .i32⟩ : BufTy).Contents (Elt F) → (⟨S2000000, .i32⟩ : BufTy).Contents (Elt F) → (⟨S2000000, .i32⟩ : BufTy).Contents (Elt F)),
    ternary main_v110 main_v112 main_v90 main_v113 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v113 main_v114 (broadcastInDim S2000000x1 ![0] bcast_S2000000_S2000000x1_0 : (⟨S2000000, .i32⟩ : BufTy).Contents (Elt F) → (⟨S2000000x1, .i32⟩ : BufTy).Contents (Elt F)),
    binary main_v99 main_v114 main_v115 ((fun x i => Host.gather gather_S200000x1_S2000000x1_S2000000x1_1_0_n_n_0_1_11 x i) : (⟨S200000x1, .f32⟩ : BufTy).Contents (Elt F) → (⟨S2000000x1, .i32⟩ : BufTy).Contents (Elt F) → (⟨S2000000x1, .f32⟩ : BufTy).Contents (Elt F)),
    nullary main_c_14 (constantI S_ 32 0#32),
    unary main_c_14 main_v116 (broadcastInDim S2000000 ![] bcast_S_S2000000 : (⟨S_, .i32⟩ : BufTy).Contents (Elt F) → (⟨S2000000, .i32⟩ : BufTy).Contents (Elt F)),
    binary main_v92 main_v116 main_v117 (cmpi .slt : (⟨S2000000, .i32⟩ : BufTy).Contents (Elt F) → (⟨S2000000, .i32⟩ : BufTy).Contents (Elt F) → (⟨S2000000, .i1⟩ : BufTy).Contents (Elt F)),
    nullary main_c_15 (constantI S_ 32 200000#32),
    unary main_c_15 main_v118 (broadcastInDim S2000000 ![] bcast_S_S2000000 : (⟨S_, .i32⟩ : BufTy).Contents (Elt F) → (⟨S2000000, .i32⟩ : BufTy).Contents (Elt F)),
    binary main_v92 main_v118 main_v119 (addi : (⟨S2000000, .i32⟩ : BufTy).Contents (Elt F) → (⟨S2000000, .i32⟩ : BufTy).Contents (Elt F) → (⟨S2000000, .i32⟩ : BufTy).Contents (Elt F)),
    ternary main_v117 main_v119 main_v92 main_v120 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v120 main_v121 (broadcastInDim S2000000x1 ![0] bcast_S2000000_S2000000x1_0 : (⟨S2000000, .i32⟩ : BufTy).Contents (Elt F) → (⟨S2000000x1, .i32⟩ : BufTy).Contents (Elt F)),
    binary main_v100 main_v121 main_v122 ((fun x i => Host.gather gather_S200000x1_S2000000x1_S2000000x1_1_0_n_n_0_1_11 x i) : (⟨S200000x1, .f32⟩ : BufTy).Contents (Elt F) → (⟨S2000000x1, .i32⟩ : BufTy).Contents (Elt F) → (⟨S2000000x1, .f32⟩ : BufTy).Contents (Elt F)),
    binary main_v115 main_v122 main_v123 (addf : (⟨S2000000x1, .f32⟩ : BufTy).Contents (Elt F) → (⟨S2000000x1, .f32⟩ : BufTy).Contents (Elt F) → (⟨S2000000x1, .f32⟩ : BufTy).Contents (Elt F)),
    nullary main_cst_16 (constant S_ .f32 0x00000000#32),
    unary main_cst_16 main_v124 (broadcastInDim S2000000x1 ![] bcast_S_S2000000x1 : (⟨S_, .f32⟩ : BufTy).Contents (Elt F) → (⟨S2000000x1, .f32⟩ : BufTy).Contents (Elt F)),
    binary main_v123 main_v124 main_v125 (cmpf .ogt : (⟨S2000000x1, .f32⟩ : BufTy).Contents (Elt F) → (⟨S2000000x1, .f32⟩ : BufTy).Contents (Elt F) → (⟨S2000000x1, .i1⟩ : BufTy).Contents (Elt F)),
    nullary main_cst_17 (constant S_ .f32 0x3E4CCCCD#32),
    unary main_cst_17 main_v126 (broadcastInDim S2000000x1 ![] bcast_S_S2000000x1 : (⟨S_, .f32⟩ : BufTy).Contents (Elt F) → (⟨S2000000x1, .f32⟩ : BufTy).Contents (Elt F)),
    binary main_v126 main_v123 main_v127 (mulf : (⟨S2000000x1, .f32⟩ : BufTy).Contents (Elt F) → (⟨S2000000x1, .f32⟩ : BufTy).Contents (Elt F) → (⟨S2000000x1, .f32⟩ : BufTy).Contents (Elt F)),
    ternary main_v125 main_v123 main_v127 main_v128 (select : (⟨S2000000x1, .i1⟩ : BufTy).Contents (Elt F) → (⟨S2000000x1, .f32⟩ : BufTy).Contents (Elt F) → (⟨S2000000x1, .f32⟩ : BufTy).Contents (Elt F) → (⟨S2000000x1, .f32⟩ : BufTy).Contents (Elt F)),
    unary main_v128 main_v129 (Host.exp : (⟨S2000000x1, .f32⟩ : BufTy).Contents (Elt F) → (⟨S2000000x1, .f32⟩ : BufTy).Contents (Elt F)),
    nullary main_cst_18 (constant S_ .f32 0x00000000#32),
    unary main_cst_18 main_v130 (broadcastInDim S200000x1 ![] bcast_S_S200000x1 : (⟨S_, .f32⟩ : BufTy).Contents (Elt F) → (⟨S200000x1, .f32⟩ : BufTy).Contents (Elt F)),
    unary main_v90 main_v131 (broadcastInDim S2000000x1 ![0] bcast_S2000000_S2000000x1_0 : (⟨S2000000, .i32⟩ : BufTy).Contents (Elt F) → (⟨S2000000x1, .i32⟩ : BufTy).Contents (Elt F)),
    ternary main_v130 main_v131 main_v129 main_v132 ((fun x i u => Host.scatterAdd scatter_S200000x1_S2000000x1_S2000000x1_1_0_0_1 x i u) : (⟨S200000x1, .f32⟩ : BufTy).Contents (Elt F) → (⟨S2000000x1, .i32⟩ : BufTy).Contents (Elt F) → (⟨S2000000x1, .f32⟩ : BufTy).Contents (Elt F) → (⟨S200000x1, .f32⟩ : BufTy).Contents (Elt F)),
    binary main_v132 main_v108 main_v133 (addf : (⟨S200000x1, .f32⟩ : BufTy).Contents (Elt F) → (⟨S200000x1, .f32⟩ : BufTy).Contents (Elt F) → (⟨S200000x1, .f32⟩ : BufTy).Contents (Elt F)),
    nullary main_c_19 (constantI S_ 32 0#32),
    unary main_c_19 main_v134 (broadcastInDim S2000000 ![] bcast_S_S2000000 : (⟨S_, .i32⟩ : BufTy).Contents (Elt F) → (⟨S2000000, .i32⟩ : BufTy).Contents (Elt F)),
    binary main_v92 main_v134 main_v135 (cmpi .slt : (⟨S2000000, .i32⟩ : BufTy).Contents (Elt F) → (⟨S2000000, .i32⟩ : BufTy).Contents (Elt F) → (⟨S2000000, .i1⟩ : BufTy).Contents (Elt F)),
    nullary main_c_20 (constantI S_ 32 200000#32),
    unary main_c_20 main_v136 (broadcastInDim S2000000 ![] bcast_S_S2000000 : (⟨S_, .i32⟩ : BufTy).Contents (Elt F) → (⟨S2000000, .i32⟩ : BufTy).Contents (Elt F)),
    binary main_v92 main_v136 main_v137 (addi : (⟨S2000000, .i32⟩ : BufTy).Contents (Elt F) → (⟨S2000000, .i32⟩ : BufTy).Contents (Elt F) → (⟨S2000000, .i32⟩ : BufTy).Contents (Elt F)),
    ternary main_v135 main_v137 main_v92 main_v138 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v138 main_v139 (broadcastInDim S2000000x1 ![0] bcast_S2000000_S2000000x1_0 : (⟨S2000000, .i32⟩ : BufTy).Contents (Elt F) → (⟨S2000000x1, .i32⟩ : BufTy).Contents (Elt F)),
    binary main_v17 main_v139 main_v140 ((fun x i => Host.gather gather_S200000x64_S2000000x1_S2000000x64_1_0_n_n_0_1_164 x i) : (⟨S200000x64, .f32⟩ : BufTy).Contents (Elt F) → (⟨S2000000x1, .i32⟩ : BufTy).Contents (Elt F) → (⟨S2000000x64, .f32⟩ : BufTy).Contents (Elt F)),
    unary main_v129 main_v141 (broadcastInDim S2000000x64 ![0, 1] bcast_S2000000x1_S2000000x64_0_1 : (⟨S2000000x1, .f32⟩ : BufTy).Contents (Elt F) → (⟨S2000000x64, .f32⟩ : BufTy).Contents (Elt F)),
    binary main_v141 main_v140 main_v142 (mulf : (⟨S2000000x64, .f32⟩ : BufTy).Contents (Elt F) → (⟨S2000000x64, .f32⟩ : BufTy).Contents (Elt F) → (⟨S2000000x64, .f32⟩ : BufTy).Contents (Elt F)),
    nullary main_cst_21 (constant S_ .f32 0x00000000#32),
    unary main_cst_21 main_v143 (broadcastInDim S200000x64 ![] bcast_S_S200000x64 : (⟨S_, .f32⟩ : BufTy).Contents (Elt F) → (⟨S200000x64, .f32⟩ : BufTy).Contents (Elt F)),
    unary main_v90 main_v144 (broadcastInDim S2000000x1 ![0] bcast_S2000000_S2000000x1_0 : (⟨S2000000, .i32⟩ : BufTy).Contents (Elt F) → (⟨S2000000x1, .i32⟩ : BufTy).Contents (Elt F)),
    ternary main_v143 main_v144 main_v142 main_v145 ((fun x i u => Host.scatterAdd scatter_S200000x64_S2000000x1_S2000000x64_1_0_0_1 x i u) : (⟨S200000x64, .f32⟩ : BufTy).Contents (Elt F) → (⟨S2000000x1, .i32⟩ : BufTy).Contents (Elt F) → (⟨S2000000x64, .f32⟩ : BufTy).Contents (Elt F) → (⟨S200000x64, .f32⟩ : BufTy).Contents (Elt F)),
    unary main_v108 main_v146 (broadcastInDim S200000x64 ![0, 1] bcast_S200000x1_S200000x64_0_1 : (⟨S200000x1, .f32⟩ : BufTy).Contents (Elt F) → (⟨S200000x64, .f32⟩ : BufTy).Contents (Elt F)),
    binary main_v146 main_v25 main_v147 (mulf : (⟨S200000x64, .f32⟩ : BufTy).Contents (Elt F) → (⟨S200000x64, .f32⟩ : BufTy).Contents (Elt F) → (⟨S200000x64, .f32⟩ : BufTy).Contents (Elt F)),
    binary main_v145 main_v147 main_v148 (addf : (⟨S200000x64, .f32⟩ : BufTy).Contents (Elt F) → (⟨S200000x64, .f32⟩ : BufTy).Contents (Elt F) → (⟨S200000x64, .f32⟩ : BufTy).Contents (Elt F)),
    unary main_v133 main_v149 (broadcastInDim S200000x64 ![0, 1] bcast_S200000x1_S200000x64_0_1 : (⟨S200000x1, .f32⟩ : BufTy).Contents (Elt F) → (⟨S200000x64, .f32⟩ : BufTy).Contents (Elt F)),
    binary main_v148 main_v149 main_v150 (Host.divf : (⟨S200000x64, .f32⟩ : BufTy).Contents (Elt F) → (⟨S200000x64, .f32⟩ : BufTy).Contents (Elt F) → (⟨S200000x64, .f32⟩ : BufTy).Contents (Elt F)),
    nullary main_call7_cst (constant S_ .f32 0x00000000#32),
    unary main_call7_cst main_call7_v0 (broadcastInDim S200000x64 ![] bcast_S_S200000x64 : (⟨S_, .f32⟩ : BufTy).Contents (Elt F) → (⟨S200000x64, .f32⟩ : BufTy).Contents (Elt F)),
    binary main_v150 main_call7_v0 main_call7_v1 (cmpf .ogt : (⟨S200000x64, .f32⟩ : BufTy).Contents (Elt F) → (⟨S200000x64, .f32⟩ : BufTy).Contents (Elt F) → (⟨S200000x64, .i1⟩ : BufTy).Contents (Elt F)),
    nullary main_call7_cst_0 (constant S_ .f32 0x00000000#32),
    unary main_call7_cst_0 main_call7_v2 (broadcastInDim S200000x64 ![] bcast_S_S200000x64 : (⟨S_, .f32⟩ : BufTy).Contents (Elt F) → (⟨S200000x64, .f32⟩ : BufTy).Contents (Elt F)),
    binary main_v150 main_call7_v2 main_call7_v3 (cmpf .ogt : (⟨S200000x64, .f32⟩ : BufTy).Contents (Elt F) → (⟨S200000x64, .f32⟩ : BufTy).Contents (Elt F) → (⟨S200000x64, .i1⟩ : BufTy).Contents (Elt F)),
    nullary main_call7_cst_1 (constant S_ .f32 0x00000000#32),
    unary main_call7_cst_1 main_call7_call0_v0 (id : (⟨S_, .f32⟩ : BufTy).Contents (Elt F) → (⟨S_, .f32⟩ : BufTy).Contents (Elt F)),
    unary main_call7_call0_v0 main_call7_call0_v1 (broadcastInDim S200000x64 ![] bcast_S_S200000x64 : (⟨S_, .f32⟩ : BufTy).Contents (Elt F) → (⟨S200000x64, .f32⟩ : BufTy).Contents (Elt F)),
    ternary main_call7_v3 main_call7_call0_v1 main_v150 main_call7_v4 (select : (⟨S200000x64, .i1⟩ : BufTy).Contents (Elt F) → (⟨S200000x64, .f32⟩ : BufTy).Contents (Elt F) → (⟨S200000x64, .f32⟩ : BufTy).Contents (Elt F) → (⟨S200000x64, .f32⟩ : BufTy).Contents (Elt F)),
    unary main_call7_v4 main_call7_v5 (Host.expm1 : (⟨S200000x64, .f32⟩ : BufTy).Contents (Elt F) → (⟨S200000x64, .f32⟩ : BufTy).Contents (Elt F)),
    nullary main_call7_cst_2 (constant S_ .f32 0x3F800000#32),
    unary main_call7_cst_2 main_call7_v6 (broadcastInDim S200000x64 ![] bcast_S_S200000x64 : (⟨S_, .f32⟩ : BufTy).Contents (Elt F) → (⟨S200000x64, .f32⟩ : BufTy).Contents (Elt F)),
    binary main_call7_v6 main_call7_v5 main_call7_v7 (mulf : (⟨S200000x64, .f32⟩ : BufTy).Contents (Elt F) → (⟨S200000x64, .f32⟩ : BufTy).Contents (Elt F) → (⟨S200000x64, .f32⟩ : BufTy).Contents (Elt F)),
    ternary main_call7_v1 main_v150 main_call7_v7 main_v151 (select : (⟨S200000x64, .i1⟩ : BufTy).Contents (Elt F) → (⟨S200000x64, .f32⟩ : BufTy).Contents (Elt F) → (⟨S200000x64, .f32⟩ : BufTy).Contents (Elt F) → (⟨S200000x64, .f32⟩ : BufTy).Contents (Elt F)),
    unary main_arg8 main_v152 ((extractStridedSlice S1x64x64 ![1, 0, 0] · slices_S2x64x64_S1x64x64_1_0_0) : (⟨S2x64x64, .f32⟩ : BufTy).Contents (Elt F) → (⟨S1x64x64, .f32⟩ : BufTy).Contents (Elt F)),
    reshape main_v152 main_v153 rfl shapeCasts_S1x64x64_S64x64,
    binary main_v88 main_v153 main_v154 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    unary main_arg9 main_v155 ((extractStridedSlice S1x64 ![1, 0] · slices_S2x64_S1x64_1_0) : (⟨S2x64, .f32⟩ : BufTy).Contents (Elt F) → (⟨S1x64, .f32⟩ : BufTy).Contents (Elt F)) ]

set_option maxRecDepth 8192 in
set_option maxHeartbeats 4000000 in
/-- The window is that straight line: the outlined functions unfolded at their calls, both sides are one chain of
    steps once sequencing is reassociated. -/
theorem main_part2_eq (c : Dev nD) : main_part2 (F := F) c = seq ops2 := by
  simp only [main_part2, fn_where.body, fn_where_0.body, fn_elu.body, fn_where_1.body, fn_where_2.body, seq, bind_assoc, pure_bind] <;> rfl

set_option maxRecDepth 8192 in
/-- Every operation of the window reads and writes buffers of the device. -/
theorem ops2_sub : (ops2 : List (HloOp τ sig (Elt F))).Forall fun op => op.bufs ⊆ tcRefs τ sig :=
  ⟨binary_bufs_sub .., ternary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    nullary_bufs_sub .., unary_bufs_sub .., unary_bufs_sub .., ternary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., binary_bufs_sub .., nullary_bufs_sub .., unary_bufs_sub ..,
    unary_bufs_sub .., ternary_bufs_sub .., unary_bufs_sub .., binary_bufs_sub .., binary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., unary_bufs_sub .., reshape_bufs_sub ..,
    binary_bufs_sub .., unary_bufs_sub ..⟩

set_option maxRecDepth 8192 in
set_option maxHeartbeats 4000000 in
/-- Every operation of the window determines its result (none only allocates). -/
theorem ops2_fresh : ∀ op ∈ (ops2 : List (HloOp τ sig (Elt F))), op.fresh = ∅ := by
  intro _ h; (repeat (cases h with | head => rfl | tail _ h => ?_)); exact nomatch h

/-- The buffers the window's operations write, in order. -/
abbrev ops2_W : List (Ref sig .tc) :=
  [main_v106, main_v107, main_v108, main_c_12, main_v109, main_v110, main_c_13, main_v111, main_v112, main_v113,
   main_v114, main_v115, main_c_14, main_v116, main_v117, main_c_15, main_v118, main_v119, main_v120, main_v121,
   main_v122, main_v123, main_cst_16, main_v124, main_v125, main_cst_17, main_v126, main_v127, main_v128, main_v129,
   main_cst_18, main_v130, main_v131, main_v132, main_v133, main_c_19, main_v134, main_v135, main_c_20, main_v136,
   main_v137, main_v138, main_v139, main_v140, main_v141, main_v142, main_cst_21, main_v143, main_v144, main_v145,
   main_v146, main_v147, main_v148, main_v149, main_v150, main_call7_cst, main_call7_v0, main_call7_v1, main_call7_cst_0, main_call7_v2,
   main_call7_v3, main_call7_cst_1, main_call7_call0_v0, main_call7_call0_v1, main_call7_v4, main_call7_v5, main_call7_cst_2, main_call7_v6, main_call7_v7, main_v151,
   main_v152, main_v153, main_v154, main_v155]

set_option maxRecDepth 8192 in
set_option maxHeartbeats 4000000 in
theorem ops2_writes : (ops2 : List (HloOp τ sig (Elt F))).Forall fun op =>
    op.writes ⊆ (ops2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals simp only [nullary_writes, unary_writes, binary_writes, ternary_writes, reshape_writes, Finset.singleton_subset_iff, List.mem_toFinset]; exact List.mem_map_of_mem (by decide)

/-- A buffer the window does not write keeps its contents through it. -/
theorem ops2_keep (V : Valuation τ sig (Elt F)) (r : Ref sig .tc) (h : r ∉ ops2_W) :
    after ops2 V (Proc.devRef .tc r) = V (Proc.devRef .tc r) :=
  after_of_writes_sub ops2 V ops2_writes h

end Cert.ReferenceIdeal.RefRun

end
-- ==== Proof.RefRunOps3.lean ====
/-
  The reference program's host operations 213 … 272 of 406 (the fourth window of its entry function),
  as a list in program order.  The operations of the outlined functions (the rectifier, the three-way selects, the
  exponential linear unit) stand inline at their call sites, each over the buffers that call names.  Stated here: the window
  of the program is the list run in order; every operation reads and writes device buffers only and determines its
  result; the buffers the window writes, and that any other buffer keeps its contents through the window.
-/
import proofs.«154843_j76682346102829_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
abbrev ops3 : List (HloOp τ sig (Elt F)) :=
  [ reshape main_v155 main_v156 rfl shapeCasts_S1x64_S64,
    unary main_v156 main_v157 (broadcastInDim S1x64 ![1] bcast_S64_S1x64_1 : (⟨S64, .f32⟩ : BufTy).Contents (Elt F) → (⟨S1x64, .f32⟩ : BufTy).Contents (Elt F)),
    unary main_v157 main_v158 (broadcastInDim S200000x64 ![0, 1] bcast_S1x64_S200000x64_0_1 : (⟨S1x64, .f32⟩ : BufTy).Contents (Elt F) → (⟨S200000x64, .f32⟩ : BufTy).Contents (Elt F)),
    binary main_v154 main_v158 main_v159 (addf : (⟨S200000x64, .f32⟩ : BufTy).Contents (Elt F) → (⟨S200000x64, .f32⟩ : BufTy).Contents (Elt F) → (⟨S200000x64, .f32⟩ : BufTy).Contents (Elt F)),
    unary main_arg8 main_v160 ((extractStridedSlice S1x64x64 ![1, 0, 0] · slices_S2x64x64_S1x64x64_1_0_0) : (⟨S2x64x64, .f32⟩ : BufTy).Contents (Elt F) → (⟨S1x64x64, .f32⟩ : BufTy).Contents (Elt F)),
    reshape main_v160 main_v161 rfl shapeCasts_S1x64x64_S64x64,
    binary main_v151 main_v161 main_v162 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    unary main_arg9 main_v163 ((extractStridedSlice S1x64 ![1, 0] · slices_S2x64_S1x64_1_0) : (⟨S2x64, .f32⟩ : BufTy).Contents (Elt F) → (⟨S1x64, .f32⟩ : BufTy).Contents (Elt F)),
    reshape main_v163 main_v164 rfl shapeCasts_S1x64_S64,
    unary main_v164 main_v165 (broadcastInDim S1x64 ![1] bcast_S64_S1x64_1 : (⟨S64, .f32⟩ : BufTy).Contents (Elt F) → (⟨S1x64, .f32⟩ : BufTy).Contents (Elt F)),
    unary main_v165 main_v166 (broadcastInDim S200000x64 ![0, 1] bcast_S1x64_S200000x64_0_1 : (⟨S1x64, .f32⟩ : BufTy).Contents (Elt F) → (⟨S200000x64, .f32⟩ : BufTy).Contents (Elt F)),
    binary main_v162 main_v166 main_v167 (addf : (⟨S200000x64, .f32⟩ : BufTy).Contents (Elt F) → (⟨S200000x64, .f32⟩ : BufTy).Contents (Elt F) → (⟨S200000x64, .f32⟩ : BufTy).Contents (Elt F)),
    unary main_arg2 main_v168 ((extractStridedSlice S1x2000000 ![0, 0] · slices_S2x2000000_S1x2000000_0_0) : (⟨S2x2000000, .i32⟩ : BufTy).Contents (Elt F) → (⟨S1x2000000, .i32⟩ : BufTy).Contents (Elt F)),
    reshape main_v168 main_v169 rfl shapeCasts_S1x2000000_S2000000,
    unary main_arg2 main_v170 ((extractStridedSlice S1x2000000 ![1, 0] · slices_S2x2000000_S1x2000000_1_0) : (⟨S2x2000000, .i32⟩ : BufTy).Contents (Elt F) → (⟨S1x2000000, .i32⟩ : BufTy).Contents (Elt F)),
    reshape main_v170 main_v171 rfl shapeCasts_S1x2000000_S2000000,
    unary main_arg10 main_v172 ((extractStridedSlice S1x64 ![1, 0] · slices_S2x64_S1x64_1_0) : (⟨S2x64, .f32⟩ : BufTy).Contents (Elt F) → (⟨S1x64, .f32⟩ : BufTy).Contents (Elt F)),
    reshape main_v172 main_v173 rfl shapeCasts_S1x64_S64,
    unary main_v173 main_v174 (broadcastInDim S64x1 ![0] bcast_S64_S64x1_0 : (⟨S64, .f32⟩ : BufTy).Contents (Elt F) → (⟨S64x1, .f32⟩ : BufTy).Contents (Elt F)),
    unary main_arg11 main_v175 ((extractStridedSlice S1x64 ![1, 0] · slices_S2x64_S1x64_1_0) : (⟨S2x64, .f32⟩ : BufTy).Contents (Elt F) → (⟨S1x64, .f32⟩ : BufTy).Contents (Elt F)),
    reshape main_v175 main_v176 rfl shapeCasts_S1x64_S64,
    unary main_v176 main_v177 (broadcastInDim S64x1 ![0] bcast_S64_S64x1_0 : (⟨S64, .f32⟩ : BufTy).Contents (Elt F) → (⟨S64x1, .f32⟩ : BufTy).Contents (Elt F)),
    binary main_v159 main_v174 main_v178 ((fun l r => Host.dotGeneral dot_S200000x64_S64x1_S200000x1_1_0_0_1_n_n none l r) : (⟨S200000x64, .f32⟩ : BufTy).Contents (Elt F) → (⟨S64x1, .f32⟩ : BufTy).Contents (Elt F) → (⟨S200000x1, .f32⟩ : BufTy).Contents (Elt F)),
    binary main_v167 main_v177 main_v179 ((fun l r => Host.dotGeneral dot_S200000x64_S64x1_S200000x1_1_0_0_1_n_n none l r) : (⟨S200000x64, .f32⟩ : BufTy).Contents (Elt F) → (⟨S64x1, .f32⟩ : BufTy).Contents (Elt F) → (⟨S200000x1, .f32⟩ : BufTy).Contents (Elt F)),
    binary main_v159 main_v177 main_v180 ((fun l r => Host.dotGeneral dot_S200000x64_S64x1_S200000x1_1_0_0_1_n_n none l r) : (⟨S200000x64, .f32⟩ : BufTy).Contents (Elt F) → (⟨S64x1, .f32⟩ : BufTy).Contents (Elt F) → (⟨S200000x1, .f32⟩ : BufTy).Contents (Elt F)),
    binary main_v178 main_v180 main_v181 (addf : (⟨S200000x1, .f32⟩ : BufTy).Contents (Elt F) → (⟨S200000x1, .f32⟩ : BufTy).Contents (Elt F) → (⟨S200000x1, .f32⟩ : BufTy).Contents (Elt F)),
    nullary main_cst_22 (constant S_ .f32 0x00000000#32),
    unary main_cst_22 main_v182 (broadcastInDim S200000x1 ![] bcast_S_S200000x1 : (⟨S_, .f32⟩ : BufTy).Contents (Elt F) → (⟨S200000x1, .f32⟩ : BufTy).Contents (Elt F)),
    binary main_v181 main_v182 main_v183 (cmpf .ogt : (⟨S200000x1, .f32⟩ : BufTy).Contents (Elt F) → (⟨S200000x1, .f32⟩ : BufTy).Contents (Elt F) → (⟨S200000x1, .i1⟩ : BufTy).Contents (Elt F)),
    nullary main_cst_23 (constant S_ .f32 0x3E4CCCCD#32),
    unary main_cst_23 main_v184 (broadcastInDim S200000x1 ![] bcast_S_S200000x1 : (⟨S_, .f32⟩ : BufTy).Contents (Elt F) → (⟨S200000x1, .f32⟩ : BufTy).Contents (Elt F)),
    binary main_v184 main_v181 main_v185 (mulf : (⟨S200000x1, .f32⟩ : BufTy).Contents (Elt F) → (⟨S200000x1, .f32⟩ : BufTy).Contents (Elt F) → (⟨S200000x1, .f32⟩ : BufTy).Contents (Elt F)),
    ternary main_v183 main_v181 main_v185 main_v186 (select : (⟨S200000x1, .i1⟩ : BufTy).Contents (Elt F) → (⟨S200000x1, .f32⟩ : BufTy).Contents (Elt F) → (⟨S200000x1, .f32⟩ : BufTy).Contents (Elt F) → (⟨S200000x1, .f32⟩ : BufTy).Contents (Elt F)),
    unary main_v186 main_v187 (Host.exp : (⟨S200000x1, .f32⟩ : BufTy).Contents (Elt F) → (⟨S200000x1, .f32⟩ : BufTy).Contents (Elt F)),
    nullary main_c_24 (constantI S_ 32 0#32),
    unary main_c_24 main_v188 (broadcastInDim S2000000 ![] bcast_S_S2000000 : (⟨S_, .i32⟩ : BufTy).Contents (Elt F) → (⟨S2000000, .i32⟩ : BufTy).Contents (Elt F)),
    binary main_v169 main_v188 main_v189 (cmpi .slt : (⟨S2000000, .i32⟩ : BufTy).Contents (Elt F) → (⟨S2000000, .i32⟩ : BufTy).Contents (Elt F) → (⟨S2000000, .i1⟩ : BufTy).Contents (Elt F)),
    nullary main_c_25 (constantI S_ 32 200000#32),
    unary main_c_25 main_v190 (broadcastInDim S2000000 ![] bcast_S_S2000000 : (⟨S_, .i32⟩ : BufTy).Contents (Elt F) → (⟨S2000000, .i32⟩ : BufTy).Contents (Elt F)),
    binary main_v169 main_v190 main_v191 (addi : (⟨S2000000, .i32⟩ : BufTy).Contents (Elt F) → (⟨S2000000, .i32⟩ : BufTy).Contents (Elt F) → (⟨S2000000, .i32⟩ : BufTy).Contents (Elt F)),
    ternary main_v189 main_v191 main_v169 main_v192 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v192 main_v193 (broadcastInDim S2000000x1 ![0] bcast_S2000000_S2000000x1_0 : (⟨S2000000, .i32⟩ : BufTy).Contents (Elt F) → (⟨S2000000x1, .i32⟩ : BufTy).Contents (Elt F)),
    binary main_v178 main_v193 main_v194 ((fun x i => Host.gather gather_S200000x1_S2000000x1_S2000000x1_1_0_n_n_0_1_11 x i) : (⟨S200000x1, .f32⟩ : BufTy).Contents (Elt F) → (⟨S2000000x1, .i32⟩ : BufTy).Contents (Elt F) → (⟨S2000000x1, .f32⟩ : BufTy).Contents (Elt F)),
    nullary main_c_26 (constantI S_ 32 0#32),
    unary main_c_26 main_v195 (broadcastInDim S2000000 ![] bcast_S_S2000000 : (⟨S_, .i32⟩ : BufTy).Contents (Elt F) → (⟨S2000000, .i32⟩ : BufTy).Contents (Elt F)),
    binary main_v171 main_v195 main_v196 (cmpi .slt : (⟨S2000000, .i32⟩ : BufTy).Contents (Elt F) → (⟨S2000000, .i32⟩ : BufTy).Contents (Elt F) → (⟨S2000000, .i1⟩ : BufTy).Contents (Elt F)),
    nullary main_c_27 (constantI S_ 32 200000#32),
    unary main_c_27 main_v197 (broadcastInDim S2000000 ![] bcast_S_S2000000 : (⟨S_, .i32⟩ : BufTy).Contents (Elt F) → (⟨S2000000, .i32⟩ : BufTy).Contents (Elt F)),
    binary main_v171 main_v197 main_v198 (addi : (⟨S2000000, .i32⟩ : BufTy).Contents (Elt F) → (⟨S2000000, .i32⟩ : BufTy).Contents (Elt F) → (⟨S2000000, .i32⟩ : BufTy).Contents (Elt F)),
    ternary main_v196 main_v198 main_v171 main_v199 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v199 main_v200 (broadcastInDim S2000000x1 ![0] bcast_S2000000_S2000000x1_0 : (⟨S2000000, .i32⟩ : BufTy).Contents (Elt F) → (⟨S2000000x1, .i32⟩ : BufTy).Contents (Elt F)),
    binary main_v179 main_v200 main_v201 ((fun x i => Host.gather gather_S200000x1_S2000000x1_S2000000x1_1_0_n_n_0_1_11 x i) : (⟨S200000x1, .f32⟩ : BufTy).Contents (Elt F) → (⟨S2000000x1, .i32⟩ : BufTy).Contents (Elt F) → (⟨S2000000x1, .f32⟩ : BufTy).Contents (Elt F)),
    binary main_v194 main_v201 main_v202 (addf : (⟨S2000000x1, .f32⟩ : BufTy).Contents (Elt F) → (⟨S2000000x1, .f32⟩ : BufTy).Contents (Elt F) → (⟨S2000000x1, .f32⟩ : BufTy).Contents (Elt F)),
    nullary main_cst_28 (constant S_ .f32 0x00000000#32),
    unary main_cst_28 main_v203 (broadcastInDim S2000000x1 ![] bcast_S_S2000000x1 : (⟨S_, .f32⟩ : BufTy).Contents (Elt F) → (⟨S2000000x1, .f32⟩ : BufTy).Contents (Elt F)),
    binary main_v202 main_v203 main_v204 (cmpf .ogt : (⟨S2000000x1, .f32⟩ : BufTy).Contents (Elt F) → (⟨S2000000x1, .f32⟩ : BufTy).Contents (Elt F) → (⟨S2000000x1, .i1⟩ : BufTy).Contents (Elt F)),
    nullary main_cst_29 (constant S_ .f32 0x3E4CCCCD#32),
    unary main_cst_29 main_v205 (broadcastInDim S2000000x1 ![] bcast_S_S2000000x1 : (⟨S_, .f32⟩ : BufTy).Contents (Elt F) → (⟨S2000000x1, .f32⟩ : BufTy).Contents (Elt F)),
    binary main_v205 main_v202 main_v206 (mulf : (⟨S2000000x1, .f32⟩ : BufTy).Contents (Elt F) → (⟨S2000000x1, .f32⟩ : BufTy).Contents (Elt F) → (⟨S2000000x1, .f32⟩ : BufTy).Contents (Elt F)),
    ternary main_v204 main_v202 main_v206 main_v207 (select : (⟨S2000000x1, .i1⟩ : BufTy).Contents (Elt F) → (⟨S2000000x1, .f32⟩ : BufTy).Contents (Elt F) → (⟨S2000000x1, .f32⟩ : BufTy).Contents (Elt F) → (⟨S2000000x1, .f32⟩ : BufTy).Contents (Elt F)) ]

set_option maxRecDepth 8192 in
set_option maxHeartbeats 4000000 in
/-- The window is that straight line: the outlined functions unfolded at their calls, both sides are one chain of
    steps once sequencing is reassociated. -/
theorem main_part3_eq (c : Dev nD) : main_part3 (F := F) c = seq ops3 := by
  simp only [main_part3, fn_where.body, fn_where_0.body, seq, bind_assoc, pure_bind] <;> rfl

set_option maxRecDepth 8192 in
/-- Every operation of the window reads and writes buffers of the device. -/
theorem ops3_sub : (ops3 : List (HloOp τ sig (Elt F))).Forall fun op => op.bufs ⊆ tcRefs τ sig :=
  ⟨reshape_bufs_sub .., unary_bufs_sub .., unary_bufs_sub .., binary_bufs_sub .., unary_bufs_sub .., reshape_bufs_sub ..,
    binary_bufs_sub .., unary_bufs_sub .., reshape_bufs_sub .., unary_bufs_sub .., unary_bufs_sub .., binary_bufs_sub ..,
    unary_bufs_sub .., reshape_bufs_sub .., unary_bufs_sub .., reshape_bufs_sub .., unary_bufs_sub .., reshape_bufs_sub ..,
    unary_bufs_sub .., unary_bufs_sub .., reshape_bufs_sub .., unary_bufs_sub .., binary_bufs_sub .., binary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    unary_bufs_sub .., binary_bufs_sub .., nullary_bufs_sub .., unary_bufs_sub .., binary_bufs_sub .., ternary_bufs_sub ..⟩

set_option maxRecDepth 8192 in
set_option maxHeartbeats 4000000 in
/-- Every operation of the window determines its result (none only allocates). -/
theorem ops3_fresh : ∀ op ∈ (ops3 : List (HloOp τ sig (Elt F))), op.fresh = ∅ := by
  intro _ h; (repeat (cases h with | head => rfl | tail _ h => ?_)); exact nomatch h

/-- The buffers the window's operations write, in order. -/
abbrev ops3_W : List (Ref sig .tc) :=
  [main_v156, main_v157, main_v158, main_v159, main_v160, main_v161, main_v162, main_v163, main_v164, main_v165,
   main_v166, main_v167, main_v168, main_v169, main_v170, main_v171, main_v172, main_v173, main_v174, main_v175,
   main_v176, main_v177, main_v178, main_v179, main_v180, main_v181, main_cst_22, main_v182, main_v183, main_cst_23,
   main_v184, main_v185, main_v186, main_v187, main_c_24, main_v188, main_v189, main_c_25, main_v190, main_v191,
   main_v192, main_v193, main_v194, main_c_26, main_v195, main_v196, main_c_27, main_v197, main_v198, main_v199,
   main_v200, main_v201, main_v202, main_cst_28, main_v203, main_v204, main_cst_29, main_v205, main_v206, main_v207]

set_option maxRecDepth 8192 in
set_option maxHeartbeats 4000000 in
theorem ops3_writes : (ops3 : List (HloOp τ sig (Elt F))).Forall fun op =>
    op.writes ⊆ (ops3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals simp only [nullary_writes, unary_writes, binary_writes, ternary_writes, reshape_writes, Finset.singleton_subset_iff, List.mem_toFinset]; exact List.mem_map_of_mem (by decide)

/-- A buffer the window does not write keeps its contents through it. -/
theorem ops3_keep (V : Valuation τ sig (Elt F)) (r : Ref sig .tc) (h : r ∉ ops3_W) :
    after ops3 V (Proc.devRef .tc r) = V (Proc.devRef .tc r) :=
  after_of_writes_sub ops3 V ops3_writes h

end Cert.ReferenceIdeal.RefRun

end
-- ==== Proof.RefRunOps4.lean ====
/-
  The reference program's host operations 273 … 346 of 406 (the fifth window of its entry function),
  as a list in program order.  The operations of the outlined functions (the rectifier, the three-way selects, the
  exponential linear unit) stand inline at their call sites, each over the buffers that call names.  Stated here: the window
  of the program is the list run in order; every operation reads and writes device buffers only and determines its
  result; the buffers the window writes, and that any other buffer keeps its contents through the window.
-/
import proofs.«154843_j76682346102829_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
abbrev ops4 : List (HloOp τ sig (Elt F)) :=
  [ unary main_v207 main_v208 (Host.exp : (⟨S2000000x1, .f32⟩ : BufTy).Contents (Elt F) → (⟨S2000000x1, .f32⟩ : BufTy).Contents (Elt F)),
    nullary main_cst_30 (constant S_ .f32 0x00000000#32),
    unary main_cst_30 main_v209 (broadcastInDim S200000x1 ![] bcast_S_S200000x1 : (⟨S_, .f32⟩ : BufTy).Contents (Elt F) → (⟨S200000x1, .f32⟩ : BufTy).Contents (Elt F)),
    unary main_v169 main_v210 (broadcastInDim S2000000x1 ![0] bcast_S2000000_S2000000x1_0 : (⟨S2000000, .i32⟩ : BufTy).Contents (Elt F) → (⟨S2000000x1, .i32⟩ : BufTy).Contents (Elt F)),
    ternary main_v209 main_v210 main_v208 main_v211 ((fun x i u => Host.scatterAdd scatter_S200000x1_S2000000x1_S2000000x1_1_0_0_1 x i u) : (⟨S200000x1, .f32⟩ : BufTy).Contents (Elt F) → (⟨S2000000x1, .i32⟩ : BufTy).Contents (Elt F) → (⟨S2000000x1, .f32⟩ : BufTy).Contents (Elt F) → (⟨S200000x1, .f32⟩ : BufTy).Contents (Elt F)),
    binary main_v211 main_v187 main_v212 (addf : (⟨S200000x1, .f32⟩ : BufTy).Contents (Elt F) → (⟨S200000x1, .f32⟩ : BufTy).Contents (Elt F) → (⟨S200000x1, .f32⟩ : BufTy).Contents (Elt F)),
    nullary main_c_31 (constantI S_ 32 0#32),
    unary main_c_31 main_v213 (broadcastInDim S2000000 ![] bcast_S_S2000000 : (⟨S_, .i32⟩ : BufTy).Contents (Elt F) → (⟨S2000000, .i32⟩ : BufTy).Contents (Elt F)),
    binary main_v171 main_v213 main_v214 (cmpi .slt : (⟨S2000000, .i32⟩ : BufTy).Contents (Elt F) → (⟨S2000000, .i32⟩ : BufTy).Contents (Elt F) → (⟨S2000000, .i1⟩ : BufTy).Contents (Elt F)),
    nullary main_c_32 (constantI S_ 32 200000#32),
    unary main_c_32 main_v215 (broadcastInDim S2000000 ![] bcast_S_S2000000 : (⟨S_, .i32⟩ : BufTy).Contents (Elt F) → (⟨S2000000, .i32⟩ : BufTy).Contents (Elt F)),
    binary main_v171 main_v215 main_v216 (addi : (⟨S2000000, .i32⟩ : BufTy).Contents (Elt F) → (⟨S2000000, .i32⟩ : BufTy).Contents (Elt F) → (⟨S2000000, .i32⟩ : BufTy).Contents (Elt F)),
    ternary main_v214 main_v216 main_v171 main_v217 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v217 main_v218 (broadcastInDim S2000000x1 ![0] bcast_S2000000_S2000000x1_0 : (⟨S2000000, .i32⟩ : BufTy).Contents (Elt F) → (⟨S2000000x1, .i32⟩ : BufTy).Contents (Elt F)),
    binary main_v167 main_v218 main_v219 ((fun x i => Host.gather gather_S200000x64_S2000000x1_S2000000x64_1_0_n_n_0_1_164 x i) : (⟨S200000x64, .f32⟩ : BufTy).Contents (Elt F) → (⟨S2000000x1, .i32⟩ : BufTy).Contents (Elt F) → (⟨S2000000x64, .f32⟩ : BufTy).Contents (Elt F)),
    unary main_v208 main_v220 (broadcastInDim S2000000x64 ![0, 1] bcast_S2000000x1_S2000000x64_0_1 : (⟨S2000000x1, .f32⟩ : BufTy).Contents (Elt F) → (⟨S2000000x64, .f32⟩ : BufTy).Contents (Elt F)),
    binary main_v220 main_v219 main_v221 (mulf : (⟨S2000000x64, .f32⟩ : BufTy).Contents (Elt F) → (⟨S2000000x64, .f32⟩ : BufTy).Contents (Elt F) → (⟨S2000000x64, .f32⟩ : BufTy).Contents (Elt F)),
    nullary main_cst_33 (constant S_ .f32 0x00000000#32),
    unary main_cst_33 main_v222 (broadcastInDim S200000x64 ![] bcast_S_S200000x64 : (⟨S_, .f32⟩ : BufTy).Contents (Elt F) → (⟨S200000x64, .f32⟩ : BufTy).Contents (Elt F)),
    unary main_v169 main_v223 (broadcastInDim S2000000x1 ![0] bcast_S2000000_S2000000x1_0 : (⟨S2000000, .i32⟩ : BufTy).Contents (Elt F) → (⟨S2000000x1, .i32⟩ : BufTy).Contents (Elt F)),
    ternary main_v222 main_v223 main_v221 main_v224 ((fun x i u => Host.scatterAdd scatter_S200000x64_S2000000x1_S2000000x64_1_0_0_1 x i u) : (⟨S200000x64, .f32⟩ : BufTy).Contents (Elt F) → (⟨S2000000x1, .i32⟩ : BufTy).Contents (Elt F) → (⟨S2000000x64, .f32⟩ : BufTy).Contents (Elt F) → (⟨S200000x64, .f32⟩ : BufTy).Contents (Elt F)),
    unary main_v187 main_v225 (broadcastInDim S200000x64 ![0, 1] bcast_S200000x1_S200000x64_0_1 : (⟨S200000x1, .f32⟩ : BufTy).Contents (Elt F) → (⟨S200000x64, .f32⟩ : BufTy).Contents (Elt F)),
    binary main_v225 main_v159 main_v226 (mulf : (⟨S200000x64, .f32⟩ : BufTy).Contents (Elt F) → (⟨S200000x64, .f32⟩ : BufTy).Contents (Elt F) → (⟨S200000x64, .f32⟩ : BufTy).Contents (Elt F)),
    binary main_v224 main_v226 main_v227 (addf : (⟨S200000x64, .f32⟩ : BufTy).Contents (Elt F) → (⟨S200000x64, .f32⟩ : BufTy).Contents (Elt F) → (⟨S200000x64, .f32⟩ : BufTy).Contents (Elt F)),
    unary main_v212 main_v228 (broadcastInDim S200000x64 ![0, 1] bcast_S200000x1_S200000x64_0_1 : (⟨S200000x1, .f32⟩ : BufTy).Contents (Elt F) → (⟨S200000x64, .f32⟩ : BufTy).Contents (Elt F)),
    binary main_v227 main_v228 main_v229 (Host.divf : (⟨S200000x64, .f32⟩ : BufTy).Contents (Elt F) → (⟨S200000x64, .f32⟩ : BufTy).Contents (Elt F) → (⟨S200000x64, .f32⟩ : BufTy).Contents (Elt F)),
    nullary main_call10_cst (constant S_ .f32 0x00000000#32),
    unary main_call10_cst main_call10_v0 (broadcastInDim S200000x64 ![] bcast_S_S200000x64 : (⟨S_, .f32⟩ : BufTy).Contents (Elt F) → (⟨S200000x64, .f32⟩ : BufTy).Contents (Elt F)),
    binary main_v229 main_call10_v0 main_call10_v1 (cmpf .ogt : (⟨S200000x64, .f32⟩ : BufTy).Contents (Elt F) → (⟨S200000x64, .f32⟩ : BufTy).Contents (Elt F) → (⟨S200000x64, .i1⟩ : BufTy).Contents (Elt F)),
    nullary main_call10_cst_0 (constant S_ .f32 0x00000000#32),
    unary main_call10_cst_0 main_call10_v2 (broadcastInDim S200000x64 ![] bcast_S_S200000x64 : (⟨S_, .f32⟩ : BufTy).Contents (Elt F) → (⟨S200000x64, .f32⟩ : BufTy).Contents (Elt F)),
    binary main_v229 main_call10_v2 main_call10_v3 (cmpf .ogt : (⟨S200000x64, .f32⟩ : BufTy).Contents (Elt F) → (⟨S200000x64, .f32⟩ : BufTy).Contents (Elt F) → (⟨S200000x64, .i1⟩ : BufTy).Contents (Elt F)),
    nullary main_call10_cst_1 (constant S_ .f32 0x00000000#32),
    unary main_call10_cst_1 main_call10_call0_v0 (id : (⟨S_, .f32⟩ : BufTy).Contents (Elt F) → (⟨S_, .f32⟩ : BufTy).Contents (Elt F)),
    unary main_call10_call0_v0 main_call10_call0_v1 (broadcastInDim S200000x64 ![] bcast_S_S200000x64 : (⟨S_, .f32⟩ : BufTy).Contents (Elt F) → (⟨S200000x64, .f32⟩ : BufTy).Contents (Elt F)),
    ternary main_call10_v3 main_call10_call0_v1 main_v229 main_call10_v4 (select : (⟨S200000x64, .i1⟩ : BufTy).Contents (Elt F) → (⟨S200000x64, .f32⟩ : BufTy).Contents (Elt F) → (⟨S200000x64, .f32⟩ : BufTy).Contents (Elt F) → (⟨S200000x64, .f32⟩ : BufTy).Contents (Elt F)),
    unary main_call10_v4 main_call10_v5 (Host.expm1 : (⟨S200000x64, .f32⟩ : BufTy).Contents (Elt F) → (⟨S200000x64, .f32⟩ : BufTy).Contents (Elt F)),
    nullary main_call10_cst_2 (constant S_ .f32 0x3F800000#32),
    unary main_call10_cst_2 main_call10_v6 (broadcastInDim S200000x64 ![] bcast_S_S200000x64 : (⟨S_, .f32⟩ : BufTy).Contents (Elt F) → (⟨S200000x64, .f32⟩ : BufTy).Contents (Elt F)),
    binary main_call10_v6 main_call10_v5 main_call10_v7 (mulf : (⟨S200000x64, .f32⟩ : BufTy).Contents (Elt F) → (⟨S200000x64, .f32⟩ : BufTy).Contents (Elt F) → (⟨S200000x64, .f32⟩ : BufTy).Contents (Elt F)),
    ternary main_call10_v1 main_v229 main_call10_v7 main_v230 (select : (⟨S200000x64, .i1⟩ : BufTy).Contents (Elt F) → (⟨S200000x64, .f32⟩ : BufTy).Contents (Elt F) → (⟨S200000x64, .f32⟩ : BufTy).Contents (Elt F) → (⟨S200000x64, .f32⟩ : BufTy).Contents (Elt F)),
    unary main_arg3 main_v231 ((extractStridedSlice S1x2000000 ![0, 0] · slices_S2x2000000_S1x2000000_0_0) : (⟨S2x2000000, .i32⟩ : BufTy).Contents (Elt F) → (⟨S1x2000000, .i32⟩ : BufTy).Contents (Elt F)),
    reshape main_v231 main_v232 rfl shapeCasts_S1x2000000_S2000000,
    unary main_arg3 main_v233 ((extractStridedSlice S1x2000000 ![1, 0] · slices_S2x2000000_S1x2000000_1_0) : (⟨S2x2000000, .i32⟩ : BufTy).Contents (Elt F) → (⟨S1x2000000, .i32⟩ : BufTy).Contents (Elt F)),
    reshape main_v233 main_v234 rfl shapeCasts_S1x2000000_S2000000,
    unary main_arg12 main_v235 ((extractStridedSlice S1x64 ![1, 0] · slices_S2x64_S1x64_1_0) : (⟨S2x64, .f32⟩ : BufTy).Contents (Elt F) → (⟨S1x64, .f32⟩ : BufTy).Contents (Elt F)),
    reshape main_v235 main_v236 rfl shapeCasts_S1x64_S64,
    unary main_v236 main_v237 (broadcastInDim S64x1 ![0] bcast_S64_S64x1_0 : (⟨S64, .f32⟩ : BufTy).Contents (Elt F) → (⟨S64x1, .f32⟩ : BufTy).Contents (Elt F)),
    unary main_arg13 main_v238 ((extractStridedSlice S1x64 ![1, 0] · slices_S2x64_S1x64_1_0) : (⟨S2x64, .f32⟩ : BufTy).Contents (Elt F) → (⟨S1x64, .f32⟩ : BufTy).Contents (Elt F)),
    reshape main_v238 main_v239 rfl shapeCasts_S1x64_S64,
    unary main_v239 main_v240 (broadcastInDim S64x1 ![0] bcast_S64_S64x1_0 : (⟨S64, .f32⟩ : BufTy).Contents (Elt F) → (⟨S64x1, .f32⟩ : BufTy).Contents (Elt F)),
    binary main_v167 main_v237 main_v241 ((fun l r => Host.dotGeneral dot_S200000x64_S64x1_S200000x1_1_0_0_1_n_n none l r) : (⟨S200000x64, .f32⟩ : BufTy).Contents (Elt F) → (⟨S64x1, .f32⟩ : BufTy).Contents (Elt F) → (⟨S200000x1, .f32⟩ : BufTy).Contents (Elt F)),
    binary main_v159 main_v240 main_v242 ((fun l r => Host.dotGeneral dot_S200000x64_S64x1_S200000x1_1_0_0_1_n_n none l r) : (⟨S200000x64, .f32⟩ : BufTy).Contents (Elt F) → (⟨S64x1, .f32⟩ : BufTy).Contents (Elt F) → (⟨S200000x1, .f32⟩ : BufTy).Contents (Elt F)),
    binary main_v167 main_v240 main_v243 ((fun l r => Host.dotGeneral dot_S200000x64_S64x1_S200000x1_1_0_0_1_n_n none l r) : (⟨S200000x64, .f32⟩ : BufTy).Contents (Elt F) → (⟨S64x1, .f32⟩ : BufTy).Contents (Elt F) → (⟨S200000x1, .f32⟩ : BufTy).Contents (Elt F)),
    binary main_v241 main_v243 main_v244 (addf : (⟨S200000x1, .f32⟩ : BufTy).Contents (Elt F) → (⟨S200000x1, .f32⟩ : BufTy).Contents (Elt F) → (⟨S200000x1, .f32⟩ : BufTy).Contents (Elt F)),
    nullary main_cst_34 (constant S_ .f32 0x00000000#32),
    unary main_cst_34 main_v245 (broadcastInDim S200000x1 ![] bcast_S_S200000x1 : (⟨S_, .f32⟩ : BufTy).Contents (Elt F) → (⟨S200000x1, .f32⟩ : BufTy).Contents (Elt F)),
    binary main_v244 main_v245 main_v246 (cmpf .ogt : (⟨S200000x1, .f32⟩ : BufTy).Contents (Elt F) → (⟨S200000x1, .f32⟩ : BufTy).Contents (Elt F) → (⟨S200000x1, .i1⟩ : BufTy).Contents (Elt F)),
    nullary main_cst_35 (constant S_ .f32 0x3E4CCCCD#32),
    unary main_cst_35 main_v247 (broadcastInDim S200000x1 ![] bcast_S_S200000x1 : (⟨S_, .f32⟩ : BufTy).Contents (Elt F) → (⟨S200000x1, .f32⟩ : BufTy).Contents (Elt F)),
    binary main_v247 main_v244 main_v248 (mulf : (⟨S200000x1, .f32⟩ : BufTy).Contents (Elt F) → (⟨S200000x1, .f32⟩ : BufTy).Contents (Elt F) → (⟨S200000x1, .f32⟩ : BufTy).Contents (Elt F)),
    ternary main_v246 main_v244 main_v248 main_v249 (select : (⟨S200000x1, .i1⟩ : BufTy).Contents (Elt F) → (⟨S200000x1, .f32⟩ : BufTy).Contents (Elt F) → (⟨S200000x1, .f32⟩ : BufTy).Contents (Elt F) → (⟨S200000x1, .f32⟩ : BufTy).Contents (Elt F)),
    unary main_v249 main_v250 (Host.exp : (⟨S200000x1, .f32⟩ : BufTy).Contents (Elt F) → (⟨S200000x1, .f32⟩ : BufTy).Contents (Elt F)),
    nullary main_c_36 (constantI S_ 32 0#32),
    unary main_c_36 main_v251 (broadcastInDim S2000000 ![] bcast_S_S2000000 : (⟨S_, .i32⟩ : BufTy).Contents (Elt F) → (⟨S2000000, .i32⟩ : BufTy).Contents (Elt F)),
    binary main_v232 main_v251 main_v252 (cmpi .slt : (⟨S2000000, .i32⟩ : BufTy).Contents (Elt F) → (⟨S2000000, .i32⟩ : BufTy).Contents (Elt F) → (⟨S2000000, .i1⟩ : BufTy).Contents (Elt F)),
    nullary main_c_37 (constantI S_ 32 200000#32),
    unary main_c_37 main_v253 (broadcastInDim S2000000 ![] bcast_S_S2000000 : (⟨S_, .i32⟩ : BufTy).Contents (Elt F) → (⟨S2000000, .i32⟩ : BufTy).Contents (Elt F)),
    binary main_v232 main_v253 main_v254 (addi : (⟨S2000000, .i32⟩ : BufTy).Contents (Elt F) → (⟨S2000000, .i32⟩ : BufTy).Contents (Elt F) → (⟨S2000000, .i32⟩ : BufTy).Contents (Elt F)),
    ternary main_v252 main_v254 main_v232 main_v255 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v255 main_v256 (broadcastInDim S2000000x1 ![0] bcast_S2000000_S2000000x1_0 : (⟨S2000000, .i32⟩ : BufTy).Contents (Elt F) → (⟨S2000000x1, .i32⟩ : BufTy).Contents (Elt F)),
    binary main_v241 main_v256 main_v257 ((fun x i => Host.gather gather_S200000x1_S2000000x1_S2000000x1_1_0_n_n_0_1_11 x i) : (⟨S200000x1, .f32⟩ : BufTy).Contents (Elt F) → (⟨S2000000x1, .i32⟩ : BufTy).Contents (Elt F) → (⟨S2000000x1, .f32⟩ : BufTy).Contents (Elt F)),
    nullary main_c_38 (constantI S_ 32 0#32),
    unary main_c_38 main_v258 (broadcastInDim S2000000 ![] bcast_S_S2000000 : (⟨S_, .i32⟩ : BufTy).Contents (Elt F) → (⟨S2000000, .i32⟩ : BufTy).Contents (Elt F)) ]

set_option maxRecDepth 8192 in
set_option maxHeartbeats 4000000 in
/-- The window is that straight line: the outlined functions unfolded at their calls, both sides are one chain of
    steps once sequencing is reassociated. -/
theorem main_part4_eq (c : Dev nD) : main_part4 (F := F) c = seq ops4 := by
  simp only [main_part4, fn_elu.body, fn_where.body, fn_where_1.body, fn_where_2.body, seq, bind_assoc, pure_bind] <;> rfl

set_option maxRecDepth 8192 in
/-- Every operation of the window reads and writes buffers of the device. -/
theorem ops4_sub : (ops4 : List (HloOp τ sig (Elt F))).Forall fun op => op.bufs ⊆ tcRefs τ sig :=
  ⟨unary_bufs_sub .., nullary_bufs_sub .., unary_bufs_sub .., unary_bufs_sub .., ternary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., nullary_bufs_sub ..,
    unary_bufs_sub .., unary_bufs_sub .., ternary_bufs_sub .., unary_bufs_sub .., binary_bufs_sub .., binary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., nullary_bufs_sub .., unary_bufs_sub .., binary_bufs_sub .., ternary_bufs_sub .., unary_bufs_sub ..,
    reshape_bufs_sub .., unary_bufs_sub .., reshape_bufs_sub .., unary_bufs_sub .., reshape_bufs_sub .., unary_bufs_sub ..,
    unary_bufs_sub .., reshape_bufs_sub .., unary_bufs_sub .., binary_bufs_sub .., binary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub ..⟩

set_option maxRecDepth 8192 in
set_option maxHeartbeats 4000000 in
/-- Every operation of the window determines its result (none only allocates). -/
theorem ops4_fresh : ∀ op ∈ (ops4 : List (HloOp τ sig (Elt F))), op.fresh = ∅ := by
  intro _ h; (repeat (cases h with | head => rfl | tail _ h => ?_)); exact nomatch h

/-- The buffers the window's operations write, in order. -/
abbrev ops4_W : List (Ref sig .tc) :=
  [main_v208, main_cst_30, main_v209, main_v210, main_v211, main_v212, main_c_31, main_v213, main_v214, main_c_32,
   main_v215, main_v216, main_v217, main_v218, main_v219, main_v220, main_v221, main_cst_33, main_v222, main_v223,
   main_v224, main_v225, main_v226, main_v227, main_v228, main_v229, main_call10_cst, main_call10_v0, main_call10_v1, main_call10_cst_0,
   main_call10_v2, main_call10_v3, main_call10_cst_1, main_call10_call0_v0, main_call10_call0_v1, main_call10_v4, main_call10_v5, main_call10_cst_2, main_call10_v6, main_call10_v7,
   main_v230, main_v231, main_v232, main_v233, main_v234, main_v235, main_v236, main_v237, main_v238, main_v239,
   main_v240, main_v241, main_v242, main_v243, main_v244, main_cst_34, main_v245, main_v246, main_cst_35, main_v247,
   main_v248, main_v249, main_v250, main_c_36, main_v251, main_v252, main_c_37, main_v253, main_v254, main_v255,
   main_v256, main_v257, main_c_38, main_v258]

set_option maxRecDepth 8192 in
set_option maxHeartbeats 4000000 in
theorem ops4_writes : (ops4 : List (HloOp τ sig (Elt F))).Forall fun op =>
    op.writes ⊆ (ops4_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals simp only [nullary_writes, unary_writes, binary_writes, ternary_writes, reshape_writes, Finset.singleton_subset_iff, List.mem_toFinset]; exact List.mem_map_of_mem (by decide)

/-- A buffer the window does not write keeps its contents through it. -/
theorem ops4_keep (V : Valuation τ sig (Elt F)) (r : Ref sig .tc) (h : r ∉ ops4_W) :
    after ops4 V (Proc.devRef .tc r) = V (Proc.devRef .tc r) :=
  after_of_writes_sub ops4 V ops4_writes h

end Cert.ReferenceIdeal.RefRun

end
-- ==== Proof.RefRunOps5.lean ====
/-
  The reference program's host operations 347 … 406 of 406 (the sixth window of its entry function),
  as a list in program order.  The operations of the outlined functions (the rectifier, the three-way selects, the
  exponential linear unit) stand inline at their call sites, each over the buffers that call names.  Stated here: the window
  of the program is the list run in order; every operation reads and writes device buffers only and determines its
  result; the buffers the window writes, and that any other buffer keeps its contents through the window.
-/
import proofs.«154843_j76682346102829_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
abbrev ops5 : List (HloOp τ sig (Elt F)) :=
  [ binary main_v234 main_v258 main_v259 (cmpi .slt : (⟨S2000000, .i32⟩ : BufTy).Contents (Elt F) → (⟨S2000000, .i32⟩ : BufTy).Contents (Elt F) → (⟨S2000000, .i1⟩ : BufTy).Contents (Elt F)),
    nullary main_c_39 (constantI S_ 32 200000#32),
    unary main_c_39 main_v260 (broadcastInDim S2000000 ![] bcast_S_S2000000 : (⟨S_, .i32⟩ : BufTy).Contents (Elt F) → (⟨S2000000, .i32⟩ : BufTy).Contents (Elt F)),
    binary main_v234 main_v260 main_v261 (addi : (⟨S2000000, .i32⟩ : BufTy).Contents (Elt F) → (⟨S2000000, .i32⟩ : BufTy).Contents (Elt F) → (⟨S2000000, .i32⟩ : BufTy).Contents (Elt F)),
    ternary main_v259 main_v261 main_v234 main_v262 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v262 main_v263 (broadcastInDim S2000000x1 ![0] bcast_S2000000_S2000000x1_0 : (⟨S2000000, .i32⟩ : BufTy).Contents (Elt F) → (⟨S2000000x1, .i32⟩ : BufTy).Contents (Elt F)),
    binary main_v242 main_v263 main_v264 ((fun x i => Host.gather gather_S200000x1_S2000000x1_S2000000x1_1_0_n_n_0_1_11 x i) : (⟨S200000x1, .f32⟩ : BufTy).Contents (Elt F) → (⟨S2000000x1, .i32⟩ : BufTy).Contents (Elt F) → (⟨S2000000x1, .f32⟩ : BufTy).Contents (Elt F)),
    binary main_v257 main_v264 main_v265 (addf : (⟨S2000000x1, .f32⟩ : BufTy).Contents (Elt F) → (⟨S2000000x1, .f32⟩ : BufTy).Contents (Elt F) → (⟨S2000000x1, .f32⟩ : BufTy).Contents (Elt F)),
    nullary main_cst_40 (constant S_ .f32 0x00000000#32),
    unary main_cst_40 main_v266 (broadcastInDim S2000000x1 ![] bcast_S_S2000000x1 : (⟨S_, .f32⟩ : BufTy).Contents (Elt F) → (⟨S2000000x1, .f32⟩ : BufTy).Contents (Elt F)),
    binary main_v265 main_v266 main_v267 (cmpf .ogt : (⟨S2000000x1, .f32⟩ : BufTy).Contents (Elt F) → (⟨S2000000x1, .f32⟩ : BufTy).Contents (Elt F) → (⟨S2000000x1, .i1⟩ : BufTy).Contents (Elt F)),
    nullary main_cst_41 (constant S_ .f32 0x3E4CCCCD#32),
    unary main_cst_41 main_v268 (broadcastInDim S2000000x1 ![] bcast_S_S2000000x1 : (⟨S_, .f32⟩ : BufTy).Contents (Elt F) → (⟨S2000000x1, .f32⟩ : BufTy).Contents (Elt F)),
    binary main_v268 main_v265 main_v269 (mulf : (⟨S2000000x1, .f32⟩ : BufTy).Contents (Elt F) → (⟨S2000000x1, .f32⟩ : BufTy).Contents (Elt F) → (⟨S2000000x1, .f32⟩ : BufTy).Contents (Elt F)),
    ternary main_v267 main_v265 main_v269 main_v270 (select : (⟨S2000000x1, .i1⟩ : BufTy).Contents (Elt F) → (⟨S2000000x1, .f32⟩ : BufTy).Contents (Elt F) → (⟨S2000000x1, .f32⟩ : BufTy).Contents (Elt F) → (⟨S2000000x1, .f32⟩ : BufTy).Contents (Elt F)),
    unary main_v270 main_v271 (Host.exp : (⟨S2000000x1, .f32⟩ : BufTy).Contents (Elt F) → (⟨S2000000x1, .f32⟩ : BufTy).Contents (Elt F)),
    nullary main_cst_42 (constant S_ .f32 0x00000000#32),
    unary main_cst_42 main_v272 (broadcastInDim S200000x1 ![] bcast_S_S200000x1 : (⟨S_, .f32⟩ : BufTy).Contents (Elt F) → (⟨S200000x1, .f32⟩ : BufTy).Contents (Elt F)),
    unary main_v232 main_v273 (broadcastInDim S2000000x1 ![0] bcast_S2000000_S2000000x1_0 : (⟨S2000000, .i32⟩ : BufTy).Contents (Elt F) → (⟨S2000000x1, .i32⟩ : BufTy).Contents (Elt F)),
    ternary main_v272 main_v273 main_v271 main_v274 ((fun x i u => Host.scatterAdd scatter_S200000x1_S2000000x1_S2000000x1_1_0_0_1 x i u) : (⟨S200000x1, .f32⟩ : BufTy).Contents (Elt F) → (⟨S2000000x1, .i32⟩ : BufTy).Contents (Elt F) → (⟨S2000000x1, .f32⟩ : BufTy).Contents (Elt F) → (⟨S200000x1, .f32⟩ : BufTy).Contents (Elt F)),
    binary main_v274 main_v250 main_v275 (addf : (⟨S200000x1, .f32⟩ : BufTy).Contents (Elt F) → (⟨S200000x1, .f32⟩ : BufTy).Contents (Elt F) → (⟨S200000x1, .f32⟩ : BufTy).Contents (Elt F)),
    nullary main_c_43 (constantI S_ 32 0#32),
    unary main_c_43 main_v276 (broadcastInDim S2000000 ![] bcast_S_S2000000 : (⟨S_, .i32⟩ : BufTy).Contents (Elt F) → (⟨S2000000, .i32⟩ : BufTy).Contents (Elt F)),
    binary main_v234 main_v276 main_v277 (cmpi .slt : (⟨S2000000, .i32⟩ : BufTy).Contents (Elt F) → (⟨S2000000, .i32⟩ : BufTy).Contents (Elt F) → (⟨S2000000, .i1⟩ : BufTy).Contents (Elt F)),
    nullary main_c_44 (constantI S_ 32 200000#32),
    unary main_c_44 main_v278 (broadcastInDim S2000000 ![] bcast_S_S2000000 : (⟨S_, .i32⟩ : BufTy).Contents (Elt F) → (⟨S2000000, .i32⟩ : BufTy).Contents (Elt F)),
    binary main_v234 main_v278 main_v279 (addi : (⟨S2000000, .i32⟩ : BufTy).Contents (Elt F) → (⟨S2000000, .i32⟩ : BufTy).Contents (Elt F) → (⟨S2000000, .i32⟩ : BufTy).Contents (Elt F)),
    ternary main_v277 main_v279 main_v234 main_v280 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v280 main_v281 (broadcastInDim S2000000x1 ![0] bcast_S2000000_S2000000x1_0 : (⟨S2000000, .i32⟩ : BufTy).Contents (Elt F) → (⟨S2000000x1, .i32⟩ : BufTy).Contents (Elt F)),
    binary main_v159 main_v281 main_v282 ((fun x i => Host.gather gather_S200000x64_S2000000x1_S2000000x64_1_0_n_n_0_1_164 x i) : (⟨S200000x64, .f32⟩ : BufTy).Contents (Elt F) → (⟨S2000000x1, .i32⟩ : BufTy).Contents (Elt F) → (⟨S2000000x64, .f32⟩ : BufTy).Contents (Elt F)),
    unary main_v271 main_v283 (broadcastInDim S2000000x64 ![0, 1] bcast_S2000000x1_S2000000x64_0_1 : (⟨S2000000x1, .f32⟩ : BufTy).Contents (Elt F) → (⟨S2000000x64, .f32⟩ : BufTy).Contents (Elt F)),
    binary main_v283 main_v282 main_v284 (mulf : (⟨S2000000x64, .f32⟩ : BufTy).Contents (Elt F) → (⟨S2000000x64, .f32⟩ : BufTy).Contents (Elt F) → (⟨S2000000x64, .f32⟩ : BufTy).Contents (Elt F)),
    nullary main_cst_45 (constant S_ .f32 0x00000000#32),
    unary main_cst_45 main_v285 (broadcastInDim S200000x64 ![] bcast_S_S200000x64 : (⟨S_, .f32⟩ : BufTy).Contents (Elt F) → (⟨S200000x64, .f32⟩ : BufTy).Contents (Elt F)),
    unary main_v232 main_v286 (broadcastInDim S2000000x1 ![0] bcast_S2000000_S2000000x1_0 : (⟨S2000000, .i32⟩ : BufTy).Contents (Elt F) → (⟨S2000000x1, .i32⟩ : BufTy).Contents (Elt F)),
    ternary main_v285 main_v286 main_v284 main_v287 ((fun x i u => Host.scatterAdd scatter_S200000x64_S2000000x1_S2000000x64_1_0_0_1 x i u) : (⟨S200000x64, .f32⟩ : BufTy).Contents (Elt F) → (⟨S2000000x1, .i32⟩ : BufTy).Contents (Elt F) → (⟨S2000000x64, .f32⟩ : BufTy).Contents (Elt F) → (⟨S200000x64, .f32⟩ : BufTy).Contents (Elt F)),
    unary main_v250 main_v288 (broadcastInDim S200000x64 ![0, 1] bcast_S200000x1_S200000x64_0_1 : (⟨S200000x1, .f32⟩ : BufTy).Contents (Elt F) → (⟨S200000x64, .f32⟩ : BufTy).Contents (Elt F)),
    binary main_v288 main_v167 main_v289 (mulf : (⟨S200000x64, .f32⟩ : BufTy).Contents (Elt F) → (⟨S200000x64, .f32⟩ : BufTy).Contents (Elt F) → (⟨S200000x64, .f32⟩ : BufTy).Contents (Elt F)),
    binary main_v287 main_v289 main_v290 (addf : (⟨S200000x64, .f32⟩ : BufTy).Contents (Elt F) → (⟨S200000x64, .f32⟩ : BufTy).Contents (Elt F) → (⟨S200000x64, .f32⟩ : BufTy).Contents (Elt F)),
    unary main_v275 main_v291 (broadcastInDim S200000x64 ![0, 1] bcast_S200000x1_S200000x64_0_1 : (⟨S200000x1, .f32⟩ : BufTy).Contents (Elt F) → (⟨S200000x64, .f32⟩ : BufTy).Contents (Elt F)),
    binary main_v290 main_v291 main_v292 (Host.divf : (⟨S200000x64, .f32⟩ : BufTy).Contents (Elt F) → (⟨S200000x64, .f32⟩ : BufTy).Contents (Elt F) → (⟨S200000x64, .f32⟩ : BufTy).Contents (Elt F)),
    nullary main_call13_cst (constant S_ .f32 0x00000000#32),
    unary main_call13_cst main_call13_v0 (broadcastInDim S200000x64 ![] bcast_S_S200000x64 : (⟨S_, .f32⟩ : BufTy).Contents (Elt F) → (⟨S200000x64, .f32⟩ : BufTy).Contents (Elt F)),
    binary main_v292 main_call13_v0 main_call13_v1 (cmpf .ogt : (⟨S200000x64, .f32⟩ : BufTy).Contents (Elt F) → (⟨S200000x64, .f32⟩ : BufTy).Contents (Elt F) → (⟨S200000x64, .i1⟩ : BufTy).Contents (Elt F)),
    nullary main_call13_cst_0 (constant S_ .f32 0x00000000#32),
    unary main_call13_cst_0 main_call13_v2 (broadcastInDim S200000x64 ![] bcast_S_S200000x64 : (⟨S_, .f32⟩ : BufTy).Contents (Elt F) → (⟨S200000x64, .f32⟩ : BufTy).Contents (Elt F)),
    binary main_v292 main_call13_v2 main_call13_v3 (cmpf .ogt : (⟨S200000x64, .f32⟩ : BufTy).Contents (Elt F) → (⟨S200000x64, .f32⟩ : BufTy).Contents (Elt F) → (⟨S200000x64, .i1⟩ : BufTy).Contents (Elt F)),
    nullary main_call13_cst_1 (constant S_ .f32 0x00000000#32),
    unary main_call13_cst_1 main_call13_call0_v0 (id : (⟨S_, .f32⟩ : BufTy).Contents (Elt F) → (⟨S_, .f32⟩ : BufTy).Contents (Elt F)),
    unary main_call13_call0_v0 main_call13_call0_v1 (broadcastInDim S200000x64 ![] bcast_S_S200000x64 : (⟨S_, .f32⟩ : BufTy).Contents (Elt F) → (⟨S200000x64, .f32⟩ : BufTy).Contents (Elt F)),
    ternary main_call13_v3 main_call13_call0_v1 main_v292 main_call13_v4 (select : (⟨S200000x64, .i1⟩ : BufTy).Contents (Elt F) → (⟨S200000x64, .f32⟩ : BufTy).Contents (Elt F) → (⟨S200000x64, .f32⟩ : BufTy).Contents (Elt F) → (⟨S200000x64, .f32⟩ : BufTy).Contents (Elt F)),
    unary main_call13_v4 main_call13_v5 (Host.expm1 : (⟨S200000x64, .f32⟩ : BufTy).Contents (Elt F) → (⟨S200000x64, .f32⟩ : BufTy).Contents (Elt F)),
    nullary main_call13_cst_2 (constant S_ .f32 0x3F800000#32),
    unary main_call13_cst_2 main_call13_v6 (broadcastInDim S200000x64 ![] bcast_S_S200000x64 : (⟨S_, .f32⟩ : BufTy).Contents (Elt F) → (⟨S200000x64, .f32⟩ : BufTy).Contents (Elt F)),
    binary main_call13_v6 main_call13_v5 main_call13_v7 (mulf : (⟨S200000x64, .f32⟩ : BufTy).Contents (Elt F) → (⟨S200000x64, .f32⟩ : BufTy).Contents (Elt F) → (⟨S200000x64, .f32⟩ : BufTy).Contents (Elt F)),
    ternary main_call13_v1 main_v292 main_call13_v7 main_v293 (select : (⟨S200000x64, .i1⟩ : BufTy).Contents (Elt F) → (⟨S200000x64, .f32⟩ : BufTy).Contents (Elt F) → (⟨S200000x64, .f32⟩ : BufTy).Contents (Elt F) → (⟨S200000x64, .f32⟩ : BufTy).Contents (Elt F)),
    binary main_v230 main_arg14 main_v294 ((fun l r => Host.dotGeneral dot_S200000x64_S64x32_S200000x32_1_0_0_1_n_n none l r) : (⟨S200000x64, .f32⟩ : BufTy).Contents (Elt F) → (⟨S64x32, .f32⟩ : BufTy).Contents (Elt F) → (⟨S200000x32, .f32⟩ : BufTy).Contents (Elt F)),
    unary main_arg15 main_v295 (broadcastInDim S1x32 ![1] bcast_S32_S1x32_1 : (⟨S32, .f32⟩ : BufTy).Contents (Elt F) → (⟨S1x32, .f32⟩ : BufTy).Contents (Elt F)),
    unary main_v295 main_v296 (broadcastInDim S200000x32 ![0, 1] bcast_S1x32_S200000x32_0_1 : (⟨S1x32, .f32⟩ : BufTy).Contents (Elt F) → (⟨S200000x32, .f32⟩ : BufTy).Contents (Elt F)),
    binary main_v294 main_v296 main_v297 (addf : (⟨S200000x32, .f32⟩ : BufTy).Contents (Elt F) → (⟨S200000x32, .f32⟩ : BufTy).Contents (Elt F) → (⟨S200000x32, .f32⟩ : BufTy).Contents (Elt F)) ]

set_option maxRecDepth 8192 in
set_option maxHeartbeats 4000000 in
/-- The window is that straight line: the outlined functions unfolded at their calls, both sides are one chain of
    steps once sequencing is reassociated. -/
theorem main_part5_eq (c : Dev nD) : main_part5 (F := F) c = seq ops5 := by
  simp only [main_part5, fn_where_0.body, fn_elu.body, fn_where_1.body, fn_where_2.body, seq, bind_assoc, pure_bind] <;> rfl

set_option maxRecDepth 8192 in
/-- Every operation of the window reads and writes buffers of the device. -/
theorem ops5_sub : (ops5 : List (HloOp τ sig (Elt F))).Forall fun op => op.bufs ⊆ tcRefs τ sig :=
  ⟨binary_bufs_sub .., nullary_bufs_sub .., unary_bufs_sub .., binary_bufs_sub .., ternary_bufs_sub .., unary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., nullary_bufs_sub .., unary_bufs_sub ..,
    unary_bufs_sub .., ternary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., binary_bufs_sub .., nullary_bufs_sub .., unary_bufs_sub .., unary_bufs_sub .., ternary_bufs_sub ..,
    unary_bufs_sub .., binary_bufs_sub .., binary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub .., binary_bufs_sub .., unary_bufs_sub .., unary_bufs_sub .., binary_bufs_sub ..⟩

set_option maxRecDepth 8192 in
set_option maxHeartbeats 4000000 in
/-- Every operation of the window determines its result (none only allocates). -/
theorem ops5_fresh : ∀ op ∈ (ops5 : List (HloOp τ sig (Elt F))), op.fresh = ∅ := by
  intro _ h; (repeat (cases h with | head => rfl | tail _ h => ?_)); exact nomatch h

/-- The buffers the window's operations write, in order. -/
abbrev ops5_W : List (Ref sig .tc) :=
  [main_v259, main_c_39, main_v260, main_v261, main_v262, main_v263, main_v264, main_v265, main_cst_40, main_v266,
   main_v267, main_cst_41, main_v268, main_v269, main_v270, main_v271, main_cst_42, main_v272, main_v273, main_v274,
   main_v275, main_c_43, main_v276, main_v277, main_c_44, main_v278, main_v279, main_v280, main_v281, main_v282,
   main_v283, main_v284, main_cst_45, main_v285, main_v286, main_v287, main_v288, main_v289, main_v290, main_v291,
   main_v292, main_call13_cst, main_call13_v0, main_call13_v1, main_call13_cst_0, main_call13_v2, main_call13_v3, main_call13_cst_1, main_call13_call0_v0, main_call13_call0_v1,
   main_call13_v4, main_call13_v5, main_call13_cst_2, main_call13_v6, main_call13_v7, main_v293, main_v294, main_v295, main_v296, main_v297]

set_option maxRecDepth 8192 in
set_option maxHeartbeats 4000000 in
theorem ops5_writes : (ops5 : List (HloOp τ sig (Elt F))).Forall fun op =>
    op.writes ⊆ (ops5_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals simp only [nullary_writes, unary_writes, binary_writes, ternary_writes, reshape_writes, Finset.singleton_subset_iff, List.mem_toFinset]; exact List.mem_map_of_mem (by decide)

/-- A buffer the window does not write keeps its contents through it. -/
theorem ops5_keep (V : Valuation τ sig (Elt F)) (r : Ref sig .tc) (h : r ∉ ops5_W) :
    after ops5 V (Proc.devRef .tc r) = V (Proc.devRef .tc r) :=
  after_of_writes_sub ops5 V ops5_writes h

end Cert.ReferenceIdeal.RefRun

end
-- ==== Proof.RefRun.lean ====
/-
  The reference program's run.  Its entry function is six windows of host operations run one after the other; each
  window is a straight line (the sibling modules), so the whole is the straight line of the 406 operations in order.
  A straight line of host operations from any memory with zero counters terminates without a fault, and ends with
  every device buffer at the fold of the operations' results over the launch contents.  None of the sixteen argument
  buffers is written by any operation, so each ends as launched; the result buffer ends at the fold, which is left
  folded here and read stage by stage elsewhere.
-/
import proofs.«154843_j76682346102829_2_alg».proof.Proof.RefRunOps0
import proofs.«154843_j76682346102829_2_alg».proof.Proof.RefRunOps1
import proofs.«154843_j76682346102829_2_alg».proof.Proof.RefRunOps2
import proofs.«154843_j76682346102829_2_alg».proof.Proof.RefRunOps3
import proofs.«154843_j76682346102829_2_alg».proof.Proof.RefRunOps4
import proofs.«154843_j76682346102829_2_alg».proof.Proof.RefRunOps5

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The entry function's 406 operations, in order: the six windows one after the other. -/
abbrev ops : List (HloOp τ sig (Elt F)) :=
  ops0 ++ (ops1 ++ (ops2 ++ (ops3 ++ (ops4 ++ ops5))))

/-- The entry function is that straight line. -/
theorem main_eq (c : Dev nD) : main (F := F) c = seq ops := by
  simp only [ops, seq_append, ← main_part0_eq c, ← main_part1_eq c, ← main_part2_eq c, ← main_part3_eq c,
    ← main_part4_eq c, ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation reads and writes buffers of the device. -/
theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp ops0_sub op h, List.forall_iff_forall_mem.mp ops1_sub op h,
      List.forall_iff_forall_mem.mp ops2_sub op h, List.forall_iff_forall_mem.mp ops3_sub op h,
      List.forall_iff_forall_mem.mp ops4_sub op h, List.forall_iff_forall_mem.mp ops5_sub op h]

/-- Every operation determines its result. -/
theorem ops_fresh : ∀ op ∈ (ops : List (HloOp τ sig (Elt F))), op.fresh = ∅ := fun op h => by
  simp only [ops, List.mem_append] at h
  rcases h with h | h | h | h | h | h
  exacts [ops0_fresh op h, ops1_fresh op h, ops2_fresh op h, ops3_fresh op h, ops4_fresh op h, ops5_fresh op h]

/-- The fold over two lines run one after the other is the second's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The fold over the whole line, window by window. -/
theorem after_ops (V : Valuation τ sig (Elt F)) :
    after ops V = after ops5 (after ops4 (after ops3 (after ops2 (after ops1 (after ops0 V))))) := by
  simp only [ops, after_app]

/-- A buffer no window writes keeps its contents through the whole line. -/
theorem ops_keep (V : Valuation τ sig (Elt F)) (r : Ref sig .tc) (h0 : r ∉ ops0_W) (h1 : r ∉ ops1_W) (h2 : r ∉ ops2_W)
    (h3 : r ∉ ops3_W) (h4 : r ∉ ops4_W) (h5 : r ∉ ops5_W) :
    after ops V (Proc.devRef .tc r) = V (Proc.devRef .tc r) := by
  rw [after_ops, ops5_keep _ r h5, ops4_keep _ r h4, ops3_keep _ r h3, ops2_keep _ r h2, ops1_keep _ r h1, ops0_keep _ r h0]

theorem ops_arg0 (V : Valuation τ sig (Elt F)) : after ops V (Proc.devRef .tc main_arg0) = V (Proc.devRef .tc main_arg0) :=
  ops_keep V main_arg0 (by decide) (by decide) (by decide) (by decide) (by decide) (by decide)
theorem ops_arg1 (V : Valuation τ sig (Elt F)) : after ops V (Proc.devRef .tc main_arg1) = V (Proc.devRef .tc main_arg1) :=
  ops_keep V main_arg1 (by decide) (by decide) (by decide) (by decide) (by decide) (by decide)
theorem ops_arg2 (V : Valuation τ sig (Elt F)) : after ops V (Proc.devRef .tc main_arg2) = V (Proc.devRef .tc main_arg2) :=
  ops_keep V main_arg2 (by decide) (by decide) (by decide) (by decide) (by decide) (by decide)
theorem ops_arg3 (V : Valuation τ sig (Elt F)) : after ops V (Proc.devRef .tc main_arg3) = V (Proc.devRef .tc main_arg3) :=
  ops_keep V main_arg3 (by decide) (by decide) (by decide) (by decide) (by decide) (by decide)
theorem ops_arg4 (V : Valuation τ sig (Elt F)) : after ops V (Proc.devRef .tc main_arg4) = V (Proc.devRef .tc main_arg4) :=
  ops_keep V main_arg4 (by decide) (by decide) (by decide) (by decide) (by decide) (by decide)
theorem ops_arg5 (V : Valuation τ sig (Elt F)) : after ops V (Proc.devRef .tc main_arg5) = V (Proc.devRef .tc main_arg5) :=
  ops_keep V main_arg5 (by decide) (by decide) (by decide) (by decide) (by decide) (by decide)
theorem ops_arg6 (V : Valuation τ sig (Elt F)) : after ops V (Proc.devRef .tc main_arg6) = V (Proc.devRef .tc main_arg6) :=
  ops_keep V main_arg6 (by decide) (by decide) (by decide) (by decide) (by decide) (by decide)
theorem ops_arg7 (V : Valuation τ sig (Elt F)) : after ops V (Proc.devRef .tc main_arg7) = V (Proc.devRef .tc main_arg7) :=
  ops_keep V main_arg7 (by decide) (by decide) (by decide) (by decide) (by decide) (by decide)
theorem ops_arg8 (V : Valuation τ sig (Elt F)) : after ops V (Proc.devRef .tc main_arg8) = V (Proc.devRef .tc main_arg8) :=
  ops_keep V main_arg8 (by decide) (by decide) (by decide) (by decide) (by decide) (by decide)
theorem ops_arg9 (V : Valuation τ sig (Elt F)) : after ops V (Proc.devRef .tc main_arg9) = V (Proc.devRef .tc main_arg9) :=
  ops_keep V main_arg9 (by decide) (by decide) (by decide) (by decide) (by decide) (by decide)
theorem ops_arg10 (V : Valuation τ sig (Elt F)) : after ops V (Proc.devRef .tc main_arg10) = V (Proc.devRef .tc main_arg10) :=
  ops_keep V main_arg10 (by decide) (by decide) (by decide) (by decide) (by decide) (by decide)
theorem ops_arg11 (V : Valuation τ sig (Elt F)) : after ops V (Proc.devRef .tc main_arg11) = V (Proc.devRef .tc main_arg11) :=
  ops_keep V main_arg11 (by decide) (by decide) (by decide) (by decide) (by decide) (by decide)
theorem ops_arg12 (V : Valuation τ sig (Elt F)) : after ops V (Proc.devRef .tc main_arg12) = V (Proc.devRef .tc main_arg12) :=
  ops_keep V main_arg12 (by decide) (by decide) (by decide) (by decide) (by decide) (by decide)
theorem ops_arg13 (V : Valuation τ sig (Elt F)) : after ops V (Proc.devRef .tc main_arg13) = V (Proc.devRef .tc main_arg13) :=
  ops_keep V main_arg13 (by decide) (by decide) (by decide) (by decide) (by decide) (by decide)
theorem ops_arg14 (V : Valuation τ sig (Elt F)) : after ops V (Proc.devRef .tc main_arg14) = V (Proc.devRef .tc main_arg14) :=
  ops_keep V main_arg14 (by decide) (by decide) (by decide) (by decide) (by decide) (by decide)
theorem ops_arg15 (V : Valuation τ sig (Elt F)) : after ops V (Proc.devRef .tc main_arg15) = V (Proc.devRef .tc main_arg15) :=
  ops_keep V main_arg15 (by decide) (by decide) (by decide) (by decide) (by decide) (by decide)

/-- On every device, for any float values, from any memory with zero counters: every weakly fair execution of the entry
    function terminates, and every final state has each device buffer at the operations' fold over the launch
    contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (fun b => m (c, b)) (Proc.devRef .tc b) :=
  run_seq scopedRefs_eq scopedSems_eq defs main (fun _ => ops) main_eq (fun _ => ops_sub) m ρ (fun _ => ops_fresh)

/-- The same, read at the result and the sixteen arguments: the result ends at the fold, each argument as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v297) = after ops (fun b => m (c, b)) (Proc.devRef .tc main_v297)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨h c main_v297,
      (h c main_arg0).trans (ops_arg0 _),
      (h c main_arg1).trans (ops_arg1 _),
      (h c main_arg2).trans (ops_arg2 _),
      (h c main_arg3).trans (ops_arg3 _),
      (h c main_arg4).trans (ops_arg4 _),
      (h c main_arg5).trans (ops_arg5 _),
      (h c main_arg6).trans (ops_arg6 _),
      (h c main_arg7).trans (ops_arg7 _),
      (h c main_arg8).trans (ops_arg8 _),
      (h c main_arg9).trans (ops_arg9 _),
      (h c main_arg10).trans (ops_arg10 _),
      (h c main_arg11).trans (ops_arg11 _),
      (h c main_arg12).trans (ops_arg12 _),
      (h c main_arg13).trans (ops_arg13 _),
      (h c main_arg14).trans (ops_arg14 _),
      (h c main_arg15).trans (ops_arg15 _)⟩)
    (run_all m ρ)

/-- The run with the result dropped: every argument ends as launched. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => (h c).2) (run m ρ)

end Cert.ReferenceIdeal.RefRun

end
-- ==== Proof.RefStages.lean ====
/-
  The reference program's stages as functions of whole arrays, and its arguments.

  Each of the nineteen stage functions of the network is given here by the reference program's own host operations for
  that stage, composed, as a function of arbitrary operand arrays over the extended reals: a dense layer is the
  contraction with the weight matrix plus the bias row broadcast twice (with a maximum against the zero array for the
  rectified ones); a row selector is a unit slice followed by the reshape that drops the unit axis; a score is the
  contraction with the parameter vector laid out as a column; the self-loop weight is the exponential of the leaky
  rectifier (a select between the sum and its multiple by the scalar literal) of the sum of two scores; a gather
  normalises the indices (an index below zero has the node count added), lays them out as a column and reads the table
  along them; an edge weight is the exponential of the leaky rectifier of a sum, an edge's weighted row its product with
  the edge weight broadcast along the features; a segment sum is the scatter-add into the zero array along the index
  column; and the normalisation divides the aggregate plus the self-loop term by the divisor plus the self-loop weight
  and applies the exponential linear unit in the spelling of the reference (a select on positivity between the value
  and one times the exponential-minus-one of the value with the positive entries zeroed).  Nothing is unfolded.
  `RS` collects them; `args` reads the sixteen argument buffers of a launch memory in order.
-/
import proofs.«154843_j76682346102829_2_alg».proof.Proof.Gen.ReferenceIdeal
import proofs.«154843_j76682346102829_2_alg».proof.Proof.Net
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

section
variable {F : FTy → Type} [FloatOps F]

def f_relu128 (x : (⟨S200000x128, .f32⟩ : BufTy).Contents (Elt F))
    (y : (⟨S128x64, .f32⟩ : BufTy).Contents (Elt F))
    (z : (⟨S64, .f32⟩ : BufTy).Contents (Elt F)) :
    (⟨S200000x64, .f32⟩ : BufTy).Contents (Elt F) :=
  maximumf (addf (Host.dotGeneral dot_S200000x128_S128x64_S200000x64_1_0_0_1_n_n none (x) (y)) (broadcastInDim S200000x64 ![0, 1] bcast_S1x64_S200000x64_0_1 (broadcastInDim S1x64 ![1] bcast_S64_S1x64_1 (z)))) (broadcastInDim S200000x64 ![] bcast_S_S200000x64 (constant S_ .f32 0x00000000#32))

def f_relu64 (x : (⟨S200000x64, .f32⟩ : BufTy).Contents (Elt F))
    (y : (⟨S64x64, .f32⟩ : BufTy).Contents (Elt F))
    (z : (⟨S64, .f32⟩ : BufTy).Contents (Elt F)) :
    (⟨S200000x64, .f32⟩ : BufTy).Contents (Elt F) :=
  maximumf (addf (Host.dotGeneral dot_S200000x64_S64x64_S200000x64_1_0_0_1_n_n none (x) (y)) (broadcastInDim S200000x64 ![0, 1] bcast_S1x64_S200000x64_0_1 (broadcastInDim S1x64 ![1] bcast_S64_S1x64_1 (z)))) (broadcastInDim S200000x64 ![] bcast_S_S200000x64 (constant S_ .f32 0x00000000#32))

def f_dense (x : (⟨S200000x64, .f32⟩ : BufTy).Contents (Elt F))
    (y : (⟨S64x64, .f32⟩ : BufTy).Contents (Elt F))
    (z : (⟨S64, .f32⟩ : BufTy).Contents (Elt F)) :
    (⟨S200000x64, .f32⟩ : BufTy).Contents (Elt F) :=
  addf (Host.dotGeneral dot_S200000x64_S64x64_S200000x64_1_0_0_1_n_n none (x) (y)) (broadcastInDim S200000x64 ![0, 1] bcast_S1x64_S200000x64_0_1 (broadcastInDim S1x64 ![1] bcast_S64_S1x64_1 (z)))

def f_denseOut (x : (⟨S200000x64, .f32⟩ : BufTy).Contents (Elt F))
    (y : (⟨S64x32, .f32⟩ : BufTy).Contents (Elt F))
    (z : (⟨S32, .f32⟩ : BufTy).Contents (Elt F)) :
    (⟨S200000x32, .f32⟩ : BufTy).Contents (Elt F) :=
  addf (Host.dotGeneral dot_S200000x64_S64x32_S200000x32_1_0_0_1_n_n none (x) (y)) (broadcastInDim S200000x32 ![0, 1] bcast_S1x32_S200000x32_0_1 (broadcastInDim S1x32 ![1] bcast_S32_S1x32_1 (z)))

def f_wRow0 (x : (⟨S2x64x64, .f32⟩ : BufTy).Contents (Elt F)) :
    (⟨S64x64, .f32⟩ : BufTy).Contents (Elt F) :=
  shapeCast S64x64 (extractStridedSlice S1x64x64 ![0, 0, 0] x slices_S2x64x64_S1x64x64_0_0_0) shapeCasts_S1x64x64_S64x64

def f_wRow1 (x : (⟨S2x64x64, .f32⟩ : BufTy).Contents (Elt F)) :
    (⟨S64x64, .f32⟩ : BufTy).Contents (Elt F) :=
  shapeCast S64x64 (extractStridedSlice S1x64x64 ![1, 0, 0] x slices_S2x64x64_S1x64x64_1_0_0) shapeCasts_S1x64x64_S64x64

def f_bRow0 (x : (⟨S2x64, .f32⟩ : BufTy).Contents (Elt F)) :
    (⟨S64, .f32⟩ : BufTy).Contents (Elt F) :=
  shapeCast S64 (extractStridedSlice S1x64 ![0, 0] x slices_S2x64_S1x64_0_0) shapeCasts_S1x64_S64

def f_bRow1 (x : (⟨S2x64, .f32⟩ : BufTy).Contents (Elt F)) :
    (⟨S64, .f32⟩ : BufTy).Contents (Elt F) :=
  shapeCast S64 (extractStridedSlice S1x64 ![1, 0] x slices_S2x64_S1x64_1_0) shapeCasts_S1x64_S64

def f_iRow0 (x : (⟨S2x2000000, .i32⟩ : BufTy).Contents (Elt F)) :
    (⟨S2000000, .i32⟩ : BufTy).Contents (Elt F) :=
  shapeCast S2000000 (extractStridedSlice S1x2000000 ![0, 0] x slices_S2x2000000_S1x2000000_0_0) shapeCasts_S1x2000000_S2000000

def f_iRow1 (x : (⟨S2x2000000, .i32⟩ : BufTy).Contents (Elt F)) :
    (⟨S2000000, .i32⟩ : BufTy).Contents (Elt F) :=
  shapeCast S2000000 (extractStridedSlice S1x2000000 ![1, 0] x slices_S2x2000000_S1x2000000_1_0) shapeCasts_S1x2000000_S2000000

def f_score (x : (⟨S200000x64, .f32⟩ : BufTy).Contents (Elt F))
    (y : (⟨S64, .f32⟩ : BufTy).Contents (Elt F)) :
    (⟨S200000x1, .f32⟩ : BufTy).Contents (Elt F) :=
  Host.dotGeneral dot_S200000x64_S64x1_S200000x1_1_0_0_1_n_n none (x) (broadcastInDim S64x1 ![0] bcast_S64_S64x1_0 (y))

def f_selfWeight (x : (⟨S200000x64, .f32⟩ : BufTy).Contents (Elt F))
    (y : (⟨S64, .f32⟩ : BufTy).Contents (Elt F))
    (z : (⟨S64, .f32⟩ : BufTy).Contents (Elt F)) :
    (⟨S200000x1, .f32⟩ : BufTy).Contents (Elt F) :=
  Host.exp (select (cmpf .ogt (addf (Host.dotGeneral dot_S200000x64_S64x1_S200000x1_1_0_0_1_n_n none (x) (broadcastInDim S64x1 ![0] bcast_S64_S64x1_0 (y))) (Host.dotGeneral dot_S200000x64_S64x1_S200000x1_1_0_0_1_n_n none (x) (broadcastInDim S64x1 ![0] bcast_S64_S64x1_0 (z)))) (broadcastInDim S200000x1 ![] bcast_S_S200000x1 (constant S_ .f32 0x00000000#32))) (addf (Host.dotGeneral dot_S200000x64_S64x1_S200000x1_1_0_0_1_n_n none (x) (broadcastInDim S64x1 ![0] bcast_S64_S64x1_0 (y))) (Host.dotGeneral dot_S200000x64_S64x1_S200000x1_1_0_0_1_n_n none (x) (broadcastInDim S64x1 ![0] bcast_S64_S64x1_0 (z)))) (mulf (broadcastInDim S200000x1 ![] bcast_S_S200000x1 (constant S_ .f32 0x3E4CCCCD#32)) (addf (Host.dotGeneral dot_S200000x64_S64x1_S200000x1_1_0_0_1_n_n none (x) (broadcastInDim S64x1 ![0] bcast_S64_S64x1_0 (y))) (Host.dotGeneral dot_S200000x64_S64x1_S200000x1_1_0_0_1_n_n none (x) (broadcastInDim S64x1 ![0] bcast_S64_S64x1_0 (z))))))

def f_gCol (x : (⟨S200000x1, .f32⟩ : BufTy).Contents (Elt F))
    (y : (⟨S2000000, .i32⟩ : BufTy).Contents (Elt F)) :
    (⟨S2000000x1, .f32⟩ : BufTy).Contents (Elt F) :=
  Host.gather gather_S200000x1_S2000000x1_S2000000x1_1_0_n_n_0_1_11 (x) (broadcastInDim S2000000x1 ![0] bcast_S2000000_S2000000x1_0 (select (cmpi .slt (y) (broadcastInDim S2000000 ![] bcast_S_S2000000 (constantI S_ 32 0#32))) (addi (y) (broadcastInDim S2000000 ![] bcast_S_S2000000 (constantI S_ 32 200000#32))) (y)))

def f_gRow (x : (⟨S200000x64, .f32⟩ : BufTy).Contents (Elt F))
    (y : (⟨S2000000, .i32⟩ : BufTy).Contents (Elt F)) :
    (⟨S2000000x64, .f32⟩ : BufTy).Contents (Elt F) :=
  Host.gather gather_S200000x64_S2000000x1_S2000000x64_1_0_n_n_0_1_164 (x) (broadcastInDim S2000000x1 ![0] bcast_S2000000_S2000000x1_0 (select (cmpi .slt (y) (broadcastInDim S2000000 ![] bcast_S_S2000000 (constantI S_ 32 0#32))) (addi (y) (broadcastInDim S2000000 ![] bcast_S_S2000000 (constantI S_ 32 200000#32))) (y)))

def f_edgeW (x : (⟨S2000000x1, .f32⟩ : BufTy).Contents (Elt F))
    (y : (⟨S2000000x1, .f32⟩ : BufTy).Contents (Elt F)) :
    (⟨S2000000x1, .f32⟩ : BufTy).Contents (Elt F) :=
  Host.exp (select (cmpf .ogt (addf (x) (y)) (broadcastInDim S2000000x1 ![] bcast_S_S2000000x1 (constant S_ .f32 0x00000000#32))) (addf (x) (y)) (mulf (broadcastInDim S2000000x1 ![] bcast_S_S2000000x1 (constant S_ .f32 0x3E4CCCCD#32)) (addf (x) (y))))

def f_edgeWH (x : (⟨S2000000x1, .f32⟩ : BufTy).Contents (Elt F))
    (y : (⟨S2000000x1, .f32⟩ : BufTy).Contents (Elt F))
    (z : (⟨S2000000x64, .f32⟩ : BufTy).Contents (Elt F)) :
    (⟨S2000000x64, .f32⟩ : BufTy).Contents (Elt F) :=
  mulf (broadcastInDim S2000000x64 ![0, 1] bcast_S2000000x1_S2000000x64_0_1 (Host.exp (select (cmpf .ogt (addf (x) (y)) (broadcastInDim S2000000x1 ![] bcast_S_S2000000x1 (constant S_ .f32 0x00000000#32))) (addf (x) (y)) (mulf (broadcastInDim S2000000x1 ![] bcast_S_S2000000x1 (constant S_ .f32 0x3E4CCCCD#32)) (addf (x) (y)))))) (z)

def f_segCol (x : (⟨S2000000, .i32⟩ : BufTy).Contents (Elt F))
    (y : (⟨S2000000x1, .f32⟩ : BufTy).Contents (Elt F)) :
    (⟨S200000x1, .f32⟩ : BufTy).Contents (Elt F) :=
  Host.scatterAdd scatter_S200000x1_S2000000x1_S2000000x1_1_0_0_1 (broadcastInDim S200000x1 ![] bcast_S_S200000x1 (constant S_ .f32 0x00000000#32)) (broadcastInDim S2000000x1 ![0] bcast_S2000000_S2000000x1_0 (x)) (y)

def f_segRow (x : (⟨S2000000, .i32⟩ : BufTy).Contents (Elt F))
    (y : (⟨S2000000x64, .f32⟩ : BufTy).Contents (Elt F)) :
    (⟨S200000x64, .f32⟩ : BufTy).Contents (Elt F) :=
  Host.scatterAdd scatter_S200000x64_S2000000x1_S2000000x64_1_0_0_1 (broadcastInDim S200000x64 ![] bcast_S_S200000x64 (constant S_ .f32 0x00000000#32)) (broadcastInDim S2000000x1 ![0] bcast_S2000000_S2000000x1_0 (x)) (y)

def f_norm (x : (⟨S200000x64, .f32⟩ : BufTy).Contents (Elt F))
    (y : (⟨S200000x1, .f32⟩ : BufTy).Contents (Elt F))
    (z : (⟨S200000x1, .f32⟩ : BufTy).Contents (Elt F))
    (w : (⟨S200000x64, .f32⟩ : BufTy).Contents (Elt F)) :
    (⟨S200000x64, .f32⟩ : BufTy).Contents (Elt F) :=
  select (cmpf .ogt (Host.divf (addf (x) (mulf (broadcastInDim S200000x64 ![0, 1] bcast_S200000x1_S200000x64_0_1 (z)) (w))) (broadcastInDim S200000x64 ![0, 1] bcast_S200000x1_S200000x64_0_1 (addf (y) (z)))) (broadcastInDim S200000x64 ![] bcast_S_S200000x64 (constant S_ .f32 0x00000000#32))) (Host.divf (addf (x) (mulf (broadcastInDim S200000x64 ![0, 1] bcast_S200000x1_S200000x64_0_1 (z)) (w))) (broadcastInDim S200000x64 ![0, 1] bcast_S200000x1_S200000x64_0_1 (addf (y) (z)))) (mulf (broadcastInDim S200000x64 ![] bcast_S_S200000x64 (constant S_ .f32 0x3F800000#32)) (Host.expm1 (select (cmpf .ogt (Host.divf (addf (x) (mulf (broadcastInDim S200000x64 ![0, 1] bcast_S200000x1_S200000x64_0_1 (z)) (w))) (broadcastInDim S200000x64 ![0, 1] bcast_S200000x1_S200000x64_0_1 (addf (y) (z)))) (broadcastInDim S200000x64 ![] bcast_S_S200000x64 (constant S_ .f32 0x00000000#32))) (broadcastInDim S200000x64 ![] bcast_S_S200000x64 (id (constant S_ .f32 0x00000000#32))) (Host.divf (addf (x) (mulf (broadcastInDim S200000x64 ![0, 1] bcast_S200000x1_S200000x64_0_1 (z)) (w))) (broadcastInDim S200000x64 ![0, 1] bcast_S200000x1_S200000x64_0_1 (addf (y) (z)))))))

end

/-- The reference program's stages, over the extended reals. -/
def RS : Cert.Net.Stages where
  relu128 := f_relu128 (F := Ideal)
  relu64 := f_relu64 (F := Ideal)
  dense := f_dense (F := Ideal)
  denseOut := f_denseOut (F := Ideal)
  wRow0 := f_wRow0 (F := Ideal)
  wRow1 := f_wRow1 (F := Ideal)
  bRow0 := f_bRow0 (F := Ideal)
  bRow1 := f_bRow1 (F := Ideal)
  iRow0 := f_iRow0 (F := Ideal)
  iRow1 := f_iRow1 (F := Ideal)
  score := f_score (F := Ideal)
  selfWeight := f_selfWeight (F := Ideal)
  gCol := f_gCol (F := Ideal)
  gRow := f_gRow (F := Ideal)
  edgeW := f_edgeW (F := Ideal)
  edgeWH := f_edgeWH (F := Ideal)
  segCol := f_segCol (F := Ideal)
  segRow := f_segRow (F := Ideal)
  norm := f_norm (F := Ideal)

/-- The sixteen argument arrays read from the contents of a device's buffers. -/
def argsOf (V : Valuation τ sig (Elt Ideal)) : Cert.Net.Args where
  xP := V (Proc.devRef .tc main_arg0)
  xA := V (Proc.devRef .tc main_arg1)
  eiPA := V (Proc.devRef .tc main_arg2)
  eiAP := V (Proc.devRef .tc main_arg3)
  fc1Pw := V (Proc.devRef .tc main_arg4)
  fc1Pb := V (Proc.devRef .tc main_arg5)
  fc1Aw := V (Proc.devRef .tc main_arg6)
  fc1Ab := V (Proc.devRef .tc main_arg7)
  fcsW := V (Proc.devRef .tc main_arg8)
  fcsB := V (Proc.devRef .tc main_arg9)
  a1PA := V (Proc.devRef .tc main_arg10)
  a2PA := V (Proc.devRef .tc main_arg11)
  a1AP := V (Proc.devRef .tc main_arg12)
  a2AP := V (Proc.devRef .tc main_arg13)
  fc2W := V (Proc.devRef .tc main_arg14)
  fc2B := V (Proc.devRef .tc main_arg15)

/-- The sixteen argument arrays of a launch memory on device `c`, in order. -/
def args (m : (ℓ : Loc nD τ sig) → Buf (Elt Ideal) ℓ) (c : Dev nD) : Cert.Net.Args :=
  argsOf (fun b => m (c, b))

theorem args_xP (m : (ℓ : Loc nD τ sig) → Buf (Elt Ideal) ℓ) (c : Dev nD) :
    (args m c).xP = m ((c.tc : Thread nD τ).loc main_arg0) := rfl
theorem args_xA (m : (ℓ : Loc nD τ sig) → Buf (Elt Ideal) ℓ) (c : Dev nD) :
    (args m c).xA = m ((c.tc : Thread nD τ).loc main_arg1) := rfl
theorem args_eiPA (m : (ℓ : Loc nD τ sig) → Buf (Elt Ideal) ℓ) (c : Dev nD) :
    (args m c).eiPA = m ((c.tc : Thread nD τ).loc main_arg2) := rfl
theorem args_eiAP (m : (ℓ : Loc nD τ sig) → Buf (Elt Ideal) ℓ) (c : Dev nD) :
    (args m c).eiAP = m ((c.tc : Thread nD τ).loc main_arg3) := rfl
theorem args_fc1Pw (m : (ℓ : Loc nD τ sig) → Buf (Elt Ideal) ℓ) (c : Dev nD) :
    (args m c).fc1Pw = m ((c.tc : Thread nD τ).loc main_arg4) := rfl
theorem args_fc1Pb (m : (ℓ : Loc nD τ sig) → Buf (Elt Ideal) ℓ) (c : Dev nD) :
    (args m c).fc1Pb = m ((c.tc : Thread nD τ).loc main_arg5) := rfl
theorem args_fc1Aw (m : (ℓ : Loc nD τ sig) → Buf (Elt Ideal) ℓ) (c : Dev nD) :
    (args m c).fc1Aw = m ((c.tc : Thread nD τ).loc main_arg6) := rfl
theorem args_fc1Ab (m : (ℓ : Loc nD τ sig) → Buf (Elt Ideal) ℓ) (c : Dev nD) :
    (args m c).fc1Ab = m ((c.tc : Thread nD τ).loc main_arg7) := rfl
theorem args_fcsW (m : (ℓ : Loc nD τ sig) → Buf (Elt Ideal) ℓ) (c : Dev nD) :
    (args m c).fcsW = m ((c.tc : Thread nD τ).loc main_arg8) := rfl
theorem args_fcsB (m : (ℓ : Loc nD τ sig) → Buf (Elt Ideal) ℓ) (c : Dev nD) :
    (args m c).fcsB = m ((c.tc : Thread nD τ).loc main_arg9) := rfl
theorem args_a1PA (m : (ℓ : Loc nD τ sig) → Buf (Elt Ideal) ℓ) (c : Dev nD) :
    (args m c).a1PA = m ((c.tc : Thread nD τ).loc main_arg10) := rfl
theorem args_a2PA (m : (ℓ : Loc nD τ sig) → Buf (Elt Ideal) ℓ) (c : Dev nD) :
    (args m c).a2PA = m ((c.tc : Thread nD τ).loc main_arg11) := rfl
theorem args_a1AP (m : (ℓ : Loc nD τ sig) → Buf (Elt Ideal) ℓ) (c : Dev nD) :
    (args m c).a1AP = m ((c.tc : Thread nD τ).loc main_arg12) := rfl
theorem args_a2AP (m : (ℓ : Loc nD τ sig) → Buf (Elt Ideal) ℓ) (c : Dev nD) :
    (args m c).a2AP = m ((c.tc : Thread nD τ).loc main_arg13) := rfl
theorem args_fc2W (m : (ℓ : Loc nD τ sig) → Buf (Elt Ideal) ℓ) (c : Dev nD) :
    (args m c).fc2W = m ((c.tc : Thread nD τ).loc main_arg14) := rfl
theorem args_fc2B (m : (ℓ : Loc nD τ sig) → Buf (Elt Ideal) ℓ) (c : Dev nD) :
    (args m c).fc2B = m ((c.tc : Thread nD τ).loc main_arg15) := rfl

end Cert.ReferenceIdeal.RefRun

end
-- ==== Proof.RefBlocksA.lean ====
/-
  The reference program's host operations, statements 1 … 66 of its entry function, cut into
  stretches.  For each stretch: its operations as a list, the buffers they write, and, for each of the network's
  values computed in it, the statement that after the stretch, from any contents, the value's buffer holds the
  stage function applied to what the buffers of the stage's operands hold after the stretch (an operand computed
  before the stretch is untouched by it, one computed inside it is read at its computed value: no buffer is written
  twice).
-/
import proofs.«154843_j76682346102829_2_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The entry function's statements 1 … 5, as the list of their operations. -/
abbrev b0 : List (HloOp τ sig (Elt F)) :=
  [ binary main_arg0 main_arg4 main_v0 ((fun l r => Host.dotGeneral dot_S200000x128_S128x64_S200000x64_1_0_0_1_n_n none l r) : (⟨S200000x128, .f32⟩ : BufTy).Contents (Elt F) → (⟨S128x64, .f32⟩ : BufTy).Contents (Elt F) → (⟨S200000x64, .f32⟩ : BufTy).Contents (Elt F)),
    unary main_arg5 main_v1 (broadcastInDim S1x64 ![1] bcast_S64_S1x64_1 : (⟨S64, .f32⟩ : BufTy).Contents (Elt F) → (⟨S1x64, .f32⟩ : BufTy).Contents (Elt F)),
    unary main_v1 main_v2 (broadcastInDim S200000x64 ![0, 1] bcast_S1x64_S200000x64_0_1 : (⟨S1x64, .f32⟩ : BufTy).Contents (Elt F) → (⟨S200000x64, .f32⟩ : BufTy).Contents (Elt F)),
    binary main_v0 main_v2 main_v3 (addf : (⟨S200000x64, .f32⟩ : BufTy).Contents (Elt F) → (⟨S200000x64, .f32⟩ : BufTy).Contents (Elt F) → (⟨S200000x64, .f32⟩ : BufTy).Contents (Elt F)),
    nullary main_call0_cst (constant S_ .f32 0x00000000#32),
    unary main_call0_cst main_call0_v0 (broadcastInDim S200000x64 ![] bcast_S_S200000x64 : (⟨S_, .f32⟩ : BufTy).Contents (Elt F) → (⟨S200000x64, .f32⟩ : BufTy).Contents (Elt F)),
    binary main_v3 main_call0_v0 main_v4 (maximumf : (⟨S200000x64, .f32⟩ : BufTy).Contents (Elt F) → (⟨S200000x64, .f32⟩ : BufTy).Contents (Elt F) → (⟨S200000x64, .f32⟩ : BufTy).Contents (Elt F)) ]

/-- The buffers those operations write, in order. -/
abbrev b0_W : List (Ref sig .tc) :=
  [main_v0, main_v1, main_v2, main_v3, main_call0_cst, main_call0_v0, main_v4]

set_option maxRecDepth 8192 in
set_option maxHeartbeats 4000000 in
theorem b0_writes : (b0 : List (HloOp τ sig (Elt F))).Forall fun op =>
    op.writes ⊆ (b0_W.map (Proc.devRef (τ := τ) .tc)).toFinset := by
  simp only [List.Forall]
  refine ⟨?_, ?_, ?_, ?_, ?_, ?_, ?_⟩
  all_goals (simp only [nullary_writes, unary_writes, binary_writes, ternary_writes, reshape_writes, Finset.singleton_subset_iff, List.mem_toFinset]; exact List.mem_map_of_mem (by decide))

set_option maxRecDepth 8192 in
set_option maxHeartbeats 4000000 in
/-- After the statements, from any contents, %4's buffer holds the stage function of what its operands' buffers then hold. -/
theorem b0_v4 (U : Valuation τ sig (Elt Ideal)) :
    after b0 U (Proc.devRef .tc main_v4) = f_relu128 (F := Ideal) (after b0 U (Proc.devRef .tc main_arg0)) (after b0 U (Proc.devRef .tc main_arg4)) (after b0 U (Proc.devRef .tc main_arg5)) := by
  unfold f_relu128
  simp only [b0]
  after_results_simp
  all_goals rfl

/-- The entry function's statements 6 … 10, as the list of their operations. -/
abbrev b1 : List (HloOp τ sig (Elt F)) :=
  [ binary main_arg1 main_arg6 main_v5 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    unary main_arg7 main_v6 (broadcastInDim S1x64 ![1] bcast_S64_S1x64_1 : (⟨S64, .f32⟩ : BufTy).Contents (Elt F) → (⟨S1x64, .f32⟩ : BufTy).Contents (Elt F)),
    unary main_v6 main_v7 (broadcastInDim S200000x64 ![0, 1] bcast_S1x64_S200000x64_0_1 : (⟨S1x64, .f32⟩ : BufTy).Contents (Elt F) → (⟨S200000x64, .f32⟩ : BufTy).Contents (Elt F)),
    binary main_v5 main_v7 main_v8 (addf : (⟨S200000x64, .f32⟩ : BufTy).Contents (Elt F) → (⟨S200000x64, .f32⟩ : BufTy).Contents (Elt F) → (⟨S200000x64, .f32⟩ : BufTy).Contents (Elt F)),
    nullary main_call1_cst (constant S_ .f32 0x00000000#32),
    unary main_call1_cst main_call1_v0 (broadcastInDim S200000x64 ![] bcast_S_S200000x64 : (⟨S_, .f32⟩ : BufTy).Contents (Elt F) → (⟨S200000x64, .f32⟩ : BufTy).Contents (Elt F)),
    binary main_v8 main_call1_v0 main_v9 (maximumf : (⟨S200000x64, .f32⟩ : BufTy).Contents (Elt F) → (⟨S200000x64, .f32⟩ : BufTy).Contents (Elt F) → (⟨S200000x64, .f32⟩ : BufTy).Contents (Elt F)) ]

/-- The buffers those operations write, in order. -/
abbrev b1_W : List (Ref sig .tc) :=
  [main_v5, main_v6, main_v7, main_v8, main_call1_cst, main_call1_v0, main_v9]

set_option maxRecDepth 8192 in
set_option maxHeartbeats 4000000 in
theorem b1_writes : (b1 : List (HloOp τ sig (Elt F))).Forall fun op =>
    op.writes ⊆ (b1_W.map (Proc.devRef (τ := τ) .tc)).toFinset := by
  simp only [List.Forall]
  refine ⟨?_, ?_, ?_, ?_, ?_, ?_, ?_⟩
  all_goals (simp only [nullary_writes, unary_writes, binary_writes, ternary_writes, reshape_writes, Finset.singleton_subset_iff, List.mem_toFinset]; exact List.mem_map_of_mem (by decide))

set_option maxRecDepth 8192 in
set_option maxHeartbeats 4000000 in
/-- After the statements, from any contents, %9's buffer holds the stage function of what its operands' buffers then hold. -/
theorem b1_v9 (U : Valuation τ sig (Elt Ideal)) :
    after b1 U (Proc.devRef .tc main_v9) = f_relu64 (F := Ideal) (after b1 U (Proc.devRef .tc main_arg1)) (after b1 U (Proc.devRef .tc main_arg6)) (after b1 U (Proc.devRef .tc main_arg7)) := by
  unfold f_relu64
  simp only [b1]
  after_results_simp
  all_goals rfl

/-- The entry function's statements 11 … 12, as the list of their operations. -/
abbrev b2 : List (HloOp τ sig (Elt F)) :=
  [ unary main_arg8 main_v10 ((extractStridedSlice S1x64x64 ![0, 0, 0] · slices_S2x64x64_S1x64x64_0_0_0) : (⟨S2x64x64, .f32⟩ : BufTy).Contents (Elt F) → (⟨S1x64x64, .f32⟩ : BufTy).Contents (Elt F)),
    reshape main_v10 main_v11 rfl shapeCasts_S1x64x64_S64x64 ]

/-- The buffers those operations write, in order. -/
abbrev b2_W : List (Ref sig .tc) :=
  [main_v10, main_v11]

set_option maxRecDepth 8192 in
set_option maxHeartbeats 4000000 in
theorem b2_writes : (b2 : List (HloOp τ sig (Elt F))).Forall fun op =>
    op.writes ⊆ (b2_W.map (Proc.devRef (τ := τ) .tc)).toFinset := by
  simp only [List.Forall]
  refine ⟨?_, ?_⟩
  all_goals (simp only [nullary_writes, unary_writes, binary_writes, ternary_writes, reshape_writes, Finset.singleton_subset_iff, List.mem_toFinset]; exact List.mem_map_of_mem (by decide))

set_option maxRecDepth 8192 in
set_option maxHeartbeats 4000000 in
/-- After the statements, from any contents, %11's buffer holds the stage function of what its operands' buffers then hold. -/
theorem b2_v11 (U : Valuation τ sig (Elt Ideal)) :
    after b2 U (Proc.devRef .tc main_v11) = f_wRow0 (F := Ideal) (after b2 U (Proc.devRef .tc main_arg8)) := by
  unfold f_wRow0
  simp only [b2]
  after_results_simp
  all_goals rfl

/-- The entry function's statements 13 … 18, as the list of their operations. -/
abbrev b3 : List (HloOp τ sig (Elt F)) :=
  [ binary main_v4 main_v11 main_v12 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    unary main_arg9 main_v13 ((extractStridedSlice S1x64 ![0, 0] · slices_S2x64_S1x64_0_0) : (⟨S2x64, .f32⟩ : BufTy).Contents (Elt F) → (⟨S1x64, .f32⟩ : BufTy).Contents (Elt F)),
    reshape main_v13 main_v14 rfl shapeCasts_S1x64_S64,
    unary main_v14 main_v15 (broadcastInDim S1x64 ![1] bcast_S64_S1x64_1 : (⟨S64, .f32⟩ : BufTy).Contents (Elt F) → (⟨S1x64, .f32⟩ : BufTy).Contents (Elt F)),
    unary main_v15 main_v16 (broadcastInDim S200000x64 ![0, 1] bcast_S1x64_S200000x64_0_1 : (⟨S1x64, .f32⟩ : BufTy).Contents (Elt F) → (⟨S200000x64, .f32⟩ : BufTy).Contents (Elt F)),
    binary main_v12 main_v16 main_v17 (addf : (⟨S200000x64, .f32⟩ : BufTy).Contents (Elt F) → (⟨S200000x64, .f32⟩ : BufTy).Contents (Elt F) → (⟨S200000x64, .f32⟩ : BufTy).Contents (Elt F)) ]

/-- The buffers those operations write, in order. -/
abbrev b3_W : List (Ref sig .tc) :=
  [main_v12, main_v13, main_v14, main_v15, main_v16, main_v17]

set_option maxRecDepth 8192 in
set_option maxHeartbeats 4000000 in
theorem b3_writes : (b3 : List (HloOp τ sig (Elt F))).Forall fun op =>
    op.writes ⊆ (b3_W.map (Proc.devRef (τ := τ) .tc)).toFinset := by
  simp only [List.Forall]
  refine ⟨?_, ?_, ?_, ?_, ?_, ?_⟩
  all_goals (simp only [nullary_writes, unary_writes, binary_writes, ternary_writes, reshape_writes, Finset.singleton_subset_iff, List.mem_toFinset]; exact List.mem_map_of_mem (by decide))

set_option maxRecDepth 8192 in
set_option maxHeartbeats 4000000 in
/-- After the statements, from any contents, %14's buffer holds the stage function of what its operands' buffers then hold. -/
theorem b3_v14 (U : Valuation τ sig (Elt Ideal)) :
    after b3 U (Proc.devRef .tc main_v14) = f_bRow0 (F := Ideal) (after b3 U (Proc.devRef .tc main_arg9)) := by
  unfold f_bRow0
  simp only [b3]
  after_results_simp
  all_goals rfl

set_option maxRecDepth 8192 in
set_option maxHeartbeats 4000000 in
/-- After the statements, from any contents, %17's buffer holds the stage function of what its operands' buffers then hold. -/
theorem b3_v17 (U : Valuation τ sig (Elt Ideal)) :
    after b3 U (Proc.devRef .tc main_v17) = f_dense (F := Ideal) (after b3 U (Proc.devRef .tc main_v4)) (after b3 U (Proc.devRef .tc main_v11)) (after b3 U (Proc.devRef .tc main_v14)) := by
  unfold f_dense
  simp only [b3]
  after_results_simp
  all_goals rfl

/-- The entry function's statements 19 … 20, as the list of their operations. -/
abbrev b4 : List (HloOp τ sig (Elt F)) :=
  [ unary main_arg8 main_v18 ((extractStridedSlice S1x64x64 ![0, 0, 0] · slices_S2x64x64_S1x64x64_0_0_0) : (⟨S2x64x64, .f32⟩ : BufTy).Contents (Elt F) → (⟨S1x64x64, .f32⟩ : BufTy).Contents (Elt F)),
    reshape main_v18 main_v19 rfl shapeCasts_S1x64x64_S64x64 ]

/-- The buffers those operations write, in order. -/
abbrev b4_W : List (Ref sig .tc) :=
  [main_v18, main_v19]

set_option maxRecDepth 8192 in
set_option maxHeartbeats 4000000 in
theorem b4_writes : (b4 : List (HloOp τ sig (Elt F))).Forall fun op =>
    op.writes ⊆ (b4_W.map (Proc.devRef (τ := τ) .tc)).toFinset := by
  simp only [List.Forall]
  refine ⟨?_, ?_⟩
  all_goals (simp only [nullary_writes, unary_writes, binary_writes, ternary_writes, reshape_writes, Finset.singleton_subset_iff, List.mem_toFinset]; exact List.mem_map_of_mem (by decide))

set_option maxRecDepth 8192 in
set_option maxHeartbeats 4000000 in
/-- After the statements, from any contents, %19's buffer holds the stage function of what its operands' buffers then hold. -/
theorem b4_v19 (U : Valuation τ sig (Elt Ideal)) :
    after b4 U (Proc.devRef .tc main_v19) = f_wRow0 (F := Ideal) (after b4 U (Proc.devRef .tc main_arg8)) := by
  unfold f_wRow0
  simp only [b4]
  after_results_simp
  all_goals rfl

/-- The entry function's statements 21 … 26, as the list of their operations. -/
abbrev b5 : List (HloOp τ sig (Elt F)) :=
  [ binary main_v9 main_v19 main_v20 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    unary main_arg9 main_v21 ((extractStridedSlice S1x64 ![0, 0] · slices_S2x64_S1x64_0_0) : (⟨S2x64, .f32⟩ : BufTy).Contents (Elt F) → (⟨S1x64, .f32⟩ : BufTy).Contents (Elt F)),
    reshape main_v21 main_v22 rfl shapeCasts_S1x64_S64,
    unary main_v22 main_v23 (broadcastInDim S1x64 ![1] bcast_S64_S1x64_1 : (⟨S64, .f32⟩ : BufTy).Contents (Elt F) → (⟨S1x64, .f32⟩ : BufTy).Contents (Elt F)),
    unary main_v23 main_v24 (broadcastInDim S200000x64 ![0, 1] bcast_S1x64_S200000x64_0_1 : (⟨S1x64, .f32⟩ : BufTy).Contents (Elt F) → (⟨S200000x64, .f32⟩ : BufTy).Contents (Elt F)),
    binary main_v20 main_v24 main_v25 (addf : (⟨S200000x64, .f32⟩ : BufTy).Contents (Elt F) → (⟨S200000x64, .f32⟩ : BufTy).Contents (Elt F) → (⟨S200000x64, .f32⟩ : BufTy).Contents (Elt F)) ]

/-- The buffers those operations write, in order. -/
abbrev b5_W : List (Ref sig .tc) :=
  [main_v20, main_v21, main_v22, main_v23, main_v24, main_v25]

set_option maxRecDepth 8192 in
set_option maxHeartbeats 4000000 in
theorem b5_writes : (b5 : List (HloOp τ sig (Elt F))).Forall fun op =>
    op.writes ⊆ (b5_W.map (Proc.devRef (τ := τ) .tc)).toFinset := by
  simp only [List.Forall]
  refine ⟨?_, ?_, ?_, ?_, ?_, ?_⟩
  all_goals (simp only [nullary_writes, unary_writes, binary_writes, ternary_writes, reshape_writes, Finset.singleton_subset_iff, List.mem_toFinset]; exact List.mem_map_of_mem (by decide))

set_option maxRecDepth 8192 in
set_option maxHeartbeats 4000000 in
/-- After the statements, from any contents, %22's buffer holds the stage function of what its operands' buffers then hold. -/
theorem b5_v22 (U : Valuation τ sig (Elt Ideal)) :
    after b5 U (Proc.devRef .tc main_v22) = f_bRow0 (F := Ideal) (after b5 U (Proc.devRef .tc main_arg9)) := by
  unfold f_bRow0
  simp only [b5]
  after_results_simp
  all_goals rfl

set_option maxRecDepth 8192 in
set_option maxHeartbeats 4000000 in
/-- After the statements, from any contents, %25's buffer holds the stage function of what its operands' buffers then hold. -/
theorem b5_v25 (U : Valuation τ sig (Elt Ideal)) :
    after b5 U (Proc.devRef .tc main_v25) = f_dense (F := Ideal) (after b5 U (Proc.devRef .tc main_v9)) (after b5 U (Proc.devRef .tc main_v19)) (after b5 U (Proc.devRef .tc main_v22)) := by
  unfold f_dense
  simp only [b5]
  after_results_simp
  all_goals rfl

/-- The entry function's statements 27 … 28, as the list of their operations. -/
abbrev b6 : List (HloOp τ sig (Elt F)) :=
  [ unary main_arg2 main_v26 ((extractStridedSlice S1x2000000 ![0, 0] · slices_S2x2000000_S1x2000000_0_0) : (⟨S2x2000000, .i32⟩ : BufTy).Contents (Elt F) → (⟨S1x2000000, .i32⟩ : BufTy).Contents (Elt F)),
    reshape main_v26 main_v27 rfl shapeCasts_S1x2000000_S2000000 ]

/-- The buffers those operations write, in order. -/
abbrev b6_W : List (Ref sig .tc) :=
  [main_v26, main_v27]

set_option maxRecDepth 8192 in
set_option maxHeartbeats 4000000 in
theorem b6_writes : (b6 : List (HloOp τ sig (Elt F))).Forall fun op =>
    op.writes ⊆ (b6_W.map (Proc.devRef (τ := τ) .tc)).toFinset := by
  simp only [List.Forall]
  refine ⟨?_, ?_⟩
  all_goals (simp only [nullary_writes, unary_writes, binary_writes, ternary_writes, reshape_writes, Finset.singleton_subset_iff, List.mem_toFinset]; exact List.mem_map_of_mem (by decide))

set_option maxRecDepth 8192 in
set_option maxHeartbeats 4000000 in
/-- After the statements, from any contents, %27's buffer holds the stage function of what its operands' buffers then hold. -/
theorem b6_v27 (U : Valuation τ sig (Elt Ideal)) :
    after b6 U (Proc.devRef .tc main_v27) = f_iRow0 (F := Ideal) (after b6 U (Proc.devRef .tc main_arg2)) := by
  unfold f_iRow0
  simp only [b6]
  after_results_simp
  all_goals rfl

/-- The entry function's statements 29 … 30, as the list of their operations. -/
abbrev b7 : List (HloOp τ sig (Elt F)) :=
  [ unary main_arg2 main_v28 ((extractStridedSlice S1x2000000 ![1, 0] · slices_S2x2000000_S1x2000000_1_0) : (⟨S2x2000000, .i32⟩ : BufTy).Contents (Elt F) → (⟨S1x2000000, .i32⟩ : BufTy).Contents (Elt F)),
    reshape main_v28 main_v29 rfl shapeCasts_S1x2000000_S2000000 ]

/-- The buffers those operations write, in order. -/
abbrev b7_W : List (Ref sig .tc) :=
  [main_v28, main_v29]

set_option maxRecDepth 8192 in
set_option maxHeartbeats 4000000 in
theorem b7_writes : (b7 : List (HloOp τ sig (Elt F))).Forall fun op =>
    op.writes ⊆ (b7_W.map (Proc.devRef (τ := τ) .tc)).toFinset := by
  simp only [List.Forall]
  refine ⟨?_, ?_⟩
  all_goals (simp only [nullary_writes, unary_writes, binary_writes, ternary_writes, reshape_writes, Finset.singleton_subset_iff, List.mem_toFinset]; exact List.mem_map_of_mem (by decide))

set_option maxRecDepth 8192 in
set_option maxHeartbeats 4000000 in
/-- After the statements, from any contents, %29's buffer holds the stage function of what its operands' buffers then hold. -/
theorem b7_v29 (U : Valuation τ sig (Elt Ideal)) :
    after b7 U (Proc.devRef .tc main_v29) = f_iRow1 (F := Ideal) (after b7 U (Proc.devRef .tc main_arg2)) := by
  unfold f_iRow1
  simp only [b7]
  after_results_simp
  all_goals rfl

/-- The entry function's statements 31 … 32, as the list of their operations. -/
abbrev b8 : List (HloOp τ sig (Elt F)) :=
  [ unary main_arg10 main_v30 ((extractStridedSlice S1x64 ![0, 0] · slices_S2x64_S1x64_0_0) : (⟨S2x64, .f32⟩ : BufTy).Contents (Elt F) → (⟨S1x64, .f32⟩ : BufTy).Contents (Elt F)),
    reshape main_v30 main_v31 rfl shapeCasts_S1x64_S64 ]

/-- The buffers those operations write, in order. -/
abbrev b8_W : List (Ref sig .tc) :=
  [main_v30, main_v31]

set_option maxRecDepth 8192 in
set_option maxHeartbeats 4000000 in
theorem b8_writes : (b8 : List (HloOp τ sig (Elt F))).Forall fun op =>
    op.writes ⊆ (b8_W.map (Proc.devRef (τ := τ) .tc)).toFinset := by
  simp only [List.Forall]
  refine ⟨?_, ?_⟩
  all_goals (simp only [nullary_writes, unary_writes, binary_writes, ternary_writes, reshape_writes, Finset.singleton_subset_iff, List.mem_toFinset]; exact List.mem_map_of_mem (by decide))

set_option maxRecDepth 8192 in
set_option maxHeartbeats 4000000 in
/-- After the statements, from any contents, %31's buffer holds the stage function of what its operands' buffers then hold. -/
theorem b8_v31 (U : Valuation τ sig (Elt Ideal)) :
    after b8 U (Proc.devRef .tc main_v31) = f_bRow0 (F := Ideal) (after b8 U (Proc.devRef .tc main_arg10)) := by
  unfold f_bRow0
  simp only [b8]
  after_results_simp
  all_goals rfl

/-- The entry function's statements 33 … 48, as the list of their operations. -/
abbrev b9 : List (HloOp τ sig (Elt F)) :=
  [ unary main_v31 main_v32 (broadcastInDim S64x1 ![0] bcast_S64_S64x1_0 : (⟨S64, .f32⟩ : BufTy).Contents (Elt F) → (⟨S64x1, .f32⟩ : BufTy).Contents (Elt F)),
    unary main_arg11 main_v33 ((extractStridedSlice S1x64 ![0, 0] · slices_S2x64_S1x64_0_0) : (⟨S2x64, .f32⟩ : BufTy).Contents (Elt F) → (⟨S1x64, .f32⟩ : BufTy).Contents (Elt F)),
    reshape main_v33 main_v34 rfl shapeCasts_S1x64_S64,
    unary main_v34 main_v35 (broadcastInDim S64x1 ![0] bcast_S64_S64x1_0 : (⟨S64, .f32⟩ : BufTy).Contents (Elt F) → (⟨S64x1, .f32⟩ : BufTy).Contents (Elt F)),
    binary main_v17 main_v32 main_v36 ((fun l r => Host.dotGeneral dot_S200000x64_S64x1_S200000x1_1_0_0_1_n_n none l r) : (⟨S200000x64, .f32⟩ : BufTy).Contents (Elt F) → (⟨S64x1, .f32⟩ : BufTy).Contents (Elt F) → (⟨S200000x1, .f32⟩ : BufTy).Contents (Elt F)),
    binary main_v25 main_v35 main_v37 ((fun l r => Host.dotGeneral dot_S200000x64_S64x1_S200000x1_1_0_0_1_n_n none l r) : (⟨S200000x64, .f32⟩ : BufTy).Contents (Elt F) → (⟨S64x1, .f32⟩ : BufTy).Contents (Elt F) → (⟨S200000x1, .f32⟩ : BufTy).Contents (Elt F)),
    binary main_v17 main_v35 main_v38 ((fun l r => Host.dotGeneral dot_S200000x64_S64x1_S200000x1_1_0_0_1_n_n none l r) : (⟨S200000x64, .f32⟩ : BufTy).Contents (Elt F) → (⟨S64x1, .f32⟩ : BufTy).Contents (Elt F) → (⟨S200000x1, .f32⟩ : BufTy).Contents (Elt F)),
    binary main_v36 main_v38 main_v39 (addf : (⟨S200000x1, .f32⟩ : BufTy).Contents (Elt F) → (⟨S200000x1, .f32⟩ : BufTy).Contents (Elt F) → (⟨S200000x1, .f32⟩ : BufTy).Contents (Elt F)),
    nullary main_cst (constant S_ .f32 0x00000000#32),
    unary main_cst main_v40 (broadcastInDim S200000x1 ![] bcast_S_S200000x1 : (⟨S_, .f32⟩ : BufTy).Contents (Elt F) → (⟨S200000x1, .f32⟩ : BufTy).Contents (Elt F)),
    binary main_v39 main_v40 main_v41 (cmpf .ogt : (⟨S200000x1, .f32⟩ : BufTy).Contents (Elt F) → (⟨S200000x1, .f32⟩ : BufTy).Contents (Elt F) → (⟨S200000x1, .i1⟩ : BufTy).Contents (Elt F)),
    nullary main_cst_0 (constant S_ .f32 0x3E4CCCCD#32),
    unary main_cst_0 main_v42 (broadcastInDim S200000x1 ![] bcast_S_S200000x1 : (⟨S_, .f32⟩ : BufTy).Contents (Elt F) → (⟨S200000x1, .f32⟩ : BufTy).Contents (Elt F)),
    binary main_v42 main_v39 main_v43 (mulf : (⟨S200000x1, .f32⟩ : BufTy).Contents (Elt F) → (⟨S200000x1, .f32⟩ : BufTy).Contents (Elt F) → (⟨S200000x1, .f32⟩ : BufTy).Contents (Elt F)),
    ternary main_v41 main_v39 main_v43 main_v44 (select : (⟨S200000x1, .i1⟩ : BufTy).Contents (Elt F) → (⟨S200000x1, .f32⟩ : BufTy).Contents (Elt F) → (⟨S200000x1, .f32⟩ : BufTy).Contents (Elt F) → (⟨S200000x1, .f32⟩ : BufTy).Contents (Elt F)),
    unary main_v44 main_v45 (Host.exp : (⟨S200000x1, .f32⟩ : BufTy).Contents (Elt F) → (⟨S200000x1, .f32⟩ : BufTy).Contents (Elt F)) ]

/-- The buffers those operations write, in order. -/
abbrev b9_W : List (Ref sig .tc) :=
  [main_v32, main_v33, main_v34, main_v35, main_v36, main_v37, main_v38, main_v39, main_cst, main_v40,
   main_v41, main_cst_0, main_v42, main_v43, main_v44, main_v45]

set_option maxRecDepth 8192 in
set_option maxHeartbeats 4000000 in
theorem b9_writes : (b9 : List (HloOp τ sig (Elt F))).Forall fun op =>
    op.writes ⊆ (b9_W.map (Proc.devRef (τ := τ) .tc)).toFinset := by
  simp only [List.Forall]
  refine ⟨?_, ?_, ?_, ?_, ?_, ?_, ?_, ?_, ?_, ?_, ?_, ?_, ?_, ?_, ?_, ?_⟩
  all_goals (simp only [nullary_writes, unary_writes, binary_writes, ternary_writes, reshape_writes, Finset.singleton_subset_iff, List.mem_toFinset]; exact List.mem_map_of_mem (by decide))

set_option maxRecDepth 8192 in
set_option maxHeartbeats 4000000 in
/-- After the statements, from any contents, %34's buffer holds the stage function of what its operands' buffers then hold. -/
theorem b9_v34 (U : Valuation τ sig (Elt Ideal)) :
    after b9 U (Proc.devRef .tc main_v34) = f_bRow0 (F := Ideal) (after b9 U (Proc.devRef .tc main_arg11)) := by
  unfold f_bRow0
  simp only [b9]
  after_results_simp
  all_goals rfl

set_option maxRecDepth 8192 in
set_option maxHeartbeats 4000000 in
/-- After the statements, from any contents, %36's buffer holds the stage function of what its operands' buffers then hold. -/
theorem b9_v36 (U : Valuation τ sig (Elt Ideal)) :
    after b9 U (Proc.devRef .tc main_v36) = f_score (F := Ideal) (after b9 U (Proc.devRef .tc main_v17)) (after b9 U (Proc.devRef .tc main_v31)) := by
  unfold f_score
  simp only [b9]
  after_results_simp
  all_goals rfl

set_option maxRecDepth 8192 in
set_option maxHeartbeats 4000000 in
/-- After the statements, from any contents, %37's buffer holds the stage function of what its operands' buffers then hold. -/
theorem b9_v37 (U : Valuation τ sig (Elt Ideal)) :
    after b9 U (Proc.devRef .tc main_v37) = f_score (F := Ideal) (after b9 U (Proc.devRef .tc main_v25)) (after b9 U (Proc.devRef .tc main_v34)) := by
  unfold f_score
  simp only [b9]
  after_results_simp
  all_goals rfl

set_option maxRecDepth 8192 in
set_option maxHeartbeats 4000000 in
/-- After the statements, from any contents, %45's buffer holds the stage function of what its operands' buffers then hold. -/
theorem b9_v45 (U : Valuation τ sig (Elt Ideal)) :
    after b9 U (Proc.devRef .tc main_v45) = f_selfWeight (F := Ideal) (after b9 U (Proc.devRef .tc main_v17)) (after b9 U (Proc.devRef .tc main_v31)) (after b9 U (Proc.devRef .tc main_v34)) := by
  unfold f_selfWeight
  simp only [b9]
  after_results_simp
  all_goals rfl

/-- The entry function's statements 49 … 57, as the list of their operations. -/
abbrev b10 : List (HloOp τ sig (Elt F)) :=
  [ nullary main_c (constantI S_ 32 0#32),
    unary main_c main_v46 (broadcastInDim S2000000 ![] bcast_S_S2000000 : (⟨S_, .i32⟩ : BufTy).Contents (Elt F) → (⟨S2000000, .i32⟩ : BufTy).Contents (Elt F)),
    binary main_v27 main_v46 main_v47 (cmpi .slt : (⟨S2000000, .i32⟩ : BufTy).Contents (Elt F) → (⟨S2000000, .i32⟩ : BufTy).Contents (Elt F) → (⟨S2000000, .i1⟩ : BufTy).Contents (Elt F)),
    nullary main_c_1 (constantI S_ 32 200000#32),
    unary main_c_1 main_v48 (broadcastInDim S2000000 ![] bcast_S_S2000000 : (⟨S_, .i32⟩ : BufTy).Contents (Elt F) → (⟨S2000000, .i32⟩ : BufTy).Contents (Elt F)),
    binary main_v27 main_v48 main_v49 (addi : (⟨S2000000, .i32⟩ : BufTy).Contents (Elt F) → (⟨S2000000, .i32⟩ : BufTy).Contents (Elt F) → (⟨S2000000, .i32⟩ : BufTy).Contents (Elt F)),
    ternary main_v47 main_v49 main_v27 main_v50 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v50 main_v51 (broadcastInDim S2000000x1 ![0] bcast_S2000000_S2000000x1_0 : (⟨S2000000, .i32⟩ : BufTy).Contents (Elt F) → (⟨S2000000x1, .i32⟩ : BufTy).Contents (Elt F)),
    binary main_v36 main_v51 main_v52 ((fun x i => Host.gather gather_S200000x1_S2000000x1_S2000000x1_1_0_n_n_0_1_11 x i) : (⟨S200000x1, .f32⟩ : BufTy).Contents (Elt F) → (⟨S2000000x1, .i32⟩ : BufTy).Contents (Elt F) → (⟨S2000000x1, .f32⟩ : BufTy).Contents (Elt F)) ]

/-- The buffers those operations write, in order. -/
abbrev b10_W : List (Ref sig .tc) :=
  [main_c, main_v46, main_v47, main_c_1, main_v48, main_v49, main_v50, main_v51, main_v52]

set_option maxRecDepth 8192 in
set_option maxHeartbeats 4000000 in
theorem b10_writes : (b10 : List (HloOp τ sig (Elt F))).Forall fun op =>
    op.writes ⊆ (b10_W.map (Proc.devRef (τ := τ) .tc)).toFinset := by
  simp only [List.Forall]
  refine ⟨?_, ?_, ?_, ?_, ?_, ?_, ?_, ?_, ?_⟩
  all_goals (simp only [nullary_writes, unary_writes, binary_writes, ternary_writes, reshape_writes, Finset.singleton_subset_iff, List.mem_toFinset]; exact List.mem_map_of_mem (by decide))

set_option maxRecDepth 8192 in
set_option maxHeartbeats 4000000 in
/-- After the statements, from any contents, %52's buffer holds the stage function of what its operands' buffers then hold. -/
theorem b10_v52 (U : Valuation τ sig (Elt Ideal)) :
    after b10 U (Proc.devRef .tc main_v52) = f_gCol (F := Ideal) (after b10 U (Proc.devRef .tc main_v36)) (after b10 U (Proc.devRef .tc main_v27)) := by
  unfold f_gCol
  simp only [b10]
  after_results_simp
  all_goals rfl

/-- The entry function's statements 58 … 66, as the list of their operations. -/
abbrev b11 : List (HloOp τ sig (Elt F)) :=
  [ nullary main_c_2 (constantI S_ 32 0#32),
    unary main_c_2 main_v53 (broadcastInDim S2000000 ![] bcast_S_S2000000 : (⟨S_, .i32⟩ : BufTy).Contents (Elt F) → (⟨S2000000, .i32⟩ : BufTy).Contents (Elt F)),
    binary main_v29 main_v53 main_v54 (cmpi .slt : (⟨S2000000, .i32⟩ : BufTy).Contents (Elt F) → (⟨S2000000, .i32⟩ : BufTy).Contents (Elt F) → (⟨S2000000, .i1⟩ : BufTy).Contents (Elt F)),
    nullary main_c_3 (constantI S_ 32 200000#32),
    unary main_c_3 main_v55 (broadcastInDim S2000000 ![] bcast_S_S2000000 : (⟨S_, .i32⟩ : BufTy).Contents (Elt F) → (⟨S2000000, .i32⟩ : BufTy).Contents (Elt F)),
    binary main_v29 main_v55 main_v56 (addi : (⟨S2000000, .i32⟩ : BufTy).Contents (Elt F) → (⟨S2000000, .i32⟩ : BufTy).Contents (Elt F) → (⟨S2000000, .i32⟩ : BufTy).Contents (Elt F)),
    ternary main_v54 main_v56 main_v29 main_v57 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v57 main_v58 (broadcastInDim S2000000x1 ![0] bcast_S2000000_S2000000x1_0 : (⟨S2000000, .i32⟩ : BufTy).Contents (Elt F) → (⟨S2000000x1, .i32⟩ : BufTy).Contents (Elt F)),
    binary main_v37 main_v58 main_v59 ((fun x i => Host.gather gather_S200000x1_S2000000x1_S2000000x1_1_0_n_n_0_1_11 x i) : (⟨S200000x1, .f32⟩ : BufTy).Contents (Elt F) → (⟨S2000000x1, .i32⟩ : BufTy).Contents (Elt F) → (⟨S2000000x1, .f32⟩ : BufTy).Contents (Elt F)) ]

/-- The buffers those operations write, in order. -/
abbrev b11_W : List (Ref sig .tc) :=
  [main_c_2, main_v53, main_v54, main_c_3, main_v55, main_v56, main_v57, main_v58, main_v59]

set_option maxRecDepth 8192 in
set_option maxHeartbeats 4000000 in
theorem b11_writes : (b11 : List (HloOp τ sig (Elt F))).Forall fun op =>
    op.writes ⊆ (b11_W.map (Proc.devRef (τ := τ) .tc)).toFinset := by
  simp only [List.Forall]
  refine ⟨?_, ?_, ?_, ?_, ?_, ?_, ?_, ?_, ?_⟩
  all_goals (simp only [nullary_writes, unary_writes, binary_writes, ternary_writes, reshape_writes, Finset.singleton_subset_iff, List.mem_toFinset]; exact List.mem_map_of_mem (by decide))

set_option maxRecDepth 8192 in
set_option maxHeartbeats 4000000 in
/-- After the statements, from any contents, %59's buffer holds the stage function of what its operands' buffers then hold. -/
theorem b11_v59 (U : Valuation τ sig (Elt Ideal)) :
    after b11 U (Proc.devRef .tc main_v59) = f_gCol (F := Ideal) (after b11 U (Proc.devRef .tc main_v37)) (after b11 U (Proc.devRef .tc main_v29)) := by
  unfold f_gCol
  simp only [b11]
  after_results_simp
  all_goals rfl

end Cert.ReferenceIdeal.RefRun

end
-- ==== Proof.RefBlocksB.lean ====
/-
  The reference program's host operations, statements 67 … 101 of its entry function, cut into
  stretches.  For each stretch: its operations as a list, the buffers they write, and, for each of the network's
  values computed in it, the statement that after the stretch, from any contents, the value's buffer holds the
  stage function applied to what the buffers of the stage's operands hold after the stretch (an operand computed
  before the stretch is untouched by it, one computed inside it is read at its computed value: no buffer is written
  twice).
-/
import proofs.«154843_j76682346102829_2_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The entry function's statements 67 … 101, as the list of their operations. -/
abbrev b12 : List (HloOp τ sig (Elt F)) :=
  [ binary main_v52 main_v59 main_v60 (addf : (⟨S2000000x1, .f32⟩ : BufTy).Contents (Elt F) → (⟨S2000000x1, .f32⟩ : BufTy).Contents (Elt F) → (⟨S2000000x1, .f32⟩ : BufTy).Contents (Elt F)),
    nullary main_cst_4 (constant S_ .f32 0x00000000#32),
    unary main_cst_4 main_v61 (broadcastInDim S2000000x1 ![] bcast_S_S2000000x1 : (⟨S_, .f32⟩ : BufTy).Contents (Elt F) → (⟨S2000000x1, .f32⟩ : BufTy).Contents (Elt F)),
    binary main_v60 main_v61 main_v62 (cmpf .ogt : (⟨S2000000x1, .f32⟩ : BufTy).Contents (Elt F) → (⟨S2000000x1, .f32⟩ : BufTy).Contents (Elt F) → (⟨S2000000x1, .i1⟩ : BufTy).Contents (Elt F)),
    nullary main_cst_5 (constant S_ .f32 0x3E4CCCCD#32),
    unary main_cst_5 main_v63 (broadcastInDim S2000000x1 ![] bcast_S_S2000000x1 : (⟨S_, .f32⟩ : BufTy).Contents (Elt F) → (⟨S2000000x1, .f32⟩ : BufTy).Contents (Elt F)),
    binary main_v63 main_v60 main_v64 (mulf : (⟨S2000000x1, .f32⟩ : BufTy).Contents (Elt F) → (⟨S2000000x1, .f32⟩ : BufTy).Contents (Elt F) → (⟨S2000000x1, .f32⟩ : BufTy).Contents (Elt F)),
    ternary main_v62 main_v60 main_v64 main_v65 (select : (⟨S2000000x1, .i1⟩ : BufTy).Contents (Elt F) → (⟨S2000000x1, .f32⟩ : BufTy).Contents (Elt F) → (⟨S2000000x1, .f32⟩ : BufTy).Contents (Elt F) → (⟨S2000000x1, .f32⟩ : BufTy).Contents (Elt F)),
    unary main_v65 main_v66 (Host.exp : (⟨S2000000x1, .f32⟩ : BufTy).Contents (Elt F) → (⟨S2000000x1, .f32⟩ : BufTy).Contents (Elt F)),
    nullary main_cst_6 (constant S_ .f32 0x00000000#32),
    unary main_cst_6 main_v67 (broadcastInDim S200000x1 ![] bcast_S_S200000x1 : (⟨S_, .f32⟩ : BufTy).Contents (Elt F) → (⟨S200000x1, .f32⟩ : BufTy).Contents (Elt F)),
    unary main_v27 main_v68 (broadcastInDim S2000000x1 ![0] bcast_S2000000_S2000000x1_0 : (⟨S2000000, .i32⟩ : BufTy).Contents (Elt F) → (⟨S2000000x1, .i32⟩ : BufTy).Contents (Elt F)),
    ternary main_v67 main_v68 main_v66 main_v69 ((fun x i u => Host.scatterAdd scatter_S200000x1_S2000000x1_S2000000x1_1_0_0_1 x i u) : (⟨S200000x1, .f32⟩ : BufTy).Contents (Elt F) → (⟨S2000000x1, .i32⟩ : BufTy).Contents (Elt F) → (⟨S2000000x1, .f32⟩ : BufTy).Contents (Elt F) → (⟨S200000x1, .f32⟩ : BufTy).Contents (Elt F)),
    binary main_v69 main_v45 main_v70 (addf : (⟨S200000x1, .f32⟩ : BufTy).Contents (Elt F) → (⟨S200000x1, .f32⟩ : BufTy).Contents (Elt F) → (⟨S200000x1, .f32⟩ : BufTy).Contents (Elt F)),
    nullary main_c_7 (constantI S_ 32 0#32),
    unary main_c_7 main_v71 (broadcastInDim S2000000 ![] bcast_S_S2000000 : (⟨S_, .i32⟩ : BufTy).Contents (Elt F) → (⟨S2000000, .i32⟩ : BufTy).Contents (Elt F)),
    binary main_v29 main_v71 main_v72 (cmpi .slt : (⟨S2000000, .i32⟩ : BufTy).Contents (Elt F) → (⟨S2000000, .i32⟩ : BufTy).Contents (Elt F) → (⟨S2000000, .i1⟩ : BufTy).Contents (Elt F)),
    nullary main_c_8 (constantI S_ 32 200000#32),
    unary main_c_8 main_v73 (broadcastInDim S2000000 ![] bcast_S_S2000000 : (⟨S_, .i32⟩ : BufTy).Contents (Elt F) → (⟨S2000000, .i32⟩ : BufTy).Contents (Elt F)),
    binary main_v29 main_v73 main_v74 (addi : (⟨S2000000, .i32⟩ : BufTy).Contents (Elt F) → (⟨S2000000, .i32⟩ : BufTy).Contents (Elt F) → (⟨S2000000, .i32⟩ : BufTy).Contents (Elt F)),
    ternary main_v72 main_v74 main_v29 main_v75 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v75 main_v76 (broadcastInDim S2000000x1 ![0] bcast_S2000000_S2000000x1_0 : (⟨S2000000, .i32⟩ : BufTy).Contents (Elt F) → (⟨S2000000x1, .i32⟩ : BufTy).Contents (Elt F)),
    binary main_v25 main_v76 main_v77 ((fun x i => Host.gather gather_S200000x64_S2000000x1_S2000000x64_1_0_n_n_0_1_164 x i) : (⟨S200000x64, .f32⟩ : BufTy).Contents (Elt F) → (⟨S2000000x1, .i32⟩ : BufTy).Contents (Elt F) → (⟨S2000000x64, .f32⟩ : BufTy).Contents (Elt F)),
    unary main_v66 main_v78 (broadcastInDim S2000000x64 ![0, 1] bcast_S2000000x1_S2000000x64_0_1 : (⟨S2000000x1, .f32⟩ : BufTy).Contents (Elt F) → (⟨S2000000x64, .f32⟩ : BufTy).Contents (Elt F)),
    binary main_v78 main_v77 main_v79 (mulf : (⟨S2000000x64, .f32⟩ : BufTy).Contents (Elt F) → (⟨S2000000x64, .f32⟩ : BufTy).Contents (Elt F) → (⟨S2000000x64, .f32⟩ : BufTy).Contents (Elt F)),
    nullary main_cst_9 (constant S_ .f32 0x00000000#32),
    unary main_cst_9 main_v80 (broadcastInDim S200000x64 ![] bcast_S_S200000x64 : (⟨S_, .f32⟩ : BufTy).Contents (Elt F) → (⟨S200000x64, .f32⟩ : BufTy).Contents (Elt F)),
    unary main_v27 main_v81 (broadcastInDim S2000000x1 ![0] bcast_S2000000_S2000000x1_0 : (⟨S2000000, .i32⟩ : BufTy).Contents (Elt F) → (⟨S2000000x1, .i32⟩ : BufTy).Contents (Elt F)),
    ternary main_v80 main_v81 main_v79 main_v82 ((fun x i u => Host.scatterAdd scatter_S200000x64_S2000000x1_S2000000x64_1_0_0_1 x i u) : (⟨S200000x64, .f32⟩ : BufTy).Contents (Elt F) → (⟨S2000000x1, .i32⟩ : BufTy).Contents (Elt F) → (⟨S2000000x64, .f32⟩ : BufTy).Contents (Elt F) → (⟨S200000x64, .f32⟩ : BufTy).Contents (Elt F)),
    unary main_v45 main_v83 (broadcastInDim S200000x64 ![0, 1] bcast_S200000x1_S200000x64_0_1 : (⟨S200000x1, .f32⟩ : BufTy).Contents (Elt F) → (⟨S200000x64, .f32⟩ : BufTy).Contents (Elt F)),
    binary main_v83 main_v17 main_v84 (mulf : (⟨S200000x64, .f32⟩ : BufTy).Contents (Elt F) → (⟨S200000x64, .f32⟩ : BufTy).Contents (Elt F) → (⟨S200000x64, .f32⟩ : BufTy).Contents (Elt F)),
    binary main_v82 main_v84 main_v85 (addf : (⟨S200000x64, .f32⟩ : BufTy).Contents (Elt F) → (⟨S200000x64, .f32⟩ : BufTy).Contents (Elt F) → (⟨S200000x64, .f32⟩ : BufTy).Contents (Elt F)),
    unary main_v70 main_v86 (broadcastInDim S200000x64 ![0, 1] bcast_S200000x1_S200000x64_0_1 : (⟨S200000x1, .f32⟩ : BufTy).Contents (Elt F) → (⟨S200000x64, .f32⟩ : BufTy).Contents (Elt F)),
    binary main_v85 main_v86 main_v87 (Host.divf : (⟨S200000x64, .f32⟩ : BufTy).Contents (Elt F) → (⟨S200000x64, .f32⟩ : BufTy).Contents (Elt F) → (⟨S200000x64, .f32⟩ : BufTy).Contents (Elt F)),
    nullary main_call4_cst (constant S_ .f32 0x00000000#32),
    unary main_call4_cst main_call4_v0 (broadcastInDim S200000x64 ![] bcast_S_S200000x64 : (⟨S_, .f32⟩ : BufTy).Contents (Elt F) → (⟨S200000x64, .f32⟩ : BufTy).Contents (Elt F)),
    binary main_v87 main_call4_v0 main_call4_v1 (cmpf .ogt : (⟨S200000x64, .f32⟩ : BufTy).Contents (Elt F) → (⟨S200000x64, .f32⟩ : BufTy).Contents (Elt F) → (⟨S200000x64, .i1⟩ : BufTy).Contents (Elt F)),
    nullary main_call4_cst_0 (constant S_ .f32 0x00000000#32),
    unary main_call4_cst_0 main_call4_v2 (broadcastInDim S200000x64 ![] bcast_S_S200000x64 : (⟨S_, .f32⟩ : BufTy).Contents (Elt F) → (⟨S200000x64, .f32⟩ : BufTy).Contents (Elt F)),
    binary main_v87 main_call4_v2 main_call4_v3 (cmpf .ogt : (⟨S200000x64, .f32⟩ : BufTy).Contents (Elt F) → (⟨S200000x64, .f32⟩ : BufTy).Contents (Elt F) → (⟨S200000x64, .i1⟩ : BufTy).Contents (Elt F)),
    nullary main_call4_cst_1 (constant S_ .f32 0x00000000#32),
    unary main_call4_cst_1 main_call4_call0_v0 (id : (⟨S_, .f32⟩ : BufTy).Contents (Elt F) → (⟨S_, .f32⟩ : BufTy).Contents (Elt F)),
    unary main_call4_call0_v0 main_call4_call0_v1 (broadcastInDim S200000x64 ![] bcast_S_S200000x64 : (⟨S_, .f32⟩ : BufTy).Contents (Elt F) → (⟨S200000x64, .f32⟩ : BufTy).Contents (Elt F)),
    ternary main_call4_v3 main_call4_call0_v1 main_v87 main_call4_v4 (select : (⟨S200000x64, .i1⟩ : BufTy).Contents (Elt F) → (⟨S200000x64, .f32⟩ : BufTy).Contents (Elt F) → (⟨S200000x64, .f32⟩ : BufTy).Contents (Elt F) → (⟨S200000x64, .f32⟩ : BufTy).Contents (Elt F)),
    unary main_call4_v4 main_call4_v5 (Host.expm1 : (⟨S200000x64, .f32⟩ : BufTy).Contents (Elt F) → (⟨S200000x64, .f32⟩ : BufTy).Contents (Elt F)),
    nullary main_call4_cst_2 (constant S_ .f32 0x3F800000#32),
    unary main_call4_cst_2 main_call4_v6 (broadcastInDim S200000x64 ![] bcast_S_S200000x64 : (⟨S_, .f32⟩ : BufTy).Contents (Elt F) → (⟨S200000x64, .f32⟩ : BufTy).Contents (Elt F)),
    binary main_call4_v6 main_call4_v5 main_call4_v7 (mulf : (⟨S200000x64, .f32⟩ : BufTy).Contents (Elt F) → (⟨S200000x64, .f32⟩ : BufTy).Contents (Elt F) → (⟨S200000x64, .f32⟩ : BufTy).Contents (Elt F)),
    ternary main_call4_v1 main_v87 main_call4_v7 main_v88 (select : (⟨S200000x64, .i1⟩ : BufTy).Contents (Elt F) → (⟨S200000x64, .f32⟩ : BufTy).Contents (Elt F) → (⟨S200000x64, .f32⟩ : BufTy).Contents (Elt F) → (⟨S200000x64, .f32⟩ : BufTy).Contents (Elt F)) ]

/-- The buffers those operations write, in order. -/
abbrev b12_W : List (Ref sig .tc) :=
  [main_v60, main_cst_4, main_v61, main_v62, main_cst_5, main_v63, main_v64, main_v65, main_v66, main_cst_6,
   main_v67, main_v68, main_v69, main_v70, main_c_7, main_v71, main_v72, main_c_8, main_v73, main_v74,
   main_v75, main_v76, main_v77, main_v78, main_v79, main_cst_9, main_v80, main_v81, main_v82, main_v83,
   main_v84, main_v85, main_v86, main_v87, main_call4_cst, main_call4_v0, main_call4_v1, main_call4_cst_0, main_call4_v2, main_call4_v3,
   main_call4_cst_1, main_call4_call0_v0, main_call4_call0_v1, main_call4_v4, main_call4_v5, main_call4_cst_2, main_call4_v6, main_call4_v7, main_v88]

set_option maxRecDepth 8192 in
set_option maxHeartbeats 4000000 in
theorem b12_writes : (b12 : List (HloOp τ sig (Elt F))).Forall fun op =>
    op.writes ⊆ (b12_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (simp only [nullary_writes, unary_writes, binary_writes, ternary_writes, reshape_writes, Finset.singleton_subset_iff, List.mem_toFinset]; exact List.mem_map_of_mem (by decide))

set_option maxRecDepth 8192 in
set_option maxHeartbeats 4000000 in
/-- After the statements, from any contents, %66's buffer holds the stage function of what its operands' buffers then hold. -/
theorem b12_v66 (U : Valuation τ sig (Elt Ideal)) :
    after b12 U (Proc.devRef .tc main_v66) = f_edgeW (F := Ideal) (after b12 U (Proc.devRef .tc main_v52)) (after b12 U (Proc.devRef .tc main_v59)) := by
  unfold f_edgeW
  simp only [b12]
  after_results_simp
  all_goals rfl

set_option maxRecDepth 8192 in
set_option maxHeartbeats 4000000 in
/-- After the statements, from any contents, %69's buffer holds the stage function of what its operands' buffers then hold. -/
theorem b12_v69 (U : Valuation τ sig (Elt Ideal)) :
    after b12 U (Proc.devRef .tc main_v69) = f_segCol (F := Ideal) (after b12 U (Proc.devRef .tc main_v27)) (after b12 U (Proc.devRef .tc main_v66)) := by
  unfold f_segCol
  simp only [b12]
  after_results_simp
  all_goals rfl

set_option maxRecDepth 8192 in
set_option maxHeartbeats 4000000 in
/-- After the statements, from any contents, %77's buffer holds the stage function of what its operands' buffers then hold. -/
theorem b12_v77 (U : Valuation τ sig (Elt Ideal)) :
    after b12 U (Proc.devRef .tc main_v77) = f_gRow (F := Ideal) (after b12 U (Proc.devRef .tc main_v25)) (after b12 U (Proc.devRef .tc main_v29)) := by
  unfold f_gRow
  simp only [b12]
  after_results_simp
  all_goals rfl

set_option maxRecDepth 8192 in
set_option maxHeartbeats 4000000 in
/-- After the statements, from any contents, %79's buffer holds the stage function of what its operands' buffers then hold. -/
theorem b12_v79 (U : Valuation τ sig (Elt Ideal)) :
    after b12 U (Proc.devRef .tc main_v79) = f_edgeWH (F := Ideal) (after b12 U (Proc.devRef .tc main_v52)) (after b12 U (Proc.devRef .tc main_v59)) (after b12 U (Proc.devRef .tc main_v77)) := by
  unfold f_edgeWH
  simp only [b12]
  after_results_simp
  all_goals rfl

set_option maxRecDepth 8192 in
set_option maxHeartbeats 4000000 in
/-- After the statements, from any contents, %82's buffer holds the stage function of what its operands' buffers then hold. -/
theorem b12_v82 (U : Valuation τ sig (Elt Ideal)) :
    after b12 U (Proc.devRef .tc main_v82) = f_segRow (F := Ideal) (after b12 U (Proc.devRef .tc main_v27)) (after b12 U (Proc.devRef .tc main_v79)) := by
  unfold f_segRow
  simp only [b12]
  after_results_simp
  all_goals rfl

set_option maxRecDepth 8192 in
set_option maxHeartbeats 4000000 in
/-- After the statements, from any contents, %88's buffer holds the stage function of what its operands' buffers then hold. -/
theorem b12_v88 (U : Valuation τ sig (Elt Ideal)) :
    after b12 U (Proc.devRef .tc main_v88) = f_norm (F := Ideal) (after b12 U (Proc.devRef .tc main_v82)) (after b12 U (Proc.devRef .tc main_v69)) (after b12 U (Proc.devRef .tc main_v45)) (after b12 U (Proc.devRef .tc main_v17)) := by
  unfold f_norm
  simp only [b12]
  after_results_simp
  all_goals rfl

end Cert.ReferenceIdeal.RefRun

end
-- ==== Proof.RefBlocksC.lean ====
/-
  The reference program's host operations, statements 102 … 141 of its entry function, cut into
  stretches.  For each stretch: its operations as a list, the buffers they write, and, for each of the network's
  values computed in it, the statement that after the stretch, from any contents, the value's buffer holds the
  stage function applied to what the buffers of the stage's operands hold after the stretch (an operand computed
  before the stretch is untouched by it, one computed inside it is read at its computed value: no buffer is written
  twice).
-/
import proofs.«154843_j76682346102829_2_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The entry function's statements 102 … 103, as the list of their operations. -/
abbrev b13 : List (HloOp τ sig (Elt F)) :=
  [ unary main_arg3 main_v89 ((extractStridedSlice S1x2000000 ![0, 0] · slices_S2x2000000_S1x2000000_0_0) : (⟨S2x2000000, .i32⟩ : BufTy).Contents (Elt F) → (⟨S1x2000000, .i32⟩ : BufTy).Contents (Elt F)),
    reshape main_v89 main_v90 rfl shapeCasts_S1x2000000_S2000000 ]

/-- The buffers those operations write, in order. -/
abbrev b13_W : List (Ref sig .tc) :=
  [main_v89, main_v90]

set_option maxRecDepth 8192 in
set_option maxHeartbeats 4000000 in
theorem b13_writes : (b13 : List (HloOp τ sig (Elt F))).Forall fun op =>
    op.writes ⊆ (b13_W.map (Proc.devRef (τ := τ) .tc)).toFinset := by
  simp only [List.Forall]
  refine ⟨?_, ?_⟩
  all_goals (simp only [nullary_writes, unary_writes, binary_writes, ternary_writes, reshape_writes, Finset.singleton_subset_iff, List.mem_toFinset]; exact List.mem_map_of_mem (by decide))

set_option maxRecDepth 8192 in
set_option maxHeartbeats 4000000 in
/-- After the statements, from any contents, %90's buffer holds the stage function of what its operands' buffers then hold. -/
theorem b13_v90 (U : Valuation τ sig (Elt Ideal)) :
    after b13 U (Proc.devRef .tc main_v90) = f_iRow0 (F := Ideal) (after b13 U (Proc.devRef .tc main_arg3)) := by
  unfold f_iRow0
  simp only [b13]
  after_results_simp
  all_goals rfl

/-- The entry function's statements 104 … 105, as the list of their operations. -/
abbrev b14 : List (HloOp τ sig (Elt F)) :=
  [ unary main_arg3 main_v91 ((extractStridedSlice S1x2000000 ![1, 0] · slices_S2x2000000_S1x2000000_1_0) : (⟨S2x2000000, .i32⟩ : BufTy).Contents (Elt F) → (⟨S1x2000000, .i32⟩ : BufTy).Contents (Elt F)),
    reshape main_v91 main_v92 rfl shapeCasts_S1x2000000_S2000000 ]

/-- The buffers those operations write, in order. -/
abbrev b14_W : List (Ref sig .tc) :=
  [main_v91, main_v92]

set_option maxRecDepth 8192 in
set_option maxHeartbeats 4000000 in
theorem b14_writes : (b14 : List (HloOp τ sig (Elt F))).Forall fun op =>
    op.writes ⊆ (b14_W.map (Proc.devRef (τ := τ) .tc)).toFinset := by
  simp only [List.Forall]
  refine ⟨?_, ?_⟩
  all_goals (simp only [nullary_writes, unary_writes, binary_writes, ternary_writes, reshape_writes, Finset.singleton_subset_iff, List.mem_toFinset]; exact List.mem_map_of_mem (by decide))

set_option maxRecDepth 8192 in
set_option maxHeartbeats 4000000 in
/-- After the statements, from any contents, %92's buffer holds the stage function of what its operands' buffers then hold. -/
theorem b14_v92 (U : Valuation τ sig (Elt Ideal)) :
    after b14 U (Proc.devRef .tc main_v92) = f_iRow1 (F := Ideal) (after b14 U (Proc.devRef .tc main_arg3)) := by
  unfold f_iRow1
  simp only [b14]
  after_results_simp
  all_goals rfl

/-- The entry function's statements 106 … 107, as the list of their operations. -/
abbrev b15 : List (HloOp τ sig (Elt F)) :=
  [ unary main_arg12 main_v93 ((extractStridedSlice S1x64 ![0, 0] · slices_S2x64_S1x64_0_0) : (⟨S2x64, .f32⟩ : BufTy).Contents (Elt F) → (⟨S1x64, .f32⟩ : BufTy).Contents (Elt F)),
    reshape main_v93 main_v94 rfl shapeCasts_S1x64_S64 ]

/-- The buffers those operations write, in order. -/
abbrev b15_W : List (Ref sig .tc) :=
  [main_v93, main_v94]

set_option maxRecDepth 8192 in
set_option maxHeartbeats 4000000 in
theorem b15_writes : (b15 : List (HloOp τ sig (Elt F))).Forall fun op =>
    op.writes ⊆ (b15_W.map (Proc.devRef (τ := τ) .tc)).toFinset := by
  simp only [List.Forall]
  refine ⟨?_, ?_⟩
  all_goals (simp only [nullary_writes, unary_writes, binary_writes, ternary_writes, reshape_writes, Finset.singleton_subset_iff, List.mem_toFinset]; exact List.mem_map_of_mem (by decide))

set_option maxRecDepth 8192 in
set_option maxHeartbeats 4000000 in
/-- After the statements, from any contents, %94's buffer holds the stage function of what its operands' buffers then hold. -/
theorem b15_v94 (U : Valuation τ sig (Elt Ideal)) :
    after b15 U (Proc.devRef .tc main_v94) = f_bRow0 (F := Ideal) (after b15 U (Proc.devRef .tc main_arg12)) := by
  unfold f_bRow0
  simp only [b15]
  after_results_simp
  all_goals rfl

/-- The entry function's statements 108 … 123, as the list of their operations. -/
abbrev b16 : List (HloOp τ sig (Elt F)) :=
  [ unary main_v94 main_v95 (broadcastInDim S64x1 ![0] bcast_S64_S64x1_0 : (⟨S64, .f32⟩ : BufTy).Contents (Elt F) → (⟨S64x1, .f32⟩ : BufTy).Contents (Elt F)),
    unary main_arg13 main_v96 ((extractStridedSlice S1x64 ![0, 0] · slices_S2x64_S1x64_0_0) : (⟨S2x64, .f32⟩ : BufTy).Contents (Elt F) → (⟨S1x64, .f32⟩ : BufTy).Contents (Elt F)),
    reshape main_v96 main_v97 rfl shapeCasts_S1x64_S64,
    unary main_v97 main_v98 (broadcastInDim S64x1 ![0] bcast_S64_S64x1_0 : (⟨S64, .f32⟩ : BufTy).Contents (Elt F) → (⟨S64x1, .f32⟩ : BufTy).Contents (Elt F)),
    binary main_v25 main_v95 main_v99 ((fun l r => Host.dotGeneral dot_S200000x64_S64x1_S200000x1_1_0_0_1_n_n none l r) : (⟨S200000x64, .f32⟩ : BufTy).Contents (Elt F) → (⟨S64x1, .f32⟩ : BufTy).Contents (Elt F) → (⟨S200000x1, .f32⟩ : BufTy).Contents (Elt F)),
    binary main_v17 main_v98 main_v100 ((fun l r => Host.dotGeneral dot_S200000x64_S64x1_S200000x1_1_0_0_1_n_n none l r) : (⟨S200000x64, .f32⟩ : BufTy).Contents (Elt F) → (⟨S64x1, .f32⟩ : BufTy).Contents (Elt F) → (⟨S200000x1, .f32⟩ : BufTy).Contents (Elt F)),
    binary main_v25 main_v98 main_v101 ((fun l r => Host.dotGeneral dot_S200000x64_S64x1_S200000x1_1_0_0_1_n_n none l r) : (⟨S200000x64, .f32⟩ : BufTy).Contents (Elt F) → (⟨S64x1, .f32⟩ : BufTy).Contents (Elt F) → (⟨S200000x1, .f32⟩ : BufTy).Contents (Elt F)),
    binary main_v99 main_v101 main_v102 (addf : (⟨S200000x1, .f32⟩ : BufTy).Contents (Elt F) → (⟨S200000x1, .f32⟩ : BufTy).Contents (Elt F) → (⟨S200000x1, .f32⟩ : BufTy).Contents (Elt F)),
    nullary main_cst_10 (constant S_ .f32 0x00000000#32),
    unary main_cst_10 main_v103 (broadcastInDim S200000x1 ![] bcast_S_S200000x1 : (⟨S_, .f32⟩ : BufTy).Contents (Elt F) → (⟨S200000x1, .f32⟩ : BufTy).Contents (Elt F)),
    binary main_v102 main_v103 main_v104 (cmpf .ogt : (⟨S200000x1, .f32⟩ : BufTy).Contents (Elt F) → (⟨S200000x1, .f32⟩ : BufTy).Contents (Elt F) → (⟨S200000x1, .i1⟩ : BufTy).Contents (Elt F)),
    nullary main_cst_11 (constant S_ .f32 0x3E4CCCCD#32),
    unary main_cst_11 main_v105 (broadcastInDim S200000x1 ![] bcast_S_S200000x1 : (⟨S_, .f32⟩ : BufTy).Contents (Elt F) → (⟨S200000x1, .f32⟩ : BufTy).Contents (Elt F)),
    binary main_v105 main_v102 main_v106 (mulf : (⟨S200000x1, .f32⟩ : BufTy).Contents (Elt F) → (⟨S200000x1, .f32⟩ : BufTy).Contents (Elt F) → (⟨S200000x1, .f32⟩ : BufTy).Contents (Elt F)),
    ternary main_v104 main_v102 main_v106 main_v107 (select : (⟨S200000x1, .i1⟩ : BufTy).Contents (Elt F) → (⟨S200000x1, .f32⟩ : BufTy).Contents (Elt F) → (⟨S200000x1, .f32⟩ : BufTy).Contents (Elt F) → (⟨S200000x1, .f32⟩ : BufTy).Contents (Elt F)),
    unary main_v107 main_v108 (Host.exp : (⟨S200000x1, .f32⟩ : BufTy).Contents (Elt F) → (⟨S200000x1, .f32⟩ : BufTy).Contents (Elt F)) ]

/-- The buffers those operations write, in order. -/
abbrev b16_W : List (Ref sig .tc) :=
  [main_v95, main_v96, main_v97, main_v98, main_v99, main_v100, main_v101, main_v102, main_cst_10, main_v103,
   main_v104, main_cst_11, main_v105, main_v106, main_v107, main_v108]

set_option maxRecDepth 8192 in
set_option maxHeartbeats 4000000 in
theorem b16_writes : (b16 : List (HloOp τ sig (Elt F))).Forall fun op =>
    op.writes ⊆ (b16_W.map (Proc.devRef (τ := τ) .tc)).toFinset := by
  simp only [List.Forall]
  refine ⟨?_, ?_, ?_, ?_, ?_, ?_, ?_, ?_, ?_, ?_, ?_, ?_, ?_, ?_, ?_, ?_⟩
  all_goals (simp only [nullary_writes, unary_writes, binary_writes, ternary_writes, reshape_writes, Finset.singleton_subset_iff, List.mem_toFinset]; exact List.mem_map_of_mem (by decide))

set_option maxRecDepth 8192 in
set_option maxHeartbeats 4000000 in
/-- After the statements, from any contents, %97's buffer holds the stage function of what its operands' buffers then hold. -/
theorem b16_v97 (U : Valuation τ sig (Elt Ideal)) :
    after b16 U (Proc.devRef .tc main_v97) = f_bRow0 (F := Ideal) (after b16 U (Proc.devRef .tc main_arg13)) := by
  unfold f_bRow0
  simp only [b16]
  after_results_simp
  all_goals rfl

set_option maxRecDepth 8192 in
set_option maxHeartbeats 4000000 in
/-- After the statements, from any contents, %99's buffer holds the stage function of what its operands' buffers then hold. -/
theorem b16_v99 (U : Valuation τ sig (Elt Ideal)) :
    after b16 U (Proc.devRef .tc main_v99) = f_score (F := Ideal) (after b16 U (Proc.devRef .tc main_v25)) (after b16 U (Proc.devRef .tc main_v94)) := by
  unfold f_score
  simp only [b16]
  after_results_simp
  all_goals rfl

set_option maxRecDepth 8192 in
set_option maxHeartbeats 4000000 in
/-- After the statements, from any contents, %100's buffer holds the stage function of what its operands' buffers then hold. -/
theorem b16_v100 (U : Valuation τ sig (Elt Ideal)) :
    after b16 U (Proc.devRef .tc main_v100) = f_score (F := Ideal) (after b16 U (Proc.devRef .tc main_v17)) (after b16 U (Proc.devRef .tc main_v97)) := by
  unfold f_score
  simp only [b16]
  after_results_simp
  all_goals rfl

set_option maxRecDepth 8192 in
set_option maxHeartbeats 4000000 in
/-- After the statements, from any contents, %108's buffer holds the stage function of what its operands' buffers then hold. -/
theorem b16_v108 (U : Valuation τ sig (Elt Ideal)) :
    after b16 U (Proc.devRef .tc main_v108) = f_selfWeight (F := Ideal) (after b16 U (Proc.devRef .tc main_v25)) (after b16 U (Proc.devRef .tc main_v94)) (after b16 U (Proc.devRef .tc main_v97)) := by
  unfold f_selfWeight
  simp only [b16]
  after_results_simp
  all_goals rfl

/-- The entry function's statements 124 … 132, as the list of their operations. -/
abbrev b17 : List (HloOp τ sig (Elt F)) :=
  [ nullary main_c_12 (constantI S_ 32 0#32),
    unary main_c_12 main_v109 (broadcastInDim S2000000 ![] bcast_S_S2000000 : (⟨S_, .i32⟩ : BufTy).Contents (Elt F) → (⟨S2000000, .i32⟩ : BufTy).Contents (Elt F)),
    binary main_v90 main_v109 main_v110 (cmpi .slt : (⟨S2000000, .i32⟩ : BufTy).Contents (Elt F) → (⟨S2000000, .i32⟩ : BufTy).Contents (Elt F) → (⟨S2000000, .i1⟩ : BufTy).Contents (Elt F)),
    nullary main_c_13 (constantI S_ 32 200000#32),
    unary main_c_13 main_v111 (broadcastInDim S2000000 ![] bcast_S_S2000000 : (⟨S_, .i32⟩ : BufTy).Contents (Elt F) → (⟨S2000000, .i32⟩ : BufTy).Contents (Elt F)),
    binary main_v90 main_v111 main_v112 (addi : (⟨S2000000, .i32⟩ : BufTy).Contents (Elt F) → (⟨S2000000, .i32⟩ : BufTy).Contents (Elt F) → (⟨S2000000, .i32⟩ : BufTy).Contents (Elt F)),
    ternary main_v110 main_v112 main_v90 main_v113 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v113 main_v114 (broadcastInDim S2000000x1 ![0] bcast_S2000000_S2000000x1_0 : (⟨S2000000, .i32⟩ : BufTy).Contents (Elt F) → (⟨S2000000x1, .i32⟩ : BufTy).Contents (Elt F)),
    binary main_v99 main_v114 main_v115 ((fun x i => Host.gather gather_S200000x1_S2000000x1_S2000000x1_1_0_n_n_0_1_11 x i) : (⟨S200000x1, .f32⟩ : BufTy).Contents (Elt F) → (⟨S2000000x1, .i32⟩ : BufTy).Contents (Elt F) → (⟨S2000000x1, .f32⟩ : BufTy).Contents (Elt F)) ]

/-- The buffers those operations write, in order. -/
abbrev b17_W : List (Ref sig .tc) :=
  [main_c_12, main_v109, main_v110, main_c_13, main_v111, main_v112, main_v113, main_v114, main_v115]

set_option maxRecDepth 8192 in
set_option maxHeartbeats 4000000 in
theorem b17_writes : (b17 : List (HloOp τ sig (Elt F))).Forall fun op =>
    op.writes ⊆ (b17_W.map (Proc.devRef (τ := τ) .tc)).toFinset := by
  simp only [List.Forall]
  refine ⟨?_, ?_, ?_, ?_, ?_, ?_, ?_, ?_, ?_⟩
  all_goals (simp only [nullary_writes, unary_writes, binary_writes, ternary_writes, reshape_writes, Finset.singleton_subset_iff, List.mem_toFinset]; exact List.mem_map_of_mem (by decide))

set_option maxRecDepth 8192 in
set_option maxHeartbeats 4000000 in
/-- After the statements, from any contents, %115's buffer holds the stage function of what its operands' buffers then hold. -/
theorem b17_v115 (U : Valuation τ sig (Elt Ideal)) :
    after b17 U (Proc.devRef .tc main_v115) = f_gCol (F := Ideal) (after b17 U (Proc.devRef .tc main_v99)) (after b17 U (Proc.devRef .tc main_v90)) := by
  unfold f_gCol
  simp only [b17]
  after_results_simp
  all_goals rfl

/-- The entry function's statements 133 … 141, as the list of their operations. -/
abbrev b18 : List (HloOp τ sig (Elt F)) :=
  [ nullary main_c_14 (constantI S_ 32 0#32),
    unary main_c_14 main_v116 (broadcastInDim S2000000 ![] bcast_S_S2000000 : (⟨S_, .i32⟩ : BufTy).Contents (Elt F) → (⟨S2000000, .i32⟩ : BufTy).Contents (Elt F)),
    binary main_v92 main_v116 main_v117 (cmpi .slt : (⟨S2000000, .i32⟩ : BufTy).Contents (Elt F) → (⟨S2000000, .i32⟩ : BufTy).Contents (Elt F) → (⟨S2000000, .i1⟩ : BufTy).Contents (Elt F)),
    nullary main_c_15 (constantI S_ 32 200000#32),
    unary main_c_15 main_v118 (broadcastInDim S2000000 ![] bcast_S_S2000000 : (⟨S_, .i32⟩ : BufTy).Contents (Elt F) → (⟨S2000000, .i32⟩ : BufTy).Contents (Elt F)),
    binary main_v92 main_v118 main_v119 (addi : (⟨S2000000, .i32⟩ : BufTy).Contents (Elt F) → (⟨S2000000, .i32⟩ : BufTy).Contents (Elt F) → (⟨S2000000, .i32⟩ : BufTy).Contents (Elt F)),
    ternary main_v117 main_v119 main_v92 main_v120 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v120 main_v121 (broadcastInDim S2000000x1 ![0] bcast_S2000000_S2000000x1_0 : (⟨S2000000, .i32⟩ : BufTy).Contents (Elt F) → (⟨S2000000x1, .i32⟩ : BufTy).Contents (Elt F)),
    binary main_v100 main_v121 main_v122 ((fun x i => Host.gather gather_S200000x1_S2000000x1_S2000000x1_1_0_n_n_0_1_11 x i) : (⟨S200000x1, .f32⟩ : BufTy).Contents (Elt F) → (⟨S2000000x1, .i32⟩ : BufTy).Contents (Elt F) → (⟨S2000000x1, .f32⟩ : BufTy).Contents (Elt F)) ]

/-- The buffers those operations write, in order. -/
abbrev b18_W : List (Ref sig .tc) :=
  [main_c_14, main_v116, main_v117, main_c_15, main_v118, main_v119, main_v120, main_v121, main_v122]

set_option maxRecDepth 8192 in
set_option maxHeartbeats 4000000 in
theorem b18_writes : (b18 : List (HloOp τ sig (Elt F))).Forall fun op =>
    op.writes ⊆ (b18_W.map (Proc.devRef (τ := τ) .tc)).toFinset := by
  simp only [List.Forall]
  refine ⟨?_, ?_, ?_, ?_, ?_, ?_, ?_, ?_, ?_⟩
  all_goals (simp only [nullary_writes, unary_writes, binary_writes, ternary_writes, reshape_writes, Finset.singleton_subset_iff, List.mem_toFinset]; exact List.mem_map_of_mem (by decide))

set_option maxRecDepth 8192 in
set_option maxHeartbeats 4000000 in
/-- After the statements, from any contents, %122's buffer holds the stage function of what its operands' buffers then hold. -/
theorem b18_v122 (U : Valuation τ sig (Elt Ideal)) :
    after b18 U (Proc.devRef .tc main_v122) = f_gCol (F := Ideal) (after b18 U (Proc.devRef .tc main_v100)) (after b18 U (Proc.devRef .tc main_v92)) := by
  unfold f_gCol
  simp only [b18]
  after_results_simp
  all_goals rfl

end Cert.ReferenceIdeal.RefRun

end
-- ==== Proof.RefBlocksD.lean ====
/-
  The reference program's host operations, statements 142 … 176 of its entry function, cut into
  stretches.  For each stretch: its operations as a list, the buffers they write, and, for each of the network's
  values computed in it, the statement that after the stretch, from any contents, the value's buffer holds the
  stage function applied to what the buffers of the stage's operands hold after the stretch (an operand computed
  before the stretch is untouched by it, one computed inside it is read at its computed value: no buffer is written
  twice).
-/
import proofs.«154843_j76682346102829_2_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The entry function's statements 142 … 176, as the list of their operations. -/
abbrev b19 : List (HloOp τ sig (Elt F)) :=
  [ binary main_v115 main_v122 main_v123 (addf : (⟨S2000000x1, .f32⟩ : BufTy).Contents (Elt F) → (⟨S2000000x1, .f32⟩ : BufTy).Contents (Elt F) → (⟨S2000000x1, .f32⟩ : BufTy).Contents (Elt F)),
    nullary main_cst_16 (constant S_ .f32 0x00000000#32),
    unary main_cst_16 main_v124 (broadcastInDim S2000000x1 ![] bcast_S_S2000000x1 : (⟨S_, .f32⟩ : BufTy).Contents (Elt F) → (⟨S2000000x1, .f32⟩ : BufTy).Contents (Elt F)),
    binary main_v123 main_v124 main_v125 (cmpf .ogt : (⟨S2000000x1, .f32⟩ : BufTy).Contents (Elt F) → (⟨S2000000x1, .f32⟩ : BufTy).Contents (Elt F) → (⟨S2000000x1, .i1⟩ : BufTy).Contents (Elt F)),
    nullary main_cst_17 (constant S_ .f32 0x3E4CCCCD#32),
    unary main_cst_17 main_v126 (broadcastInDim S2000000x1 ![] bcast_S_S2000000x1 : (⟨S_, .f32⟩ : BufTy).Contents (Elt F) → (⟨S2000000x1, .f32⟩ : BufTy).Contents (Elt F)),
    binary main_v126 main_v123 main_v127 (mulf : (⟨S2000000x1, .f32⟩ : BufTy).Contents (Elt F) → (⟨S2000000x1, .f32⟩ : BufTy).Contents (Elt F) → (⟨S2000000x1, .f32⟩ : BufTy).Contents (Elt F)),
    ternary main_v125 main_v123 main_v127 main_v128 (select : (⟨S2000000x1, .i1⟩ : BufTy).Contents (Elt F) → (⟨S2000000x1, .f32⟩ : BufTy).Contents (Elt F) → (⟨S2000000x1, .f32⟩ : BufTy).Contents (Elt F) → (⟨S2000000x1, .f32⟩ : BufTy).Contents (Elt F)),
    unary main_v128 main_v129 (Host.exp : (⟨S2000000x1, .f32⟩ : BufTy).Contents (Elt F) → (⟨S2000000x1, .f32⟩ : BufTy).Contents (Elt F)),
    nullary main_cst_18 (constant S_ .f32 0x00000000#32),
    unary main_cst_18 main_v130 (broadcastInDim S200000x1 ![] bcast_S_S200000x1 : (⟨S_, .f32⟩ : BufTy).Contents (Elt F) → (⟨S200000x1, .f32⟩ : BufTy).Contents (Elt F)),
    unary main_v90 main_v131 (broadcastInDim S2000000x1 ![0] bcast_S2000000_S2000000x1_0 : (⟨S2000000, .i32⟩ : BufTy).Contents (Elt F) → (⟨S2000000x1, .i32⟩ : BufTy).Contents (Elt F)),
    ternary main_v130 main_v131 main_v129 main_v132 ((fun x i u => Host.scatterAdd scatter_S200000x1_S2000000x1_S2000000x1_1_0_0_1 x i u) : (⟨S200000x1, .f32⟩ : BufTy).Contents (Elt F) → (⟨S2000000x1, .i32⟩ : BufTy).Contents (Elt F) → (⟨S2000000x1, .f32⟩ : BufTy).Contents (Elt F) → (⟨S200000x1, .f32⟩ : BufTy).Contents (Elt F)),
    binary main_v132 main_v108 main_v133 (addf : (⟨S200000x1, .f32⟩ : BufTy).Contents (Elt F) → (⟨S200000x1, .f32⟩ : BufTy).Contents (Elt F) → (⟨S200000x1, .f32⟩ : BufTy).Contents (Elt F)),
    nullary main_c_19 (constantI S_ 32 0#32),
    unary main_c_19 main_v134 (broadcastInDim S2000000 ![] bcast_S_S2000000 : (⟨S_, .i32⟩ : BufTy).Contents (Elt F) → (⟨S2000000, .i32⟩ : BufTy).Contents (Elt F)),
    binary main_v92 main_v134 main_v135 (cmpi .slt : (⟨S2000000, .i32⟩ : BufTy).Contents (Elt F) → (⟨S2000000, .i32⟩ : BufTy).Contents (Elt F) → (⟨S2000000, .i1⟩ : BufTy).Contents (Elt F)),
    nullary main_c_20 (constantI S_ 32 200000#32),
    unary main_c_20 main_v136 (broadcastInDim S2000000 ![] bcast_S_S2000000 : (⟨S_, .i32⟩ : BufTy).Contents (Elt F) → (⟨S2000000, .i32⟩ : BufTy).Contents (Elt F)),
    binary main_v92 main_v136 main_v137 (addi : (⟨S2000000, .i32⟩ : BufTy).Contents (Elt F) → (⟨S2000000, .i32⟩ : BufTy).Contents (Elt F) → (⟨S2000000, .i32⟩ : BufTy).Contents (Elt F)),
    ternary main_v135 main_v137 main_v92 main_v138 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v138 main_v139 (broadcastInDim S2000000x1 ![0] bcast_S2000000_S2000000x1_0 : (⟨S2000000, .i32⟩ : BufTy).Contents (Elt F) → (⟨S2000000x1, .i32⟩ : BufTy).Contents (Elt F)),
    binary main_v17 main_v139 main_v140 ((fun x i => Host.gather gather_S200000x64_S2000000x1_S2000000x64_1_0_n_n_0_1_164 x i) : (⟨S200000x64, .f32⟩ : BufTy).Contents (Elt F) → (⟨S2000000x1, .i32⟩ : BufTy).Contents (Elt F) → (⟨S2000000x64, .f32⟩ : BufTy).Contents (Elt F)),
    unary main_v129 main_v141 (broadcastInDim S2000000x64 ![0, 1] bcast_S2000000x1_S2000000x64_0_1 : (⟨S2000000x1, .f32⟩ : BufTy).Contents (Elt F) → (⟨S2000000x64, .f32⟩ : BufTy).Contents (Elt F)),
    binary main_v141 main_v140 main_v142 (mulf : (⟨S2000000x64, .f32⟩ : BufTy).Contents (Elt F) → (⟨S2000000x64, .f32⟩ : BufTy).Contents (Elt F) → (⟨S2000000x64, .f32⟩ : BufTy).Contents (Elt F)),
    nullary main_cst_21 (constant S_ .f32 0x00000000#32),
    unary main_cst_21 main_v143 (broadcastInDim S200000x64 ![] bcast_S_S200000x64 : (⟨S_, .f32⟩ : BufTy).Contents (Elt F) → (⟨S200000x64, .f32⟩ : BufTy).Contents (Elt F)),
    unary main_v90 main_v144 (broadcastInDim S2000000x1 ![0] bcast_S2000000_S2000000x1_0 : (⟨S2000000, .i32⟩ : BufTy).Contents (Elt F) → (⟨S2000000x1, .i32⟩ : BufTy).Contents (Elt F)),
    ternary main_v143 main_v144 main_v142 main_v145 ((fun x i u => Host.scatterAdd scatter_S200000x64_S2000000x1_S2000000x64_1_0_0_1 x i u) : (⟨S200000x64, .f32⟩ : BufTy).Contents (Elt F) → (⟨S2000000x1, .i32⟩ : BufTy).Contents (Elt F) → (⟨S2000000x64, .f32⟩ : BufTy).Contents (Elt F) → (⟨S200000x64, .f32⟩ : BufTy).Contents (Elt F)),
    unary main_v108 main_v146 (broadcastInDim S200000x64 ![0, 1] bcast_S200000x1_S200000x64_0_1 : (⟨S200000x1, .f32⟩ : BufTy).Contents (Elt F) → (⟨S200000x64, .f32⟩ : BufTy).Contents (Elt F)),
    binary main_v146 main_v25 main_v147 (mulf : (⟨S200000x64, .f32⟩ : BufTy).Contents (Elt F) → (⟨S200000x64, .f32⟩ : BufTy).Contents (Elt F) → (⟨S200000x64, .f32⟩ : BufTy).Contents (Elt F)),
    binary main_v145 main_v147 main_v148 (addf : (⟨S200000x64, .f32⟩ : BufTy).Contents (Elt F) → (⟨S200000x64, .f32⟩ : BufTy).Contents (Elt F) → (⟨S200000x64, .f32⟩ : BufTy).Contents (Elt F)),
    unary main_v133 main_v149 (broadcastInDim S200000x64 ![0, 1] bcast_S200000x1_S200000x64_0_1 : (⟨S200000x1, .f32⟩ : BufTy).Contents (Elt F) → (⟨S200000x64, .f32⟩ : BufTy).Contents (Elt F)),
    binary main_v148 main_v149 main_v150 (Host.divf : (⟨S200000x64, .f32⟩ : BufTy).Contents (Elt F) → (⟨S200000x64, .f32⟩ : BufTy).Contents (Elt F) → (⟨S200000x64, .f32⟩ : BufTy).Contents (Elt F)),
    nullary main_call7_cst (constant S_ .f32 0x00000000#32),
    unary main_call7_cst main_call7_v0 (broadcastInDim S200000x64 ![] bcast_S_S200000x64 : (⟨S_, .f32⟩ : BufTy).Contents (Elt F) → (⟨S200000x64, .f32⟩ : BufTy).Contents (Elt F)),
    binary main_v150 main_call7_v0 main_call7_v1 (cmpf .ogt : (⟨S200000x64, .f32⟩ : BufTy).Contents (Elt F) → (⟨S200000x64, .f32⟩ : BufTy).Contents (Elt F) → (⟨S200000x64, .i1⟩ : BufTy).Contents (Elt F)),
    nullary main_call7_cst_0 (constant S_ .f32 0x00000000#32),
    unary main_call7_cst_0 main_call7_v2 (broadcastInDim S200000x64 ![] bcast_S_S200000x64 : (⟨S_, .f32⟩ : BufTy).Contents (Elt F) → (⟨S200000x64, .f32⟩ : BufTy).Contents (Elt F)),
    binary main_v150 main_call7_v2 main_call7_v3 (cmpf .ogt : (⟨S200000x64, .f32⟩ : BufTy).Contents (Elt F) → (⟨S200000x64, .f32⟩ : BufTy).Contents (Elt F) → (⟨S200000x64, .i1⟩ : BufTy).Contents (Elt F)),
    nullary main_call7_cst_1 (constant S_ .f32 0x00000000#32),
    unary main_call7_cst_1 main_call7_call0_v0 (id : (⟨S_, .f32⟩ : BufTy).Contents (Elt F) → (⟨S_, .f32⟩ : BufTy).Contents (Elt F)),
    unary main_call7_call0_v0 main_call7_call0_v1 (broadcastInDim S200000x64 ![] bcast_S_S200000x64 : (⟨S_, .f32⟩ : BufTy).Contents (Elt F) → (⟨S200000x64, .f32⟩ : BufTy).Contents (Elt F)),
    ternary main_call7_v3 main_call7_call0_v1 main_v150 main_call7_v4 (select : (⟨S200000x64, .i1⟩ : BufTy).Contents (Elt F) → (⟨S200000x64, .f32⟩ : BufTy).Contents (Elt F) → (⟨S200000x64, .f32⟩ : BufTy).Contents (Elt F) → (⟨S200000x64, .f32⟩ : BufTy).Contents (Elt F)),
    unary main_call7_v4 main_call7_v5 (Host.expm1 : (⟨S200000x64, .f32⟩ : BufTy).Contents (Elt F) → (⟨S200000x64, .f32⟩ : BufTy).Contents (Elt F)),
    nullary main_call7_cst_2 (constant S_ .f32 0x3F800000#32),
    unary main_call7_cst_2 main_call7_v6 (broadcastInDim S200000x64 ![] bcast_S_S200000x64 : (⟨S_, .f32⟩ : BufTy).Contents (Elt F) → (⟨S200000x64, .f32⟩ : BufTy).Contents (Elt F)),
    binary main_call7_v6 main_call7_v5 main_call7_v7 (mulf : (⟨S200000x64, .f32⟩ : BufTy).Contents (Elt F) → (⟨S200000x64, .f32⟩ : BufTy).Contents (Elt F) → (⟨S200000x64, .f32⟩ : BufTy).Contents (Elt F)),
    ternary main_call7_v1 main_v150 main_call7_v7 main_v151 (select : (⟨S200000x64, .i1⟩ : BufTy).Contents (Elt F) → (⟨S200000x64, .f32⟩ : BufTy).Contents (Elt F) → (⟨S200000x64, .f32⟩ : BufTy).Contents (Elt F) → (⟨S200000x64, .f32⟩ : BufTy).Contents (Elt F)) ]

/-- The buffers those operations write, in order. -/
abbrev b19_W : List (Ref sig .tc) :=
  [main_v123, main_cst_16, main_v124, main_v125, main_cst_17, main_v126, main_v127, main_v128, main_v129, main_cst_18,
   main_v130, main_v131, main_v132, main_v133, main_c_19, main_v134, main_v135, main_c_20, main_v136, main_v137,
   main_v138, main_v139, main_v140, main_v141, main_v142, main_cst_21, main_v143, main_v144, main_v145, main_v146,
   main_v147, main_v148, main_v149, main_v150, main_call7_cst, main_call7_v0, main_call7_v1, main_call7_cst_0, main_call7_v2, main_call7_v3,
   main_call7_cst_1, main_call7_call0_v0, main_call7_call0_v1, main_call7_v4, main_call7_v5, main_call7_cst_2, main_call7_v6, main_call7_v7, main_v151]

set_option maxRecDepth 8192 in
set_option maxHeartbeats 4000000 in
theorem b19_writes : (b19 : List (HloOp τ sig (Elt F))).Forall fun op =>
    op.writes ⊆ (b19_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (simp only [nullary_writes, unary_writes, binary_writes, ternary_writes, reshape_writes, Finset.singleton_subset_iff, List.mem_toFinset]; exact List.mem_map_of_mem (by decide))

set_option maxRecDepth 8192 in
set_option maxHeartbeats 4000000 in
/-- After the statements, from any contents, %129's buffer holds the stage function of what its operands' buffers then hold. -/
theorem b19_v129 (U : Valuation τ sig (Elt Ideal)) :
    after b19 U (Proc.devRef .tc main_v129) = f_edgeW (F := Ideal) (after b19 U (Proc.devRef .tc main_v115)) (after b19 U (Proc.devRef .tc main_v122)) := by
  unfold f_edgeW
  simp only [b19]
  after_results_simp
  all_goals rfl

set_option maxRecDepth 8192 in
set_option maxHeartbeats 4000000 in
/-- After the statements, from any contents, %132's buffer holds the stage function of what its operands' buffers then hold. -/
theorem b19_v132 (U : Valuation τ sig (Elt Ideal)) :
    after b19 U (Proc.devRef .tc main_v132) = f_segCol (F := Ideal) (after b19 U (Proc.devRef .tc main_v90)) (after b19 U (Proc.devRef .tc main_v129)) := by
  unfold f_segCol
  simp only [b19]
  after_results_simp
  all_goals rfl

set_option maxRecDepth 8192 in
set_option maxHeartbeats 4000000 in
/-- After the statements, from any contents, %140's buffer holds the stage function of what its operands' buffers then hold. -/
theorem b19_v140 (U : Valuation τ sig (Elt Ideal)) :
    after b19 U (Proc.devRef .tc main_v140) = f_gRow (F := Ideal) (after b19 U (Proc.devRef .tc main_v17)) (after b19 U (Proc.devRef .tc main_v92)) := by
  unfold f_gRow
  simp only [b19]
  after_results_simp
  all_goals rfl

set_option maxRecDepth 8192 in
set_option maxHeartbeats 4000000 in
/-- After the statements, from any contents, %142's buffer holds the stage function of what its operands' buffers then hold. -/
theorem b19_v142 (U : Valuation τ sig (Elt Ideal)) :
    after b19 U (Proc.devRef .tc main_v142) = f_edgeWH (F := Ideal) (after b19 U (Proc.devRef .tc main_v115)) (after b19 U (Proc.devRef .tc main_v122)) (after b19 U (Proc.devRef .tc main_v140)) := by
  unfold f_edgeWH
  simp only [b19]
  after_results_simp
  all_goals rfl

set_option maxRecDepth 8192 in
set_option maxHeartbeats 4000000 in
/-- After the statements, from any contents, %145's buffer holds the stage function of what its operands' buffers then hold. -/
theorem b19_v145 (U : Valuation τ sig (Elt Ideal)) :
    after b19 U (Proc.devRef .tc main_v145) = f_segRow (F := Ideal) (after b19 U (Proc.devRef .tc main_v90)) (after b19 U (Proc.devRef .tc main_v142)) := by
  unfold f_segRow
  simp only [b19]
  after_results_simp
  all_goals rfl

set_option maxRecDepth 8192 in
set_option maxHeartbeats 4000000 in
/-- After the statements, from any contents, %151's buffer holds the stage function of what its operands' buffers then hold. -/
theorem b19_v151 (U : Valuation τ sig (Elt Ideal)) :
    after b19 U (Proc.devRef .tc main_v151) = f_norm (F := Ideal) (after b19 U (Proc.devRef .tc main_v145)) (after b19 U (Proc.devRef .tc main_v132)) (after b19 U (Proc.devRef .tc main_v108)) (after b19 U (Proc.devRef .tc main_v25)) := by
  unfold f_norm
  simp only [b19]
  after_results_simp
  all_goals rfl

end Cert.ReferenceIdeal.RefRun

end
-- ==== Proof.RefBlocksE.lean ====
/-
  The reference program's host operations, statements 177 … 232 of its entry function, cut into
  stretches.  For each stretch: its operations as a list, the buffers they write, and, for each of the network's
  values computed in it, the statement that after the stretch, from any contents, the value's buffer holds the
  stage function applied to what the buffers of the stage's operands hold after the stretch (an operand computed
  before the stretch is untouched by it, one computed inside it is read at its computed value: no buffer is written
  twice).
-/
import proofs.«154843_j76682346102829_2_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The entry function's statements 177 … 178, as the list of their operations. -/
abbrev b20 : List (HloOp τ sig (Elt F)) :=
  [ unary main_arg8 main_v152 ((extractStridedSlice S1x64x64 ![1, 0, 0] · slices_S2x64x64_S1x64x64_1_0_0) : (⟨S2x64x64, .f32⟩ : BufTy).Contents (Elt F) → (⟨S1x64x64, .f32⟩ : BufTy).Contents (Elt F)),
    reshape main_v152 main_v153 rfl shapeCasts_S1x64x64_S64x64 ]

/-- The buffers those operations write, in order. -/
abbrev b20_W : List (Ref sig .tc) :=
  [main_v152, main_v153]

set_option maxRecDepth 8192 in
set_option maxHeartbeats 4000000 in
theorem b20_writes : (b20 : List (HloOp τ sig (Elt F))).Forall fun op =>
    op.writes ⊆ (b20_W.map (Proc.devRef (τ := τ) .tc)).toFinset := by
  simp only [List.Forall]
  refine ⟨?_, ?_⟩
  all_goals (simp only [nullary_writes, unary_writes, binary_writes, ternary_writes, reshape_writes, Finset.singleton_subset_iff, List.mem_toFinset]; exact List.mem_map_of_mem (by decide))

set_option maxRecDepth 8192 in
set_option maxHeartbeats 4000000 in
/-- After the statements, from any contents, %153's buffer holds the stage function of what its operands' buffers then hold. -/
theorem b20_v153 (U : Valuation τ sig (Elt Ideal)) :
    after b20 U (Proc.devRef .tc main_v153) = f_wRow1 (F := Ideal) (after b20 U (Proc.devRef .tc main_arg8)) := by
  unfold f_wRow1
  simp only [b20]
  after_results_simp
  all_goals rfl

/-- The entry function's statements 179 … 184, as the list of their operations. -/
abbrev b21 : List (HloOp τ sig (Elt F)) :=
  [ binary main_v88 main_v153 main_v154 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    unary main_arg9 main_v155 ((extractStridedSlice S1x64 ![1, 0] · slices_S2x64_S1x64_1_0) : (⟨S2x64, .f32⟩ : BufTy).Contents (Elt F) → (⟨S1x64, .f32⟩ : BufTy).Contents (Elt F)),
    reshape main_v155 main_v156 rfl shapeCasts_S1x64_S64,
    unary main_v156 main_v157 (broadcastInDim S1x64 ![1] bcast_S64_S1x64_1 : (⟨S64, .f32⟩ : BufTy).Contents (Elt F) → (⟨S1x64, .f32⟩ : BufTy).Contents (Elt F)),
    unary main_v157 main_v158 (broadcastInDim S200000x64 ![0, 1] bcast_S1x64_S200000x64_0_1 : (⟨S1x64, .f32⟩ : BufTy).Contents (Elt F) → (⟨S200000x64, .f32⟩ : BufTy).Contents (Elt F)),
    binary main_v154 main_v158 main_v159 (addf : (⟨S200000x64, .f32⟩ : BufTy).Contents (Elt F) → (⟨S200000x64, .f32⟩ : BufTy).Contents (Elt F) → (⟨S200000x64, .f32⟩ : BufTy).Contents (Elt F)) ]

/-- The buffers those operations write, in order. -/
abbrev b21_W : List (Ref sig .tc) :=
  [main_v154, main_v155, main_v156, main_v157, main_v158, main_v159]

set_option maxRecDepth 8192 in
set_option maxHeartbeats 4000000 in
theorem b21_writes : (b21 : List (HloOp τ sig (Elt F))).Forall fun op =>
    op.writes ⊆ (b21_W.map (Proc.devRef (τ := τ) .tc)).toFinset := by
  simp only [List.Forall]
  refine ⟨?_, ?_, ?_, ?_, ?_, ?_⟩
  all_goals (simp only [nullary_writes, unary_writes, binary_writes, ternary_writes, reshape_writes, Finset.singleton_subset_iff, List.mem_toFinset]; exact List.mem_map_of_mem (by decide))

set_option maxRecDepth 8192 in
set_option maxHeartbeats 4000000 in
/-- After the statements, from any contents, %156's buffer holds the stage function of what its operands' buffers then hold. -/
theorem b21_v156 (U : Valuation τ sig (Elt Ideal)) :
    after b21 U (Proc.devRef .tc main_v156) = f_bRow1 (F := Ideal) (after b21 U (Proc.devRef .tc main_arg9)) := by
  unfold f_bRow1
  simp only [b21]
  after_results_simp
  all_goals rfl

set_option maxRecDepth 8192 in
set_option maxHeartbeats 4000000 in
/-- After the statements, from any contents, %159's buffer holds the stage function of what its operands' buffers then hold. -/
theorem b21_v159 (U : Valuation τ sig (Elt Ideal)) :
    after b21 U (Proc.devRef .tc main_v159) = f_dense (F := Ideal) (after b21 U (Proc.devRef .tc main_v88)) (after b21 U (Proc.devRef .tc main_v153)) (after b21 U (Proc.devRef .tc main_v156)) := by
  unfold f_dense
  simp only [b21]
  after_results_simp
  all_goals rfl

/-- The entry function's statements 185 … 186, as the list of their operations. -/
abbrev b22 : List (HloOp τ sig (Elt F)) :=
  [ unary main_arg8 main_v160 ((extractStridedSlice S1x64x64 ![1, 0, 0] · slices_S2x64x64_S1x64x64_1_0_0) : (⟨S2x64x64, .f32⟩ : BufTy).Contents (Elt F) → (⟨S1x64x64, .f32⟩ : BufTy).Contents (Elt F)),
    reshape main_v160 main_v161 rfl shapeCasts_S1x64x64_S64x64 ]

/-- The buffers those operations write, in order. -/
abbrev b22_W : List (Ref sig .tc) :=
  [main_v160, main_v161]

set_option maxRecDepth 8192 in
set_option maxHeartbeats 4000000 in
theorem b22_writes : (b22 : List (HloOp τ sig (Elt F))).Forall fun op =>
    op.writes ⊆ (b22_W.map (Proc.devRef (τ := τ) .tc)).toFinset := by
  simp only [List.Forall]
  refine ⟨?_, ?_⟩
  all_goals (simp only [nullary_writes, unary_writes, binary_writes, ternary_writes, reshape_writes, Finset.singleton_subset_iff, List.mem_toFinset]; exact List.mem_map_of_mem (by decide))

set_option maxRecDepth 8192 in
set_option maxHeartbeats 4000000 in
/-- After the statements, from any contents, %161's buffer holds the stage function of what its operands' buffers then hold. -/
theorem b22_v161 (U : Valuation τ sig (Elt Ideal)) :
    after b22 U (Proc.devRef .tc main_v161) = f_wRow1 (F := Ideal) (after b22 U (Proc.devRef .tc main_arg8)) := by
  unfold f_wRow1
  simp only [b22]
  after_results_simp
  all_goals rfl

/-- The entry function's statements 187 … 192, as the list of their operations. -/
abbrev b23 : List (HloOp τ sig (Elt F)) :=
  [ binary main_v151 main_v161 main_v162 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    unary main_arg9 main_v163 ((extractStridedSlice S1x64 ![1, 0] · slices_S2x64_S1x64_1_0) : (⟨S2x64, .f32⟩ : BufTy).Contents (Elt F) → (⟨S1x64, .f32⟩ : BufTy).Contents (Elt F)),
    reshape main_v163 main_v164 rfl shapeCasts_S1x64_S64,
    unary main_v164 main_v165 (broadcastInDim S1x64 ![1] bcast_S64_S1x64_1 : (⟨S64, .f32⟩ : BufTy).Contents (Elt F) → (⟨S1x64, .f32⟩ : BufTy).Contents (Elt F)),
    unary main_v165 main_v166 (broadcastInDim S200000x64 ![0, 1] bcast_S1x64_S200000x64_0_1 : (⟨S1x64, .f32⟩ : BufTy).Contents (Elt F) → (⟨S200000x64, .f32⟩ : BufTy).Contents (Elt F)),
    binary main_v162 main_v166 main_v167 (addf : (⟨S200000x64, .f32⟩ : BufTy).Contents (Elt F) → (⟨S200000x64, .f32⟩ : BufTy).Contents (Elt F) → (⟨S200000x64, .f32⟩ : BufTy).Contents (Elt F)) ]

/-- The buffers those operations write, in order. -/
abbrev b23_W : List (Ref sig .tc) :=
  [main_v162, main_v163, main_v164, main_v165, main_v166, main_v167]

set_option maxRecDepth 8192 in
set_option maxHeartbeats 4000000 in
theorem b23_writes : (b23 : List (HloOp τ sig (Elt F))).Forall fun op =>
    op.writes ⊆ (b23_W.map (Proc.devRef (τ := τ) .tc)).toFinset := by
  simp only [List.Forall]
  refine ⟨?_, ?_, ?_, ?_, ?_, ?_⟩
  all_goals (simp only [nullary_writes, unary_writes, binary_writes, ternary_writes, reshape_writes, Finset.singleton_subset_iff, List.mem_toFinset]; exact List.mem_map_of_mem (by decide))

set_option maxRecDepth 8192 in
set_option maxHeartbeats 4000000 in
/-- After the statements, from any contents, %164's buffer holds the stage function of what its operands' buffers then hold. -/
theorem b23_v164 (U : Valuation τ sig (Elt Ideal)) :
    after b23 U (Proc.devRef .tc main_v164) = f_bRow1 (F := Ideal) (after b23 U (Proc.devRef .tc main_arg9)) := by
  unfold f_bRow1
  simp only [b23]
  after_results_simp
  all_goals rfl

set_option maxRecDepth 8192 in
set_option maxHeartbeats 4000000 in
/-- After the statements, from any contents, %167's buffer holds the stage function of what its operands' buffers then hold. -/
theorem b23_v167 (U : Valuation τ sig (Elt Ideal)) :
    after b23 U (Proc.devRef .tc main_v167) = f_dense (F := Ideal) (after b23 U (Proc.devRef .tc main_v151)) (after b23 U (Proc.devRef .tc main_v161)) (after b23 U (Proc.devRef .tc main_v164)) := by
  unfold f_dense
  simp only [b23]
  after_results_simp
  all_goals rfl

/-- The entry function's statements 193 … 194, as the list of their operations. -/
abbrev b24 : List (HloOp τ sig (Elt F)) :=
  [ unary main_arg2 main_v168 ((extractStridedSlice S1x2000000 ![0, 0] · slices_S2x2000000_S1x2000000_0_0) : (⟨S2x2000000, .i32⟩ : BufTy).Contents (Elt F) → (⟨S1x2000000, .i32⟩ : BufTy).Contents (Elt F)),
    reshape main_v168 main_v169 rfl shapeCasts_S1x2000000_S2000000 ]

/-- The buffers those operations write, in order. -/
abbrev b24_W : List (Ref sig .tc) :=
  [main_v168, main_v169]

set_option maxRecDepth 8192 in
set_option maxHeartbeats 4000000 in
theorem b24_writes : (b24 : List (HloOp τ sig (Elt F))).Forall fun op =>
    op.writes ⊆ (b24_W.map (Proc.devRef (τ := τ) .tc)).toFinset := by
  simp only [List.Forall]
  refine ⟨?_, ?_⟩
  all_goals (simp only [nullary_writes, unary_writes, binary_writes, ternary_writes, reshape_writes, Finset.singleton_subset_iff, List.mem_toFinset]; exact List.mem_map_of_mem (by decide))

set_option maxRecDepth 8192 in
set_option maxHeartbeats 4000000 in
/-- After the statements, from any contents, %169's buffer holds the stage function of what its operands' buffers then hold. -/
theorem b24_v169 (U : Valuation τ sig (Elt Ideal)) :
    after b24 U (Proc.devRef .tc main_v169) = f_iRow0 (F := Ideal) (after b24 U (Proc.devRef .tc main_arg2)) := by
  unfold f_iRow0
  simp only [b24]
  after_results_simp
  all_goals rfl

/-- The entry function's statements 195 … 196, as the list of their operations. -/
abbrev b25 : List (HloOp τ sig (Elt F)) :=
  [ unary main_arg2 main_v170 ((extractStridedSlice S1x2000000 ![1, 0] · slices_S2x2000000_S1x2000000_1_0) : (⟨S2x2000000, .i32⟩ : BufTy).Contents (Elt F) → (⟨S1x2000000, .i32⟩ : BufTy).Contents (Elt F)),
    reshape main_v170 main_v171 rfl shapeCasts_S1x2000000_S2000000 ]

/-- The buffers those operations write, in order. -/
abbrev b25_W : List (Ref sig .tc) :=
  [main_v170, main_v171]

set_option maxRecDepth 8192 in
set_option maxHeartbeats 4000000 in
theorem b25_writes : (b25 : List (HloOp τ sig (Elt F))).Forall fun op =>
    op.writes ⊆ (b25_W.map (Proc.devRef (τ := τ) .tc)).toFinset := by
  simp only [List.Forall]
  refine ⟨?_, ?_⟩
  all_goals (simp only [nullary_writes, unary_writes, binary_writes, ternary_writes, reshape_writes, Finset.singleton_subset_iff, List.mem_toFinset]; exact List.mem_map_of_mem (by decide))

set_option maxRecDepth 8192 in
set_option maxHeartbeats 4000000 in
/-- After the statements, from any contents, %171's buffer holds the stage function of what its operands' buffers then hold. -/
theorem b25_v171 (U : Valuation τ sig (Elt Ideal)) :
    after b25 U (Proc.devRef .tc main_v171) = f_iRow1 (F := Ideal) (after b25 U (Proc.devRef .tc main_arg2)) := by
  unfold f_iRow1
  simp only [b25]
  after_results_simp
  all_goals rfl

/-- The entry function's statements 197 … 198, as the list of their operations. -/
abbrev b26 : List (HloOp τ sig (Elt F)) :=
  [ unary main_arg10 main_v172 ((extractStridedSlice S1x64 ![1, 0] · slices_S2x64_S1x64_1_0) : (⟨S2x64, .f32⟩ : BufTy).Contents (Elt F) → (⟨S1x64, .f32⟩ : BufTy).Contents (Elt F)),
    reshape main_v172 main_v173 rfl shapeCasts_S1x64_S64 ]

/-- The buffers those operations write, in order. -/
abbrev b26_W : List (Ref sig .tc) :=
  [main_v172, main_v173]

set_option maxRecDepth 8192 in
set_option maxHeartbeats 4000000 in
theorem b26_writes : (b26 : List (HloOp τ sig (Elt F))).Forall fun op =>
    op.writes ⊆ (b26_W.map (Proc.devRef (τ := τ) .tc)).toFinset := by
  simp only [List.Forall]
  refine ⟨?_, ?_⟩
  all_goals (simp only [nullary_writes, unary_writes, binary_writes, ternary_writes, reshape_writes, Finset.singleton_subset_iff, List.mem_toFinset]; exact List.mem_map_of_mem (by decide))

set_option maxRecDepth 8192 in
set_option maxHeartbeats 4000000 in
/-- After the statements, from any contents, %173's buffer holds the stage function of what its operands' buffers then hold. -/
theorem b26_v173 (U : Valuation τ sig (Elt Ideal)) :
    after b26 U (Proc.devRef .tc main_v173) = f_bRow1 (F := Ideal) (after b26 U (Proc.devRef .tc main_arg10)) := by
  unfold f_bRow1
  simp only [b26]
  after_results_simp
  all_goals rfl

/-- The entry function's statements 199 … 214, as the list of their operations. -/
abbrev b27 : List (HloOp τ sig (Elt F)) :=
  [ unary main_v173 main_v174 (broadcastInDim S64x1 ![0] bcast_S64_S64x1_0 : (⟨S64, .f32⟩ : BufTy).Contents (Elt F) → (⟨S64x1, .f32⟩ : BufTy).Contents (Elt F)),
    unary main_arg11 main_v175 ((extractStridedSlice S1x64 ![1, 0] · slices_S2x64_S1x64_1_0) : (⟨S2x64, .f32⟩ : BufTy).Contents (Elt F) → (⟨S1x64, .f32⟩ : BufTy).Contents (Elt F)),
    reshape main_v175 main_v176 rfl shapeCasts_S1x64_S64,
    unary main_v176 main_v177 (broadcastInDim S64x1 ![0] bcast_S64_S64x1_0 : (⟨S64, .f32⟩ : BufTy).Contents (Elt F) → (⟨S64x1, .f32⟩ : BufTy).Contents (Elt F)),
    binary main_v159 main_v174 main_v178 ((fun l r => Host.dotGeneral dot_S200000x64_S64x1_S200000x1_1_0_0_1_n_n none l r) : (⟨S200000x64, .f32⟩ : BufTy).Contents (Elt F) → (⟨S64x1, .f32⟩ : BufTy).Contents (Elt F) → (⟨S200000x1, .f32⟩ : BufTy).Contents (Elt F)),
    binary main_v167 main_v177 main_v179 ((fun l r => Host.dotGeneral dot_S200000x64_S64x1_S200000x1_1_0_0_1_n_n none l r) : (⟨S200000x64, .f32⟩ : BufTy).Contents (Elt F) → (⟨S64x1, .f32⟩ : BufTy).Contents (Elt F) → (⟨S200000x1, .f32⟩ : BufTy).Contents (Elt F)),
    binary main_v159 main_v177 main_v180 ((fun l r => Host.dotGeneral dot_S200000x64_S64x1_S200000x1_1_0_0_1_n_n none l r) : (⟨S200000x64, .f32⟩ : BufTy).Contents (Elt F) → (⟨S64x1, .f32⟩ : BufTy).Contents (Elt F) → (⟨S200000x1, .f32⟩ : BufTy).Contents (Elt F)),
    binary main_v178 main_v180 main_v181 (addf : (⟨S200000x1, .f32⟩ : BufTy).Contents (Elt F) → (⟨S200000x1, .f32⟩ : BufTy).Contents (Elt F) → (⟨S200000x1, .f32⟩ : BufTy).Contents (Elt F)),
    nullary main_cst_22 (constant S_ .f32 0x00000000#32),
    unary main_cst_22 main_v182 (broadcastInDim S200000x1 ![] bcast_S_S200000x1 : (⟨S_, .f32⟩ : BufTy).Contents (Elt F) → (⟨S200000x1, .f32⟩ : BufTy).Contents (Elt F)),
    binary main_v181 main_v182 main_v183 (cmpf .ogt : (⟨S200000x1, .f32⟩ : BufTy).Contents (Elt F) → (⟨S200000x1, .f32⟩ : BufTy).Contents (Elt F) → (⟨S200000x1, .i1⟩ : BufTy).Contents (Elt F)),
    nullary main_cst_23 (constant S_ .f32 0x3E4CCCCD#32),
    unary main_cst_23 main_v184 (broadcastInDim S200000x1 ![] bcast_S_S200000x1 : (⟨S_, .f32⟩ : BufTy).Contents (Elt F) → (⟨S200000x1, .f32⟩ : BufTy).Contents (Elt F)),
    binary main_v184 main_v181 main_v185 (mulf : (⟨S200000x1, .f32⟩ : BufTy).Contents (Elt F) → (⟨S200000x1, .f32⟩ : BufTy).Contents (Elt F) → (⟨S200000x1, .f32⟩ : BufTy).Contents (Elt F)),
    ternary main_v183 main_v181 main_v185 main_v186 (select : (⟨S200000x1, .i1⟩ : BufTy).Contents (Elt F) → (⟨S200000x1, .f32⟩ : BufTy).Contents (Elt F) → (⟨S200000x1, .f32⟩ : BufTy).Contents (Elt F) → (⟨S200000x1, .f32⟩ : BufTy).Contents (Elt F)),
    unary main_v186 main_v187 (Host.exp : (⟨S200000x1, .f32⟩ : BufTy).Contents (Elt F) → (⟨S200000x1, .f32⟩ : BufTy).Contents (Elt F)) ]

/-- The buffers those operations write, in order. -/
abbrev b27_W : List (Ref sig .tc) :=
  [main_v174, main_v175, main_v176, main_v177, main_v178, main_v179, main_v180, main_v181, main_cst_22, main_v182,
   main_v183, main_cst_23, main_v184, main_v185, main_v186, main_v187]

set_option maxRecDepth 8192 in
set_option maxHeartbeats 4000000 in
theorem b27_writes : (b27 : List (HloOp τ sig (Elt F))).Forall fun op =>
    op.writes ⊆ (b27_W.map (Proc.devRef (τ := τ) .tc)).toFinset := by
  simp only [List.Forall]
  refine ⟨?_, ?_, ?_, ?_, ?_, ?_, ?_, ?_, ?_, ?_, ?_, ?_, ?_, ?_, ?_, ?_⟩
  all_goals (simp only [nullary_writes, unary_writes, binary_writes, ternary_writes, reshape_writes, Finset.singleton_subset_iff, List.mem_toFinset]; exact List.mem_map_of_mem (by decide))

set_option maxRecDepth 8192 in
set_option maxHeartbeats 4000000 in
/-- After the statements, from any contents, %176's buffer holds the stage function of what its operands' buffers then hold. -/
theorem b27_v176 (U : Valuation τ sig (Elt Ideal)) :
    after b27 U (Proc.devRef .tc main_v176) = f_bRow1 (F := Ideal) (after b27 U (Proc.devRef .tc main_arg11)) := by
  unfold f_bRow1
  simp only [b27]
  after_results_simp
  all_goals rfl

set_option maxRecDepth 8192 in
set_option maxHeartbeats 4000000 in
/-- After the statements, from any contents, %178's buffer holds the stage function of what its operands' buffers then hold. -/
theorem b27_v178 (U : Valuation τ sig (Elt Ideal)) :
    after b27 U (Proc.devRef .tc main_v178) = f_score (F := Ideal) (after b27 U (Proc.devRef .tc main_v159)) (after b27 U (Proc.devRef .tc main_v173)) := by
  unfold f_score
  simp only [b27]
  after_results_simp
  all_goals rfl

set_option maxRecDepth 8192 in
set_option maxHeartbeats 4000000 in
/-- After the statements, from any contents, %179's buffer holds the stage function of what its operands' buffers then hold. -/
theorem b27_v179 (U : Valuation τ sig (Elt Ideal)) :
    after b27 U (Proc.devRef .tc main_v179) = f_score (F := Ideal) (after b27 U (Proc.devRef .tc main_v167)) (after b27 U (Proc.devRef .tc main_v176)) := by
  unfold f_score
  simp only [b27]
  after_results_simp
  all_goals rfl

set_option maxRecDepth 8192 in
set_option maxHeartbeats 4000000 in
/-- After the statements, from any contents, %187's buffer holds the stage function of what its operands' buffers then hold. -/
theorem b27_v187 (U : Valuation τ sig (Elt Ideal)) :
    after b27 U (Proc.devRef .tc main_v187) = f_selfWeight (F := Ideal) (after b27 U (Proc.devRef .tc main_v159)) (after b27 U (Proc.devRef .tc main_v173)) (after b27 U (Proc.devRef .tc main_v176)) := by
  unfold f_selfWeight
  simp only [b27]
  after_results_simp
  all_goals rfl

/-- The entry function's statements 215 … 223, as the list of their operations. -/
abbrev b28 : List (HloOp τ sig (Elt F)) :=
  [ nullary main_c_24 (constantI S_ 32 0#32),
    unary main_c_24 main_v188 (broadcastInDim S2000000 ![] bcast_S_S2000000 : (⟨S_, .i32⟩ : BufTy).Contents (Elt F) → (⟨S2000000, .i32⟩ : BufTy).Contents (Elt F)),
    binary main_v169 main_v188 main_v189 (cmpi .slt : (⟨S2000000, .i32⟩ : BufTy).Contents (Elt F) → (⟨S2000000, .i32⟩ : BufTy).Contents (Elt F) → (⟨S2000000, .i1⟩ : BufTy).Contents (Elt F)),
    nullary main_c_25 (constantI S_ 32 200000#32),
    unary main_c_25 main_v190 (broadcastInDim S2000000 ![] bcast_S_S2000000 : (⟨S_, .i32⟩ : BufTy).Contents (Elt F) → (⟨S2000000, .i32⟩ : BufTy).Contents (Elt F)),
    binary main_v169 main_v190 main_v191 (addi : (⟨S2000000, .i32⟩ : BufTy).Contents (Elt F) → (⟨S2000000, .i32⟩ : BufTy).Contents (Elt F) → (⟨S2000000, .i32⟩ : BufTy).Contents (Elt F)),
    ternary main_v189 main_v191 main_v169 main_v192 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v192 main_v193 (broadcastInDim S2000000x1 ![0] bcast_S2000000_S2000000x1_0 : (⟨S2000000, .i32⟩ : BufTy).Contents (Elt F) → (⟨S2000000x1, .i32⟩ : BufTy).Contents (Elt F)),
    binary main_v178 main_v193 main_v194 ((fun x i => Host.gather gather_S200000x1_S2000000x1_S2000000x1_1_0_n_n_0_1_11 x i) : (⟨S200000x1, .f32⟩ : BufTy).Contents (Elt F) → (⟨S2000000x1, .i32⟩ : BufTy).Contents (Elt F) → (⟨S2000000x1, .f32⟩ : BufTy).Contents (Elt F)) ]

/-- The buffers those operations write, in order. -/
abbrev b28_W : List (Ref sig .tc) :=
  [main_c_24, main_v188, main_v189, main_c_25, main_v190, main_v191, main_v192, main_v193, main_v194]

set_option maxRecDepth 8192 in
set_option maxHeartbeats 4000000 in
theorem b28_writes : (b28 : List (HloOp τ sig (Elt F))).Forall fun op =>
    op.writes ⊆ (b28_W.map (Proc.devRef (τ := τ) .tc)).toFinset := by
  simp only [List.Forall]
  refine ⟨?_, ?_, ?_, ?_, ?_, ?_, ?_, ?_, ?_⟩
  all_goals (simp only [nullary_writes, unary_writes, binary_writes, ternary_writes, reshape_writes, Finset.singleton_subset_iff, List.mem_toFinset]; exact List.mem_map_of_mem (by decide))

set_option maxRecDepth 8192 in
set_option maxHeartbeats 4000000 in
/-- After the statements, from any contents, %194's buffer holds the stage function of what its operands' buffers then hold. -/
theorem b28_v194 (U : Valuation τ sig (Elt Ideal)) :
    after b28 U (Proc.devRef .tc main_v194) = f_gCol (F := Ideal) (after b28 U (Proc.devRef .tc main_v178)) (after b28 U (Proc.devRef .tc main_v169)) := by
  unfold f_gCol
  simp only [b28]
  after_results_simp
  all_goals rfl

/-- The entry function's statements 224 … 232, as the list of their operations. -/
abbrev b29 : List (HloOp τ sig (Elt F)) :=
  [ nullary main_c_26 (constantI S_ 32 0#32),
    unary main_c_26 main_v195 (broadcastInDim S2000000 ![] bcast_S_S2000000 : (⟨S_, .i32⟩ : BufTy).Contents (Elt F) → (⟨S2000000, .i32⟩ : BufTy).Contents (Elt F)),
    binary main_v171 main_v195 main_v196 (cmpi .slt : (⟨S2000000, .i32⟩ : BufTy).Contents (Elt F) → (⟨S2000000, .i32⟩ : BufTy).Contents (Elt F) → (⟨S2000000, .i1⟩ : BufTy).Contents (Elt F)),
    nullary main_c_27 (constantI S_ 32 200000#32),
    unary main_c_27 main_v197 (broadcastInDim S2000000 ![] bcast_S_S2000000 : (⟨S_, .i32⟩ : BufTy).Contents (Elt F) → (⟨S2000000, .i32⟩ : BufTy).Contents (Elt F)),
    binary main_v171 main_v197 main_v198 (addi : (⟨S2000000, .i32⟩ : BufTy).Contents (Elt F) → (⟨S2000000, .i32⟩ : BufTy).Contents (Elt F) → (⟨S2000000, .i32⟩ : BufTy).Contents (Elt F)),
    ternary main_v196 main_v198 main_v171 main_v199 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v199 main_v200 (broadcastInDim S2000000x1 ![0] bcast_S2000000_S2000000x1_0 : (⟨S2000000, .i32⟩ : BufTy).Contents (Elt F) → (⟨S2000000x1, .i32⟩ : BufTy).Contents (Elt F)),
    binary main_v179 main_v200 main_v201 ((fun x i => Host.gather gather_S200000x1_S2000000x1_S2000000x1_1_0_n_n_0_1_11 x i) : (⟨S200000x1, .f32⟩ : BufTy).Contents (Elt F) → (⟨S2000000x1, .i32⟩ : BufTy).Contents (Elt F) → (⟨S2000000x1, .f32⟩ : BufTy).Contents (Elt F)) ]

/-- The buffers those operations write, in order. -/
abbrev b29_W : List (Ref sig .tc) :=
  [main_c_26, main_v195, main_v196, main_c_27, main_v197, main_v198, main_v199, main_v200, main_v201]

set_option maxRecDepth 8192 in
set_option maxHeartbeats 4000000 in
theorem b29_writes : (b29 : List (HloOp τ sig (Elt F))).Forall fun op =>
    op.writes ⊆ (b29_W.map (Proc.devRef (τ := τ) .tc)).toFinset := by
  simp only [List.Forall]
  refine ⟨?_, ?_, ?_, ?_, ?_, ?_, ?_, ?_, ?_⟩
  all_goals (simp only [nullary_writes, unary_writes, binary_writes, ternary_writes, reshape_writes, Finset.singleton_subset_iff, List.mem_toFinset]; exact List.mem_map_of_mem (by decide))

set_option maxRecDepth 8192 in
set_option maxHeartbeats 4000000 in
/-- After the statements, from any contents, %201's buffer holds the stage function of what its operands' buffers then hold. -/
theorem b29_v201 (U : Valuation τ sig (Elt Ideal)) :
    after b29 U (Proc.devRef .tc main_v201) = f_gCol (F := Ideal) (after b29 U (Proc.devRef .tc main_v179)) (after b29 U (Proc.devRef .tc main_v171)) := by
  unfold f_gCol
  simp only [b29]
  after_results_simp
  all_goals rfl

end Cert.ReferenceIdeal.RefRun

end
-- ==== Proof.RefBlocksG.lean ====
/-
  The reference program's host operations, statements 233 … 346 of its entry function, cut into
  stretches.  For each stretch: its operations as a list, the buffers they write, and, for each of the network's
  values computed in it, the statement that after the stretch, from any contents, the value's buffer holds the
  stage function applied to what the buffers of the stage's operands hold after the stretch (an operand computed
  before the stretch is untouched by it, one computed inside it is read at its computed value: no buffer is written
  twice).
-/
import proofs.«154843_j76682346102829_2_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The entry function's statements 233 … 267, as the list of their operations. -/
abbrev b30 : List (HloOp τ sig (Elt F)) :=
  [ binary main_v194 main_v201 main_v202 (addf : (⟨S2000000x1, .f32⟩ : BufTy).Contents (Elt F) → (⟨S2000000x1, .f32⟩ : BufTy).Contents (Elt F) → (⟨S2000000x1, .f32⟩ : BufTy).Contents (Elt F)),
    nullary main_cst_28 (constant S_ .f32 0x00000000#32),
    unary main_cst_28 main_v203 (broadcastInDim S2000000x1 ![] bcast_S_S2000000x1 : (⟨S_, .f32⟩ : BufTy).Contents (Elt F) → (⟨S2000000x1, .f32⟩ : BufTy).Contents (Elt F)),
    binary main_v202 main_v203 main_v204 (cmpf .ogt : (⟨S2000000x1, .f32⟩ : BufTy).Contents (Elt F) → (⟨S2000000x1, .f32⟩ : BufTy).Contents (Elt F) → (⟨S2000000x1, .i1⟩ : BufTy).Contents (Elt F)),
    nullary main_cst_29 (constant S_ .f32 0x3E4CCCCD#32),
    unary main_cst_29 main_v205 (broadcastInDim S2000000x1 ![] bcast_S_S2000000x1 : (⟨S_, .f32⟩ : BufTy).Contents (Elt F) → (⟨S2000000x1, .f32⟩ : BufTy).Contents (Elt F)),
    binary main_v205 main_v202 main_v206 (mulf : (⟨S2000000x1, .f32⟩ : BufTy).Contents (Elt F) → (⟨S2000000x1, .f32⟩ : BufTy).Contents (Elt F) → (⟨S2000000x1, .f32⟩ : BufTy).Contents (Elt F)),
    ternary main_v204 main_v202 main_v206 main_v207 (select : (⟨S2000000x1, .i1⟩ : BufTy).Contents (Elt F) → (⟨S2000000x1, .f32⟩ : BufTy).Contents (Elt F) → (⟨S2000000x1, .f32⟩ : BufTy).Contents (Elt F) → (⟨S2000000x1, .f32⟩ : BufTy).Contents (Elt F)),
    unary main_v207 main_v208 (Host.exp : (⟨S2000000x1, .f32⟩ : BufTy).Contents (Elt F) → (⟨S2000000x1, .f32⟩ : BufTy).Contents (Elt F)),
    nullary main_cst_30 (constant S_ .f32 0x00000000#32),
    unary main_cst_30 main_v209 (broadcastInDim S200000x1 ![] bcast_S_S200000x1 : (⟨S_, .f32⟩ : BufTy).Contents (Elt F) → (⟨S200000x1, .f32⟩ : BufTy).Contents (Elt F)),
    unary main_v169 main_v210 (broadcastInDim S2000000x1 ![0] bcast_S2000000_S2000000x1_0 : (⟨S2000000, .i32⟩ : BufTy).Contents (Elt F) → (⟨S2000000x1, .i32⟩ : BufTy).Contents (Elt F)),
    ternary main_v209 main_v210 main_v208 main_v211 ((fun x i u => Host.scatterAdd scatter_S200000x1_S2000000x1_S2000000x1_1_0_0_1 x i u) : (⟨S200000x1, .f32⟩ : BufTy).Contents (Elt F) → (⟨S2000000x1, .i32⟩ : BufTy).Contents (Elt F) → (⟨S2000000x1, .f32⟩ : BufTy).Contents (Elt F) → (⟨S200000x1, .f32⟩ : BufTy).Contents (Elt F)),
    binary main_v211 main_v187 main_v212 (addf : (⟨S200000x1, .f32⟩ : BufTy).Contents (Elt F) → (⟨S200000x1, .f32⟩ : BufTy).Contents (Elt F) → (⟨S200000x1, .f32⟩ : BufTy).Contents (Elt F)),
    nullary main_c_31 (constantI S_ 32 0#32),
    unary main_c_31 main_v213 (broadcastInDim S2000000 ![] bcast_S_S2000000 : (⟨S_, .i32⟩ : BufTy).Contents (Elt F) → (⟨S2000000, .i32⟩ : BufTy).Contents (Elt F)),
    binary main_v171 main_v213 main_v214 (cmpi .slt : (⟨S2000000, .i32⟩ : BufTy).Contents (Elt F) → (⟨S2000000, .i32⟩ : BufTy).Contents (Elt F) → (⟨S2000000, .i1⟩ : BufTy).Contents (Elt F)),
    nullary main_c_32 (constantI S_ 32 200000#32),
    unary main_c_32 main_v215 (broadcastInDim S2000000 ![] bcast_S_S2000000 : (⟨S_, .i32⟩ : BufTy).Contents (Elt F) → (⟨S2000000, .i32⟩ : BufTy).Contents (Elt F)),
    binary main_v171 main_v215 main_v216 (addi : (⟨S2000000, .i32⟩ : BufTy).Contents (Elt F) → (⟨S2000000, .i32⟩ : BufTy).Contents (Elt F) → (⟨S2000000, .i32⟩ : BufTy).Contents (Elt F)),
    ternary main_v214 main_v216 main_v171 main_v217 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v217 main_v218 (broadcastInDim S2000000x1 ![0] bcast_S2000000_S2000000x1_0 : (⟨S2000000, .i32⟩ : BufTy).Contents (Elt F) → (⟨S2000000x1, .i32⟩ : BufTy).Contents (Elt F)),
    binary main_v167 main_v218 main_v219 ((fun x i => Host.gather gather_S200000x64_S2000000x1_S2000000x64_1_0_n_n_0_1_164 x i) : (⟨S200000x64, .f32⟩ : BufTy).Contents (Elt F) → (⟨S2000000x1, .i32⟩ : BufTy).Contents (Elt F) → (⟨S2000000x64, .f32⟩ : BufTy).Contents (Elt F)),
    unary main_v208 main_v220 (broadcastInDim S2000000x64 ![0, 1] bcast_S2000000x1_S2000000x64_0_1 : (⟨S2000000x1, .f32⟩ : BufTy).Contents (Elt F) → (⟨S2000000x64, .f32⟩ : BufTy).Contents (Elt F)),
    binary main_v220 main_v219 main_v221 (mulf : (⟨S2000000x64, .f32⟩ : BufTy).Contents (Elt F) → (⟨S2000000x64, .f32⟩ : BufTy).Contents (Elt F) → (⟨S2000000x64, .f32⟩ : BufTy).Contents (Elt F)),
    nullary main_cst_33 (constant S_ .f32 0x00000000#32),
    unary main_cst_33 main_v222 (broadcastInDim S200000x64 ![] bcast_S_S200000x64 : (⟨S_, .f32⟩ : BufTy).Contents (Elt F) → (⟨S200000x64, .f32⟩ : BufTy).Contents (Elt F)),
    unary main_v169 main_v223 (broadcastInDim S2000000x1 ![0] bcast_S2000000_S2000000x1_0 : (⟨S2000000, .i32⟩ : BufTy).Contents (Elt F) → (⟨S2000000x1, .i32⟩ : BufTy).Contents (Elt F)),
    ternary main_v222 main_v223 main_v221 main_v224 ((fun x i u => Host.scatterAdd scatter_S200000x64_S2000000x1_S2000000x64_1_0_0_1 x i u) : (⟨S200000x64, .f32⟩ : BufTy).Contents (Elt F) → (⟨S2000000x1, .i32⟩ : BufTy).Contents (Elt F) → (⟨S2000000x64, .f32⟩ : BufTy).Contents (Elt F) → (⟨S200000x64, .f32⟩ : BufTy).Contents (Elt F)),
    unary main_v187 main_v225 (broadcastInDim S200000x64 ![0, 1] bcast_S200000x1_S200000x64_0_1 : (⟨S200000x1, .f32⟩ : BufTy).Contents (Elt F) → (⟨S200000x64, .f32⟩ : BufTy).Contents (Elt F)),
    binary main_v225 main_v159 main_v226 (mulf : (⟨S200000x64, .f32⟩ : BufTy).Contents (Elt F) → (⟨S200000x64, .f32⟩ : BufTy).Contents (Elt F) → (⟨S200000x64, .f32⟩ : BufTy).Contents (Elt F)),
    binary main_v224 main_v226 main_v227 (addf : (⟨S200000x64, .f32⟩ : BufTy).Contents (Elt F) → (⟨S200000x64, .f32⟩ : BufTy).Contents (Elt F) → (⟨S200000x64, .f32⟩ : BufTy).Contents (Elt F)),
    unary main_v212 main_v228 (broadcastInDim S200000x64 ![0, 1] bcast_S200000x1_S200000x64_0_1 : (⟨S200000x1, .f32⟩ : BufTy).Contents (Elt F) → (⟨S200000x64, .f32⟩ : BufTy).Contents (Elt F)),
    binary main_v227 main_v228 main_v229 (Host.divf : (⟨S200000x64, .f32⟩ : BufTy).Contents (Elt F) → (⟨S200000x64, .f32⟩ : BufTy).Contents (Elt F) → (⟨S200000x64, .f32⟩ : BufTy).Contents (Elt F)),
    nullary main_call10_cst (constant S_ .f32 0x00000000#32),
    unary main_call10_cst main_call10_v0 (broadcastInDim S200000x64 ![] bcast_S_S200000x64 : (⟨S_, .f32⟩ : BufTy).Contents (Elt F) → (⟨S200000x64, .f32⟩ : BufTy).Contents (Elt F)),
    binary main_v229 main_call10_v0 main_call10_v1 (cmpf .ogt : (⟨S200000x64, .f32⟩ : BufTy).Contents (Elt F) → (⟨S200000x64, .f32⟩ : BufTy).Contents (Elt F) → (⟨S200000x64, .i1⟩ : BufTy).Contents (Elt F)),
    nullary main_call10_cst_0 (constant S_ .f32 0x00000000#32),
    unary main_call10_cst_0 main_call10_v2 (broadcastInDim S200000x64 ![] bcast_S_S200000x64 : (⟨S_, .f32⟩ : BufTy).Contents (Elt F) → (⟨S200000x64, .f32⟩ : BufTy).Contents (Elt F)),
    binary main_v229 main_call10_v2 main_call10_v3 (cmpf .ogt : (⟨S200000x64, .f32⟩ : BufTy).Contents (Elt F) → (⟨S200000x64, .f32⟩ : BufTy).Contents (Elt F) → (⟨S200000x64, .i1⟩ : BufTy).Contents (Elt F)),
    nullary main_call10_cst_1 (constant S_ .f32 0x00000000#32),
    unary main_call10_cst_1 main_call10_call0_v0 (id : (⟨S_, .f32⟩ : BufTy).Contents (Elt F) → (⟨S_, .f32⟩ : BufTy).Contents (Elt F)),
    unary main_call10_call0_v0 main_call10_call0_v1 (broadcastInDim S200000x64 ![] bcast_S_S200000x64 : (⟨S_, .f32⟩ : BufTy).Contents (Elt F) → (⟨S200000x64, .f32⟩ : BufTy).Contents (Elt F)),
    ternary main_call10_v3 main_call10_call0_v1 main_v229 main_call10_v4 (select : (⟨S200000x64, .i1⟩ : BufTy).Contents (Elt F) → (⟨S200000x64, .f32⟩ : BufTy).Contents (Elt F) → (⟨S200000x64, .f32⟩ : BufTy).Contents (Elt F) → (⟨S200000x64, .f32⟩ : BufTy).Contents (Elt F)),
    unary main_call10_v4 main_call10_v5 (Host.expm1 : (⟨S200000x64, .f32⟩ : BufTy).Contents (Elt F) → (⟨S200000x64, .f32⟩ : BufTy).Contents (Elt F)),
    nullary main_call10_cst_2 (constant S_ .f32 0x3F800000#32),
    unary main_call10_cst_2 main_call10_v6 (broadcastInDim S200000x64 ![] bcast_S_S200000x64 : (⟨S_, .f32⟩ : BufTy).Contents (Elt F) → (⟨S200000x64, .f32⟩ : BufTy).Contents (Elt F)),
    binary main_call10_v6 main_call10_v5 main_call10_v7 (mulf : (⟨S200000x64, .f32⟩ : BufTy).Contents (Elt F) → (⟨S200000x64, .f32⟩ : BufTy).Contents (Elt F) → (⟨S200000x64, .f32⟩ : BufTy).Contents (Elt F)),
    ternary main_call10_v1 main_v229 main_call10_v7 main_v230 (select : (⟨S200000x64, .i1⟩ : BufTy).Contents (Elt F) → (⟨S200000x64, .f32⟩ : BufTy).Contents (Elt F) → (⟨S200000x64, .f32⟩ : BufTy).Contents (Elt F) → (⟨S200000x64, .f32⟩ : BufTy).Contents (Elt F)) ]

/-- The buffers those operations write, in order. -/
abbrev b30_W : List (Ref sig .tc) :=
  [main_v202, main_cst_28, main_v203, main_v204, main_cst_29, main_v205, main_v206, main_v207, main_v208, main_cst_30,
   main_v209, main_v210, main_v211, main_v212, main_c_31, main_v213, main_v214, main_c_32, main_v215, main_v216,
   main_v217, main_v218, main_v219, main_v220, main_v221, main_cst_33, main_v222, main_v223, main_v224, main_v225,
   main_v226, main_v227, main_v228, main_v229, main_call10_cst, main_call10_v0, main_call10_v1, main_call10_cst_0, main_call10_v2, main_call10_v3,
   main_call10_cst_1, main_call10_call0_v0, main_call10_call0_v1, main_call10_v4, main_call10_v5, main_call10_cst_2, main_call10_v6, main_call10_v7, main_v230]

set_option maxRecDepth 8192 in
set_option maxHeartbeats 4000000 in
theorem b30_writes : (b30 : List (HloOp τ sig (Elt F))).Forall fun op =>
    op.writes ⊆ (b30_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (simp only [nullary_writes, unary_writes, binary_writes, ternary_writes, reshape_writes, Finset.singleton_subset_iff, List.mem_toFinset]; exact List.mem_map_of_mem (by decide))

set_option maxRecDepth 8192 in
set_option maxHeartbeats 4000000 in
/-- After the statements, from any contents, %208's buffer holds the stage function of what its operands' buffers then hold. -/
theorem b30_v208 (U : Valuation τ sig (Elt Ideal)) :
    after b30 U (Proc.devRef .tc main_v208) = f_edgeW (F := Ideal) (after b30 U (Proc.devRef .tc main_v194)) (after b30 U (Proc.devRef .tc main_v201)) := by
  unfold f_edgeW
  simp only [b30]
  after_results_simp
  all_goals rfl

set_option maxRecDepth 8192 in
set_option maxHeartbeats 4000000 in
/-- After the statements, from any contents, %211's buffer holds the stage function of what its operands' buffers then hold. -/
theorem b30_v211 (U : Valuation τ sig (Elt Ideal)) :
    after b30 U (Proc.devRef .tc main_v211) = f_segCol (F := Ideal) (after b30 U (Proc.devRef .tc main_v169)) (after b30 U (Proc.devRef .tc main_v208)) := by
  unfold f_segCol
  simp only [b30]
  after_results_simp
  all_goals rfl

set_option maxRecDepth 8192 in
set_option maxHeartbeats 4000000 in
/-- After the statements, from any contents, %219's buffer holds the stage function of what its operands' buffers then hold. -/
theorem b30_v219 (U : Valuation τ sig (Elt Ideal)) :
    after b30 U (Proc.devRef .tc main_v219) = f_gRow (F := Ideal) (after b30 U (Proc.devRef .tc main_v167)) (after b30 U (Proc.devRef .tc main_v171)) := by
  unfold f_gRow
  simp only [b30]
  after_results_simp
  all_goals rfl

set_option maxRecDepth 8192 in
set_option maxHeartbeats 4000000 in
/-- After the statements, from any contents, %221's buffer holds the stage function of what its operands' buffers then hold. -/
theorem b30_v221 (U : Valuation τ sig (Elt Ideal)) :
    after b30 U (Proc.devRef .tc main_v221) = f_edgeWH (F := Ideal) (after b30 U (Proc.devRef .tc main_v194)) (after b30 U (Proc.devRef .tc main_v201)) (after b30 U (Proc.devRef .tc main_v219)) := by
  unfold f_edgeWH
  simp only [b30]
  after_results_simp
  all_goals rfl

set_option maxRecDepth 8192 in
set_option maxHeartbeats 4000000 in
/-- After the statements, from any contents, %224's buffer holds the stage function of what its operands' buffers then hold. -/
theorem b30_v224 (U : Valuation τ sig (Elt Ideal)) :
    after b30 U (Proc.devRef .tc main_v224) = f_segRow (F := Ideal) (after b30 U (Proc.devRef .tc main_v169)) (after b30 U (Proc.devRef .tc main_v221)) := by
  unfold f_segRow
  simp only [b30]
  after_results_simp
  all_goals rfl

set_option maxRecDepth 8192 in
set_option maxHeartbeats 4000000 in
/-- After the statements, from any contents, %230's buffer holds the stage function of what its operands' buffers then hold. -/
theorem b30_v230 (U : Valuation τ sig (Elt Ideal)) :
    after b30 U (Proc.devRef .tc main_v230) = f_norm (F := Ideal) (after b30 U (Proc.devRef .tc main_v224)) (after b30 U (Proc.devRef .tc main_v211)) (after b30 U (Proc.devRef .tc main_v187)) (after b30 U (Proc.devRef .tc main_v159)) := by
  unfold f_norm
  simp only [b30]
  after_results_simp
  all_goals rfl

/-- The entry function's statements 268 … 342, as the list of their operations. -/
abbrev b31 : List (HloOp τ sig (Elt F)) :=
  [ unary main_arg3 main_v231 ((extractStridedSlice S1x2000000 ![0, 0] · slices_S2x2000000_S1x2000000_0_0) : (⟨S2x2000000, .i32⟩ : BufTy).Contents (Elt F) → (⟨S1x2000000, .i32⟩ : BufTy).Contents (Elt F)),
    reshape main_v231 main_v232 rfl shapeCasts_S1x2000000_S2000000,
    unary main_arg3 main_v233 ((extractStridedSlice S1x2000000 ![1, 0] · slices_S2x2000000_S1x2000000_1_0) : (⟨S2x2000000, .i32⟩ : BufTy).Contents (Elt F) → (⟨S1x2000000, .i32⟩ : BufTy).Contents (Elt F)),
    reshape main_v233 main_v234 rfl shapeCasts_S1x2000000_S2000000,
    unary main_arg12 main_v235 ((extractStridedSlice S1x64 ![1, 0] · slices_S2x64_S1x64_1_0) : (⟨S2x64, .f32⟩ : BufTy).Contents (Elt F) → (⟨S1x64, .f32⟩ : BufTy).Contents (Elt F)),
    reshape main_v235 main_v236 rfl shapeCasts_S1x64_S64,
    unary main_v236 main_v237 (broadcastInDim S64x1 ![0] bcast_S64_S64x1_0 : (⟨S64, .f32⟩ : BufTy).Contents (Elt F) → (⟨S64x1, .f32⟩ : BufTy).Contents (Elt F)),
    unary main_arg13 main_v238 ((extractStridedSlice S1x64 ![1, 0] · slices_S2x64_S1x64_1_0) : (⟨S2x64, .f32⟩ : BufTy).Contents (Elt F) → (⟨S1x64, .f32⟩ : BufTy).Contents (Elt F)),
    reshape main_v238 main_v239 rfl shapeCasts_S1x64_S64,
    unary main_v239 main_v240 (broadcastInDim S64x1 ![0] bcast_S64_S64x1_0 : (⟨S64, .f32⟩ : BufTy).Contents (Elt F) → (⟨S64x1, .f32⟩ : BufTy).Contents (Elt F)),
    binary main_v167 main_v237 main_v241 ((fun l r => Host.dotGeneral dot_S200000x64_S64x1_S200000x1_1_0_0_1_n_n none l r) : (⟨S200000x64, .f32⟩ : BufTy).Contents (Elt F) → (⟨S64x1, .f32⟩ : BufTy).Contents (Elt F) → (⟨S200000x1, .f32⟩ : BufTy).Contents (Elt F)),
    binary main_v159 main_v240 main_v242 ((fun l r => Host.dotGeneral dot_S200000x64_S64x1_S200000x1_1_0_0_1_n_n none l r) : (⟨S200000x64, .f32⟩ : BufTy).Contents (Elt F) → (⟨S64x1, .f32⟩ : BufTy).Contents (Elt F) → (⟨S200000x1, .f32⟩ : BufTy).Contents (Elt F)),
    binary main_v167 main_v240 main_v243 ((fun l r => Host.dotGeneral dot_S200000x64_S64x1_S200000x1_1_0_0_1_n_n none l r) : (⟨S200000x64, .f32⟩ : BufTy).Contents (Elt F) → (⟨S64x1, .f32⟩ : BufTy).Contents (Elt F) → (⟨S200000x1, .f32⟩ : BufTy).Contents (Elt F)),
    binary main_v241 main_v243 main_v244 (addf : (⟨S200000x1, .f32⟩ : BufTy).Contents (Elt F) → (⟨S200000x1, .f32⟩ : BufTy).Contents (Elt F) → (⟨S200000x1, .f32⟩ : BufTy).Contents (Elt F)),
    nullary main_cst_34 (constant S_ .f32 0x00000000#32),
    unary main_cst_34 main_v245 (broadcastInDim S200000x1 ![] bcast_S_S200000x1 : (⟨S_, .f32⟩ : BufTy).Contents (Elt F) → (⟨S200000x1, .f32⟩ : BufTy).Contents (Elt F)),
    binary main_v244 main_v245 main_v246 (cmpf .ogt : (⟨S200000x1, .f32⟩ : BufTy).Contents (Elt F) → (⟨S200000x1, .f32⟩ : BufTy).Contents (Elt F) → (⟨S200000x1, .i1⟩ : BufTy).Contents (Elt F)),
    nullary main_cst_35 (constant S_ .f32 0x3E4CCCCD#32),
    unary main_cst_35 main_v247 (broadcastInDim S200000x1 ![] bcast_S_S200000x1 : (⟨S_, .f32⟩ : BufTy).Contents (Elt F) → (⟨S200000x1, .f32⟩ : BufTy).Contents (Elt F)),
    binary main_v247 main_v244 main_v248 (mulf : (⟨S200000x1, .f32⟩ : BufTy).Contents (Elt F) → (⟨S200000x1, .f32⟩ : BufTy).Contents (Elt F) → (⟨S200000x1, .f32⟩ : BufTy).Contents (Elt F)),
    ternary main_v246 main_v244 main_v248 main_v249 (select : (⟨S200000x1, .i1⟩ : BufTy).Contents (Elt F) → (⟨S200000x1, .f32⟩ : BufTy).Contents (Elt F) → (⟨S200000x1, .f32⟩ : BufTy).Contents (Elt F) → (⟨S200000x1, .f32⟩ : BufTy).Contents (Elt F)),
    unary main_v249 main_v250 (Host.exp : (⟨S200000x1, .f32⟩ : BufTy).Contents (Elt F) → (⟨S200000x1, .f32⟩ : BufTy).Contents (Elt F)),
    nullary main_c_36 (constantI S_ 32 0#32),
    unary main_c_36 main_v251 (broadcastInDim S2000000 ![] bcast_S_S2000000 : (⟨S_, .i32⟩ : BufTy).Contents (Elt F) → (⟨S2000000, .i32⟩ : BufTy).Contents (Elt F)),
    binary main_v232 main_v251 main_v252 (cmpi .slt : (⟨S2000000, .i32⟩ : BufTy).Contents (Elt F) → (⟨S2000000, .i32⟩ : BufTy).Contents (Elt F) → (⟨S2000000, .i1⟩ : BufTy).Contents (Elt F)),
    nullary main_c_37 (constantI S_ 32 200000#32),
    unary main_c_37 main_v253 (broadcastInDim S2000000 ![] bcast_S_S2000000 : (⟨S_, .i32⟩ : BufTy).Contents (Elt F) → (⟨S2000000, .i32⟩ : BufTy).Contents (Elt F)),
    binary main_v232 main_v253 main_v254 (addi : (⟨S2000000, .i32⟩ : BufTy).Contents (Elt F) → (⟨S2000000, .i32⟩ : BufTy).Contents (Elt F) → (⟨S2000000, .i32⟩ : BufTy).Contents (Elt F)),
    ternary main_v252 main_v254 main_v232 main_v255 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v255 main_v256 (broadcastInDim S2000000x1 ![0] bcast_S2000000_S2000000x1_0 : (⟨S2000000, .i32⟩ : BufTy).Contents (Elt F) → (⟨S2000000x1, .i32⟩ : BufTy).Contents (Elt F)),
    binary main_v241 main_v256 main_v257 ((fun x i => Host.gather gather_S200000x1_S2000000x1_S2000000x1_1_0_n_n_0_1_11 x i) : (⟨S200000x1, .f32⟩ : BufTy).Contents (Elt F) → (⟨S2000000x1, .i32⟩ : BufTy).Contents (Elt F) → (⟨S2000000x1, .f32⟩ : BufTy).Contents (Elt F)),
    nullary main_c_38 (constantI S_ 32 0#32),
    unary main_c_38 main_v258 (broadcastInDim S2000000 ![] bcast_S_S2000000 : (⟨S_, .i32⟩ : BufTy).Contents (Elt F) → (⟨S2000000, .i32⟩ : BufTy).Contents (Elt F)),
    binary main_v234 main_v258 main_v259 (cmpi .slt : (⟨S2000000, .i32⟩ : BufTy).Contents (Elt F) → (⟨S2000000, .i32⟩ : BufTy).Contents (Elt F) → (⟨S2000000, .i1⟩ : BufTy).Contents (Elt F)),
    nullary main_c_39 (constantI S_ 32 200000#32),
    unary main_c_39 main_v260 (broadcastInDim S2000000 ![] bcast_S_S2000000 : (⟨S_, .i32⟩ : BufTy).Contents (Elt F) → (⟨S2000000, .i32⟩ : BufTy).Contents (Elt F)),
    binary main_v234 main_v260 main_v261 (addi : (⟨S2000000, .i32⟩ : BufTy).Contents (Elt F) → (⟨S2000000, .i32⟩ : BufTy).Contents (Elt F) → (⟨S2000000, .i32⟩ : BufTy).Contents (Elt F)),
    ternary main_v259 main_v261 main_v234 main_v262 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v262 main_v263 (broadcastInDim S2000000x1 ![0] bcast_S2000000_S2000000x1_0 : (⟨S2000000, .i32⟩ : BufTy).Contents (Elt F) → (⟨S2000000x1, .i32⟩ : BufTy).Contents (Elt F)),
    binary main_v242 main_v263 main_v264 ((fun x i => Host.gather gather_S200000x1_S2000000x1_S2000000x1_1_0_n_n_0_1_11 x i) : (⟨S200000x1, .f32⟩ : BufTy).Contents (Elt F) → (⟨S2000000x1, .i32⟩ : BufTy).Contents (Elt F) → (⟨S2000000x1, .f32⟩ : BufTy).Contents (Elt F)),
    binary main_v257 main_v264 main_v265 (addf : (⟨S2000000x1, .f32⟩ : BufTy).Contents (Elt F) → (⟨S2000000x1, .f32⟩ : BufTy).Contents (Elt F) → (⟨S2000000x1, .f32⟩ : BufTy).Contents (Elt F)),
    nullary main_cst_40 (constant S_ .f32 0x00000000#32),
    unary main_cst_40 main_v266 (broadcastInDim S2000000x1 ![] bcast_S_S2000000x1 : (⟨S_, .f32⟩ : BufTy).Contents (Elt F) → (⟨S2000000x1, .f32⟩ : BufTy).Contents (Elt F)),
    binary main_v265 main_v266 main_v267 (cmpf .ogt : (⟨S2000000x1, .f32⟩ : BufTy).Contents (Elt F) → (⟨S2000000x1, .f32⟩ : BufTy).Contents (Elt F) → (⟨S2000000x1, .i1⟩ : BufTy).Contents (Elt F)),
    nullary main_cst_41 (constant S_ .f32 0x3E4CCCCD#32),
    unary main_cst_41 main_v268 (broadcastInDim S2000000x1 ![] bcast_S_S2000000x1 : (⟨S_, .f32⟩ : BufTy).Contents (Elt F) → (⟨S2000000x1, .f32⟩ : BufTy).Contents (Elt F)),
    binary main_v268 main_v265 main_v269 (mulf : (⟨S2000000x1, .f32⟩ : BufTy).Contents (Elt F) → (⟨S2000000x1, .f32⟩ : BufTy).Contents (Elt F) → (⟨S2000000x1, .f32⟩ : BufTy).Contents (Elt F)),
    ternary main_v267 main_v265 main_v269 main_v270 (select : (⟨S2000000x1, .i1⟩ : BufTy).Contents (Elt F) → (⟨S2000000x1, .f32⟩ : BufTy).Contents (Elt F) → (⟨S2000000x1, .f32⟩ : BufTy).Contents (Elt F) → (⟨S2000000x1, .f32⟩ : BufTy).Contents (Elt F)),
    unary main_v270 main_v271 (Host.exp : (⟨S2000000x1, .f32⟩ : BufTy).Contents (Elt F) → (⟨S2000000x1, .f32⟩ : BufTy).Contents (Elt F)),
    nullary main_cst_42 (constant S_ .f32 0x00000000#32),
    unary main_cst_42 main_v272 (broadcastInDim S200000x1 ![] bcast_S_S200000x1 : (⟨S_, .f32⟩ : BufTy).Contents (Elt F) → (⟨S200000x1, .f32⟩ : BufTy).Contents (Elt F)),
    unary main_v232 main_v273 (broadcastInDim S2000000x1 ![0] bcast_S2000000_S2000000x1_0 : (⟨S2000000, .i32⟩ : BufTy).Contents (Elt F) → (⟨S2000000x1, .i32⟩ : BufTy).Contents (Elt F)),
    ternary main_v272 main_v273 main_v271 main_v274 ((fun x i u => Host.scatterAdd scatter_S200000x1_S2000000x1_S2000000x1_1_0_0_1 x i u) : (⟨S200000x1, .f32⟩ : BufTy).Contents (Elt F) → (⟨S2000000x1, .i32⟩ : BufTy).Contents (Elt F) → (⟨S2000000x1, .f32⟩ : BufTy).Contents (Elt F) → (⟨S200000x1, .f32⟩ : BufTy).Contents (Elt F)),
    binary main_v274 main_v250 main_v275 (addf : (⟨S200000x1, .f32⟩ : BufTy).Contents (Elt F) → (⟨S200000x1, .f32⟩ : BufTy).Contents (Elt F) → (⟨S200000x1, .f32⟩ : BufTy).Contents (Elt F)),
    nullary main_c_43 (constantI S_ 32 0#32),
    unary main_c_43 main_v276 (broadcastInDim S2000000 ![] bcast_S_S2000000 : (⟨S_, .i32⟩ : BufTy).Contents (Elt F) → (⟨S2000000, .i32⟩ : BufTy).Contents (Elt F)),
    binary main_v234 main_v276 main_v277 (cmpi .slt : (⟨S2000000, .i32⟩ : BufTy).Contents (Elt F) → (⟨S2000000, .i32⟩ : BufTy).Contents (Elt F) → (⟨S2000000, .i1⟩ : BufTy).Contents (Elt F)),
    nullary main_c_44 (constantI S_ 32 200000#32),
    unary main_c_44 main_v278 (broadcastInDim S2000000 ![] bcast_S_S2000000 : (⟨S_, .i32⟩ : BufTy).Contents (Elt F) → (⟨S2000000, .i32⟩ : BufTy).Contents (Elt F)),
    binary main_v234 main_v278 main_v279 (addi : (⟨S2000000, .i32⟩ : BufTy).Contents (Elt F) → (⟨S2000000, .i32⟩ : BufTy).Contents (Elt F) → (⟨S2000000, .i32⟩ : BufTy).Contents (Elt F)),
    ternary main_v277 main_v279 main_v234 main_v280 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v280 main_v281 (broadcastInDim S2000000x1 ![0] bcast_S2000000_S2000000x1_0 : (⟨S2000000, .i32⟩ : BufTy).Contents (Elt F) → (⟨S2000000x1, .i32⟩ : BufTy).Contents (Elt F)),
    binary main_v159 main_v281 main_v282 ((fun x i => Host.gather gather_S200000x64_S2000000x1_S2000000x64_1_0_n_n_0_1_164 x i) : (⟨S200000x64, .f32⟩ : BufTy).Contents (Elt F) → (⟨S2000000x1, .i32⟩ : BufTy).Contents (Elt F) → (⟨S2000000x64, .f32⟩ : BufTy).Contents (Elt F)),
    unary main_v271 main_v283 (broadcastInDim S2000000x64 ![0, 1] bcast_S2000000x1_S2000000x64_0_1 : (⟨S2000000x1, .f32⟩ : BufTy).Contents (Elt F) → (⟨S2000000x64, .f32⟩ : BufTy).Contents (Elt F)),
    binary main_v283 main_v282 main_v284 (mulf : (⟨S2000000x64, .f32⟩ : BufTy).Contents (Elt F) → (⟨S2000000x64, .f32⟩ : BufTy).Contents (Elt F) → (⟨S2000000x64, .f32⟩ : BufTy).Contents (Elt F)),
    nullary main_cst_45 (constant S_ .f32 0x00000000#32),
    unary main_cst_45 main_v285 (broadcastInDim S200000x64 ![] bcast_S_S200000x64 : (⟨S_, .f32⟩ : BufTy).Contents (Elt F) → (⟨S200000x64, .f32⟩ : BufTy).Contents (Elt F)),
    unary main_v232 main_v286 (broadcastInDim S2000000x1 ![0] bcast_S2000000_S2000000x1_0 : (⟨S2000000, .i32⟩ : BufTy).Contents (Elt F) → (⟨S2000000x1, .i32⟩ : BufTy).Contents (Elt F)),
    ternary main_v285 main_v286 main_v284 main_v287 ((fun x i u => Host.scatterAdd scatter_S200000x64_S2000000x1_S2000000x64_1_0_0_1 x i u) : (⟨S200000x64, .f32⟩ : BufTy).Contents (Elt F) → (⟨S2000000x1, .i32⟩ : BufTy).Contents (Elt F) → (⟨S2000000x64, .f32⟩ : BufTy).Contents (Elt F) → (⟨S200000x64, .f32⟩ : BufTy).Contents (Elt F)),
    unary main_v250 main_v288 (broadcastInDim S200000x64 ![0, 1] bcast_S200000x1_S200000x64_0_1 : (⟨S200000x1, .f32⟩ : BufTy).Contents (Elt F) → (⟨S200000x64, .f32⟩ : BufTy).Contents (Elt F)),
    binary main_v288 main_v167 main_v289 (mulf : (⟨S200000x64, .f32⟩ : BufTy).Contents (Elt F) → (⟨S200000x64, .f32⟩ : BufTy).Contents (Elt F) → (⟨S200000x64, .f32⟩ : BufTy).Contents (Elt F)),
    binary main_v287 main_v289 main_v290 (addf : (⟨S200000x64, .f32⟩ : BufTy).Contents (Elt F) → (⟨S200000x64, .f32⟩ : BufTy).Contents (Elt F) → (⟨S200000x64, .f32⟩ : BufTy).Contents (Elt F)),
    unary main_v275 main_v291 (broadcastInDim S200000x64 ![0, 1] bcast_S200000x1_S200000x64_0_1 : (⟨S200000x1, .f32⟩ : BufTy).Contents (Elt F) → (⟨S200000x64, .f32⟩ : BufTy).Contents (Elt F)),
    binary main_v290 main_v291 main_v292 (Host.divf : (⟨S200000x64, .f32⟩ : BufTy).Contents (Elt F) → (⟨S200000x64, .f32⟩ : BufTy).Contents (Elt F) → (⟨S200000x64, .f32⟩ : BufTy).Contents (Elt F)),
    nullary main_call13_cst (constant S_ .f32 0x00000000#32),
    unary main_call13_cst main_call13_v0 (broadcastInDim S200000x64 ![] bcast_S_S200000x64 : (⟨S_, .f32⟩ : BufTy).Contents (Elt F) → (⟨S200000x64, .f32⟩ : BufTy).Contents (Elt F)),
    binary main_v292 main_call13_v0 main_call13_v1 (cmpf .ogt : (⟨S200000x64, .f32⟩ : BufTy).Contents (Elt F) → (⟨S200000x64, .f32⟩ : BufTy).Contents (Elt F) → (⟨S200000x64, .i1⟩ : BufTy).Contents (Elt F)),
    nullary main_call13_cst_0 (constant S_ .f32 0x00000000#32),
    unary main_call13_cst_0 main_call13_v2 (broadcastInDim S200000x64 ![] bcast_S_S200000x64 : (⟨S_, .f32⟩ : BufTy).Contents (Elt F) → (⟨S200000x64, .f32⟩ : BufTy).Contents (Elt F)),
    binary main_v292 main_call13_v2 main_call13_v3 (cmpf .ogt : (⟨S200000x64, .f32⟩ : BufTy).Contents (Elt F) → (⟨S200000x64, .f32⟩ : BufTy).Contents (Elt F) → (⟨S200000x64, .i1⟩ : BufTy).Contents (Elt F)),
    nullary main_call13_cst_1 (constant S_ .f32 0x00000000#32),
    unary main_call13_cst_1 main_call13_call0_v0 (id : (⟨S_, .f32⟩ : BufTy).Contents (Elt F) → (⟨S_, .f32⟩ : BufTy).Contents (Elt F)),
    unary main_call13_call0_v0 main_call13_call0_v1 (broadcastInDim S200000x64 ![] bcast_S_S200000x64 : (⟨S_, .f32⟩ : BufTy).Contents (Elt F) → (⟨S200000x64, .f32⟩ : BufTy).Contents (Elt F)),
    ternary main_call13_v3 main_call13_call0_v1 main_v292 main_call13_v4 (select : (⟨S200000x64, .i1⟩ : BufTy).Contents (Elt F) → (⟨S200000x64, .f32⟩ : BufTy).Contents (Elt F) → (⟨S200000x64, .f32⟩ : BufTy).Contents (Elt F) → (⟨S200000x64, .f32⟩ : BufTy).Contents (Elt F)),
    unary main_call13_v4 main_call13_v5 (Host.expm1 : (⟨S200000x64, .f32⟩ : BufTy).Contents (Elt F) → (⟨S200000x64, .f32⟩ : BufTy).Contents (Elt F)),
    nullary main_call13_cst_2 (constant S_ .f32 0x3F800000#32),
    unary main_call13_cst_2 main_call13_v6 (broadcastInDim S200000x64 ![] bcast_S_S200000x64 : (⟨S_, .f32⟩ : BufTy).Contents (Elt F) → (⟨S200000x64, .f32⟩ : BufTy).Contents (Elt F)),
    binary main_call13_v6 main_call13_v5 main_call13_v7 (mulf : (⟨S200000x64, .f32⟩ : BufTy).Contents (Elt F) → (⟨S200000x64, .f32⟩ : BufTy).Contents (Elt F) → (⟨S200000x64, .f32⟩ : BufTy).Contents (Elt F)),
    ternary main_call13_v1 main_v292 main_call13_v7 main_v293 (select : (⟨S200000x64, .i1⟩ : BufTy).Contents (Elt F) → (⟨S200000x64, .f32⟩ : BufTy).Contents (Elt F) → (⟨S200000x64, .f32⟩ : BufTy).Contents (Elt F) → (⟨S200000x64, .f32⟩ : BufTy).Contents (Elt F)) ]

/-- The buffers those operations write, in order. -/
abbrev b31_W : List (Ref sig .tc) :=
  [main_v231, main_v232, main_v233, main_v234, main_v235, main_v236, main_v237, main_v238, main_v239, main_v240,
   main_v241, main_v242, main_v243, main_v244, main_cst_34, main_v245, main_v246, main_cst_35, main_v247, main_v248,
   main_v249, main_v250, main_c_36, main_v251, main_v252, main_c_37, main_v253, main_v254, main_v255, main_v256,
   main_v257, main_c_38, main_v258, main_v259, main_c_39, main_v260, main_v261, main_v262, main_v263, main_v264,
   main_v265, main_cst_40, main_v266, main_v267, main_cst_41, main_v268, main_v269, main_v270, main_v271, main_cst_42,
   main_v272, main_v273, main_v274, main_v275, main_c_43, main_v276, main_v277, main_c_44, main_v278, main_v279,
   main_v280, main_v281, main_v282, main_v283, main_v284, main_cst_45, main_v285, main_v286, main_v287, main_v288,
   main_v289, main_v290, main_v291, main_v292, main_call13_cst, main_call13_v0, main_call13_v1, main_call13_cst_0, main_call13_v2, main_call13_v3,
   main_call13_cst_1, main_call13_call0_v0, main_call13_call0_v1, main_call13_v4, main_call13_v5, main_call13_cst_2, main_call13_v6, main_call13_v7, main_v293]

set_option maxRecDepth 8192 in
set_option maxHeartbeats 4000000 in
theorem b31_writes : (b31 : List (HloOp τ sig (Elt F))).Forall fun op =>
    op.writes ⊆ (b31_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (simp only [nullary_writes, unary_writes, binary_writes, ternary_writes, reshape_writes, Finset.singleton_subset_iff, List.mem_toFinset]; exact List.mem_map_of_mem (by decide))

/-- The entry function's statements 343 … 346, as the list of their operations. -/
abbrev b32 : List (HloOp τ sig (Elt F)) :=
  [ binary main_v230 main_arg14 main_v294 ((fun l r => Host.dotGeneral dot_S200000x64_S64x32_S200000x32_1_0_0_1_n_n none l r) : (⟨S200000x64, .f32⟩ : BufTy).Contents (Elt F) → (⟨S64x32, .f32⟩ : BufTy).Contents (Elt F) → (⟨S200000x32, .f32⟩ : BufTy).Contents (Elt F)),
    unary main_arg15 main_v295 (broadcastInDim S1x32 ![1] bcast_S32_S1x32_1 : (⟨S32, .f32⟩ : BufTy).Contents (Elt F) → (⟨S1x32, .f32⟩ : BufTy).Contents (Elt F)),
    unary main_v295 main_v296 (broadcastInDim S200000x32 ![0, 1] bcast_S1x32_S200000x32_0_1 : (⟨S1x32, .f32⟩ : BufTy).Contents (Elt F) → (⟨S200000x32, .f32⟩ : BufTy).Contents (Elt F)),
    binary main_v294 main_v296 main_v297 (addf : (⟨S200000x32, .f32⟩ : BufTy).Contents (Elt F) → (⟨S200000x32, .f32⟩ : BufTy).Contents (Elt F) → (⟨S200000x32, .f32⟩ : BufTy).Contents (Elt F)) ]

/-- The buffers those operations write, in order. -/
abbrev b32_W : List (Ref sig .tc) :=
  [main_v294, main_v295, main_v296, main_v297]

set_option maxRecDepth 8192 in
set_option maxHeartbeats 4000000 in
theorem b32_writes : (b32 : List (HloOp τ sig (Elt F))).Forall fun op =>
    op.writes ⊆ (b32_W.map (Proc.devRef (τ := τ) .tc)).toFinset := by
  simp only [List.Forall]
  refine ⟨?_, ?_, ?_, ?_⟩
  all_goals (simp only [nullary_writes, unary_writes, binary_writes, ternary_writes, reshape_writes, Finset.singleton_subset_iff, List.mem_toFinset]; exact List.mem_map_of_mem (by decide))

set_option maxRecDepth 8192 in
set_option maxHeartbeats 4000000 in
/-- After the statements, from any contents, %297's buffer holds the stage function of what its operands' buffers then hold. -/
theorem b32_v297 (U : Valuation τ sig (Elt Ideal)) :
    after b32 U (Proc.devRef .tc main_v297) = f_denseOut (F := Ideal) (after b32 U (Proc.devRef .tc main_v230)) (after b32 U (Proc.devRef .tc main_arg14)) (after b32 U (Proc.devRef .tc main_arg15)) := by
  unfold f_denseOut
  simp only [b32]
  after_results_simp
  all_goals rfl

end Cert.ReferenceIdeal.RefRun

end
-- ==== Proof.RefValues.lean ====
/-
  The reference program's buffers, after its run, hold the network's values.

  The 406 operations are cut into consecutive stretches; no buffer is written twice, so a buffer written in one stretch
  keeps what that stretch leaves in it through all the later ones, and a buffer read in a stretch was left by an
  earlier one (or is an argument).  Hence, on the contents after the whole run, every value's buffer holds its stage
  function of what its operands' buffers hold; reading the operands in turn, down to the arguments, each of the
  network's values is identified with the buffer the reference computes it in.  The last is the result.
-/
import proofs.«154843_j76682346102829_2_alg».proof.Proof.RefRun
import proofs.«154843_j76682346102829_2_alg».proof.Proof.RefBlocksA
import proofs.«154843_j76682346102829_2_alg».proof.Proof.RefBlocksB
import proofs.«154843_j76682346102829_2_alg».proof.Proof.RefBlocksC
import proofs.«154843_j76682346102829_2_alg».proof.Proof.RefBlocksD
import proofs.«154843_j76682346102829_2_alg».proof.Proof.RefBlocksE
import proofs.«154843_j76682346102829_2_alg».proof.Proof.RefBlocksG

noncomputable section

namespace Cert.ReferenceIdeal.RefRun

open Cert.ReferenceIdeal Cert.ReferenceIdeal.Gen Idealize.ShloMosaic Idealize.ShloMosaic.TcCoe Idealize.SL.Sem Idealize.ShloMosaic.StableHlo

section Generic
variable {F : FTy → Type} [FloatOps F]

/-- Two lines whose writes lie in two lists of buffers: their concatenation's lie in the lists' concatenation. -/
theorem writes_app {l₁ l₂ : List (HloOp τ sig (Elt F))} {W₁ W₂ : List (Ref sig .tc)}
    (h₁ : l₁.Forall fun op => op.writes ⊆ (W₁.map (Proc.devRef (τ := τ) .tc)).toFinset)
    (h₂ : l₂.Forall fun op => op.writes ⊆ (W₂.map (Proc.devRef (τ := τ) .tc)).toFinset) :
    (l₁ ++ l₂).Forall fun op => op.writes ⊆ ((W₁ ++ W₂).map (Proc.devRef (τ := τ) .tc)).toFinset :=
  List.forall_iff_forall_mem.mpr fun op hop => by
    rw [List.map_append, List.toFinset_append]
    rcases List.mem_append.mp hop with h | h
    · exact (List.forall_iff_forall_mem.mp h₁ op h).trans Finset.subset_union_left
    · exact (List.forall_iff_forall_mem.mp h₂ op h).trans Finset.subset_union_right

/-- The stretches from the `k`-th on, one after the other. -/
abbrev tail33 : List (HloOp τ sig (Elt F)) := []
abbrev tail32 : List (HloOp τ sig (Elt F)) := b32 ++ tail33
abbrev tail31 : List (HloOp τ sig (Elt F)) := b31 ++ tail32
abbrev tail30 : List (HloOp τ sig (Elt F)) := b30 ++ tail31
abbrev tail29 : List (HloOp τ sig (Elt F)) := b29 ++ tail30
abbrev tail28 : List (HloOp τ sig (Elt F)) := b28 ++ tail29
abbrev tail27 : List (HloOp τ sig (Elt F)) := b27 ++ tail28
abbrev tail26 : List (HloOp τ sig (Elt F)) := b26 ++ tail27
abbrev tail25 : List (HloOp τ sig (Elt F)) := b25 ++ tail26
abbrev tail24 : List (HloOp τ sig (Elt F)) := b24 ++ tail25
abbrev tail23 : List (HloOp τ sig (Elt F)) := b23 ++ tail24
abbrev tail22 : List (HloOp τ sig (Elt F)) := b22 ++ tail23
abbrev tail21 : List (HloOp τ sig (Elt F)) := b21 ++ tail22
abbrev tail20 : List (HloOp τ sig (Elt F)) := b20 ++ tail21
abbrev tail19 : List (HloOp τ sig (Elt F)) := b19 ++ tail20
abbrev tail18 : List (HloOp τ sig (Elt F)) := b18 ++ tail19
abbrev tail17 : List (HloOp τ sig (Elt F)) := b17 ++ tail18
abbrev tail16 : List (HloOp τ sig (Elt F)) := b16 ++ tail17
abbrev tail15 : List (HloOp τ sig (Elt F)) := b15 ++ tail16
abbrev tail14 : List (HloOp τ sig (Elt F)) := b14 ++ tail15
abbrev tail13 : List (HloOp τ sig (Elt F)) := b13 ++ tail14
abbrev tail12 : List (HloOp τ sig (Elt F)) := b12 ++ tail13
abbrev tail11 : List (HloOp τ sig (Elt F)) := b11 ++ tail12
abbrev tail10 : List (HloOp τ sig (Elt F)) := b10 ++ tail11
abbrev tail9 : List (HloOp τ sig (Elt F)) := b9 ++ tail10
abbrev tail8 : List (HloOp τ sig (Elt F)) := b8 ++ tail9
abbrev tail7 : List (HloOp τ sig (Elt F)) := b7 ++ tail8
abbrev tail6 : List (HloOp τ sig (Elt F)) := b6 ++ tail7
abbrev tail5 : List (HloOp τ sig (Elt F)) := b5 ++ tail6
abbrev tail4 : List (HloOp τ sig (Elt F)) := b4 ++ tail5
abbrev tail3 : List (HloOp τ sig (Elt F)) := b3 ++ tail4
abbrev tail2 : List (HloOp τ sig (Elt F)) := b2 ++ tail3
abbrev tail1 : List (HloOp τ sig (Elt F)) := b1 ++ tail2
abbrev tail0 : List (HloOp τ sig (Elt F)) := b0 ++ tail1

/-- The buffers they write. -/
abbrev tailW33 : List (Ref sig .tc) := []
abbrev tailW32 : List (Ref sig .tc) := b32_W ++ tailW33
abbrev tailW31 : List (Ref sig .tc) := b31_W ++ tailW32
abbrev tailW30 : List (Ref sig .tc) := b30_W ++ tailW31
abbrev tailW29 : List (Ref sig .tc) := b29_W ++ tailW30
abbrev tailW28 : List (Ref sig .tc) := b28_W ++ tailW29
abbrev tailW27 : List (Ref sig .tc) := b27_W ++ tailW28
abbrev tailW26 : List (Ref sig .tc) := b26_W ++ tailW27
abbrev tailW25 : List (Ref sig .tc) := b25_W ++ tailW26
abbrev tailW24 : List (Ref sig .tc) := b24_W ++ tailW25
abbrev tailW23 : List (Ref sig .tc) := b23_W ++ tailW24
abbrev tailW22 : List (Ref sig .tc) := b22_W ++ tailW23
abbrev tailW21 : List (Ref sig .tc) := b21_W ++ tailW22
abbrev tailW20 : List (Ref sig .tc) := b20_W ++ tailW21
abbrev tailW19 : List (Ref sig .tc) := b19_W ++ tailW20
abbrev tailW18 : List (Ref sig .tc) := b18_W ++ tailW19
abbrev tailW17 : List (Ref sig .tc) := b17_W ++ tailW18
abbrev tailW16 : List (Ref sig .tc) := b16_W ++ tailW17
abbrev tailW15 : List (Ref sig .tc) := b15_W ++ tailW16
abbrev tailW14 : List (Ref sig .tc) := b14_W ++ tailW15
abbrev tailW13 : List (Ref sig .tc) := b13_W ++ tailW14
abbrev tailW12 : List (Ref sig .tc) := b12_W ++ tailW13
abbrev tailW11 : List (Ref sig .tc) := b11_W ++ tailW12
abbrev tailW10 : List (Ref sig .tc) := b10_W ++ tailW11
abbrev tailW9 : List (Ref sig .tc) := b9_W ++ tailW10
abbrev tailW8 : List (Ref sig .tc) := b8_W ++ tailW9
abbrev tailW7 : List (Ref sig .tc) := b7_W ++ tailW8
abbrev tailW6 : List (Ref sig .tc) := b6_W ++ tailW7
abbrev tailW5 : List (Ref sig .tc) := b5_W ++ tailW6
abbrev tailW4 : List (Ref sig .tc) := b4_W ++ tailW5
abbrev tailW3 : List (Ref sig .tc) := b3_W ++ tailW4
abbrev tailW2 : List (Ref sig .tc) := b2_W ++ tailW3
abbrev tailW1 : List (Ref sig .tc) := b1_W ++ tailW2
abbrev tailW0 : List (Ref sig .tc) := b0_W ++ tailW1

theorem tail33_writes : (tail33 : List (HloOp τ sig (Elt F))).Forall fun op =>
    op.writes ⊆ (tailW33.map (Proc.devRef (τ := τ) .tc)).toFinset := trivial
theorem tail32_writes : (tail32 : List (HloOp τ sig (Elt F))).Forall fun op =>
    op.writes ⊆ (tailW32.map (Proc.devRef (τ := τ) .tc)).toFinset := writes_app b32_writes tail33_writes
theorem tail31_writes : (tail31 : List (HloOp τ sig (Elt F))).Forall fun op =>
    op.writes ⊆ (tailW31.map (Proc.devRef (τ := τ) .tc)).toFinset := writes_app b31_writes tail32_writes
theorem tail30_writes : (tail30 : List (HloOp τ sig (Elt F))).Forall fun op =>
    op.writes ⊆ (tailW30.map (Proc.devRef (τ := τ) .tc)).toFinset := writes_app b30_writes tail31_writes
theorem tail29_writes : (tail29 : List (HloOp τ sig (Elt F))).Forall fun op =>
    op.writes ⊆ (tailW29.map (Proc.devRef (τ := τ) .tc)).toFinset := writes_app b29_writes tail30_writes
theorem tail28_writes : (tail28 : List (HloOp τ sig (Elt F))).Forall fun op =>
    op.writes ⊆ (tailW28.map (Proc.devRef (τ := τ) .tc)).toFinset := writes_app b28_writes tail29_writes
theorem tail27_writes : (tail27 : List (HloOp τ sig (Elt F))).Forall fun op =>
    op.writes ⊆ (tailW27.map (Proc.devRef (τ := τ) .tc)).toFinset := writes_app b27_writes tail28_writes
theorem tail26_writes : (tail26 : List (HloOp τ sig (Elt F))).Forall fun op =>
    op.writes ⊆ (tailW26.map (Proc.devRef (τ := τ) .tc)).toFinset := writes_app b26_writes tail27_writes
theorem tail25_writes : (tail25 : List (HloOp τ sig (Elt F))).Forall fun op =>
    op.writes ⊆ (tailW25.map (Proc.devRef (τ := τ) .tc)).toFinset := writes_app b25_writes tail26_writes
theorem tail24_writes : (tail24 : List (HloOp τ sig (Elt F))).Forall fun op =>
    op.writes ⊆ (tailW24.map (Proc.devRef (τ := τ) .tc)).toFinset := writes_app b24_writes tail25_writes
theorem tail23_writes : (tail23 : List (HloOp τ sig (Elt F))).Forall fun op =>
    op.writes ⊆ (tailW23.map (Proc.devRef (τ := τ) .tc)).toFinset := writes_app b23_writes tail24_writes
theorem tail22_writes : (tail22 : List (HloOp τ sig (Elt F))).Forall fun op =>
    op.writes ⊆ (tailW22.map (Proc.devRef (τ := τ) .tc)).toFinset := writes_app b22_writes tail23_writes
theorem tail21_writes : (tail21 : List (HloOp τ sig (Elt F))).Forall fun op =>
    op.writes ⊆ (tailW21.map (Proc.devRef (τ := τ) .tc)).toFinset := writes_app b21_writes tail22_writes
theorem tail20_writes : (tail20 : List (HloOp τ sig (Elt F))).Forall fun op =>
    op.writes ⊆ (tailW20.map (Proc.devRef (τ := τ) .tc)).toFinset := writes_app b20_writes tail21_writes
theorem tail19_writes : (tail19 : List (HloOp τ sig (Elt F))).Forall fun op =>
    op.writes ⊆ (tailW19.map (Proc.devRef (τ := τ) .tc)).toFinset := writes_app b19_writes tail20_writes
theorem tail18_writes : (tail18 : List (HloOp τ sig (Elt F))).Forall fun op =>
    op.writes ⊆ (tailW18.map (Proc.devRef (τ := τ) .tc)).toFinset := writes_app b18_writes tail19_writes
theorem tail17_writes : (tail17 : List (HloOp τ sig (Elt F))).Forall fun op =>
    op.writes ⊆ (tailW17.map (Proc.devRef (τ := τ) .tc)).toFinset := writes_app b17_writes tail18_writes
theorem tail16_writes : (tail16 : List (HloOp τ sig (Elt F))).Forall fun op =>
    op.writes ⊆ (tailW16.map (Proc.devRef (τ := τ) .tc)).toFinset := writes_app b16_writes tail17_writes
theorem tail15_writes : (tail15 : List (HloOp τ sig (Elt F))).Forall fun op =>
    op.writes ⊆ (tailW15.map (Proc.devRef (τ := τ) .tc)).toFinset := writes_app b15_writes tail16_writes
theorem tail14_writes : (tail14 : List (HloOp τ sig (Elt F))).Forall fun op =>
    op.writes ⊆ (tailW14.map (Proc.devRef (τ := τ) .tc)).toFinset := writes_app b14_writes tail15_writes
theorem tail13_writes : (tail13 : List (HloOp τ sig (Elt F))).Forall fun op =>
    op.writes ⊆ (tailW13.map (Proc.devRef (τ := τ) .tc)).toFinset := writes_app b13_writes tail14_writes
theorem tail12_writes : (tail12 : List (HloOp τ sig (Elt F))).Forall fun op =>
    op.writes ⊆ (tailW12.map (Proc.devRef (τ := τ) .tc)).toFinset := writes_app b12_writes tail13_writes
theorem tail11_writes : (tail11 : List (HloOp τ sig (Elt F))).Forall fun op =>
    op.writes ⊆ (tailW11.map (Proc.devRef (τ := τ) .tc)).toFinset := writes_app b11_writes tail12_writes
theorem tail10_writes : (tail10 : List (HloOp τ sig (Elt F))).Forall fun op =>
    op.writes ⊆ (tailW10.map (Proc.devRef (τ := τ) .tc)).toFinset := writes_app b10_writes tail11_writes
theorem tail9_writes : (tail9 : List (HloOp τ sig (Elt F))).Forall fun op =>
    op.writes ⊆ (tailW9.map (Proc.devRef (τ := τ) .tc)).toFinset := writes_app b9_writes tail10_writes
theorem tail8_writes : (tail8 : List (HloOp τ sig (Elt F))).Forall fun op =>
    op.writes ⊆ (tailW8.map (Proc.devRef (τ := τ) .tc)).toFinset := writes_app b8_writes tail9_writes
theorem tail7_writes : (tail7 : List (HloOp τ sig (Elt F))).Forall fun op =>
    op.writes ⊆ (tailW7.map (Proc.devRef (τ := τ) .tc)).toFinset := writes_app b7_writes tail8_writes
theorem tail6_writes : (tail6 : List (HloOp τ sig (Elt F))).Forall fun op =>
    op.writes ⊆ (tailW6.map (Proc.devRef (τ := τ) .tc)).toFinset := writes_app b6_writes tail7_writes
theorem tail5_writes : (tail5 : List (HloOp τ sig (Elt F))).Forall fun op =>
    op.writes ⊆ (tailW5.map (Proc.devRef (τ := τ) .tc)).toFinset := writes_app b5_writes tail6_writes
theorem tail4_writes : (tail4 : List (HloOp τ sig (Elt F))).Forall fun op =>
    op.writes ⊆ (tailW4.map (Proc.devRef (τ := τ) .tc)).toFinset := writes_app b4_writes tail5_writes
theorem tail3_writes : (tail3 : List (HloOp τ sig (Elt F))).Forall fun op =>
    op.writes ⊆ (tailW3.map (Proc.devRef (τ := τ) .tc)).toFinset := writes_app b3_writes tail4_writes
theorem tail2_writes : (tail2 : List (HloOp τ sig (Elt F))).Forall fun op =>
    op.writes ⊆ (tailW2.map (Proc.devRef (τ := τ) .tc)).toFinset := writes_app b2_writes tail3_writes
theorem tail1_writes : (tail1 : List (HloOp τ sig (Elt F))).Forall fun op =>
    op.writes ⊆ (tailW1.map (Proc.devRef (τ := τ) .tc)).toFinset := writes_app b1_writes tail2_writes
theorem tail0_writes : (tail0 : List (HloOp τ sig (Elt F))).Forall fun op =>
    op.writes ⊆ (tailW0.map (Proc.devRef (τ := τ) .tc)).toFinset := writes_app b0_writes tail1_writes

set_option maxRecDepth 100000 in
set_option maxHeartbeats 4000000 in
/-- The six windows one after the other are the stretches one after the other: the same 406 operations. -/
theorem blocks_eq : (ops : List (HloOp τ sig (Elt F))) = tail0 := rfl

/-- The contents after the first `k` stretches. -/
def P0 (V : Valuation τ sig (Elt F)) : Valuation τ sig (Elt F) := V
def P1 (V : Valuation τ sig (Elt F)) : Valuation τ sig (Elt F) := after b0 (P0 V)
def P2 (V : Valuation τ sig (Elt F)) : Valuation τ sig (Elt F) := after b1 (P1 V)
def P3 (V : Valuation τ sig (Elt F)) : Valuation τ sig (Elt F) := after b2 (P2 V)
def P4 (V : Valuation τ sig (Elt F)) : Valuation τ sig (Elt F) := after b3 (P3 V)
def P5 (V : Valuation τ sig (Elt F)) : Valuation τ sig (Elt F) := after b4 (P4 V)
def P6 (V : Valuation τ sig (Elt F)) : Valuation τ sig (Elt F) := after b5 (P5 V)
def P7 (V : Valuation τ sig (Elt F)) : Valuation τ sig (Elt F) := after b6 (P6 V)
def P8 (V : Valuation τ sig (Elt F)) : Valuation τ sig (Elt F) := after b7 (P7 V)
def P9 (V : Valuation τ sig (Elt F)) : Valuation τ sig (Elt F) := after b8 (P8 V)
def P10 (V : Valuation τ sig (Elt F)) : Valuation τ sig (Elt F) := after b9 (P9 V)
def P11 (V : Valuation τ sig (Elt F)) : Valuation τ sig (Elt F) := after b10 (P10 V)
def P12 (V : Valuation τ sig (Elt F)) : Valuation τ sig (Elt F) := after b11 (P11 V)
def P13 (V : Valuation τ sig (Elt F)) : Valuation τ sig (Elt F) := after b12 (P12 V)
def P14 (V : Valuation τ sig (Elt F)) : Valuation τ sig (Elt F) := after b13 (P13 V)
def P15 (V : Valuation τ sig (Elt F)) : Valuation τ sig (Elt F) := after b14 (P14 V)
def P16 (V : Valuation τ sig (Elt F)) : Valuation τ sig (Elt F) := after b15 (P15 V)
def P17 (V : Valuation τ sig (Elt F)) : Valuation τ sig (Elt F) := after b16 (P16 V)
def P18 (V : Valuation τ sig (Elt F)) : Valuation τ sig (Elt F) := after b17 (P17 V)
def P19 (V : Valuation τ sig (Elt F)) : Valuation τ sig (Elt F) := after b18 (P18 V)
def P20 (V : Valuation τ sig (Elt F)) : Valuation τ sig (Elt F) := after b19 (P19 V)
def P21 (V : Valuation τ sig (Elt F)) : Valuation τ sig (Elt F) := after b20 (P20 V)
def P22 (V : Valuation τ sig (Elt F)) : Valuation τ sig (Elt F) := after b21 (P21 V)
def P23 (V : Valuation τ sig (Elt F)) : Valuation τ sig (Elt F) := after b22 (P22 V)
def P24 (V : Valuation τ sig (Elt F)) : Valuation τ sig (Elt F) := after b23 (P23 V)
def P25 (V : Valuation τ sig (Elt F)) : Valuation τ sig (Elt F) := after b24 (P24 V)
def P26 (V : Valuation τ sig (Elt F)) : Valuation τ sig (Elt F) := after b25 (P25 V)
def P27 (V : Valuation τ sig (Elt F)) : Valuation τ sig (Elt F) := after b26 (P26 V)
def P28 (V : Valuation τ sig (Elt F)) : Valuation τ sig (Elt F) := after b27 (P27 V)
def P29 (V : Valuation τ sig (Elt F)) : Valuation τ sig (Elt F) := after b28 (P28 V)
def P30 (V : Valuation τ sig (Elt F)) : Valuation τ sig (Elt F) := after b29 (P29 V)
def P31 (V : Valuation τ sig (Elt F)) : Valuation τ sig (Elt F) := after b30 (P30 V)
def P32 (V : Valuation τ sig (Elt F)) : Valuation τ sig (Elt F) := after b31 (P31 V)
def P33 (V : Valuation τ sig (Elt F)) : Valuation τ sig (Elt F) := after b32 (P32 V)

theorem split0 (V : Valuation τ sig (Elt F)) : after tail0 V = after tail0 (P0 V) := rfl
theorem split1 (V : Valuation τ sig (Elt F)) : after tail0 V = after tail1 (P1 V) :=
  (split0 V).trans (after_app b0 tail1 (P0 V))
theorem split2 (V : Valuation τ sig (Elt F)) : after tail0 V = after tail2 (P2 V) :=
  (split1 V).trans (after_app b1 tail2 (P1 V))
theorem split3 (V : Valuation τ sig (Elt F)) : after tail0 V = after tail3 (P3 V) :=
  (split2 V).trans (after_app b2 tail3 (P2 V))
theorem split4 (V : Valuation τ sig (Elt F)) : after tail0 V = after tail4 (P4 V) :=
  (split3 V).trans (after_app b3 tail4 (P3 V))
theorem split5 (V : Valuation τ sig (Elt F)) : after tail0 V = after tail5 (P5 V) :=
  (split4 V).trans (after_app b4 tail5 (P4 V))
theorem split6 (V : Valuation τ sig (Elt F)) : after tail0 V = after tail6 (P6 V) :=
  (split5 V).trans (after_app b5 tail6 (P5 V))
theorem split7 (V : Valuation τ sig (Elt F)) : after tail0 V = after tail7 (P7 V) :=
  (split6 V).trans (after_app b6 tail7 (P6 V))
theorem split8 (V : Valuation τ sig (Elt F)) : after tail0 V = after tail8 (P8 V) :=
  (split7 V).trans (after_app b7 tail8 (P7 V))
theorem split9 (V : Valuation τ sig (Elt F)) : after tail0 V = after tail9 (P9 V) :=
  (split8 V).trans (after_app b8 tail9 (P8 V))
theorem split10 (V : Valuation τ sig (Elt F)) : after tail0 V = after tail10 (P10 V) :=
  (split9 V).trans (after_app b9 tail10 (P9 V))
theorem split11 (V : Valuation τ sig (Elt F)) : after tail0 V = after tail11 (P11 V) :=
  (split10 V).trans (after_app b10 tail11 (P10 V))
theorem split12 (V : Valuation τ sig (Elt F)) : after tail0 V = after tail12 (P12 V) :=
  (split11 V).trans (after_app b11 tail12 (P11 V))
theorem split13 (V : Valuation τ sig (Elt F)) : after tail0 V = after tail13 (P13 V) :=
  (split12 V).trans (after_app b12 tail13 (P12 V))
theorem split14 (V : Valuation τ sig (Elt F)) : after tail0 V = after tail14 (P14 V) :=
  (split13 V).trans (after_app b13 tail14 (P13 V))
theorem split15 (V : Valuation τ sig (Elt F)) : after tail0 V = after tail15 (P15 V) :=
  (split14 V).trans (after_app b14 tail15 (P14 V))
theorem split16 (V : Valuation τ sig (Elt F)) : after tail0 V = after tail16 (P16 V) :=
  (split15 V).trans (after_app b15 tail16 (P15 V))
theorem split17 (V : Valuation τ sig (Elt F)) : after tail0 V = after tail17 (P17 V) :=
  (split16 V).trans (after_app b16 tail17 (P16 V))
theorem split18 (V : Valuation τ sig (Elt F)) : after tail0 V = after tail18 (P18 V) :=
  (split17 V).trans (after_app b17 tail18 (P17 V))
theorem split19 (V : Valuation τ sig (Elt F)) : after tail0 V = after tail19 (P19 V) :=
  (split18 V).trans (after_app b18 tail19 (P18 V))
theorem split20 (V : Valuation τ sig (Elt F)) : after tail0 V = after tail20 (P20 V) :=
  (split19 V).trans (after_app b19 tail20 (P19 V))
theorem split21 (V : Valuation τ sig (Elt F)) : after tail0 V = after tail21 (P21 V) :=
  (split20 V).trans (after_app b20 tail21 (P20 V))
theorem split22 (V : Valuation τ sig (Elt F)) : after tail0 V = after tail22 (P22 V) :=
  (split21 V).trans (after_app b21 tail22 (P21 V))
theorem split23 (V : Valuation τ sig (Elt F)) : after tail0 V = after tail23 (P23 V) :=
  (split22 V).trans (after_app b22 tail23 (P22 V))
theorem split24 (V : Valuation τ sig (Elt F)) : after tail0 V = after tail24 (P24 V) :=
  (split23 V).trans (after_app b23 tail24 (P23 V))
theorem split25 (V : Valuation τ sig (Elt F)) : after tail0 V = after tail25 (P25 V) :=
  (split24 V).trans (after_app b24 tail25 (P24 V))
theorem split26 (V : Valuation τ sig (Elt F)) : after tail0 V = after tail26 (P26 V) :=
  (split25 V).trans (after_app b25 tail26 (P25 V))
theorem split27 (V : Valuation τ sig (Elt F)) : after tail0 V = after tail27 (P27 V) :=
  (split26 V).trans (after_app b26 tail27 (P26 V))
theorem split28 (V : Valuation τ sig (Elt F)) : after tail0 V = after tail28 (P28 V) :=
  (split27 V).trans (after_app b27 tail28 (P27 V))
theorem split29 (V : Valuation τ sig (Elt F)) : after tail0 V = after tail29 (P29 V) :=
  (split28 V).trans (after_app b28 tail29 (P28 V))
theorem split30 (V : Valuation τ sig (Elt F)) : after tail0 V = after tail30 (P30 V) :=
  (split29 V).trans (after_app b29 tail30 (P29 V))
theorem split31 (V : Valuation τ sig (Elt F)) : after tail0 V = after tail31 (P31 V) :=
  (split30 V).trans (after_app b30 tail31 (P30 V))
theorem split32 (V : Valuation τ sig (Elt F)) : after tail0 V = after tail32 (P32 V) :=
  (split31 V).trans (after_app b31 tail32 (P31 V))
theorem split33 (V : Valuation τ sig (Elt F)) : after tail0 V = after tail33 (P33 V) :=
  (split32 V).trans (after_app b32 tail33 (P32 V))

end Generic

/-! ## Each value's buffer, on the contents after the whole run, at its stage function of its operands' buffers -/

theorem fin_v4 (V : Valuation τ sig (Elt Ideal)) :
    after ops V (Proc.devRef .tc main_v4) = f_relu128 (F := Ideal) (after ops V (Proc.devRef .tc main_arg0)) (after ops V (Proc.devRef .tc main_arg4)) (after ops V (Proc.devRef .tc main_arg5)) := by
  have h : ∀ r : Ref sig .tc, r ∉ tailW1 → after ops V (Proc.devRef .tc r) = after b0 (P0 V) (Proc.devRef .tc r) := fun r hr => by
    rw [blocks_eq, split1 V]; exact after_of_writes_sub tail1 _ tail1_writes hr
  rw [h main_v4 (by decide), h main_arg0 (by decide), h main_arg4 (by decide), h main_arg5 (by decide)]
  exact b0_v4 (P0 V)

theorem fin_v9 (V : Valuation τ sig (Elt Ideal)) :
    after ops V (Proc.devRef .tc main_v9) = f_relu64 (F := Ideal) (after ops V (Proc.devRef .tc main_arg1)) (after ops V (Proc.devRef .tc main_arg6)) (after ops V (Proc.devRef .tc main_arg7)) := by
  have h : ∀ r : Ref sig .tc, r ∉ tailW2 → after ops V (Proc.devRef .tc r) = after b1 (P1 V) (Proc.devRef .tc r) := fun r hr => by
    rw [blocks_eq, split2 V]; exact after_of_writes_sub tail2 _ tail2_writes hr
  rw [h main_v9 (by decide), h main_arg1 (by decide), h main_arg6 (by decide), h main_arg7 (by decide)]
  exact b1_v9 (P1 V)

theorem fin_v11 (V : Valuation τ sig (Elt Ideal)) :
    after ops V (Proc.devRef .tc main_v11) = f_wRow0 (F := Ideal) (after ops V (Proc.devRef .tc main_arg8)) := by
  have h : ∀ r : Ref sig .tc, r ∉ tailW3 → after ops V (Proc.devRef .tc r) = after b2 (P2 V) (Proc.devRef .tc r) := fun r hr => by
    rw [blocks_eq, split3 V]; exact after_of_writes_sub tail3 _ tail3_writes hr
  rw [h main_v11 (by decide), h main_arg8 (by decide)]
  exact b2_v11 (P2 V)

theorem fin_v14 (V : Valuation τ sig (Elt Ideal)) :
    after ops V (Proc.devRef .tc main_v14) = f_bRow0 (F := Ideal) (after ops V (Proc.devRef .tc main_arg9)) := by
  have h : ∀ r : Ref sig .tc, r ∉ tailW4 → after ops V (Proc.devRef .tc r) = after b3 (P3 V) (Proc.devRef .tc r) := fun r hr => by
    rw [blocks_eq, split4 V]; exact after_of_writes_sub tail4 _ tail4_writes hr
  rw [h main_v14 (by decide), h main_arg9 (by decide)]
  exact b3_v14 (P3 V)

theorem fin_v17 (V : Valuation τ sig (Elt Ideal)) :
    after ops V (Proc.devRef .tc main_v17) = f_dense (F := Ideal) (after ops V (Proc.devRef .tc main_v4)) (after ops V (Proc.devRef .tc main_v11)) (after ops V (Proc.devRef .tc main_v14)) := by
  have h : ∀ r : Ref sig .tc, r ∉ tailW4 → after ops V (Proc.devRef .tc r) = after b3 (P3 V) (Proc.devRef .tc r) := fun r hr => by
    rw [blocks_eq, split4 V]; exact after_of_writes_sub tail4 _ tail4_writes hr
  rw [h main_v17 (by decide), h main_v4 (by decide), h main_v11 (by decide), h main_v14 (by decide)]
  exact b3_v17 (P3 V)

theorem fin_v19 (V : Valuation τ sig (Elt Ideal)) :
    after ops V (Proc.devRef .tc main_v19) = f_wRow0 (F := Ideal) (after ops V (Proc.devRef .tc main_arg8)) := by
  have h : ∀ r : Ref sig .tc, r ∉ tailW5 → after ops V (Proc.devRef .tc r) = after b4 (P4 V) (Proc.devRef .tc r) := fun r hr => by
    rw [blocks_eq, split5 V]; exact after_of_writes_sub tail5 _ tail5_writes hr
  rw [h main_v19 (by decide), h main_arg8 (by decide)]
  exact b4_v19 (P4 V)

theorem fin_v22 (V : Valuation τ sig (Elt Ideal)) :
    after ops V (Proc.devRef .tc main_v22) = f_bRow0 (F := Ideal) (after ops V (Proc.devRef .tc main_arg9)) := by
  have h : ∀ r : Ref sig .tc, r ∉ tailW6 → after ops V (Proc.devRef .tc r) = after b5 (P5 V) (Proc.devRef .tc r) := fun r hr => by
    rw [blocks_eq, split6 V]; exact after_of_writes_sub tail6 _ tail6_writes hr
  rw [h main_v22 (by decide), h main_arg9 (by decide)]
  exact b5_v22 (P5 V)

theorem fin_v25 (V : Valuation τ sig (Elt Ideal)) :
    after ops V (Proc.devRef .tc main_v25) = f_dense (F := Ideal) (after ops V (Proc.devRef .tc main_v9)) (after ops V (Proc.devRef .tc main_v19)) (after ops V (Proc.devRef .tc main_v22)) := by
  have h : ∀ r : Ref sig .tc, r ∉ tailW6 → after ops V (Proc.devRef .tc r) = after b5 (P5 V) (Proc.devRef .tc r) := fun r hr => by
    rw [blocks_eq, split6 V]; exact after_of_writes_sub tail6 _ tail6_writes hr
  rw [h main_v25 (by decide), h main_v9 (by decide), h main_v19 (by decide), h main_v22 (by decide)]
  exact b5_v25 (P5 V)

theorem fin_v27 (V : Valuation τ sig (Elt Ideal)) :
    after ops V (Proc.devRef .tc main_v27) = f_iRow0 (F := Ideal) (after ops V (Proc.devRef .tc main_arg2)) := by
  have h : ∀ r : Ref sig .tc, r ∉ tailW7 → after ops V (Proc.devRef .tc r) = after b6 (P6 V) (Proc.devRef .tc r) := fun r hr => by
    rw [blocks_eq, split7 V]; exact after_of_writes_sub tail7 _ tail7_writes hr
  rw [h main_v27 (by decide), h main_arg2 (by decide)]
  exact b6_v27 (P6 V)

theorem fin_v29 (V : Valuation τ sig (Elt Ideal)) :
    after ops V (Proc.devRef .tc main_v29) = f_iRow1 (F := Ideal) (after ops V (Proc.devRef .tc main_arg2)) := by
  have h : ∀ r : Ref sig .tc, r ∉ tailW8 → after ops V (Proc.devRef .tc r) = after b7 (P7 V) (Proc.devRef .tc r) := fun r hr => by
    rw [blocks_eq, split8 V]; exact after_of_writes_sub tail8 _ tail8_writes hr
  rw [h main_v29 (by decide), h main_arg2 (by decide)]
  exact b7_v29 (P7 V)

theorem fin_v31 (V : Valuation τ sig (Elt Ideal)) :
    after ops V (Proc.devRef .tc main_v31) = f_bRow0 (F := Ideal) (after ops V (Proc.devRef .tc main_arg10)) := by
  have h : ∀ r : Ref sig .tc, r ∉ tailW9 → after ops V (Proc.devRef .tc r) = after b8 (P8 V) (Proc.devRef .tc r) := fun r hr => by
    rw [blocks_eq, split9 V]; exact after_of_writes_sub tail9 _ tail9_writes hr
  rw [h main_v31 (by decide), h main_arg10 (by decide)]
  exact b8_v31 (P8 V)

theorem fin_v34 (V : Valuation τ sig (Elt Ideal)) :
    after ops V (Proc.devRef .tc main_v34) = f_bRow0 (F := Ideal) (after ops V (Proc.devRef .tc main_arg11)) := by
  have h : ∀ r : Ref sig .tc, r ∉ tailW10 → after ops V (Proc.devRef .tc r) = after b9 (P9 V) (Proc.devRef .tc r) := fun r hr => by
    rw [blocks_eq, split10 V]; exact after_of_writes_sub tail10 _ tail10_writes hr
  rw [h main_v34 (by decide), h main_arg11 (by decide)]
  exact b9_v34 (P9 V)

theorem fin_v36 (V : Valuation τ sig (Elt Ideal)) :
    after ops V (Proc.devRef .tc main_v36) = f_score (F := Ideal) (after ops V (Proc.devRef .tc main_v17)) (after ops V (Proc.devRef .tc main_v31)) := by
  have h : ∀ r : Ref sig .tc, r ∉ tailW10 → after ops V (Proc.devRef .tc r) = after b9 (P9 V) (Proc.devRef .tc r) := fun r hr => by
    rw [blocks_eq, split10 V]; exact after_of_writes_sub tail10 _ tail10_writes hr
  rw [h main_v36 (by decide), h main_v17 (by decide), h main_v31 (by decide)]
  exact b9_v36 (P9 V)

theorem fin_v37 (V : Valuation τ sig (Elt Ideal)) :
    after ops V (Proc.devRef .tc main_v37) = f_score (F := Ideal) (after ops V (Proc.devRef .tc main_v25)) (after ops V (Proc.devRef .tc main_v34)) := by
  have h : ∀ r : Ref sig .tc, r ∉ tailW10 → after ops V (Proc.devRef .tc r) = after b9 (P9 V) (Proc.devRef .tc r) := fun r hr => by
    rw [blocks_eq, split10 V]; exact after_of_writes_sub tail10 _ tail10_writes hr
  rw [h main_v37 (by decide), h main_v25 (by decide), h main_v34 (by decide)]
  exact b9_v37 (P9 V)

theorem fin_v45 (V : Valuation τ sig (Elt Ideal)) :
    after ops V (Proc.devRef .tc main_v45) = f_selfWeight (F := Ideal) (after ops V (Proc.devRef .tc main_v17)) (after ops V (Proc.devRef .tc main_v31)) (after ops V (Proc.devRef .tc main_v34)) := by
  have h : ∀ r : Ref sig .tc, r ∉ tailW10 → after ops V (Proc.devRef .tc r) = after b9 (P9 V) (Proc.devRef .tc r) := fun r hr => by
    rw [blocks_eq, split10 V]; exact after_of_writes_sub tail10 _ tail10_writes hr
  rw [h main_v45 (by decide), h main_v17 (by decide), h main_v31 (by decide), h main_v34 (by decide)]
  exact b9_v45 (P9 V)

theorem fin_v52 (V : Valuation τ sig (Elt Ideal)) :
    after ops V (Proc.devRef .tc main_v52) = f_gCol (F := Ideal) (after ops V (Proc.devRef .tc main_v36)) (after ops V (Proc.devRef .tc main_v27)) := by
  have h : ∀ r : Ref sig .tc, r ∉ tailW11 → after ops V (Proc.devRef .tc r) = after b10 (P10 V) (Proc.devRef .tc r) := fun r hr => by
    rw [blocks_eq, split11 V]; exact after_of_writes_sub tail11 _ tail11_writes hr
  rw [h main_v52 (by decide), h main_v36 (by decide), h main_v27 (by decide)]
  exact b10_v52 (P10 V)

theorem fin_v59 (V : Valuation τ sig (Elt Ideal)) :
    after ops V (Proc.devRef .tc main_v59) = f_gCol (F := Ideal) (after ops V (Proc.devRef .tc main_v37)) (after ops V (Proc.devRef .tc main_v29)) := by
  have h : ∀ r : Ref sig .tc, r ∉ tailW12 → after ops V (Proc.devRef .tc r) = after b11 (P11 V) (Proc.devRef .tc r) := fun r hr => by
    rw [blocks_eq, split12 V]; exact after_of_writes_sub tail12 _ tail12_writes hr
  rw [h main_v59 (by decide), h main_v37 (by decide), h main_v29 (by decide)]
  exact b11_v59 (P11 V)

theorem fin_v66 (V : Valuation τ sig (Elt Ideal)) :
    after ops V (Proc.devRef .tc main_v66) = f_edgeW (F := Ideal) (after ops V (Proc.devRef .tc main_v52)) (after ops V (Proc.devRef .tc main_v59)) := by
  have h : ∀ r : Ref sig .tc, r ∉ tailW13 → after ops V (Proc.devRef .tc r) = after b12 (P12 V) (Proc.devRef .tc r) := fun r hr => by
    rw [blocks_eq, split13 V]; exact after_of_writes_sub tail13 _ tail13_writes hr
  rw [h main_v66 (by decide), h main_v52 (by decide), h main_v59 (by decide)]
  exact b12_v66 (P12 V)

theorem fin_v69 (V : Valuation τ sig (Elt Ideal)) :
    after ops V (Proc.devRef .tc main_v69) = f_segCol (F := Ideal) (after ops V (Proc.devRef .tc main_v27)) (after ops V (Proc.devRef .tc main_v66)) := by
  have h : ∀ r : Ref sig .tc, r ∉ tailW13 → after ops V (Proc.devRef .tc r) = after b12 (P12 V) (Proc.devRef .tc r) := fun r hr => by
    rw [blocks_eq, split13 V]; exact after_of_writes_sub tail13 _ tail13_writes hr
  rw [h main_v69 (by decide), h main_v27 (by decide), h main_v66 (by decide)]
  exact b12_v69 (P12 V)

theorem fin_v77 (V : Valuation τ sig (Elt Ideal)) :
    after ops V (Proc.devRef .tc main_v77) = f_gRow (F := Ideal) (after ops V (Proc.devRef .tc main_v25)) (after ops V (Proc.devRef .tc main_v29)) := by
  have h : ∀ r : Ref sig .tc, r ∉ tailW13 → after ops V (Proc.devRef .tc r) = after b12 (P12 V) (Proc.devRef .tc r) := fun r hr => by
    rw [blocks_eq, split13 V]; exact after_of_writes_sub tail13 _ tail13_writes hr
  rw [h main_v77 (by decide), h main_v25 (by decide), h main_v29 (by decide)]
  exact b12_v77 (P12 V)

theorem fin_v79 (V : Valuation τ sig (Elt Ideal)) :
    after ops V (Proc.devRef .tc main_v79) = f_edgeWH (F := Ideal) (after ops V (Proc.devRef .tc main_v52)) (after ops V (Proc.devRef .tc main_v59)) (after ops V (Proc.devRef .tc main_v77)) := by
  have h : ∀ r : Ref sig .tc, r ∉ tailW13 → after ops V (Proc.devRef .tc r) = after b12 (P12 V) (Proc.devRef .tc r) := fun r hr => by
    rw [blocks_eq, split13 V]; exact after_of_writes_sub tail13 _ tail13_writes hr
  rw [h main_v79 (by decide), h main_v52 (by decide), h main_v59 (by decide), h main_v77 (by decide)]
  exact b12_v79 (P12 V)

theorem fin_v82 (V : Valuation τ sig (Elt Ideal)) :
    after ops V (Proc.devRef .tc main_v82) = f_segRow (F := Ideal) (after ops V (Proc.devRef .tc main_v27)) (after ops V (Proc.devRef .tc main_v79)) := by
  have h : ∀ r : Ref sig .tc, r ∉ tailW13 → after ops V (Proc.devRef .tc r) = after b12 (P12 V) (Proc.devRef .tc r) := fun r hr => by
    rw [blocks_eq, split13 V]; exact after_of_writes_sub tail13 _ tail13_writes hr
  rw [h main_v82 (by decide), h main_v27 (by decide), h main_v79 (by decide)]
  exact b12_v82 (P12 V)

theorem fin_v88 (V : Valuation τ sig (Elt Ideal)) :
    after ops V (Proc.devRef .tc main_v88) = f_norm (F := Ideal) (after ops V (Proc.devRef .tc main_v82)) (after ops V (Proc.devRef .tc main_v69)) (after ops V (Proc.devRef .tc main_v45)) (after ops V (Proc.devRef .tc main_v17)) := by
  have h : ∀ r : Ref sig .tc, r ∉ tailW13 → after ops V (Proc.devRef .tc r) = after b12 (P12 V) (Proc.devRef .tc r) := fun r hr => by
    rw [blocks_eq, split13 V]; exact after_of_writes_sub tail13 _ tail13_writes hr
  rw [h main_v88 (by decide), h main_v82 (by decide), h main_v69 (by decide), h main_v45 (by decide), h main_v17 (by decide)]
  exact b12_v88 (P12 V)

theorem fin_v90 (V : Valuation τ sig (Elt Ideal)) :
    after ops V (Proc.devRef .tc main_v90) = f_iRow0 (F := Ideal) (after ops V (Proc.devRef .tc main_arg3)) := by
  have h : ∀ r : Ref sig .tc, r ∉ tailW14 → after ops V (Proc.devRef .tc r) = after b13 (P13 V) (Proc.devRef .tc r) := fun r hr => by
    rw [blocks_eq, split14 V]; exact after_of_writes_sub tail14 _ tail14_writes hr
  rw [h main_v90 (by decide), h main_arg3 (by decide)]
  exact b13_v90 (P13 V)

theorem fin_v92 (V : Valuation τ sig (Elt Ideal)) :
    after ops V (Proc.devRef .tc main_v92) = f_iRow1 (F := Ideal) (after ops V (Proc.devRef .tc main_arg3)) := by
  have h : ∀ r : Ref sig .tc, r ∉ tailW15 → after ops V (Proc.devRef .tc r) = after b14 (P14 V) (Proc.devRef .tc r) := fun r hr => by
    rw [blocks_eq, split15 V]; exact after_of_writes_sub tail15 _ tail15_writes hr
  rw [h main_v92 (by decide), h main_arg3 (by decide)]
  exact b14_v92 (P14 V)

theorem fin_v94 (V : Valuation τ sig (Elt Ideal)) :
    after ops V (Proc.devRef .tc main_v94) = f_bRow0 (F := Ideal) (after ops V (Proc.devRef .tc main_arg12)) := by
  have h : ∀ r : Ref sig .tc, r ∉ tailW16 → after ops V (Proc.devRef .tc r) = after b15 (P15 V) (Proc.devRef .tc r) := fun r hr => by
    rw [blocks_eq, split16 V]; exact after_of_writes_sub tail16 _ tail16_writes hr
  rw [h main_v94 (by decide), h main_arg12 (by decide)]
  exact b15_v94 (P15 V)

theorem fin_v97 (V : Valuation τ sig (Elt Ideal)) :
    after ops V (Proc.devRef .tc main_v97) = f_bRow0 (F := Ideal) (after ops V (Proc.devRef .tc main_arg13)) := by
  have h : ∀ r : Ref sig .tc, r ∉ tailW17 → after ops V (Proc.devRef .tc r) = after b16 (P16 V) (Proc.devRef .tc r) := fun r hr => by
    rw [blocks_eq, split17 V]; exact after_of_writes_sub tail17 _ tail17_writes hr
  rw [h main_v97 (by decide), h main_arg13 (by decide)]
  exact b16_v97 (P16 V)

theorem fin_v99 (V : Valuation τ sig (Elt Ideal)) :
    after ops V (Proc.devRef .tc main_v99) = f_score (F := Ideal) (after ops V (Proc.devRef .tc main_v25)) (after ops V (Proc.devRef .tc main_v94)) := by
  have h : ∀ r : Ref sig .tc, r ∉ tailW17 → after ops V (Proc.devRef .tc r) = after b16 (P16 V) (Proc.devRef .tc r) := fun r hr => by
    rw [blocks_eq, split17 V]; exact after_of_writes_sub tail17 _ tail17_writes hr
  rw [h main_v99 (by decide), h main_v25 (by decide), h main_v94 (by decide)]
  exact b16_v99 (P16 V)

theorem fin_v100 (V : Valuation τ sig (Elt Ideal)) :
    after ops V (Proc.devRef .tc main_v100) = f_score (F := Ideal) (after ops V (Proc.devRef .tc main_v17)) (after ops V (Proc.devRef .tc main_v97)) := by
  have h : ∀ r : Ref sig .tc, r ∉ tailW17 → after ops V (Proc.devRef .tc r) = after b16 (P16 V) (Proc.devRef .tc r) := fun r hr => by
    rw [blocks_eq, split17 V]; exact after_of_writes_sub tail17 _ tail17_writes hr
  rw [h main_v100 (by decide), h main_v17 (by decide), h main_v97 (by decide)]
  exact b16_v100 (P16 V)

theorem fin_v108 (V : Valuation τ sig (Elt Ideal)) :
    after ops V (Proc.devRef .tc main_v108) = f_selfWeight (F := Ideal) (after ops V (Proc.devRef .tc main_v25)) (after ops V (Proc.devRef .tc main_v94)) (after ops V (Proc.devRef .tc main_v97)) := by
  have h : ∀ r : Ref sig .tc, r ∉ tailW17 → after ops V (Proc.devRef .tc r) = after b16 (P16 V) (Proc.devRef .tc r) := fun r hr => by
    rw [blocks_eq, split17 V]; exact after_of_writes_sub tail17 _ tail17_writes hr
  rw [h main_v108 (by decide), h main_v25 (by decide), h main_v94 (by decide), h main_v97 (by decide)]
  exact b16_v108 (P16 V)

theorem fin_v115 (V : Valuation τ sig (Elt Ideal)) :
    after ops V (Proc.devRef .tc main_v115) = f_gCol (F := Ideal) (after ops V (Proc.devRef .tc main_v99)) (after ops V (Proc.devRef .tc main_v90)) := by
  have h : ∀ r : Ref sig .tc, r ∉ tailW18 → after ops V (Proc.devRef .tc r) = after b17 (P17 V) (Proc.devRef .tc r) := fun r hr => by
    rw [blocks_eq, split18 V]; exact after_of_writes_sub tail18 _ tail18_writes hr
  rw [h main_v115 (by decide), h main_v99 (by decide), h main_v90 (by decide)]
  exact b17_v115 (P17 V)

theorem fin_v122 (V : Valuation τ sig (Elt Ideal)) :
    after ops V (Proc.devRef .tc main_v122) = f_gCol (F := Ideal) (after ops V (Proc.devRef .tc main_v100)) (after ops V (Proc.devRef .tc main_v92)) := by
  have h : ∀ r : Ref sig .tc, r ∉ tailW19 → after ops V (Proc.devRef .tc r) = after b18 (P18 V) (Proc.devRef .tc r) := fun r hr => by
    rw [blocks_eq, split19 V]; exact after_of_writes_sub tail19 _ tail19_writes hr
  rw [h main_v122 (by decide), h main_v100 (by decide), h main_v92 (by decide)]
  exact b18_v122 (P18 V)

theorem fin_v129 (V : Valuation τ sig (Elt Ideal)) :
    after ops V (Proc.devRef .tc main_v129) = f_edgeW (F := Ideal) (after ops V (Proc.devRef .tc main_v115)) (after ops V (Proc.devRef .tc main_v122)) := by
  have h : ∀ r : Ref sig .tc, r ∉ tailW20 → after ops V (Proc.devRef .tc r) = after b19 (P19 V) (Proc.devRef .tc r) := fun r hr => by
    rw [blocks_eq, split20 V]; exact after_of_writes_sub tail20 _ tail20_writes hr
  rw [h main_v129 (by decide), h main_v115 (by decide), h main_v122 (by decide)]
  exact b19_v129 (P19 V)

theorem fin_v132 (V : Valuation τ sig (Elt Ideal)) :
    after ops V (Proc.devRef .tc main_v132) = f_segCol (F := Ideal) (after ops V (Proc.devRef .tc main_v90)) (after ops V (Proc.devRef .tc main_v129)) := by
  have h : ∀ r : Ref sig .tc, r ∉ tailW20 → after ops V (Proc.devRef .tc r) = after b19 (P19 V) (Proc.devRef .tc r) := fun r hr => by
    rw [blocks_eq, split20 V]; exact after_of_writes_sub tail20 _ tail20_writes hr
  rw [h main_v132 (by decide), h main_v90 (by decide), h main_v129 (by decide)]
  exact b19_v132 (P19 V)

theorem fin_v140 (V : Valuation τ sig (Elt Ideal)) :
    after ops V (Proc.devRef .tc main_v140) = f_gRow (F := Ideal) (after ops V (Proc.devRef .tc main_v17)) (after ops V (Proc.devRef .tc main_v92)) := by
  have h : ∀ r : Ref sig .tc, r ∉ tailW20 → after ops V (Proc.devRef .tc r) = after b19 (P19 V) (Proc.devRef .tc r) := fun r hr => by
    rw [blocks_eq, split20 V]; exact after_of_writes_sub tail20 _ tail20_writes hr
  rw [h main_v140 (by decide), h main_v17 (by decide), h main_v92 (by decide)]
  exact b19_v140 (P19 V)

theorem fin_v142 (V : Valuation τ sig (Elt Ideal)) :
    after ops V (Proc.devRef .tc main_v142) = f_edgeWH (F := Ideal) (after ops V (Proc.devRef .tc main_v115)) (after ops V (Proc.devRef .tc main_v122)) (after ops V (Proc.devRef .tc main_v140)) := by
  have h : ∀ r : Ref sig .tc, r ∉ tailW20 → after ops V (Proc.devRef .tc r) = after b19 (P19 V) (Proc.devRef .tc r) := fun r hr => by
    rw [blocks_eq, split20 V]; exact after_of_writes_sub tail20 _ tail20_writes hr
  rw [h main_v142 (by decide), h main_v115 (by decide), h main_v122 (by decide), h main_v140 (by decide)]
  exact b19_v142 (P19 V)

theorem fin_v145 (V : Valuation τ sig (Elt Ideal)) :
    after ops V (Proc.devRef .tc main_v145) = f_segRow (F := Ideal) (after ops V (Proc.devRef .tc main_v90)) (after ops V (Proc.devRef .tc main_v142)) := by
  have h : ∀ r : Ref sig .tc, r ∉ tailW20 → after ops V (Proc.devRef .tc r) = after b19 (P19 V) (Proc.devRef .tc r) := fun r hr => by
    rw [blocks_eq, split20 V]; exact after_of_writes_sub tail20 _ tail20_writes hr
  rw [h main_v145 (by decide), h main_v90 (by decide), h main_v142 (by decide)]
  exact b19_v145 (P19 V)

theorem fin_v151 (V : Valuation τ sig (Elt Ideal)) :
    after ops V (Proc.devRef .tc main_v151) = f_norm (F := Ideal) (after ops V (Proc.devRef .tc main_v145)) (after ops V (Proc.devRef .tc main_v132)) (after ops V (Proc.devRef .tc main_v108)) (after ops V (Proc.devRef .tc main_v25)) := by
  have h : ∀ r : Ref sig .tc, r ∉ tailW20 → after ops V (Proc.devRef .tc r) = after b19 (P19 V) (Proc.devRef .tc r) := fun r hr => by
    rw [blocks_eq, split20 V]; exact after_of_writes_sub tail20 _ tail20_writes hr
  rw [h main_v151 (by decide), h main_v145 (by decide), h main_v132 (by decide), h main_v108 (by decide), h main_v25 (by decide)]
  exact b19_v151 (P19 V)

theorem fin_v153 (V : Valuation τ sig (Elt Ideal)) :
    after ops V (Proc.devRef .tc main_v153) = f_wRow1 (F := Ideal) (after ops V (Proc.devRef .tc main_arg8)) := by
  have h : ∀ r : Ref sig .tc, r ∉ tailW21 → after ops V (Proc.devRef .tc r) = after b20 (P20 V) (Proc.devRef .tc r) := fun r hr => by
    rw [blocks_eq, split21 V]; exact after_of_writes_sub tail21 _ tail21_writes hr
  rw [h main_v153 (by decide), h main_arg8 (by decide)]
  exact b20_v153 (P20 V)

theorem fin_v156 (V : Valuation τ sig (Elt Ideal)) :
    after ops V (Proc.devRef .tc main_v156) = f_bRow1 (F := Ideal) (after ops V (Proc.devRef .tc main_arg9)) := by
  have h : ∀ r : Ref sig .tc, r ∉ tailW22 → after ops V (Proc.devRef .tc r) = after b21 (P21 V) (Proc.devRef .tc r) := fun r hr => by
    rw [blocks_eq, split22 V]; exact after_of_writes_sub tail22 _ tail22_writes hr
  rw [h main_v156 (by decide), h main_arg9 (by decide)]
  exact b21_v156 (P21 V)

theorem fin_v159 (V : Valuation τ sig (Elt Ideal)) :
    after ops V (Proc.devRef .tc main_v159) = f_dense (F := Ideal) (after ops V (Proc.devRef .tc main_v88)) (after ops V (Proc.devRef .tc main_v153)) (after ops V (Proc.devRef .tc main_v156)) := by
  have h : ∀ r : Ref sig .tc, r ∉ tailW22 → after ops V (Proc.devRef .tc r) = after b21 (P21 V) (Proc.devRef .tc r) := fun r hr => by
    rw [blocks_eq, split22 V]; exact after_of_writes_sub tail22 _ tail22_writes hr
  rw [h main_v159 (by decide), h main_v88 (by decide), h main_v153 (by decide), h main_v156 (by decide)]
  exact b21_v159 (P21 V)

theorem fin_v161 (V : Valuation τ sig (Elt Ideal)) :
    after ops V (Proc.devRef .tc main_v161) = f_wRow1 (F := Ideal) (after ops V (Proc.devRef .tc main_arg8)) := by
  have h : ∀ r : Ref sig .tc, r ∉ tailW23 → after ops V (Proc.devRef .tc r) = after b22 (P22 V) (Proc.devRef .tc r) := fun r hr => by
    rw [blocks_eq, split23 V]; exact after_of_writes_sub tail23 _ tail23_writes hr
  rw [h main_v161 (by decide), h main_arg8 (by decide)]
  exact b22_v161 (P22 V)

theorem fin_v164 (V : Valuation τ sig (Elt Ideal)) :
    after ops V (Proc.devRef .tc main_v164) = f_bRow1 (F := Ideal) (after ops V (Proc.devRef .tc main_arg9)) := by
  have h : ∀ r : Ref sig .tc, r ∉ tailW24 → after ops V (Proc.devRef .tc r) = after b23 (P23 V) (Proc.devRef .tc r) := fun r hr => by
    rw [blocks_eq, split24 V]; exact after_of_writes_sub tail24 _ tail24_writes hr
  rw [h main_v164 (by decide), h main_arg9 (by decide)]
  exact b23_v164 (P23 V)

theorem fin_v167 (V : Valuation τ sig (Elt Ideal)) :
    after ops V (Proc.devRef .tc main_v167) = f_dense (F := Ideal) (after ops V (Proc.devRef .tc main_v151)) (after ops V (Proc.devRef .tc main_v161)) (after ops V (Proc.devRef .tc main_v164)) := by
  have h : ∀ r : Ref sig .tc, r ∉ tailW24 → after ops V (Proc.devRef .tc r) = after b23 (P23 V) (Proc.devRef .tc r) := fun r hr => by
    rw [blocks_eq, split24 V]; exact after_of_writes_sub tail24 _ tail24_writes hr
  rw [h main_v167 (by decide), h main_v151 (by decide), h main_v161 (by decide), h main_v164 (by decide)]
  exact b23_v167 (P23 V)

theorem fin_v169 (V : Valuation τ sig (Elt Ideal)) :
    after ops V (Proc.devRef .tc main_v169) = f_iRow0 (F := Ideal) (after ops V (Proc.devRef .tc main_arg2)) := by
  have h : ∀ r : Ref sig .tc, r ∉ tailW25 → after ops V (Proc.devRef .tc r) = after b24 (P24 V) (Proc.devRef .tc r) := fun r hr => by
    rw [blocks_eq, split25 V]; exact after_of_writes_sub tail25 _ tail25_writes hr
  rw [h main_v169 (by decide), h main_arg2 (by decide)]
  exact b24_v169 (P24 V)

theorem fin_v171 (V : Valuation τ sig (Elt Ideal)) :
    after ops V (Proc.devRef .tc main_v171) = f_iRow1 (F := Ideal) (after ops V (Proc.devRef .tc main_arg2)) := by
  have h : ∀ r : Ref sig .tc, r ∉ tailW26 → after ops V (Proc.devRef .tc r) = after b25 (P25 V) (Proc.devRef .tc r) := fun r hr => by
    rw [blocks_eq, split26 V]; exact after_of_writes_sub tail26 _ tail26_writes hr
  rw [h main_v171 (by decide), h main_arg2 (by decide)]
  exact b25_v171 (P25 V)

theorem fin_v173 (V : Valuation τ sig (Elt Ideal)) :
    after ops V (Proc.devRef .tc main_v173) = f_bRow1 (F := Ideal) (after ops V (Proc.devRef .tc main_arg10)) := by
  have h : ∀ r : Ref sig .tc, r ∉ tailW27 → after ops V (Proc.devRef .tc r) = after b26 (P26 V) (Proc.devRef .tc r) := fun r hr => by
    rw [blocks_eq, split27 V]; exact after_of_writes_sub tail27 _ tail27_writes hr
  rw [h main_v173 (by decide), h main_arg10 (by decide)]
  exact b26_v173 (P26 V)

theorem fin_v176 (V : Valuation τ sig (Elt Ideal)) :
    after ops V (Proc.devRef .tc main_v176) = f_bRow1 (F := Ideal) (after ops V (Proc.devRef .tc main_arg11)) := by
  have h : ∀ r : Ref sig .tc, r ∉ tailW28 → after ops V (Proc.devRef .tc r) = after b27 (P27 V) (Proc.devRef .tc r) := fun r hr => by
    rw [blocks_eq, split28 V]; exact after_of_writes_sub tail28 _ tail28_writes hr
  rw [h main_v176 (by decide), h main_arg11 (by decide)]
  exact b27_v176 (P27 V)

theorem fin_v178 (V : Valuation τ sig (Elt Ideal)) :
    after ops V (Proc.devRef .tc main_v178) = f_score (F := Ideal) (after ops V (Proc.devRef .tc main_v159)) (after ops V (Proc.devRef .tc main_v173)) := by
  have h : ∀ r : Ref sig .tc, r ∉ tailW28 → after ops V (Proc.devRef .tc r) = after b27 (P27 V) (Proc.devRef .tc r) := fun r hr => by
    rw [blocks_eq, split28 V]; exact after_of_writes_sub tail28 _ tail28_writes hr
  rw [h main_v178 (by decide), h main_v159 (by decide), h main_v173 (by decide)]
  exact b27_v178 (P27 V)

theorem fin_v179 (V : Valuation τ sig (Elt Ideal)) :
    after ops V (Proc.devRef .tc main_v179) = f_score (F := Ideal) (after ops V (Proc.devRef .tc main_v167)) (after ops V (Proc.devRef .tc main_v176)) := by
  have h : ∀ r : Ref sig .tc, r ∉ tailW28 → after ops V (Proc.devRef .tc r) = after b27 (P27 V) (Proc.devRef .tc r) := fun r hr => by
    rw [blocks_eq, split28 V]; exact after_of_writes_sub tail28 _ tail28_writes hr
  rw [h main_v179 (by decide), h main_v167 (by decide), h main_v176 (by decide)]
  exact b27_v179 (P27 V)

theorem fin_v187 (V : Valuation τ sig (Elt Ideal)) :
    after ops V (Proc.devRef .tc main_v187) = f_selfWeight (F := Ideal) (after ops V (Proc.devRef .tc main_v159)) (after ops V (Proc.devRef .tc main_v173)) (after ops V (Proc.devRef .tc main_v176)) := by
  have h : ∀ r : Ref sig .tc, r ∉ tailW28 → after ops V (Proc.devRef .tc r) = after b27 (P27 V) (Proc.devRef .tc r) := fun r hr => by
    rw [blocks_eq, split28 V]; exact after_of_writes_sub tail28 _ tail28_writes hr
  rw [h main_v187 (by decide), h main_v159 (by decide), h main_v173 (by decide), h main_v176 (by decide)]
  exact b27_v187 (P27 V)

theorem fin_v194 (V : Valuation τ sig (Elt Ideal)) :
    after ops V (Proc.devRef .tc main_v194) = f_gCol (F := Ideal) (after ops V (Proc.devRef .tc main_v178)) (after ops V (Proc.devRef .tc main_v169)) := by
  have h : ∀ r : Ref sig .tc, r ∉ tailW29 → after ops V (Proc.devRef .tc r) = after b28 (P28 V) (Proc.devRef .tc r) := fun r hr => by
    rw [blocks_eq, split29 V]; exact after_of_writes_sub tail29 _ tail29_writes hr
  rw [h main_v194 (by decide), h main_v178 (by decide), h main_v169 (by decide)]
  exact b28_v194 (P28 V)

theorem fin_v201 (V : Valuation τ sig (Elt Ideal)) :
    after ops V (Proc.devRef .tc main_v201) = f_gCol (F := Ideal) (after ops V (Proc.devRef .tc main_v179)) (after ops V (Proc.devRef .tc main_v171)) := by
  have h : ∀ r : Ref sig .tc, r ∉ tailW30 → after ops V (Proc.devRef .tc r) = after b29 (P29 V) (Proc.devRef .tc r) := fun r hr => by
    rw [blocks_eq, split30 V]; exact after_of_writes_sub tail30 _ tail30_writes hr
  rw [h main_v201 (by decide), h main_v179 (by decide), h main_v171 (by decide)]
  exact b29_v201 (P29 V)

theorem fin_v208 (V : Valuation τ sig (Elt Ideal)) :
    after ops V (Proc.devRef .tc main_v208) = f_edgeW (F := Ideal) (after ops V (Proc.devRef .tc main_v194)) (after ops V (Proc.devRef .tc main_v201)) := by
  have h : ∀ r : Ref sig .tc, r ∉ tailW31 → after ops V (Proc.devRef .tc r) = after b30 (P30 V) (Proc.devRef .tc r) := fun r hr => by
    rw [blocks_eq, split31 V]; exact after_of_writes_sub tail31 _ tail31_writes hr
  rw [h main_v208 (by decide), h main_v194 (by decide), h main_v201 (by decide)]
  exact b30_v208 (P30 V)

theorem fin_v211 (V : Valuation τ sig (Elt Ideal)) :
    after ops V (Proc.devRef .tc main_v211) = f_segCol (F := Ideal) (after ops V (Proc.devRef .tc main_v169)) (after ops V (Proc.devRef .tc main_v208)) := by
  have h : ∀ r : Ref sig .tc, r ∉ tailW31 → after ops V (Proc.devRef .tc r) = after b30 (P30 V) (Proc.devRef .tc r) := fun r hr => by
    rw [blocks_eq, split31 V]; exact after_of_writes_sub tail31 _ tail31_writes hr
  rw [h main_v211 (by decide), h main_v169 (by decide), h main_v208 (by decide)]
  exact b30_v211 (P30 V)

theorem fin_v219 (V : Valuation τ sig (Elt Ideal)) :
    after ops V (Proc.devRef .tc main_v219) = f_gRow (F := Ideal) (after ops V (Proc.devRef .tc main_v167)) (after ops V (Proc.devRef .tc main_v171)) := by
  have h : ∀ r : Ref sig .tc, r ∉ tailW31 → after ops V (Proc.devRef .tc r) = after b30 (P30 V) (Proc.devRef .tc r) := fun r hr => by
    rw [blocks_eq, split31 V]; exact after_of_writes_sub tail31 _ tail31_writes hr
  rw [h main_v219 (by decide), h main_v167 (by decide), h main_v171 (by decide)]
  exact b30_v219 (P30 V)

theorem fin_v221 (V : Valuation τ sig (Elt Ideal)) :
    after ops V (Proc.devRef .tc main_v221) = f_edgeWH (F := Ideal) (after ops V (Proc.devRef .tc main_v194)) (after ops V (Proc.devRef .tc main_v201)) (after ops V (Proc.devRef .tc main_v219)) := by
  have h : ∀ r : Ref sig .tc, r ∉ tailW31 → after ops V (Proc.devRef .tc r) = after b30 (P30 V) (Proc.devRef .tc r) := fun r hr => by
    rw [blocks_eq, split31 V]; exact after_of_writes_sub tail31 _ tail31_writes hr
  rw [h main_v221 (by decide), h main_v194 (by decide), h main_v201 (by decide), h main_v219 (by decide)]
  exact b30_v221 (P30 V)

theorem fin_v224 (V : Valuation τ sig (Elt Ideal)) :
    after ops V (Proc.devRef .tc main_v224) = f_segRow (F := Ideal) (after ops V (Proc.devRef .tc main_v169)) (after ops V (Proc.devRef .tc main_v221)) := by
  have h : ∀ r : Ref sig .tc, r ∉ tailW31 → after ops V (Proc.devRef .tc r) = after b30 (P30 V) (Proc.devRef .tc r) := fun r hr => by
    rw [blocks_eq, split31 V]; exact after_of_writes_sub tail31 _ tail31_writes hr
  rw [h main_v224 (by decide), h main_v169 (by decide), h main_v221 (by decide)]
  exact b30_v224 (P30 V)

theorem fin_v230 (V : Valuation τ sig (Elt Ideal)) :
    after ops V (Proc.devRef .tc main_v230) = f_norm (F := Ideal) (after ops V (Proc.devRef .tc main_v224)) (after ops V (Proc.devRef .tc main_v211)) (after ops V (Proc.devRef .tc main_v187)) (after ops V (Proc.devRef .tc main_v159)) := by
  have h : ∀ r : Ref sig .tc, r ∉ tailW31 → after ops V (Proc.devRef .tc r) = after b30 (P30 V) (Proc.devRef .tc r) := fun r hr => by
    rw [blocks_eq, split31 V]; exact after_of_writes_sub tail31 _ tail31_writes hr
  rw [h main_v230 (by decide), h main_v224 (by decide), h main_v211 (by decide), h main_v187 (by decide), h main_v159 (by decide)]
  exact b30_v230 (P30 V)

theorem fin_v297 (V : Valuation τ sig (Elt Ideal)) :
    after ops V (Proc.devRef .tc main_v297) = f_denseOut (F := Ideal) (after ops V (Proc.devRef .tc main_v230)) (after ops V (Proc.devRef .tc main_arg14)) (after ops V (Proc.devRef .tc main_arg15)) := by
  have h : ∀ r : Ref sig .tc, r ∉ tailW33 → after ops V (Proc.devRef .tc r) = after b32 (P32 V) (Proc.devRef .tc r) := fun r hr => by
    rw [blocks_eq, split33 V]; exact after_of_writes_sub tail33 _ tail33_writes hr
  rw [h main_v297 (by decide), h main_v230 (by decide), h main_arg14 (by decide), h main_arg15 (by decide)]
  exact b32_v297 (P32 V)

/-! ## The network's values -/

/-- %4 is the network's `p0`. -/
theorem net_v4 (V : Valuation τ sig (Elt Ideal)) :
    after ops V (Proc.devRef .tc main_v4) = Cert.Net.p0 RS (argsOf V) := by
  rw [fin_v4 V, ops_arg0 V, ops_arg4 V, ops_arg5 V]
  rfl

/-- %9 is the network's `a0`. -/
theorem net_v9 (V : Valuation τ sig (Elt Ideal)) :
    after ops V (Proc.devRef .tc main_v9) = Cert.Net.a0 RS (argsOf V) := by
  rw [fin_v9 V, ops_arg1 V, ops_arg6 V, ops_arg7 V]
  rfl

/-- %17 is the network's `p1`. -/
theorem net_v17 (V : Valuation τ sig (Elt Ideal)) :
    after ops V (Proc.devRef .tc main_v17) = Cert.Net.p1 RS (argsOf V) := by
  rw [fin_v17 V, net_v4 V, fin_v11 V, ops_arg8 V, fin_v14 V, ops_arg9 V]
  rfl

/-- %25 is the network's `a1`. -/
theorem net_v25 (V : Valuation τ sig (Elt Ideal)) :
    after ops V (Proc.devRef .tc main_v25) = Cert.Net.a1 RS (argsOf V) := by
  rw [fin_v25 V, net_v9 V, fin_v19 V, ops_arg8 V, fin_v22 V, ops_arg9 V]
  rfl

/-- %27 is the network's `sP`. -/
theorem net_v27 (V : Valuation τ sig (Elt Ideal)) :
    after ops V (Proc.devRef .tc main_v27) = Cert.Net.sP RS (argsOf V) := by
  rw [fin_v27 V, ops_arg2 V]
  rfl

/-- %29 is the network's `tP`. -/
theorem net_v29 (V : Valuation τ sig (Elt Ideal)) :
    after ops V (Proc.devRef .tc main_v29) = Cert.Net.tP RS (argsOf V) := by
  rw [fin_v29 V, ops_arg2 V]
  rfl

/-- %36 is the network's `x1PA`. -/
theorem net_v36 (V : Valuation τ sig (Elt Ideal)) :
    after ops V (Proc.devRef .tc main_v36) = Cert.Net.x1PA RS (argsOf V) := by
  rw [fin_v36 V, net_v17 V, fin_v31 V, ops_arg10 V]
  rfl

/-- %37 is the network's `h1PA`. -/
theorem net_v37 (V : Valuation τ sig (Elt Ideal)) :
    after ops V (Proc.devRef .tc main_v37) = Cert.Net.h1PA RS (argsOf V) := by
  rw [fin_v37 V, net_v25 V, fin_v34 V, ops_arg11 V]
  rfl

/-- %45 is the network's `w2PA`. -/
theorem net_v45 (V : Valuation τ sig (Elt Ideal)) :
    after ops V (Proc.devRef .tc main_v45) = Cert.Net.w2PA RS (argsOf V) := by
  rw [fin_v45 V, net_v17 V, fin_v31 V, ops_arg10 V, fin_v34 V, ops_arg11 V]
  rfl

/-- %52 is the network's `x1sPA`. -/
theorem net_v52 (V : Valuation τ sig (Elt Ideal)) :
    after ops V (Proc.devRef .tc main_v52) = Cert.Net.x1sPA RS (argsOf V) := by
  rw [fin_v52 V, net_v36 V, net_v27 V]
  rfl

/-- %59 is the network's `h1tPA`. -/
theorem net_v59 (V : Valuation τ sig (Elt Ideal)) :
    after ops V (Proc.devRef .tc main_v59) = Cert.Net.h1tPA RS (argsOf V) := by
  rw [fin_v59 V, net_v37 V, net_v29 V]
  rfl

/-- %66 is the network's `w1PA`. -/
theorem net_v66 (V : Valuation τ sig (Elt Ideal)) :
    after ops V (Proc.devRef .tc main_v66) = Cert.Net.w1PA RS (argsOf V) := by
  rw [fin_v66 V, net_v52 V, net_v59 V]
  rfl

/-- %69 is the network's `divPA`. -/
theorem net_v69 (V : Valuation τ sig (Elt Ideal)) :
    after ops V (Proc.devRef .tc main_v69) = Cert.Net.divPA RS (argsOf V) := by
  rw [fin_v69 V, net_v27 V, net_v66 V]
  rfl

/-- %77 is the network's `htPA`. -/
theorem net_v77 (V : Valuation τ sig (Elt Ideal)) :
    after ops V (Proc.devRef .tc main_v77) = Cert.Net.htPA RS (argsOf V) := by
  rw [fin_v77 V, net_v25 V, net_v29 V]
  rfl

/-- %79 is the network's `whPA`. -/
theorem net_v79 (V : Valuation τ sig (Elt Ideal)) :
    after ops V (Proc.devRef .tc main_v79) = Cert.Net.whPA RS (argsOf V) := by
  rw [fin_v79 V, net_v52 V, net_v59 V, net_v77 V]
  rfl

/-- %82 is the network's `aggPA`. -/
theorem net_v82 (V : Valuation τ sig (Elt Ideal)) :
    after ops V (Proc.devRef .tc main_v82) = Cert.Net.aggPA RS (argsOf V) := by
  rw [fin_v82 V, net_v27 V, net_v79 V]
  rfl

/-- %88 is the network's `p2`. -/
theorem net_v88 (V : Valuation τ sig (Elt Ideal)) :
    after ops V (Proc.devRef .tc main_v88) = Cert.Net.p2 RS (argsOf V) := by
  rw [fin_v88 V, net_v82 V, net_v69 V, net_v45 V, net_v17 V]
  simp only [Cert.Net.p2, RS]

/-- %90 is the network's `sA`. -/
theorem net_v90 (V : Valuation τ sig (Elt Ideal)) :
    after ops V (Proc.devRef .tc main_v90) = Cert.Net.sA RS (argsOf V) := by
  rw [fin_v90 V, ops_arg3 V]
  rfl

/-- %92 is the network's `tA`. -/
theorem net_v92 (V : Valuation τ sig (Elt Ideal)) :
    after ops V (Proc.devRef .tc main_v92) = Cert.Net.tA RS (argsOf V) := by
  rw [fin_v92 V, ops_arg3 V]
  rfl

/-- %99 is the network's `x1AP`. -/
theorem net_v99 (V : Valuation τ sig (Elt Ideal)) :
    after ops V (Proc.devRef .tc main_v99) = Cert.Net.x1AP RS (argsOf V) := by
  rw [fin_v99 V, net_v25 V, fin_v94 V, ops_arg12 V]
  rfl

/-- %100 is the network's `h1AP`. -/
theorem net_v100 (V : Valuation τ sig (Elt Ideal)) :
    after ops V (Proc.devRef .tc main_v100) = Cert.Net.h1AP RS (argsOf V) := by
  rw [fin_v100 V, net_v17 V, fin_v97 V, ops_arg13 V]
  rfl

/-- %108 is the network's `w2AP`. -/
theorem net_v108 (V : Valuation τ sig (Elt Ideal)) :
    after ops V (Proc.devRef .tc main_v108) = Cert.Net.w2AP RS (argsOf V) := by
  rw [fin_v108 V, net_v25 V, fin_v94 V, ops_arg12 V, fin_v97 V, ops_arg13 V]
  rfl

/-- %115 is the network's `x1sAP`. -/
theorem net_v115 (V : Valuation τ sig (Elt Ideal)) :
    after ops V (Proc.devRef .tc main_v115) = Cert.Net.x1sAP RS (argsOf V) := by
  rw [fin_v115 V, net_v99 V, net_v90 V]
  rfl

/-- %122 is the network's `h1tAP`. -/
theorem net_v122 (V : Valuation τ sig (Elt Ideal)) :
    after ops V (Proc.devRef .tc main_v122) = Cert.Net.h1tAP RS (argsOf V) := by
  rw [fin_v122 V, net_v100 V, net_v92 V]
  rfl

/-- %129 is the network's `w1AP`. -/
theorem net_v129 (V : Valuation τ sig (Elt Ideal)) :
    after ops V (Proc.devRef .tc main_v129) = Cert.Net.w1AP RS (argsOf V) := by
  rw [fin_v129 V, net_v115 V, net_v122 V]
  rfl

/-- %132 is the network's `divAP`. -/
theorem net_v132 (V : Valuation τ sig (Elt Ideal)) :
    after ops V (Proc.devRef .tc main_v132) = Cert.Net.divAP RS (argsOf V) := by
  rw [fin_v132 V, net_v90 V, net_v129 V]
  rfl

/-- %140 is the network's `htAP`. -/
theorem net_v140 (V : Valuation τ sig (Elt Ideal)) :
    after ops V (Proc.devRef .tc main_v140) = Cert.Net.htAP RS (argsOf V) := by
  rw [fin_v140 V, net_v17 V, net_v92 V]
  rfl

/-- %142 is the network's `whAP`. -/
theorem net_v142 (V : Valuation τ sig (Elt Ideal)) :
    after ops V (Proc.devRef .tc main_v142) = Cert.Net.whAP RS (argsOf V) := by
  rw [fin_v142 V, net_v115 V, net_v122 V, net_v140 V]
  rfl

/-- %145 is the network's `aggAP`. -/
theorem net_v145 (V : Valuation τ sig (Elt Ideal)) :
    after ops V (Proc.devRef .tc main_v145) = Cert.Net.aggAP RS (argsOf V) := by
  rw [fin_v145 V, net_v90 V, net_v142 V]
  rfl

/-- %151 is the network's `a2`. -/
theorem net_v151 (V : Valuation τ sig (Elt Ideal)) :
    after ops V (Proc.devRef .tc main_v151) = Cert.Net.a2 RS (argsOf V) := by
  rw [fin_v151 V, net_v145 V, net_v132 V, net_v108 V, net_v25 V]
  simp only [Cert.Net.a2, RS]

/-- %159 is the network's `p3`. -/
theorem net_v159 (V : Valuation τ sig (Elt Ideal)) :
    after ops V (Proc.devRef .tc main_v159) = Cert.Net.p3 RS (argsOf V) := by
  rw [fin_v159 V, net_v88 V, fin_v153 V, ops_arg8 V, fin_v156 V, ops_arg9 V]
  rfl

/-- %167 is the network's `a3`. -/
theorem net_v167 (V : Valuation τ sig (Elt Ideal)) :
    after ops V (Proc.devRef .tc main_v167) = Cert.Net.a3 RS (argsOf V) := by
  rw [fin_v167 V, net_v151 V, fin_v161 V, ops_arg8 V, fin_v164 V, ops_arg9 V]
  rfl

/-- %169 is the network's `sP`. -/
theorem net_v169 (V : Valuation τ sig (Elt Ideal)) :
    after ops V (Proc.devRef .tc main_v169) = Cert.Net.sP RS (argsOf V) := by
  rw [fin_v169 V, ops_arg2 V]
  rfl

/-- %171 is the network's `tP`. -/
theorem net_v171 (V : Valuation τ sig (Elt Ideal)) :
    after ops V (Proc.devRef .tc main_v171) = Cert.Net.tP RS (argsOf V) := by
  rw [fin_v171 V, ops_arg2 V]
  rfl

/-- %178 is the network's `x1PA'`. -/
theorem net_v178 (V : Valuation τ sig (Elt Ideal)) :
    after ops V (Proc.devRef .tc main_v178) = Cert.Net.x1PA' RS (argsOf V) := by
  rw [fin_v178 V, net_v159 V, fin_v173 V, ops_arg10 V]
  rfl

/-- %179 is the network's `h1PA'`. -/
theorem net_v179 (V : Valuation τ sig (Elt Ideal)) :
    after ops V (Proc.devRef .tc main_v179) = Cert.Net.h1PA' RS (argsOf V) := by
  rw [fin_v179 V, net_v167 V, fin_v176 V, ops_arg11 V]
  rfl

/-- %187 is the network's `w2PA'`. -/
theorem net_v187 (V : Valuation τ sig (Elt Ideal)) :
    after ops V (Proc.devRef .tc main_v187) = Cert.Net.w2PA' RS (argsOf V) := by
  rw [fin_v187 V, net_v159 V, fin_v173 V, ops_arg10 V, fin_v176 V, ops_arg11 V]
  rfl

/-- %194 is the network's `x1sPA'`. -/
theorem net_v194 (V : Valuation τ sig (Elt Ideal)) :
    after ops V (Proc.devRef .tc main_v194) = Cert.Net.x1sPA' RS (argsOf V) := by
  rw [fin_v194 V, net_v178 V, net_v169 V]
  rfl

/-- %201 is the network's `h1tPA'`. -/
theorem net_v201 (V : Valuation τ sig (Elt Ideal)) :
    after ops V (Proc.devRef .tc main_v201) = Cert.Net.h1tPA' RS (argsOf V) := by
  rw [fin_v201 V, net_v179 V, net_v171 V]
  rfl

/-- %208 is the network's `w1PA'`. -/
theorem net_v208 (V : Valuation τ sig (Elt Ideal)) :
    after ops V (Proc.devRef .tc main_v208) = Cert.Net.w1PA' RS (argsOf V) := by
  rw [fin_v208 V, net_v194 V, net_v201 V]
  rfl

/-- %211 is the network's `divPA'`. -/
theorem net_v211 (V : Valuation τ sig (Elt Ideal)) :
    after ops V (Proc.devRef .tc main_v211) = Cert.Net.divPA' RS (argsOf V) := by
  rw [fin_v211 V, net_v169 V, net_v208 V]
  rfl

/-- %219 is the network's `htPA'`. -/
theorem net_v219 (V : Valuation τ sig (Elt Ideal)) :
    after ops V (Proc.devRef .tc main_v219) = Cert.Net.htPA' RS (argsOf V) := by
  rw [fin_v219 V, net_v167 V, net_v171 V]
  rfl

/-- %221 is the network's `whPA'`. -/
theorem net_v221 (V : Valuation τ sig (Elt Ideal)) :
    after ops V (Proc.devRef .tc main_v221) = Cert.Net.whPA' RS (argsOf V) := by
  rw [fin_v221 V, net_v194 V, net_v201 V, net_v219 V]
  rfl

/-- %224 is the network's `aggPA'`. -/
theorem net_v224 (V : Valuation τ sig (Elt Ideal)) :
    after ops V (Proc.devRef .tc main_v224) = Cert.Net.aggPA' RS (argsOf V) := by
  rw [fin_v224 V, net_v169 V, net_v221 V]
  rfl

/-- %230 is the network's `p4`. -/
theorem net_v230 (V : Valuation τ sig (Elt Ideal)) :
    after ops V (Proc.devRef .tc main_v230) = Cert.Net.p4 RS (argsOf V) := by
  rw [fin_v230 V, net_v224 V, net_v211 V, net_v187 V, net_v159 V]
  simp only [Cert.Net.p4, RS]

/-- %297 is the network's `out`. -/
theorem net_v297 (V : Valuation τ sig (Elt Ideal)) :
    after ops V (Proc.devRef .tc main_v297) = Cert.Net.out RS (argsOf V) := by
  rw [fin_v297 V, net_v230 V, ops_arg14 V, ops_arg15 V]
  rfl

/-- The reference's result buffer, after its run from a launch memory, holds the network's output of the launch
    memory's arguments. -/
theorem out_eq (m : (ℓ : Loc nD τ sig) → Buf (Elt Ideal) ℓ) (c : Dev nD) :
    after ops (fun b => m (c, b)) (Proc.devRef .tc main_v297) = Cert.Net.out RS (args m c) :=
  net_v297 (fun b => m (c, b))

/-- The run with the result read: every weakly fair execution from a memory with zero counters terminates with the
    result buffer at the network's output and every argument as launched. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v297) = Cert.Net.out RS (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c).1.trans (out_eq m c), (h c).2⟩) (run m ρ)

end Cert.ReferenceIdeal.RefRun

end
-- ==== Proof.NetCongr.lean ====
/-
  Two stage records that agree give the same network.

  If every stage of `S` is the same function as the matching stage of `T` — the two gathers only at index
  vectors all of whose entries name a row, `0 ≤ i(e) < 200000` — and the four index vectors of the argument
  arrays are such vectors, then every intermediate value of the network, and so its output, is the same under
  `S` as under `T`: one stage at a time, in the order the values are defined.
-/
import proofs.«154843_j76682346102829_2_alg».proof.Proof.Net

noncomputable section

namespace Cert.Net

open Idealize.ShloMosaic

theorem out_congr (S T : Stages) (A : Args) (R : I1 → Prop)
    (h_relu128 : S.relu128 = T.relu128)
    (h_relu64 : S.relu64 = T.relu64)
    (h_dense : S.dense = T.dense)
    (h_denseOut : S.denseOut = T.denseOut)
    (h_wRow0 : S.wRow0 = T.wRow0)
    (h_wRow1 : S.wRow1 = T.wRow1)
    (h_bRow0 : S.bRow0 = T.bRow0)
    (h_bRow1 : S.bRow1 = T.bRow1)
    (h_iRow0 : S.iRow0 = T.iRow0)
    (h_iRow1 : S.iRow1 = T.iRow1)
    (h_score : S.score = T.score)
    (h_selfWeight : S.selfWeight = T.selfWeight)
    (h_edgeW : S.edgeW = T.edgeW)
    (h_edgeWH : S.edgeWH = T.edgeWH)
    (h_segCol : S.segCol = T.segCol)
    (h_segRow : S.segRow = T.segRow)
    (h_norm : S.norm = T.norm)
    (h_gCol : ∀ (t : N1) (i : I1), R i → S.gCol t i = T.gCol t i)
    (h_gRow : ∀ (t : N64) (i : I1), R i → S.gRow t i = T.gRow t i)
    (r_sP : R (sP T A)) (r_tP : R (tP T A)) (r_sA : R (sA T A)) (r_tA : R (tA T A)) :
    out S A = out T A := by
  have e_sP : sP S A = sP T A := by
    unfold sP; rw [h_iRow0]
  have e_tP : tP S A = tP T A := by
    unfold tP; rw [h_iRow1]
  have e_sA : sA S A = sA T A := by
    unfold sA; rw [h_iRow0]
  have e_tA : tA S A = tA T A := by
    unfold tA; rw [h_iRow1]
  have e_p0 : p0 S A = p0 T A := by
    unfold p0; rw [h_relu128]
  have e_a0 : a0 S A = a0 T A := by
    unfold a0; rw [h_relu64]
  have e_p1 : p1 S A = p1 T A := by
    unfold p1; rw [e_p0, h_dense, h_wRow0, h_bRow0]
  have e_a1 : a1 S A = a1 T A := by
    unfold a1; rw [e_a0, h_dense, h_wRow0, h_bRow0]
  have e_x1PA : x1PA S A = x1PA T A := by
    unfold x1PA; rw [e_p1, h_score, h_bRow0]
  have e_h1AP : h1AP S A = h1AP T A := by
    unfold h1AP; rw [e_p1, h_score, h_bRow0]
  have e_w2PA : w2PA S A = w2PA T A := by
    unfold w2PA; rw [e_p1, h_selfWeight, h_bRow0]
  have e_x1AP : x1AP S A = x1AP T A := by
    unfold x1AP; rw [e_a1, h_score, h_bRow0]
  have e_h1PA : h1PA S A = h1PA T A := by
    unfold h1PA; rw [e_a1, h_score, h_bRow0]
  have e_w2AP : w2AP S A = w2AP T A := by
    unfold w2AP; rw [e_a1, h_selfWeight, h_bRow0]
  have e_x1sPA : x1sPA S A = x1sPA T A := by
    unfold x1sPA; rw [e_x1PA, e_sP]; exact h_gCol _ _ r_sP
  have e_h1tPA : h1tPA S A = h1tPA T A := by
    unfold h1tPA; rw [e_h1PA, e_tP]; exact h_gCol _ _ r_tP
  have e_htPA : htPA S A = htPA T A := by
    unfold htPA; rw [e_a1, e_tP]; exact h_gRow _ _ r_tP
  have e_w1PA : w1PA S A = w1PA T A := by
    unfold w1PA; rw [e_x1sPA, e_h1tPA, h_edgeW]
  have e_whPA : whPA S A = whPA T A := by
    unfold whPA; rw [e_x1sPA, e_h1tPA, e_htPA, h_edgeWH]
  have e_divPA : divPA S A = divPA T A := by
    unfold divPA; rw [e_sP, e_w1PA, h_segCol]
  have e_aggPA : aggPA S A = aggPA T A := by
    unfold aggPA; rw [e_sP, e_whPA, h_segRow]
  have e_p2 : p2 S A = p2 T A := by
    unfold p2; rw [e_aggPA, e_divPA, e_w2PA, e_p1, h_norm]
  have e_x1sAP : x1sAP S A = x1sAP T A := by
    unfold x1sAP; rw [e_x1AP, e_sA]; exact h_gCol _ _ r_sA
  have e_h1tAP : h1tAP S A = h1tAP T A := by
    unfold h1tAP; rw [e_h1AP, e_tA]; exact h_gCol _ _ r_tA
  have e_htAP : htAP S A = htAP T A := by
    unfold htAP; rw [e_p1, e_tA]; exact h_gRow _ _ r_tA
  have e_w1AP : w1AP S A = w1AP T A := by
    unfold w1AP; rw [e_x1sAP, e_h1tAP, h_edgeW]
  have e_whAP : whAP S A = whAP T A := by
    unfold whAP; rw [e_x1sAP, e_h1tAP, e_htAP, h_edgeWH]
  have e_divAP : divAP S A = divAP T A := by
    unfold divAP; rw [e_sA, e_w1AP, h_segCol]
  have e_aggAP : aggAP S A = aggAP T A := by
    unfold aggAP; rw [e_sA, e_whAP, h_segRow]
  have e_a2 : a2 S A = a2 T A := by
    unfold a2; rw [e_aggAP, e_divAP, e_w2AP, e_a1, h_norm]
  have e_p3 : p3 S A = p3 T A := by
    unfold p3; rw [e_p2, h_dense, h_wRow1, h_bRow1]
  have e_a3 : a3 S A = a3 T A := by
    unfold a3; rw [e_a2, h_dense, h_wRow1, h_bRow1]
  have e_x1PA2 : x1PA' S A = x1PA' T A := by
    unfold x1PA'; rw [e_p3, h_score, h_bRow1]
  have e_w2PA2 : w2PA' S A = w2PA' T A := by
    unfold w2PA'; rw [e_p3, h_selfWeight, h_bRow1]
  have e_h1PA2 : h1PA' S A = h1PA' T A := by
    unfold h1PA'; rw [e_a3, h_score, h_bRow1]
  have e_x1sPA2 : x1sPA' S A = x1sPA' T A := by
    unfold x1sPA'; rw [e_x1PA2, e_sP]; exact h_gCol _ _ r_sP
  have e_h1tPA2 : h1tPA' S A = h1tPA' T A := by
    unfold h1tPA'; rw [e_h1PA2, e_tP]; exact h_gCol _ _ r_tP
  have e_htPA2 : htPA' S A = htPA' T A := by
    unfold htPA'; rw [e_a3, e_tP]; exact h_gRow _ _ r_tP
  have e_w1PA2 : w1PA' S A = w1PA' T A := by
    unfold w1PA'; rw [e_x1sPA2, e_h1tPA2, h_edgeW]
  have e_whPA2 : whPA' S A = whPA' T A := by
    unfold whPA'; rw [e_x1sPA2, e_h1tPA2, e_htPA2, h_edgeWH]
  have e_divPA2 : divPA' S A = divPA' T A := by
    unfold divPA'; rw [e_sP, e_w1PA2, h_segCol]
  have e_aggPA2 : aggPA' S A = aggPA' T A := by
    unfold aggPA'; rw [e_sP, e_whPA2, h_segRow]
  have e_p4 : p4 S A = p4 T A := by
    unfold p4; rw [e_aggPA2, e_divPA2, e_w2PA2, e_p3, h_norm]
  have e_out : out S A = out T A := by
    unfold out; rw [e_p4, h_denseOut]
  exact e_out

end Cert.Net

end
-- ==== Proof.DenseRef.lean ====
/-
  The reference program's dense layers as functions of arbitrary operand arrays, at the ideal values: its product
  contracting the second axis of x with the first of w, its bias vector placed as a one-row matrix and repeated down
  the rows, its sum, and (for the first two layers) its relu — the maximum with the scalar zero repeated over the array —
  are the whole-array affine map and dense layer of `Cert.DenseSpec`, that is, the four dense stages of the network.
-/
import proofs.«154843_j76682346102829_2_alg».proof.Proof.Gen.ReferenceIdeal
import proofs.«154843_j76682346102829_2_alg».proof.Proof.DenseSpec
import proofs.«154843_j76682346102829_2_alg».proof.Proof.DenseStages

noncomputable section

namespace Cert.DenseRef

open Idealize.ShloMosaic Idealize.ShloMosaic.ValueIdx Cert.ReferenceIdeal Cert.ReferenceIdeal.Gen
open Cert.DenseLayer Cert.DenseSpec

/-- The reference's relu on a [200000, 64] array: entry by entry the maximum with the zero word's value. -/
theorem host_relu (y : FVec Ideal S200000x64 .f32) :
    (maximumf y (broadcastInDim S200000x64 ![] bcast_S_S200000x64 (constant (F := Ideal) S_ .f32 0x00000000#32))
      : S200000x64.Idx → EReal) = fun i => max (y i) Z := by
  funext i
  rw [maximumf_apply, Cert.HostBroadcast.scalar_apply]
  rfl

/-- The reference's  x @ w + b  for x : [200000, 128], w : [128, 64]: its product, its bias placed as a row and repeated down
    the rows, and its sum are the affine map of the three operand arrays. -/
theorem host_affine_128_64 (x : FVec Ideal S200000x128 .f32) (w : FVec Ideal S128x64 .f32) (b : FVec Ideal S64 .f32) :
    (addf (Host.dotGeneral (F := Ideal) (φ₁ := .f32) (φ₂ := .f32) dot_S200000x128_S128x64_S200000x64_1_0_0_1_n_n none x w)
        (broadcastInDim S200000x64 ![0, 1] bcast_S1x64_S200000x64_0_1 (broadcastInDim S1x64 ![1] bcast_S64_S1x64_1 b))
      : S200000x64.Idx → EReal) = affineArr (M := 200000) (K := 128) (N := 64) x w b := by
  funext i
  obtain ⟨p, q, rfl⟩ : ∃ (p : Fin 200000) (q : Fin 64), i = ix2 p q := ⟨i 0, i 1, eq_ix2 i⟩
  exact host_affine_apply dot_S200000x128_S128x64_S200000x64_1_0_0_1_n_n_wf bcast_S64_S1x64_1 bcast_S1x64_S200000x64_0_1 x w b p q

/-- The same followed by the reference's relu (the maximum with the scalar zero repeated over the array): the dense
    layer of the three operand arrays. -/
theorem host_dense_128_64 (x : FVec Ideal S200000x128 .f32) (w : FVec Ideal S128x64 .f32) (b : FVec Ideal S64 .f32) :
    (maximumf (addf (Host.dotGeneral (F := Ideal) (φ₁ := .f32) (φ₂ := .f32) dot_S200000x128_S128x64_S200000x64_1_0_0_1_n_n none x w)
        (broadcastInDim S200000x64 ![0, 1] bcast_S1x64_S200000x64_0_1 (broadcastInDim S1x64 ![1] bcast_S64_S1x64_1 b)))
        (broadcastInDim S200000x64 ![] bcast_S_S200000x64 (constant (F := Ideal) S_ .f32 0x00000000#32))
      : S200000x64.Idx → EReal) = denseArr (M := 200000) (K := 128) (N := 64) x w b := by
  funext i
  obtain ⟨p, q, rfl⟩ : ∃ (p : Fin 200000) (q : Fin 64), i = ix2 p q := ⟨i 0, i 1, eq_ix2 i⟩
  exact host_dense_apply dot_S200000x128_S128x64_S200000x64_1_0_0_1_n_n_wf bcast_S64_S1x64_1 bcast_S1x64_S200000x64_0_1 bcast_S_S200000x64 x w b p q

/-- As functions of the three operands, those operations are the network's `relu128` stage. -/
theorem ref_relu128 :
    (fun (x : Cert.Net.N128) (w : Cert.Net.W128) (b : Cert.Net.B64) =>
      ((maximumf (addf (Host.dotGeneral (F := Ideal) (φ₁ := .f32) (φ₂ := .f32) dot_S200000x128_S128x64_S200000x64_1_0_0_1_n_n none x w)
        (broadcastInDim S200000x64 ![0, 1] bcast_S1x64_S200000x64_0_1 (broadcastInDim S1x64 ![1] bcast_S64_S1x64_1 b)))
        (broadcastInDim S200000x64 ![] bcast_S_S200000x64 (constant (F := Ideal) S_ .f32 0x00000000#32))) : Cert.Net.N64)) = Cert.DenseStages.relu128 := by
  funext x w b
  exact host_dense_128_64 x w b

/-- The reference's  x @ w + b  for x : [200000, 64], w : [64, 64]: its product, its bias placed as a row and repeated down
    the rows, and its sum are the affine map of the three operand arrays. -/
theorem host_affine_64_64 (x : FVec Ideal S200000x64 .f32) (w : FVec Ideal S64x64 .f32) (b : FVec Ideal S64 .f32) :
    (addf (Host.dotGeneral (F := Ideal) (φ₁ := .f32) (φ₂ := .f32) dot_S200000x64_S64x64_S200000x64_1_0_0_1_n_n none x w)
        (broadcastInDim S200000x64 ![0, 1] bcast_S1x64_S200000x64_0_1 (broadcastInDim S1x64 ![1] bcast_S64_S1x64_1 b))
      : S200000x64.Idx → EReal) = affineArr (M := 200000) (K := 64) (N := 64) x w b := by
  funext i
  obtain ⟨p, q, rfl⟩ : ∃ (p : Fin 200000) (q : Fin 64), i = ix2 p q := ⟨i 0, i 1, eq_ix2 i⟩
  exact host_affine_apply dot_S200000x64_S64x64_S200000x64_1_0_0_1_n_n_wf bcast_S64_S1x64_1 bcast_S1x64_S200000x64_0_1 x w b p q

/-- As functions of the three operands, those operations are the network's `dense` stage. -/
theorem ref_dense :
    (fun (x : Cert.Net.N64) (w : Cert.Net.W64) (b : Cert.Net.B64) =>
      ((addf (Host.dotGeneral (F := Ideal) (φ₁ := .f32) (φ₂ := .f32) dot_S200000x64_S64x64_S200000x64_1_0_0_1_n_n none x w)
        (broadcastInDim S200000x64 ![0, 1] bcast_S1x64_S200000x64_0_1 (broadcastInDim S1x64 ![1] bcast_S64_S1x64_1 b))) : Cert.Net.N64)) = Cert.DenseStages.dense := by
  funext x w b
  exact host_affine_64_64 x w b

/-- The same followed by the reference's relu (the maximum with the scalar zero repeated over the array): the dense
    layer of the three operand arrays. -/
theorem host_dense_64_64 (x : FVec Ideal S200000x64 .f32) (w : FVec Ideal S64x64 .f32) (b : FVec Ideal S64 .f32) :
    (maximumf (addf (Host.dotGeneral (F := Ideal) (φ₁ := .f32) (φ₂ := .f32) dot_S200000x64_S64x64_S200000x64_1_0_0_1_n_n none x w)
        (broadcastInDim S200000x64 ![0, 1] bcast_S1x64_S200000x64_0_1 (broadcastInDim S1x64 ![1] bcast_S64_S1x64_1 b)))
        (broadcastInDim S200000x64 ![] bcast_S_S200000x64 (constant (F := Ideal) S_ .f32 0x00000000#32))
      : S200000x64.Idx → EReal) = denseArr (M := 200000) (K := 64) (N := 64) x w b := by
  funext i
  obtain ⟨p, q, rfl⟩ : ∃ (p : Fin 200000) (q : Fin 64), i = ix2 p q := ⟨i 0, i 1, eq_ix2 i⟩
  exact host_dense_apply dot_S200000x64_S64x64_S200000x64_1_0_0_1_n_n_wf bcast_S64_S1x64_1 bcast_S1x64_S200000x64_0_1 bcast_S_S200000x64 x w b p q

/-- As functions of the three operands, those operations are the network's `relu64` stage. -/
theorem ref_relu64 :
    (fun (x : Cert.Net.N64) (w : Cert.Net.W64) (b : Cert.Net.B64) =>
      ((maximumf (addf (Host.dotGeneral (F := Ideal) (φ₁ := .f32) (φ₂ := .f32) dot_S200000x64_S64x64_S200000x64_1_0_0_1_n_n none x w)
        (broadcastInDim S200000x64 ![0, 1] bcast_S1x64_S200000x64_0_1 (broadcastInDim S1x64 ![1] bcast_S64_S1x64_1 b)))
        (broadcastInDim S200000x64 ![] bcast_S_S200000x64 (constant (F := Ideal) S_ .f32 0x00000000#32))) : Cert.Net.N64)) = Cert.DenseStages.relu64 := by
  funext x w b
  exact host_dense_64_64 x w b

/-- The reference's  x @ w + b  for x : [200000, 64], w : [64, 32]: its product, its bias placed as a row and repeated down
    the rows, and its sum are the affine map of the three operand arrays. -/
theorem host_affine_64_32 (x : FVec Ideal S200000x64 .f32) (w : FVec Ideal S64x32 .f32) (b : FVec Ideal S32 .f32) :
    (addf (Host.dotGeneral (F := Ideal) (φ₁ := .f32) (φ₂ := .f32) dot_S200000x64_S64x32_S200000x32_1_0_0_1_n_n none x w)
        (broadcastInDim S200000x32 ![0, 1] bcast_S1x32_S200000x32_0_1 (broadcastInDim S1x32 ![1] bcast_S32_S1x32_1 b))
      : S200000x32.Idx → EReal) = affineArr (M := 200000) (K := 64) (N := 32) x w b := by
  funext i
  obtain ⟨p, q, rfl⟩ : ∃ (p : Fin 200000) (q : Fin 32), i = ix2 p q := ⟨i 0, i 1, eq_ix2 i⟩
  exact host_affine_apply dot_S200000x64_S64x32_S200000x32_1_0_0_1_n_n_wf bcast_S32_S1x32_1 bcast_S1x32_S200000x32_0_1 x w b p q

/-- As functions of the three operands, those operations are the network's `denseOut` stage. -/
theorem ref_denseOut :
    (fun (x : Cert.Net.N64) (w : Cert.Net.WOut) (b : Cert.Net.BOut) =>
      ((addf (Host.dotGeneral (F := Ideal) (φ₁ := .f32) (φ₂ := .f32) dot_S200000x64_S64x32_S200000x32_1_0_0_1_n_n none x w)
        (broadcastInDim S200000x32 ![0, 1] bcast_S1x32_S200000x32_0_1 (broadcastInDim S1x32 ![1] bcast_S32_S1x32_1 b))) : Cert.Net.NOut)) = Cert.DenseStages.denseOut := by
  funext x w b
  exact host_affine_64_32 x w b

end Cert.DenseRef

end
-- ==== Proof.ScoreEdgeRef.lean ====
/-
  The reference's operations for the attention scores and the edge stage, as functions of arbitrary operand arrays.

  The host's product of a node table with a vector placed as a `[64, 1]` column is the column of the rows' scores.  The
  host's `exp` of the selection between `v` and `0.2 · v` by `v > 0`, the zero and the `0.2` repeated from scalars, is
  `exp(leaky v)` entry by entry.  So the reference's self-loop weights, edge weights and edge messages are the stage
  functions of the specification.
-/
import proofs.«154843_j76682346102829_2_alg».proof.ReferenceIdeal
import proofs.«154843_j76682346102829_2_alg».proof.Proof.Gen.ReferenceIdeal
import proofs.«154843_j76682346102829_2_alg».proof.Proof.ScoreEdgeSpec
import proofs.«154843_j76682346102829_2_alg».proof.Proof.LibHostProduct
import proofs.«154843_j76682346102829_2_alg».proof.Proof.LibHostBroadcast

noncomputable section

namespace Cert.ScoreEdgeRef

open Cert.ReferenceIdeal Cert.ReferenceIdeal.Facts₀ Idealize.ShloMosaic Idealize.ShloMosaic.ValueIdx Cert.ScoreEdge
open Cert.Net (N64 B64 N1 E1 E64)

/-- The host's `exp` of `where(v > 0, v, 0.2 · v)`, over any shape: `exp(leaky v)` entry by entry. -/
theorem expLeaky_host {s : Shape} (h0 : S_.BroadcastsInDim s (![] : Fin 0 → Fin s.rank)) (v : FVec Ideal s .f32) :
    Host.exp (select (cmpf .ogt v (broadcastInDim s ![] h0 (constant (F := Ideal) S_ .f32 0x00000000#32))) v
        (mulf (broadcastInDim s ![] h0 (constant (F := Ideal) S_ .f32 0x3E4CCCCD#32)) v))
      = fun i => expLeaky (v i) := by
  have hz : broadcastInDim s ![] h0 (constant (F := Ideal) S_ .f32 0x00000000#32)
      = fun _ => Ideal.ofBits .f32 0x00000000#32 := funext fun i => Cert.HostBroadcast.scalar_apply _ _ _ i
  have hc : broadcastInDim s ![] h0 (constant (F := Ideal) S_ .f32 0x3E4CCCCD#32)
      = fun _ => Ideal.ofBits .f32 0x3E4CCCCD#32 := funext fun i => Cert.HostBroadcast.scalar_apply _ _ _ i
  rw [hz, hc]
  rfl

/-- The host's product of a node table with a vector placed as a column, at row `n`: the row against the vector. -/
theorem score_host_apply (x : FVec Ideal S200000x64 .f32) (a : FVec Ideal S64 .f32) (n : Fin 200000) :
    Host.dotGeneral dot_S200000x64_S64x1_S200000x1_1_0_0_1_n_n none x (broadcastInDim S64x1 ![0] bcast_S64_S64x1_0 a) (ix2 n (0 : Fin 1))
      = ∑ k : Fin 64, x (ix2 n k) * a (ix1 k) := by
  have hD : dot_S200000x64_S64x1_S200000x1_1_0_0_1_n_n
      = (⟨[1], [0], [0], [1], [], [], dot_S200000x64_S64x1_S200000x1_1_0_0_1_n_n_wf⟩ : DotDims S200000x64 S64x1 S200000x1) := rfl
  rw [hD, Cert.HostProduct.dotGeneral_nn_apply]
  refine Finset.sum_congr rfl fun k _ => ?_
  rw [Cert.HostBroadcast.col_one_apply]

/-- The host's product of a node table with a vector placed as a column: the rows' scores against the vector. -/
theorem score_host (x : FVec Ideal S200000x64 .f32) (a : FVec Ideal S64 .f32) :
    Host.dotGeneral dot_S200000x64_S64x1_S200000x1_1_0_0_1_n_n none x (broadcastInDim S64x1 ![0] bcast_S64_S64x1_0 a)
      = score x a := by
  funext i
  obtain ⟨n, q, rfl⟩ : ∃ (n : Fin 200000) (q : Fin 1), i = ix2 n q := ⟨i 0, i 1, eq_ix2 i⟩
  obtain rfl : q = 0 := Subsingleton.elim q 0
  exact score_host_apply x a n

/-- The reference's self-loop weights: `exp(leaky(x·a1 + x·a2))`. -/
theorem selfWeight_host (x : FVec Ideal S200000x64 .f32) (a1 a2 : FVec Ideal S64 .f32) :
    Host.exp (select
        (cmpf .ogt
          (addf (Host.dotGeneral dot_S200000x64_S64x1_S200000x1_1_0_0_1_n_n none x (broadcastInDim S64x1 ![0] bcast_S64_S64x1_0 a1))
            (Host.dotGeneral dot_S200000x64_S64x1_S200000x1_1_0_0_1_n_n none x (broadcastInDim S64x1 ![0] bcast_S64_S64x1_0 a2)))
          (broadcastInDim S200000x1 ![] bcast_S_S200000x1 (constant (F := Ideal) S_ .f32 0x00000000#32)))
        (addf (Host.dotGeneral dot_S200000x64_S64x1_S200000x1_1_0_0_1_n_n none x (broadcastInDim S64x1 ![0] bcast_S64_S64x1_0 a1))
          (Host.dotGeneral dot_S200000x64_S64x1_S200000x1_1_0_0_1_n_n none x (broadcastInDim S64x1 ![0] bcast_S64_S64x1_0 a2)))
        (mulf (broadcastInDim S200000x1 ![] bcast_S_S200000x1 (constant (F := Ideal) S_ .f32 0x3E4CCCCD#32))
          (addf (Host.dotGeneral dot_S200000x64_S64x1_S200000x1_1_0_0_1_n_n none x (broadcastInDim S64x1 ![0] bcast_S64_S64x1_0 a1))
            (Host.dotGeneral dot_S200000x64_S64x1_S200000x1_1_0_0_1_n_n none x (broadcastInDim S64x1 ![0] bcast_S64_S64x1_0 a2)))))
      = selfWeight x a1 a2 := by
  rw [expLeaky_host, score_host, score_host]
  rfl

/-- The reference's edge weights: `exp(leaky(s + t))` of the gathered source and target scores. -/
theorem edgeW_host (s t : FVec Ideal S2000000x1 .f32) :
    Host.exp (select
        (cmpf .ogt (addf s t) (broadcastInDim S2000000x1 ![] bcast_S_S2000000x1 (constant (F := Ideal) S_ .f32 0x00000000#32)))
        (addf s t)
        (mulf (broadcastInDim S2000000x1 ![] bcast_S_S2000000x1 (constant (F := Ideal) S_ .f32 0x3E4CCCCD#32)) (addf s t)))
      = edgeW s t := by
  rw [expLeaky_host]
  rfl

/-- A column of edge weights repeated along the features and multiplied into the gathered rows, entry by entry. -/
theorem weightRows_host (w : FVec Ideal S2000000x1 .f32) (h : FVec Ideal S2000000x64 .f32) :
    mulf (broadcastInDim S2000000x64 ![0, 1] bcast_S2000000x1_S2000000x64_0_1 w) h
      = fun i => w (ix2 (i 0 : Fin 2000000) (0 : Fin 1)) * h i := by
  funext i
  obtain ⟨e, q, rfl⟩ : ∃ (e : Fin 2000000) (q : Fin 64), i = ix2 e q := ⟨i 0, i 1, eq_ix2 i⟩
  rw [mulf_apply, Cert.HostBroadcast.col_spread_apply]

/-- The reference's edge messages: the edge weight times the gathered target feature row. -/
theorem edgeWH_host (s t : FVec Ideal S2000000x1 .f32) (h : FVec Ideal S2000000x64 .f32) :
    mulf (broadcastInDim S2000000x64 ![0, 1] bcast_S2000000x1_S2000000x64_0_1 (edgeW s t)) h
      = edgeWH s t h :=
  weightRows_host (edgeW s t) h

/-- The reference's edge messages from the gathered scores and rows, the weight's operations spelt out. -/
theorem edgeWH_host_full (s t : FVec Ideal S2000000x1 .f32) (h : FVec Ideal S2000000x64 .f32) :
    mulf (broadcastInDim S2000000x64 ![0, 1] bcast_S2000000x1_S2000000x64_0_1
        (Host.exp (select
          (cmpf .ogt (addf s t) (broadcastInDim S2000000x1 ![] bcast_S_S2000000x1 (constant (F := Ideal) S_ .f32 0x00000000#32)))
          (addf s t)
          (mulf (broadcastInDim S2000000x1 ![] bcast_S_S2000000x1 (constant (F := Ideal) S_ .f32 0x3E4CCCCD#32)) (addf s t)))))
        h
      = edgeWH s t h := by
  rw [edgeW_host]
  exact edgeWH_host s t h

/-! ## The same, as equations between functions of the operands -/

/-- The reference's score stage is `score`. -/
theorem score_ref :
    ((fun (x : FVec Ideal S200000x64 .f32) (a : FVec Ideal S64 .f32) => (Host.dotGeneral dot_S200000x64_S64x1_S200000x1_1_0_0_1_n_n none x (broadcastInDim S64x1 ![0] bcast_S64_S64x1_0 a))) : N64 → B64 → N1) = score :=
  funext fun x => funext fun a => score_host x a

/-- The reference's self-loop-weight stage is `selfWeight`. -/
theorem selfWeight_ref :
    ((fun (x : FVec Ideal S200000x64 .f32) (a1 a2 : FVec Ideal S64 .f32) =>
      Host.exp (select
        (cmpf .ogt (addf (Host.dotGeneral dot_S200000x64_S64x1_S200000x1_1_0_0_1_n_n none x (broadcastInDim S64x1 ![0] bcast_S64_S64x1_0 a1)) (Host.dotGeneral dot_S200000x64_S64x1_S200000x1_1_0_0_1_n_n none x (broadcastInDim S64x1 ![0] bcast_S64_S64x1_0 a2)))
          (broadcastInDim S200000x1 ![] bcast_S_S200000x1 (constant (F := Ideal) S_ .f32 0x00000000#32)))
        (addf (Host.dotGeneral dot_S200000x64_S64x1_S200000x1_1_0_0_1_n_n none x (broadcastInDim S64x1 ![0] bcast_S64_S64x1_0 a1)) (Host.dotGeneral dot_S200000x64_S64x1_S200000x1_1_0_0_1_n_n none x (broadcastInDim S64x1 ![0] bcast_S64_S64x1_0 a2)))
        (mulf (broadcastInDim S200000x1 ![] bcast_S_S200000x1 (constant (F := Ideal) S_ .f32 0x3E4CCCCD#32))
          (addf (Host.dotGeneral dot_S200000x64_S64x1_S200000x1_1_0_0_1_n_n none x (broadcastInDim S64x1 ![0] bcast_S64_S64x1_0 a1)) (Host.dotGeneral dot_S200000x64_S64x1_S200000x1_1_0_0_1_n_n none x (broadcastInDim S64x1 ![0] bcast_S64_S64x1_0 a2)))))) : N64 → B64 → B64 → N1)
      = selfWeight :=
  funext fun x => funext fun a1 => funext fun a2 => selfWeight_host x a1 a2

/-- The reference's edge-weight stage is `edgeW`. -/
theorem edgeW_ref :
    ((fun (s t : FVec Ideal S2000000x1 .f32) =>
      Host.exp (select
        (cmpf .ogt (addf s t) (broadcastInDim S2000000x1 ![] bcast_S_S2000000x1 (constant (F := Ideal) S_ .f32 0x00000000#32)))
        (addf s t)
        (mulf (broadcastInDim S2000000x1 ![] bcast_S_S2000000x1 (constant (F := Ideal) S_ .f32 0x3E4CCCCD#32)) (addf s t)))) : E1 → E1 → E1)
      = edgeW :=
  funext fun s => funext fun t => edgeW_host s t

/-- The reference's edge-message stage — the edge weights, repeated along the features, times the gathered rows — is `edgeWH`. -/
theorem edgeWH_ref :
    ((fun (s t : FVec Ideal S2000000x1 .f32) (h : FVec Ideal S2000000x64 .f32) =>
      mulf (broadcastInDim S2000000x64 ![0, 1] bcast_S2000000x1_S2000000x64_0_1
        (Host.exp (select
          (cmpf .ogt (addf s t) (broadcastInDim S2000000x1 ![] bcast_S_S2000000x1 (constant (F := Ideal) S_ .f32 0x00000000#32)))
          (addf s t)
          (mulf (broadcastInDim S2000000x1 ![] bcast_S_S2000000x1 (constant (F := Ideal) S_ .f32 0x3E4CCCCD#32)) (addf s t)))))
        h) : E1 → E1 → E64 → E64)
      = edgeWH :=
  funext fun s => funext fun t => funext fun h => edgeWH_host_full s t h

end Cert.ScoreEdgeRef

end
-- ==== Proof.StageEq.lean ====
/-
  The kernel's stages and the reference's stages are the same functions.

  Field by field: each dense layer, each score, each edge weight and the normalisation is, on the kernel's side,
  an index-by-index function that the kernel's regions were shown to compute, and the reference's own
  operations for the stage were shown to be that same function. The cuts of parameter rows and of index rows,
  and the segment sums, are the same operations in both programs. The two gathers agree at an index vector all
  of whose entries name a row: there the kernel's fill is never used and the reference's clamp never binds.
-/
import proofs.«154843_j76682346102829_2_alg».proof.Proof.KernelStages
import proofs.«154843_j76682346102829_2_alg».proof.Proof.RefStages
import proofs.«154843_j76682346102829_2_alg».proof.Proof.DenseRef
import proofs.«154843_j76682346102829_2_alg».proof.Proof.ScoreEdgeRef
import proofs.«154843_j76682346102829_2_alg».proof.Proof.NormSpec
import proofs.«154843_j76682346102829_2_alg».proof.Proof.Gathers

noncomputable section

namespace Cert.StageEq

open Idealize.ShloMosaic
open Cert.KernelIdeal.Values (KS)
open Cert.ReferenceIdeal.RefRun (RS)

theorem relu128 : KS.relu128 = RS.relu128 := Cert.DenseRef.ref_relu128.symm
theorem relu64 : KS.relu64 = RS.relu64 := Cert.DenseRef.ref_relu64.symm
theorem dense : KS.dense = RS.dense := Cert.DenseRef.ref_dense.symm
theorem denseOut : KS.denseOut = RS.denseOut := Cert.DenseRef.ref_denseOut.symm
theorem wRow0 : KS.wRow0 = RS.wRow0 := rfl
theorem wRow1 : KS.wRow1 = RS.wRow1 := rfl
theorem bRow0 : KS.bRow0 = RS.bRow0 := rfl
theorem bRow1 : KS.bRow1 = RS.bRow1 := rfl
theorem iRow0 : KS.iRow0 = RS.iRow0 := rfl
theorem iRow1 : KS.iRow1 = RS.iRow1 := rfl
theorem score : KS.score = RS.score := Cert.ScoreEdgeRef.score_ref.symm
theorem selfWeight : KS.selfWeight = RS.selfWeight := Cert.ScoreEdgeRef.selfWeight_ref.symm
theorem edgeW : KS.edgeW = RS.edgeW := Cert.ScoreEdgeRef.edgeW_ref.symm
theorem edgeWH : KS.edgeWH = RS.edgeWH := Cert.ScoreEdgeRef.edgeWH_ref.symm
theorem segCol : KS.segCol = RS.segCol := rfl
theorem segRow : KS.segRow = RS.segRow := rfl
theorem norm : KS.norm = RS.norm := Cert.NormSpec.refNorm_eq.symm
/-- The reference's two gathers are the second program's gathers of the comparison, as functions. -/
theorem RS_gCol : RS.gCol = Cert.Gathers.refCol := rfl
theorem RS_gRow : RS.gRow = Cert.Gathers.refRow := rfl
theorem gCol (t : Cert.Net.N1) (i : Cert.Net.I1) (h : Cert.Gathers.InRange i) : KS.gCol t i = RS.gCol t i := by
  rw [Cert.KernelIdeal.Values.KS_gCol, RS_gCol]; exact Cert.Gathers.kernelCol_eq_refCol t i h
theorem gRow (t : Cert.Net.N64) (i : Cert.Net.I1) (h : Cert.Gathers.InRange i) : KS.gRow t i = RS.gRow t i := by
  rw [Cert.KernelIdeal.Values.KS_gRow, RS_gRow]; exact Cert.Gathers.kernelRow_eq_refRow t i h

end Cert.StageEq

end
-- ==== Proof.IndexDomain.lean ====
/-
  The precondition's index ranges.

  The precondition is one conjunction of "every entry of this array satisfies ..." statements: an `and` over all
  entries of an array of one-bit answers, joined by `and`.  Its last four conjuncts say of the two edge-index arrays
  (two rows of 2000000 signed 32-bit words each: sources and targets of the edges of one edge type) that every word is
  at least 0 and below 200000, the number of nodes.  Here that is read back: if the whole conjunction is true then every
  entry of both arrays, read as a signed integer, lies in [0, 200000).

  An `and` of two bits is 1 exactly when both are; an `and` over all entries that came out 1 met a 1 at every entry;
  a signed comparison of two words that answered 1 is the comparison of their signed integers; a scalar repeated over a
  shape has its one value everywhere.  Each of the two rows of such an array, cut out and laid out as a vector of
  2000000 words, inherits the range.
-/
import proofs.«154843_j76682346102829_2_alg».proof.Pre_finite_inputs
import proofs.«154843_j76682346102829_2_alg».proof.Proof.LibHostBroadcast
import Idealize.ShloMosaic.Lib.ReduceAll
import Idealize.ShloMosaic.PureOps.Ideal

noncomputable section

namespace Cert.IndexDomain

open Idealize.ShloMosaic Idealize.ShloMosaic.ValueIdx Cert.Pre_finite_inputs

/-- A shape with no axes has one index. -/
instance : Subsingleton S_.Idx := ⟨fun a b => funext fun d => d.elim0⟩

/-- The `and` of two vectors of bits at an index is the `and` of the entries. -/
theorem andi_apply {s : Shape} {w : Nat} (x y : IVec s w) (i : s.Idx) :
    Idealize.ShloMosaic.andi x y i = IntOp.andi (x i) (y i) := rfl

/-- "Every entry of `x` compares as `p` with the scalar `k`", when true, says so of each entry. -/
theorem all_cmp [Facts] (p : CmpIPredicate) (x : IVec S2x2000000 32) (k : BitVec 32) (j : S_.Idx)
    (h : Host.reduce IntOp.andi
          (cmpi p x (broadcastInDim S2x2000000 ![] Facts.bcast_S_S2x2000000 (constantI S_ 32 k)))
          (constantI S_ 1 1#1) Facts.reducesTo_S2x2000000_S_d0_1 Facts.h_S_ j = 1#1)
    (i : S2x2000000.Idx) : IntOp.cmpi p (x i) k = 1#1 := by
  have e : IntOp.cmpi p (x i) (broadcastInDim S2x2000000 ![] Facts.bcast_S_S2x2000000 (constantI S_ 32 k) i) = 1#1 :=
    Host.reduce_andi_all _ _ _ _ j h i
  rw [Cert.HostBroadcast.scalar_apply] at e
  exact e

/-- The last stretch of the conjunction holds the four range statements: when it is true, every entry of both
    index arrays is in [0, 200000). -/
theorem part4_ranges [Facts] {F : FTy → Type} [FloatOps F] (a2 a3 : IVec S2x2000000 32) (v63 v67 : IVec S_ 1)
    (j : S_.Idx) (h : fn_part4 (F := F) a2 a3 v63 v67 j = 1#1) :
    (∀ i : S2x2000000.Idx, 0 ≤ (a2 i).toInt ∧ (a2 i).toInt < 200000)
      ∧ (∀ i : S2x2000000.Idx, 0 ≤ (a3 i).toInt ∧ (a3 i).toInt < 200000) := by
  dsimp only [fn_part4, fn_part5] at h
  simp only [andi_apply, IntOp.andi_eq_one] at h
  obtain ⟨⟨⟨⟨-, h71⟩, h75⟩, h79⟩, h83⟩ := h
  have z : (0#32 : BitVec 32).toInt = 0 := by decide
  have k : (200000#32 : BitVec 32).toInt = 200000 := by decide
  refine ⟨fun i => ⟨?_, ?_⟩, fun i => ⟨?_, ?_⟩⟩
  · have c := IntOp.cmpi_sge.mp (all_cmp .sge a2 0#32 j h71 i)
    rw [z] at c; exact c
  · have c := IntOp.cmpi_slt.mp (all_cmp .slt a2 200000#32 j h75 i)
    rw [k] at c; exact c
  · have c := IntOp.cmpi_sge.mp (all_cmp .sge a3 0#32 j h79 i)
    rw [z] at c; exact c
  · have c := IntOp.cmpi_slt.mp (all_cmp .slt a3 200000#32 j h83 i)
    rw [k] at c; exact c

/-- THE INDEX RANGES: under the precondition every entry of both edge-index arrays, read signed, is in [0, 200000). -/
theorem ranges_of_pre [Facts] (a0 : FVec Ideal S200000x128 .f32) (a1 : FVec Ideal S200000x64 .f32) (a2 : IVec S2x2000000 32) (a3 : IVec S2x2000000 32) (a4 : FVec Ideal S128x64 .f32) (a5 : FVec Ideal S64 .f32) (a6 : FVec Ideal S64x64 .f32) (a7 : FVec Ideal S64 .f32) (a8 : FVec Ideal S2x64x64 .f32) (a9 : FVec Ideal S2x64 .f32) (a10 : FVec Ideal S2x64 .f32) (a11 : FVec Ideal S2x64 .f32) (a12 : FVec Ideal S2x64 .f32) (a13 : FVec Ideal S2x64 .f32) (a14 : FVec Ideal S64x32 .f32) (a15 : FVec Ideal S32 .f32)
    (h : Cert.Pre_finite_inputs.fn (F := Ideal) a0 a1 a2 a3 a4 a5 a6 a7 a8 a9 a10 a11 a12 a13 a14 a15 = (fun _ => 1#1)) :
    (∀ i : S2x2000000.Idx, 0 ≤ (a2 i).toInt ∧ (a2 i).toInt < 200000)
      ∧ (∀ i : S2x2000000.Idx, 0 ≤ (a3 i).toInt ∧ (a3 i).toInt < 200000) := by
  have e := congrFun h ix0
  dsimp only [fn, fn_part1, fn_part2, fn_part3] at e
  exact part4_ranges (F := Ideal) a2 a3 _ _ ix0 e

/-- The first index array's entries are in range. -/
theorem arg2_range [Facts] (a0 : FVec Ideal S200000x128 .f32) (a1 : FVec Ideal S200000x64 .f32) (a2 : IVec S2x2000000 32) (a3 : IVec S2x2000000 32) (a4 : FVec Ideal S128x64 .f32) (a5 : FVec Ideal S64 .f32) (a6 : FVec Ideal S64x64 .f32) (a7 : FVec Ideal S64 .f32) (a8 : FVec Ideal S2x64x64 .f32) (a9 : FVec Ideal S2x64 .f32) (a10 : FVec Ideal S2x64 .f32) (a11 : FVec Ideal S2x64 .f32) (a12 : FVec Ideal S2x64 .f32) (a13 : FVec Ideal S2x64 .f32) (a14 : FVec Ideal S64x32 .f32) (a15 : FVec Ideal S32 .f32)
    (h : Cert.Pre_finite_inputs.fn (F := Ideal) a0 a1 a2 a3 a4 a5 a6 a7 a8 a9 a10 a11 a12 a13 a14 a15 = (fun _ => 1#1)) (i : S2x2000000.Idx) :
    0 ≤ (a2 i).toInt ∧ (a2 i).toInt < 200000 :=
  (ranges_of_pre a0 a1 a2 a3 a4 a5 a6 a7 a8 a9 a10 a11 a12 a13 a14 a15 h).1 i

/-- The second index array's entries are in range. -/
theorem arg3_range [Facts] (a0 : FVec Ideal S200000x128 .f32) (a1 : FVec Ideal S200000x64 .f32) (a2 : IVec S2x2000000 32) (a3 : IVec S2x2000000 32) (a4 : FVec Ideal S128x64 .f32) (a5 : FVec Ideal S64 .f32) (a6 : FVec Ideal S64x64 .f32) (a7 : FVec Ideal S64 .f32) (a8 : FVec Ideal S2x64x64 .f32) (a9 : FVec Ideal S2x64 .f32) (a10 : FVec Ideal S2x64 .f32) (a11 : FVec Ideal S2x64 .f32) (a12 : FVec Ideal S2x64 .f32) (a13 : FVec Ideal S2x64 .f32) (a14 : FVec Ideal S64x32 .f32) (a15 : FVec Ideal S32 .f32)
    (h : Cert.Pre_finite_inputs.fn (F := Ideal) a0 a1 a2 a3 a4 a5 a6 a7 a8 a9 a10 a11 a12 a13 a14 a15 = (fun _ => 1#1)) (i : S2x2000000.Idx) :
    0 ≤ (a3 i).toInt ∧ (a3 i).toInt < 200000 :=
  (ranges_of_pre a0 a1 a2 a3 a4 a5 a6 a7 a8 a9 a10 a11 a12 a13 a14 a15 h).2 i

/-! ## The rows of an index array as vectors -/

/-- Row `r` of a two-row array, cut out and laid out as a vector: entry `e` is the array's entry `(r, e)`. -/
theorem row_vec_apply {α : Type} {n : Nat} (r : Fin 2) (off : Fin 2 → Nat) (hoff0 : off 0 = r.val) (hoff1 : off 1 = 0)
    (a : (⟨2, ![2, n]⟩ : Shape).Idx → α) (hs : (⟨2, ![2, n]⟩ : Shape).Slices off ⟨2, ![1, n]⟩)
    (hc : (⟨2, ![1, n]⟩ : Shape).ShapeCasts ⟨1, ![n]⟩) (e : Fin n) :
    shapeCast ⟨1, ![n]⟩ (extractStridedSlice ⟨2, ![1, n]⟩ off a hs) hc (ix1 e) = a (ix2 r e) := by
  rw [shapeCast_apply _ hc (ix1 e) (ix2 (0 : Fin 1) e) (by
    rw [Shape.rowMajor_val_two, Shape.rowMajor_val_one]
    show 0 * n + e.val = e.val
    omega)]
  exact extractStridedSlice_apply off a hs (ix2 (0 : Fin 1) e) (ix2 r e) (fun ax => by
    match ax with
    | ⟨0, _⟩ => show r.val = off 0 + 0; omega
    | ⟨1, _⟩ => show e.val = off 1 + e.val; omega)

/-- If every entry of the two-row index array is in [0, 200000), so is every entry of each row taken as a vector. -/
theorem row_vec_range {n : Nat} (r : Fin 2) (off : Fin 2 → Nat) (hoff0 : off 0 = r.val) (hoff1 : off 1 = 0)
    (a : IVec ⟨2, ![2, n]⟩ 32) (hs : (⟨2, ![2, n]⟩ : Shape).Slices off ⟨2, ![1, n]⟩)
    (hc : (⟨2, ![1, n]⟩ : Shape).ShapeCasts ⟨1, ![n]⟩)
    (h : ∀ i : (⟨2, ![2, n]⟩ : Shape).Idx, 0 ≤ (a i).toInt ∧ (a i).toInt < 200000) (e : Fin n) :
    0 ≤ (shapeCast ⟨1, ![n]⟩ (extractStridedSlice ⟨2, ![1, n]⟩ off a hs) hc (ix1 e)).toInt
      ∧ (shapeCast ⟨1, ![n]⟩ (extractStridedSlice ⟨2, ![1, n]⟩ off a hs) hc (ix1 e)).toInt < 200000 := by
  rw [row_vec_apply r off hoff0 hoff1 a hs hc e]
  exact h (ix2 r e)

end Cert.IndexDomain

end
-- ==== Proof.lean ====
/-
  The certificate: a two-hop graph-attention network over two node sets, computed by nineteen device regions with
  host gathers and segment sums between them, against its plain reference.

  Over the extended reals both programs compute ONE network (Proof/Net.lean): every stage is the same function on
  both sides and only the arrangement differs — row blocks against whole arrays, a tile product against the
  host's matrix product, a lane sum against a product with a one-column matrix, `exp y − 1` against the
  `expm1` spelling of the ELU. No finiteness of the inputs is used. What is used of the precondition is that
  every edge index names a row: the kernel's gather fills an out-of-range entry where the reference's clamps it,
  and for in-range indices neither happens.

  The kernel's run ends with its result array at the last segment boundary's contents (Proof/KernelRun.lean), which
  is the network's output under the kernel's stages (Proof/KernelValues.lean); the reference's run ends with its
  result at the fold of its operations (Proof/RefRun.lean), which is the network's output under the reference's
  stages (Proof/RefValues.lean); the two stage records agree (Proof/StageEq.lean), so the outputs agree
  (Proof/NetCongr.lean). The three frames are the generated frame of each kernel program and the reference's run
  with its result dropped; the idealization rewrote nothing, so there is nothing to preserve.
-/
import proofs.«154843_j76682346102829_2_alg».proof.Defs
import proofs.«154843_j76682346102829_2_alg».proof.Proof.Gen.Kernel
import proofs.«154843_j76682346102829_2_alg».proof.Proof.Gen.Kernel.Skeleton
import proofs.«154843_j76682346102829_2_alg».proof.Proof.Gen.Kernel.Launch
import proofs.«154843_j76682346102829_2_alg».proof.Proof.Gen.Kernel.Points
import proofs.«154843_j76682346102829_2_alg».proof.Proof.Gen.Kernel.Frame
import proofs.«154843_j76682346102829_2_alg».proof.Proof.Gen.KernelIdeal
import proofs.«154843_j76682346102829_2_alg».proof.Proof.Gen.KernelIdeal.Skeleton
import proofs.«154843_j76682346102829_2_alg».proof.Proof.Gen.KernelIdeal.Launch
import proofs.«154843_j76682346102829_2_alg».proof.Proof.Gen.KernelIdeal.Points
import proofs.«154843_j76682346102829_2_alg».proof.Proof.Gen.KernelIdeal.Frame
import proofs.«154843_j76682346102829_2_alg».proof.Proof.Gen.ReferenceIdeal
import proofs.«154843_j76682346102829_2_alg».proof.Proof.Gen.Pre_finite_inputs
import proofs.«154843_j76682346102829_2_alg».proof.Proof.KernelRun
import proofs.«154843_j76682346102829_2_alg».proof.Proof.KernelValues
import proofs.«154843_j76682346102829_2_alg».proof.Proof.RefRun
import proofs.«154843_j76682346102829_2_alg».proof.Proof.RefValues
import proofs.«154843_j76682346102829_2_alg».proof.Proof.NetCongr
import proofs.«154843_j76682346102829_2_alg».proof.Proof.StageEq
import proofs.«154843_j76682346102829_2_alg».proof.Proof.IndexDomain
import proofs.«154843_j76682346102829_2_alg».proof.Proof.Gathers
import Idealize.ShloMosaic.Adequacy
import Idealize.ShloMosaic.Init

noncomputable section

namespace Cert.Proof

open Idealize.ShloMosaic Idealize.SL.Sem
open Cert.KernelIdeal.Values (KS kargs)
open Cert.ReferenceIdeal.RefRun (RS)

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_reference : Cert.frame_ReferenceIdeal := fun m ρ _ => Cert.ReferenceIdeal.RefRun.frame (F := Ideal) m ρ

/-- The idealization rewrote no operation. -/
theorem preserves : Cert.preserves_Kernel_KernelIdeal := trivial

/-- Under the precondition the four index vectors — the source and target rows of both edge-index arrays — have
    all their entries in `[0, 200000)`. -/
theorem rows_in_range (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Gathers.InRange (Cert.Net.sP RS (kargs m c)) ∧ Cert.Gathers.InRange (Cert.Net.tP RS (kargs m c))
      ∧ Cert.Gathers.InRange (Cert.Net.sA RS (kargs m c)) ∧ Cert.Gathers.InRange (Cert.Net.tA RS (kargs m c)) := by
  obtain ⟨h2, h3⟩ := Cert.IndexDomain.ranges_of_pre _ _ _ _ _ _ _ _ _ _ _ _ _ _ _ _ (hpre c)
  exact ⟨fun e => Cert.IndexDomain.row_vec_range 0 ![0, 0] rfl rfl _
           Cert.ReferenceIdeal.Facts₀.slices_S2x2000000_S1x2000000_0_0 Cert.ReferenceIdeal.Facts₀.shapeCasts_S1x2000000_S2000000 h2 e,
         fun e => Cert.IndexDomain.row_vec_range 1 ![1, 0] rfl rfl _
           Cert.ReferenceIdeal.Facts₀.slices_S2x2000000_S1x2000000_1_0 Cert.ReferenceIdeal.Facts₀.shapeCasts_S1x2000000_S2000000 h2 e,
         fun e => Cert.IndexDomain.row_vec_range 0 ![0, 0] rfl rfl _
           Cert.ReferenceIdeal.Facts₀.slices_S2x2000000_S1x2000000_0_0 Cert.ReferenceIdeal.Facts₀.shapeCasts_S1x2000000_S2000000 h3 e,
         fun e => Cert.IndexDomain.row_vec_range 1 ![1, 0] rfl rfl _
           Cert.ReferenceIdeal.Facts₀.slices_S2x2000000_S1x2000000_1_0 Cert.ReferenceIdeal.Facts₀.shapeCasts_S1x2000000_S2000000 h3 e⟩

/-- From memories that agree on the arguments both programs end with the network's output: the kernel's under
    its own stages, the reference's under its own, and the two stage records agree where the indices name rows. -/
theorem algebraic : Cert.algebraic_KernelIdeal_ReferenceIdeal := by
  intro m ρ m' ρ' hpre hagree
  refine ⟨fun c => Cert.KernelIdeal.Gen.W44 m ρ c (Proc.devRef .tc Cert.KernelIdeal.main_v102),
    Cert.KernelIdeal.RunValue.run_result m ρ, ?_⟩
  refine (θ_run Cert.ReferenceIdeal.defs _ _).mono (fun r h c => ⟨(h c).1.trans ?_, (h c).2⟩)
    (Cert.ReferenceIdeal.RefRun.run (F := Ideal) m' ρ')
  have hA : Cert.ReferenceIdeal.RefRun.args m' c = kargs m c := by
    obtain ⟨h0, h1, h2, h3, h4, h5, h6, h7, h8, h9, h10, h11, h12, h13, h14, h15⟩ := hagree c
    unfold Cert.ReferenceIdeal.RefRun.args Cert.ReferenceIdeal.RefRun.argsOf Cert.KernelIdeal.Values.kargs
    congr 1
  obtain ⟨r_sP, r_tP, r_sA, r_tA⟩ := rows_in_range m hpre c
  refine (Cert.ReferenceIdeal.RefRun.out_eq m' c).trans ?_
  rw [hA]
  refine Eq.trans ?_ (Cert.KernelIdeal.Values.k_out m ρ c).symm
  exact (Cert.Net.out_congr KS RS (kargs m c) Cert.Gathers.InRange
    Cert.StageEq.relu128 Cert.StageEq.relu64 Cert.StageEq.dense Cert.StageEq.denseOut
    Cert.StageEq.wRow0 Cert.StageEq.wRow1 Cert.StageEq.bRow0 Cert.StageEq.bRow1 Cert.StageEq.iRow0 Cert.StageEq.iRow1
    Cert.StageEq.score Cert.StageEq.selfWeight Cert.StageEq.edgeW Cert.StageEq.edgeWH
    Cert.StageEq.segCol Cert.StageEq.segRow Cert.StageEq.norm
    Cert.StageEq.gCol Cert.StageEq.gRow r_sP r_tP r_sA r_tA).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
